-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v170)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v170) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S256x784 : Shape := ⟨2, ![256, 784]⟩
abbrev S256x256 : Shape := ⟨2, ![256, 256]⟩
abbrev S10x256 : Shape := ⟨2, ![10, 256]⟩
abbrev S256 : Shape := ⟨1, ![256]⟩
abbrev S10 : Shape := ⟨1, ![10]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S256x784 : S_.BroadcastsInDim S256x784 (![] : Fin 0 → Fin S256x784.rank)
  reducesTo_S256x784_S_d0_1 : S256x784.ReducesTo [0, 1] S_
  bcast_S_S256x256 : S_.BroadcastsInDim S256x256 (![] : Fin 0 → Fin S256x256.rank)
  reducesTo_S256x256_S_d0_1 : S256x256.ReducesTo [0, 1] S_
  bcast_S_S10x256 : S_.BroadcastsInDim S10x256 (![] : Fin 0 → Fin S10x256.rank)
  reducesTo_S10x256_S_d0_1 : S10x256.ReducesTo [0, 1] S_
  bcast_S_S256 : S_.BroadcastsInDim S256 (![] : Fin 0 → Fin S256.rank)
  reducesTo_S256_S_d0 : S256.ReducesTo [0] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S256 .f32) (main_arg15 : FVec F S10 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S10 .f32 := Host.absf main_arg15
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg11 : FVec F S256 .f32) (main_arg12 : FVec F S256 .f32) (main_arg13 : FVec F S256 .f32) (main_arg14 : FVec F S256 .f32) (main_arg15 : FVec F S10 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S256 .f32) (main_arg8 : FVec F S256 .f32) (main_arg9 : FVec F S256 .f32) (main_arg10 : FVec F S10 .f32) (main_arg11 : FVec F S256 .f32) (main_arg12 : FVec F S256 .f32) (main_arg13 : FVec F S256 .f32) (main_arg14 : FVec F S256 .f32) (main_arg15 : FVec F S10 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg13 main_arg14 main_arg15 main_v48 main_v49 main_v50

def fn_part1 {F : FTy → Type} [FloatOps F] (main_arg4 : FVec F S256x256 .f32) (main_arg5 : FVec F S10x256 .f32) (main_arg6 : FVec F S256 .f32) (main_arg7 : FVec F S256 .f32) (main_arg8 : FVec F S256 .f32) (main_arg9 : FVec F S256 .f32) (main_arg10 : FVec F S10 .f32) (main_arg11 : FVec F S256 .f32) (main_arg12 : FVec F S256 .f32) (main_arg13 : FVec F S256 .f32) (main_arg14 : FVec F S256 .f32) (main_arg15 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S10x256 .f32 := Host.absf main_arg5
  let main_cst_8 : FVec F S_ .f32 := constant S_ .f32 0x7F800000#32
  let main_v25 : FVec F S10x256 .f32 := broadcastInDim S10x256 ![] bcast_S_S10x256 main_cst_8
  let main_v26 : IVec S10x256 1 := cmpf .olt main_v24 main_v25
  let main_c_9 : IVec S_ 1 := constantI S_ 1 1#1
  let main_v27 : IVec S_ 1 := (fun x v => Host.reduce IntOp.andi x v reducesTo_S10x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32768x784 .f32) (main_arg1 : FVec F S256x784 .f32) (main_arg2 : FVec F S256x256 .f32) (main_arg3 : FVec F S256x256 .f32) (main_arg4 : FVec F S256x256 .f32) (main_arg5 : FVec F S10x256 .f32) (main_arg6 : FVec F S256 .f32) (main_arg7 : FVec F S256 .f32) (main_arg8 : FVec F S256 .f32) (main_arg9 : FVec F S256 .f32) (main_arg10 : FVec F S10 .f32) (main_arg11 : FVec F S256 .f32) (main_arg12 : FVec F S256 .f32) (main_arg13 : FVec F S256 .f32) (main_arg14 : FVec F S256 .f32) (main_arg15 : FVec F S10 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S256x784 .f32 := Host.absf main_arg1
  let main_cst_0 : FVec F S_ .f32 := constant S_ .f32 0x7F800000#32
  let main_v5 : FVec F S256x784 .f32 := broadcastInDim S256x784 ![] bcast_S_S256x784 main_cst_0
  let main_v6 : IVec S256x784 1 := cmpf .olt main_v4 main_v5
  let main_c_1 : IVec S_ 1 := constantI S_ 1 1#1
  let main_v7 : IVec S_ 1 := (fun x v => Host.reduce IntOp.andi x v reducesTo_S256x784_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32768x784 : Shape := ⟨2, ![32768, 784]⟩
abbrev S256x784 : Shape := ⟨2, ![256, 784]⟩
abbrev S256x256 : Shape := ⟨2, ![256, 256]⟩
abbrev S10x256 : Shape := ⟨2, ![10, 256]⟩
abbrev S256 : Shape := ⟨1, ![256]⟩
abbrev S10 : Shape := ⟨1, ![10]⟩
abbrev S_ : Shape := ⟨0, ![]⟩
abbrev S32768x256 : Shape := ⟨2, ![32768, 256]⟩
abbrev S16x256 : Shape := ⟨2, ![16, 256]⟩
abbrev S2048x784 : Shape := ⟨2, ![2048, 784]⟩
abbrev S2048x256 : Shape := ⟨2, ![2048, 256]⟩
abbrev S8x256 : Shape := ⟨2, ![8, 256]⟩
abbrev S1x256 : Shape := ⟨2, ![1, 256]⟩
abbrev S4096x256 : Shape := ⟨2, ![4096, 256]⟩
abbrev S32768x10 : Shape := ⟨2, ![32768, 10]⟩
abbrev S16x10 : Shape := ⟨2, ![16, 10]⟩
abbrev S4096x10 : Shape := ⟨2, ![4096, 10]⟩
abbrev S8x10 : Shape := ⟨2, ![8, 10]⟩
abbrev S1x10 : Shape := ⟨2, ![1, 10]⟩
abbrev S4096 : Shape := ⟨1, ![4096]⟩
abbrev S4096x1 : Shape := ⟨2, ![4096, 1]⟩

abbrev nBuf : Space → Nat
  | .hbm => 247
  | .vmem => 69
  | .smem => 0
  | _ => 0

abbrev hbmTy0_0 (i : Nat) : BufTy := match i % 128 with
  | 0 => ⟨S32768x784, .f32⟩
  | 1 => ⟨S256x784, .f32⟩
  | 2 => ⟨S256x256, .f32⟩
  | 3 => ⟨S256x256, .f32⟩
  | 4 => ⟨S256x256, .f32⟩
  | 5 => ⟨S10x256, .f32⟩
  | 6 => ⟨S256, .f32⟩
  | 7 => ⟨S256, .f32⟩
  | 8 => ⟨S256, .f32⟩
  | 9 => ⟨S256, .f32⟩
  | 10 => ⟨S10, .f32⟩
  | 11 => ⟨S256, .f32⟩
  | 12 => ⟨S256, .f32⟩
  | 13 => ⟨S256, .f32⟩
  | 14 => ⟨S256, .f32⟩
  | 15 => ⟨S10, .f32⟩
  | 16 => ⟨S_, .f32⟩
  | 17 => ⟨S256x784, .f32⟩
  | 18 => ⟨S256x784, .i1⟩
  | 19 => ⟨S_, .f32⟩
  | 20 => ⟨S_, .f32⟩
  | 21 => ⟨S256x784, .f32⟩
  | 22 => ⟨S256x784, .f32⟩
  | 23 => ⟨S256x784, .f32⟩
  | 24 => ⟨S256x784, .bf16⟩
  | 25 => ⟨S_, .f32⟩
  | 26 => ⟨S256x256, .f32⟩
  | 27 => ⟨S256x256, .i1⟩
  | 28 => ⟨S_, .f32⟩
  | 29 => ⟨S_, .f32⟩
  | 30 => ⟨S256x256, .f32⟩
  | 31 => ⟨S256x256, .f32⟩
  | 32 => ⟨S256x256, .f32⟩
  | 33 => ⟨S256x256, .bf16⟩
  | 34 => ⟨S_, .f32⟩
  | 35 => ⟨S256x256, .f32⟩
  | 36 => ⟨S256x256, .i1⟩
  | 37 => ⟨S_, .f32⟩
  | 38 => ⟨S_, .f32⟩
  | 39 => ⟨S256x256, .f32⟩
  | 40 => ⟨S256x256, .f32⟩
  | 41 => ⟨S256x256, .f32⟩
  | 42 => ⟨S256x256, .bf16⟩
  | 43 => ⟨S_, .f32⟩
  | 44 => ⟨S256x256, .f32⟩
  | 45 => ⟨S256x256, .i1⟩
  | 46 => ⟨S_, .f32⟩
  | 47 => ⟨S_, .f32⟩
  | 48 => ⟨S256x256, .f32⟩
  | 49 => ⟨S256x256, .f32⟩
  | 50 => ⟨S256x256, .f32⟩
  | 51 => ⟨S256x256, .bf16⟩
  | 52 => ⟨S_, .f32⟩
  | 53 => ⟨S10x256, .f32⟩
  | 54 => ⟨S10x256, .i1⟩
  | 55 => ⟨S_, .f32⟩
  | 56 => ⟨S_, .f32⟩
  | 57 => ⟨S10x256, .f32⟩
  | 58 => ⟨S10x256, .f32⟩
  | 59 => ⟨S10x256, .f32⟩
  | 60 => ⟨S10x256, .bf16⟩
  | 61 => ⟨S32768x256, .f32⟩
  | 62 => ⟨S16x256, .f32⟩
  | 63 => ⟨S16x256, .f32⟩
  | 64 => ⟨S1x256, .f32⟩
  | 65 => ⟨S256, .f32⟩
  | 66 => ⟨S_, .f32⟩
  | 67 => ⟨S256, .f32⟩
  | 68 => ⟨S256, .f32⟩
  | 69 => ⟨S1x256, .f32⟩
  | 70 => ⟨S256, .f32⟩
  | 71 => ⟨S256, .f32⟩
  | 72 => ⟨S1x256, .f32⟩
  | 73 => ⟨S256, .f32⟩
  | 74 => ⟨S_, .f32⟩
  | 75 => ⟨S256, .f32⟩
  | 76 => ⟨S256, .f32⟩
  | 77 => ⟨S1x256, .f32⟩
  | 78 => ⟨S256, .f32⟩
  | 79 => ⟨S256, .f32⟩
  | 80 => ⟨S_, .f32⟩
  | 81 => ⟨S256, .f32⟩
  | 82 => ⟨S256, .f32⟩
  | 83 => ⟨S_, .f32⟩
  | 84 => ⟨S256, .f32⟩
  | 85 => ⟨S256, .f32⟩
  | 86 => ⟨S256, .f32⟩
  | 87 => ⟨S256, .f32⟩
  | 88 => ⟨S_, .f32⟩
  | 89 => ⟨S256, .f32⟩
  | 90 => ⟨S256, .f32⟩
  | 91 => ⟨S256, .f32⟩
  | 92 => ⟨S256, .f32⟩
  | 93 => ⟨S1x256, .f32⟩
  | 94 => ⟨S256, .f32⟩
  | 95 => ⟨S256, .f32⟩
  | 96 => ⟨S256, .f32⟩
  | 97 => ⟨S1x256, .f32⟩
  | 98 => ⟨S32768x256, .f32⟩
  | 99 => ⟨S16x256, .f32⟩
  | 100 => ⟨S16x256, .f32⟩
  | 101 => ⟨S1x256, .f32⟩
  | 102 => ⟨S256, .f32⟩
  | 103 => ⟨S_, .f32⟩
  | 104 => ⟨S256, .f32⟩
  | 105 => ⟨S256, .f32⟩
  | 106 => ⟨S1x256, .f32⟩
  | 107 => ⟨S256, .f32⟩
  | 108 => ⟨S256, .f32⟩
  | 109 => ⟨S1x256, .f32⟩
  | 110 => ⟨S256, .f32⟩
  | 111 => ⟨S_, .f32⟩
  | 112 => ⟨S256, .f32⟩
  | 113 => ⟨S256, .f32⟩
  | 114 => ⟨S1x256, .f32⟩
  | 115 => ⟨S256, .f32⟩
  | 116 => ⟨S256, .f32⟩
  | 117 => ⟨S_, .f32⟩
  | 118 => ⟨S256, .f32⟩
  | 119 => ⟨S256, .f32⟩
  | 120 => ⟨S_, .f32⟩
  | 121 => ⟨S256, .f32⟩
  | 122 => ⟨S256, .f32⟩
  | 123 => ⟨S256, .f32⟩
  | 124 => ⟨S256, .f32⟩
  | 125 => ⟨S_, .f32⟩
  | 126 => ⟨S256, .f32⟩
  | 127 => ⟨S256, .f32⟩
  | _ => ⟨S32768x784, .f32⟩

abbrev hbmTy0_1 (i : Nat) : BufTy := match i % 128 with
  | 0 => ⟨S256, .f32⟩
  | 1 => ⟨S256, .f32⟩
  | 2 => ⟨S1x256, .f32⟩
  | 3 => ⟨S256, .f32⟩
  | 4 => ⟨S256, .f32⟩
  | 5 => ⟨S256, .f32⟩
  | 6 => ⟨S1x256, .f32⟩
  | 7 => ⟨S32768x256, .f32⟩
  | 8 => ⟨S16x256, .f32⟩
  | 9 => ⟨S16x256, .f32⟩
  | 10 => ⟨S1x256, .f32⟩
  | 11 => ⟨S256, .f32⟩
  | 12 => ⟨S_, .f32⟩
  | 13 => ⟨S256, .f32⟩
  | 14 => ⟨S256, .f32⟩
  | 15 => ⟨S1x256, .f32⟩
  | 16 => ⟨S256, .f32⟩
  | 17 => ⟨S256, .f32⟩
  | 18 => ⟨S1x256, .f32⟩
  | 19 => ⟨S256, .f32⟩
  | 20 => ⟨S_, .f32⟩
  | 21 => ⟨S256, .f32⟩
  | 22 => ⟨S256, .f32⟩
  | 23 => ⟨S1x256, .f32⟩
  | 24 => ⟨S256, .f32⟩
  | 25 => ⟨S256, .f32⟩
  | 26 => ⟨S_, .f32⟩
  | 27 => ⟨S256, .f32⟩
  | 28 => ⟨S256, .f32⟩
  | 29 => ⟨S_, .f32⟩
  | 30 => ⟨S256, .f32⟩
  | 31 => ⟨S256, .f32⟩
  | 32 => ⟨S256, .f32⟩
  | 33 => ⟨S256, .f32⟩
  | 34 => ⟨S_, .f32⟩
  | 35 => ⟨S256, .f32⟩
  | 36 => ⟨S256, .f32⟩
  | 37 => ⟨S256, .f32⟩
  | 38 => ⟨S256, .f32⟩
  | 39 => ⟨S1x256, .f32⟩
  | 40 => ⟨S256, .f32⟩
  | 41 => ⟨S256, .f32⟩
  | 42 => ⟨S256, .f32⟩
  | 43 => ⟨S1x256, .f32⟩
  | 44 => ⟨S32768x256, .f32⟩
  | 45 => ⟨S16x256, .f32⟩
  | 46 => ⟨S16x256, .f32⟩
  | 47 => ⟨S1x256, .f32⟩
  | 48 => ⟨S256, .f32⟩
  | 49 => ⟨S_, .f32⟩
  | 50 => ⟨S256, .f32⟩
  | 51 => ⟨S256, .f32⟩
  | 52 => ⟨S1x256, .f32⟩
  | 53 => ⟨S256, .f32⟩
  | 54 => ⟨S256, .f32⟩
  | 55 => ⟨S1x256, .f32⟩
  | 56 => ⟨S256, .f32⟩
  | 57 => ⟨S_, .f32⟩
  | 58 => ⟨S256, .f32⟩
  | 59 => ⟨S256, .f32⟩
  | 60 => ⟨S1x256, .f32⟩
  | 61 => ⟨S256, .f32⟩
  | 62 => ⟨S256, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S256, .f32⟩
  | 71 => ⟨S_, .f32⟩
  | 72 => ⟨S256, .f32⟩
  | 73 => ⟨S256, .f32⟩
  | 74 => ⟨S256, .f32⟩
  | 75 => ⟨S256, .f32⟩
  | 76 => ⟨S1x256, .f32⟩
  | 77 => ⟨S256, .f32⟩
  | 78 => ⟨S256, .f32⟩
  | 79 => ⟨S256, .f32⟩
  | 80 => ⟨S1x256, .f32⟩
  | 81 => ⟨S32768x10, .f32⟩
  | 82 => ⟨S16x10, .f32⟩
  | 83 => ⟨S16x10, .f32⟩
  | 84 => ⟨S1x10, .f32⟩
  | 85 => ⟨S10, .f32⟩
  | 86 => ⟨S_, .f32⟩
  | 87 => ⟨S10, .f32⟩
  | 88 => ⟨S10, .f32⟩
  | 89 => ⟨S1x10, .f32⟩
  | 90 => ⟨S10, .f32⟩
  | 91 => ⟨S10, .f32⟩
  | 92 => ⟨S1x10, .f32⟩
  | 93 => ⟨S10, .f32⟩
  | 94 => ⟨S_, .f32⟩
  | 95 => ⟨S10, .f32⟩
  | 96 => ⟨S10, .f32⟩
  | 97 => ⟨S1x10, .f32⟩
  | 98 => ⟨S10, .f32⟩
  | 99 => ⟨S10, .f32⟩
  | 100 => ⟨S_, .f32⟩
  | 101 => ⟨S10, .f32⟩
  | 102 => ⟨S10, .f32⟩
  | 103 => ⟨S_, .f32⟩
  | 104 => ⟨S10, .f32⟩
  | 105 => ⟨S10, .f32⟩
  | 106 => ⟨S10, .f32⟩
  | 107 => ⟨S10, .f32⟩
  | 108 => ⟨S_, .f32⟩
  | 109 => ⟨S10, .f32⟩
  | 110 => ⟨S10, .f32⟩
  | 111 => ⟨S10, .f32⟩
  | 112 => ⟨S10, .f32⟩
  | 113 => ⟨S1x10, .f32⟩
  | 114 => ⟨S10, .f32⟩
  | 115 => ⟨S10, .f32⟩
  | 116 => ⟨S10, .f32⟩
  | 117 => ⟨S1x10, .f32⟩
  | 118 => ⟨S32768x10, .f32⟩
  | _ => ⟨S32768x784, .f32⟩

abbrev hbmTy (i : Nat) : BufTy := match i / 128 with
  | 0 => hbmTy0_0 i
  | 1 => hbmTy0_1 i
  | _ => ⟨S32768x784, .f32⟩

abbrev bufTy : (tb : Table) → Fin (tcTables nBuf tb) → BufTy
  | .hbm, ⟨i, _⟩ => hbmTy i
  | .local _ .vmem, ⟨0, _⟩ => ⟨S2048x784, .f32⟩
  | .local _ .vmem, ⟨1, _⟩ => ⟨S2048x784, .f32⟩
  | .local _ .vmem, ⟨2, _⟩ => ⟨S256x784, .bf16⟩
  | .local _ .vmem, ⟨3, _⟩ => ⟨S2048x256, .f32⟩
  | .local _ .vmem, ⟨4, _⟩ => ⟨S2048x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S1x256, .f32⟩
  | .local _ .vmem, ⟨10, _⟩ => ⟨S1x256, .f32⟩
  | .local _ .vmem, ⟨11, _⟩ => ⟨S4096x256, .f32⟩
  | .local _ .vmem, ⟨12, _⟩ => ⟨S4096x256, .f32⟩
  | .local _ .vmem, ⟨13, _⟩ => ⟨S256x256, .bf16⟩
  | .local _ .vmem, ⟨14, _⟩ => ⟨S1x256, .f32⟩
  | .local _ .vmem, ⟨15, _⟩ => ⟨S1x256, .f32⟩
  | .local _ .vmem, ⟨16, _⟩ => ⟨S4096x256, .f32⟩
  | .local _ .vmem, ⟨17, _⟩ => ⟨S4096x256, .f32⟩
  | .local _ .vmem, ⟨18, _⟩ => ⟨S8x256, .f32⟩
  | .local _ .vmem, ⟨19, _⟩ => ⟨S8x256, .f32⟩
  | .local _ .vmem, ⟨20, _⟩ => ⟨S8x256, .f32⟩
  | .local _ .vmem, ⟨21, _⟩ => ⟨S8x256, .f32⟩
  | .local _ .vmem, ⟨22, _⟩ => ⟨S1x256, .f32⟩
  | .local _ .vmem, ⟨23, _⟩ => ⟨S1x256, .f32⟩
  | .local _ .vmem, ⟨24, _⟩ => ⟨S4096x256, .f32⟩
  | .local _ .vmem, ⟨25, _⟩ => ⟨S4096x256, .f32⟩
  | .local _ .vmem, ⟨26, _⟩ => ⟨S256x256, .bf16⟩
  | .local _ .vmem, ⟨27, _⟩ => ⟨S1x256, .f32⟩
  | .local _ .vmem, ⟨28, _⟩ => ⟨S1x256, .f32⟩
  | .local _ .vmem, ⟨29, _⟩ => ⟨S4096x256, .f32⟩
  | .local _ .vmem, ⟨30, _⟩ => ⟨S4096x256, .f32⟩
  | .local _ .vmem, ⟨31, _⟩ => ⟨S8x256, .f32⟩
  | .local _ .vmem, ⟨32, _⟩ => ⟨S8x256, .f32⟩
  | .local _ .vmem, ⟨33, _⟩ => ⟨S8x256, .f32⟩
  | .local _ .vmem, ⟨34, _⟩ => ⟨S8x256, .f32⟩
  | .local _ .vmem, ⟨35, _⟩ => ⟨S1x256, .f32⟩
  | .local _ .vmem, ⟨36, _⟩ => ⟨S1x256, .f32⟩
  | .local _ .vmem, ⟨37, _⟩ => ⟨S4096x256, .f32⟩
  | .local _ .vmem, ⟨38, _⟩ => ⟨S4096x256, .f32⟩
  | .local _ .vmem, ⟨39, _⟩ => ⟨S256x256, .bf16⟩
  | .local _ .vmem, ⟨40, _⟩ => ⟨S1x256, .f32⟩
  | .local _ .vmem, ⟨41, _⟩ => ⟨S1x256, .f32⟩
  | .local _ .vmem, ⟨42, _⟩ => ⟨S4096x256, .f32⟩
  | .local _ .vmem, ⟨43, _⟩ => ⟨S4096x256, .f32⟩
  | .local _ .vmem, ⟨44, _⟩ => ⟨S8x256, .f32⟩
  | .local _ .vmem, ⟨45, _⟩ => ⟨S8x256, .f32⟩
  | .local _ .vmem, ⟨46, _⟩ => ⟨S8x256, .f32⟩
  | .local _ .vmem, ⟨47, _⟩ => ⟨S8x256, .f32⟩
  | .local _ .vmem, ⟨48, _⟩ => ⟨S1x256, .f32⟩
  | .local _ .vmem, ⟨49, _⟩ => ⟨S1x256, .f32⟩
  | .local _ .vmem, ⟨50, _⟩ => ⟨S4096x256, .f32⟩
  | .local _ .vmem, ⟨51, _⟩ => ⟨S4096x256, .f32⟩
  | .local _ .vmem, ⟨52, _⟩ => ⟨S10x256, .bf16⟩
  | .local _ .vmem, ⟨53, _⟩ => ⟨S1x256, .f32⟩
  | .local _ .vmem, ⟨54, _⟩ => ⟨S1x256, .f32⟩
  | .local _ .vmem, ⟨55, _⟩ => ⟨S4096x10, .f32⟩
  | .local _ .vmem, ⟨56, _⟩ => ⟨S4096x10, .f32⟩
  | .local _ .vmem, ⟨57, _⟩ => ⟨S8x10, .f32⟩
  | .local _ .vmem, ⟨58, _⟩ => ⟨S8x10, .f32⟩
  | .local _ .vmem, ⟨59, _⟩ => ⟨S8x10, .f32⟩
  | .local _ .vmem, ⟨60, _⟩ => ⟨S8x10, .f32⟩
  | .local _ .vmem, ⟨61, _⟩ => ⟨S1x10, .f32⟩
  | .local _ .vmem, ⟨62, _⟩ => ⟨S1x10, .f32⟩
  | .local _ .vmem, ⟨63, _⟩ => ⟨S4096x10, .f32⟩
  | .local _ .vmem, ⟨64, _⟩ => ⟨S4096x10, .f32⟩
  | .local _ .vmem, ⟨65, _⟩ => ⟨S1x10, .f32⟩
  | .local _ .vmem, ⟨66, _⟩ => ⟨S1x10, .f32⟩
  | .local _ .vmem, ⟨67, _⟩ => ⟨S4096x10, .f32⟩
  | .local _ .vmem, ⟨68, _⟩ => ⟨S4096x10, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v2 : Ref sig .tc := ⟨.hbm, 23, rfl⟩
abbrev main_v3 : Ref sig .tc := ⟨.hbm, 24, rfl⟩
abbrev main_cst_2 : Ref sig .tc := ⟨.hbm, 25, rfl⟩
abbrev main_v4 : Ref sig .tc := ⟨.hbm, 26, rfl⟩
abbrev main_v5 : Ref sig .tc := ⟨.hbm, 27, rfl⟩
abbrev main_cst_3 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v6 : Ref sig .tc := ⟨.hbm, 32, rfl⟩
abbrev main_v7 : Ref sig .tc := ⟨.hbm, 33, rfl⟩
abbrev main_cst_5 : Ref sig .tc := ⟨.hbm, 34, rfl⟩
abbrev main_v8 : Ref sig .tc := ⟨.hbm, 35, rfl⟩
abbrev main_v9 : Ref sig .tc := ⟨.hbm, 36, rfl⟩
abbrev main_cst_6 : Ref sig .tc := ⟨.hbm, 37, rfl⟩
abbrev main_cst_7 : Ref sig .tc := ⟨.hbm, 38, rfl⟩
abbrev main_call2_v0 : Ref sig .tc := ⟨.hbm, 39, rfl⟩
abbrev main_call2_v1 : Ref sig .tc := ⟨.hbm, 40, rfl⟩
abbrev main_v10 : Ref sig .tc := ⟨.hbm, 41, rfl⟩
abbrev main_v11 : Ref sig .tc := ⟨.hbm, 42, rfl⟩
abbrev main_cst_8 : Ref sig .tc := ⟨.hbm, 43, rfl⟩
abbrev main_v12 : Ref sig .tc := ⟨.hbm, 44, rfl⟩
abbrev main_v13 : Ref sig .tc := ⟨.hbm, 45, rfl⟩
abbrev main_cst_9 : Ref sig .tc := ⟨.hbm, 46, rfl⟩
abbrev main_cst_10 : Ref sig .tc := ⟨.hbm, 47, rfl⟩
abbrev main_call3_v0 : Ref sig .tc := ⟨.hbm, 48, rfl⟩
abbrev main_call3_v1 : Ref sig .tc := ⟨.hbm, 49, rfl⟩
abbrev main_v14 : Ref sig .tc := ⟨.hbm, 50, rfl⟩
abbrev main_v15 : Ref sig .tc := ⟨.hbm, 51, rfl⟩
abbrev main_cst_11 : Ref sig .tc := ⟨.hbm, 52, rfl⟩
abbrev main_v16 : Ref sig .tc := ⟨.hbm, 53, rfl⟩
abbrev main_v17 : Ref sig .tc := ⟨.hbm, 54, rfl⟩
abbrev main_cst_12 : Ref sig .tc := ⟨.hbm, 55, rfl⟩
abbrev main_cst_13 : Ref sig .tc := ⟨.hbm, 56, rfl⟩
abbrev main_call4_v0 : Ref sig .tc := ⟨.hbm, 57, rfl⟩
abbrev main_call4_v1 : Ref sig .tc := ⟨.hbm, 58, rfl⟩
abbrev main_v18 : Ref sig .tc := ⟨.hbm, 59, rfl⟩
abbrev main_v19 : Ref sig .tc := ⟨.hbm, 60, rfl⟩
abbrev main_v20_0 : Ref sig .tc := ⟨.hbm, 61, rfl⟩
abbrev main_v20_1 : Ref sig .tc := ⟨.hbm, 62, rfl⟩
abbrev main_v20_2 : Ref sig .tc := ⟨.hbm, 63, rfl⟩
abbrev main_v21 : Ref sig .tc := ⟨.hbm, 64, rfl⟩
abbrev main_v22 : Ref sig .tc := ⟨.hbm, 65, rfl⟩
abbrev main_cst_14 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_15 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_16 : Ref sig .tc := ⟨.hbm, 80, rfl⟩
abbrev main_v35 : Ref sig .tc := ⟨.hbm, 81, rfl⟩
abbrev main_v36 : Ref sig .tc := ⟨.hbm, 82, rfl⟩
abbrev main_cst_17 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_18 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50_0 : Ref sig .tc := ⟨.hbm, 98, rfl⟩
abbrev main_v50_1 : Ref sig .tc := ⟨.hbm, 99, rfl⟩
abbrev main_v50_2 : Ref sig .tc := ⟨.hbm, 100, rfl⟩
abbrev main_v51 : Ref sig .tc := ⟨.hbm, 101, rfl⟩
abbrev main_v52 : Ref sig .tc := ⟨.hbm, 102, rfl⟩
abbrev main_cst_19 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_20 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_21 : Ref sig .tc := ⟨.hbm, 117, rfl⟩
abbrev main_v65 : Ref sig .tc := ⟨.hbm, 118, rfl⟩
abbrev main_v66 : Ref sig .tc := ⟨.hbm, 119, rfl⟩
abbrev main_cst_22 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_23 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80_0 : Ref sig .tc := ⟨.hbm, 135, rfl⟩
abbrev main_v80_1 : Ref sig .tc := ⟨.hbm, 136, rfl⟩
abbrev main_v80_2 : Ref sig .tc := ⟨.hbm, 137, rfl⟩
abbrev main_v81 : Ref sig .tc := ⟨.hbm, 138, rfl⟩
abbrev main_v82 : Ref sig .tc := ⟨.hbm, 139, rfl⟩
abbrev main_cst_24 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_25 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_cst_26 : Ref sig .tc := ⟨.hbm, 154, rfl⟩
abbrev main_v95 : Ref sig .tc := ⟨.hbm, 155, rfl⟩
abbrev main_v96 : Ref sig .tc := ⟨.hbm, 156, rfl⟩
abbrev main_cst_27 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_28 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110_0 : Ref sig .tc := ⟨.hbm, 172, rfl⟩
abbrev main_v110_1 : Ref sig .tc := ⟨.hbm, 173, rfl⟩
abbrev main_v110_2 : Ref sig .tc := ⟨.hbm, 174, rfl⟩
abbrev main_v111 : Ref sig .tc := ⟨.hbm, 175, rfl⟩
abbrev main_v112 : Ref sig .tc := ⟨.hbm, 176, rfl⟩
abbrev main_cst_29 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_cst_30 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_31 : Ref sig .tc := ⟨.hbm, 191, rfl⟩
abbrev main_v125 : Ref sig .tc := ⟨.hbm, 192, rfl⟩
abbrev main_v126 : Ref sig .tc := ⟨.hbm, 193, rfl⟩
abbrev main_cst_32 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_cst_33 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140_0 : Ref sig .tc := ⟨.hbm, 209, rfl⟩
abbrev main_v140_1 : Ref sig .tc := ⟨.hbm, 210, rfl⟩
abbrev main_v140_2 : Ref sig .tc := ⟨.hbm, 211, rfl⟩
abbrev main_v141 : Ref sig .tc := ⟨.hbm, 212, rfl⟩
abbrev main_v142 : Ref sig .tc := ⟨.hbm, 213, rfl⟩
abbrev main_cst_34 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_cst_35 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_cst_36 : Ref sig .tc := ⟨.hbm, 228, rfl⟩
abbrev main_v155 : Ref sig .tc := ⟨.hbm, 229, rfl⟩
abbrev main_v156 : Ref sig .tc := ⟨.hbm, 230, rfl⟩
abbrev main_cst_37 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_cst_38 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_scratch0 : Ref sig .tc := ⟨.vmem, 35, rfl⟩
abbrev cc2_scratch1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc3_scratch0 : Ref sig .tc := ⟨.vmem, 48, rfl⟩
abbrev cc3_scratch1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg2_0 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg4_1 : Ref sig .tc := ⟨.vmem, 56, rfl⟩
abbrev cc4_stg5_0 : Ref sig .tc := ⟨.vmem, 57, rfl⟩
abbrev cc4_stg5_1 : Ref sig .tc := ⟨.vmem, 58, rfl⟩
abbrev cc4_stg6_0 : Ref sig .tc := ⟨.vmem, 59, rfl⟩
abbrev cc4_stg6_1 : Ref sig .tc := ⟨.vmem, 60, rfl⟩
abbrev cc4_scratch0 : Ref sig .tc := ⟨.vmem, 61, rfl⟩
abbrev cc4_scratch1 : Ref sig .tc := ⟨.vmem, 62, rfl⟩
abbrev cc5_stg0_0 : Ref sig .tc := ⟨.vmem, 63, rfl⟩
abbrev cc5_stg0_1 : Ref sig .tc := ⟨.vmem, 64, rfl⟩
abbrev cc5_stg1_0 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg3_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem4_0 : DmaSem sig := 47
abbrev cc4_sem4_1 : DmaSem sig := 48
abbrev cc4_sem5_0 : DmaSem sig := 49
abbrev cc4_sem5_1 : DmaSem sig := 50
abbrev cc4_sem6_0 : DmaSem sig := 51
abbrev cc4_sem6_1 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem3_0 : DmaSem sig := 57
abbrev cc5_sem3_1 : DmaSem sig := 58

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_19 : BitVec 32 := 0#32
  let v31 : BitVec 1 := Scalar.cmpi .ne v30 c0_i32_19
  v31

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_23 : BitVec 32 := 0#32
  let v40 : BitVec 1 := Scalar.cmpi .ne v39 c0_i32_23
  v40

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S8x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![2, 4], ![false, false]⟩

def k2_cond2 (i : grid2.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_23 : BitVec 32 := 0#32
  let v40 : BitVec 1 := Scalar.cmpi .ne v39 c0_i32_23
  v40

def cc2_transform_0 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S4096x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S8x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S8x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨2, ![2, 4], ![false, false]⟩

def k3_cond2 (i : grid3.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_23 : BitVec 32 := 0#32
  let v40 : BitVec 1 := Scalar.cmpi .ne v39 c0_i32_23
  v40

def cc3_transform_0 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S4096x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S8x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S8x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨2, ![2, 4], ![false, false]⟩

def k4_cond2 (i : grid4.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_23 : BitVec 32 := 0#32
  let v40 : BitVec 1 := Scalar.cmpi .ne v39 c0_i32_23
  v40

def cc4_transform_0 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S10x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S4096x10 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S8x10 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S8x10 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x10 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x10 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S256x784 : S_.BroadcastsInDim S256x784 (![] : Fin 0 → Fin S256x784.rank)
  bitsLt_bf16_f32 : FTy.bits .bf16 < FTy.bits .f32
  bcast_S_S256x256 : S_.BroadcastsInDim S256x256 (![] : Fin 0 → Fin S256x256.rank)
  bcast_S_S10x256 : S_.BroadcastsInDim S10x256 (![] : Fin 0 → Fin S10x256.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x784_S2048x784_0_0 : ∀ a, (![0, 0] : Fin 2 → Nat) a + S2048x784.size a ≤ S2048x784.size a
  h_S2048x784 : 0 < S2048x784.numel
  inb_S256x784_S256x784_0_0 : ∀ a, (![0, 0] : Fin 2 → Nat) a + S256x784.size a ≤ S256x784.size a
  h_S256x784 : 0 < S256x784.numel
  shapeCasts_S256x784_S256x784 : S256x784.ShapeCasts S256x784
  inb_S2048x256_S2048x256_0_0 : ∀ a, (![0, 0] : Fin 2 → Nat) a + S2048x256.size a ≤ S2048x256.size a
  h_S2048x256 : 0 < S2048x256.numel
  reduces_S2048x256_S256 : S2048x256.Reduces [0] S256
  shapeCasts_S256_S1x256 : S256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  slices_S16x256_S1x256_0_0 : S16x256.Slices ![0, 0] S1x256
  shapeCasts_S1x256_S256 : S1x256.ShapeCasts S256
  bcast_S_S256 : S_.BroadcastsInDim S256 (![] : Fin 0 → Fin S256.rank)
  slices_S16x256_S1x256_8_0 : S16x256.Slices ![8, 0] S1x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S4096x256_S256 : S4096x256.Reduces [0] S256
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S4096x10_S4096x10_0_0 : ∀ a, (![0, 0] : Fin 2 → Nat) a + S4096x10.size a ≤ S4096x10.size a
  h_S4096x10 : 0 < S4096x10.numel
  reduces_S4096x10_S10 : S4096x10.Reduces [0] S10
  shapeCasts_S10_S1x10 : S10.ShapeCasts S1x10
  broadcasts_S1x10_S8x10 : S1x10.Broadcasts S8x10
  inb_S8x10_S8x10_0_0 : ∀ a, (![0, 0] : Fin 2 → Nat) a + S8x10.size a ≤ S8x10.size a
  h_S8x10 : 0 < S8x10.numel
  slices_S16x10_S1x10_0_0 : S16x10.Slices ![0, 0] S1x10
  shapeCasts_S1x10_S10 : S1x10.ShapeCasts S10
  bcast_S_S10 : S_.BroadcastsInDim S10 (![] : Fin 0 → Fin S10.rank)
  slices_S16x10_S1x10_8_0 : S16x10.Slices ![8, 0] S1x10
  shapeCasts_S4096x10_S4096x10 : S4096x10.ShapeCasts S4096x10
  broadcasts_S1x10_S4096x10 : S1x10.Broadcasts S4096x10
  reduces_S4096x10_S4096 : S4096x10.Reduces [1] S4096
  shapeCasts_S4096_S4096x1 : S4096.ShapeCasts S4096x1
  broadcasts_S4096x1_S4096x10 : S4096x1.Broadcasts S4096x10
  dot_S2048x784_S256x784_S2048x256_1_1_0_0_n_n_wf : DotDims.WF S2048x784 S256x784 S2048x256 [1] [1] [0] [0] [] []
  dot_S4096x256_S256x256_S4096x256_1_1_0_0_n_n_wf : DotDims.WF S4096x256 S256x256 S4096x256 [1] [1] [0] [0] [] []
  dot_S4096x256_S10x256_S4096x10_1_1_0_0_n_n_wf : DotDims.WF S4096x256 S10x256 S4096x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S32768x784.size a
  hwx0_0 : ∀ i : grid0.Coords, EltTy.bits .f32 = 32 ∨ (Rect.block (s := S32768x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x784.size a ≤ S256x784.size a
  hwx0_1 : ∀ i : grid0.Coords, EltTy.bits .bf16 = 32 ∨ (Rect.block (s := S256x784) S256x784.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S32768x256.size a
  hwx0_2 : ∀ i : grid0.Coords, EltTy.bits .f32 = 32 ∨ (Rect.block (s := S32768x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S16x256.size a
  hwx0_3 : ∀ i : grid0.Coords, EltTy.bits .f32 = 32 ∨ (Rect.block (s := S16x256) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S16x256.size a
  hwx0_4 : ∀ i : grid0.Coords, EltTy.bits .f32 = 32 ∨ (Rect.block (s := S16x256) S8x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S32768x256.size a
  hwx1_0 : ∀ i : grid1.Coords, EltTy.bits .f32 = 32 ∨ (Rect.block (s := S32768x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x256.size a ≤ S32768x256.size a
  hwx1_4 : ∀ i : grid1.Coords, EltTy.bits .f32 = 32 ∨ (Rect.block (s := S32768x256) S4096x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256.size a ≤ S16x256.size a
  hwx1_5 : ∀ i : grid1.Coords, EltTy.bits .f32 = 32 ∨ (Rect.block (s := S16x256) S8x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x256.size a ≤ S16x256.size a
  hwx1_6 : ∀ i : grid1.Coords, EltTy.bits .f32 = 32 ∨ (Rect.block (s := S16x256) S8x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x256.size a ≤ S32768x256.size a
  hwx2_0 : ∀ i : grid2.Coords, EltTy.bits .f32 = 32 ∨ (Rect.block (s := S32768x256) S4096x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x256.size a ≤ S32768x256.size a
  hwx2_4 : ∀ i : grid2.Coords, EltTy.bits .f32 = 32 ∨ (Rect.block (s := S32768x256) S4096x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8x256.size a ≤ S16x256.size a
  hwx2_5 : ∀ i : grid2.Coords, EltTy.bits .f32 = 32 ∨ (Rect.block (s := S16x256) S8x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x256.size a ≤ S16x256.size a
  hwx2_6 : ∀ i : grid2.Coords, EltTy.bits .f32 = 32 ∨ (Rect.block (s := S16x256) S8x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S32768x256.size a
  hwx3_0 : ∀ i : grid3.Coords, EltTy.bits .f32 = 32 ∨ (Rect.block (s := S32768x256) S4096x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x256.size a ≤ S32768x256.size a
  hwx3_4 : ∀ i : grid3.Coords, EltTy.bits .f32 = 32 ∨ (Rect.block (s := S32768x256) S4096x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8x256.size a ≤ S16x256.size a
  hwx3_5 : ∀ i : grid3.Coords, EltTy.bits .f32 = 32 ∨ (Rect.block (s := S16x256) S8x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8x256.size a ≤ S16x256.size a
  hwx3_6 : ∀ i : grid3.Coords, EltTy.bits .f32 = 32 ∨ (Rect.block (s := S16x256) S8x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x256.size a ≤ S32768x256.size a
  hwx4_0 : ∀ i : grid4.Coords, EltTy.bits .f32 = 32 ∨ (Rect.block (s := S32768x256) S4096x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10x256.size a ≤ S10x256.size a
  hwx4_1 : ∀ i : grid4.Coords, EltTy.bits .bf16 = 32 ∨ (Rect.block (s := S10x256) S10x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x10.size a ≤ S32768x10.size a
  hwx4_4 : ∀ i : grid4.Coords, EltTy.bits .f32 = 32 ∨ (Rect.block (s := S32768x10) S4096x10.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8x10.size a ≤ S16x10.size a
  hwx4_5 : ∀ i : grid4.Coords, EltTy.bits .f32 = 32 ∨ (Rect.block (s := S16x10) S8x10.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8x10.size a ≤ S16x10.size a
  hwx4_6 : ∀ i : grid4.Coords, EltTy.bits .f32 = 32 ∨ (Rect.block (s := S16x10) S8x10.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x10.size a ≤ S32768x10.size a
  hwx5_0 : ∀ i : grid5.Coords, EltTy.bits .f32 = 32 ∨ (Rect.block (s := S32768x10) S4096x10.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x10.size a ≤ S1x10.size a
  hwx5_1 : ∀ i : grid5.Coords, EltTy.bits .f32 = 32 ∨ (Rect.block (s := S1x10) S1x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x10.size a ≤ S1x10.size a
  hwx5_2 : ∀ i : grid5.Coords, EltTy.bits .f32 = 32 ∨ (Rect.block (s := S1x10) S1x10.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x10.size a ≤ S32768x10.size a
  hwx5_3 : ∀ i : grid5.Coords, EltTy.bits .f32 = 32 ∨ (Rect.block (s := S32768x10) S4096x10.size (cc5_transform_3 i) (hinb5_3 i)).WholeWords (EltTy.packing .f32)

variable [Facts₀]

def dot_S2048x784_S256x784_S2048x256_1_1_0_0_n_n : DotDims S2048x784 S256x784 S2048x256 where
  lhsContracting := [1]
  rhsContracting := [1]
  lhsNonContracting := [0]
  rhsNonContracting := [0]
  lhsBatch := []
  rhsBatch := []
  wf := dot_S2048x784_S256x784_S2048x256_1_1_0_0_n_n_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf
def dot_S4096x256_S10x256_S4096x10_1_1_0_0_n_n : DotDims S4096x256 S10x256 S4096x10 where
  lhsContracting := [1]
  rhsContracting := [1]
  lhsNonContracting := [0]
  rhsNonContracting := [0]
  lhsBatch := []
  rhsBatch := []
  wf := dot_S4096x256_S10x256_S4096x10_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_1) S8x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_2) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v20_0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50_0) S4096x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50_1) S8x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v50_2) S8x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v50_0) S4096x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80_0) S4096x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v80_1) S8x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v80_2) S8x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun i => !(k2_cond2 i == 1#1) | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v80_0) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v105) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v109) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v110_0) S4096x256.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v110_1) S8x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v110_2) S8x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v110_0) S4096x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S10x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v135) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v139) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v140_0) S4096x10.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v140_1) S8x10.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v140_2) S8x10.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v140_0) S4096x10.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v165) S1x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v169) S1x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v170) S4096x10.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S32768x784 : Shape := ⟨2, ![32768, 784]⟩
abbrev S256x784 : Shape := ⟨2, ![256, 784]⟩
abbrev S256x256 : Shape := ⟨2, ![256, 256]⟩
abbrev S10x256 : Shape := ⟨2, ![10, 256]⟩
abbrev S256 : Shape := ⟨1, ![256]⟩
abbrev S10 : Shape := ⟨1, ![10]⟩
abbrev S_ : Shape := ⟨0, ![]⟩
abbrev S784x256 : Shape := ⟨2, ![784, 256]⟩
abbrev S32768x256 : Shape := ⟨2, ![32768, 256]⟩
abbrev S1x256 : Shape := ⟨2, ![1, 256]⟩
abbrev S256x10 : Shape := ⟨2, ![256, 10]⟩
abbrev S32768x10 : Shape := ⟨2, ![32768, 10]⟩
abbrev S1x10 : Shape := ⟨2, ![1, 10]⟩
abbrev S32768 : Shape := ⟨1, ![32768]⟩
abbrev S32768x1 : Shape := ⟨2, ![32768, 1]⟩

abbrev nBuf : Space → Nat
  | .hbm => 353
  | .vmem => 0
  | .smem => 0
  | _ => 0

abbrev hbmTy0_0 (i : Nat) : BufTy := match i % 128 with
  | 0 => ⟨S32768x784, .f32⟩
  | 1 => ⟨S256x784, .f32⟩
  | 2 => ⟨S256x256, .f32⟩
  | 3 => ⟨S256x256, .f32⟩
  | 4 => ⟨S256x256, .f32⟩
  | 5 => ⟨S10x256, .f32⟩
  | 6 => ⟨S256, .f32⟩
  | 7 => ⟨S256, .f32⟩
  | 8 => ⟨S256, .f32⟩
  | 9 => ⟨S256, .f32⟩
  | 10 => ⟨S10, .f32⟩
  | 11 => ⟨S256, .f32⟩
  | 12 => ⟨S256, .f32⟩
  | 13 => ⟨S256, .f32⟩
  | 14 => ⟨S256, .f32⟩
  | 15 => ⟨S10, .f32⟩
  | 16 => ⟨S_, .f32⟩
  | 17 => ⟨S32768x784, .f32⟩
  | 18 => ⟨S32768x784, .f32⟩
  | 19 => ⟨S_, .f32⟩
  | 20 => ⟨S32768x784, .f32⟩
  | 21 => ⟨S32768x784, .i1⟩
  | 22 => ⟨S_, .f32⟩
  | 23 => ⟨S_, .f32⟩
  | 24 => ⟨S32768x784, .f32⟩
  | 25 => ⟨S32768x784, .f32⟩
  | 26 => ⟨S32768x784, .f32⟩
  | 27 => ⟨S32768x784, .f32⟩
  | 28 => ⟨S_, .f32⟩
  | 29 => ⟨S256x784, .f32⟩
  | 30 => ⟨S256x784, .i1⟩
  | 31 => ⟨S_, .f32⟩
  | 32 => ⟨S_, .f32⟩
  | 33 => ⟨S256x784, .f32⟩
  | 34 => ⟨S256x784, .f32⟩
  | 35 => ⟨S256x784, .f32⟩
  | 36 => ⟨S256x784, .f32⟩
  | 37 => ⟨S784x256, .f32⟩
  | 38 => ⟨S32768x256, .f32⟩
  | 39 => ⟨S_, .f32⟩
  | 40 => ⟨S256, .f32⟩
  | 41 => ⟨S_, .f32⟩
  | 42 => ⟨S256, .f32⟩
  | 43 => ⟨S256, .f32⟩
  | 44 => ⟨S_, .i32⟩
  | 45 => ⟨S_, .f32⟩
  | 46 => ⟨S256, .f32⟩
  | 47 => ⟨S1x256, .f32⟩
  | 48 => ⟨S_, .f32⟩
  | 49 => ⟨S1x256, .f32⟩
  | 50 => ⟨S1x256, .f32⟩
  | 51 => ⟨S32768x256, .f32⟩
  | 52 => ⟨S32768x256, .f32⟩
  | 53 => ⟨S32768x256, .f32⟩
  | 54 => ⟨S_, .f32⟩
  | 55 => ⟨S_, .f32⟩
  | 56 => ⟨S_, .f32⟩
  | 57 => ⟨S_, .f32⟩
  | 58 => ⟨S256, .f32⟩
  | 59 => ⟨S256, .f32⟩
  | 60 => ⟨S256, .f32⟩
  | 61 => ⟨S_, .f32⟩
  | 62 => ⟨S_, .i1⟩
  | 63 => ⟨S_, .f32⟩
  | 64 => ⟨S_, .f32⟩
  | 65 => ⟨S256, .f32⟩
  | 66 => ⟨S256, .f32⟩
  | 67 => ⟨S1x256, .f32⟩
  | 68 => ⟨S32768x256, .f32⟩
  | 69 => ⟨S32768x256, .f32⟩
  | 70 => ⟨S1x256, .f32⟩
  | 71 => ⟨S32768x256, .f32⟩
  | 72 => ⟨S32768x256, .f32⟩
  | 73 => ⟨S_, .f32⟩
  | 74 => ⟨S256, .f32⟩
  | 75 => ⟨S256, .f32⟩
  | 76 => ⟨S256, .f32⟩
  | 77 => ⟨S1x256, .f32⟩
  | 78 => ⟨S32768x256, .f32⟩
  | 79 => ⟨S32768x256, .f32⟩
  | 80 => ⟨S1x256, .f32⟩
  | 81 => ⟨S32768x256, .f32⟩
  | 82 => ⟨S32768x256, .f32⟩
  | 83 => ⟨S_, .f32⟩
  | 84 => ⟨S32768x256, .f32⟩
  | 85 => ⟨S32768x256, .i1⟩
  | 86 => ⟨S_, .f32⟩
  | 87 => ⟨S_, .f32⟩
  | 88 => ⟨S32768x256, .f32⟩
  | 89 => ⟨S32768x256, .f32⟩
  | 90 => ⟨S32768x256, .f32⟩
  | 91 => ⟨S32768x256, .f32⟩
  | 92 => ⟨S_, .f32⟩
  | 93 => ⟨S256x256, .f32⟩
  | 94 => ⟨S256x256, .i1⟩
  | 95 => ⟨S_, .f32⟩
  | 96 => ⟨S_, .f32⟩
  | 97 => ⟨S256x256, .f32⟩
  | 98 => ⟨S256x256, .f32⟩
  | 99 => ⟨S256x256, .f32⟩
  | 100 => ⟨S256x256, .f32⟩
  | 101 => ⟨S256x256, .f32⟩
  | 102 => ⟨S32768x256, .f32⟩
  | 103 => ⟨S_, .f32⟩
  | 104 => ⟨S256, .f32⟩
  | 105 => ⟨S_, .f32⟩
  | 106 => ⟨S256, .f32⟩
  | 107 => ⟨S256, .f32⟩
  | 108 => ⟨S_, .i32⟩
  | 109 => ⟨S_, .f32⟩
  | 110 => ⟨S256, .f32⟩
  | 111 => ⟨S1x256, .f32⟩
  | 112 => ⟨S_, .f32⟩
  | 113 => ⟨S1x256, .f32⟩
  | 114 => ⟨S1x256, .f32⟩
  | 115 => ⟨S32768x256, .f32⟩
  | 116 => ⟨S32768x256, .f32⟩
  | 117 => ⟨S32768x256, .f32⟩
  | 118 => ⟨S_, .f32⟩
  | 119 => ⟨S_, .f32⟩
  | 120 => ⟨S_, .f32⟩
  | 121 => ⟨S_, .f32⟩
  | 122 => ⟨S256, .f32⟩
  | 123 => ⟨S256, .f32⟩
  | 124 => ⟨S256, .f32⟩
  | 125 => ⟨S_, .f32⟩
  | 126 => ⟨S_, .i1⟩
  | 127 => ⟨S_, .f32⟩
  | _ => ⟨S32768x784, .f32⟩

abbrev hbmTy0_1 (i : Nat) : BufTy := match i % 128 with
  | 0 => ⟨S_, .f32⟩
  | 1 => ⟨S256, .f32⟩
  | 2 => ⟨S256, .f32⟩
  | 3 => ⟨S1x256, .f32⟩
  | 4 => ⟨S32768x256, .f32⟩
  | 5 => ⟨S32768x256, .f32⟩
  | 6 => ⟨S1x256, .f32⟩
  | 7 => ⟨S32768x256, .f32⟩
  | 8 => ⟨S32768x256, .f32⟩
  | 9 => ⟨S_, .f32⟩
  | 10 => ⟨S256, .f32⟩
  | 11 => ⟨S256, .f32⟩
  | 12 => ⟨S256, .f32⟩
  | 13 => ⟨S1x256, .f32⟩
  | 14 => ⟨S32768x256, .f32⟩
  | 15 => ⟨S32768x256, .f32⟩
  | 16 => ⟨S1x256, .f32⟩
  | 17 => ⟨S32768x256, .f32⟩
  | 18 => ⟨S32768x256, .f32⟩
  | 19 => ⟨S_, .f32⟩
  | 20 => ⟨S32768x256, .f32⟩
  | 21 => ⟨S32768x256, .i1⟩
  | 22 => ⟨S_, .f32⟩
  | 23 => ⟨S_, .f32⟩
  | 24 => ⟨S32768x256, .f32⟩
  | 25 => ⟨S32768x256, .f32⟩
  | 26 => ⟨S32768x256, .f32⟩
  | 27 => ⟨S32768x256, .f32⟩
  | 28 => ⟨S_, .f32⟩
  | 29 => ⟨S256x256, .f32⟩
  | 30 => ⟨S256x256, .i1⟩
  | 31 => ⟨S_, .f32⟩
  | 32 => ⟨S_, .f32⟩
  | 33 => ⟨S256x256, .f32⟩
  | 34 => ⟨S256x256, .f32⟩
  | 35 => ⟨S256x256, .f32⟩
  | 36 => ⟨S256x256, .f32⟩
  | 37 => ⟨S256x256, .f32⟩
  | 38 => ⟨S32768x256, .f32⟩
  | 39 => ⟨S_, .f32⟩
  | 40 => ⟨S256, .f32⟩
  | 41 => ⟨S_, .f32⟩
  | 42 => ⟨S256, .f32⟩
  | 43 => ⟨S256, .f32⟩
  | 44 => ⟨S_, .i32⟩
  | 45 => ⟨S_, .f32⟩
  | 46 => ⟨S256, .f32⟩
  | 47 => ⟨S1x256, .f32⟩
  | 48 => ⟨S_, .f32⟩
  | 49 => ⟨S1x256, .f32⟩
  | 50 => ⟨S1x256, .f32⟩
  | 51 => ⟨S32768x256, .f32⟩
  | 52 => ⟨S32768x256, .f32⟩
  | 53 => ⟨S32768x256, .f32⟩
  | 54 => ⟨S_, .f32⟩
  | 55 => ⟨S_, .f32⟩
  | 56 => ⟨S_, .f32⟩
  | 57 => ⟨S_, .f32⟩
  | 58 => ⟨S256, .f32⟩
  | 59 => ⟨S256, .f32⟩
  | 60 => ⟨S256, .f32⟩
  | 61 => ⟨S_, .f32⟩
  | 62 => ⟨S_, .i1⟩
  | 63 => ⟨S_, .f32⟩
  | 64 => ⟨S_, .f32⟩
  | 65 => ⟨S256, .f32⟩
  | 66 => ⟨S256, .f32⟩
  | 67 => ⟨S1x256, .f32⟩
  | 68 => ⟨S32768x256, .f32⟩
  | 69 => ⟨S32768x256, .f32⟩
  | 70 => ⟨S1x256, .f32⟩
  | 71 => ⟨S32768x256, .f32⟩
  | 72 => ⟨S32768x256, .f32⟩
  | 73 => ⟨S_, .f32⟩
  | 74 => ⟨S256, .f32⟩
  | 75 => ⟨S256, .f32⟩
  | 76 => ⟨S256, .f32⟩
  | 77 => ⟨S1x256, .f32⟩
  | 78 => ⟨S32768x256, .f32⟩
  | 79 => ⟨S32768x256, .f32⟩
  | 80 => ⟨S1x256, .f32⟩
  | 81 => ⟨S32768x256, .f32⟩
  | 82 => ⟨S32768x256, .f32⟩
  | 83 => ⟨S_, .f32⟩
  | 84 => ⟨S32768x256, .f32⟩
  | 85 => ⟨S32768x256, .i1⟩
  | 86 => ⟨S_, .f32⟩
  | 87 => ⟨S_, .f32⟩
  | 88 => ⟨S32768x256, .f32⟩
  | 89 => ⟨S32768x256, .f32⟩
  | 90 => ⟨S32768x256, .f32⟩
  | 91 => ⟨S32768x256, .f32⟩
  | 92 => ⟨S_, .f32⟩
  | 93 => ⟨S256x256, .f32⟩
  | 94 => ⟨S256x256, .i1⟩
  | 95 => ⟨S_, .f32⟩
  | 96 => ⟨S_, .f32⟩
  | 97 => ⟨S256x256, .f32⟩
  | 98 => ⟨S256x256, .f32⟩
  | 99 => ⟨S256x256, .f32⟩
  | 100 => ⟨S256x256, .f32⟩
  | 101 => ⟨S256x256, .f32⟩
  | 102 => ⟨S32768x256, .f32⟩
  | 103 => ⟨S_, .f32⟩
  | 104 => ⟨S256, .f32⟩
  | 105 => ⟨S_, .f32⟩
  | 106 => ⟨S256, .f32⟩
  | 107 => ⟨S256, .f32⟩
  | 108 => ⟨S_, .i32⟩
  | 109 => ⟨S_, .f32⟩
  | 110 => ⟨S256, .f32⟩
  | 111 => ⟨S1x256, .f32⟩
  | 112 => ⟨S_, .f32⟩
  | 113 => ⟨S1x256, .f32⟩
  | 114 => ⟨S1x256, .f32⟩
  | 115 => ⟨S32768x256, .f32⟩
  | 116 => ⟨S32768x256, .f32⟩
  | 117 => ⟨S32768x256, .f32⟩
  | 118 => ⟨S_, .f32⟩
  | 119 => ⟨S_, .f32⟩
  | 120 => ⟨S_, .f32⟩
  | 121 => ⟨S_, .f32⟩
  | 122 => ⟨S256, .f32⟩
  | 123 => ⟨S256, .f32⟩
  | 124 => ⟨S256, .f32⟩
  | 125 => ⟨S_, .f32⟩
  | 126 => ⟨S_, .i1⟩
  | 127 => ⟨S_, .f32⟩
  | _ => ⟨S32768x784, .f32⟩

abbrev hbmTy0_2 (i : Nat) : BufTy := match i % 128 with
  | 0 => ⟨S_, .f32⟩
  | 1 => ⟨S256, .f32⟩
  | 2 => ⟨S256, .f32⟩
  | 3 => ⟨S1x256, .f32⟩
  | 4 => ⟨S32768x256, .f32⟩
  | 5 => ⟨S32768x256, .f32⟩
  | 6 => ⟨S1x256, .f32⟩
  | 7 => ⟨S32768x256, .f32⟩
  | 8 => ⟨S32768x256, .f32⟩
  | 9 => ⟨S_, .f32⟩
  | 10 => ⟨S256, .f32⟩
  | 11 => ⟨S256, .f32⟩
  | 12 => ⟨S256, .f32⟩
  | 13 => ⟨S1x256, .f32⟩
  | 14 => ⟨S32768x256, .f32⟩
  | 15 => ⟨S32768x256, .f32⟩
  | 16 => ⟨S1x256, .f32⟩
  | 17 => ⟨S32768x256, .f32⟩
  | 18 => ⟨S32768x256, .f32⟩
  | 19 => ⟨S_, .f32⟩
  | 20 => ⟨S32768x256, .f32⟩
  | 21 => ⟨S32768x256, .i1⟩
  | 22 => ⟨S_, .f32⟩
  | 23 => ⟨S_, .f32⟩
  | 24 => ⟨S32768x256, .f32⟩
  | 25 => ⟨S32768x256, .f32⟩
  | 26 => ⟨S32768x256, .f32⟩
  | 27 => ⟨S32768x256, .f32⟩
  | 28 => ⟨S_, .f32⟩
  | 29 => ⟨S10x256, .f32⟩
  | 30 => ⟨S10x256, .i1⟩
  | 31 => ⟨S_, .f32⟩
  | 32 => ⟨S_, .f32⟩
  | 33 => ⟨S10x256, .f32⟩
  | 34 => ⟨S10x256, .f32⟩
  | 35 => ⟨S10x256, .f32⟩
  | 36 => ⟨S10x256, .f32⟩
  | 37 => ⟨S256x10, .f32⟩
  | 38 => ⟨S32768x10, .f32⟩
  | 39 => ⟨S_, .f32⟩
  | 40 => ⟨S10, .f32⟩
  | 41 => ⟨S_, .f32⟩
  | 42 => ⟨S10, .f32⟩
  | 43 => ⟨S10, .f32⟩
  | 44 => ⟨S_, .i32⟩
  | 45 => ⟨S_, .f32⟩
  | 46 => ⟨S10, .f32⟩
  | 47 => ⟨S1x10, .f32⟩
  | 48 => ⟨S_, .f32⟩
  | 49 => ⟨S1x10, .f32⟩
  | 50 => ⟨S1x10, .f32⟩
  | 51 => ⟨S32768x10, .f32⟩
  | 52 => ⟨S32768x10, .f32⟩
  | 53 => ⟨S32768x10, .f32⟩
  | 54 => ⟨S_, .f32⟩
  | 55 => ⟨S_, .f32⟩
  | 56 => ⟨S_, .f32⟩
  | 57 => ⟨S_, .f32⟩
  | 58 => ⟨S10, .f32⟩
  | 59 => ⟨S10, .f32⟩
  | 60 => ⟨S10, .f32⟩
  | 61 => ⟨S_, .f32⟩
  | 62 => ⟨S_, .i1⟩
  | 63 => ⟨S_, .f32⟩
  | 64 => ⟨S_, .f32⟩
  | 65 => ⟨S10, .f32⟩
  | 66 => ⟨S10, .f32⟩
  | 67 => ⟨S1x10, .f32⟩
  | 68 => ⟨S32768x10, .f32⟩
  | 69 => ⟨S32768x10, .f32⟩
  | 70 => ⟨S1x10, .f32⟩
  | 71 => ⟨S32768x10, .f32⟩
  | 72 => ⟨S32768x10, .f32⟩
  | 73 => ⟨S_, .f32⟩
  | 74 => ⟨S10, .f32⟩
  | 75 => ⟨S10, .f32⟩
  | 76 => ⟨S10, .f32⟩
  | 77 => ⟨S1x10, .f32⟩
  | 78 => ⟨S32768x10, .f32⟩
  | 79 => ⟨S32768x10, .f32⟩
  | 80 => ⟨S1x10, .f32⟩
  | 81 => ⟨S32768x10, .f32⟩
  | 82 => ⟨S32768x10, .f32⟩
  | 83 => ⟨S_, .f32⟩
  | 84 => ⟨S32768, .f32⟩
  | 85 => ⟨S_, .f32⟩
  | 86 => ⟨S32768, .f32⟩
  | 87 => ⟨S32768, .f32⟩
  | 88 => ⟨S32768x1, .f32⟩
  | 89 => ⟨S32768x10, .f32⟩
  | 90 => ⟨S32768x10, .f32⟩
  | 91 => ⟨S32768x10, .f32⟩
  | 92 => ⟨S_, .f32⟩
  | 93 => ⟨S32768, .f32⟩
  | 94 => ⟨S32768x1, .f32⟩
  | 95 => ⟨S32768x10, .f32⟩
  | 96 => ⟨S32768x10, .f32⟩
  | _ => ⟨S32768x784, .f32⟩

abbrev hbmTy (i : Nat) : BufTy := match i / 128 with
  | 0 => hbmTy0_0 i
  | 1 => hbmTy0_1 i
  | 2 => hbmTy0_2 i
  | _ => ⟨S32768x784, .f32⟩

abbrev bufTy : (tb : Table) → Fin (tcTables nBuf tb) → BufTy
  | .hbm, ⟨i, _⟩ => hbmTy i
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v4 : Ref sig .tc := ⟨.hbm, 26, rfl⟩
abbrev main_v5 : Ref sig .tc := ⟨.hbm, 27, rfl⟩
abbrev main_cst_3 : Ref sig .tc := ⟨.hbm, 28, rfl⟩
abbrev main_v6 : Ref sig .tc := ⟨.hbm, 29, rfl⟩
abbrev main_v7 : Ref sig .tc := ⟨.hbm, 30, rfl⟩
abbrev main_cst_4 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_6 : Ref sig .tc := ⟨.hbm, 39, rfl⟩
abbrev main_v12 : Ref sig .tc := ⟨.hbm, 40, rfl⟩
abbrev main_cst_7 : Ref sig .tc := ⟨.hbm, 41, rfl⟩
abbrev main_v13 : Ref sig .tc := ⟨.hbm, 42, rfl⟩
abbrev main_v14 : Ref sig .tc := ⟨.hbm, 43, rfl⟩
abbrev main_c : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_cst_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_cst_1 : Ref sig .tc := ⟨.hbm, 55, rfl⟩
abbrev main_call2_v8 : Ref sig .tc := ⟨.hbm, 56, rfl⟩
abbrev main_call2_cst_2 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_cst_3 : Ref sig .tc := ⟨.hbm, 61, rfl⟩
abbrev main_call2_v12 : Ref sig .tc := ⟨.hbm, 62, rfl⟩
abbrev main_call2_cst_4 : Ref sig .tc := ⟨.hbm, 63, rfl⟩
abbrev main_call2_call0_v0 : Ref sig .tc := ⟨.hbm, 64, rfl⟩
abbrev main_call2_call0_v1 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_cst_8 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_9 : Ref sig .tc := ⟨.hbm, 83, rfl⟩
abbrev main_v31 : Ref sig .tc := ⟨.hbm, 84, rfl⟩
abbrev main_v32 : Ref sig .tc := ⟨.hbm, 85, rfl⟩
abbrev main_cst_10 : Ref sig .tc := ⟨.hbm, 86, rfl⟩
abbrev main_cst_11 : Ref sig .tc := ⟨.hbm, 87, rfl⟩
abbrev main_call3_v0 : Ref sig .tc := ⟨.hbm, 88, rfl⟩
abbrev main_call3_v1 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_cst_14 : Ref sig .tc := ⟨.hbm, 96, rfl⟩
abbrev main_call4_v0 : Ref sig .tc := ⟨.hbm, 97, rfl⟩
abbrev main_call4_v1 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_cst_15 : Ref sig .tc := ⟨.hbm, 103, rfl⟩
abbrev main_v41 : Ref sig .tc := ⟨.hbm, 104, rfl⟩
abbrev main_cst_16 : Ref sig .tc := ⟨.hbm, 105, rfl⟩
abbrev main_v42 : Ref sig .tc := ⟨.hbm, 106, rfl⟩
abbrev main_v43 : Ref sig .tc := ⟨.hbm, 107, rfl⟩
abbrev main_c_17 : Ref sig .tc := ⟨.hbm, 108, rfl⟩
abbrev main_call5_cst : Ref sig .tc := ⟨.hbm, 109, rfl⟩
abbrev main_call5_v0 : Ref sig .tc := ⟨.hbm, 110, rfl⟩
abbrev main_call5_v1 : Ref sig .tc := ⟨.hbm, 111, rfl⟩
abbrev main_call5_cst_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_v6 : Ref sig .tc := ⟨.hbm, 117, rfl⟩
abbrev main_call5_v7 : Ref sig .tc := ⟨.hbm, 118, rfl⟩
abbrev main_call5_cst_1 : Ref sig .tc := ⟨.hbm, 119, rfl⟩
abbrev main_call5_v8 : Ref sig .tc := ⟨.hbm, 120, rfl⟩
abbrev main_call5_cst_2 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_cst_3 : Ref sig .tc := ⟨.hbm, 125, rfl⟩
abbrev main_call5_v12 : Ref sig .tc := ⟨.hbm, 126, rfl⟩
abbrev main_call5_cst_4 : Ref sig .tc := ⟨.hbm, 127, rfl⟩
abbrev main_call5_call0_v0 : Ref sig .tc := ⟨.hbm, 128, rfl⟩
abbrev main_call5_call0_v1 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_cst_18 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_cst_19 : Ref sig .tc := ⟨.hbm, 147, rfl⟩
abbrev main_v60 : Ref sig .tc := ⟨.hbm, 148, rfl⟩
abbrev main_v61 : Ref sig .tc := ⟨.hbm, 149, rfl⟩
abbrev main_cst_20 : Ref sig .tc := ⟨.hbm, 150, rfl⟩
abbrev main_cst_21 : Ref sig .tc := ⟨.hbm, 151, rfl⟩
abbrev main_call6_v0 : Ref sig .tc := ⟨.hbm, 152, rfl⟩
abbrev main_call6_v1 : Ref sig .tc := ⟨.hbm, 153, rfl⟩
abbrev main_v62 : Ref sig .tc := ⟨.hbm, 154, rfl⟩
abbrev main_v63 : Ref sig .tc := ⟨.hbm, 155, rfl⟩
abbrev main_cst_22 : Ref sig .tc := ⟨.hbm, 156, rfl⟩
abbrev main_v64 : Ref sig .tc := ⟨.hbm, 157, rfl⟩
abbrev main_v65 : Ref sig .tc := ⟨.hbm, 158, rfl⟩
abbrev main_cst_23 : Ref sig .tc := ⟨.hbm, 159, rfl⟩
abbrev main_cst_24 : Ref sig .tc := ⟨.hbm, 160, rfl⟩
abbrev main_call7_v0 : Ref sig .tc := ⟨.hbm, 161, rfl⟩
abbrev main_call7_v1 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_cst_25 : Ref sig .tc := ⟨.hbm, 167, rfl⟩
abbrev main_v70 : Ref sig .tc := ⟨.hbm, 168, rfl⟩
abbrev main_cst_26 : Ref sig .tc := ⟨.hbm, 169, rfl⟩
abbrev main_v71 : Ref sig .tc := ⟨.hbm, 170, rfl⟩
abbrev main_v72 : Ref sig .tc := ⟨.hbm, 171, rfl⟩
abbrev main_c_27 : Ref sig .tc := ⟨.hbm, 172, rfl⟩
abbrev main_call8_cst : Ref sig .tc := ⟨.hbm, 173, rfl⟩
abbrev main_call8_v0 : Ref sig .tc := ⟨.hbm, 174, rfl⟩
abbrev main_call8_v1 : Ref sig .tc := ⟨.hbm, 175, rfl⟩
abbrev main_call8_cst_0 : Ref sig .tc := ⟨.hbm, 176, rfl⟩
abbrev main_call8_v2 : Ref sig .tc := ⟨.hbm, 177, rfl⟩
abbrev main_call8_v3 : Ref sig .tc := ⟨.hbm, 178, rfl⟩
abbrev main_call8_v4 : Ref sig .tc := ⟨.hbm, 179, rfl⟩
abbrev main_call8_v5 : Ref sig .tc := ⟨.hbm, 180, rfl⟩
abbrev main_call8_v6 : Ref sig .tc := ⟨.hbm, 181, rfl⟩
abbrev main_call8_v7 : Ref sig .tc := ⟨.hbm, 182, rfl⟩
abbrev main_call8_cst_1 : Ref sig .tc := ⟨.hbm, 183, rfl⟩
abbrev main_call8_v8 : Ref sig .tc := ⟨.hbm, 184, rfl⟩
abbrev main_call8_cst_2 : Ref sig .tc := ⟨.hbm, 185, rfl⟩
abbrev main_call8_v9 : Ref sig .tc := ⟨.hbm, 186, rfl⟩
abbrev main_call8_v10 : Ref sig .tc := ⟨.hbm, 187, rfl⟩
abbrev main_call8_v11 : Ref sig .tc := ⟨.hbm, 188, rfl⟩
abbrev main_call8_cst_3 : Ref sig .tc := ⟨.hbm, 189, rfl⟩
abbrev main_call8_v12 : Ref sig .tc := ⟨.hbm, 190, rfl⟩
abbrev main_call8_cst_4 : Ref sig .tc := ⟨.hbm, 191, rfl⟩
abbrev main_call8_call0_v0 : Ref sig .tc := ⟨.hbm, 192, rfl⟩
abbrev main_call8_call0_v1 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_cst_28 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_cst_29 : Ref sig .tc := ⟨.hbm, 211, rfl⟩
abbrev main_v89 : Ref sig .tc := ⟨.hbm, 212, rfl⟩
abbrev main_v90 : Ref sig .tc := ⟨.hbm, 213, rfl⟩
abbrev main_cst_30 : Ref sig .tc := ⟨.hbm, 214, rfl⟩
abbrev main_cst_31 : Ref sig .tc := ⟨.hbm, 215, rfl⟩
abbrev main_call9_v0 : Ref sig .tc := ⟨.hbm, 216, rfl⟩
abbrev main_call9_v1 : Ref sig .tc := ⟨.hbm, 217, rfl⟩
abbrev main_v91 : Ref sig .tc := ⟨.hbm, 218, rfl⟩
abbrev main_v92 : Ref sig .tc := ⟨.hbm, 219, rfl⟩
abbrev main_cst_32 : Ref sig .tc := ⟨.hbm, 220, rfl⟩
abbrev main_v93 : Ref sig .tc := ⟨.hbm, 221, rfl⟩
abbrev main_v94 : Ref sig .tc := ⟨.hbm, 222, rfl⟩
abbrev main_cst_33 : Ref sig .tc := ⟨.hbm, 223, rfl⟩
abbrev main_cst_34 : Ref sig .tc := ⟨.hbm, 224, rfl⟩
abbrev main_call10_v0 : Ref sig .tc := ⟨.hbm, 225, rfl⟩
abbrev main_call10_v1 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_cst_35 : Ref sig .tc := ⟨.hbm, 231, rfl⟩
abbrev main_v99 : Ref sig .tc := ⟨.hbm, 232, rfl⟩
abbrev main_cst_36 : Ref sig .tc := ⟨.hbm, 233, rfl⟩
abbrev main_v100 : Ref sig .tc := ⟨.hbm, 234, rfl⟩
abbrev main_v101 : Ref sig .tc := ⟨.hbm, 235, rfl⟩
abbrev main_c_37 : Ref sig .tc := ⟨.hbm, 236, rfl⟩
abbrev main_call11_cst : Ref sig .tc := ⟨.hbm, 237, rfl⟩
abbrev main_call11_v0 : Ref sig .tc := ⟨.hbm, 238, rfl⟩
abbrev main_call11_v1 : Ref sig .tc := ⟨.hbm, 239, rfl⟩
abbrev main_call11_cst_0 : Ref sig .tc := ⟨.hbm, 240, rfl⟩
abbrev main_call11_v2 : Ref sig .tc := ⟨.hbm, 241, rfl⟩
abbrev main_call11_v3 : Ref sig .tc := ⟨.hbm, 242, rfl⟩
abbrev main_call11_v4 : Ref sig .tc := ⟨.hbm, 243, rfl⟩
abbrev main_call11_v5 : Ref sig .tc := ⟨.hbm, 244, rfl⟩
abbrev main_call11_v6 : Ref sig .tc := ⟨.hbm, 245, rfl⟩
abbrev main_call11_v7 : Ref sig .tc := ⟨.hbm, 246, rfl⟩
abbrev main_call11_cst_1 : Ref sig .tc := ⟨.hbm, 247, rfl⟩
abbrev main_call11_v8 : Ref sig .tc := ⟨.hbm, 248, rfl⟩
abbrev main_call11_cst_2 : Ref sig .tc := ⟨.hbm, 249, rfl⟩
abbrev main_call11_v9 : Ref sig .tc := ⟨.hbm, 250, rfl⟩
abbrev main_call11_v10 : Ref sig .tc := ⟨.hbm, 251, rfl⟩
abbrev main_call11_v11 : Ref sig .tc := ⟨.hbm, 252, rfl⟩
abbrev main_call11_cst_3 : Ref sig .tc := ⟨.hbm, 253, rfl⟩
abbrev main_call11_v12 : Ref sig .tc := ⟨.hbm, 254, rfl⟩
abbrev main_call11_cst_4 : Ref sig .tc := ⟨.hbm, 255, rfl⟩
abbrev main_call11_call0_v0 : Ref sig .tc := ⟨.hbm, 256, rfl⟩
abbrev main_call11_call0_v1 : Ref sig .tc := ⟨.hbm, 257, rfl⟩
abbrev main_v102 : Ref sig .tc := ⟨.hbm, 258, rfl⟩
abbrev main_v103 : Ref sig .tc := ⟨.hbm, 259, rfl⟩
abbrev main_v104 : Ref sig .tc := ⟨.hbm, 260, rfl⟩
abbrev main_v105 : Ref sig .tc := ⟨.hbm, 261, rfl⟩
abbrev main_v106 : Ref sig .tc := ⟨.hbm, 262, rfl⟩
abbrev main_v107 : Ref sig .tc := ⟨.hbm, 263, rfl⟩
abbrev main_v108 : Ref sig .tc := ⟨.hbm, 264, rfl⟩
abbrev main_cst_38 : Ref sig .tc := ⟨.hbm, 265, rfl⟩
abbrev main_v109 : Ref sig .tc := ⟨.hbm, 266, rfl⟩
abbrev main_v110 : Ref sig .tc := ⟨.hbm, 267, rfl⟩
abbrev main_v111 : Ref sig .tc := ⟨.hbm, 268, rfl⟩
abbrev main_v112 : Ref sig .tc := ⟨.hbm, 269, rfl⟩
abbrev main_v113 : Ref sig .tc := ⟨.hbm, 270, rfl⟩
abbrev main_v114 : Ref sig .tc := ⟨.hbm, 271, rfl⟩
abbrev main_v115 : Ref sig .tc := ⟨.hbm, 272, rfl⟩
abbrev main_v116 : Ref sig .tc := ⟨.hbm, 273, rfl⟩
abbrev main_v117 : Ref sig .tc := ⟨.hbm, 274, rfl⟩
abbrev main_cst_39 : Ref sig .tc := ⟨.hbm, 275, rfl⟩
abbrev main_v118 : Ref sig .tc := ⟨.hbm, 276, rfl⟩
abbrev main_v119 : Ref sig .tc := ⟨.hbm, 277, rfl⟩
abbrev main_cst_40 : Ref sig .tc := ⟨.hbm, 278, rfl⟩
abbrev main_cst_41 : Ref sig .tc := ⟨.hbm, 279, rfl⟩
abbrev main_call12_v0 : Ref sig .tc := ⟨.hbm, 280, rfl⟩
abbrev main_call12_v1 : Ref sig .tc := ⟨.hbm, 281, rfl⟩
abbrev main_v120 : Ref sig .tc := ⟨.hbm, 282, rfl⟩
abbrev main_v121 : Ref sig .tc := ⟨.hbm, 283, rfl⟩
abbrev main_cst_42 : Ref sig .tc := ⟨.hbm, 284, rfl⟩
abbrev main_v122 : Ref sig .tc := ⟨.hbm, 285, rfl⟩
abbrev main_v123 : Ref sig .tc := ⟨.hbm, 286, rfl⟩
abbrev main_cst_43 : Ref sig .tc := ⟨.hbm, 287, rfl⟩
abbrev main_cst_44 : Ref sig .tc := ⟨.hbm, 288, rfl⟩
abbrev main_call13_v0 : Ref sig .tc := ⟨.hbm, 289, rfl⟩
abbrev main_call13_v1 : Ref sig .tc := ⟨.hbm, 290, rfl⟩
abbrev main_v124 : Ref sig .tc := ⟨.hbm, 291, rfl⟩
abbrev main_v125 : Ref sig .tc := ⟨.hbm, 292, rfl⟩
abbrev main_v126 : Ref sig .tc := ⟨.hbm, 293, rfl⟩
abbrev main_v127 : Ref sig .tc := ⟨.hbm, 294, rfl⟩
abbrev main_cst_45 : Ref sig .tc := ⟨.hbm, 295, rfl⟩
abbrev main_v128 : Ref sig .tc := ⟨.hbm, 296, rfl⟩
abbrev main_cst_46 : Ref sig .tc := ⟨.hbm, 297, rfl⟩
abbrev main_v129 : Ref sig .tc := ⟨.hbm, 298, rfl⟩
abbrev main_v130 : Ref sig .tc := ⟨.hbm, 299, rfl⟩
abbrev main_c_47 : Ref sig .tc := ⟨.hbm, 300, rfl⟩
abbrev main_call14_cst : Ref sig .tc := ⟨.hbm, 301, rfl⟩
abbrev main_call14_v0 : Ref sig .tc := ⟨.hbm, 302, rfl⟩
abbrev main_call14_v1 : Ref sig .tc := ⟨.hbm, 303, rfl⟩
abbrev main_call14_cst_0 : Ref sig .tc := ⟨.hbm, 304, rfl⟩
abbrev main_call14_v2 : Ref sig .tc := ⟨.hbm, 305, rfl⟩
abbrev main_call14_v3 : Ref sig .tc := ⟨.hbm, 306, rfl⟩
abbrev main_call14_v4 : Ref sig .tc := ⟨.hbm, 307, rfl⟩
abbrev main_call14_v5 : Ref sig .tc := ⟨.hbm, 308, rfl⟩
abbrev main_call14_v6 : Ref sig .tc := ⟨.hbm, 309, rfl⟩
abbrev main_call14_v7 : Ref sig .tc := ⟨.hbm, 310, rfl⟩
abbrev main_call14_cst_1 : Ref sig .tc := ⟨.hbm, 311, rfl⟩
abbrev main_call14_v8 : Ref sig .tc := ⟨.hbm, 312, rfl⟩
abbrev main_call14_cst_2 : Ref sig .tc := ⟨.hbm, 313, rfl⟩
abbrev main_call14_v9 : Ref sig .tc := ⟨.hbm, 314, rfl⟩
abbrev main_call14_v10 : Ref sig .tc := ⟨.hbm, 315, rfl⟩
abbrev main_call14_v11 : Ref sig .tc := ⟨.hbm, 316, rfl⟩
abbrev main_call14_cst_3 : Ref sig .tc := ⟨.hbm, 317, rfl⟩
abbrev main_call14_v12 : Ref sig .tc := ⟨.hbm, 318, rfl⟩
abbrev main_call14_cst_4 : Ref sig .tc := ⟨.hbm, 319, rfl⟩
abbrev main_call14_call0_v0 : Ref sig .tc := ⟨.hbm, 320, rfl⟩
abbrev main_call14_call0_v1 : Ref sig .tc := ⟨.hbm, 321, rfl⟩
abbrev main_v131 : Ref sig .tc := ⟨.hbm, 322, rfl⟩
abbrev main_v132 : Ref sig .tc := ⟨.hbm, 323, rfl⟩
abbrev main_v133 : Ref sig .tc := ⟨.hbm, 324, rfl⟩
abbrev main_v134 : Ref sig .tc := ⟨.hbm, 325, rfl⟩
abbrev main_v135 : Ref sig .tc := ⟨.hbm, 326, rfl⟩
abbrev main_v136 : Ref sig .tc := ⟨.hbm, 327, rfl⟩
abbrev main_v137 : Ref sig .tc := ⟨.hbm, 328, rfl⟩
abbrev main_cst_48 : Ref sig .tc := ⟨.hbm, 329, rfl⟩
abbrev main_v138 : Ref sig .tc := ⟨.hbm, 330, rfl⟩
abbrev main_v139 : Ref sig .tc := ⟨.hbm, 331, rfl⟩
abbrev main_v140 : Ref sig .tc := ⟨.hbm, 332, rfl⟩
abbrev main_v141 : Ref sig .tc := ⟨.hbm, 333, rfl⟩
abbrev main_v142 : Ref sig .tc := ⟨.hbm, 334, rfl⟩
abbrev main_v143 : Ref sig .tc := ⟨.hbm, 335, rfl⟩
abbrev main_v144 : Ref sig .tc := ⟨.hbm, 336, rfl⟩
abbrev main_v145 : Ref sig .tc := ⟨.hbm, 337, rfl⟩
abbrev main_v146 : Ref sig .tc := ⟨.hbm, 338, rfl⟩
abbrev main_cst_49 : Ref sig .tc := ⟨.hbm, 339, rfl⟩
abbrev main_v147 : Ref sig .tc := ⟨.hbm, 340, rfl⟩
abbrev main_cst_50 : Ref sig .tc := ⟨.hbm, 341, rfl⟩
abbrev main_v148 : Ref sig .tc := ⟨.hbm, 342, rfl⟩
abbrev main_v149 : Ref sig .tc := ⟨.hbm, 343, rfl⟩
abbrev main_v150 : Ref sig .tc := ⟨.hbm, 344, rfl⟩
abbrev main_v151 : Ref sig .tc := ⟨.hbm, 345, rfl⟩
abbrev main_v152 : Ref sig .tc := ⟨.hbm, 346, rfl⟩
abbrev main_v153 : Ref sig .tc := ⟨.hbm, 347, rfl⟩
abbrev main_cst_51 : Ref sig .tc := ⟨.hbm, 348, rfl⟩
abbrev main_v154 : Ref sig .tc := ⟨.hbm, 349, rfl⟩
abbrev main_v155 : Ref sig .tc := ⟨.hbm, 350, rfl⟩
abbrev main_v156 : Ref sig .tc := ⟨.hbm, 351, rfl⟩
abbrev main_v157 : Ref sig .tc := ⟨.hbm, 352, rfl⟩

abbrev nD : Nat := 1
abbrev τ : Topo := Topo.v7x

variable {F : FTy → Type} [FloatOps F]

class Facts₀ : Prop where
  bcast_S_S32768x784 : S_.BroadcastsInDim S32768x784 (![] : Fin 0 → Fin S32768x784.rank)
  bcast_S_S256x784 : S_.BroadcastsInDim S256x784 (![] : Fin 0 → Fin S256x784.rank)
  transposes_S256x784_S784x256_1_0 : S256x784.Transposes [1, 0] S784x256
  reducesTo_S32768x256_S256_d0 : S32768x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S_S256x256 : S_.BroadcastsInDim S256x256 (![] : Fin 0 → Fin S256x256.rank)
  transposes_S256x256_S256x256_1_0 : S256x256.Transposes [1, 0] S256x256
  bcast_S_S10x256 : S_.BroadcastsInDim S10x256 (![] : Fin 0 → Fin S10x256.rank)
  transposes_S10x256_S256x10_1_0 : S10x256.Transposes [1, 0] S256x10
  reducesTo_S32768x10_S10_d0 : S32768x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S_S1x10 : S_.BroadcastsInDim S1x10 (![] : Fin 0 → Fin S1x10.rank)
  bcast_S1x10_S32768x10_0_1 : S1x10.BroadcastsInDim S32768x10 (![0, 1] : Fin 2 → Fin S32768x10.rank)
  reducesTo_S32768x10_S32768_d1 : S32768x10.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x10_0_1 : S32768x1.BroadcastsInDim S32768x10 (![0, 1] : Fin 2 → Fin S32768x10.rank)
  dot_S32768x784_S784x256_S32768x256_1_0_0_1_n_n_wf : DotDims.WF S32768x784 S784x256 S32768x256 [1] [0] [0] [1] [] []
  dot_S32768x256_S256x256_S32768x256_1_0_0_1_n_n_wf : DotDims.WF S32768x256 S256x256 S32768x256 [1] [0] [0] [1] [] []
  dot_S32768x256_S256x10_S32768x10_1_0_0_1_n_n_wf : DotDims.WF S32768x256 S256x10 S32768x10 [1] [0] [0] [1] [] []

variable [Facts₀]

def dot_S32768x784_S784x256_S32768x256_1_0_0_1_n_n : DotDims S32768x784 S784x256 S32768x256 where
  lhsContracting := [1]
  rhsContracting := [0]
  lhsNonContracting := [0]
  rhsNonContracting := [1]
  lhsBatch := []
  rhsBatch := []
  wf := dot_S32768x784_S784x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x10_S32768x10_1_0_0_1_n_n : DotDims S32768x256 S256x10 S32768x10 where
  lhsContracting := [1]
  rhsContracting := [0]
  lhsNonContracting := [0]
  rhsNonContracting := [1]
  lhsBatch := []
  rhsBatch := []
  wf := dot_S32768x256_S256x10_S32768x10_1_0_0_1_n_n_wf

class Facts : Prop extends Facts₀ where

variable [Facts]
-- ==== Proof.Layer0SharedBits.lean ====
/-
  The first layer's region: at each of 16 grid points (2 halves of the batch × 8 blocks of 2048 rows) the body
  forms h = sign(x − ½) · sign(W)ᵀ for its block of rows, stores it, and adds the column sums of h and of h² into
  two one-row scratch buffers that are cleared at the first block of a half and copied out (eight identical rows)
  at the last block of a half. Here: the two branch conditions in closed form over the grid, where the two
  statistics windows are idle, the names of the buffers the body is called with, and the region's untouched rest
  with the two scratch rows split out.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "This is the first block of its half": the inner grid coordinate is 0. -/
abbrev l0First (i : grid0.Coords) : Prop :=
  (Scalar.cmpi .ne (Scalar.extui (Scalar.cmpi .eq (BitVec.ofNat 32 (i 1).val) 0#32)) 0#32) = 1#1
theorem l0First_iff : ∀ t : Fin cfg0.N, l0First (grid0.coords t) ↔ t.val % 8 = 0 :=
  (by decide +kernel : ∀ t : Fin grid0.N, l0First (grid0.coords t) ↔ t.val % 8 = 0)

/-- "This is the last block of its half": the inner grid coordinate is 7. -/
abbrev l0Last (i : grid0.Coords) : Prop := k0_cond2 i = 1#1
theorem l0Last_iff : ∀ t : Fin cfg0.N, l0Last (grid0.coords t) ↔ t.val % 8 = 7 :=
  (by decide +kernel : ∀ t : Fin grid0.N, l0Last (grid0.coords t) ↔ t.val % 8 = 7)

/-! ## Where the windows are idle -/

theorem l0Live0 : ∀ t : Fin cfg0.N, cfg0.idle 0 (grid0.coords t) = false := by decide +kernel
theorem l0Live1 : ∀ t : Fin cfg0.N, cfg0.idle 1 (grid0.coords t) = false := by decide +kernel
theorem l0Live2 : ∀ t : Fin cfg0.N, cfg0.idle 2 (grid0.coords t) = false := by decide +kernel
/-- The two statistics windows are idle, and not written back, except at the last block of a half. -/
theorem l0Idle3 : ∀ t : Fin cfg0.N, ¬l0Last (grid0.coords t) → cfg0.idle 3 (grid0.coords t) = true := by decide +kernel
theorem l0NoFlush3 : ∀ t : Fin cfg0.N, ¬l0Last (grid0.coords t) → (cfg0.win 3).flush t = false := by decide +kernel
theorem l0Live3 : ∀ t : Fin cfg0.N, l0Last (grid0.coords t) → cfg0.idle 3 (grid0.coords t) = false := by decide +kernel
theorem l0Idle4 : ∀ t : Fin cfg0.N, ¬l0Last (grid0.coords t) → cfg0.idle 4 (grid0.coords t) = true := by decide +kernel
theorem l0NoFlush4 : ∀ t : Fin cfg0.N, ¬l0Last (grid0.coords t) → (cfg0.win 4).flush t = false := by decide +kernel
theorem l0Live4 : ∀ t : Fin cfg0.N, l0Last (grid0.coords t) → cfg0.idle 4 (grid0.coords t) = false := by decide +kernel

/-! ## The buffers the body is called with -/

abbrev l0m0 (t : Fin cfg0.N) : Memref sig .tc .vmem S2048x784 .f32 := win0_0.stage (cfg0.slots t 0)
abbrev l0h0 (t : Fin cfg0.N) : (l0m0 t).IsWhole := hstage0_0 ((cfg0.slots t 0).cast nbuf0_0)
abbrev l0m1 (t : Fin cfg0.N) : Memref sig .tc .vmem S256x784 .bf16 := win0_1.stage (cfg0.slots t 1)
abbrev l0h1 (t : Fin cfg0.N) : (l0m1 t).IsWhole := hstage0_1 ((cfg0.slots t 1).cast nbuf0_1)
abbrev l0m2 (t : Fin cfg0.N) : Memref sig .tc .vmem S2048x256 .f32 := win0_2.stage (cfg0.slots t 2)
abbrev l0h2 (t : Fin cfg0.N) : (l0m2 t).IsWhole := hstage0_2 ((cfg0.slots t 2).cast nbuf0_2)
abbrev l0m3 (t : Fin cfg0.N) : Memref sig .tc .vmem S8x256 .f32 := win0_3.stage (cfg0.slots t 3)
abbrev l0h3 (t : Fin cfg0.N) : (l0m3 t).IsWhole := hstage0_3 ((cfg0.slots t 3).cast nbuf0_3)
abbrev l0m4 (t : Fin cfg0.N) : Memref sig .tc .vmem S8x256 .f32 := win0_4.stage (cfg0.slots t 4)
abbrev l0h4 (t : Fin cfg0.N) : (l0m4 t).IsWhole := hstage0_4 ((cfg0.slots t 4).cast nbuf0_4)
/-- The running column sums of h and of h²: one row each, the kernel's own. -/
abbrev l0Sum : Memref sig .tc .vmem S1x256 .f32 := Memref.whole cc0_scratch0
abbrev l0Sq : Memref sig .tc .vmem S1x256 .f32 := Memref.whole cc0_scratch1

/-- The region's untouched rest, with the two scratch rows owned at some contents each. -/
theorem l0Rest (c : Dev nD) :
    (Pipeline.ΦA spec0 c : sProp 𝕄)
      = iprop(iprop(iprop((∃ d, owns (c : Thread nD τ) l0Sum fullShare d) ∗ (∃ d, owns (c : Thread nD τ) l0Sq fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [l0Sum, l0Sq, owns_whole]; try rfl

end Cert.Kernel.Hand

end
-- ==== Proof.Layer0FirstBits.lean ====
/-
  The first layer's body at the first block of a half (and not the last): the two scratch rows are cleared, then
  take the column sums of this block's h and h²; h is stored; the statistics windows are not touched.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer0SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l0RunFirst (c : Dev nD) (i : grid0.Coords) (a2 : Memref sig .tc .vmem S2048x784 .f32) (h2 : a2.IsWhole) (a3 : Memref sig .tc .vmem S256x784 .bf16) (h3 : a3.IsWhole) (a4 : Memref sig .tc .vmem S2048x256 .f32) (h4 : a4.IsWhole) (a5 : Memref sig .tc .vmem S8x256 .f32) (h5 : a5.IsWhole) (a6 : Memref sig .tc .vmem S8x256 .f32) (h6 : a6.IsWhole) (a7 : Memref sig .tc .vmem S1x256 .f32) (h7 : a7.IsWhole) (a8 : Memref sig .tc .vmem S1x256 .f32) (h8 : a8.IsWhole)
    (hF : l0First i) (hL : ¬l0Last i) (x0 : Vec F S2048x784 .f32) (x1 : Vec F S256x784 .bf16) :
    Σ' (LH : List (View.Piece (Elt F) S2048x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ (∃ d, owns (c : Thread nD τ) a4 fullShare d) ∗ owns (c : Thread nD τ) a5 fullShare y3 ∗ owns (c : Thread nD τ) a6 fullShare y4
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ (∃ f, a4.view.loc (c : Thread nD τ) ↦[a4.view.set]{fullShare} a4.view.writes (Elt F) f LH) ∗ owns (c : Thread nD τ) a5 fullShare y3 ∗ owns (c : Thread nD τ) a6 fullShare y4
                ∗ (∃ f, a7.view.loc (c : Thread nD τ) ↦[a7.view.set]{fullShare} a7.view.writes (Elt F) f LS) ∗ (∃ f, a8.view.loc (c : Thread nD τ) ↦[a8.view.set]{fullShare} a8.view.writes (Elt F) f LQ)) -∗ K ⟨⟩))
          ⊢ wp frame (wpE (defs₀ (F := F)) Variants.none c none) E (cc0__matmul_stats_kernel_raw i a2 h2 a3 h3 a4 h4 a5 h5 a6 h6 a7 h7 a8 h8) K } := by
  refine ⟨?_, ?_, ?_, fun y3 y4 E K => ?run⟩
  case run =>
    simp only [cc0__matmul_stats_kernel_raw_eq_skeleton]; unfold cc0__matmul_stats_kernel_raw_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%dS, %fS, -, HS⟩, ⟨%dQ, %fQ, -, HQ⟩, Hk⟩
    obtain rfl := h2.eq_unread hf0; obtain rfl := h3.eq_unread hf1; obtain rfl := h5.eq_unread hf3; obtain rfl := h6.eq_unread hf4
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    isplitl [H3]
    · iexists _; isplitr; · ipureintro; exact h5.read_unread _
      iexact H3
    isplitl [H4]
    · iexists _; isplitr; · ipureintro; exact h6.read_unread _
      iexact H4
    isplitl [HS]; · iexists _; iexact HS
    iexists _; iexact HQ

end Cert.Kernel.Hand

end
-- ==== Proof.Layer0MidBits.lean ====
/-
  The first layer's body at a block that is neither the first nor the last of its half: h is stored, and the two
  scratch rows, entering at what the block before left, each gain this block's column sums.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer0SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l0RunMid (c : Dev nD) (i : grid0.Coords) (a2 : Memref sig .tc .vmem S2048x784 .f32) (h2 : a2.IsWhole) (a3 : Memref sig .tc .vmem S256x784 .bf16) (h3 : a3.IsWhole) (a4 : Memref sig .tc .vmem S2048x256 .f32) (h4 : a4.IsWhole) (a5 : Memref sig .tc .vmem S8x256 .f32) (h5 : a5.IsWhole) (a6 : Memref sig .tc .vmem S8x256 .f32) (h6 : a6.IsWhole) (a7 : Memref sig .tc .vmem S1x256 .f32) (h7 : a7.IsWhole) (a8 : Memref sig .tc .vmem S1x256 .f32) (h8 : a8.IsWhole)
    (hF : ¬l0First i) (hL : ¬l0Last i) (x0 : Vec F S2048x784 .f32) (x1 : Vec F S256x784 .bf16) (s q : Vec F S1x256 .f32) :
    Σ' (LH : List (View.Piece (Elt F) S2048x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ (∃ d, owns (c : Thread nD τ) a4 fullShare d) ∗ owns (c : Thread nD τ) a5 fullShare y3 ∗ owns (c : Thread nD τ) a6 fullShare y4
            ∗ owns (c : Thread nD τ) a7 fullShare s ∗ owns (c : Thread nD τ) a8 fullShare q
            ∗ (iprop(owns (c : Thread nD τ) a2 fullShare x0 ∗ owns (c : Thread nD τ) a3 fullShare x1 ∗ (∃ f, a4.view.loc (c : Thread nD τ) ↦[a4.view.set]{fullShare} a4.view.writes (Elt F) f LH) ∗ owns (c : Thread nD τ) a5 fullShare y3 ∗ owns (c : Thread nD τ) a6 fullShare y4
                ∗ (∃ f, a7.view.loc (c : Thread nD τ) ↦[a7.view.set]{fullShare} a7.view.writes (Elt F) f LS) ∗ (∃ f, a8.view.loc (c : Thread nD τ) ↦[a8.view.set]{fullShare} a8.view.writes (Elt F) f LQ)) -∗ K ⟨⟩))
          ⊢ wp frame (wpE (defs₀ (F := F)) Variants.none c none) E (cc0__matmul_stats_kernel_raw i a2 h2 a3 h3 a4 h4 a5 h5 a6 h6 a7 h7 a8 h8) K } := by
  refine ⟨?_, ?_, ?_, fun y3 y4 E K => ?run⟩
  case run =>
    simp only [cc0__matmul_stats_kernel_raw_eq_skeleton]; unfold cc0__matmul_stats_kernel_raw_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%fS, %hfS, HS⟩, ⟨%fQ, %hfQ, HQ⟩, Hk⟩
    obtain rfl := h2.eq_unread hf0; obtain rfl := h3.eq_unread hf1; obtain rfl := h5.eq_unread hf3; obtain rfl := h6.eq_unread hf4
    obtain rfl := h7.eq_unread hfS; obtain rfl := h8.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    isplitl [H3]
    · iexists _; isplitr; · ipureintro; exact h5.read_unread _
      iexact H3
    isplitl [H4]
    · iexists _; isplitr; · ipureintro; exact h6.read_unread _
      iexact H4
    isplitl [HS]; · iexists _; iexact HS
    iexists _; iexact HQ

end Cert.Kernel.Hand

end
-- ==== Proof.Layer0LastBits.lean ====
/-
  The first layer's body at the last block of a half: as at a middle block, and then each statistics buffer is
  filled with eight copies of the finished scratch row.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer0SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs come back as they were. -/
noncomputable def l0RunLast (c : Dev nD) (i : grid0.Coords) (a2 : Memref sig .tc .vmem S2048x784 .f32) (h2 : a2.IsWhole) (a3 : Memref sig .tc .vmem S256x784 .bf16) (h3 : a3.IsWhole) (a4 : Memref sig .tc .vmem S2048x256 .f32) (h4 : a4.IsWhole) (a5 : Memref sig .tc .vmem S8x256 .f32) (h5 : a5.IsWhole) (a6 : Memref sig .tc .vmem S8x256 .f32) (h6 : a6.IsWhole) (a7 : Memref sig .tc .vmem S1x256 .f32) (h7 : a7.IsWhole) (a8 : Memref sig .tc .vmem S1x256 .f32) (h8 : a8.IsWhole)
    (hF : ¬l0First i) (hL : l0Last i) (x0 : Vec F S2048x784 .f32) (x1 : Vec F S256x784 .bf16) (s q : Vec F S1x256 .f32) :
    Σ' (LH : List (View.Piece (Elt F) S2048x256 .f32)) (L3 L4 : List (View.Piece (Elt F) S8x256 .f32)) (LS : List (View.Piece (Elt F) S1x256 .f32)), { LQ : List (View.Piece (Elt F) S1x256 .f32) //
      ∀ (E : Set ℕ) (K : PUnit → sProp 𝕄),
        iprop(owns (c : Thread nD τ) a2 fullShare x0 ∗ owns (c : Thread nD τ) a3 fullShare x1 ∗ (∃ d, owns (c : Thread nD τ) a4 fullShare d) ∗ (∃ d, owns (c : Thread nD τ) a5 fullShare d) ∗ (∃ d, owns (c : Thread nD τ) a6 fullShare d)
            ∗ owns (c : Thread nD τ) a7 fullShare s ∗ owns (c : Thread nD τ) a8 fullShare q
            ∗ (iprop(owns (c : Thread nD τ) a2 fullShare x0 ∗ owns (c : Thread nD τ) a3 fullShare x1 ∗ (∃ f, a4.view.loc (c : Thread nD τ) ↦[a4.view.set]{fullShare} a4.view.writes (Elt F) f LH) ∗ (∃ f, a5.view.loc (c : Thread nD τ) ↦[a5.view.set]{fullShare} a5.view.writes (Elt F) f L3) ∗ (∃ f, a6.view.loc (c : Thread nD τ) ↦[a6.view.set]{fullShare} a6.view.writes (Elt F) f L4)
                ∗ (∃ f, a7.view.loc (c : Thread nD τ) ↦[a7.view.set]{fullShare} a7.view.writes (Elt F) f LS) ∗ (∃ f, a8.view.loc (c : Thread nD τ) ↦[a8.view.set]{fullShare} a8.view.writes (Elt F) f LQ)) -∗ K ⟨⟩))
          ⊢ wp frame (wpE (defs₀ (F := F)) Variants.none c none) E (cc0__matmul_stats_kernel_raw i a2 h2 a3 h3 a4 h4 a5 h5 a6 h6 a7 h7 a8 h8) K } := by
  refine ⟨?_, ?_, ?_, ?_, ?_, fun E K => ?run⟩
  case run =>
    simp only [cc0__matmul_stats_kernel_raw_eq_skeleton]; unfold cc0__matmul_stats_kernel_raw_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fS, %hfS, HS⟩, ⟨%fQ, %hfQ, HQ⟩, Hk⟩
    obtain rfl := h2.eq_unread hf0; obtain rfl := h3.eq_unread hf1
    obtain rfl := h7.eq_unread hfS; obtain rfl := h8.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    isplitl [H3]; · iexists _; iexact H3
    isplitl [H4]; · iexists _; iexact H4
    isplitl [HS]; · iexists _; iexact HS
    iexists _; iexact HQ

end Cert.Kernel.Hand

end
-- ==== Proof.Layer0RegionBits.lean ====
/-
  The first layer's region as a whole: what each kind of grid point leaves in the buffers, the accumulation of
  the two scratch rows over the eight blocks of a half (by recursion on the position: a first block starts afresh,
  every other block adds to what the block before left), the invariant that carries the scratch rows from one
  point to the next, and the body's obligation at every point. Stated at a parameter V: the contents of the
  core's buffers when the region is entered.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer0FirstBits
import proofs.«126670_j49074296324140_2_alg».proof.Proof.Layer0MidBits
import proofs.«126670_j49074296324140_2_alg».proof.Proof.Layer0LastBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def l0Blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Fixed views through which a buffer's contents after a list of stores are stated (the choice of buffer does not
    matter: only its shape does). -/
abbrev l0VH : View sig .tc .vmem S2048x256 .f32 := (Memref.whole cc0_stg2_0 : Memref sig .tc .vmem S2048x256 .f32).view
abbrev l0V3 : View sig .tc .vmem S8x256 .f32 := (Memref.whole cc0_stg3_0 : Memref sig .tc .vmem S8x256 .f32).view
abbrev l0V4 : View sig .tc .vmem S8x256 .f32 := (Memref.whole cc0_stg4_0 : Memref sig .tc .vmem S8x256 .f32).view
abbrev l0VS : View sig .tc .vmem S1x256 .f32 := l0Sum.view
abbrev l0VQ : View sig .tc .vmem S1x256 .f32 := l0Sq.view

/-! ## The three kinds of point, at the buffers the pipeline passes -/

abbrev l0FirstAt (c : Dev nD) (t : Fin cfg0.N) (hF : l0First (grid0.coords t)) (hL : ¬l0Last (grid0.coords t)) (x0 : Vec F S2048x784 .f32) (x1 : Vec F S256x784 .bf16) :=
  l0RunFirst c (grid0.coords t) (l0m0 t) (l0h0 t) (l0m1 t) (l0h1 t) (l0m2 t) (l0h2 t) (l0m3 t) (l0h3 t) (l0m4 t) (l0h4 t) l0Sum (Memref.isWhole_whole _) l0Sq (Memref.isWhole_whole _) hF hL x0 x1
abbrev l0MidAt (c : Dev nD) (t : Fin cfg0.N) (hF : ¬l0First (grid0.coords t)) (hL : ¬l0Last (grid0.coords t)) (x0 : Vec F S2048x784 .f32) (x1 : Vec F S256x784 .bf16) (s q : Vec F S1x256 .f32) :=
  l0RunMid c (grid0.coords t) (l0m0 t) (l0h0 t) (l0m1 t) (l0h1 t) (l0m2 t) (l0h2 t) (l0m3 t) (l0h3 t) (l0m4 t) (l0h4 t) l0Sum (Memref.isWhole_whole _) l0Sq (Memref.isWhole_whole _) hF hL x0 x1 s q
abbrev l0LastAt (c : Dev nD) (t : Fin cfg0.N) (hF : ¬l0First (grid0.coords t)) (hL : l0Last (grid0.coords t)) (x0 : Vec F S2048x784 .f32) (x1 : Vec F S256x784 .bf16) (s q : Vec F S1x256 .f32) :=
  l0RunLast c (grid0.coords t) (l0m0 t) (l0h0 t) (l0m1 t) (l0h1 t) (l0m2 t) (l0h2 t) (l0m3 t) (l0h3 t) (l0m4 t) (l0h4 t) l0Sum (Memref.isWhole_whole _) l0Sq (Memref.isWhole_whole _) hF hL x0 x1 s q

/-! Every list of stores covers its buffer (each buffer's last store is of the whole buffer). -/
theorem l0CoverFirstH (c : Dev nD) (t : Fin cfg0.N) (hF : l0First (grid0.coords t)) (hL : ¬l0Last (grid0.coords t)) (x0 : Vec F S2048x784 .f32) (x1 : Vec F S256x784 .bf16) (y : S2048x256.Idx) :
    ∃ pc ∈ (l0FirstAt c t hF hL x0 x1).1, y ∈ pc.1.set :=
  View.cover_of_tiledL (l0FirstAt c t hF hL x0 x1).1 S2048x256.size (by sl_kernel_rfl) y
theorem l0CoverFirstS (c : Dev nD) (t : Fin cfg0.N) (hF : l0First (grid0.coords t)) (hL : ¬l0Last (grid0.coords t)) (x0 : Vec F S2048x784 .f32) (x1 : Vec F S256x784 .bf16) (y : S1x256.Idx) :
    ∃ pc ∈ (l0FirstAt c t hF hL x0 x1).2.1, y ∈ pc.1.set :=
  View.cover_of_tiledL (l0FirstAt c t hF hL x0 x1).2.1 S1x256.size (by sl_kernel_rfl) y
theorem l0CoverFirstQ (c : Dev nD) (t : Fin cfg0.N) (hF : l0First (grid0.coords t)) (hL : ¬l0Last (grid0.coords t)) (x0 : Vec F S2048x784 .f32) (x1 : Vec F S256x784 .bf16) (y : S1x256.Idx) :
    ∃ pc ∈ (l0FirstAt c t hF hL x0 x1).2.2.1, y ∈ pc.1.set :=
  View.cover_of_tiledL (l0FirstAt c t hF hL x0 x1).2.2.1 S1x256.size (by sl_kernel_rfl) y
theorem l0CoverMidH (c : Dev nD) (t : Fin cfg0.N) (hF : ¬l0First (grid0.coords t)) (hL : ¬l0Last (grid0.coords t)) (x0 : Vec F S2048x784 .f32) (x1 : Vec F S256x784 .bf16) (s q : Vec F S1x256 .f32) (y : S2048x256.Idx) :
    ∃ pc ∈ (l0MidAt c t hF hL x0 x1 s q).1, y ∈ pc.1.set :=
  View.cover_of_tiledL (l0MidAt c t hF hL x0 x1 s q).1 S2048x256.size (by sl_kernel_rfl) y
theorem l0CoverMidS (c : Dev nD) (t : Fin cfg0.N) (hF : ¬l0First (grid0.coords t)) (hL : ¬l0Last (grid0.coords t)) (x0 : Vec F S2048x784 .f32) (x1 : Vec F S256x784 .bf16) (s q : Vec F S1x256 .f32) (y : S1x256.Idx) :
    ∃ pc ∈ (l0MidAt c t hF hL x0 x1 s q).2.1, y ∈ pc.1.set :=
  View.cover_of_tiledL (l0MidAt c t hF hL x0 x1 s q).2.1 S1x256.size (by sl_kernel_rfl) y
theorem l0CoverMidQ (c : Dev nD) (t : Fin cfg0.N) (hF : ¬l0First (grid0.coords t)) (hL : ¬l0Last (grid0.coords t)) (x0 : Vec F S2048x784 .f32) (x1 : Vec F S256x784 .bf16) (s q : Vec F S1x256 .f32) (y : S1x256.Idx) :
    ∃ pc ∈ (l0MidAt c t hF hL x0 x1 s q).2.2.1, y ∈ pc.1.set :=
  View.cover_of_tiledL (l0MidAt c t hF hL x0 x1 s q).2.2.1 S1x256.size (by sl_kernel_rfl) y
theorem l0CoverLastH (c : Dev nD) (t : Fin cfg0.N) (hF : ¬l0First (grid0.coords t)) (hL : l0Last (grid0.coords t)) (x0 : Vec F S2048x784 .f32) (x1 : Vec F S256x784 .bf16) (s q : Vec F S1x256 .f32) (y : S2048x256.Idx) :
    ∃ pc ∈ (l0LastAt c t hF hL x0 x1 s q).1, y ∈ pc.1.set :=
  View.cover_of_tiledL (l0LastAt c t hF hL x0 x1 s q).1 S2048x256.size (by sl_kernel_rfl) y
theorem l0CoverLast3 (c : Dev nD) (t : Fin cfg0.N) (hF : ¬l0First (grid0.coords t)) (hL : l0Last (grid0.coords t)) (x0 : Vec F S2048x784 .f32) (x1 : Vec F S256x784 .bf16) (s q : Vec F S1x256 .f32) (y : S8x256.Idx) :
    ∃ pc ∈ (l0LastAt c t hF hL x0 x1 s q).2.1, y ∈ pc.1.set :=
  View.cover_of_tiledL (l0LastAt c t hF hL x0 x1 s q).2.1 S8x256.size (by sl_kernel_rfl) y
theorem l0CoverLast4 (c : Dev nD) (t : Fin cfg0.N) (hF : ¬l0First (grid0.coords t)) (hL : l0Last (grid0.coords t)) (x0 : Vec F S2048x784 .f32) (x1 : Vec F S256x784 .bf16) (s q : Vec F S1x256 .f32) (y : S8x256.Idx) :
    ∃ pc ∈ (l0LastAt c t hF hL x0 x1 s q).2.2.1, y ∈ pc.1.set :=
  View.cover_of_tiledL (l0LastAt c t hF hL x0 x1 s q).2.2.1 S8x256.size (by sl_kernel_rfl) y
theorem l0CoverLastS (c : Dev nD) (t : Fin cfg0.N) (hF : ¬l0First (grid0.coords t)) (hL : l0Last (grid0.coords t)) (x0 : Vec F S2048x784 .f32) (x1 : Vec F S256x784 .bf16) (s q : Vec F S1x256 .f32) (y : S1x256.Idx) :
    ∃ pc ∈ (l0LastAt c t hF hL x0 x1 s q).2.2.2.1, y ∈ pc.1.set :=
  View.cover_of_tiledL (l0LastAt c t hF hL x0 x1 s q).2.2.2.1 S1x256.size (by sl_kernel_rfl) y
theorem l0CoverLastQ (c : Dev nD) (t : Fin cfg0.N) (hF : ¬l0First (grid0.coords t)) (hL : l0Last (grid0.coords t)) (x0 : Vec F S2048x784 .f32) (x1 : Vec F S256x784 .bf16) (s q : Vec F S1x256 .f32) (y : S1x256.Idx) :
    ∃ pc ∈ (l0LastAt c t hF hL x0 x1 s q).2.2.2.2.1, y ∈ pc.1.set :=
  View.cover_of_tiledL (l0LastAt c t hF hL x0 x1 s q).2.2.2.2.1 S1x256.size (by sl_kernel_rfl) y

/-- What a point of each kind leaves: (h's buffer, the two statistics buffers, the two scratch rows). At a point that
    does not store into the statistics buffers their entries are placeholders nothing reads. -/
def l0LeftFirst (c : Dev nD) (t : Fin cfg0.N) (hF : l0First (grid0.coords t)) (hL : ¬l0Last (grid0.coords t)) (x0 : Vec F S2048x784 .f32) (x1 : Vec F S256x784 .bf16) : Vec F S2048x256 .f32 × Vec F S8x256 .f32 × Vec F S8x256 .f32 × Vec F S1x256 .f32 × Vec F S1x256 .f32 :=
  (l0VH.read (Elt F) (l0VH.writes (Elt F) l0VH.junk (l0FirstAt c t hF hL x0 x1).1), l0V3.read (Elt F) l0V3.junk, l0V4.read (Elt F) l0V4.junk,
   l0VS.read (Elt F) (l0VS.writes (Elt F) l0VS.junk (l0FirstAt c t hF hL x0 x1).2.1), l0VQ.read (Elt F) (l0VQ.writes (Elt F) l0VQ.junk (l0FirstAt c t hF hL x0 x1).2.2.1))
def l0LeftMid (c : Dev nD) (t : Fin cfg0.N) (hF : ¬l0First (grid0.coords t)) (hL : ¬l0Last (grid0.coords t)) (x0 : Vec F S2048x784 .f32) (x1 : Vec F S256x784 .bf16) (s q : Vec F S1x256 .f32) : Vec F S2048x256 .f32 × Vec F S8x256 .f32 × Vec F S8x256 .f32 × Vec F S1x256 .f32 × Vec F S1x256 .f32 :=
  (l0VH.read (Elt F) (l0VH.writes (Elt F) l0VH.junk (l0MidAt c t hF hL x0 x1 s q).1), l0V3.read (Elt F) l0V3.junk, l0V4.read (Elt F) l0V4.junk,
   l0VS.read (Elt F) (l0VS.writes (Elt F) l0VS.junk (l0MidAt c t hF hL x0 x1 s q).2.1), l0VQ.read (Elt F) (l0VQ.writes (Elt F) l0VQ.junk (l0MidAt c t hF hL x0 x1 s q).2.2.1))
def l0LeftLast (c : Dev nD) (t : Fin cfg0.N) (hF : ¬l0First (grid0.coords t)) (hL : l0Last (grid0.coords t)) (x0 : Vec F S2048x784 .f32) (x1 : Vec F S256x784 .bf16) (s q : Vec F S1x256 .f32) : Vec F S2048x256 .f32 × Vec F S8x256 .f32 × Vec F S8x256 .f32 × Vec F S1x256 .f32 × Vec F S1x256 .f32 :=
  (l0VH.read (Elt F) (l0VH.writes (Elt F) l0VH.junk (l0LastAt c t hF hL x0 x1 s q).1), l0V3.read (Elt F) (l0V3.writes (Elt F) l0V3.junk (l0LastAt c t hF hL x0 x1 s q).2.1), l0V4.read (Elt F) (l0V4.writes (Elt F) l0V4.junk (l0LastAt c t hF hL x0 x1 s q).2.2.1),
   l0VS.read (Elt F) (l0VS.writes (Elt F) l0VS.junk (l0LastAt c t hF hL x0 x1 s q).2.2.2.1), l0VQ.read (Elt F) (l0VQ.writes (Elt F) l0VQ.junk (l0LastAt c t hF hL x0 x1 s q).2.2.2.2.1))

theorem l0notLast (t : Fin cfg0.N) (h0 : t.val % 8 = 0) : ¬l0Last (grid0.coords t) :=
  fun h => by have h' := (l0Last_iff t).mp h; omega
theorem l0notFirst (t : Fin cfg0.N) (h0 : ¬t.val % 8 = 0) : ¬l0First (grid0.coords t) :=
  fun h => h0 ((l0First_iff t).mp h)
theorem l0notLast' (t : Fin cfg0.N) (h7 : ¬t.val % 8 = 7) : ¬l0Last (grid0.coords t) :=
  fun h => h7 ((l0Last_iff t).mp h)

/-! ## The accumulation -/

/-- What the buffers hold after the body at position n, by recursion on the position: a first block starts the scratch
    rows afresh; every other block continues from what the block before left in them. -/
def l0At (c : Dev nD) : (n : ℕ) → n < cfg0.N → Vec F S2048x256 .f32 × Vec F S8x256 .f32 × Vec F S8x256 .f32 × Vec F S1x256 .f32 × Vec F S1x256 .f32
  | 0, hn => l0LeftFirst c ⟨0, hn⟩ ((l0First_iff ⟨0, hn⟩).mpr (Nat.zero_mod _)) (l0notLast ⟨0, hn⟩ (Nat.zero_mod _)) (l0Blk V c 0 ⟨0, hn⟩) (l0Blk V c 1 ⟨0, hn⟩)
  | n + 1, hn =>
    if h0 : (n + 1) % 8 = 0 then
      l0LeftFirst c ⟨n + 1, hn⟩ ((l0First_iff ⟨n + 1, hn⟩).mpr h0) (l0notLast ⟨n + 1, hn⟩ h0) (l0Blk V c 0 ⟨n + 1, hn⟩) (l0Blk V c 1 ⟨n + 1, hn⟩)
    else if h7 : (n + 1) % 8 = 7 then
      l0LeftLast c ⟨n + 1, hn⟩ (l0notFirst ⟨n + 1, hn⟩ h0) ((l0Last_iff ⟨n + 1, hn⟩).mpr h7) (l0Blk V c 0 ⟨n + 1, hn⟩) (l0Blk V c 1 ⟨n + 1, hn⟩)
        (l0At c n (Nat.lt_of_succ_lt hn)).2.2.2.1 (l0At c n (Nat.lt_of_succ_lt hn)).2.2.2.2
    else
      l0LeftMid c ⟨n + 1, hn⟩ (l0notFirst ⟨n + 1, hn⟩ h0) (l0notLast' ⟨n + 1, hn⟩ h7) (l0Blk V c 0 ⟨n + 1, hn⟩) (l0Blk V c 1 ⟨n + 1, hn⟩)
        (l0At c n (Nat.lt_of_succ_lt hn)).2.2.2.1 (l0At c n (Nat.lt_of_succ_lt hn)).2.2.2.2

theorem l0At_first (c : Dev nD) (t : Fin cfg0.N) (h0 : t.val % 8 = 0) :
    l0At V c t.val t.isLt = l0LeftFirst c t ((l0First_iff t).mpr h0) (l0notLast t h0) (l0Blk V c 0 t) (l0Blk V c 1 t) := by
  obtain ⟨n, hn⟩ := t
  cases n with
  | zero => exact rfl
  | succ n => exact (dif_pos h0).trans rfl

theorem l0At_last (c : Dev nD) (t : Fin cfg0.N) (h0 : ¬t.val % 8 = 0) (h7 : t.val % 8 = 7) :
    l0At V c t.val t.isLt = l0LeftLast c t (l0notFirst t h0) ((l0Last_iff t).mpr h7) (l0Blk V c 0 t) (l0Blk V c 1 t)
      (l0At V c (t.val - 1) (Nat.lt_of_le_of_lt (Nat.sub_le _ _) t.isLt)).2.2.2.1 (l0At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h7).trans rfl)

theorem l0At_mid (c : Dev nD) (t : Fin cfg0.N) (h0 : ¬t.val % 8 = 0) (h7 : ¬t.val % 8 = 7) :
    l0At V c t.val t.isLt = l0LeftMid c t (l0notFirst t h0) (l0notLast' t h7) (l0Blk V c 0 t) (l0Blk V c 1 t)
      (l0At V c (t.val - 1) (Nat.lt_of_le_of_lt (Nat.sub_le _ _) t.isLt)).2.2.2.1 (l0At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h7).trans rfl)

/-! ## The invariant between points -/

/-- Before the first point the region's rest as the launch hands it over; afterwards the same with the two scratch rows
    at what the point before left in them. -/
def l0Phi (c : Dev nD) : (n : ℕ) → n ≤ cfg0.N → sProp 𝕄
  | 0, _ => Pipeline.ΦA spec0 c
  | n + 1, hn => iprop(iprop(iprop(owns (c : Thread nD τ) l0Sum fullShare (l0At V c n hn).2.2.2.1 ∗ owns (c : Thread nD τ) l0Sq fullShare (l0At V c n hn).2.2.2.2)
      ∗ Pipeline.scopedRestBut (Ix := Unit) (Name := ℕ) (U := UR sig nD τ) (Lvl := ℕ) (Val := Elt F) spec0 c [cc0_scratch0, cc0_scratch1]) ∗ (∃ r, prngReg c r))

theorem l0Phi_zero (c : Dev nD) (n : ℕ) (h : n ≤ cfg0.N) (hz : n = 0) : l0Phi V c n h = Pipeline.ΦA spec0 c := by
  subst hz; rfl
theorem l0Phi_succ (c : Dev nD) (n : ℕ) (hn : n < cfg0.N) :
    l0Phi V c (n + 1) hn = iprop(iprop(iprop(owns (c : Thread nD τ) l0Sum fullShare (l0At V c n hn).2.2.2.1 ∗ owns (c : Thread nD τ) l0Sq fullShare (l0At V c n hn).2.2.2.2)
      ∗ Pipeline.scopedRestBut (Ix := Unit) (Name := ℕ) (U := UR sig nD τ) (Lvl := ℕ) (Val := Elt F) spec0 c [cc0_scratch0, cc0_scratch1]) ∗ (∃ r, prngReg c r)) := rfl
theorem l0Phi_pos (c : Dev nD) (n : ℕ) (h : n ≤ cfg0.N) (hz : n ≠ 0) :
    l0Phi V c n h = iprop(iprop(iprop(owns (c : Thread nD τ) l0Sum fullShare (l0At V c (n - 1) (by omega)).2.2.2.1 ∗ owns (c : Thread nD τ) l0Sq fullShare (l0At V c (n - 1) (by omega)).2.2.2.2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data of the region -/

def l0Dat (c : Dev nD) : Dat τ (Elt F) Unit ℕ (UR sig nD τ) ℕ cfg0 c where
  A w := V c (Pipeline.arrRef spec0 w)
  after w t := match w with
    | ⟨0, _⟩ => l0Blk V c 0 t
    | ⟨1, _⟩ => l0Blk V c 1 t
    | ⟨2, _⟩ => (l0At V c t.val t.isLt).1
    | ⟨3, _⟩ => (l0At V c t.val t.isLt).2.1
    | ⟨4, _⟩ => (l0At V c t.val t.isLt).2.2.1
  Φ t := l0Phi V c t.val (Nat.le_of_lt_succ t.isLt)
  q _ := fullShare
  owed _ := 0

theorem l0Dat_A (c : Dev nD) (w : Fin cfg0.W) : (l0Dat V c).A w = V c (Pipeline.arrRef spec0 w) := by
  dsimp only [l0Dat]
theorem l0Phi_castSucc (c : Dev nD) (t : Fin cfg0.N) :
    (l0Dat V c).Φ t.castSucc = l0Phi V c t.val (Nat.le_of_lt t.isLt) := by
  dsimp only [l0Dat]; simp only [Fin.coe_castSucc]
theorem l0After0 (c : Dev nD) (t : Fin cfg0.N) : (l0Dat V c).after 0 t = l0Blk V c 0 t := by dsimp only [l0Dat]
theorem l0After1 (c : Dev nD) (t : Fin cfg0.N) : (l0Dat V c).after 1 t = l0Blk V c 1 t := by dsimp only [l0Dat]
theorem l0After2 (c : Dev nD) (t : Fin cfg0.N) : (l0Dat V c).after 2 t = (l0At V c t.val t.isLt).1 := by dsimp only [l0Dat]
theorem l0After3 (c : Dev nD) (t : Fin cfg0.N) : (l0Dat V c).after 3 t = (l0At V c t.val t.isLt).2.1 := by dsimp only [l0Dat]
theorem l0After4 (c : Dev nD) (t : Fin cfg0.N) : (l0Dat V c).after 4 t = (l0At V c t.val t.isLt).2.2.1 := by dsimp only [l0Dat]

/-- An input's current buffer holds its block at every point, fetched there or not. -/
theorem l0Before0 (c : Dev nD) (t : Fin cfg0.N) (d) : (l0Dat V c).before 0 t d = l0Blk V c 0 t :=
  ((l0Dat V c).before_in_eq_fetched 0 rfl (fun _ => rfl) (fun _ _ _ => rfl)
    (fun t => by rw [l0After0]; unfold Dat.blockOf l0Blk; rw [l0Dat_A]; try rfl) t d).trans
    (by unfold Dat.fetched Dat.blockOf l0Blk; rw [l0Dat_A]; try rfl)
theorem l0Before1 (c : Dev nD) (t : Fin cfg0.N) (d) : (l0Dat V c).before 1 t d = l0Blk V c 1 t :=
  ((l0Dat V c).before_in_eq_fetched 1 rfl (fun _ => rfl) (fun _ _ _ => rfl)
    (fun t => by rw [l0After1]; unfold Dat.blockOf l0Blk; rw [l0Dat_A]; try rfl) t d).trans
    (by unfold Dat.fetched Dat.blockOf l0Blk; rw [l0Dat_A]; try rfl)

/-! ## The body obligation -/

def l0Pre (c : Dev nD) (t : Fin cfg0.N) : sProp 𝕄 :=
  iprop((l0Dat V c).Φ t.castSucc ∗ (l0Dat V c).owesAt () t.castSucc
    ∗ (∃ d, owns (c : Thread nD τ) (l0m0 t) fullShare ((l0Dat V c).before 0 t d))
    ∗ (∃ d, owns (c : Thread nD τ) (l0m1 t) fullShare ((l0Dat V c).before 1 t d))
    ∗ (∃ d, owns (c : Thread nD τ) (l0m2 t) fullShare ((l0Dat V c).before 2 t d))
    ∗ (∃ d, owns (c : Thread nD τ) (l0m3 t) fullShare ((l0Dat V c).before 3 t d))
    ∗ (∃ d, owns (c : Thread nD τ) (l0m4 t) fullShare ((l0Dat V c).before 4 t d)))

def l0Post (c : Dev nD) (t : Fin cfg0.N) : sProp 𝕄 :=
  iprop((l0Dat V c).Φ t.succ ∗ (l0Dat V c).owesAt () t.succ
    ∗ (l0Dat V c).leavesExact 0 t
    ∗ (l0Dat V c).leavesExact 1 t
    ∗ (l0Dat V c).leavesExact 2 t
    ∗ (l0Dat V c).leavesExact 3 t
    ∗ (l0Dat V c).leavesExact 4 t)

set_option maxHeartbeats 8000000 in
/-- The body at any point: which kind of point it is is read off the position; the invariant hands over the scratch
    rows (at anything before the very first point, else at what the point before left) and takes them back at this
    point's contents. -/
theorem l0Point (c : Dev nD) (t : Fin cfg0.N) :
    l0Pre V c t ⊢ wp frame (wpE (defs₀ (F := F)) Variants.none c none) Set.univ (bodyAt0 t) (fun _ => l0Post V c t) := by
  unfold l0Pre l0Post bodyAt0
  simp only [l0Before0, l0Before1]
  rw [show (l0Dat V c).owesAt () t.succ = (l0Dat V c).owesAt () t.castSucc from rfl]
  rw [show (l0Dat V c).Φ t.succ = l0Phi V c (t.val + 1) t.isLt from rfl, l0Phi_succ]
  have hN : t.val < 16 := lt_of_lt_of_eq t.isLt (show cfg0.N = 16 from N_0)
  rw [show (l0Dat V c).leavesExact 0 t = owns (c : Thread nD τ) (l0m0 t) fullShare ((l0Dat V c).after 0 t) from by
    unfold Dat.leavesExact; rw [l0Live0 t], l0After0]
  rw [show (l0Dat V c).leavesExact 1 t = owns (c : Thread nD τ) (l0m1 t) fullShare ((l0Dat V c).after 1 t) from by
    unfold Dat.leavesExact; rw [l0Live1 t], l0After1]
  rw [show (l0Dat V c).leavesExact 2 t = owns (c : Thread nD τ) (l0m2 t) fullShare ((l0Dat V c).after 2 t) from by
    unfold Dat.leavesExact; rw [l0Live2 t], l0After2]
  by_cases h0 : t.val % 8 = 0
  · have hF := (l0First_iff t).mpr h0
    have hL := l0notLast t h0
    rw [Dat.leavesExact_idle (l0Dat V c) 3 t (l0Idle3 t hL) (l0NoFlush3 t hL),
      Dat.leavesExact_idle (l0Dat V c) 4 t (l0Idle4 t hL) (l0NoFlush4 t hL)]
    rw [l0At_first V c t h0]
    unfold l0LeftFirst; (try dsimp only)
    by_cases hz : t.val = 0
    · rw [l0Phi_castSucc V c t, l0Phi_zero V c _ _ hz, l0Rest]
      iintro ⟨⟨⟨⟨HS, HQ⟩, Hrest⟩, Hg⟩, Ho, ⟨%d0, H0⟩, ⟨%d1, H1⟩, ⟨%dH, HH⟩, ⟨%dA, HA⟩, ⟨%dB, HB⟩⟩
      iapply ((l0FirstAt c t hF hL (l0Blk V c 0 t) (l0Blk V c 1 t)).2.2.2 _ _ Set.univ _)
      isplitl [H0]; · iexact H0
      isplitl [H1]; · iexact H1
      isplitl [HH]; · iexists _; iexact HH
      isplitl [HA]; · iexact HA
      isplitl [HB]; · iexact HB
      isplitl [HS]; · iexact HS
      isplitl [HQ]; · iexact HQ
      iintro ⟨H0, H1, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l0CoverFirstS c t hF hL _ _)
            unfold owns; iexists _; isplitr
            swap; · iexact HQ
            ipureintro; exact View.read_writes_of_cover _ _ _ _ _ (l0CoverFirstQ c t hF hL _ _)
          iexact Hrest
        iexact Hg
      isplitl [Ho]; · iexact Ho
      isplitl [H0]; · iexact H0
      isplitl [H1]; · iexact H1
      isplitl [HH]
      · unfold owns; iexists _; isplitr
        swap; · iexact HH
        ipureintro; exact View.read_writes_of_cover _ _ _ _ _ (l0CoverFirstH c t hF hL _ _)
      isplitl [HA]; · iexists _; iexact HA
      iexists _; iexact HB
    · rw [l0Phi_castSucc V c t, l0Phi_pos V c _ _ hz]
      iintro ⟨⟨⟨⟨HS, HQ⟩, Hrest⟩, Hg⟩, Ho, ⟨%d0, H0⟩, ⟨%d1, H1⟩, ⟨%dH, HH⟩, ⟨%dA, HA⟩, ⟨%dB, HB⟩⟩
      iapply ((l0FirstAt c t hF hL (l0Blk V c 0 t) (l0Blk V c 1 t)).2.2.2 _ _ Set.univ _)
      isplitl [H0]; · iexact H0
      isplitl [H1]; · iexact H1
      isplitl [HH]; · iexists _; iexact HH
      isplitl [HA]; · iexact HA
      isplitl [HB]; · iexact HB
      isplitl [HS]; · iexists _; iexact HS
      isplitl [HQ]; · iexists _; iexact HQ
      iintro ⟨H0, H1, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l0CoverFirstS c t hF hL _ _)
            unfold owns; iexists _; isplitr
            swap; · iexact HQ
            ipureintro; exact View.read_writes_of_cover _ _ _ _ _ (l0CoverFirstQ c t hF hL _ _)
          iexact Hrest
        iexact Hg
      isplitl [Ho]; · iexact Ho
      isplitl [H0]; · iexact H0
      isplitl [H1]; · iexact H1
      isplitl [HH]
      · unfold owns; iexists _; isplitr
        swap; · iexact HH
        ipureintro; exact View.read_writes_of_cover _ _ _ _ _ (l0CoverFirstH c t hF hL _ _)
      isplitl [HA]; · iexists _; iexact HA
      iexists _; iexact HB
  · have hF := l0notFirst t h0
    have hz : t.val ≠ 0 := fun e => h0 (by rw [e])
    by_cases h7 : t.val % 8 = 7
    · have hL := (l0Last_iff t).mpr h7
      rw [show (l0Dat V c).leavesExact 3 t = owns (c : Thread nD τ) (l0m3 t) fullShare ((l0Dat V c).after 3 t) from by
        unfold Dat.leavesExact; rw [l0Live3 t hL], l0After3]
      rw [show (l0Dat V c).leavesExact 4 t = owns (c : Thread nD τ) (l0m4 t) fullShare ((l0Dat V c).after 4 t) from by
        unfold Dat.leavesExact; rw [l0Live4 t hL], l0After4]
      rw [l0At_last V c t h0 h7]
      unfold l0LeftLast; (try dsimp only)
      rw [l0Phi_castSucc V c t, l0Phi_pos V c _ _ hz]
      iintro ⟨⟨⟨⟨HS, HQ⟩, Hrest⟩, Hg⟩, Ho, ⟨%d0, H0⟩, ⟨%d1, H1⟩, ⟨%dH, HH⟩, ⟨%dA, HA⟩, ⟨%dB, HB⟩⟩
      iapply ((l0LastAt c t hF hL (l0Blk V c 0 t) (l0Blk V c 1 t) _ _).2.2.2.2.2 Set.univ _)
      isplitl [H0]; · iexact H0
      isplitl [H1]; · iexact H1
      isplitl [HH]; · iexists _; iexact HH
      isplitl [HA]; · iexists _; iexact HA
      isplitl [HB]; · iexists _; iexact HB
      isplitl [HS]; · iexact HS
      isplitl [HQ]; · iexact HQ
      iintro ⟨H0, H1, ⟨%eH, HH⟩, ⟨%eA, HA⟩, ⟨%eB, HB⟩, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l0CoverLastS c t hF hL _ _ _ _)
            unfold owns; iexists _; isplitr
            swap; · iexact HQ
            ipureintro; exact View.read_writes_of_cover _ _ _ _ _ (l0CoverLastQ c t hF hL _ _ _ _)
          iexact Hrest
        iexact Hg
      isplitl [Ho]; · iexact Ho
      isplitl [H0]; · iexact H0
      isplitl [H1]; · iexact H1
      isplitl [HH]
      · unfold owns; iexists _; isplitr
        swap; · iexact HH
        ipureintro; exact View.read_writes_of_cover _ _ _ _ _ (l0CoverLastH c t hF hL _ _ _ _)
      isplitl [HA]
      · unfold owns; iexists _; isplitr
        swap; · iexact HA
        ipureintro; exact View.read_writes_of_cover _ _ _ _ _ (l0CoverLast3 c t hF hL _ _ _ _)
      unfold owns; iexists _; isplitr
      swap; · iexact HB
      ipureintro; exact View.read_writes_of_cover _ _ _ _ _ (l0CoverLast4 c t hF hL _ _ _ _)
    · have hL := l0notLast' t h7
      rw [Dat.leavesExact_idle (l0Dat V c) 3 t (l0Idle3 t hL) (l0NoFlush3 t hL),
        Dat.leavesExact_idle (l0Dat V c) 4 t (l0Idle4 t hL) (l0NoFlush4 t hL)]
      rw [l0At_mid V c t h0 h7]
      unfold l0LeftMid; (try dsimp only)
      rw [l0Phi_castSucc V c t, l0Phi_pos V c _ _ hz]
      iintro ⟨⟨⟨⟨HS, HQ⟩, Hrest⟩, Hg⟩, Ho, ⟨%d0, H0⟩, ⟨%d1, H1⟩, ⟨%dH, HH⟩, ⟨%dA, HA⟩, ⟨%dB, HB⟩⟩
      iapply ((l0MidAt c t hF hL (l0Blk V c 0 t) (l0Blk V c 1 t) _ _).2.2.2 _ _ Set.univ _)
      isplitl [H0]; · iexact H0
      isplitl [H1]; · iexact H1
      isplitl [HH]; · iexists _; iexact HH
      isplitl [HA]; · iexact HA
      isplitl [HB]; · iexact HB
      isplitl [HS]; · iexact HS
      isplitl [HQ]; · iexact HQ
      iintro ⟨H0, H1, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l0CoverMidS c t hF hL _ _ _ _)
            unfold owns; iexists _; isplitr
            swap; · iexact HQ
            ipureintro; exact View.read_writes_of_cover _ _ _ _ _ (l0CoverMidQ c t hF hL _ _ _ _)
          iexact Hrest
        iexact Hg
      isplitl [Ho]; · iexact Ho
      isplitl [H0]; · iexact H0
      isplitl [H1]; · iexact H1
      isplitl [HH]
      · unfold owns; iexists _; isplitr
        swap; · iexact HH
        ipureintro; exact View.read_writes_of_cover _ _ _ _ _ (l0CoverMidH c t hF hL _ _ _ _)
      isplitl [HA]; · iexists _; iexact HA
      iexists _; iexact HB

theorem l0Obligation (c : Dev nD) : BodyObligation (l0Dat (F := F) V c) (defs₀ (F := F)) Variants.none () Set.univ := fun t => by
  rw [bigSep_W0, bigSep_W0]
  exact l0Point V c t

/-- What the launch hands the region is the invariant before the first point; after any later point the invariant gives
    the region's rest back (what the scratch rows hold is forgotten). -/
theorem l0PhiIn (c : Dev nD) : Pipeline.ΦA spec0 c ⊢ (l0Dat V c).Φ 0 := by
  rw [show (l0Dat V c).Φ 0 = l0Phi V c 0 (Nat.zero_le _) from rfl, l0Phi_zero V c 0 _ rfl]
  try exact Idealize.SL.BI.Entails.refl _
theorem l0PhiOut (c : Dev nD) : (l0Dat V c).Φ (Fin.last cfg0.N) ⊢ Pipeline.ΦA spec0 c := by
  rw [show (l0Dat V c).Φ (Fin.last cfg0.N) = l0Phi V c (Fin.last cfg0.N).val (Nat.le_of_lt_succ (Fin.last cfg0.N).isLt) from rfl,
    l0Phi_pos V c _ _ (by rw [Fin.val_last]; have : cfg0.N = 16 := N_0; omega), l0Rest]
  iintro ⟨⟨⟨HS, HQ⟩, Hrest⟩, Hg⟩
  isplitl [HS HQ Hrest]
  · isplitl [HS HQ]
    · isplitl [HS]
      · iexists _; iexact HS
      iexists _; iexact HQ
    iexact Hrest
  iexact Hg

end Cert.Kernel.Hand

end
-- ==== Proof.Layer1SharedBits.lean ====
/-
  The second layer's region: at each of 8 grid points (2 halves of the batch × 4 blocks of 4096 rows) the body
  forms z = h' · scale + shift from its block of the previous layer's h' and the two parameter rows, then
  h = sign(z) · sign(W)ᵀ, stores it, and adds the column sums of h and of h² into two one-row scratch buffers that
  are cleared at the first block of a half and copied out (eight identical rows) at the last block of a half.
  Here: the two branch conditions in closed form over the grid, where the two statistics windows are idle, the
  names of the buffers the body is called with, and the region's untouched rest with the two scratch rows split out.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "This is the first block of its half": the inner grid coordinate is 0. -/
abbrev l1First (i : grid1.Coords) : Prop :=
  (Scalar.cmpi .ne (Scalar.extui (Scalar.cmpi .eq (BitVec.ofNat 32 (i 1).val) 0#32)) 0#32) = 1#1
theorem l1First_iff : ∀ t : Fin cfg1.N, l1First (grid1.coords t) ↔ t.val % 4 = 0 :=
  (by decide +kernel : ∀ t : Fin grid1.N, l1First (grid1.coords t) ↔ t.val % 4 = 0)

/-- "This is the last block of its half": the inner grid coordinate is 3. -/
abbrev l1Last (i : grid1.Coords) : Prop := k1_cond2 i = 1#1
theorem l1Last_iff : ∀ t : Fin cfg1.N, l1Last (grid1.coords t) ↔ t.val % 4 = 3 :=
  (by decide +kernel : ∀ t : Fin grid1.N, l1Last (grid1.coords t) ↔ t.val % 4 = 3)

/-! ## Where the windows are idle -/

theorem l1Live0 : ∀ t : Fin cfg1.N, cfg1.idle 0 (grid1.coords t) = false := by decide +kernel
theorem l1Live1 : ∀ t : Fin cfg1.N, cfg1.idle 1 (grid1.coords t) = false := by decide +kernel
theorem l1Live2 : ∀ t : Fin cfg1.N, cfg1.idle 2 (grid1.coords t) = false := by decide +kernel
theorem l1Live3 : ∀ t : Fin cfg1.N, cfg1.idle 3 (grid1.coords t) = false := by decide +kernel
theorem l1Live4 : ∀ t : Fin cfg1.N, cfg1.idle 4 (grid1.coords t) = false := by decide +kernel
/-- The two statistics windows are idle, and not written back, except at the last block of a half. -/
theorem l1Idle5 : ∀ t : Fin cfg1.N, ¬l1Last (grid1.coords t) → cfg1.idle 5 (grid1.coords t) = true := by decide +kernel
theorem l1NoFlush5 : ∀ t : Fin cfg1.N, ¬l1Last (grid1.coords t) → (cfg1.win 5).flush t = false := by decide +kernel
theorem l1Live5 : ∀ t : Fin cfg1.N, l1Last (grid1.coords t) → cfg1.idle 5 (grid1.coords t) = false := by decide +kernel
theorem l1Idle6 : ∀ t : Fin cfg1.N, ¬l1Last (grid1.coords t) → cfg1.idle 6 (grid1.coords t) = true := by decide +kernel
theorem l1NoFlush6 : ∀ t : Fin cfg1.N, ¬l1Last (grid1.coords t) → (cfg1.win 6).flush t = false := by decide +kernel
theorem l1Live6 : ∀ t : Fin cfg1.N, l1Last (grid1.coords t) → cfg1.idle 6 (grid1.coords t) = false := by decide +kernel

/-! ## The buffers the body is called with -/

abbrev l1m0 (t : Fin cfg1.N) : Memref sig .tc .vmem S4096x256 .f32 := win1_0.stage (cfg1.slots t 0)
abbrev l1h0 (t : Fin cfg1.N) : (l1m0 t).IsWhole := hstage1_0 ((cfg1.slots t 0).cast nbuf1_0)
abbrev l1m1 (t : Fin cfg1.N) : Memref sig .tc .vmem S256x256 .bf16 := win1_1.stage (cfg1.slots t 1)
abbrev l1h1 (t : Fin cfg1.N) : (l1m1 t).IsWhole := hstage1_1 ((cfg1.slots t 1).cast nbuf1_1)
abbrev l1m2 (t : Fin cfg1.N) : Memref sig .tc .vmem S1x256 .f32 := win1_2.stage (cfg1.slots t 2)
abbrev l1h2 (t : Fin cfg1.N) : (l1m2 t).IsWhole := hstage1_2 ((cfg1.slots t 2).cast nbuf1_2)
abbrev l1m3 (t : Fin cfg1.N) : Memref sig .tc .vmem S1x256 .f32 := win1_3.stage (cfg1.slots t 3)
abbrev l1h3 (t : Fin cfg1.N) : (l1m3 t).IsWhole := hstage1_3 ((cfg1.slots t 3).cast nbuf1_3)
abbrev l1m4 (t : Fin cfg1.N) : Memref sig .tc .vmem S4096x256 .f32 := win1_4.stage (cfg1.slots t 4)
abbrev l1h4 (t : Fin cfg1.N) : (l1m4 t).IsWhole := hstage1_4 ((cfg1.slots t 4).cast nbuf1_4)
abbrev l1m5 (t : Fin cfg1.N) : Memref sig .tc .vmem S8x256 .f32 := win1_5.stage (cfg1.slots t 5)
abbrev l1h5 (t : Fin cfg1.N) : (l1m5 t).IsWhole := hstage1_5 ((cfg1.slots t 5).cast nbuf1_5)
abbrev l1m6 (t : Fin cfg1.N) : Memref sig .tc .vmem S8x256 .f32 := win1_6.stage (cfg1.slots t 6)
abbrev l1h6 (t : Fin cfg1.N) : (l1m6 t).IsWhole := hstage1_6 ((cfg1.slots t 6).cast nbuf1_6)
/-- The running column sums of h and of h²: one row each, the kernel's own. -/
abbrev l1Sum : Memref sig .tc .vmem S1x256 .f32 := Memref.whole cc1_scratch0
abbrev l1Sq : Memref sig .tc .vmem S1x256 .f32 := Memref.whole cc1_scratch1

/-- The region's untouched rest, with the two scratch rows owned at some contents each. -/
theorem l1Rest (c : Dev nD) :
    (Pipeline.ΦA spec1 c : sProp 𝕄)
      = iprop(iprop(iprop((∃ d, owns (c : Thread nD τ) l1Sum fullShare d) ∗ (∃ d, owns (c : Thread nD τ) l1Sq fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [l1Sum, l1Sq, owns_whole]; try rfl

end Cert.Kernel.Hand

end
-- ==== Proof.Layer1FirstBits.lean ====
/-
  The second layer's body at the first block of a half (and not the last): the two scratch rows are cleared,
  then take the column sums of this block's h and h²; h is stored; the statistics windows are not touched.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer1SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l1RunFirst (c : Dev nD) (i : grid1.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : l1First i) (hL : ¬l1Last i) (x0 : Vec F S4096x256 .f32) (x1 : Vec F S256x256 .bf16) (x2 : Vec F S1x256 .f32) (x3 : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc1__matmul_stats_kernel_fused i a2 h2 a3 h3 a4 h4 a5 h5 a6 h6 a7 h7 a8 h8 a9 h9 a10 h10) K } := by
  refine ⟨?_, ?_, ?_, fun y3 y4 E K => ?run⟩
  case run =>
    simp only [cc1__matmul_stats_kernel_fused_eq_skeleton]; unfold cc1__matmul_stats_kernel_fused_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%dS, %fS, -, HS⟩, ⟨%dQ, %fQ, -, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.Kernel.Hand

end
-- ==== Proof.Layer1MidBits.lean ====
/-
  The second layer's body at a block that is neither the first nor the last of its half: h is stored, and the
  two scratch rows, entering at what the block before left, each gain this block's column sums.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer1SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l1RunMid (c : Dev nD) (i : grid1.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l1First i) (hL : ¬l1Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc1__matmul_stats_kernel_fused i a2 h2 a3 h3 a4 h4 a5 h5 a6 h6 a7 h7 a8 h8 a9 h9 a10 h10) K } := by
  refine ⟨?_, ?_, ?_, fun y3 y4 E K => ?run⟩
  case run =>
    simp only [cc1__matmul_stats_kernel_fused_eq_skeleton]; unfold cc1__matmul_stats_kernel_fused_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.Kernel.Hand

end
-- ==== Proof.Layer1LastBits.lean ====
/-
  The second layer's body at the last block of a half: as at a middle block, and then each statistics buffer is
  filled with eight copies of the finished scratch row.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer1SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs come back as they were. -/
noncomputable def l1RunLast (c : Dev nD) (i : grid1.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l1First i) (hL : l1Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (L3 L4 : List (View.Piece (Elt F) S8x256 .f32)) (LS : List (View.Piece (Elt F) S1x256 .f32)), { LQ : List (View.Piece (Elt F) S1x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d)
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ (∃ f, a7.view.loc (c : Thread nD τ) ↦[a7.view.set]{fullShare} a7.view.writes (Elt F) f L3) ∗ (∃ f, a8.view.loc (c : Thread nD τ) ↦[a8.view.set]{fullShare} a8.view.writes (Elt F) f L4)
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc1__matmul_stats_kernel_fused i a2 h2 a3 h3 a4 h4 a5 h5 a6 h6 a7 h7 a8 h8 a9 h9 a10 h10) K } := by
  refine ⟨?_, ?_, ?_, ?_, ?_, fun E K => ?run⟩
  case run =>
    simp only [cc1__matmul_stats_kernel_fused_eq_skeleton]; unfold cc1__matmul_stats_kernel_fused_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [HS]; · iexists _; iexact HS
    iexists _; iexact HQ

end Cert.Kernel.Hand

end
-- ==== Proof.Layer1RegionBits.lean ====
/-
  The second layer's region as a whole: what each kind of grid point leaves in the buffers, the accumulation of
  the two scratch rows over the four blocks of a half (by recursion on the position: a first block starts afresh,
  every other block adds to what the block before left), the invariant that carries the scratch rows from one
  point to the next, and the body's obligation at every point. Stated at a parameter V: the contents of the
  core's buffers when the region is entered.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer1FirstBits
import proofs.«126670_j49074296324140_2_alg».proof.Proof.Layer1MidBits
import proofs.«126670_j49074296324140_2_alg».proof.Proof.Layer1LastBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def l1Blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Fixed views through which a buffer's contents after a list of stores are stated (the choice of buffer does not
    matter: only its shape does). -/
abbrev l1VH : View sig .tc .vmem S4096x256 .f32 := (Memref.whole cc1_stg4_0 : Memref sig .tc .vmem S4096x256 .f32).view
abbrev l1V3 : View sig .tc .vmem S8x256 .f32 := (Memref.whole cc1_stg5_0 : Memref sig .tc .vmem S8x256 .f32).view
abbrev l1V4 : View sig .tc .vmem S8x256 .f32 := (Memref.whole cc1_stg6_0 : Memref sig .tc .vmem S8x256 .f32).view
abbrev l1VS : View sig .tc .vmem S1x256 .f32 := l1Sum.view
abbrev l1VQ : View sig .tc .vmem S1x256 .f32 := l1Sq.view

/-! ## The three kinds of point, at the buffers the pipeline passes -/

abbrev l1FirstAt (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) :=
  l1RunFirst c (grid1.coords t) (l1m0 t) (l1h0 t) (l1m1 t) (l1h1 t) (l1m2 t) (l1h2 t) (l1m3 t) (l1h3 t) (l1m4 t) (l1h4 t) (l1m5 t) (l1h5 t) (l1m6 t) (l1h6 t) l1Sum (Memref.isWhole_whole _) l1Sq (Memref.isWhole_whole _) hF hL x0 x1 x2 x3
abbrev l1MidAt (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) :=
  l1RunMid c (grid1.coords t) (l1m0 t) (l1h0 t) (l1m1 t) (l1h1 t) (l1m2 t) (l1h2 t) (l1m3 t) (l1h3 t) (l1m4 t) (l1h4 t) (l1m5 t) (l1h5 t) (l1m6 t) (l1h6 t) l1Sum (Memref.isWhole_whole _) l1Sq (Memref.isWhole_whole _) hF hL x0 x1 x2 x3 s q
abbrev l1LastAt (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) :=
  l1RunLast c (grid1.coords t) (l1m0 t) (l1h0 t) (l1m1 t) (l1h1 t) (l1m2 t) (l1h2 t) (l1m3 t) (l1h3 t) (l1m4 t) (l1h4 t) (l1m5 t) (l1h5 t) (l1m6 t) (l1h6 t) l1Sum (Memref.isWhole_whole _) l1Sq (Memref.isWhole_whole _) hF hL x0 x1 x2 x3 s q

/-! Every list of stores covers its buffer (each buffer's last store is of the whole buffer). -/
theorem l1CoverFirstH (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) (y : S4096x256.Idx) :
    ∃ pc ∈ (l1FirstAt c t hF hL x0 x1 x2 x3).1, y ∈ pc.1.set :=
  View.cover_of_tiledL (l1FirstAt c t hF hL x0 x1 x2 x3).1 S4096x256.size (by sl_kernel_rfl) y
theorem l1CoverFirstS (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) (y : S1x256.Idx) :
    ∃ pc ∈ (l1FirstAt c t hF hL x0 x1 x2 x3).2.1, y ∈ pc.1.set :=
  View.cover_of_tiledL (l1FirstAt c t hF hL x0 x1 x2 x3).2.1 S1x256.size (by sl_kernel_rfl) y
theorem l1CoverFirstQ (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) (y : S1x256.Idx) :
    ∃ pc ∈ (l1FirstAt c t hF hL x0 x1 x2 x3).2.2.1, y ∈ pc.1.set :=
  View.cover_of_tiledL (l1FirstAt c t hF hL x0 x1 x2 x3).2.2.1 S1x256.size (by sl_kernel_rfl) y
theorem l1CoverMidH (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l1MidAt c t hF hL x0 x1 x2 x3 s q).1, y ∈ pc.1.set :=
  View.cover_of_tiledL (l1MidAt c t hF hL x0 x1 x2 x3 s q).1 S4096x256.size (by sl_kernel_rfl) y
theorem l1CoverMidS (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) (y : S1x256.Idx) :
    ∃ pc ∈ (l1MidAt c t hF hL x0 x1 x2 x3 s q).2.1, y ∈ pc.1.set :=
  View.cover_of_tiledL (l1MidAt c t hF hL x0 x1 x2 x3 s q).2.1 S1x256.size (by sl_kernel_rfl) y
theorem l1CoverMidQ (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) (y : S1x256.Idx) :
    ∃ pc ∈ (l1MidAt c t hF hL x0 x1 x2 x3 s q).2.2.1, y ∈ pc.1.set :=
  View.cover_of_tiledL (l1MidAt c t hF hL x0 x1 x2 x3 s q).2.2.1 S1x256.size (by sl_kernel_rfl) y
theorem l1CoverLastH (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l1LastAt c t hF hL x0 x1 x2 x3 s q).1, y ∈ pc.1.set :=
  View.cover_of_tiledL (l1LastAt c t hF hL x0 x1 x2 x3 s q).1 S4096x256.size (by sl_kernel_rfl) y
theorem l1CoverLast3 (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) (y : S8x256.Idx) :
    ∃ pc ∈ (l1LastAt c t hF hL x0 x1 x2 x3 s q).2.1, y ∈ pc.1.set :=
  View.cover_of_tiledL (l1LastAt c t hF hL x0 x1 x2 x3 s q).2.1 S8x256.size (by sl_kernel_rfl) y
theorem l1CoverLast4 (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) (y : S8x256.Idx) :
    ∃ pc ∈ (l1LastAt c t hF hL x0 x1 x2 x3 s q).2.2.1, y ∈ pc.1.set :=
  View.cover_of_tiledL (l1LastAt c t hF hL x0 x1 x2 x3 s q).2.2.1 S8x256.size (by sl_kernel_rfl) y
theorem l1CoverLastS (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) (y : S1x256.Idx) :
    ∃ pc ∈ (l1LastAt c t hF hL x0 x1 x2 x3 s q).2.2.2.1, y ∈ pc.1.set :=
  View.cover_of_tiledL (l1LastAt c t hF hL x0 x1 x2 x3 s q).2.2.2.1 S1x256.size (by sl_kernel_rfl) y
theorem l1CoverLastQ (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) (y : S1x256.Idx) :
    ∃ pc ∈ (l1LastAt c t hF hL x0 x1 x2 x3 s q).2.2.2.2.1, y ∈ pc.1.set :=
  View.cover_of_tiledL (l1LastAt c t hF hL x0 x1 x2 x3 s q).2.2.2.2.1 S1x256.size (by sl_kernel_rfl) y

/-- What a point of each kind leaves: (h's buffer, the two statistics buffers, the two scratch rows). At a point that
    does not store into the statistics buffers their entries are placeholders nothing reads. -/
def l1LeftFirst (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) : Vec F S4096x256 .f32 × Vec F S8x256 .f32 × Vec F S8x256 .f32 × Vec F S1x256 .f32 × Vec F S1x256 .f32 :=
  (l1VH.read (Elt F) (l1VH.writes (Elt F) l1VH.junk (l1FirstAt c t hF hL x0 x1 x2 x3).1), l1V3.read (Elt F) l1V3.junk, l1V4.read (Elt F) l1V4.junk,
   l1VS.read (Elt F) (l1VS.writes (Elt F) l1VS.junk (l1FirstAt c t hF hL x0 x1 x2 x3).2.1), l1VQ.read (Elt F) (l1VQ.writes (Elt F) l1VQ.junk (l1FirstAt c t hF hL x0 x1 x2 x3).2.2.1))
def l1LeftMid (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l1VH.read (Elt F) (l1VH.writes (Elt F) l1VH.junk (l1MidAt c t hF hL x0 x1 x2 x3 s q).1), l1V3.read (Elt F) l1V3.junk, l1V4.read (Elt F) l1V4.junk,
   l1VS.read (Elt F) (l1VS.writes (Elt F) l1VS.junk (l1MidAt c t hF hL x0 x1 x2 x3 s q).2.1), l1VQ.read (Elt F) (l1VQ.writes (Elt F) l1VQ.junk (l1MidAt c t hF hL x0 x1 x2 x3 s q).2.2.1))
def l1LeftLast (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l1VH.read (Elt F) (l1VH.writes (Elt F) l1VH.junk (l1LastAt c t hF hL x0 x1 x2 x3 s q).1), l1V3.read (Elt F) (l1V3.writes (Elt F) l1V3.junk (l1LastAt c t hF hL x0 x1 x2 x3 s q).2.1), l1V4.read (Elt F) (l1V4.writes (Elt F) l1V4.junk (l1LastAt c t hF hL x0 x1 x2 x3 s q).2.2.1),
   l1VS.read (Elt F) (l1VS.writes (Elt F) l1VS.junk (l1LastAt c t hF hL x0 x1 x2 x3 s q).2.2.2.1), l1VQ.read (Elt F) (l1VQ.writes (Elt F) l1VQ.junk (l1LastAt c t hF hL x0 x1 x2 x3 s q).2.2.2.2.1))

theorem l1notLast (t : Fin cfg1.N) (h0 : t.val % 4 = 0) : ¬l1Last (grid1.coords t) :=
  fun h => by have h' := (l1Last_iff t).mp h; omega
theorem l1notFirst (t : Fin cfg1.N) (h0 : ¬t.val % 4 = 0) : ¬l1First (grid1.coords t) :=
  fun h => h0 ((l1First_iff t).mp h)
theorem l1notLast' (t : Fin cfg1.N) (h7 : ¬t.val % 4 = 3) : ¬l1Last (grid1.coords t) :=
  fun h => h7 ((l1Last_iff t).mp h)

/-! ## The accumulation -/

/-- What the buffers hold after the body at position n, by recursion on the position: a first block starts the scratch
    rows afresh; every other block continues from what the block before left in them. -/
def l1At (c : Dev nD) : (n : ℕ) → n < cfg1.N → Vec F S4096x256 .f32 × Vec F S8x256 .f32 × Vec F S8x256 .f32 × Vec F S1x256 .f32 × Vec F S1x256 .f32
  | 0, hn => l1LeftFirst c ⟨0, hn⟩ ((l1First_iff ⟨0, hn⟩).mpr (Nat.zero_mod _)) (l1notLast ⟨0, hn⟩ (Nat.zero_mod _)) (l1Blk V c 0 ⟨0, hn⟩) (l1Blk V c 1 ⟨0, hn⟩) (l1Blk V c 2 ⟨0, hn⟩) (l1Blk V c 3 ⟨0, hn⟩)
  | n + 1, hn =>
    if h0 : (n + 1) % 4 = 0 then
      l1LeftFirst c ⟨n + 1, hn⟩ ((l1First_iff ⟨n + 1, hn⟩).mpr h0) (l1notLast ⟨n + 1, hn⟩ h0) (l1Blk V c 0 ⟨n + 1, hn⟩) (l1Blk V c 1 ⟨n + 1, hn⟩) (l1Blk V c 2 ⟨n + 1, hn⟩) (l1Blk V c 3 ⟨n + 1, hn⟩)
    else if h7 : (n + 1) % 4 = 3 then
      l1LeftLast c ⟨n + 1, hn⟩ (l1notFirst ⟨n + 1, hn⟩ h0) ((l1Last_iff ⟨n + 1, hn⟩).mpr h7) (l1Blk V c 0 ⟨n + 1, hn⟩) (l1Blk V c 1 ⟨n + 1, hn⟩) (l1Blk V c 2 ⟨n + 1, hn⟩) (l1Blk V c 3 ⟨n + 1, hn⟩)
        (l1At c n (Nat.lt_of_succ_lt hn)).2.2.2.1 (l1At c n (Nat.lt_of_succ_lt hn)).2.2.2.2
    else
      l1LeftMid c ⟨n + 1, hn⟩ (l1notFirst ⟨n + 1, hn⟩ h0) (l1notLast' ⟨n + 1, hn⟩ h7) (l1Blk V c 0 ⟨n + 1, hn⟩) (l1Blk V c 1 ⟨n + 1, hn⟩) (l1Blk V c 2 ⟨n + 1, hn⟩) (l1Blk V c 3 ⟨n + 1, hn⟩)
        (l1At c n (Nat.lt_of_succ_lt hn)).2.2.2.1 (l1At c n (Nat.lt_of_succ_lt hn)).2.2.2.2

theorem l1At_first (c : Dev nD) (t : Fin cfg1.N) (h0 : t.val % 4 = 0) :
    l1At V c t.val t.isLt = l1LeftFirst c t ((l1First_iff t).mpr h0) (l1notLast t h0) (l1Blk V c 0 t) (l1Blk V c 1 t) (l1Blk V c 2 t) (l1Blk V c 3 t) := by
  obtain ⟨n, hn⟩ := t
  cases n with
  | zero => exact rfl
  | succ n => exact (dif_pos h0).trans rfl

theorem l1At_last (c : Dev nD) (t : Fin cfg1.N) (h0 : ¬t.val % 4 = 0) (h7 : t.val % 4 = 3) :
    l1At V c t.val t.isLt = l1LeftLast c t (l1notFirst t h0) ((l1Last_iff t).mpr h7) (l1Blk V c 0 t) (l1Blk V c 1 t) (l1Blk V c 2 t) (l1Blk V c 3 t)
      (l1At V c (t.val - 1) (Nat.lt_of_le_of_lt (Nat.sub_le _ _) t.isLt)).2.2.2.1 (l1At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h7).trans rfl)

theorem l1At_mid (c : Dev nD) (t : Fin cfg1.N) (h0 : ¬t.val % 4 = 0) (h7 : ¬t.val % 4 = 3) :
    l1At V c t.val t.isLt = l1LeftMid c t (l1notFirst t h0) (l1notLast' t h7) (l1Blk V c 0 t) (l1Blk V c 1 t) (l1Blk V c 2 t) (l1Blk V c 3 t)
      (l1At V c (t.val - 1) (Nat.lt_of_le_of_lt (Nat.sub_le _ _) t.isLt)).2.2.2.1 (l1At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h7).trans rfl)

/-! ## The invariant between points -/

/-- Before the first point the region's rest as the launch hands it over; afterwards the same with the two scratch rows
    at what the point before left in them. -/
def l1Phi (c : Dev nD) : (n : ℕ) → n ≤ cfg1.N → sProp 𝕄
  | 0, _ => Pipeline.ΦA spec1 c
  | n + 1, hn => iprop(iprop(iprop(owns (c : Thread nD τ) l1Sum fullShare (l1At V c n hn).2.2.2.1 ∗ owns (c : Thread nD τ) l1Sq fullShare (l1At V c n hn).2.2.2.2)
      ∗ Pipeline.scopedRestBut (Ix := Unit) (Name := ℕ) (U := UR sig nD τ) (Lvl := ℕ) (Val := Elt F) spec1 c [cc1_scratch0, cc1_scratch1]) ∗ (∃ r, prngReg c r))

theorem l1Phi_zero (c : Dev nD) (n : ℕ) (h : n ≤ cfg1.N) (hz : n = 0) : l1Phi V c n h = Pipeline.ΦA spec1 c := by
  subst hz; rfl
theorem l1Phi_succ (c : Dev nD) (n : ℕ) (hn : n < cfg1.N) :
    l1Phi V c (n + 1) hn = iprop(iprop(iprop(owns (c : Thread nD τ) l1Sum fullShare (l1At V c n hn).2.2.2.1 ∗ owns (c : Thread nD τ) l1Sq fullShare (l1At V c n hn).2.2.2.2)
      ∗ Pipeline.scopedRestBut (Ix := Unit) (Name := ℕ) (U := UR sig nD τ) (Lvl := ℕ) (Val := Elt F) spec1 c [cc1_scratch0, cc1_scratch1]) ∗ (∃ r, prngReg c r)) := rfl
theorem l1Phi_pos (c : Dev nD) (n : ℕ) (h : n ≤ cfg1.N) (hz : n ≠ 0) :
    l1Phi V c n h = iprop(iprop(iprop(owns (c : Thread nD τ) l1Sum fullShare (l1At V c (n - 1) (by omega)).2.2.2.1 ∗ owns (c : Thread nD τ) l1Sq fullShare (l1At V c (n - 1) (by omega)).2.2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data of the region -/

def l1Dat (c : Dev nD) : Dat τ (Elt F) Unit ℕ (UR sig nD τ) ℕ cfg1 c where
  A w := V c (Pipeline.arrRef spec1 w)
  after w t := match w with
    | ⟨0, _⟩ => l1Blk V c 0 t
    | ⟨1, _⟩ => l1Blk V c 1 t
    | ⟨2, _⟩ => l1Blk V c 2 t
    | ⟨3, _⟩ => l1Blk V c 3 t
    | ⟨4, _⟩ => (l1At V c t.val t.isLt).1
    | ⟨5, _⟩ => (l1At V c t.val t.isLt).2.1
    | ⟨6, _⟩ => (l1At V c t.val t.isLt).2.2.1
  Φ t := l1Phi V c t.val (Nat.le_of_lt_succ t.isLt)
  q _ := fullShare
  owed _ := 0

theorem l1Dat_A (c : Dev nD) (w : Fin cfg1.W) : (l1Dat V c).A w = V c (Pipeline.arrRef spec1 w) := by
  dsimp only [l1Dat]
theorem l1Phi_castSucc (c : Dev nD) (t : Fin cfg1.N) :
    (l1Dat V c).Φ t.castSucc = l1Phi V c t.val (Nat.le_of_lt t.isLt) := by
  dsimp only [l1Dat]; simp only [Fin.coe_castSucc]
theorem l1After0 (c : Dev nD) (t : Fin cfg1.N) : (l1Dat V c).after 0 t = l1Blk V c 0 t := by dsimp only [l1Dat]
theorem l1After1 (c : Dev nD) (t : Fin cfg1.N) : (l1Dat V c).after 1 t = l1Blk V c 1 t := by dsimp only [l1Dat]
theorem l1After2 (c : Dev nD) (t : Fin cfg1.N) : (l1Dat V c).after 2 t = l1Blk V c 2 t := by dsimp only [l1Dat]
theorem l1After3 (c : Dev nD) (t : Fin cfg1.N) : (l1Dat V c).after 3 t = l1Blk V c 3 t := by dsimp only [l1Dat]
theorem l1After4 (c : Dev nD) (t : Fin cfg1.N) : (l1Dat V c).after 4 t = (l1At V c t.val t.isLt).1 := by dsimp only [l1Dat]
theorem l1After5 (c : Dev nD) (t : Fin cfg1.N) : (l1Dat V c).after 5 t = (l1At V c t.val t.isLt).2.1 := by dsimp only [l1Dat]
theorem l1After6 (c : Dev nD) (t : Fin cfg1.N) : (l1Dat V c).after 6 t = (l1At V c t.val t.isLt).2.2.1 := by dsimp only [l1Dat]

/-- An input's current buffer holds its block at every point, fetched there or not. -/
theorem l1Before0 (c : Dev nD) (t : Fin cfg1.N) (d) : (l1Dat V c).before 0 t d = l1Blk V c 0 t :=
  ((l1Dat V c).before_in_eq_fetched 0 rfl (fun _ => rfl) (fun _ _ _ => rfl)
    (fun t => by rw [l1After0]; unfold Dat.blockOf l1Blk; rw [l1Dat_A]; try rfl) t d).trans
    (by unfold Dat.fetched Dat.blockOf l1Blk; rw [l1Dat_A]; try rfl)
theorem l1Before1 (c : Dev nD) (t : Fin cfg1.N) (d) : (l1Dat V c).before 1 t d = l1Blk V c 1 t :=
  ((l1Dat V c).before_in_eq_fetched 1 rfl (fun _ => rfl) (fun _ _ _ => rfl)
    (fun t => by rw [l1After1]; unfold Dat.blockOf l1Blk; rw [l1Dat_A]; try rfl) t d).trans
    (by unfold Dat.fetched Dat.blockOf l1Blk; rw [l1Dat_A]; try rfl)
theorem l1Before2 (c : Dev nD) (t : Fin cfg1.N) (d) : (l1Dat V c).before 2 t d = l1Blk V c 2 t :=
  ((l1Dat V c).before_in_eq_fetched 2 rfl (fun _ => rfl) (fun _ _ _ => rfl)
    (fun t => by rw [l1After2]; unfold Dat.blockOf l1Blk; rw [l1Dat_A]; try rfl) t d).trans
    (by unfold Dat.fetched Dat.blockOf l1Blk; rw [l1Dat_A]; try rfl)
theorem l1Before3 (c : Dev nD) (t : Fin cfg1.N) (d) : (l1Dat V c).before 3 t d = l1Blk V c 3 t :=
  ((l1Dat V c).before_in_eq_fetched 3 rfl (fun _ => rfl) (fun _ _ _ => rfl)
    (fun t => by rw [l1After3]; unfold Dat.blockOf l1Blk; rw [l1Dat_A]; try rfl) t d).trans
    (by unfold Dat.fetched Dat.blockOf l1Blk; rw [l1Dat_A]; try rfl)

/-! ## The body obligation -/

def l1Pre (c : Dev nD) (t : Fin cfg1.N) : sProp 𝕄 :=
  iprop((l1Dat V c).Φ t.castSucc ∗ (l1Dat V c).owesAt () t.castSucc
    ∗ (∃ d, owns (c : Thread nD τ) (l1m0 t) fullShare ((l1Dat V c).before 0 t d))
    ∗ (∃ d, owns (c : Thread nD τ) (l1m1 t) fullShare ((l1Dat V c).before 1 t d))
    ∗ (∃ d, owns (c : Thread nD τ) (l1m2 t) fullShare ((l1Dat V c).before 2 t d))
    ∗ (∃ d, owns (c : Thread nD τ) (l1m3 t) fullShare ((l1Dat V c).before 3 t d))
    ∗ (∃ d, owns (c : Thread nD τ) (l1m4 t) fullShare ((l1Dat V c).before 4 t d))
    ∗ (∃ d, owns (c : Thread nD τ) (l1m5 t) fullShare ((l1Dat V c).before 5 t d))
    ∗ (∃ d, owns (c : Thread nD τ) (l1m6 t) fullShare ((l1Dat V c).before 6 t d)))

def l1Post (c : Dev nD) (t : Fin cfg1.N) : sProp 𝕄 :=
  iprop((l1Dat V c).Φ t.succ ∗ (l1Dat V c).owesAt () t.succ
    ∗ (l1Dat V c).leavesExact 0 t
    ∗ (l1Dat V c).leavesExact 1 t
    ∗ (l1Dat V c).leavesExact 2 t
    ∗ (l1Dat V c).leavesExact 3 t
    ∗ (l1Dat V c).leavesExact 4 t
    ∗ (l1Dat V c).leavesExact 5 t
    ∗ (l1Dat V c).leavesExact 6 t)

set_option maxHeartbeats 8000000 in
/-- The body at any point: which kind of point it is is read off the position; the invariant hands over the scratch
    rows (at anything before the very first point, else at what the point before left) and takes them back at this
    point's contents. -/
theorem l1Point (c : Dev nD) (t : Fin cfg1.N) :
    l1Pre V c t ⊢ wp frame (wpE (defs₀ (F := F)) Variants.none c none) Set.univ (bodyAt1 t) (fun _ => l1Post V c t) := by
  unfold l1Pre l1Post bodyAt1
  simp only [l1Before0, l1Before1, l1Before2, l1Before3]
  rw [show (l1Dat V c).owesAt () t.succ = (l1Dat V c).owesAt () t.castSucc from rfl]
  rw [show (l1Dat V c).Φ t.succ = l1Phi V c (t.val + 1) t.isLt from rfl, l1Phi_succ]
  have hN : t.val < 8 := lt_of_lt_of_eq t.isLt (show cfg1.N = 8 from N_1)
  rw [show (l1Dat V c).leavesExact 0 t = owns (c : Thread nD τ) (l1m0 t) fullShare ((l1Dat V c).after 0 t) from by
    unfold Dat.leavesExact; rw [l1Live0 t], l1After0]
  rw [show (l1Dat V c).leavesExact 1 t = owns (c : Thread nD τ) (l1m1 t) fullShare ((l1Dat V c).after 1 t) from by
    unfold Dat.leavesExact; rw [l1Live1 t], l1After1]
  rw [show (l1Dat V c).leavesExact 2 t = owns (c : Thread nD τ) (l1m2 t) fullShare ((l1Dat V c).after 2 t) from by
    unfold Dat.leavesExact; rw [l1Live2 t], l1After2]
  rw [show (l1Dat V c).leavesExact 3 t = owns (c : Thread nD τ) (l1m3 t) fullShare ((l1Dat V c).after 3 t) from by
    unfold Dat.leavesExact; rw [l1Live3 t], l1After3]
  rw [show (l1Dat V c).leavesExact 4 t = owns (c : Thread nD τ) (l1m4 t) fullShare ((l1Dat V c).after 4 t) from by
    unfold Dat.leavesExact; rw [l1Live4 t], l1After4]
  by_cases h0 : t.val % 4 = 0
  · have hF := (l1First_iff t).mpr h0
    have hL := l1notLast t h0
    rw [Dat.leavesExact_idle (l1Dat V c) 5 t (l1Idle5 t hL) (l1NoFlush5 t hL),
      Dat.leavesExact_idle (l1Dat V c) 6 t (l1Idle6 t hL) (l1NoFlush6 t hL)]
    rw [l1At_first V c t h0]
    unfold l1LeftFirst; (try dsimp only)
    by_cases hz : t.val = 0
    · rw [l1Phi_castSucc V c t, l1Phi_zero V c _ _ hz, l1Rest]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l1FirstAt c t hF hL (l1Blk V c 0 t) (l1Blk V c 1 t) (l1Blk V c 2 t) (l1Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l1CoverFirstS c t hF hL _ _ _ _)
            unfold owns; iexists _; isplitr
            swap; · iexact HQ
            ipureintro; exact View.read_writes_of_cover _ _ _ _ _ (l1CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l1CoverFirstH c t hF hL _ _ _ _)
      isplitl [HA]; · iexists _; iexact HA
      iexists _; iexact HB
    · rw [l1Phi_castSucc V c t, l1Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l1FirstAt c t hF hL (l1Blk V c 0 t) (l1Blk V c 1 t) (l1Blk V c 2 t) (l1Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexists _; iexact HS
      isplitl [HQ]; · iexists _; iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l1CoverFirstS c t hF hL _ _ _ _)
            unfold owns; iexists _; isplitr
            swap; · iexact HQ
            ipureintro; exact View.read_writes_of_cover _ _ _ _ _ (l1CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l1CoverFirstH c t hF hL _ _ _ _)
      isplitl [HA]; · iexists _; iexact HA
      iexists _; iexact HB
  · have hF := l1notFirst t h0
    have hz : t.val ≠ 0 := fun e => h0 (by rw [e])
    by_cases h7 : t.val % 4 = 3
    · have hL := (l1Last_iff t).mpr h7
      rw [show (l1Dat V c).leavesExact 5 t = owns (c : Thread nD τ) (l1m5 t) fullShare ((l1Dat V c).after 5 t) from by
        unfold Dat.leavesExact; rw [l1Live5 t hL], l1After5]
      rw [show (l1Dat V c).leavesExact 6 t = owns (c : Thread nD τ) (l1m6 t) fullShare ((l1Dat V c).after 6 t) from by
        unfold Dat.leavesExact; rw [l1Live6 t hL], l1After6]
      rw [l1At_last V c t h0 h7]
      unfold l1LeftLast; (try dsimp only)
      rw [l1Phi_castSucc V c t, l1Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l1LastAt c t hF hL (l1Blk V c 0 t) (l1Blk V c 1 t) (l1Blk V c 2 t) (l1Blk V c 3 t) _ _).2.2.2.2.2 Set.univ _)
      isplitl [H0]; · iexact H0
      isplitl [H1]; · iexact H1
      isplitl [H2]; · iexact H2
      isplitl [H3]; · iexact H3
      isplitl [HH]; · iexists _; iexact HH
      isplitl [HA]; · iexists _; iexact HA
      isplitl [HB]; · iexists _; iexact HB
      isplitl [HS]; · iexact HS
      isplitl [HQ]; · iexact HQ
      iintro ⟨H0, H1, H2, H3, ⟨%eH, HH⟩, ⟨%eA, HA⟩, ⟨%eB, HB⟩, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l1CoverLastS c t hF hL _ _ _ _ _ _)
            unfold owns; iexists _; isplitr
            swap; · iexact HQ
            ipureintro; exact View.read_writes_of_cover _ _ _ _ _ (l1CoverLastQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l1CoverLastH c t hF hL _ _ _ _ _ _)
      isplitl [HA]
      · unfold owns; iexists _; isplitr
        swap; · iexact HA
        ipureintro; exact View.read_writes_of_cover _ _ _ _ _ (l1CoverLast3 c t hF hL _ _ _ _ _ _)
      unfold owns; iexists _; isplitr
      swap; · iexact HB
      ipureintro; exact View.read_writes_of_cover _ _ _ _ _ (l1CoverLast4 c t hF hL _ _ _ _ _ _)
    · have hL := l1notLast' t h7
      rw [Dat.leavesExact_idle (l1Dat V c) 5 t (l1Idle5 t hL) (l1NoFlush5 t hL),
        Dat.leavesExact_idle (l1Dat V c) 6 t (l1Idle6 t hL) (l1NoFlush6 t hL)]
      rw [l1At_mid V c t h0 h7]
      unfold l1LeftMid; (try dsimp only)
      rw [l1Phi_castSucc V c t, l1Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l1MidAt c t hF hL (l1Blk V c 0 t) (l1Blk V c 1 t) (l1Blk V c 2 t) (l1Blk V c 3 t) _ _).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l1CoverMidS c t hF hL _ _ _ _ _ _)
            unfold owns; iexists _; isplitr
            swap; · iexact HQ
            ipureintro; exact View.read_writes_of_cover _ _ _ _ _ (l1CoverMidQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l1CoverMidH c t hF hL _ _ _ _ _ _)
      isplitl [HA]; · iexists _; iexact HA
      iexists _; iexact HB

theorem l1Obligation (c : Dev nD) : BodyObligation (l1Dat (F := F) V c) (defs₀ (F := F)) Variants.none () Set.univ := fun t => by
  rw [bigSep_W1, bigSep_W1]
  exact l1Point V c t

/-- What the launch hands the region is the invariant before the first point; after any later point the invariant gives
    the region's rest back (what the scratch rows hold is forgotten). -/
theorem l1PhiIn (c : Dev nD) : Pipeline.ΦA spec1 c ⊢ (l1Dat V c).Φ 0 := by
  rw [show (l1Dat V c).Φ 0 = l1Phi V c 0 (Nat.zero_le _) from rfl, l1Phi_zero V c 0 _ rfl]
  try exact Idealize.SL.BI.Entails.refl _
theorem l1PhiOut (c : Dev nD) : (l1Dat V c).Φ (Fin.last cfg1.N) ⊢ Pipeline.ΦA spec1 c := by
  rw [show (l1Dat V c).Φ (Fin.last cfg1.N) = l1Phi V c (Fin.last cfg1.N).val (Nat.le_of_lt_succ (Fin.last cfg1.N).isLt) from rfl,
    l1Phi_pos V c _ _ (by rw [Fin.val_last]; have : cfg1.N = 8 := N_1; omega), l1Rest]
  iintro ⟨⟨⟨HS, HQ⟩, Hrest⟩, Hg⟩
  isplitl [HS HQ Hrest]
  · isplitl [HS HQ]
    · isplitl [HS]
      · iexists _; iexact HS
      iexists _; iexact HQ
    iexact Hrest
  iexact Hg

end Cert.Kernel.Hand

end
-- ==== Proof.Layer2SharedBits.lean ====
/-
  The third layer's region: at each of 8 grid points (2 halves of the batch × 4 blocks of 4096 rows) the body
  forms z = h' · scale + shift from its block of the previous layer's h' and the two parameter rows, then
  h = sign(z) · sign(W)ᵀ, stores it, and adds the column sums of h and of h² into two one-row scratch buffers that
  are cleared at the first block of a half and copied out (eight identical rows) at the last block of a half.
  Here: the two branch conditions in closed form over the grid, where the two statistics windows are idle, the
  names of the buffers the body is called with, and the region's untouched rest with the two scratch rows split out.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "This is the first block of its half": the inner grid coordinate is 0. -/
abbrev l2First (i : grid2.Coords) : Prop :=
  (Scalar.cmpi .ne (Scalar.extui (Scalar.cmpi .eq (BitVec.ofNat 32 (i 1).val) 0#32)) 0#32) = 1#1
theorem l2First_iff : ∀ t : Fin cfg2.N, l2First (grid2.coords t) ↔ t.val % 4 = 0 :=
  (by decide +kernel : ∀ t : Fin grid2.N, l2First (grid2.coords t) ↔ t.val % 4 = 0)

/-- "This is the last block of its half": the inner grid coordinate is 3. -/
abbrev l2Last (i : grid2.Coords) : Prop := k2_cond2 i = 1#1
theorem l2Last_iff : ∀ t : Fin cfg2.N, l2Last (grid2.coords t) ↔ t.val % 4 = 3 :=
  (by decide +kernel : ∀ t : Fin grid2.N, l2Last (grid2.coords t) ↔ t.val % 4 = 3)

/-! ## Where the windows are idle -/

theorem l2Live0 : ∀ t : Fin cfg2.N, cfg2.idle 0 (grid2.coords t) = false := by decide +kernel
theorem l2Live1 : ∀ t : Fin cfg2.N, cfg2.idle 1 (grid2.coords t) = false := by decide +kernel
theorem l2Live2 : ∀ t : Fin cfg2.N, cfg2.idle 2 (grid2.coords t) = false := by decide +kernel
theorem l2Live3 : ∀ t : Fin cfg2.N, cfg2.idle 3 (grid2.coords t) = false := by decide +kernel
theorem l2Live4 : ∀ t : Fin cfg2.N, cfg2.idle 4 (grid2.coords t) = false := by decide +kernel
/-- The two statistics windows are idle, and not written back, except at the last block of a half. -/
theorem l2Idle5 : ∀ t : Fin cfg2.N, ¬l2Last (grid2.coords t) → cfg2.idle 5 (grid2.coords t) = true := by decide +kernel
theorem l2NoFlush5 : ∀ t : Fin cfg2.N, ¬l2Last (grid2.coords t) → (cfg2.win 5).flush t = false := by decide +kernel
theorem l2Live5 : ∀ t : Fin cfg2.N, l2Last (grid2.coords t) → cfg2.idle 5 (grid2.coords t) = false := by decide +kernel
theorem l2Idle6 : ∀ t : Fin cfg2.N, ¬l2Last (grid2.coords t) → cfg2.idle 6 (grid2.coords t) = true := by decide +kernel
theorem l2NoFlush6 : ∀ t : Fin cfg2.N, ¬l2Last (grid2.coords t) → (cfg2.win 6).flush t = false := by decide +kernel
theorem l2Live6 : ∀ t : Fin cfg2.N, l2Last (grid2.coords t) → cfg2.idle 6 (grid2.coords t) = false := by decide +kernel

/-! ## The buffers the body is called with -/

abbrev l2m0 (t : Fin cfg2.N) : Memref sig .tc .vmem S4096x256 .f32 := win2_0.stage (cfg2.slots t 0)
abbrev l2h0 (t : Fin cfg2.N) : (l2m0 t).IsWhole := hstage2_0 ((cfg2.slots t 0).cast nbuf2_0)
abbrev l2m1 (t : Fin cfg2.N) : Memref sig .tc .vmem S256x256 .bf16 := win2_1.stage (cfg2.slots t 1)
abbrev l2h1 (t : Fin cfg2.N) : (l2m1 t).IsWhole := hstage2_1 ((cfg2.slots t 1).cast nbuf2_1)
abbrev l2m2 (t : Fin cfg2.N) : Memref sig .tc .vmem S1x256 .f32 := win2_2.stage (cfg2.slots t 2)
abbrev l2h2 (t : Fin cfg2.N) : (l2m2 t).IsWhole := hstage2_2 ((cfg2.slots t 2).cast nbuf2_2)
abbrev l2m3 (t : Fin cfg2.N) : Memref sig .tc .vmem S1x256 .f32 := win2_3.stage (cfg2.slots t 3)
abbrev l2h3 (t : Fin cfg2.N) : (l2m3 t).IsWhole := hstage2_3 ((cfg2.slots t 3).cast nbuf2_3)
abbrev l2m4 (t : Fin cfg2.N) : Memref sig .tc .vmem S4096x256 .f32 := win2_4.stage (cfg2.slots t 4)
abbrev l2h4 (t : Fin cfg2.N) : (l2m4 t).IsWhole := hstage2_4 ((cfg2.slots t 4).cast nbuf2_4)
abbrev l2m5 (t : Fin cfg2.N) : Memref sig .tc .vmem S8x256 .f32 := win2_5.stage (cfg2.slots t 5)
abbrev l2h5 (t : Fin cfg2.N) : (l2m5 t).IsWhole := hstage2_5 ((cfg2.slots t 5).cast nbuf2_5)
abbrev l2m6 (t : Fin cfg2.N) : Memref sig .tc .vmem S8x256 .f32 := win2_6.stage (cfg2.slots t 6)
abbrev l2h6 (t : Fin cfg2.N) : (l2m6 t).IsWhole := hstage2_6 ((cfg2.slots t 6).cast nbuf2_6)
/-- The running column sums of h and of h²: one row each, the kernel's own. -/
abbrev l2Sum : Memref sig .tc .vmem S1x256 .f32 := Memref.whole cc2_scratch0
abbrev l2Sq : Memref sig .tc .vmem S1x256 .f32 := Memref.whole cc2_scratch1

/-- The region's untouched rest, with the two scratch rows owned at some contents each. -/
theorem l2Rest (c : Dev nD) :
    (Pipeline.ΦA spec2 c : sProp 𝕄)
      = iprop(iprop(iprop((∃ d, owns (c : Thread nD τ) l2Sum fullShare d) ∗ (∃ d, owns (c : Thread nD τ) l2Sq fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [l2Sum, l2Sq, owns_whole]; try rfl

end Cert.Kernel.Hand

end
-- ==== Proof.Layer2FirstBits.lean ====
/-
  The third layer's body at the first block of a half (and not the last): the two scratch rows are cleared,
  then take the column sums of this block's h and h²; h is stored; the statistics windows are not touched.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer2SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l2RunFirst (c : Dev nD) (i : grid2.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : l2First i) (hL : ¬l2Last i) (x0 : Vec F S4096x256 .f32) (x1 : Vec F S256x256 .bf16) (x2 : Vec F S1x256 .f32) (x3 : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc2__matmul_stats_kernel_fused i a2 h2 a3 h3 a4 h4 a5 h5 a6 h6 a7 h7 a8 h8 a9 h9 a10 h10) K } := by
  refine ⟨?_, ?_, ?_, fun y3 y4 E K => ?run⟩
  case run =>
    simp only [cc2__matmul_stats_kernel_fused_eq_skeleton]; unfold cc2__matmul_stats_kernel_fused_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%dS, %fS, -, HS⟩, ⟨%dQ, %fQ, -, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.Kernel.Hand

end
-- ==== Proof.Layer2MidBits.lean ====
/-
  The third layer's body at a block that is neither the first nor the last of its half: h is stored, and the
  two scratch rows, entering at what the block before left, each gain this block's column sums.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer2SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l2RunMid (c : Dev nD) (i : grid2.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l2First i) (hL : ¬l2Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc2__matmul_stats_kernel_fused i a2 h2 a3 h3 a4 h4 a5 h5 a6 h6 a7 h7 a8 h8 a9 h9 a10 h10) K } := by
  refine ⟨?_, ?_, ?_, fun y3 y4 E K => ?run⟩
  case run =>
    simp only [cc2__matmul_stats_kernel_fused_eq_skeleton]; unfold cc2__matmul_stats_kernel_fused_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.Kernel.Hand

end
-- ==== Proof.Layer2LastBits.lean ====
/-
  The third layer's body at the last block of a half: as at a middle block, and then each statistics buffer is
  filled with eight copies of the finished scratch row.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer2SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs come back as they were. -/
noncomputable def l2RunLast (c : Dev nD) (i : grid2.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l2First i) (hL : l2Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (L3 L4 : List (View.Piece (Elt F) S8x256 .f32)) (LS : List (View.Piece (Elt F) S1x256 .f32)), { LQ : List (View.Piece (Elt F) S1x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d)
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ (∃ f, a7.view.loc (c : Thread nD τ) ↦[a7.view.set]{fullShare} a7.view.writes (Elt F) f L3) ∗ (∃ f, a8.view.loc (c : Thread nD τ) ↦[a8.view.set]{fullShare} a8.view.writes (Elt F) f L4)
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc2__matmul_stats_kernel_fused i a2 h2 a3 h3 a4 h4 a5 h5 a6 h6 a7 h7 a8 h8 a9 h9 a10 h10) K } := by
  refine ⟨?_, ?_, ?_, ?_, ?_, fun E K => ?run⟩
  case run =>
    simp only [cc2__matmul_stats_kernel_fused_eq_skeleton]; unfold cc2__matmul_stats_kernel_fused_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [HS]; · iexists _; iexact HS
    iexists _; iexact HQ

end Cert.Kernel.Hand

end
-- ==== Proof.Layer2RegionBits.lean ====
/-
  The third layer's region as a whole: what each kind of grid point leaves in the buffers, the accumulation of
  the two scratch rows over the four blocks of a half (by recursion on the position: a first block starts afresh,
  every other block adds to what the block before left), the invariant that carries the scratch rows from one
  point to the next, and the body's obligation at every point. Stated at a parameter V: the contents of the
  core's buffers when the region is entered.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer2FirstBits
import proofs.«126670_j49074296324140_2_alg».proof.Proof.Layer2MidBits
import proofs.«126670_j49074296324140_2_alg».proof.Proof.Layer2LastBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def l2Blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Fixed views through which a buffer's contents after a list of stores are stated (the choice of buffer does not
    matter: only its shape does). -/
abbrev l2VH : View sig .tc .vmem S4096x256 .f32 := (Memref.whole cc2_stg4_0 : Memref sig .tc .vmem S4096x256 .f32).view
abbrev l2V3 : View sig .tc .vmem S8x256 .f32 := (Memref.whole cc2_stg5_0 : Memref sig .tc .vmem S8x256 .f32).view
abbrev l2V4 : View sig .tc .vmem S8x256 .f32 := (Memref.whole cc2_stg6_0 : Memref sig .tc .vmem S8x256 .f32).view
abbrev l2VS : View sig .tc .vmem S1x256 .f32 := l2Sum.view
abbrev l2VQ : View sig .tc .vmem S1x256 .f32 := l2Sq.view

/-! ## The three kinds of point, at the buffers the pipeline passes -/

abbrev l2FirstAt (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) :=
  l2RunFirst c (grid2.coords t) (l2m0 t) (l2h0 t) (l2m1 t) (l2h1 t) (l2m2 t) (l2h2 t) (l2m3 t) (l2h3 t) (l2m4 t) (l2h4 t) (l2m5 t) (l2h5 t) (l2m6 t) (l2h6 t) l2Sum (Memref.isWhole_whole _) l2Sq (Memref.isWhole_whole _) hF hL x0 x1 x2 x3
abbrev l2MidAt (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) :=
  l2RunMid c (grid2.coords t) (l2m0 t) (l2h0 t) (l2m1 t) (l2h1 t) (l2m2 t) (l2h2 t) (l2m3 t) (l2h3 t) (l2m4 t) (l2h4 t) (l2m5 t) (l2h5 t) (l2m6 t) (l2h6 t) l2Sum (Memref.isWhole_whole _) l2Sq (Memref.isWhole_whole _) hF hL x0 x1 x2 x3 s q
abbrev l2LastAt (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) :=
  l2RunLast c (grid2.coords t) (l2m0 t) (l2h0 t) (l2m1 t) (l2h1 t) (l2m2 t) (l2h2 t) (l2m3 t) (l2h3 t) (l2m4 t) (l2h4 t) (l2m5 t) (l2h5 t) (l2m6 t) (l2h6 t) l2Sum (Memref.isWhole_whole _) l2Sq (Memref.isWhole_whole _) hF hL x0 x1 x2 x3 s q

/-! Every list of stores covers its buffer (each buffer's last store is of the whole buffer). -/
theorem l2CoverFirstH (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) (y : S4096x256.Idx) :
    ∃ pc ∈ (l2FirstAt c t hF hL x0 x1 x2 x3).1, y ∈ pc.1.set :=
  View.cover_of_tiledL (l2FirstAt c t hF hL x0 x1 x2 x3).1 S4096x256.size (by sl_kernel_rfl) y
theorem l2CoverFirstS (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) (y : S1x256.Idx) :
    ∃ pc ∈ (l2FirstAt c t hF hL x0 x1 x2 x3).2.1, y ∈ pc.1.set :=
  View.cover_of_tiledL (l2FirstAt c t hF hL x0 x1 x2 x3).2.1 S1x256.size (by sl_kernel_rfl) y
theorem l2CoverFirstQ (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) (y : S1x256.Idx) :
    ∃ pc ∈ (l2FirstAt c t hF hL x0 x1 x2 x3).2.2.1, y ∈ pc.1.set :=
  View.cover_of_tiledL (l2FirstAt c t hF hL x0 x1 x2 x3).2.2.1 S1x256.size (by sl_kernel_rfl) y
theorem l2CoverMidH (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l2MidAt c t hF hL x0 x1 x2 x3 s q).1, y ∈ pc.1.set :=
  View.cover_of_tiledL (l2MidAt c t hF hL x0 x1 x2 x3 s q).1 S4096x256.size (by sl_kernel_rfl) y
theorem l2CoverMidS (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) (y : S1x256.Idx) :
    ∃ pc ∈ (l2MidAt c t hF hL x0 x1 x2 x3 s q).2.1, y ∈ pc.1.set :=
  View.cover_of_tiledL (l2MidAt c t hF hL x0 x1 x2 x3 s q).2.1 S1x256.size (by sl_kernel_rfl) y
theorem l2CoverMidQ (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) (y : S1x256.Idx) :
    ∃ pc ∈ (l2MidAt c t hF hL x0 x1 x2 x3 s q).2.2.1, y ∈ pc.1.set :=
  View.cover_of_tiledL (l2MidAt c t hF hL x0 x1 x2 x3 s q).2.2.1 S1x256.size (by sl_kernel_rfl) y
theorem l2CoverLastH (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l2LastAt c t hF hL x0 x1 x2 x3 s q).1, y ∈ pc.1.set :=
  View.cover_of_tiledL (l2LastAt c t hF hL x0 x1 x2 x3 s q).1 S4096x256.size (by sl_kernel_rfl) y
theorem l2CoverLast3 (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) (y : S8x256.Idx) :
    ∃ pc ∈ (l2LastAt c t hF hL x0 x1 x2 x3 s q).2.1, y ∈ pc.1.set :=
  View.cover_of_tiledL (l2LastAt c t hF hL x0 x1 x2 x3 s q).2.1 S8x256.size (by sl_kernel_rfl) y
theorem l2CoverLast4 (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) (y : S8x256.Idx) :
    ∃ pc ∈ (l2LastAt c t hF hL x0 x1 x2 x3 s q).2.2.1, y ∈ pc.1.set :=
  View.cover_of_tiledL (l2LastAt c t hF hL x0 x1 x2 x3 s q).2.2.1 S8x256.size (by sl_kernel_rfl) y
theorem l2CoverLastS (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) (y : S1x256.Idx) :
    ∃ pc ∈ (l2LastAt c t hF hL x0 x1 x2 x3 s q).2.2.2.1, y ∈ pc.1.set :=
  View.cover_of_tiledL (l2LastAt c t hF hL x0 x1 x2 x3 s q).2.2.2.1 S1x256.size (by sl_kernel_rfl) y
theorem l2CoverLastQ (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) (y : S1x256.Idx) :
    ∃ pc ∈ (l2LastAt c t hF hL x0 x1 x2 x3 s q).2.2.2.2.1, y ∈ pc.1.set :=
  View.cover_of_tiledL (l2LastAt c t hF hL x0 x1 x2 x3 s q).2.2.2.2.1 S1x256.size (by sl_kernel_rfl) y

/-- What a point of each kind leaves: (h's buffer, the two statistics buffers, the two scratch rows). At a point that
    does not store into the statistics buffers their entries are placeholders nothing reads. -/
def l2LeftFirst (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) : Vec F S4096x256 .f32 × Vec F S8x256 .f32 × Vec F S8x256 .f32 × Vec F S1x256 .f32 × Vec F S1x256 .f32 :=
  (l2VH.read (Elt F) (l2VH.writes (Elt F) l2VH.junk (l2FirstAt c t hF hL x0 x1 x2 x3).1), l2V3.read (Elt F) l2V3.junk, l2V4.read (Elt F) l2V4.junk,
   l2VS.read (Elt F) (l2VS.writes (Elt F) l2VS.junk (l2FirstAt c t hF hL x0 x1 x2 x3).2.1), l2VQ.read (Elt F) (l2VQ.writes (Elt F) l2VQ.junk (l2FirstAt c t hF hL x0 x1 x2 x3).2.2.1))
def l2LeftMid (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l2VH.read (Elt F) (l2VH.writes (Elt F) l2VH.junk (l2MidAt c t hF hL x0 x1 x2 x3 s q).1), l2V3.read (Elt F) l2V3.junk, l2V4.read (Elt F) l2V4.junk,
   l2VS.read (Elt F) (l2VS.writes (Elt F) l2VS.junk (l2MidAt c t hF hL x0 x1 x2 x3 s q).2.1), l2VQ.read (Elt F) (l2VQ.writes (Elt F) l2VQ.junk (l2MidAt c t hF hL x0 x1 x2 x3 s q).2.2.1))
def l2LeftLast (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l2VH.read (Elt F) (l2VH.writes (Elt F) l2VH.junk (l2LastAt c t hF hL x0 x1 x2 x3 s q).1), l2V3.read (Elt F) (l2V3.writes (Elt F) l2V3.junk (l2LastAt c t hF hL x0 x1 x2 x3 s q).2.1), l2V4.read (Elt F) (l2V4.writes (Elt F) l2V4.junk (l2LastAt c t hF hL x0 x1 x2 x3 s q).2.2.1),
   l2VS.read (Elt F) (l2VS.writes (Elt F) l2VS.junk (l2LastAt c t hF hL x0 x1 x2 x3 s q).2.2.2.1), l2VQ.read (Elt F) (l2VQ.writes (Elt F) l2VQ.junk (l2LastAt c t hF hL x0 x1 x2 x3 s q).2.2.2.2.1))

theorem l2notLast (t : Fin cfg2.N) (h0 : t.val % 4 = 0) : ¬l2Last (grid2.coords t) :=
  fun h => by have h' := (l2Last_iff t).mp h; omega
theorem l2notFirst (t : Fin cfg2.N) (h0 : ¬t.val % 4 = 0) : ¬l2First (grid2.coords t) :=
  fun h => h0 ((l2First_iff t).mp h)
theorem l2notLast' (t : Fin cfg2.N) (h7 : ¬t.val % 4 = 3) : ¬l2Last (grid2.coords t) :=
  fun h => h7 ((l2Last_iff t).mp h)

/-! ## The accumulation -/

/-- What the buffers hold after the body at position n, by recursion on the position: a first block starts the scratch
    rows afresh; every other block continues from what the block before left in them. -/
def l2At (c : Dev nD) : (n : ℕ) → n < cfg2.N → Vec F S4096x256 .f32 × Vec F S8x256 .f32 × Vec F S8x256 .f32 × Vec F S1x256 .f32 × Vec F S1x256 .f32
  | 0, hn => l2LeftFirst c ⟨0, hn⟩ ((l2First_iff ⟨0, hn⟩).mpr (Nat.zero_mod _)) (l2notLast ⟨0, hn⟩ (Nat.zero_mod _)) (l2Blk V c 0 ⟨0, hn⟩) (l2Blk V c 1 ⟨0, hn⟩) (l2Blk V c 2 ⟨0, hn⟩) (l2Blk V c 3 ⟨0, hn⟩)
  | n + 1, hn =>
    if h0 : (n + 1) % 4 = 0 then
      l2LeftFirst c ⟨n + 1, hn⟩ ((l2First_iff ⟨n + 1, hn⟩).mpr h0) (l2notLast ⟨n + 1, hn⟩ h0) (l2Blk V c 0 ⟨n + 1, hn⟩) (l2Blk V c 1 ⟨n + 1, hn⟩) (l2Blk V c 2 ⟨n + 1, hn⟩) (l2Blk V c 3 ⟨n + 1, hn⟩)
    else if h7 : (n + 1) % 4 = 3 then
      l2LeftLast c ⟨n + 1, hn⟩ (l2notFirst ⟨n + 1, hn⟩ h0) ((l2Last_iff ⟨n + 1, hn⟩).mpr h7) (l2Blk V c 0 ⟨n + 1, hn⟩) (l2Blk V c 1 ⟨n + 1, hn⟩) (l2Blk V c 2 ⟨n + 1, hn⟩) (l2Blk V c 3 ⟨n + 1, hn⟩)
        (l2At c n (Nat.lt_of_succ_lt hn)).2.2.2.1 (l2At c n (Nat.lt_of_succ_lt hn)).2.2.2.2
    else
      l2LeftMid c ⟨n + 1, hn⟩ (l2notFirst ⟨n + 1, hn⟩ h0) (l2notLast' ⟨n + 1, hn⟩ h7) (l2Blk V c 0 ⟨n + 1, hn⟩) (l2Blk V c 1 ⟨n + 1, hn⟩) (l2Blk V c 2 ⟨n + 1, hn⟩) (l2Blk V c 3 ⟨n + 1, hn⟩)
        (l2At c n (Nat.lt_of_succ_lt hn)).2.2.2.1 (l2At c n (Nat.lt_of_succ_lt hn)).2.2.2.2

theorem l2At_first (c : Dev nD) (t : Fin cfg2.N) (h0 : t.val % 4 = 0) :
    l2At V c t.val t.isLt = l2LeftFirst c t ((l2First_iff t).mpr h0) (l2notLast t h0) (l2Blk V c 0 t) (l2Blk V c 1 t) (l2Blk V c 2 t) (l2Blk V c 3 t) := by
  obtain ⟨n, hn⟩ := t
  cases n with
  | zero => exact rfl
  | succ n => exact (dif_pos h0).trans rfl

theorem l2At_last (c : Dev nD) (t : Fin cfg2.N) (h0 : ¬t.val % 4 = 0) (h7 : t.val % 4 = 3) :
    l2At V c t.val t.isLt = l2LeftLast c t (l2notFirst t h0) ((l2Last_iff t).mpr h7) (l2Blk V c 0 t) (l2Blk V c 1 t) (l2Blk V c 2 t) (l2Blk V c 3 t)
      (l2At V c (t.val - 1) (Nat.lt_of_le_of_lt (Nat.sub_le _ _) t.isLt)).2.2.2.1 (l2At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h7).trans rfl)

theorem l2At_mid (c : Dev nD) (t : Fin cfg2.N) (h0 : ¬t.val % 4 = 0) (h7 : ¬t.val % 4 = 3) :
    l2At V c t.val t.isLt = l2LeftMid c t (l2notFirst t h0) (l2notLast' t h7) (l2Blk V c 0 t) (l2Blk V c 1 t) (l2Blk V c 2 t) (l2Blk V c 3 t)
      (l2At V c (t.val - 1) (Nat.lt_of_le_of_lt (Nat.sub_le _ _) t.isLt)).2.2.2.1 (l2At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h7).trans rfl)

/-! ## The invariant between points -/

/-- Before the first point the region's rest as the launch hands it over; afterwards the same with the two scratch rows
    at what the point before left in them. -/
def l2Phi (c : Dev nD) : (n : ℕ) → n ≤ cfg2.N → sProp 𝕄
  | 0, _ => Pipeline.ΦA spec2 c
  | n + 1, hn => iprop(iprop(iprop(owns (c : Thread nD τ) l2Sum fullShare (l2At V c n hn).2.2.2.1 ∗ owns (c : Thread nD τ) l2Sq fullShare (l2At V c n hn).2.2.2.2)
      ∗ Pipeline.scopedRestBut (Ix := Unit) (Name := ℕ) (U := UR sig nD τ) (Lvl := ℕ) (Val := Elt F) spec2 c [cc2_scratch0, cc2_scratch1]) ∗ (∃ r, prngReg c r))

theorem l2Phi_zero (c : Dev nD) (n : ℕ) (h : n ≤ cfg2.N) (hz : n = 0) : l2Phi V c n h = Pipeline.ΦA spec2 c := by
  subst hz; rfl
theorem l2Phi_succ (c : Dev nD) (n : ℕ) (hn : n < cfg2.N) :
    l2Phi V c (n + 1) hn = iprop(iprop(iprop(owns (c : Thread nD τ) l2Sum fullShare (l2At V c n hn).2.2.2.1 ∗ owns (c : Thread nD τ) l2Sq fullShare (l2At V c n hn).2.2.2.2)
      ∗ Pipeline.scopedRestBut (Ix := Unit) (Name := ℕ) (U := UR sig nD τ) (Lvl := ℕ) (Val := Elt F) spec2 c [cc2_scratch0, cc2_scratch1]) ∗ (∃ r, prngReg c r)) := rfl
theorem l2Phi_pos (c : Dev nD) (n : ℕ) (h : n ≤ cfg2.N) (hz : n ≠ 0) :
    l2Phi V c n h = iprop(iprop(iprop(owns (c : Thread nD τ) l2Sum fullShare (l2At V c (n - 1) (by omega)).2.2.2.1 ∗ owns (c : Thread nD τ) l2Sq fullShare (l2At V c (n - 1) (by omega)).2.2.2.2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data of the region -/

def l2Dat (c : Dev nD) : Dat τ (Elt F) Unit ℕ (UR sig nD τ) ℕ cfg2 c where
  A w := V c (Pipeline.arrRef spec2 w)
  after w t := match w with
    | ⟨0, _⟩ => l2Blk V c 0 t
    | ⟨1, _⟩ => l2Blk V c 1 t
    | ⟨2, _⟩ => l2Blk V c 2 t
    | ⟨3, _⟩ => l2Blk V c 3 t
    | ⟨4, _⟩ => (l2At V c t.val t.isLt).1
    | ⟨5, _⟩ => (l2At V c t.val t.isLt).2.1
    | ⟨6, _⟩ => (l2At V c t.val t.isLt).2.2.1
  Φ t := l2Phi V c t.val (Nat.le_of_lt_succ t.isLt)
  q _ := fullShare
  owed _ := 0

theorem l2Dat_A (c : Dev nD) (w : Fin cfg2.W) : (l2Dat V c).A w = V c (Pipeline.arrRef spec2 w) := by
  dsimp only [l2Dat]
theorem l2Phi_castSucc (c : Dev nD) (t : Fin cfg2.N) :
    (l2Dat V c).Φ t.castSucc = l2Phi V c t.val (Nat.le_of_lt t.isLt) := by
  dsimp only [l2Dat]; simp only [Fin.coe_castSucc]
theorem l2After0 (c : Dev nD) (t : Fin cfg2.N) : (l2Dat V c).after 0 t = l2Blk V c 0 t := by dsimp only [l2Dat]
theorem l2After1 (c : Dev nD) (t : Fin cfg2.N) : (l2Dat V c).after 1 t = l2Blk V c 1 t := by dsimp only [l2Dat]
theorem l2After2 (c : Dev nD) (t : Fin cfg2.N) : (l2Dat V c).after 2 t = l2Blk V c 2 t := by dsimp only [l2Dat]
theorem l2After3 (c : Dev nD) (t : Fin cfg2.N) : (l2Dat V c).after 3 t = l2Blk V c 3 t := by dsimp only [l2Dat]
theorem l2After4 (c : Dev nD) (t : Fin cfg2.N) : (l2Dat V c).after 4 t = (l2At V c t.val t.isLt).1 := by dsimp only [l2Dat]
theorem l2After5 (c : Dev nD) (t : Fin cfg2.N) : (l2Dat V c).after 5 t = (l2At V c t.val t.isLt).2.1 := by dsimp only [l2Dat]
theorem l2After6 (c : Dev nD) (t : Fin cfg2.N) : (l2Dat V c).after 6 t = (l2At V c t.val t.isLt).2.2.1 := by dsimp only [l2Dat]

/-- An input's current buffer holds its block at every point, fetched there or not. -/
theorem l2Before0 (c : Dev nD) (t : Fin cfg2.N) (d) : (l2Dat V c).before 0 t d = l2Blk V c 0 t :=
  ((l2Dat V c).before_in_eq_fetched 0 rfl (fun _ => rfl) (fun _ _ _ => rfl)
    (fun t => by rw [l2After0]; unfold Dat.blockOf l2Blk; rw [l2Dat_A]; try rfl) t d).trans
    (by unfold Dat.fetched Dat.blockOf l2Blk; rw [l2Dat_A]; try rfl)
theorem l2Before1 (c : Dev nD) (t : Fin cfg2.N) (d) : (l2Dat V c).before 1 t d = l2Blk V c 1 t :=
  ((l2Dat V c).before_in_eq_fetched 1 rfl (fun _ => rfl) (fun _ _ _ => rfl)
    (fun t => by rw [l2After1]; unfold Dat.blockOf l2Blk; rw [l2Dat_A]; try rfl) t d).trans
    (by unfold Dat.fetched Dat.blockOf l2Blk; rw [l2Dat_A]; try rfl)
theorem l2Before2 (c : Dev nD) (t : Fin cfg2.N) (d) : (l2Dat V c).before 2 t d = l2Blk V c 2 t :=
  ((l2Dat V c).before_in_eq_fetched 2 rfl (fun _ => rfl) (fun _ _ _ => rfl)
    (fun t => by rw [l2After2]; unfold Dat.blockOf l2Blk; rw [l2Dat_A]; try rfl) t d).trans
    (by unfold Dat.fetched Dat.blockOf l2Blk; rw [l2Dat_A]; try rfl)
theorem l2Before3 (c : Dev nD) (t : Fin cfg2.N) (d) : (l2Dat V c).before 3 t d = l2Blk V c 3 t :=
  ((l2Dat V c).before_in_eq_fetched 3 rfl (fun _ => rfl) (fun _ _ _ => rfl)
    (fun t => by rw [l2After3]; unfold Dat.blockOf l2Blk; rw [l2Dat_A]; try rfl) t d).trans
    (by unfold Dat.fetched Dat.blockOf l2Blk; rw [l2Dat_A]; try rfl)

/-! ## The body obligation -/

def l2Pre (c : Dev nD) (t : Fin cfg2.N) : sProp 𝕄 :=
  iprop((l2Dat V c).Φ t.castSucc ∗ (l2Dat V c).owesAt () t.castSucc
    ∗ (∃ d, owns (c : Thread nD τ) (l2m0 t) fullShare ((l2Dat V c).before 0 t d))
    ∗ (∃ d, owns (c : Thread nD τ) (l2m1 t) fullShare ((l2Dat V c).before 1 t d))
    ∗ (∃ d, owns (c : Thread nD τ) (l2m2 t) fullShare ((l2Dat V c).before 2 t d))
    ∗ (∃ d, owns (c : Thread nD τ) (l2m3 t) fullShare ((l2Dat V c).before 3 t d))
    ∗ (∃ d, owns (c : Thread nD τ) (l2m4 t) fullShare ((l2Dat V c).before 4 t d))
    ∗ (∃ d, owns (c : Thread nD τ) (l2m5 t) fullShare ((l2Dat V c).before 5 t d))
    ∗ (∃ d, owns (c : Thread nD τ) (l2m6 t) fullShare ((l2Dat V c).before 6 t d)))

def l2Post (c : Dev nD) (t : Fin cfg2.N) : sProp 𝕄 :=
  iprop((l2Dat V c).Φ t.succ ∗ (l2Dat V c).owesAt () t.succ
    ∗ (l2Dat V c).leavesExact 0 t
    ∗ (l2Dat V c).leavesExact 1 t
    ∗ (l2Dat V c).leavesExact 2 t
    ∗ (l2Dat V c).leavesExact 3 t
    ∗ (l2Dat V c).leavesExact 4 t
    ∗ (l2Dat V c).leavesExact 5 t
    ∗ (l2Dat V c).leavesExact 6 t)

set_option maxHeartbeats 8000000 in
/-- The body at any point: which kind of point it is is read off the position; the invariant hands over the scratch
    rows (at anything before the very first point, else at what the point before left) and takes them back at this
    point's contents. -/
theorem l2Point (c : Dev nD) (t : Fin cfg2.N) :
    l2Pre V c t ⊢ wp frame (wpE (defs₀ (F := F)) Variants.none c none) Set.univ (bodyAt2 t) (fun _ => l2Post V c t) := by
  unfold l2Pre l2Post bodyAt2
  simp only [l2Before0, l2Before1, l2Before2, l2Before3]
  rw [show (l2Dat V c).owesAt () t.succ = (l2Dat V c).owesAt () t.castSucc from rfl]
  rw [show (l2Dat V c).Φ t.succ = l2Phi V c (t.val + 1) t.isLt from rfl, l2Phi_succ]
  have hN : t.val < 8 := lt_of_lt_of_eq t.isLt (show cfg2.N = 8 from N_2)
  rw [show (l2Dat V c).leavesExact 0 t = owns (c : Thread nD τ) (l2m0 t) fullShare ((l2Dat V c).after 0 t) from by
    unfold Dat.leavesExact; rw [l2Live0 t], l2After0]
  rw [show (l2Dat V c).leavesExact 1 t = owns (c : Thread nD τ) (l2m1 t) fullShare ((l2Dat V c).after 1 t) from by
    unfold Dat.leavesExact; rw [l2Live1 t], l2After1]
  rw [show (l2Dat V c).leavesExact 2 t = owns (c : Thread nD τ) (l2m2 t) fullShare ((l2Dat V c).after 2 t) from by
    unfold Dat.leavesExact; rw [l2Live2 t], l2After2]
  rw [show (l2Dat V c).leavesExact 3 t = owns (c : Thread nD τ) (l2m3 t) fullShare ((l2Dat V c).after 3 t) from by
    unfold Dat.leavesExact; rw [l2Live3 t], l2After3]
  rw [show (l2Dat V c).leavesExact 4 t = owns (c : Thread nD τ) (l2m4 t) fullShare ((l2Dat V c).after 4 t) from by
    unfold Dat.leavesExact; rw [l2Live4 t], l2After4]
  by_cases h0 : t.val % 4 = 0
  · have hF := (l2First_iff t).mpr h0
    have hL := l2notLast t h0
    rw [Dat.leavesExact_idle (l2Dat V c) 5 t (l2Idle5 t hL) (l2NoFlush5 t hL),
      Dat.leavesExact_idle (l2Dat V c) 6 t (l2Idle6 t hL) (l2NoFlush6 t hL)]
    rw [l2At_first V c t h0]
    unfold l2LeftFirst; (try dsimp only)
    by_cases hz : t.val = 0
    · rw [l2Phi_castSucc V c t, l2Phi_zero V c _ _ hz, l2Rest]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l2FirstAt c t hF hL (l2Blk V c 0 t) (l2Blk V c 1 t) (l2Blk V c 2 t) (l2Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l2CoverFirstS c t hF hL _ _ _ _)
            unfold owns; iexists _; isplitr
            swap; · iexact HQ
            ipureintro; exact View.read_writes_of_cover _ _ _ _ _ (l2CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l2CoverFirstH c t hF hL _ _ _ _)
      isplitl [HA]; · iexists _; iexact HA
      iexists _; iexact HB
    · rw [l2Phi_castSucc V c t, l2Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l2FirstAt c t hF hL (l2Blk V c 0 t) (l2Blk V c 1 t) (l2Blk V c 2 t) (l2Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexists _; iexact HS
      isplitl [HQ]; · iexists _; iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l2CoverFirstS c t hF hL _ _ _ _)
            unfold owns; iexists _; isplitr
            swap; · iexact HQ
            ipureintro; exact View.read_writes_of_cover _ _ _ _ _ (l2CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l2CoverFirstH c t hF hL _ _ _ _)
      isplitl [HA]; · iexists _; iexact HA
      iexists _; iexact HB
  · have hF := l2notFirst t h0
    have hz : t.val ≠ 0 := fun e => h0 (by rw [e])
    by_cases h7 : t.val % 4 = 3
    · have hL := (l2Last_iff t).mpr h7
      rw [show (l2Dat V c).leavesExact 5 t = owns (c : Thread nD τ) (l2m5 t) fullShare ((l2Dat V c).after 5 t) from by
        unfold Dat.leavesExact; rw [l2Live5 t hL], l2After5]
      rw [show (l2Dat V c).leavesExact 6 t = owns (c : Thread nD τ) (l2m6 t) fullShare ((l2Dat V c).after 6 t) from by
        unfold Dat.leavesExact; rw [l2Live6 t hL], l2After6]
      rw [l2At_last V c t h0 h7]
      unfold l2LeftLast; (try dsimp only)
      rw [l2Phi_castSucc V c t, l2Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l2LastAt c t hF hL (l2Blk V c 0 t) (l2Blk V c 1 t) (l2Blk V c 2 t) (l2Blk V c 3 t) _ _).2.2.2.2.2 Set.univ _)
      isplitl [H0]; · iexact H0
      isplitl [H1]; · iexact H1
      isplitl [H2]; · iexact H2
      isplitl [H3]; · iexact H3
      isplitl [HH]; · iexists _; iexact HH
      isplitl [HA]; · iexists _; iexact HA
      isplitl [HB]; · iexists _; iexact HB
      isplitl [HS]; · iexact HS
      isplitl [HQ]; · iexact HQ
      iintro ⟨H0, H1, H2, H3, ⟨%eH, HH⟩, ⟨%eA, HA⟩, ⟨%eB, HB⟩, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l2CoverLastS c t hF hL _ _ _ _ _ _)
            unfold owns; iexists _; isplitr
            swap; · iexact HQ
            ipureintro; exact View.read_writes_of_cover _ _ _ _ _ (l2CoverLastQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l2CoverLastH c t hF hL _ _ _ _ _ _)
      isplitl [HA]
      · unfold owns; iexists _; isplitr
        swap; · iexact HA
        ipureintro; exact View.read_writes_of_cover _ _ _ _ _ (l2CoverLast3 c t hF hL _ _ _ _ _ _)
      unfold owns; iexists _; isplitr
      swap; · iexact HB
      ipureintro; exact View.read_writes_of_cover _ _ _ _ _ (l2CoverLast4 c t hF hL _ _ _ _ _ _)
    · have hL := l2notLast' t h7
      rw [Dat.leavesExact_idle (l2Dat V c) 5 t (l2Idle5 t hL) (l2NoFlush5 t hL),
        Dat.leavesExact_idle (l2Dat V c) 6 t (l2Idle6 t hL) (l2NoFlush6 t hL)]
      rw [l2At_mid V c t h0 h7]
      unfold l2LeftMid; (try dsimp only)
      rw [l2Phi_castSucc V c t, l2Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l2MidAt c t hF hL (l2Blk V c 0 t) (l2Blk V c 1 t) (l2Blk V c 2 t) (l2Blk V c 3 t) _ _).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l2CoverMidS c t hF hL _ _ _ _ _ _)
            unfold owns; iexists _; isplitr
            swap; · iexact HQ
            ipureintro; exact View.read_writes_of_cover _ _ _ _ _ (l2CoverMidQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l2CoverMidH c t hF hL _ _ _ _ _ _)
      isplitl [HA]; · iexists _; iexact HA
      iexists _; iexact HB

theorem l2Obligation (c : Dev nD) : BodyObligation (l2Dat (F := F) V c) (defs₀ (F := F)) Variants.none () Set.univ := fun t => by
  rw [bigSep_W2, bigSep_W2]
  exact l2Point V c t

/-- What the launch hands the region is the invariant before the first point; after any later point the invariant gives
    the region's rest back (what the scratch rows hold is forgotten). -/
theorem l2PhiIn (c : Dev nD) : Pipeline.ΦA spec2 c ⊢ (l2Dat V c).Φ 0 := by
  rw [show (l2Dat V c).Φ 0 = l2Phi V c 0 (Nat.zero_le _) from rfl, l2Phi_zero V c 0 _ rfl]
  try exact Idealize.SL.BI.Entails.refl _
theorem l2PhiOut (c : Dev nD) : (l2Dat V c).Φ (Fin.last cfg2.N) ⊢ Pipeline.ΦA spec2 c := by
  rw [show (l2Dat V c).Φ (Fin.last cfg2.N) = l2Phi V c (Fin.last cfg2.N).val (Nat.le_of_lt_succ (Fin.last cfg2.N).isLt) from rfl,
    l2Phi_pos V c _ _ (by rw [Fin.val_last]; have : cfg2.N = 8 := N_2; omega), l2Rest]
  iintro ⟨⟨⟨HS, HQ⟩, Hrest⟩, Hg⟩
  isplitl [HS HQ Hrest]
  · isplitl [HS HQ]
    · isplitl [HS]
      · iexists _; iexact HS
      iexists _; iexact HQ
    iexact Hrest
  iexact Hg

end Cert.Kernel.Hand

end
-- ==== Proof.Layer3SharedBits.lean ====
/-
  The fourth layer's region: at each of 8 grid points (2 halves of the batch × 4 blocks of 4096 rows) the body
  forms z = h' · scale + shift from its block of the previous layer's h' and the two parameter rows, then
  h = sign(z) · sign(W)ᵀ, stores it, and adds the column sums of h and of h² into two one-row scratch buffers that
  are cleared at the first block of a half and copied out (eight identical rows) at the last block of a half.
  Here: the two branch conditions in closed form over the grid, where the two statistics windows are idle, the
  names of the buffers the body is called with, and the region's untouched rest with the two scratch rows split out.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "This is the first block of its half": the inner grid coordinate is 0. -/
abbrev l3First (i : grid3.Coords) : Prop :=
  (Scalar.cmpi .ne (Scalar.extui (Scalar.cmpi .eq (BitVec.ofNat 32 (i 1).val) 0#32)) 0#32) = 1#1
theorem l3First_iff : ∀ t : Fin cfg3.N, l3First (grid3.coords t) ↔ t.val % 4 = 0 :=
  (by decide +kernel : ∀ t : Fin grid3.N, l3First (grid3.coords t) ↔ t.val % 4 = 0)

/-- "This is the last block of its half": the inner grid coordinate is 3. -/
abbrev l3Last (i : grid3.Coords) : Prop := k3_cond2 i = 1#1
theorem l3Last_iff : ∀ t : Fin cfg3.N, l3Last (grid3.coords t) ↔ t.val % 4 = 3 :=
  (by decide +kernel : ∀ t : Fin grid3.N, l3Last (grid3.coords t) ↔ t.val % 4 = 3)

/-! ## Where the windows are idle -/

theorem l3Live0 : ∀ t : Fin cfg3.N, cfg3.idle 0 (grid3.coords t) = false := by decide +kernel
theorem l3Live1 : ∀ t : Fin cfg3.N, cfg3.idle 1 (grid3.coords t) = false := by decide +kernel
theorem l3Live2 : ∀ t : Fin cfg3.N, cfg3.idle 2 (grid3.coords t) = false := by decide +kernel
theorem l3Live3 : ∀ t : Fin cfg3.N, cfg3.idle 3 (grid3.coords t) = false := by decide +kernel
theorem l3Live4 : ∀ t : Fin cfg3.N, cfg3.idle 4 (grid3.coords t) = false := by decide +kernel
/-- The two statistics windows are idle, and not written back, except at the last block of a half. -/
theorem l3Idle5 : ∀ t : Fin cfg3.N, ¬l3Last (grid3.coords t) → cfg3.idle 5 (grid3.coords t) = true := by decide +kernel
theorem l3NoFlush5 : ∀ t : Fin cfg3.N, ¬l3Last (grid3.coords t) → (cfg3.win 5).flush t = false := by decide +kernel
theorem l3Live5 : ∀ t : Fin cfg3.N, l3Last (grid3.coords t) → cfg3.idle 5 (grid3.coords t) = false := by decide +kernel
theorem l3Idle6 : ∀ t : Fin cfg3.N, ¬l3Last (grid3.coords t) → cfg3.idle 6 (grid3.coords t) = true := by decide +kernel
theorem l3NoFlush6 : ∀ t : Fin cfg3.N, ¬l3Last (grid3.coords t) → (cfg3.win 6).flush t = false := by decide +kernel
theorem l3Live6 : ∀ t : Fin cfg3.N, l3Last (grid3.coords t) → cfg3.idle 6 (grid3.coords t) = false := by decide +kernel

/-! ## The buffers the body is called with -/

abbrev l3m0 (t : Fin cfg3.N) : Memref sig .tc .vmem S4096x256 .f32 := win3_0.stage (cfg3.slots t 0)
abbrev l3h0 (t : Fin cfg3.N) : (l3m0 t).IsWhole := hstage3_0 ((cfg3.slots t 0).cast nbuf3_0)
abbrev l3m1 (t : Fin cfg3.N) : Memref sig .tc .vmem S256x256 .bf16 := win3_1.stage (cfg3.slots t 1)
abbrev l3h1 (t : Fin cfg3.N) : (l3m1 t).IsWhole := hstage3_1 ((cfg3.slots t 1).cast nbuf3_1)
abbrev l3m2 (t : Fin cfg3.N) : Memref sig .tc .vmem S1x256 .f32 := win3_2.stage (cfg3.slots t 2)
abbrev l3h2 (t : Fin cfg3.N) : (l3m2 t).IsWhole := hstage3_2 ((cfg3.slots t 2).cast nbuf3_2)
abbrev l3m3 (t : Fin cfg3.N) : Memref sig .tc .vmem S1x256 .f32 := win3_3.stage (cfg3.slots t 3)
abbrev l3h3 (t : Fin cfg3.N) : (l3m3 t).IsWhole := hstage3_3 ((cfg3.slots t 3).cast nbuf3_3)
abbrev l3m4 (t : Fin cfg3.N) : Memref sig .tc .vmem S4096x256 .f32 := win3_4.stage (cfg3.slots t 4)
abbrev l3h4 (t : Fin cfg3.N) : (l3m4 t).IsWhole := hstage3_4 ((cfg3.slots t 4).cast nbuf3_4)
abbrev l3m5 (t : Fin cfg3.N) : Memref sig .tc .vmem S8x256 .f32 := win3_5.stage (cfg3.slots t 5)
abbrev l3h5 (t : Fin cfg3.N) : (l3m5 t).IsWhole := hstage3_5 ((cfg3.slots t 5).cast nbuf3_5)
abbrev l3m6 (t : Fin cfg3.N) : Memref sig .tc .vmem S8x256 .f32 := win3_6.stage (cfg3.slots t 6)
abbrev l3h6 (t : Fin cfg3.N) : (l3m6 t).IsWhole := hstage3_6 ((cfg3.slots t 6).cast nbuf3_6)
/-- The running column sums of h and of h²: one row each, the kernel's own. -/
abbrev l3Sum : Memref sig .tc .vmem S1x256 .f32 := Memref.whole cc3_scratch0
abbrev l3Sq : Memref sig .tc .vmem S1x256 .f32 := Memref.whole cc3_scratch1

/-- The region's untouched rest, with the two scratch rows owned at some contents each. -/
theorem l3Rest (c : Dev nD) :
    (Pipeline.ΦA spec3 c : sProp 𝕄)
      = iprop(iprop(iprop((∃ d, owns (c : Thread nD τ) l3Sum fullShare d) ∗ (∃ d, owns (c : Thread nD τ) l3Sq fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [l3Sum, l3Sq, owns_whole]; try rfl

end Cert.Kernel.Hand

end
-- ==== Proof.Layer3FirstBits.lean ====
/-
  The fourth layer's body at the first block of a half (and not the last): the two scratch rows are cleared,
  then take the column sums of this block's h and h²; h is stored; the statistics windows are not touched.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer3SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l3RunFirst (c : Dev nD) (i : grid3.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : l3First i) (hL : ¬l3Last i) (x0 : Vec F S4096x256 .f32) (x1 : Vec F S256x256 .bf16) (x2 : Vec F S1x256 .f32) (x3 : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc3__matmul_stats_kernel_fused i a2 h2 a3 h3 a4 h4 a5 h5 a6 h6 a7 h7 a8 h8 a9 h9 a10 h10) K } := by
  refine ⟨?_, ?_, ?_, fun y3 y4 E K => ?run⟩
  case run =>
    simp only [cc3__matmul_stats_kernel_fused_eq_skeleton]; unfold cc3__matmul_stats_kernel_fused_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%dS, %fS, -, HS⟩, ⟨%dQ, %fQ, -, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.Kernel.Hand

end
-- ==== Proof.Layer3MidBits.lean ====
/-
  The fourth layer's body at a block that is neither the first nor the last of its half: h is stored, and the
  two scratch rows, entering at what the block before left, each gain this block's column sums.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer3SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l3RunMid (c : Dev nD) (i : grid3.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l3First i) (hL : ¬l3Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc3__matmul_stats_kernel_fused i a2 h2 a3 h3 a4 h4 a5 h5 a6 h6 a7 h7 a8 h8 a9 h9 a10 h10) K } := by
  refine ⟨?_, ?_, ?_, fun y3 y4 E K => ?run⟩
  case run =>
    simp only [cc3__matmul_stats_kernel_fused_eq_skeleton]; unfold cc3__matmul_stats_kernel_fused_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.Kernel.Hand

end
-- ==== Proof.Layer3LastBits.lean ====
/-
  The fourth layer's body at the last block of a half: as at a middle block, and then each statistics buffer is
  filled with eight copies of the finished scratch row.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer3SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs come back as they were. -/
noncomputable def l3RunLast (c : Dev nD) (i : grid3.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l3First i) (hL : l3Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (L3 L4 : List (View.Piece (Elt F) S8x256 .f32)) (LS : List (View.Piece (Elt F) S1x256 .f32)), { LQ : List (View.Piece (Elt F) S1x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d)
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ (∃ f, a7.view.loc (c : Thread nD τ) ↦[a7.view.set]{fullShare} a7.view.writes (Elt F) f L3) ∗ (∃ f, a8.view.loc (c : Thread nD τ) ↦[a8.view.set]{fullShare} a8.view.writes (Elt F) f L4)
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc3__matmul_stats_kernel_fused i a2 h2 a3 h3 a4 h4 a5 h5 a6 h6 a7 h7 a8 h8 a9 h9 a10 h10) K } := by
  refine ⟨?_, ?_, ?_, ?_, ?_, fun E K => ?run⟩
  case run =>
    simp only [cc3__matmul_stats_kernel_fused_eq_skeleton]; unfold cc3__matmul_stats_kernel_fused_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [HS]; · iexists _; iexact HS
    iexists _; iexact HQ

end Cert.Kernel.Hand

end
-- ==== Proof.Layer3RegionBits.lean ====
/-
  The fourth layer's region as a whole: what each kind of grid point leaves in the buffers, the accumulation of
  the two scratch rows over the four blocks of a half (by recursion on the position: a first block starts afresh,
  every other block adds to what the block before left), the invariant that carries the scratch rows from one
  point to the next, and the body's obligation at every point. Stated at a parameter V: the contents of the
  core's buffers when the region is entered.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer3FirstBits
import proofs.«126670_j49074296324140_2_alg».proof.Proof.Layer3MidBits
import proofs.«126670_j49074296324140_2_alg».proof.Proof.Layer3LastBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def l3Blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Fixed views through which a buffer's contents after a list of stores are stated (the choice of buffer does not
    matter: only its shape does). -/
abbrev l3VH : View sig .tc .vmem S4096x256 .f32 := (Memref.whole cc3_stg4_0 : Memref sig .tc .vmem S4096x256 .f32).view
abbrev l3V3 : View sig .tc .vmem S8x256 .f32 := (Memref.whole cc3_stg5_0 : Memref sig .tc .vmem S8x256 .f32).view
abbrev l3V4 : View sig .tc .vmem S8x256 .f32 := (Memref.whole cc3_stg6_0 : Memref sig .tc .vmem S8x256 .f32).view
abbrev l3VS : View sig .tc .vmem S1x256 .f32 := l3Sum.view
abbrev l3VQ : View sig .tc .vmem S1x256 .f32 := l3Sq.view

/-! ## The three kinds of point, at the buffers the pipeline passes -/

abbrev l3FirstAt (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) :=
  l3RunFirst c (grid3.coords t) (l3m0 t) (l3h0 t) (l3m1 t) (l3h1 t) (l3m2 t) (l3h2 t) (l3m3 t) (l3h3 t) (l3m4 t) (l3h4 t) (l3m5 t) (l3h5 t) (l3m6 t) (l3h6 t) l3Sum (Memref.isWhole_whole _) l3Sq (Memref.isWhole_whole _) hF hL x0 x1 x2 x3
abbrev l3MidAt (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) :=
  l3RunMid c (grid3.coords t) (l3m0 t) (l3h0 t) (l3m1 t) (l3h1 t) (l3m2 t) (l3h2 t) (l3m3 t) (l3h3 t) (l3m4 t) (l3h4 t) (l3m5 t) (l3h5 t) (l3m6 t) (l3h6 t) l3Sum (Memref.isWhole_whole _) l3Sq (Memref.isWhole_whole _) hF hL x0 x1 x2 x3 s q
abbrev l3LastAt (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) :=
  l3RunLast c (grid3.coords t) (l3m0 t) (l3h0 t) (l3m1 t) (l3h1 t) (l3m2 t) (l3h2 t) (l3m3 t) (l3h3 t) (l3m4 t) (l3h4 t) (l3m5 t) (l3h5 t) (l3m6 t) (l3h6 t) l3Sum (Memref.isWhole_whole _) l3Sq (Memref.isWhole_whole _) hF hL x0 x1 x2 x3 s q

/-! Every list of stores covers its buffer (each buffer's last store is of the whole buffer). -/
theorem l3CoverFirstH (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) (y : S4096x256.Idx) :
    ∃ pc ∈ (l3FirstAt c t hF hL x0 x1 x2 x3).1, y ∈ pc.1.set :=
  View.cover_of_tiledL (l3FirstAt c t hF hL x0 x1 x2 x3).1 S4096x256.size (by sl_kernel_rfl) y
theorem l3CoverFirstS (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) (y : S1x256.Idx) :
    ∃ pc ∈ (l3FirstAt c t hF hL x0 x1 x2 x3).2.1, y ∈ pc.1.set :=
  View.cover_of_tiledL (l3FirstAt c t hF hL x0 x1 x2 x3).2.1 S1x256.size (by sl_kernel_rfl) y
theorem l3CoverFirstQ (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) (y : S1x256.Idx) :
    ∃ pc ∈ (l3FirstAt c t hF hL x0 x1 x2 x3).2.2.1, y ∈ pc.1.set :=
  View.cover_of_tiledL (l3FirstAt c t hF hL x0 x1 x2 x3).2.2.1 S1x256.size (by sl_kernel_rfl) y
theorem l3CoverMidH (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l3MidAt c t hF hL x0 x1 x2 x3 s q).1, y ∈ pc.1.set :=
  View.cover_of_tiledL (l3MidAt c t hF hL x0 x1 x2 x3 s q).1 S4096x256.size (by sl_kernel_rfl) y
theorem l3CoverMidS (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) (y : S1x256.Idx) :
    ∃ pc ∈ (l3MidAt c t hF hL x0 x1 x2 x3 s q).2.1, y ∈ pc.1.set :=
  View.cover_of_tiledL (l3MidAt c t hF hL x0 x1 x2 x3 s q).2.1 S1x256.size (by sl_kernel_rfl) y
theorem l3CoverMidQ (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) (y : S1x256.Idx) :
    ∃ pc ∈ (l3MidAt c t hF hL x0 x1 x2 x3 s q).2.2.1, y ∈ pc.1.set :=
  View.cover_of_tiledL (l3MidAt c t hF hL x0 x1 x2 x3 s q).2.2.1 S1x256.size (by sl_kernel_rfl) y
theorem l3CoverLastH (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l3LastAt c t hF hL x0 x1 x2 x3 s q).1, y ∈ pc.1.set :=
  View.cover_of_tiledL (l3LastAt c t hF hL x0 x1 x2 x3 s q).1 S4096x256.size (by sl_kernel_rfl) y
theorem l3CoverLast3 (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) (y : S8x256.Idx) :
    ∃ pc ∈ (l3LastAt c t hF hL x0 x1 x2 x3 s q).2.1, y ∈ pc.1.set :=
  View.cover_of_tiledL (l3LastAt c t hF hL x0 x1 x2 x3 s q).2.1 S8x256.size (by sl_kernel_rfl) y
theorem l3CoverLast4 (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) (y : S8x256.Idx) :
    ∃ pc ∈ (l3LastAt c t hF hL x0 x1 x2 x3 s q).2.2.1, y ∈ pc.1.set :=
  View.cover_of_tiledL (l3LastAt c t hF hL x0 x1 x2 x3 s q).2.2.1 S8x256.size (by sl_kernel_rfl) y
theorem l3CoverLastS (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) (y : S1x256.Idx) :
    ∃ pc ∈ (l3LastAt c t hF hL x0 x1 x2 x3 s q).2.2.2.1, y ∈ pc.1.set :=
  View.cover_of_tiledL (l3LastAt c t hF hL x0 x1 x2 x3 s q).2.2.2.1 S1x256.size (by sl_kernel_rfl) y
theorem l3CoverLastQ (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) (y : S1x256.Idx) :
    ∃ pc ∈ (l3LastAt c t hF hL x0 x1 x2 x3 s q).2.2.2.2.1, y ∈ pc.1.set :=
  View.cover_of_tiledL (l3LastAt c t hF hL x0 x1 x2 x3 s q).2.2.2.2.1 S1x256.size (by sl_kernel_rfl) y

/-- What a point of each kind leaves: (h's buffer, the two statistics buffers, the two scratch rows). At a point that
    does not store into the statistics buffers their entries are placeholders nothing reads. -/
def l3LeftFirst (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) : Vec F S4096x256 .f32 × Vec F S8x256 .f32 × Vec F S8x256 .f32 × Vec F S1x256 .f32 × Vec F S1x256 .f32 :=
  (l3VH.read (Elt F) (l3VH.writes (Elt F) l3VH.junk (l3FirstAt c t hF hL x0 x1 x2 x3).1), l3V3.read (Elt F) l3V3.junk, l3V4.read (Elt F) l3V4.junk,
   l3VS.read (Elt F) (l3VS.writes (Elt F) l3VS.junk (l3FirstAt c t hF hL x0 x1 x2 x3).2.1), l3VQ.read (Elt F) (l3VQ.writes (Elt F) l3VQ.junk (l3FirstAt c t hF hL x0 x1 x2 x3).2.2.1))
def l3LeftMid (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l3VH.read (Elt F) (l3VH.writes (Elt F) l3VH.junk (l3MidAt c t hF hL x0 x1 x2 x3 s q).1), l3V3.read (Elt F) l3V3.junk, l3V4.read (Elt F) l3V4.junk,
   l3VS.read (Elt F) (l3VS.writes (Elt F) l3VS.junk (l3MidAt c t hF hL x0 x1 x2 x3 s q).2.1), l3VQ.read (Elt F) (l3VQ.writes (Elt F) l3VQ.junk (l3MidAt c t hF hL x0 x1 x2 x3 s q).2.2.1))
def l3LeftLast (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l3VH.read (Elt F) (l3VH.writes (Elt F) l3VH.junk (l3LastAt c t hF hL x0 x1 x2 x3 s q).1), l3V3.read (Elt F) (l3V3.writes (Elt F) l3V3.junk (l3LastAt c t hF hL x0 x1 x2 x3 s q).2.1), l3V4.read (Elt F) (l3V4.writes (Elt F) l3V4.junk (l3LastAt c t hF hL x0 x1 x2 x3 s q).2.2.1),
   l3VS.read (Elt F) (l3VS.writes (Elt F) l3VS.junk (l3LastAt c t hF hL x0 x1 x2 x3 s q).2.2.2.1), l3VQ.read (Elt F) (l3VQ.writes (Elt F) l3VQ.junk (l3LastAt c t hF hL x0 x1 x2 x3 s q).2.2.2.2.1))

theorem l3notLast (t : Fin cfg3.N) (h0 : t.val % 4 = 0) : ¬l3Last (grid3.coords t) :=
  fun h => by have h' := (l3Last_iff t).mp h; omega
theorem l3notFirst (t : Fin cfg3.N) (h0 : ¬t.val % 4 = 0) : ¬l3First (grid3.coords t) :=
  fun h => h0 ((l3First_iff t).mp h)
theorem l3notLast' (t : Fin cfg3.N) (h7 : ¬t.val % 4 = 3) : ¬l3Last (grid3.coords t) :=
  fun h => h7 ((l3Last_iff t).mp h)

/-! ## The accumulation -/

/-- What the buffers hold after the body at position n, by recursion on the position: a first block starts the scratch
    rows afresh; every other block continues from what the block before left in them. -/
def l3At (c : Dev nD) : (n : ℕ) → n < cfg3.N → Vec F S4096x256 .f32 × Vec F S8x256 .f32 × Vec F S8x256 .f32 × Vec F S1x256 .f32 × Vec F S1x256 .f32
  | 0, hn => l3LeftFirst c ⟨0, hn⟩ ((l3First_iff ⟨0, hn⟩).mpr (Nat.zero_mod _)) (l3notLast ⟨0, hn⟩ (Nat.zero_mod _)) (l3Blk V c 0 ⟨0, hn⟩) (l3Blk V c 1 ⟨0, hn⟩) (l3Blk V c 2 ⟨0, hn⟩) (l3Blk V c 3 ⟨0, hn⟩)
  | n + 1, hn =>
    if h0 : (n + 1) % 4 = 0 then
      l3LeftFirst c ⟨n + 1, hn⟩ ((l3First_iff ⟨n + 1, hn⟩).mpr h0) (l3notLast ⟨n + 1, hn⟩ h0) (l3Blk V c 0 ⟨n + 1, hn⟩) (l3Blk V c 1 ⟨n + 1, hn⟩) (l3Blk V c 2 ⟨n + 1, hn⟩) (l3Blk V c 3 ⟨n + 1, hn⟩)
    else if h7 : (n + 1) % 4 = 3 then
      l3LeftLast c ⟨n + 1, hn⟩ (l3notFirst ⟨n + 1, hn⟩ h0) ((l3Last_iff ⟨n + 1, hn⟩).mpr h7) (l3Blk V c 0 ⟨n + 1, hn⟩) (l3Blk V c 1 ⟨n + 1, hn⟩) (l3Blk V c 2 ⟨n + 1, hn⟩) (l3Blk V c 3 ⟨n + 1, hn⟩)
        (l3At c n (Nat.lt_of_succ_lt hn)).2.2.2.1 (l3At c n (Nat.lt_of_succ_lt hn)).2.2.2.2
    else
      l3LeftMid c ⟨n + 1, hn⟩ (l3notFirst ⟨n + 1, hn⟩ h0) (l3notLast' ⟨n + 1, hn⟩ h7) (l3Blk V c 0 ⟨n + 1, hn⟩) (l3Blk V c 1 ⟨n + 1, hn⟩) (l3Blk V c 2 ⟨n + 1, hn⟩) (l3Blk V c 3 ⟨n + 1, hn⟩)
        (l3At c n (Nat.lt_of_succ_lt hn)).2.2.2.1 (l3At c n (Nat.lt_of_succ_lt hn)).2.2.2.2

theorem l3At_first (c : Dev nD) (t : Fin cfg3.N) (h0 : t.val % 4 = 0) :
    l3At V c t.val t.isLt = l3LeftFirst c t ((l3First_iff t).mpr h0) (l3notLast t h0) (l3Blk V c 0 t) (l3Blk V c 1 t) (l3Blk V c 2 t) (l3Blk V c 3 t) := by
  obtain ⟨n, hn⟩ := t
  cases n with
  | zero => exact rfl
  | succ n => exact (dif_pos h0).trans rfl

theorem l3At_last (c : Dev nD) (t : Fin cfg3.N) (h0 : ¬t.val % 4 = 0) (h7 : t.val % 4 = 3) :
    l3At V c t.val t.isLt = l3LeftLast c t (l3notFirst t h0) ((l3Last_iff t).mpr h7) (l3Blk V c 0 t) (l3Blk V c 1 t) (l3Blk V c 2 t) (l3Blk V c 3 t)
      (l3At V c (t.val - 1) (Nat.lt_of_le_of_lt (Nat.sub_le _ _) t.isLt)).2.2.2.1 (l3At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h7).trans rfl)

theorem l3At_mid (c : Dev nD) (t : Fin cfg3.N) (h0 : ¬t.val % 4 = 0) (h7 : ¬t.val % 4 = 3) :
    l3At V c t.val t.isLt = l3LeftMid c t (l3notFirst t h0) (l3notLast' t h7) (l3Blk V c 0 t) (l3Blk V c 1 t) (l3Blk V c 2 t) (l3Blk V c 3 t)
      (l3At V c (t.val - 1) (Nat.lt_of_le_of_lt (Nat.sub_le _ _) t.isLt)).2.2.2.1 (l3At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h7).trans rfl)

/-! ## The invariant between points -/

/-- Before the first point the region's rest as the launch hands it over; afterwards the same with the two scratch rows
    at what the point before left in them. -/
def l3Phi (c : Dev nD) : (n : ℕ) → n ≤ cfg3.N → sProp 𝕄
  | 0, _ => Pipeline.ΦA spec3 c
  | n + 1, hn => iprop(iprop(iprop(owns (c : Thread nD τ) l3Sum fullShare (l3At V c n hn).2.2.2.1 ∗ owns (c : Thread nD τ) l3Sq fullShare (l3At V c n hn).2.2.2.2)
      ∗ Pipeline.scopedRestBut (Ix := Unit) (Name := ℕ) (U := UR sig nD τ) (Lvl := ℕ) (Val := Elt F) spec3 c [cc3_scratch0, cc3_scratch1]) ∗ (∃ r, prngReg c r))

theorem l3Phi_zero (c : Dev nD) (n : ℕ) (h : n ≤ cfg3.N) (hz : n = 0) : l3Phi V c n h = Pipeline.ΦA spec3 c := by
  subst hz; rfl
theorem l3Phi_succ (c : Dev nD) (n : ℕ) (hn : n < cfg3.N) :
    l3Phi V c (n + 1) hn = iprop(iprop(iprop(owns (c : Thread nD τ) l3Sum fullShare (l3At V c n hn).2.2.2.1 ∗ owns (c : Thread nD τ) l3Sq fullShare (l3At V c n hn).2.2.2.2)
      ∗ Pipeline.scopedRestBut (Ix := Unit) (Name := ℕ) (U := UR sig nD τ) (Lvl := ℕ) (Val := Elt F) spec3 c [cc3_scratch0, cc3_scratch1]) ∗ (∃ r, prngReg c r)) := rfl
theorem l3Phi_pos (c : Dev nD) (n : ℕ) (h : n ≤ cfg3.N) (hz : n ≠ 0) :
    l3Phi V c n h = iprop(iprop(iprop(owns (c : Thread nD τ) l3Sum fullShare (l3At V c (n - 1) (by omega)).2.2.2.1 ∗ owns (c : Thread nD τ) l3Sq fullShare (l3At V c (n - 1) (by omega)).2.2.2.2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The proof data of the region -/

def l3Dat (c : Dev nD) : Dat τ (Elt F) Unit ℕ (UR sig nD τ) ℕ cfg3 c where
  A w := V c (Pipeline.arrRef spec3 w)
  after w t := match w with
    | ⟨0, _⟩ => l3Blk V c 0 t
    | ⟨1, _⟩ => l3Blk V c 1 t
    | ⟨2, _⟩ => l3Blk V c 2 t
    | ⟨3, _⟩ => l3Blk V c 3 t
    | ⟨4, _⟩ => (l3At V c t.val t.isLt).1
    | ⟨5, _⟩ => (l3At V c t.val t.isLt).2.1
    | ⟨6, _⟩ => (l3At V c t.val t.isLt).2.2.1
  Φ t := l3Phi V c t.val (Nat.le_of_lt_succ t.isLt)
  q _ := fullShare
  owed _ := 0

theorem l3Dat_A (c : Dev nD) (w : Fin cfg3.W) : (l3Dat V c).A w = V c (Pipeline.arrRef spec3 w) := by
  dsimp only [l3Dat]
theorem l3Phi_castSucc (c : Dev nD) (t : Fin cfg3.N) :
    (l3Dat V c).Φ t.castSucc = l3Phi V c t.val (Nat.le_of_lt t.isLt) := by
  dsimp only [l3Dat]; simp only [Fin.coe_castSucc]
theorem l3After0 (c : Dev nD) (t : Fin cfg3.N) : (l3Dat V c).after 0 t = l3Blk V c 0 t := by dsimp only [l3Dat]
theorem l3After1 (c : Dev nD) (t : Fin cfg3.N) : (l3Dat V c).after 1 t = l3Blk V c 1 t := by dsimp only [l3Dat]
theorem l3After2 (c : Dev nD) (t : Fin cfg3.N) : (l3Dat V c).after 2 t = l3Blk V c 2 t := by dsimp only [l3Dat]
theorem l3After3 (c : Dev nD) (t : Fin cfg3.N) : (l3Dat V c).after 3 t = l3Blk V c 3 t := by dsimp only [l3Dat]
theorem l3After4 (c : Dev nD) (t : Fin cfg3.N) : (l3Dat V c).after 4 t = (l3At V c t.val t.isLt).1 := by dsimp only [l3Dat]
theorem l3After5 (c : Dev nD) (t : Fin cfg3.N) : (l3Dat V c).after 5 t = (l3At V c t.val t.isLt).2.1 := by dsimp only [l3Dat]
theorem l3After6 (c : Dev nD) (t : Fin cfg3.N) : (l3Dat V c).after 6 t = (l3At V c t.val t.isLt).2.2.1 := by dsimp only [l3Dat]

/-- An input's current buffer holds its block at every point, fetched there or not. -/
theorem l3Before0 (c : Dev nD) (t : Fin cfg3.N) (d) : (l3Dat V c).before 0 t d = l3Blk V c 0 t :=
  ((l3Dat V c).before_in_eq_fetched 0 rfl (fun _ => rfl) (fun _ _ _ => rfl)
    (fun t => by rw [l3After0]; unfold Dat.blockOf l3Blk; rw [l3Dat_A]; try rfl) t d).trans
    (by unfold Dat.fetched Dat.blockOf l3Blk; rw [l3Dat_A]; try rfl)
theorem l3Before1 (c : Dev nD) (t : Fin cfg3.N) (d) : (l3Dat V c).before 1 t d = l3Blk V c 1 t :=
  ((l3Dat V c).before_in_eq_fetched 1 rfl (fun _ => rfl) (fun _ _ _ => rfl)
    (fun t => by rw [l3After1]; unfold Dat.blockOf l3Blk; rw [l3Dat_A]; try rfl) t d).trans
    (by unfold Dat.fetched Dat.blockOf l3Blk; rw [l3Dat_A]; try rfl)
theorem l3Before2 (c : Dev nD) (t : Fin cfg3.N) (d) : (l3Dat V c).before 2 t d = l3Blk V c 2 t :=
  ((l3Dat V c).before_in_eq_fetched 2 rfl (fun _ => rfl) (fun _ _ _ => rfl)
    (fun t => by rw [l3After2]; unfold Dat.blockOf l3Blk; rw [l3Dat_A]; try rfl) t d).trans
    (by unfold Dat.fetched Dat.blockOf l3Blk; rw [l3Dat_A]; try rfl)
theorem l3Before3 (c : Dev nD) (t : Fin cfg3.N) (d) : (l3Dat V c).before 3 t d = l3Blk V c 3 t :=
  ((l3Dat V c).before_in_eq_fetched 3 rfl (fun _ => rfl) (fun _ _ _ => rfl)
    (fun t => by rw [l3After3]; unfold Dat.blockOf l3Blk; rw [l3Dat_A]; try rfl) t d).trans
    (by unfold Dat.fetched Dat.blockOf l3Blk; rw [l3Dat_A]; try rfl)

/-! ## The body obligation -/

def l3Pre (c : Dev nD) (t : Fin cfg3.N) : sProp 𝕄 :=
  iprop((l3Dat V c).Φ t.castSucc ∗ (l3Dat V c).owesAt () t.castSucc
    ∗ (∃ d, owns (c : Thread nD τ) (l3m0 t) fullShare ((l3Dat V c).before 0 t d))
    ∗ (∃ d, owns (c : Thread nD τ) (l3m1 t) fullShare ((l3Dat V c).before 1 t d))
    ∗ (∃ d, owns (c : Thread nD τ) (l3m2 t) fullShare ((l3Dat V c).before 2 t d))
    ∗ (∃ d, owns (c : Thread nD τ) (l3m3 t) fullShare ((l3Dat V c).before 3 t d))
    ∗ (∃ d, owns (c : Thread nD τ) (l3m4 t) fullShare ((l3Dat V c).before 4 t d))
    ∗ (∃ d, owns (c : Thread nD τ) (l3m5 t) fullShare ((l3Dat V c).before 5 t d))
    ∗ (∃ d, owns (c : Thread nD τ) (l3m6 t) fullShare ((l3Dat V c).before 6 t d)))

def l3Post (c : Dev nD) (t : Fin cfg3.N) : sProp 𝕄 :=
  iprop((l3Dat V c).Φ t.succ ∗ (l3Dat V c).owesAt () t.succ
    ∗ (l3Dat V c).leavesExact 0 t
    ∗ (l3Dat V c).leavesExact 1 t
    ∗ (l3Dat V c).leavesExact 2 t
    ∗ (l3Dat V c).leavesExact 3 t
    ∗ (l3Dat V c).leavesExact 4 t
    ∗ (l3Dat V c).leavesExact 5 t
    ∗ (l3Dat V c).leavesExact 6 t)

set_option maxHeartbeats 8000000 in
/-- The body at any point: which kind of point it is is read off the position; the invariant hands over the scratch
    rows (at anything before the very first point, else at what the point before left) and takes them back at this
    point's contents. -/
theorem l3Point (c : Dev nD) (t : Fin cfg3.N) :
    l3Pre V c t ⊢ wp frame (wpE (defs₀ (F := F)) Variants.none c none) Set.univ (bodyAt3 t) (fun _ => l3Post V c t) := by
  unfold l3Pre l3Post bodyAt3
  simp only [l3Before0, l3Before1, l3Before2, l3Before3]
  rw [show (l3Dat V c).owesAt () t.succ = (l3Dat V c).owesAt () t.castSucc from rfl]
  rw [show (l3Dat V c).Φ t.succ = l3Phi V c (t.val + 1) t.isLt from rfl, l3Phi_succ]
  have hN : t.val < 8 := lt_of_lt_of_eq t.isLt (show cfg3.N = 8 from N_3)
  rw [show (l3Dat V c).leavesExact 0 t = owns (c : Thread nD τ) (l3m0 t) fullShare ((l3Dat V c).after 0 t) from by
    unfold Dat.leavesExact; rw [l3Live0 t], l3After0]
  rw [show (l3Dat V c).leavesExact 1 t = owns (c : Thread nD τ) (l3m1 t) fullShare ((l3Dat V c).after 1 t) from by
    unfold Dat.leavesExact; rw [l3Live1 t], l3After1]
  rw [show (l3Dat V c).leavesExact 2 t = owns (c : Thread nD τ) (l3m2 t) fullShare ((l3Dat V c).after 2 t) from by
    unfold Dat.leavesExact; rw [l3Live2 t], l3After2]
  rw [show (l3Dat V c).leavesExact 3 t = owns (c : Thread nD τ) (l3m3 t) fullShare ((l3Dat V c).after 3 t) from by
    unfold Dat.leavesExact; rw [l3Live3 t], l3After3]
  rw [show (l3Dat V c).leavesExact 4 t = owns (c : Thread nD τ) (l3m4 t) fullShare ((l3Dat V c).after 4 t) from by
    unfold Dat.leavesExact; rw [l3Live4 t], l3After4]
  by_cases h0 : t.val % 4 = 0
  · have hF := (l3First_iff t).mpr h0
    have hL := l3notLast t h0
    rw [Dat.leavesExact_idle (l3Dat V c) 5 t (l3Idle5 t hL) (l3NoFlush5 t hL),
      Dat.leavesExact_idle (l3Dat V c) 6 t (l3Idle6 t hL) (l3NoFlush6 t hL)]
    rw [l3At_first V c t h0]
    unfold l3LeftFirst; (try dsimp only)
    by_cases hz : t.val = 0
    · rw [l3Phi_castSucc V c t, l3Phi_zero V c _ _ hz, l3Rest]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l3FirstAt c t hF hL (l3Blk V c 0 t) (l3Blk V c 1 t) (l3Blk V c 2 t) (l3Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l3CoverFirstS c t hF hL _ _ _ _)
            unfold owns; iexists _; isplitr
            swap; · iexact HQ
            ipureintro; exact View.read_writes_of_cover _ _ _ _ _ (l3CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l3CoverFirstH c t hF hL _ _ _ _)
      isplitl [HA]; · iexists _; iexact HA
      iexists _; iexact HB
    · rw [l3Phi_castSucc V c t, l3Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l3FirstAt c t hF hL (l3Blk V c 0 t) (l3Blk V c 1 t) (l3Blk V c 2 t) (l3Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexists _; iexact HS
      isplitl [HQ]; · iexists _; iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l3CoverFirstS c t hF hL _ _ _ _)
            unfold owns; iexists _; isplitr
            swap; · iexact HQ
            ipureintro; exact View.read_writes_of_cover _ _ _ _ _ (l3CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l3CoverFirstH c t hF hL _ _ _ _)
      isplitl [HA]; · iexists _; iexact HA
      iexists _; iexact HB
  · have hF := l3notFirst t h0
    have hz : t.val ≠ 0 := fun e => h0 (by rw [e])
    by_cases h7 : t.val % 4 = 3
    · have hL := (l3Last_iff t).mpr h7
      rw [show (l3Dat V c).leavesExact 5 t = owns (c : Thread nD τ) (l3m5 t) fullShare ((l3Dat V c).after 5 t) from by
        unfold Dat.leavesExact; rw [l3Live5 t hL], l3After5]
      rw [show (l3Dat V c).leavesExact 6 t = owns (c : Thread nD τ) (l3m6 t) fullShare ((l3Dat V c).after 6 t) from by
        unfold Dat.leavesExact; rw [l3Live6 t hL], l3After6]
      rw [l3At_last V c t h0 h7]
      unfold l3LeftLast; (try dsimp only)
      rw [l3Phi_castSucc V c t, l3Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l3LastAt c t hF hL (l3Blk V c 0 t) (l3Blk V c 1 t) (l3Blk V c 2 t) (l3Blk V c 3 t) _ _).2.2.2.2.2 Set.univ _)
      isplitl [H0]; · iexact H0
      isplitl [H1]; · iexact H1
      isplitl [H2]; · iexact H2
      isplitl [H3]; · iexact H3
      isplitl [HH]; · iexists _; iexact HH
      isplitl [HA]; · iexists _; iexact HA
      isplitl [HB]; · iexists _; iexact HB
      isplitl [HS]; · iexact HS
      isplitl [HQ]; · iexact HQ
      iintro ⟨H0, H1, H2, H3, ⟨%eH, HH⟩, ⟨%eA, HA⟩, ⟨%eB, HB⟩, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l3CoverLastS c t hF hL _ _ _ _ _ _)
            unfold owns; iexists _; isplitr
            swap; · iexact HQ
            ipureintro; exact View.read_writes_of_cover _ _ _ _ _ (l3CoverLastQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l3CoverLastH c t hF hL _ _ _ _ _ _)
      isplitl [HA]
      · unfold owns; iexists _; isplitr
        swap; · iexact HA
        ipureintro; exact View.read_writes_of_cover _ _ _ _ _ (l3CoverLast3 c t hF hL _ _ _ _ _ _)
      unfold owns; iexists _; isplitr
      swap; · iexact HB
      ipureintro; exact View.read_writes_of_cover _ _ _ _ _ (l3CoverLast4 c t hF hL _ _ _ _ _ _)
    · have hL := l3notLast' t h7
      rw [Dat.leavesExact_idle (l3Dat V c) 5 t (l3Idle5 t hL) (l3NoFlush5 t hL),
        Dat.leavesExact_idle (l3Dat V c) 6 t (l3Idle6 t hL) (l3NoFlush6 t hL)]
      rw [l3At_mid V c t h0 h7]
      unfold l3LeftMid; (try dsimp only)
      rw [l3Phi_castSucc V c t, l3Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l3MidAt c t hF hL (l3Blk V c 0 t) (l3Blk V c 1 t) (l3Blk V c 2 t) (l3Blk V c 3 t) _ _).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l3CoverMidS c t hF hL _ _ _ _ _ _)
            unfold owns; iexists _; isplitr
            swap; · iexact HQ
            ipureintro; exact View.read_writes_of_cover _ _ _ _ _ (l3CoverMidQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l3CoverMidH c t hF hL _ _ _ _ _ _)
      isplitl [HA]; · iexists _; iexact HA
      iexists _; iexact HB

theorem l3Obligation (c : Dev nD) : BodyObligation (l3Dat (F := F) V c) (defs₀ (F := F)) Variants.none () Set.univ := fun t => by
  rw [bigSep_W3, bigSep_W3]
  exact l3Point V c t

/-- What the launch hands the region is the invariant before the first point; after any later point the invariant gives
    the region's rest back (what the scratch rows hold is forgotten). -/
theorem l3PhiIn (c : Dev nD) : Pipeline.ΦA spec3 c ⊢ (l3Dat V c).Φ 0 := by
  rw [show (l3Dat V c).Φ 0 = l3Phi V c 0 (Nat.zero_le _) from rfl, l3Phi_zero V c 0 _ rfl]
  try exact Idealize.SL.BI.Entails.refl _
theorem l3PhiOut (c : Dev nD) : (l3Dat V c).Φ (Fin.last cfg3.N) ⊢ Pipeline.ΦA spec3 c := by
  rw [show (l3Dat V c).Φ (Fin.last cfg3.N) = l3Phi V c (Fin.last cfg3.N).val (Nat.le_of_lt_succ (Fin.last cfg3.N).isLt) from rfl,
    l3Phi_pos V c _ _ (by rw [Fin.val_last]; have : cfg3.N = 8 := N_3; omega), l3Rest]
  iintro ⟨⟨⟨HS, HQ⟩, Hrest⟩, Hg⟩
  isplitl [HS HQ Hrest]
  · isplitl [HS HQ]
    · isplitl [HS]
      · iexists _; iexact HS
      iexists _; iexact HQ
    iexact Hrest
  iexact Hg

end Cert.Kernel.Hand

end
-- ==== Proof.Layer4SharedBits.lean ====
/-
  The last (ten-column) layer's region: at each of 8 grid points (2 halves of the batch × 4 blocks of 4096 rows) the body
  forms z = h' · scale + shift from its block of the previous layer's h' and the two parameter rows, then
  h = sign(z) · sign(W)ᵀ, stores it, and adds the column sums of h and of h² into two one-row scratch buffers that
  are cleared at the first block of a half and copied out (eight identical rows) at the last block of a half.
  Here: the two branch conditions in closed form over the grid, where the two statistics windows are idle, the
  names of the buffers the body is called with, and the region's untouched rest with the two scratch rows split out.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "This is the first block of its half": the inner grid coordinate is 0. -/
abbrev l4First (i : grid4.Coords) : Prop :=
  (Scalar.cmpi .ne (Scalar.extui (Scalar.cmpi .eq (BitVec.ofNat 32 (i 1).val) 0#32)) 0#32) = 1#1
theorem l4First_iff : ∀ t : Fin cfg4.N, l4First (grid4.coords t) ↔ t.val % 4 = 0 :=
  (by decide +kernel : ∀ t : Fin grid4.N, l4First (grid4.coords t) ↔ t.val % 4 = 0)

/-- "This is the last block of its half": the inner grid coordinate is 3. -/
abbrev l4Last (i : grid4.Coords) : Prop := k4_cond2 i = 1#1
theorem l4Last_iff : ∀ t : Fin cfg4.N, l4Last (grid4.coords t) ↔ t.val % 4 = 3 :=
  (by decide +kernel : ∀ t : Fin grid4.N, l4Last (grid4.coords t) ↔ t.val % 4 = 3)

/-! ## Where the windows are idle -/

theorem l4Live0 : ∀ t : Fin cfg4.N, cfg4.idle 0 (grid4.coords t) = false := by decide +kernel
theorem l4Live1 : ∀ t : Fin cfg4.N, cfg4.idle 1 (grid4.coords t) = false := by decide +kernel
theorem l4Live2 : ∀ t : Fin cfg4.N, cfg4.idle 2 (grid4.coords t) = false := by decide +kernel
theorem l4Live3 : ∀ t : Fin cfg4.N, cfg4.idle 3 (grid4.coords t) = false := by decide +kernel
theorem l4Live4 : ∀ t : Fin cfg4.N, cfg4.idle 4 (grid4.coords t) = false := by decide +kernel
/-- The two statistics windows are idle, and not written back, except at the last block of a half. -/
theorem l4Idle5 : ∀ t : Fin cfg4.N, ¬l4Last (grid4.coords t) → cfg4.idle 5 (grid4.coords t) = true := by decide +kernel
theorem l4NoFlush5 : ∀ t : Fin cfg4.N, ¬l4Last (grid4.coords t) → (cfg4.win 5).flush t = false := by decide +kernel
theorem l4Live5 : ∀ t : Fin cfg4.N, l4Last (grid4.coords t) → cfg4.idle 5 (grid4.coords t) = false := by decide +kernel
theorem l4Idle6 : ∀ t : Fin cfg4.N, ¬l4Last (grid4.coords t) → cfg4.idle 6 (grid4.coords t) = true := by decide +kernel
theorem l4NoFlush6 : ∀ t : Fin cfg4.N, ¬l4Last (grid4.coords t) → (cfg4.win 6).flush t = false := by decide +kernel
theorem l4Live6 : ∀ t : Fin cfg4.N, l4Last (grid4.coords t) → cfg4.idle 6 (grid4.coords t) = false := by decide +kernel

/-! ## The buffers the body is called with -/

abbrev l4m0 (t : Fin cfg4.N) : Memref sig .tc .vmem S4096x256 .f32 := win4_0.stage (cfg4.slots t 0)
abbrev l4h0 (t : Fin cfg4.N) : (l4m0 t).IsWhole := hstage4_0 ((cfg4.slots t 0).cast nbuf4_0)
abbrev l4m1 (t : Fin cfg4.N) : Memref sig .tc .vmem S10x256 .bf16 := win4_1.stage (cfg4.slots t 1)
abbrev l4h1 (t : Fin cfg4.N) : (l4m1 t).IsWhole := hstage4_1 ((cfg4.slots t 1).cast nbuf4_1)
abbrev l4m2 (t : Fin cfg4.N) : Memref sig .tc .vmem S1x256 .f32 := win4_2.stage (cfg4.slots t 2)
abbrev l4h2 (t : Fin cfg4.N) : (l4m2 t).IsWhole := hstage4_2 ((cfg4.slots t 2).cast nbuf4_2)
abbrev l4m3 (t : Fin cfg4.N) : Memref sig .tc .vmem S1x256 .f32 := win4_3.stage (cfg4.slots t 3)
abbrev l4h3 (t : Fin cfg4.N) : (l4m3 t).IsWhole := hstage4_3 ((cfg4.slots t 3).cast nbuf4_3)
abbrev l4m4 (t : Fin cfg4.N) : Memref sig .tc .vmem S4096x10 .f32 := win4_4.stage (cfg4.slots t 4)
abbrev l4h4 (t : Fin cfg4.N) : (l4m4 t).IsWhole := hstage4_4 ((cfg4.slots t 4).cast nbuf4_4)
abbrev l4m5 (t : Fin cfg4.N) : Memref sig .tc .vmem S8x10 .f32 := win4_5.stage (cfg4.slots t 5)
abbrev l4h5 (t : Fin cfg4.N) : (l4m5 t).IsWhole := hstage4_5 ((cfg4.slots t 5).cast nbuf4_5)
abbrev l4m6 (t : Fin cfg4.N) : Memref sig .tc .vmem S8x10 .f32 := win4_6.stage (cfg4.slots t 6)
abbrev l4h6 (t : Fin cfg4.N) : (l4m6 t).IsWhole := hstage4_6 ((cfg4.slots t 6).cast nbuf4_6)
/-- The running column sums of h and of h²: one row each, the kernel's own. -/
abbrev l4Sum : Memref sig .tc .vmem S1x10 .f32 := Memref.whole cc4_scratch0
abbrev l4Sq : Memref sig .tc .vmem S1x10 .f32 := Memref.whole cc4_scratch1

/-- The region's untouched rest, with the two scratch rows owned at some contents each. -/
theorem l4Rest (c : Dev nD) :
    (Pipeline.ΦA spec4 c : sProp 𝕄)
      = iprop(iprop(iprop((∃ d, owns (c : Thread nD τ) l4Sum fullShare d) ∗ (∃ d, owns (c : Thread nD τ) l4Sq fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [l4Sum, l4Sq, owns_whole]; try rfl

end Cert.Kernel.Hand

end
-- ==== Proof.Layer4FirstBits.lean ====
/-
  The last (ten-column) layer's body at the first block of a half (and not the last): the two scratch rows are cleared,
  then take the column sums of this block's h and h²; h is stored; the statistics windows are not touched.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer4SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l4RunFirst (c : Dev nD) (i : grid4.Coords) (a2 : Memref sig .tc .vmem S4096x256 .f32) (h2 : a2.IsWhole) (a3 : Memref sig .tc .vmem S10x256 .bf16) (h3 : a3.IsWhole) (a4 : Memref sig .tc .vmem S1x256 .f32) (h4 : a4.IsWhole) (a5 : Memref sig .tc .vmem S1x256 .f32) (h5 : a5.IsWhole) (a6 : Memref sig .tc .vmem S4096x10 .f32) (h6 : a6.IsWhole) (a7 : Memref sig .tc .vmem S8x10 .f32) (h7 : a7.IsWhole) (a8 : Memref sig .tc .vmem S8x10 .f32) (h8 : a8.IsWhole) (a9 : Memref sig .tc .vmem S1x10 .f32) (h9 : a9.IsWhole) (a10 : Memref sig .tc .vmem S1x10 .f32) (h10 : a10.IsWhole)
    (hF : l4First i) (hL : ¬l4Last i) (x0 : Vec F S4096x256 .f32) (x1 : Vec F S10x256 .bf16) (x2 : Vec F S1x256 .f32) (x3 : Vec F S1x256 .f32) :
    Σ' (LH : List (View.Piece (Elt F) S4096x10 .f32)) (LS : List (View.Piece (Elt F) S1x10 .f32)), { LQ : List (View.Piece (Elt F) S1x10 .f32) //
      ∀ (y3 y4 : Vec F S8x10 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc4__matmul_stats_kernel_fused i a2 h2 a3 h3 a4 h4 a5 h5 a6 h6 a7 h7 a8 h8 a9 h9 a10 h10) K } := by
  refine ⟨?_, ?_, ?_, fun y3 y4 E K => ?run⟩
  case run =>
    simp only [cc4__matmul_stats_kernel_fused_eq_skeleton]; unfold cc4__matmul_stats_kernel_fused_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%dS, %fS, -, HS⟩, ⟨%dQ, %fQ, -, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.Kernel.Hand

end
-- ==== Proof.Layer4MidBits.lean ====
/-
  The last (ten-column) layer's body at a block that is neither the first nor the last of its half: h is stored, and the
  two scratch rows, entering at what the block before left, each gain this block's column sums.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer4SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l4RunMid (c : Dev nD) (i : grid4.Coords) (a2 : Memref sig .tc .vmem S4096x256 .f32) (h2 : a2.IsWhole) (a3 : Memref sig .tc .vmem S10x256 .bf16) (h3 : a3.IsWhole) (a4 : Memref sig .tc .vmem S1x256 .f32) (h4 : a4.IsWhole) (a5 : Memref sig .tc .vmem S1x256 .f32) (h5 : a5.IsWhole) (a6 : Memref sig .tc .vmem S4096x10 .f32) (h6 : a6.IsWhole) (a7 : Memref sig .tc .vmem S8x10 .f32) (h7 : a7.IsWhole) (a8 : Memref sig .tc .vmem S8x10 .f32) (h8 : a8.IsWhole) (a9 : Memref sig .tc .vmem S1x10 .f32) (h9 : a9.IsWhole) (a10 : Memref sig .tc .vmem S1x10 .f32) (h10 : a10.IsWhole)
    (hF : ¬l4First i) (hL : ¬l4Last i) (x0 : Vec F S4096x256 .f32) (x1 : Vec F S10x256 .bf16) (x2 : Vec F S1x256 .f32) (x3 : Vec F S1x256 .f32) (s q : Vec F S1x10 .f32) :
    Σ' (LH : List (View.Piece (Elt F) S4096x10 .f32)) (LS : List (View.Piece (Elt F) S1x10 .f32)), { LQ : List (View.Piece (Elt F) S1x10 .f32) //
      ∀ (y3 y4 : Vec F S8x10 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc4__matmul_stats_kernel_fused i a2 h2 a3 h3 a4 h4 a5 h5 a6 h6 a7 h7 a8 h8 a9 h9 a10 h10) K } := by
  refine ⟨?_, ?_, ?_, fun y3 y4 E K => ?run⟩
  case run =>
    simp only [cc4__matmul_stats_kernel_fused_eq_skeleton]; unfold cc4__matmul_stats_kernel_fused_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.Kernel.Hand

end
-- ==== Proof.Layer4LastBits.lean ====
/-
  The last (ten-column) layer's body at the last block of a half: as at a middle block, and then each statistics buffer is
  filled with eight copies of the finished scratch row.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer4SharedBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs come back as they were. -/
noncomputable def l4RunLast (c : Dev nD) (i : grid4.Coords) (a2 : Memref sig .tc .vmem S4096x256 .f32) (h2 : a2.IsWhole) (a3 : Memref sig .tc .vmem S10x256 .bf16) (h3 : a3.IsWhole) (a4 : Memref sig .tc .vmem S1x256 .f32) (h4 : a4.IsWhole) (a5 : Memref sig .tc .vmem S1x256 .f32) (h5 : a5.IsWhole) (a6 : Memref sig .tc .vmem S4096x10 .f32) (h6 : a6.IsWhole) (a7 : Memref sig .tc .vmem S8x10 .f32) (h7 : a7.IsWhole) (a8 : Memref sig .tc .vmem S8x10 .f32) (h8 : a8.IsWhole) (a9 : Memref sig .tc .vmem S1x10 .f32) (h9 : a9.IsWhole) (a10 : Memref sig .tc .vmem S1x10 .f32) (h10 : a10.IsWhole)
    (hF : ¬l4First i) (hL : l4Last i) (x0 : Vec F S4096x256 .f32) (x1 : Vec F S10x256 .bf16) (x2 : Vec F S1x256 .f32) (x3 : Vec F S1x256 .f32) (s q : Vec F S1x10 .f32) :
    Σ' (LH : List (View.Piece (Elt F) S4096x10 .f32)) (L3 L4 : List (View.Piece (Elt F) S8x10 .f32)) (LS : List (View.Piece (Elt F) S1x10 .f32)), { LQ : List (View.Piece (Elt F) S1x10 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d)
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ (∃ f, a7.view.loc (c : Thread nD τ) ↦[a7.view.set]{fullShare} a7.view.writes (Elt F) f L3) ∗ (∃ f, a8.view.loc (c : Thread nD τ) ↦[a8.view.set]{fullShare} a8.view.writes (Elt F) f L4)
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc4__matmul_stats_kernel_fused i a2 h2 a3 h3 a4 h4 a5 h5 a6 h6 a7 h7 a8 h8 a9 h9 a10 h10) K } := by
  refine ⟨?_, ?_, ?_, ?_, ?_, fun E K => ?run⟩
  case run =>
    simp only [cc4__matmul_stats_kernel_fused_eq_skeleton]; unfold cc4__matmul_stats_kernel_fused_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [HS]; · iexists _; iexact HS
    iexists _; iexact HQ

end Cert.Kernel.Hand

end
-- ==== Proof.Layer4RegionBits.lean ====
/-
  The last (ten-column) layer's region as a whole: what each kind of grid point leaves in the buffers, the accumulation of
  the two scratch rows over the four blocks of a half (by recursion on the position: a first block starts afresh,
  every other block adds to what the block before left), the invariant that carries the scratch rows from one
  point to the next, and the body's obligation at every point. Stated at a parameter V: the contents of the
  core's buffers when the region is entered.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Layer4FirstBits
import proofs.«126670_j49074296324140_2_alg».proof.Proof.Layer4MidBits
import proofs.«126670_j49074296324140_2_alg».proof.Proof.Layer4LastBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def l4Blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Fixed views through which a buffer's contents after a list of stores are stated (the choice of buffer does not
    matter: only its shape does). -/
abbrev l4VH : View sig .tc .vmem S4096x10 .f32 := (Memref.whole cc4_stg4_0 : Memref sig .tc .vmem S4096x10 .f32).view
abbrev l4V3 : View sig .tc .vmem S8x10 .f32 := (Memref.whole cc4_stg5_0 : Memref sig .tc .vmem S8x10 .f32).view
abbrev l4V4 : View sig .tc .vmem S8x10 .f32 := (Memref.whole cc4_stg6_0 : Memref sig .tc .vmem S8x10 .f32).view
abbrev l4VS : View sig .tc .vmem S1x10 .f32 := l4Sum.view
abbrev l4VQ : View sig .tc .vmem S1x10 .f32 := l4Sq.view

/-! ## The three kinds of point, at the buffers the pipeline passes -/

abbrev l4FirstAt (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) :=
  l4RunFirst c (grid4.coords t) (l4m0 t) (l4h0 t) (l4m1 t) (l4h1 t) (l4m2 t) (l4h2 t) (l4m3 t) (l4h3 t) (l4m4 t) (l4h4 t) (l4m5 t) (l4h5 t) (l4m6 t) (l4h6 t) l4Sum (Memref.isWhole_whole _) l4Sq (Memref.isWhole_whole _) hF hL x0 x1 x2 x3
abbrev l4MidAt (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) :=
  l4RunMid c (grid4.coords t) (l4m0 t) (l4h0 t) (l4m1 t) (l4h1 t) (l4m2 t) (l4h2 t) (l4m3 t) (l4h3 t) (l4m4 t) (l4h4 t) (l4m5 t) (l4h5 t) (l4m6 t) (l4h6 t) l4Sum (Memref.isWhole_whole _) l4Sq (Memref.isWhole_whole _) hF hL x0 x1 x2 x3 s q
abbrev l4LastAt (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) :=
  l4RunLast c (grid4.coords t) (l4m0 t) (l4h0 t) (l4m1 t) (l4h1 t) (l4m2 t) (l4h2 t) (l4m3 t) (l4h3 t) (l4m4 t) (l4h4 t) (l4m5 t) (l4h5 t) (l4m6 t) (l4h6 t) l4Sum (Memref.isWhole_whole _) l4Sq (Memref.isWhole_whole _) hF hL x0 x1 x2 x3 s q

/-! Every list of stores covers its buffer (each buffer's last store is of the whole buffer). -/
theorem l4CoverFirstH (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) (y : S4096x10.Idx) :
    ∃ pc ∈ (l4FirstAt c t hF hL x0 x1 x2 x3).1, y ∈ pc.1.set :=
  View.cover_of_tiledL (l4FirstAt c t hF hL x0 x1 x2 x3).1 S4096x10.size (by sl_kernel_rfl) y
theorem l4CoverFirstS (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) (y : S1x10.Idx) :
    ∃ pc ∈ (l4FirstAt c t hF hL x0 x1 x2 x3).2.1, y ∈ pc.1.set :=
  View.cover_of_tiledL (l4FirstAt c t hF hL x0 x1 x2 x3).2.1 S1x10.size (by sl_kernel_rfl) y
theorem l4CoverFirstQ (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) (y : S1x10.Idx) :
    ∃ pc ∈ (l4FirstAt c t hF hL x0 x1 x2 x3).2.2.1, y ∈ pc.1.set :=
  View.cover_of_tiledL (l4FirstAt c t hF hL x0 x1 x2 x3).2.2.1 S1x10.size (by sl_kernel_rfl) y
theorem l4CoverMidH (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) (y : S4096x10.Idx) :
    ∃ pc ∈ (l4MidAt c t hF hL x0 x1 x2 x3 s q).1, y ∈ pc.1.set :=
  View.cover_of_tiledL (l4MidAt c t hF hL x0 x1 x2 x3 s q).1 S4096x10.size (by sl_kernel_rfl) y
theorem l4CoverMidS (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) (y : S1x10.Idx) :
    ∃ pc ∈ (l4MidAt c t hF hL x0 x1 x2 x3 s q).2.1, y ∈ pc.1.set :=
  View.cover_of_tiledL (l4MidAt c t hF hL x0 x1 x2 x3 s q).2.1 S1x10.size (by sl_kernel_rfl) y
theorem l4CoverMidQ (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) (y : S1x10.Idx) :
    ∃ pc ∈ (l4MidAt c t hF hL x0 x1 x2 x3 s q).2.2.1, y ∈ pc.1.set :=
  View.cover_of_tiledL (l4MidAt c t hF hL x0 x1 x2 x3 s q).2.2.1 S1x10.size (by sl_kernel_rfl) y
theorem l4CoverLastH (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) (y : S4096x10.Idx) :
    ∃ pc ∈ (l4LastAt c t hF hL x0 x1 x2 x3 s q).1, y ∈ pc.1.set :=
  View.cover_of_tiledL (l4LastAt c t hF hL x0 x1 x2 x3 s q).1 S4096x10.size (by sl_kernel_rfl) y
theorem l4CoverLast3 (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) (y : S8x10.Idx) :
    ∃ pc ∈ (l4LastAt c t hF hL x0 x1 x2 x3 s q).2.1, y ∈ pc.1.set :=
  View.cover_of_tiledL (l4LastAt c t hF hL x0 x1 x2 x3 s q).2.1 S8x10.size (by sl_kernel_rfl) y
theorem l4CoverLast4 (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) (y : S8x10.Idx) :
    ∃ pc ∈ (l4LastAt c t hF hL x0 x1 x2 x3 s q).2.2.1, y ∈ pc.1.set :=
  View.cover_of_tiledL (l4LastAt c t hF hL x0 x1 x2 x3 s q).2.2.1 S8x10.size (by sl_kernel_rfl) y
theorem l4CoverLastS (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) (y : S1x10.Idx) :
    ∃ pc ∈ (l4LastAt c t hF hL x0 x1 x2 x3 s q).2.2.2.1, y ∈ pc.1.set :=
  View.cover_of_tiledL (l4LastAt c t hF hL x0 x1 x2 x3 s q).2.2.2.1 S1x10.size (by sl_kernel_rfl) y
theorem l4CoverLastQ (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) (y : S1x10.Idx) :
    ∃ pc ∈ (l4LastAt c t hF hL x0 x1 x2 x3 s q).2.2.2.2.1, y ∈ pc.1.set :=
  View.cover_of_tiledL (l4LastAt c t hF hL x0 x1 x2 x3 s q).2.2.2.2.1 S1x10.size (by sl_kernel_rfl) y

/-- What a point of each kind leaves: (h's buffer, the two statistics buffers, the two scratch rows). At a point that
    does not store into the statistics buffers their entries are placeholders nothing reads. -/
def l4LeftFirst (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) : Vec F S4096x10 .f32 × Vec F S8x10 .f32 × Vec F S8x10 .f32 × Vec F S1x10 .f32 × Vec F S1x10 .f32 :=
  (l4VH.read (Elt F) (l4VH.writes (Elt F) l4VH.junk (l4FirstAt c t hF hL x0 x1 x2 x3).1), l4V3.read (Elt F) l4V3.junk, l4V4.read (Elt F) l4V4.junk,
   l4VS.read (Elt F) (l4VS.writes (Elt F) l4VS.junk (l4FirstAt c t hF hL x0 x1 x2 x3).2.1), l4VQ.read (Elt F) (l4VQ.writes (Elt F) l4VQ.junk (l4FirstAt c t hF hL x0 x1 x2 x3).2.2.1))
def l4LeftMid (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) : Vec F S4096x10 .f32 × Vec F S8x10 .f32 × Vec F S8x10 .f32 × Vec F S1x10 .f32 × Vec F S1x10 .f32 :=
  (l4VH.read (Elt F) (l4VH.writes (Elt F) l4VH.junk (l4MidAt c t hF hL x0 x1 x2 x3 s q).1), l4V3.read (Elt F) l4V3.junk, l4V4.read (Elt F) l4V4.junk,
   l4VS.read (Elt F) (l4VS.writes (Elt F) l4VS.junk (l4MidAt c t hF hL x0 x1 x2 x3 s q).2.1), l4VQ.read (Elt F) (l4VQ.writes (Elt F) l4VQ.junk (l4MidAt c t hF hL x0 x1 x2 x3 s q).2.2.1))
def l4LeftLast (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) : Vec F S4096x10 .f32 × Vec F S8x10 .f32 × Vec F S8x10 .f32 × Vec F S1x10 .f32 × Vec F S1x10 .f32 :=
  (l4VH.read (Elt F) (l4VH.writes (Elt F) l4VH.junk (l4LastAt c t hF hL x0 x1 x2 x3 s q).1), l4V3.read (Elt F) (l4V3.writes (Elt F) l4V3.junk (l4LastAt c t hF hL x0 x1 x2 x3 s q).2.1), l4V4.read (Elt F) (l4V4.writes (Elt F) l4V4.junk (l4LastAt c t hF hL x0 x1 x2 x3 s q).2.2.1),
   l4VS.read (Elt F) (l4VS.writes (Elt F) l4VS.junk (l4LastAt c t hF hL x0 x1 x2 x3 s q).2.2.2.1), l4VQ.read (Elt F) (l4VQ.writes (Elt F) l4VQ.junk (l4LastAt c t hF hL x0 x1 x2 x3 s q).2.2.2.2.1))

theorem l4notLast (t : Fin cfg4.N) (h0 : t.val % 4 = 0) : ¬l4Last (grid4.coords t) :=
  fun h => by have h' := (l4Last_iff t).mp h; omega
theorem l4notFirst (t : Fin cfg4.N) (h0 : ¬t.val % 4 = 0) : ¬l4First (grid4.coords t) :=
  fun h => h0 ((l4First_iff t).mp h)
theorem l4notLast' (t : Fin cfg4.N) (h7 : ¬t.val % 4 = 3) : ¬l4Last (grid4.coords t) :=
  fun h => h7 ((l4Last_iff t).mp h)

/-! ## The accumulation -/

/-- What the buffers hold after the body at position n, by recursion on the position: a first block starts the scratch
    rows afresh; every other block continues from what the block before left in them. -/
def l4At (c : Dev nD) : (n : ℕ) → n < cfg4.N → Vec F S4096x10 .f32 × Vec F S8x10 .f32 × Vec F S8x10 .f32 × Vec F S1x10 .f32 × Vec F S1x10 .f32
  | 0, hn => l4LeftFirst c ⟨0, hn⟩ ((l4First_iff ⟨0, hn⟩).mpr (Nat.zero_mod _)) (l4notLast ⟨0, hn⟩ (Nat.zero_mod _)) (l4Blk V c 0 ⟨0, hn⟩) (l4Blk V c 1 ⟨0, hn⟩) (l4Blk V c 2 ⟨0, hn⟩) (l4Blk V c 3 ⟨0, hn⟩)
  | n + 1, hn =>
    if h0 : (n + 1) % 4 = 0 then
      l4LeftFirst c ⟨n + 1, hn⟩ ((l4First_iff ⟨n + 1, hn⟩).mpr h0) (l4notLast ⟨n + 1, hn⟩ h0) (l4Blk V c 0 ⟨n + 1, hn⟩) (l4Blk V c 1 ⟨n + 1, hn⟩) (l4Blk V c 2 ⟨n + 1, hn⟩) (l4Blk V c 3 ⟨n + 1, hn⟩)
    else if h7 : (n + 1) % 4 = 3 then
      l4LeftLast c ⟨n + 1, hn⟩ (l4notFirst ⟨n + 1, hn⟩ h0) ((l4Last_iff ⟨n + 1, hn⟩).mpr h7) (l4Blk V c 0 ⟨n + 1, hn⟩) (l4Blk V c 1 ⟨n + 1, hn⟩) (l4Blk V c 2 ⟨n + 1, hn⟩) (l4Blk V c 3 ⟨n + 1, hn⟩)
        (l4At c n (Nat.lt_of_succ_lt hn)).2.2.2.1 (l4At c n (Nat.lt_of_succ_lt hn)).2.2.2.2
    else
      l4LeftMid c ⟨n + 1, hn⟩ (l4notFirst ⟨n + 1, hn⟩ h0) (l4notLast' ⟨n + 1, hn⟩ h7) (l4Blk V c 0 ⟨n + 1, hn⟩) (l4Blk V c 1 ⟨n + 1, hn⟩) (l4Blk V c 2 ⟨n + 1, hn⟩) (l4Blk V c 3 ⟨n + 1, hn⟩)
        (l4At c n (Nat.lt_of_succ_lt hn)).2.2.2.1 (l4At c n (Nat.lt_of_succ_lt hn)).2.2.2.2

theorem l4At_first (c : Dev nD) (t : Fin cfg4.N) (h0 : t.val % 4 = 0) :
    l4At V c t.val t.isLt = l4LeftFirst c t ((l4First_iff t).mpr h0) (l4notLast t h0) (l4Blk V c 0 t) (l4Blk V c 1 t) (l4Blk V c 2 t) (l4Blk V c 3 t) := by
  obtain ⟨n, hn⟩ := t
  cases n with
  | zero => exact rfl
  | succ n => exact (dif_pos h0).trans rfl

theorem l4At_last (c : Dev nD) (t : Fin cfg4.N) (h0 : ¬t.val % 4 = 0) (h7 : t.val % 4 = 3) :
    l4At V c t.val t.isLt = l4LeftLast c t (l4notFirst t h0) ((l4Last_iff t).mpr h7) (l4Blk V c 0 t) (l4Blk V c 1 t) (l4Blk V c 2 t) (l4Blk V c 3 t)
      (l4At V c (t.val - 1) (Nat.lt_of_le_of_lt (Nat.sub_le _ _) t.isLt)).2.2.2.1 (l4At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h7).trans rfl)

theorem l4At_mid (c : Dev nD) (t : Fin cfg4.N) (h0 : ¬t.val % 4 = 0) (h7 : ¬t.val % 4 = 3) :
    l4At V c t.val t.isLt = l4LeftMid c t (l4notFirst t h0) (l4notLast' t h7) (l4Blk V c 0 t) (l4Blk V c 1 t) (l4Blk V c 2 t) (l4Blk V c 3 t)
      (l4At V c (t.val - 1) (Nat.lt_of_le_of_lt (Nat.sub_le _ _) t.isLt)).2.2.2.1 (l4At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h7).trans rfl)

/-! ## The invariant between points -/

/-- Before the first point the region's rest as the launch hands it over; afterwards the same with the two scratch rows
    at what the point before left in them. -/
def l4Phi (c : Dev nD) : (n : ℕ) → n ≤ cfg4.N → sProp 𝕄
  | 0, _ => Pipeline.ΦA spec4 c
  | n + 1, hn => iprop(iprop(iprop(owns (c : Thread nD τ) l4Sum fullShare (l4At V c n hn).2.2.2.1 ∗ owns (c : Thread nD τ) l4Sq fullShare (l4At V c n hn).2.2.2.2)
      ∗ Pipeline.scopedRestBut (Ix := Unit) (Name := ℕ) (U := UR sig nD τ) (Lvl := ℕ) (Val := Elt F) spec4 c [cc4_scratch0, cc4_scratch1]) ∗ (∃ r, prngReg c r))

theorem l4Phi_zero (c : Dev nD) (n : ℕ) (h : n ≤ cfg4.N) (hz : n = 0) : l4Phi V c n h = Pipeline.ΦA spec4 c := by
  subst hz; rfl
theorem l4Phi_succ (c : Dev nD) (n : ℕ) (hn : n < cfg4.N) :
    l4Phi V c (n + 1) hn = iprop(iprop(iprop(owns (c : Thread nD τ) l4Sum fullShare (l4At V c n hn).2.2.2.1 ∗ owns (c : Thread nD τ) l4Sq fullShare (l4At V c n hn).2.2.2.2)
      ∗ Pipeline.scopedRestBut (Ix := Unit) (Name := ℕ) (U := UR sig nD τ) (Lvl := ℕ) (Val := Elt F) spec4 c [cc4_scratch0, cc4_scratch1]) ∗ (∃ r, prngReg c r)) := rfl
theorem l4Phi_pos (c : Dev nD) (n : ℕ) (h : n ≤ cfg4.N) (hz : n ≠ 0) :
    l4Phi V c n h = iprop(iprop(iprop(owns (c : Thread nD τ) l4Sum fullShare (l4At V c (n - 1) (by omega)).2.2.2.1 ∗ owns (c : Thread nD τ) l4Sq fullShare (l4At V c (n - 1) (by omega)).2.2.2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data of the region -/

def l4Dat (c : Dev nD) : Dat τ (Elt F) Unit ℕ (UR sig nD τ) ℕ cfg4 c where
  A w := V c (Pipeline.arrRef spec4 w)
  after w t := match w with
    | ⟨0, _⟩ => l4Blk V c 0 t
    | ⟨1, _⟩ => l4Blk V c 1 t
    | ⟨2, _⟩ => l4Blk V c 2 t
    | ⟨3, _⟩ => l4Blk V c 3 t
    | ⟨4, _⟩ => (l4At V c t.val t.isLt).1
    | ⟨5, _⟩ => (l4At V c t.val t.isLt).2.1
    | ⟨6, _⟩ => (l4At V c t.val t.isLt).2.2.1
  Φ t := l4Phi V c t.val (Nat.le_of_lt_succ t.isLt)
  q _ := fullShare
  owed _ := 0

theorem l4Dat_A (c : Dev nD) (w : Fin cfg4.W) : (l4Dat V c).A w = V c (Pipeline.arrRef spec4 w) := by
  dsimp only [l4Dat]
theorem l4Phi_castSucc (c : Dev nD) (t : Fin cfg4.N) :
    (l4Dat V c).Φ t.castSucc = l4Phi V c t.val (Nat.le_of_lt t.isLt) := by
  dsimp only [l4Dat]; simp only [Fin.coe_castSucc]
theorem l4After0 (c : Dev nD) (t : Fin cfg4.N) : (l4Dat V c).after 0 t = l4Blk V c 0 t := by dsimp only [l4Dat]
theorem l4After1 (c : Dev nD) (t : Fin cfg4.N) : (l4Dat V c).after 1 t = l4Blk V c 1 t := by dsimp only [l4Dat]
theorem l4After2 (c : Dev nD) (t : Fin cfg4.N) : (l4Dat V c).after 2 t = l4Blk V c 2 t := by dsimp only [l4Dat]
theorem l4After3 (c : Dev nD) (t : Fin cfg4.N) : (l4Dat V c).after 3 t = l4Blk V c 3 t := by dsimp only [l4Dat]
theorem l4After4 (c : Dev nD) (t : Fin cfg4.N) : (l4Dat V c).after 4 t = (l4At V c t.val t.isLt).1 := by dsimp only [l4Dat]
theorem l4After5 (c : Dev nD) (t : Fin cfg4.N) : (l4Dat V c).after 5 t = (l4At V c t.val t.isLt).2.1 := by dsimp only [l4Dat]
theorem l4After6 (c : Dev nD) (t : Fin cfg4.N) : (l4Dat V c).after 6 t = (l4At V c t.val t.isLt).2.2.1 := by dsimp only [l4Dat]

/-- An input's current buffer holds its block at every point, fetched there or not. -/
theorem l4Before0 (c : Dev nD) (t : Fin cfg4.N) (d) : (l4Dat V c).before 0 t d = l4Blk V c 0 t :=
  ((l4Dat V c).before_in_eq_fetched 0 rfl (fun _ => rfl) (fun _ _ _ => rfl)
    (fun t => by rw [l4After0]; unfold Dat.blockOf l4Blk; rw [l4Dat_A]; try rfl) t d).trans
    (by unfold Dat.fetched Dat.blockOf l4Blk; rw [l4Dat_A]; try rfl)
theorem l4Before1 (c : Dev nD) (t : Fin cfg4.N) (d) : (l4Dat V c).before 1 t d = l4Blk V c 1 t :=
  ((l4Dat V c).before_in_eq_fetched 1 rfl (fun _ => rfl) (fun _ _ _ => rfl)
    (fun t => by rw [l4After1]; unfold Dat.blockOf l4Blk; rw [l4Dat_A]; try rfl) t d).trans
    (by unfold Dat.fetched Dat.blockOf l4Blk; rw [l4Dat_A]; try rfl)
theorem l4Before2 (c : Dev nD) (t : Fin cfg4.N) (d) : (l4Dat V c).before 2 t d = l4Blk V c 2 t :=
  ((l4Dat V c).before_in_eq_fetched 2 rfl (fun _ => rfl) (fun _ _ _ => rfl)
    (fun t => by rw [l4After2]; unfold Dat.blockOf l4Blk; rw [l4Dat_A]; try rfl) t d).trans
    (by unfold Dat.fetched Dat.blockOf l4Blk; rw [l4Dat_A]; try rfl)
theorem l4Before3 (c : Dev nD) (t : Fin cfg4.N) (d) : (l4Dat V c).before 3 t d = l4Blk V c 3 t :=
  ((l4Dat V c).before_in_eq_fetched 3 rfl (fun _ => rfl) (fun _ _ _ => rfl)
    (fun t => by rw [l4After3]; unfold Dat.blockOf l4Blk; rw [l4Dat_A]; try rfl) t d).trans
    (by unfold Dat.fetched Dat.blockOf l4Blk; rw [l4Dat_A]; try rfl)

/-! ## The body obligation -/

def l4Pre (c : Dev nD) (t : Fin cfg4.N) : sProp 𝕄 :=
  iprop((l4Dat V c).Φ t.castSucc ∗ (l4Dat V c).owesAt () t.castSucc
    ∗ (∃ d, owns (c : Thread nD τ) (l4m0 t) fullShare ((l4Dat V c).before 0 t d))
    ∗ (∃ d, owns (c : Thread nD τ) (l4m1 t) fullShare ((l4Dat V c).before 1 t d))
    ∗ (∃ d, owns (c : Thread nD τ) (l4m2 t) fullShare ((l4Dat V c).before 2 t d))
    ∗ (∃ d, owns (c : Thread nD τ) (l4m3 t) fullShare ((l4Dat V c).before 3 t d))
    ∗ (∃ d, owns (c : Thread nD τ) (l4m4 t) fullShare ((l4Dat V c).before 4 t d))
    ∗ (∃ d, owns (c : Thread nD τ) (l4m5 t) fullShare ((l4Dat V c).before 5 t d))
    ∗ (∃ d, owns (c : Thread nD τ) (l4m6 t) fullShare ((l4Dat V c).before 6 t d)))

def l4Post (c : Dev nD) (t : Fin cfg4.N) : sProp 𝕄 :=
  iprop((l4Dat V c).Φ t.succ ∗ (l4Dat V c).owesAt () t.succ
    ∗ (l4Dat V c).leavesExact 0 t
    ∗ (l4Dat V c).leavesExact 1 t
    ∗ (l4Dat V c).leavesExact 2 t
    ∗ (l4Dat V c).leavesExact 3 t
    ∗ (l4Dat V c).leavesExact 4 t
    ∗ (l4Dat V c).leavesExact 5 t
    ∗ (l4Dat V c).leavesExact 6 t)

set_option maxHeartbeats 8000000 in
/-- The body at any point: which kind of point it is is read off the position; the invariant hands over the scratch
    rows (at anything before the very first point, else at what the point before left) and takes them back at this
    point's contents. -/
theorem l4Point (c : Dev nD) (t : Fin cfg4.N) :
    l4Pre V c t ⊢ wp frame (wpE (defs₀ (F := F)) Variants.none c none) Set.univ (bodyAt4 t) (fun _ => l4Post V c t) := by
  unfold l4Pre l4Post bodyAt4
  simp only [l4Before0, l4Before1, l4Before2, l4Before3]
  rw [show (l4Dat V c).owesAt () t.succ = (l4Dat V c).owesAt () t.castSucc from rfl]
  rw [show (l4Dat V c).Φ t.succ = l4Phi V c (t.val + 1) t.isLt from rfl, l4Phi_succ]
  have hN : t.val < 8 := lt_of_lt_of_eq t.isLt (show cfg4.N = 8 from N_4)
  rw [show (l4Dat V c).leavesExact 0 t = owns (c : Thread nD τ) (l4m0 t) fullShare ((l4Dat V c).after 0 t) from by
    unfold Dat.leavesExact; rw [l4Live0 t], l4After0]
  rw [show (l4Dat V c).leavesExact 1 t = owns (c : Thread nD τ) (l4m1 t) fullShare ((l4Dat V c).after 1 t) from by
    unfold Dat.leavesExact; rw [l4Live1 t], l4After1]
  rw [show (l4Dat V c).leavesExact 2 t = owns (c : Thread nD τ) (l4m2 t) fullShare ((l4Dat V c).after 2 t) from by
    unfold Dat.leavesExact; rw [l4Live2 t], l4After2]
  rw [show (l4Dat V c).leavesExact 3 t = owns (c : Thread nD τ) (l4m3 t) fullShare ((l4Dat V c).after 3 t) from by
    unfold Dat.leavesExact; rw [l4Live3 t], l4After3]
  rw [show (l4Dat V c).leavesExact 4 t = owns (c : Thread nD τ) (l4m4 t) fullShare ((l4Dat V c).after 4 t) from by
    unfold Dat.leavesExact; rw [l4Live4 t], l4After4]
  by_cases h0 : t.val % 4 = 0
  · have hF := (l4First_iff t).mpr h0
    have hL := l4notLast t h0
    rw [Dat.leavesExact_idle (l4Dat V c) 5 t (l4Idle5 t hL) (l4NoFlush5 t hL),
      Dat.leavesExact_idle (l4Dat V c) 6 t (l4Idle6 t hL) (l4NoFlush6 t hL)]
    rw [l4At_first V c t h0]
    unfold l4LeftFirst; (try dsimp only)
    by_cases hz : t.val = 0
    · rw [l4Phi_castSucc V c t, l4Phi_zero V c _ _ hz, l4Rest]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l4FirstAt c t hF hL (l4Blk V c 0 t) (l4Blk V c 1 t) (l4Blk V c 2 t) (l4Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l4CoverFirstS c t hF hL _ _ _ _)
            unfold owns; iexists _; isplitr
            swap; · iexact HQ
            ipureintro; exact View.read_writes_of_cover _ _ _ _ _ (l4CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l4CoverFirstH c t hF hL _ _ _ _)
      isplitl [HA]; · iexists _; iexact HA
      iexists _; iexact HB
    · rw [l4Phi_castSucc V c t, l4Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l4FirstAt c t hF hL (l4Blk V c 0 t) (l4Blk V c 1 t) (l4Blk V c 2 t) (l4Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexists _; iexact HS
      isplitl [HQ]; · iexists _; iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l4CoverFirstS c t hF hL _ _ _ _)
            unfold owns; iexists _; isplitr
            swap; · iexact HQ
            ipureintro; exact View.read_writes_of_cover _ _ _ _ _ (l4CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l4CoverFirstH c t hF hL _ _ _ _)
      isplitl [HA]; · iexists _; iexact HA
      iexists _; iexact HB
  · have hF := l4notFirst t h0
    have hz : t.val ≠ 0 := fun e => h0 (by rw [e])
    by_cases h7 : t.val % 4 = 3
    · have hL := (l4Last_iff t).mpr h7
      rw [show (l4Dat V c).leavesExact 5 t = owns (c : Thread nD τ) (l4m5 t) fullShare ((l4Dat V c).after 5 t) from by
        unfold Dat.leavesExact; rw [l4Live5 t hL], l4After5]
      rw [show (l4Dat V c).leavesExact 6 t = owns (c : Thread nD τ) (l4m6 t) fullShare ((l4Dat V c).after 6 t) from by
        unfold Dat.leavesExact; rw [l4Live6 t hL], l4After6]
      rw [l4At_last V c t h0 h7]
      unfold l4LeftLast; (try dsimp only)
      rw [l4Phi_castSucc V c t, l4Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l4LastAt c t hF hL (l4Blk V c 0 t) (l4Blk V c 1 t) (l4Blk V c 2 t) (l4Blk V c 3 t) _ _).2.2.2.2.2 Set.univ _)
      isplitl [H0]; · iexact H0
      isplitl [H1]; · iexact H1
      isplitl [H2]; · iexact H2
      isplitl [H3]; · iexact H3
      isplitl [HH]; · iexists _; iexact HH
      isplitl [HA]; · iexists _; iexact HA
      isplitl [HB]; · iexists _; iexact HB
      isplitl [HS]; · iexact HS
      isplitl [HQ]; · iexact HQ
      iintro ⟨H0, H1, H2, H3, ⟨%eH, HH⟩, ⟨%eA, HA⟩, ⟨%eB, HB⟩, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l4CoverLastS c t hF hL _ _ _ _ _ _)
            unfold owns; iexists _; isplitr
            swap; · iexact HQ
            ipureintro; exact View.read_writes_of_cover _ _ _ _ _ (l4CoverLastQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l4CoverLastH c t hF hL _ _ _ _ _ _)
      isplitl [HA]
      · unfold owns; iexists _; isplitr
        swap; · iexact HA
        ipureintro; exact View.read_writes_of_cover _ _ _ _ _ (l4CoverLast3 c t hF hL _ _ _ _ _ _)
      unfold owns; iexists _; isplitr
      swap; · iexact HB
      ipureintro; exact View.read_writes_of_cover _ _ _ _ _ (l4CoverLast4 c t hF hL _ _ _ _ _ _)
    · have hL := l4notLast' t h7
      rw [Dat.leavesExact_idle (l4Dat V c) 5 t (l4Idle5 t hL) (l4NoFlush5 t hL),
        Dat.leavesExact_idle (l4Dat V c) 6 t (l4Idle6 t hL) (l4NoFlush6 t hL)]
      rw [l4At_mid V c t h0 h7]
      unfold l4LeftMid; (try dsimp only)
      rw [l4Phi_castSucc V c t, l4Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l4MidAt c t hF hL (l4Blk V c 0 t) (l4Blk V c 1 t) (l4Blk V c 2 t) (l4Blk V c 3 t) _ _).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l4CoverMidS c t hF hL _ _ _ _ _ _)
            unfold owns; iexists _; isplitr
            swap; · iexact HQ
            ipureintro; exact View.read_writes_of_cover _ _ _ _ _ (l4CoverMidQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l4CoverMidH c t hF hL _ _ _ _ _ _)
      isplitl [HA]; · iexists _; iexact HA
      iexists _; iexact HB

theorem l4Obligation (c : Dev nD) : BodyObligation (l4Dat (F := F) V c) (defs₀ (F := F)) Variants.none () Set.univ := fun t => by
  rw [bigSep_W4, bigSep_W4]
  exact l4Point V c t

/-- What the launch hands the region is the invariant before the first point; after any later point the invariant gives
    the region's rest back (what the scratch rows hold is forgotten). -/
theorem l4PhiIn (c : Dev nD) : Pipeline.ΦA spec4 c ⊢ (l4Dat V c).Φ 0 := by
  rw [show (l4Dat V c).Φ 0 = l4Phi V c 0 (Nat.zero_le _) from rfl, l4Phi_zero V c 0 _ rfl]
  try exact Idealize.SL.BI.Entails.refl _
theorem l4PhiOut (c : Dev nD) : (l4Dat V c).Φ (Fin.last cfg4.N) ⊢ Pipeline.ΦA spec4 c := by
  rw [show (l4Dat V c).Φ (Fin.last cfg4.N) = l4Phi V c (Fin.last cfg4.N).val (Nat.le_of_lt_succ (Fin.last cfg4.N).isLt) from rfl,
    l4Phi_pos V c _ _ (by rw [Fin.val_last]; have : cfg4.N = 8 := N_4; omega), l4Rest]
  iintro ⟨⟨⟨HS, HQ⟩, Hrest⟩, Hg⟩
  isplitl [HS HQ Hrest]
  · isplitl [HS HQ]
    · isplitl [HS]
      · iexists _; iexact HS
      iexists _; iexact HQ
    iexact Hrest
  iexact Hg

end Cert.Kernel.Hand

end
-- ==== Proof.SoftmaxRegionBits.lean ====
/-
  The last region: rows of logits z = h · scale + shift (scale and shift one row each, broadcast down the
  4096 rows of a block), then per row exp (z − max z) / Σ exp (z − max z). Eight grid points, one block of
  4096 rows each; the block of the result at a point depends only on the block of h at that point and on
  the two parameter rows. Stated at any float instance, at a parameter V: the contents of the core's
  buffers when the region is entered.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def smBlock (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole 4096 × 10 rectangle and the whole 1 × 10 row. -/
abbrev rowsRect : Rect S4096x10 := Rect.unit (s := S4096x10) ![0, 0] S4096x10.size inb_S4096x10_S4096x10_0_0
abbrev paramRect : Rect S1x10 := Rect.unit (s := S1x10) ![0, 0] S1x10.size inb_S1x10_S1x10_0_0

/-- What the body leaves in the result's buffer: one store of the whole block, the softmax of the affine image of
    the block of h. -/
def smOut (h : Vec F S4096x10 .f32) (scale shift : Vec F S1x10 .f32) : Vec F S4096x10 .f32 :=
  View.canon [⟨rowsRect, k5_pay1 (View.ld h rowsRect) (View.ld scale paramRect) (View.ld shift paramRect)⟩]

/-- The one store covers the block. -/
theorem smCover (p : Vec F S4096x10 .f32) (y : S4096x10.Idx) :
    ∃ pc ∈ ([⟨rowsRect, p⟩] : List (View.Piece (Elt F) S4096x10 .f32)), y ∈ pc.1.set :=
  View.cover_of_tiled [⟨rowsRect, p⟩] S4096x10.size (by rfl) y

set_option maxHeartbeats 1000000 in
/-- The body on whole buffers: the three inputs are read and left as they were, the result's buffer (whatever it
    held) ends at smOut of the inputs. -/
theorem smBody (c : Dev nD) (E : Set ℕ) (i : grid5.Coords)
    (a1 : Memref sig .tc .vmem S4096x10 .f32) (h1 : a1.IsWhole) (a2 : Memref sig .tc .vmem S1x10 .f32) (h2 : a2.IsWhole)
    (a3 : Memref sig .tc .vmem S1x10 .f32) (h3 : a3.IsWhole) (a4 : Memref sig .tc .vmem S4096x10 .f32) (h4 : a4.IsWhole)
    (x : Vec F S4096x10 .f32) (sc sh : Vec F S1x10 .f32) (K : PUnit → sProp 𝕄) :
    iprop(owns (c : Thread nD τ) a1 fullShare x ∗ owns (c : Thread nD τ) a2 fullShare sc ∗ owns (c : Thread nD τ) a3 fullShare sh
        ∗ (∃ d, owns (c : Thread nD τ) a4 fullShare d)
        ∗ (iprop(owns (c : Thread nD τ) a1 fullShare x ∗ owns (c : Thread nD τ) a2 fullShare sc ∗ owns (c : Thread nD τ) a3 fullShare sh
            ∗ owns (c : Thread nD τ) a4 fullShare (smOut x sc sh)) -∗ K ⟨⟩))
      ⊢ wp frame (wpE (defs₀ (F := F)) Variants.none c none) E (cc5__normalize_softmax_kernel i a1 h1 a2 h2 a3 h3 a4 h4) K := by
  simp only [cc5__normalize_softmax_kernel_eq_skeleton]; unfold cc5__normalize_softmax_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (smCover _)

/-! ## The proof data of the region -/

/-- On core c: the arrays as the region finds them; after the body at point t each input's buffer still holds its
    block and the result's buffer holds smOut of the three input blocks; the invariant is the untouched rest of the
    core (no scratch in this region); nothing owed, full shares. -/
def smDat (c : Dev nD) : Dat τ (Elt F) Unit ℕ (UR sig nD τ) ℕ cfg5 c where
  A w := V c (Pipeline.arrRef spec5 w)
  after w t := match w with
    | ⟨0, _⟩ => smBlock V c 0 t
    | ⟨1, _⟩ => smBlock V c 1 t
    | ⟨2, _⟩ => smBlock V c 2 t
    | ⟨3, _⟩ => smOut (smBlock V c 0 t) (smBlock V c 1 t) (smBlock V c 2 t)
  Φ _ := Pipeline.ΦA spec5 c
  q _ := fullShare
  owed _ := 0

theorem smDat_A (c : Dev nD) (w : Fin cfg5.W) : (smDat V c).A w = V c (Pipeline.arrRef spec5 w) := by
  dsimp only [smDat]

theorem smAfter0 (c : Dev nD) (t : Fin cfg5.N) : (smDat V c).after 0 t = smBlock V c 0 t := by dsimp only [smDat]
theorem smAfter1 (c : Dev nD) (t : Fin cfg5.N) : (smDat V c).after 1 t = smBlock V c 1 t := by dsimp only [smDat]
theorem smAfter2 (c : Dev nD) (t : Fin cfg5.N) : (smDat V c).after 2 t = smBlock V c 2 t := by dsimp only [smDat]
theorem smAfter3 (c : Dev nD) (t : Fin cfg5.N) :
    (smDat V c).after 3 t = smOut (smBlock V c 0 t) (smBlock V c 1 t) (smBlock V c 2 t) := by dsimp only [smDat]

/-- An input's current buffer holds its block at every point: the block of h is fetched at every point, and the two
    parameter rows are fetched once and their block index never moves. -/
theorem smBefore0 (c : Dev nD) (t : Fin cfg5.N) (d) : (smDat V c).before 0 t d = smBlock V c 0 t :=
  ((smDat V c).before_in_eq_fetched 0 rfl (fun _ => rfl) (fun _ _ _ => rfl)
    (fun t => by rw [smAfter0]; unfold Dat.blockOf smBlock; rw [smDat_A]; try rfl) t d).trans
    (by unfold Dat.fetched Dat.blockOf smBlock; rw [smDat_A]; try rfl)
theorem smBefore1 (c : Dev nD) (t : Fin cfg5.N) (d) : (smDat V c).before 1 t d = smBlock V c 1 t :=
  ((smDat V c).before_in_eq_fetched 1 rfl (fun _ => rfl) (fun _ _ _ => rfl)
    (fun t => by rw [smAfter1]; unfold Dat.blockOf smBlock; rw [smDat_A]; try rfl) t d).trans
    (by unfold Dat.fetched Dat.blockOf smBlock; rw [smDat_A]; try rfl)
theorem smBefore2 (c : Dev nD) (t : Fin cfg5.N) (d) : (smDat V c).before 2 t d = smBlock V c 2 t :=
  ((smDat V c).before_in_eq_fetched 2 rfl (fun _ => rfl) (fun _ _ _ => rfl)
    (fun t => by rw [smAfter2]; unfold Dat.blockOf smBlock; rw [smDat_A]; try rfl) t d).trans
    (by unfold Dat.fetched Dat.blockOf smBlock; rw [smDat_A]; try rfl)

/-! ## The body obligation -/

/-- What the body is called with at point t, window by window, -/
def smPre (c : Dev nD) (t : Fin cfg5.N) : sProp 𝕄 :=
  iprop((smDat V c).Φ t.castSucc ∗ (smDat V c).owesAt () t.castSucc
    ∗ (∃ d, owns (c : Thread nD τ) (st5_0 t) fullShare ((smDat V c).before 0 t d))
    ∗ (∃ d, owns (c : Thread nD τ) (st5_1 t) fullShare ((smDat V c).before 1 t d))
    ∗ (∃ d, owns (c : Thread nD τ) (st5_2 t) fullShare ((smDat V c).before 2 t d))
    ∗ (∃ d, owns (c : Thread nD τ) (st5_3 t) fullShare ((smDat V c).before 3 t d)))

/-- and what it returns. -/
def smPost (c : Dev nD) (t : Fin cfg5.N) : sProp 𝕄 :=
  iprop((smDat V c).Φ t.succ ∗ (smDat V c).owesAt () t.succ
    ∗ owns (c : Thread nD τ) (st5_0 t) fullShare ((smDat V c).after 0 t)
    ∗ owns (c : Thread nD τ) (st5_1 t) fullShare ((smDat V c).after 1 t)
    ∗ owns (c : Thread nD τ) (st5_2 t) fullShare ((smDat V c).after 2 t)
    ∗ owns (c : Thread nD τ) (st5_3 t) fullShare ((smDat V c).after 3 t))

theorem smPoint (c : Dev nD) (t : Fin cfg5.N) :
    smPre V c t ⊢ wp frame (wpE (defs₀ (F := F)) Variants.none c none) Set.univ (bodyAt5 t) (fun _ => smPost V c t) := by
  unfold smPre smPost bodyAt5
  simp only [smBefore0, smBefore1, smBefore2]
  rw [show (smDat V c).Φ t.succ = (smDat V c).Φ t.castSucc from rfl,
    show (smDat V c).owesAt () t.succ = (smDat V c).owesAt () t.castSucc from rfl,
    smAfter0, smAfter1, smAfter2, smAfter3]
  iintro ⟨HΦ, Ho, ⟨%d0, H0⟩, ⟨%d1, H1⟩, ⟨%d2, H2⟩, ⟨%d3, H3⟩⟩
  iapply (smBody c Set.univ _ _ _ _ _ _ _ _ _ (smBlock V c 0 t) (smBlock V c 1 t) (smBlock V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem smObligation (c : Dev nD) : BodyObligation (smDat (F := F) V c) (defs₀ (F := F)) Variants.none () Set.univ := fun t => by
  rw [bigSep_W5, bigSep_W5]
  exact smPoint V c t

end Cert.Kernel.Hand

end
-- ==== Proof.KernelRunBits.lean ====
/-
  The whole run of the kernel program as printed: eleven stretches of host operations, then six regions with a
  stretch of host operations between consecutive ones. W J is what a core's buffers hold after item J − 1: a host
  stretch folds its operations over the contents before it; a region leaves its windows' arrays at what its
  write-backs leave and every other buffer as it found it. The one theorem: every weakly fair execution
  terminates and every unscoped buffer ends at W 22. (That the sixteen arguments end unchanged, and what the
  result array holds, are read off W 22 elsewhere.)
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.Gen.Kernel.Regions
import proofs.«126670_j49074296324140_2_alg».proof.Proof.Layer0RegionBits
import proofs.«126670_j49074296324140_2_alg».proof.Proof.Layer1RegionBits
import proofs.«126670_j49074296324140_2_alg».proof.Proof.Layer2RegionBits
import proofs.«126670_j49074296324140_2_alg».proof.Proof.Layer3RegionBits
import proofs.«126670_j49074296324140_2_alg».proof.Proof.Layer4RegionBits
import proofs.«126670_j49074296324140_2_alg».proof.Proof.SoftmaxRegionBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- A core's buffer contents read at the TensorCore's references (what a region's proof data take). -/
abbrev atTc (W : Dev nD → Valuation τ sig (Elt F)) : (c : Dev nD) → (b : Ref sig .tc) → Buf (Elt F) ((c : Thread nD τ).loc b) := fun c b => W c b
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
def W12 (c : Dev nD) : Valuation τ sig (Elt F) :=
  Pipeline.withArrays spec0 c (W11 m ρ c) fun w => (l0Dat (atTc (W11 m ρ)) c).arrAt w cfg0.N
theorem W12_arr (c : Dev nD) (w : Fin cfg0.W) :
    W12 m ρ c (Proc.devRef .tc (Pipeline.arrRef spec0 w)) = (l0Dat (atTc (W11 m ρ)) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
theorem exitArr0 (c : Dev nD) (w : Fin cfg0.W) :
    (l0Dat (atTc (W11 m ρ)) c).arrAt w cfg0.N = (atTc (W12 m ρ)) c (Pipeline.arrRef spec0 w) :=
  (W12_arr m ρ c w).symm
theorem exitRest0 (c : Dev nD) : ∀ b, b ∉ Finset.univ.image (Pipeline.arrRef spec0) →
    (atTc (W12 m ρ)) c b = W11 m ρ c b :=
  fun b hb => W12_of_ne m ρ c b fun w e => hb (Finset.mem_image.mpr ⟨w, Finset.mem_univ _, e⟩)
abbrev W13 : Dev nD → Valuation τ sig (Elt F) := fun c => StableHlo.after hostOps1 (W12 m ρ c)
def W14 (c : Dev nD) : Valuation τ sig (Elt F) :=
  Pipeline.withArrays spec1 c (W13 m ρ c) fun w => (l1Dat (atTc (W13 m ρ)) c).arrAt w cfg1.N
theorem W14_arr (c : Dev nD) (w : Fin cfg1.W) :
    W14 m ρ c (Proc.devRef .tc (Pipeline.arrRef spec1 w)) = (l1Dat (atTc (W13 m ρ)) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
theorem exitArr1 (c : Dev nD) (w : Fin cfg1.W) :
    (l1Dat (atTc (W13 m ρ)) c).arrAt w cfg1.N = (atTc (W14 m ρ)) c (Pipeline.arrRef spec1 w) :=
  (W14_arr m ρ c w).symm
theorem exitRest1 (c : Dev nD) : ∀ b, b ∉ Finset.univ.image (Pipeline.arrRef spec1) →
    (atTc (W14 m ρ)) c b = W13 m ρ c b :=
  fun b hb => W14_of_ne m ρ c b fun w e => hb (Finset.mem_image.mpr ⟨w, Finset.mem_univ _, e⟩)
abbrev W15 : Dev nD → Valuation τ sig (Elt F) := fun c => StableHlo.after hostOps2 (W14 m ρ c)
def W16 (c : Dev nD) : Valuation τ sig (Elt F) :=
  Pipeline.withArrays spec2 c (W15 m ρ c) fun w => (l2Dat (atTc (W15 m ρ)) c).arrAt w cfg2.N
theorem W16_arr (c : Dev nD) (w : Fin cfg2.W) :
    W16 m ρ c (Proc.devRef .tc (Pipeline.arrRef spec2 w)) = (l2Dat (atTc (W15 m ρ)) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
theorem exitArr2 (c : Dev nD) (w : Fin cfg2.W) :
    (l2Dat (atTc (W15 m ρ)) c).arrAt w cfg2.N = (atTc (W16 m ρ)) c (Pipeline.arrRef spec2 w) :=
  (W16_arr m ρ c w).symm
theorem exitRest2 (c : Dev nD) : ∀ b, b ∉ Finset.univ.image (Pipeline.arrRef spec2) →
    (atTc (W16 m ρ)) c b = W15 m ρ c b :=
  fun b hb => W16_of_ne m ρ c b fun w e => hb (Finset.mem_image.mpr ⟨w, Finset.mem_univ _, e⟩)
abbrev W17 : Dev nD → Valuation τ sig (Elt F) := fun c => StableHlo.after hostOps3 (W16 m ρ c)
def W18 (c : Dev nD) : Valuation τ sig (Elt F) :=
  Pipeline.withArrays spec3 c (W17 m ρ c) fun w => (l3Dat (atTc (W17 m ρ)) c).arrAt w cfg3.N
theorem W18_arr (c : Dev nD) (w : Fin cfg3.W) :
    W18 m ρ c (Proc.devRef .tc (Pipeline.arrRef spec3 w)) = (l3Dat (atTc (W17 m ρ)) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
theorem exitArr3 (c : Dev nD) (w : Fin cfg3.W) :
    (l3Dat (atTc (W17 m ρ)) c).arrAt w cfg3.N = (atTc (W18 m ρ)) c (Pipeline.arrRef spec3 w) :=
  (W18_arr m ρ c w).symm
theorem exitRest3 (c : Dev nD) : ∀ b, b ∉ Finset.univ.image (Pipeline.arrRef spec3) →
    (atTc (W18 m ρ)) c b = W17 m ρ c b :=
  fun b hb => W18_of_ne m ρ c b fun w e => hb (Finset.mem_image.mpr ⟨w, Finset.mem_univ _, e⟩)
abbrev W19 : Dev nD → Valuation τ sig (Elt F) := fun c => StableHlo.after hostOps4 (W18 m ρ c)
def W20 (c : Dev nD) : Valuation τ sig (Elt F) :=
  Pipeline.withArrays spec4 c (W19 m ρ c) fun w => (l4Dat (atTc (W19 m ρ)) c).arrAt w cfg4.N
theorem W20_arr (c : Dev nD) (w : Fin cfg4.W) :
    W20 m ρ c (Proc.devRef .tc (Pipeline.arrRef spec4 w)) = (l4Dat (atTc (W19 m ρ)) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
theorem exitArr4 (c : Dev nD) (w : Fin cfg4.W) :
    (l4Dat (atTc (W19 m ρ)) c).arrAt w cfg4.N = (atTc (W20 m ρ)) c (Pipeline.arrRef spec4 w) :=
  (W20_arr m ρ c w).symm
theorem exitRest4 (c : Dev nD) : ∀ b, b ∉ Finset.univ.image (Pipeline.arrRef spec4) →
    (atTc (W20 m ρ)) c b = W19 m ρ c b :=
  fun b hb => W20_of_ne m ρ c b fun w e => hb (Finset.mem_image.mpr ⟨w, Finset.mem_univ _, e⟩)
abbrev W21 : Dev nD → Valuation τ sig (Elt F) := fun c => StableHlo.after hostOps5 (W20 m ρ c)
def W22 (c : Dev nD) : Valuation τ sig (Elt F) :=
  Pipeline.withArrays spec5 c (W21 m ρ c) fun w => (smDat (atTc (W21 m ρ)) c).arrAt w cfg5.N
theorem W22_arr (c : Dev nD) (w : Fin cfg5.W) :
    W22 m ρ c (Proc.devRef .tc (Pipeline.arrRef spec5 w)) = (smDat (atTc (W21 m ρ)) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
theorem exitArr5 (c : Dev nD) (w : Fin cfg5.W) :
    (smDat (atTc (W21 m ρ)) c).arrAt w cfg5.N = (atTc (W22 m ρ)) c (Pipeline.arrRef spec5 w) :=
  (W22_arr m ρ c w).symm
theorem exitRest5 (c : Dev nD) : ∀ b, b ∉ Finset.univ.image (Pipeline.arrRef spec5) →
    (atTc (W22 m ρ)) c b = W21 m ρ c b :=
  fun b hb => W22_of_ne m ρ c b fun w e => hb (Finset.mem_image.mpr ⟨w, Finset.mem_univ _, e⟩)

/-! ## The proof data family and what rides beside the buffers -/

def allDats : (p : Fin 6) → (c : Dev nD) → Dat τ (Elt F) Unit ℕ (UR sig nD τ) ℕ (Pipeline.pin (pcfgs (F := F)) adm p) c
  | ⟨0, _⟩ => fun c => l0Dat (atTc (W11 m ρ)) c
  | ⟨1, _⟩ => fun c => l1Dat (atTc (W13 m ρ)) c
  | ⟨2, _⟩ => fun c => l2Dat (atTc (W15 m ρ)) c
  | ⟨3, _⟩ => fun c => l3Dat (atTc (W17 m ρ)) c
  | ⟨4, _⟩ => fun c => l4Dat (atTc (W19 m ρ)) c
  | ⟨5, _⟩ => fun c => smDat (atTc (W21 m ρ)) c
abbrev noVariants : Variants := Variants.none
abbrev noLevels : GSem nD τ sig → Finset Unit := fun _ => ∅
abbrev levelZero : GSem nD τ sig → Unit → ℕ := fun _ _ => 0
/-- Beside the buffers, through every item: the core's generator register at some state, and nothing owed. -/
abbrev beside (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
abbrev lastState (c : Dev nD) : sProp 𝕄 := iprop(StableHlo.held (c : Thread nD τ) (Pipeline.ucRefs τ sig) (W22 m ρ c) ∗ ∃ r, prngReg c r)

/-! ## The regions as items -/

set_option backward.isDefEq.respectTransparency.types false in
/-- Region 0: entered from every unscoped buffer at W 11, left at W 12. Its windows' arrays are split out of the
    unscoped buffers and put back at their exit contents; the generator register goes into the region's invariant
    and comes back; nothing is owed; the kernel has no semaphore of its own. -/
def region0 : Pipeline.RegionSeg (pcfgs (F := F)) adm (allDats m ρ) () defs₀ noVariants noLevels levelZero 0 where
  win := launch0.win.to₀
  block_pos := launch0.block_pos
  stage_whole := launch0.stage_whole
  K := PEmpty
  osem k := k.elim
  ho := Pipeline.OwnSemFacts.none _
  hbody c := (l0Obligation (atTc (W11 m ρ)) c).loose
  hwaits := Pipeline.hwaits_of_owed_zero _ _ _ _ noLevels levelZero 0 fun _ _ => rfl
  pre c := iprop(StableHlo.held (c : Thread nD τ) (Pipeline.ucRefs τ sig) (W11 m ρ c) ∗ beside c)
  post c := iprop(StableHlo.held (c : Thread nD τ) (Pipeline.ucRefs τ sig) (W12 m ρ c) ∗ beside c)
  X c := iprop(∃ r, prngReg c r)
  Y c := iprop(∃ r, prngReg c r)
  Z c := Pipeline.unscopedRest (Ix := Unit) (Name := ℕ) (U := UR sig nD τ) (Lvl := ℕ) spec0 c ((atTc (W11 m ρ)) c)
  hentry c := by
    rw [Pipeline.ownSems0_none]
    have hsplit := Pipeline.arrays_of_unscopedBufs (p := 0) (pcfgs (F := F)) adm (allDats m ρ) launch0.win launch0.arr_whole c
      ((allDats m ρ 0 c).share_full fun _ => rfl) ((atTc (W11 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (l0PhiIn (atTc (W11 m ρ)) c)
    unfold Pipeline.ΦA
    iintro ⟨Hp, -, Hr⟩
    isplitl [Hr]; · iexact Hr
    iexact Hp
  hout c := by
    rw [Pipeline.ownSems0_none]
    refine BIBase.Entails.trans (l0PhiOut (atTc (W11 m ρ)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (allDats m ρ) ((allDats m ρ 0 c).share_full fun _ => rfl)
      ((atTc (W11 m ρ)) c) ((atTc (W12 m ρ)) c) ((allDats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W 13, left at W 14. Its windows' arrays are split out of the
    unscoped buffers and put back at their exit contents; the generator register goes into the region's invariant
    and comes back; nothing is owed; the kernel has no semaphore of its own. -/
def region1 : Pipeline.RegionSeg (pcfgs (F := F)) adm (allDats m ρ) () defs₀ noVariants noLevels levelZero 1 where
  win := launch1.win.to₀
  block_pos := launch1.block_pos
  stage_whole := launch1.stage_whole
  K := PEmpty
  osem k := k.elim
  ho := Pipeline.OwnSemFacts.none _
  hbody c := (l1Obligation (atTc (W13 m ρ)) c).loose
  hwaits := Pipeline.hwaits_of_owed_zero _ _ _ _ noLevels levelZero 1 fun _ _ => rfl
  pre c := iprop(StableHlo.held (c : Thread nD τ) (Pipeline.ucRefs τ sig) (W13 m ρ c) ∗ beside c)
  post c := iprop(StableHlo.held (c : Thread nD τ) (Pipeline.ucRefs τ sig) (W14 m ρ c) ∗ beside c)
  X c := iprop(∃ r, prngReg c r)
  Y c := iprop(∃ r, prngReg c r)
  Z c := Pipeline.unscopedRest (Ix := Unit) (Name := ℕ) (U := UR sig nD τ) (Lvl := ℕ) spec1 c ((atTc (W13 m ρ)) c)
  hentry c := by
    rw [Pipeline.ownSems0_none]
    have hsplit := Pipeline.arrays_of_unscopedBufs (p := 1) (pcfgs (F := F)) adm (allDats m ρ) launch1.win launch1.arr_whole c
      ((allDats m ρ 1 c).share_full fun _ => rfl) ((atTc (W13 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (l1PhiIn (atTc (W13 m ρ)) c)
    unfold Pipeline.ΦA
    iintro ⟨Hp, -, Hr⟩
    isplitl [Hr]; · iexact Hr
    iexact Hp
  hout c := by
    rw [Pipeline.ownSems0_none]
    refine BIBase.Entails.trans (l1PhiOut (atTc (W13 m ρ)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (allDats m ρ) ((allDats m ρ 1 c).share_full fun _ => rfl)
      ((atTc (W13 m ρ)) c) ((atTc (W14 m ρ)) c) ((allDats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at W 15, left at W 16. Its windows' arrays are split out of the
    unscoped buffers and put back at their exit contents; the generator register goes into the region's invariant
    and comes back; nothing is owed; the kernel has no semaphore of its own. -/
def region2 : Pipeline.RegionSeg (pcfgs (F := F)) adm (allDats m ρ) () defs₀ noVariants noLevels levelZero 2 where
  win := launch2.win.to₀
  block_pos := launch2.block_pos
  stage_whole := launch2.stage_whole
  K := PEmpty
  osem k := k.elim
  ho := Pipeline.OwnSemFacts.none _
  hbody c := (l2Obligation (atTc (W15 m ρ)) c).loose
  hwaits := Pipeline.hwaits_of_owed_zero _ _ _ _ noLevels levelZero 2 fun _ _ => rfl
  pre c := iprop(StableHlo.held (c : Thread nD τ) (Pipeline.ucRefs τ sig) (W15 m ρ c) ∗ beside c)
  post c := iprop(StableHlo.held (c : Thread nD τ) (Pipeline.ucRefs τ sig) (W16 m ρ c) ∗ beside c)
  X c := iprop(∃ r, prngReg c r)
  Y c := iprop(∃ r, prngReg c r)
  Z c := Pipeline.unscopedRest (Ix := Unit) (Name := ℕ) (U := UR sig nD τ) (Lvl := ℕ) spec2 c ((atTc (W15 m ρ)) c)
  hentry c := by
    rw [Pipeline.ownSems0_none]
    have hsplit := Pipeline.arrays_of_unscopedBufs (p := 2) (pcfgs (F := F)) adm (allDats m ρ) launch2.win launch2.arr_whole c
      ((allDats m ρ 2 c).share_full fun _ => rfl) ((atTc (W15 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (l2PhiIn (atTc (W15 m ρ)) c)
    unfold Pipeline.ΦA
    iintro ⟨Hp, -, Hr⟩
    isplitl [Hr]; · iexact Hr
    iexact Hp
  hout c := by
    rw [Pipeline.ownSems0_none]
    refine BIBase.Entails.trans (l2PhiOut (atTc (W15 m ρ)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (allDats m ρ) ((allDats m ρ 2 c).share_full fun _ => rfl)
      ((atTc (W15 m ρ)) c) ((atTc (W16 m ρ)) c) ((allDats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at W 17, left at W 18. Its windows' arrays are split out of the
    unscoped buffers and put back at their exit contents; the generator register goes into the region's invariant
    and comes back; nothing is owed; the kernel has no semaphore of its own. -/
def region3 : Pipeline.RegionSeg (pcfgs (F := F)) adm (allDats m ρ) () defs₀ noVariants noLevels levelZero 3 where
  win := launch3.win.to₀
  block_pos := launch3.block_pos
  stage_whole := launch3.stage_whole
  K := PEmpty
  osem k := k.elim
  ho := Pipeline.OwnSemFacts.none _
  hbody c := (l3Obligation (atTc (W17 m ρ)) c).loose
  hwaits := Pipeline.hwaits_of_owed_zero _ _ _ _ noLevels levelZero 3 fun _ _ => rfl
  pre c := iprop(StableHlo.held (c : Thread nD τ) (Pipeline.ucRefs τ sig) (W17 m ρ c) ∗ beside c)
  post c := iprop(StableHlo.held (c : Thread nD τ) (Pipeline.ucRefs τ sig) (W18 m ρ c) ∗ beside c)
  X c := iprop(∃ r, prngReg c r)
  Y c := iprop(∃ r, prngReg c r)
  Z c := Pipeline.unscopedRest (Ix := Unit) (Name := ℕ) (U := UR sig nD τ) (Lvl := ℕ) spec3 c ((atTc (W17 m ρ)) c)
  hentry c := by
    rw [Pipeline.ownSems0_none]
    have hsplit := Pipeline.arrays_of_unscopedBufs (p := 3) (pcfgs (F := F)) adm (allDats m ρ) launch3.win launch3.arr_whole c
      ((allDats m ρ 3 c).share_full fun _ => rfl) ((atTc (W17 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (l3PhiIn (atTc (W17 m ρ)) c)
    unfold Pipeline.ΦA
    iintro ⟨Hp, -, Hr⟩
    isplitl [Hr]; · iexact Hr
    iexact Hp
  hout c := by
    rw [Pipeline.ownSems0_none]
    refine BIBase.Entails.trans (l3PhiOut (atTc (W17 m ρ)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (allDats m ρ) ((allDats m ρ 3 c).share_full fun _ => rfl)
      ((atTc (W17 m ρ)) c) ((atTc (W18 m ρ)) c) ((allDats m ρ 3 c).arrAt · cfg3.N) (exitArr3 m ρ c) (exitRest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at W 19, left at W 20. Its windows' arrays are split out of the
    unscoped buffers and put back at their exit contents; the generator register goes into the region's invariant
    and comes back; nothing is owed; the kernel has no semaphore of its own. -/
def region4 : Pipeline.RegionSeg (pcfgs (F := F)) adm (allDats m ρ) () defs₀ noVariants noLevels levelZero 4 where
  win := launch4.win.to₀
  block_pos := launch4.block_pos
  stage_whole := launch4.stage_whole
  K := PEmpty
  osem k := k.elim
  ho := Pipeline.OwnSemFacts.none _
  hbody c := (l4Obligation (atTc (W19 m ρ)) c).loose
  hwaits := Pipeline.hwaits_of_owed_zero _ _ _ _ noLevels levelZero 4 fun _ _ => rfl
  pre c := iprop(StableHlo.held (c : Thread nD τ) (Pipeline.ucRefs τ sig) (W19 m ρ c) ∗ beside c)
  post c := iprop(StableHlo.held (c : Thread nD τ) (Pipeline.ucRefs τ sig) (W20 m ρ c) ∗ beside c)
  X c := iprop(∃ r, prngReg c r)
  Y c := iprop(∃ r, prngReg c r)
  Z c := Pipeline.unscopedRest (Ix := Unit) (Name := ℕ) (U := UR sig nD τ) (Lvl := ℕ) spec4 c ((atTc (W19 m ρ)) c)
  hentry c := by
    rw [Pipeline.ownSems0_none]
    have hsplit := Pipeline.arrays_of_unscopedBufs (p := 4) (pcfgs (F := F)) adm (allDats m ρ) launch4.win launch4.arr_whole c
      ((allDats m ρ 4 c).share_full fun _ => rfl) ((atTc (W19 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (l4PhiIn (atTc (W19 m ρ)) c)
    unfold Pipeline.ΦA
    iintro ⟨Hp, -, Hr⟩
    isplitl [Hr]; · iexact Hr
    iexact Hp
  hout c := by
    rw [Pipeline.ownSems0_none]
    refine BIBase.Entails.trans (l4PhiOut (atTc (W19 m ρ)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (allDats m ρ) ((allDats m ρ 4 c).share_full fun _ => rfl)
      ((atTc (W19 m ρ)) c) ((atTc (W20 m ρ)) c) ((allDats m ρ 4 c).arrAt · cfg4.N) (exitArr4 m ρ c) (exitRest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at W 21, left at W 22. Its windows' arrays are split out of the
    unscoped buffers and put back at their exit contents; the generator register goes into the region's invariant
    and comes back; nothing is owed; the kernel has no semaphore of its own. -/
def region5 : Pipeline.RegionSeg (pcfgs (F := F)) adm (allDats m ρ) () defs₀ noVariants noLevels levelZero 5 where
  win := launch5.win.to₀
  block_pos := launch5.block_pos
  stage_whole := launch5.stage_whole
  K := PEmpty
  osem k := k.elim
  ho := Pipeline.OwnSemFacts.none _
  hbody c := (smObligation (atTc (W21 m ρ)) c).loose
  hwaits := Pipeline.hwaits_of_owed_zero _ _ _ _ noLevels levelZero 5 fun _ _ => rfl
  pre c := iprop(StableHlo.held (c : Thread nD τ) (Pipeline.ucRefs τ sig) (W21 m ρ c) ∗ beside c)
  post c := iprop(StableHlo.held (c : Thread nD τ) (Pipeline.ucRefs τ sig) (W22 m ρ c) ∗ beside c)
  X c := iprop(∃ r, prngReg c r)
  Y c := iprop(∃ r, prngReg c r)
  Z c := Pipeline.unscopedRest (Ix := Unit) (Name := ℕ) (U := UR sig nD τ) (Lvl := ℕ) spec5 c ((atTc (W21 m ρ)) c)
  hentry c := by
    rw [Pipeline.ownSems0_none]
    have hsplit := Pipeline.arrays_of_unscopedBufs (p := 5) (pcfgs (F := F)) adm (allDats m ρ) launch5.win launch5.arr_whole c
      ((allDats m ρ 5 c).share_full fun _ => rfl) ((atTc (W21 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (allDats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (allDats m ρ) ((allDats m ρ 5 c).share_full fun _ => rfl)
      ((atTc (W21 m ρ)) c) ((atTc (W22 m ρ)) c) ((allDats m ρ 5 c).arrAt · cfg5.N) (exitArr5 m ρ c) (exitRest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the run -/

abbrev allItems : List (Pipeline.Seg (pcfgs (F := F)) adm (allDats m ρ) () defs₀ noVariants noLevels levelZero) :=
  [ .host (hostItem hostOps0 hostOps0_sub hostOps0_fresh (W0 m ρ)),
    .host (hostItem hostOps0_1 hostOps0_1_sub hostOps0_1_fresh (W1 m ρ)),
    .host (hostItem hostOps0_2 hostOps0_2_sub hostOps0_2_fresh (W2 m ρ)),
    .host (hostItem hostOps0_3 hostOps0_3_sub hostOps0_3_fresh (W3 m ρ)),
    .host (hostItem hostOps0_4 hostOps0_4_sub hostOps0_4_fresh (W4 m ρ)),
    .host (hostItem hostOps0_5 hostOps0_5_sub hostOps0_5_fresh (W5 m ρ)),
    .host (hostItem hostOps0_6 hostOps0_6_sub hostOps0_6_fresh (W6 m ρ)),
    .host (hostItem hostOps0_7 hostOps0_7_sub hostOps0_7_fresh (W7 m ρ)),
    .host (hostItem hostOps0_8 hostOps0_8_sub hostOps0_8_fresh (W8 m ρ)),
    .host (hostItem hostOps0_9 hostOps0_9_sub hostOps0_9_fresh (W9 m ρ)),
    .host (hostItem hostOps0_10 hostOps0_10_sub hostOps0_10_fresh (W10 m ρ)),
    .region (region0 m ρ),
    .host (hostItem hostOps1 hostOps1_sub hostOps1_fresh (W12 m ρ)),
    .region (region1 m ρ),
    .host (hostItem hostOps2 hostOps2_sub hostOps2_fresh (W14 m ρ)),
    .region (region2 m ρ),
    .host (hostItem hostOps3 hostOps3_sub hostOps3_fresh (W16 m ρ)),
    .region (region3 m ρ),
    .host (hostItem hostOps4 hostOps4_sub hostOps4_fresh (W18 m ρ)),
    .region (region4 m ρ),
    .host (hostItem hostOps5 hostOps5_sub hostOps5_fresh (W20 m ρ)),
    .region (region5 m ρ) ]

theorem main_is_items (c : Dev nD) : main (F := F) c = Pipeline.Seg.run (allItems m ρ) := by
  rw [main_chain c, Pipeline.Seg.run_eq_chain]
  exact congrArg Pipeline.chain (show _ = (allItems m ρ).map Pipeline.Seg.prog from rfl)

theorem in_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, nothing faulting, and every
    unscoped buffer of every core ends at W 22. -/
theorem runAll : θ_run defs (onTc (τ := τ) (main (F := F))) ⟨m, fun _ => 0, ρ⟩
    (fun r => ∀ c : Dev nD, ∀ b ∈ Pipeline.ucRefs τ sig, r.2.mem (((c : Thread nD τ)).1, b) = W22 m ρ c b) :=
  Pipeline.θ_run_regions_kit (pcfgs (F := F)) adm (allDats m ρ) () cellOf_inj emb₁ defs₀ noVariants noLevels levelZero m ρ main (allItems m ρ)
    (fun c Q => by rw [main_is_items m ρ c])
    (by simp only [allItems, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W22 m ρ c) ∗ beside c)
        ⊢ iprop(lastState m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noLevels levelZero fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

end Cert.Kernel.Hand

end
-- ==== Proof.KernelArgsBits.lean ====
/-
  No item of @main changes an argument array: a host stretch writes only its own results, a region changes only its
  output windows' arrays (the first region READS the argument x through an input window, which leaves it as it
  was). So each of the sixteen argument buffers, read off the last contents W 22, is what the launch memory held —
  and the frame claim follows from the run.
-/
import proofs.«126670_j49074296324140_2_alg».proof.Proof.Gen.Kernel.Launch
import proofs.«126670_j49074296324140_2_alg».proof.Proof.Gen.Kernel.Skeleton
import proofs.«126670_j49074296324140_2_alg».proof.Proof.Gen.Kernel.Points
import proofs.«126670_j49074296324140_2_alg».proof.Proof.KernelRunBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem kept_arg0 (c : Dev nD) : W22 m ρ c (Proc.devRef .tc main_arg0) = m ((c : Thread nD τ).loc main_arg0) :=
  (W22_of_ne m ρ c main_arg0 (by decide)).trans <|
  (StableHlo.after_of_writes_sub hostOps5 _ hostOps5_writes (by decide) : W21 m ρ c (Proc.devRef .tc main_arg0) = W20 m ρ c (Proc.devRef .tc main_arg0)).trans <|
  (W20_of_ne m ρ c main_arg0 (by decide)).trans <|
  (StableHlo.after_of_writes_sub hostOps4 _ hostOps4_writes (by decide) : W19 m ρ c (Proc.devRef .tc main_arg0) = W18 m ρ c (Proc.devRef .tc main_arg0)).trans <|
  (W18_of_ne m ρ c main_arg0 (by decide)).trans <|
  (StableHlo.after_of_writes_sub hostOps3 _ hostOps3_writes (by decide) : W17 m ρ c (Proc.devRef .tc main_arg0) = W16 m ρ c (Proc.devRef .tc main_arg0)).trans <|
  (W16_of_ne m ρ c main_arg0 (by decide)).trans <|
  (StableHlo.after_of_writes_sub hostOps2 _ hostOps2_writes (by decide) : W15 m ρ c (Proc.devRef .tc main_arg0) = W14 m ρ c (Proc.devRef .tc main_arg0)).trans <|
  (W14_of_ne m ρ c main_arg0 (by decide)).trans <|
  (StableHlo.after_of_writes_sub hostOps1 _ hostOps1_writes (by decide) : W13 m ρ c (Proc.devRef .tc main_arg0) = W12 m ρ c (Proc.devRef .tc main_arg0)).trans <|
  ((W12_arr m ρ c 0).trans (((l0Dat (atTc (W11 m ρ)) c).arrAt_in 0 rfl _).trans (l0Dat_A (atTc (W11 m ρ)) c 0))).trans <|
  (StableHlo.after_of_writes_sub hostOps0_10 _ hostOps0_10_writes (by decide) : W11 m ρ c (Proc.devRef .tc main_arg0) = W10 m ρ c (Proc.devRef .tc main_arg0)).trans <|
  (StableHlo.after_of_writes_sub hostOps0_9 _ hostOps0_9_writes (by decide) : W10 m ρ c (Proc.devRef .tc main_arg0) = W9 m ρ c (Proc.devRef .tc main_arg0)).trans <|
  (StableHlo.after_of_writes_sub hostOps0_8 _ hostOps0_8_writes (by decide) : W9 m ρ c (Proc.devRef .tc main_arg0) = W8 m ρ c (Proc.devRef .tc main_arg0)).trans <|
  (StableHlo.after_of_writes_sub hostOps0_7 _ hostOps0_7_writes (by decide) : W8 m ρ c (Proc.devRef .tc main_arg0) = W7 m ρ c (Proc.devRef .tc main_arg0)).trans <|
  (StableHlo.after_of_writes_sub hostOps0_6 _ hostOps0_6_writes (by decide) : W7 m ρ c (Proc.devRef .tc main_arg0) = W6 m ρ c (Proc.devRef .tc main_arg0)).trans <|
  (StableHlo.after_of_writes_sub hostOps0_5 _ hostOps0_5_writes (by decide) : W6 m ρ c (Proc.devRef .tc main_arg0) = W5 m ρ c (Proc.devRef .tc main_arg0)).trans <|
  (StableHlo.after_of_writes_sub hostOps0_4 _ hostOps0_4_writes (by decide) : W5 m ρ c (Proc.devRef .tc main_arg0) = W4 m ρ c (Proc.devRef .tc main_arg0)).trans <|
  (StableHlo.after_of_writes_sub hostOps0_3 _ hostOps0_3_writes (by decide) : W4 m ρ c (Proc.devRef .tc main_arg0) = W3 m ρ c (Proc.devRef .tc main_arg0)).trans <|
  (StableHlo.after_of_writes_sub hostOps0_2 _ hostOps0_2_writes (by decide) : W3 m ρ c (Proc.devRef .tc main_arg0) = W2 m ρ c (Proc.devRef .tc main_arg0)).trans <|
  (StableHlo.after_of_writes_sub hostOps0_1 _ hostOps0_1_writes (by decide) : W2 m ρ c (Proc.devRef .tc main_arg0) = W1 m ρ c (Proc.devRef .tc main_arg0)).trans <|
  (StableHlo.after_of_writes_sub hostOps0 _ hostOps0_writes (by decide) : W1 m ρ c (Proc.devRef .tc main_arg0) = W0 m ρ c (Proc.devRef .tc main_arg0)).trans <| rfl

theorem kept_arg1 (c : Dev nD) : W22 m ρ c (Proc.devRef .tc main_arg1) = m ((c : Thread nD τ).loc main_arg1) :=
  (W22_of_ne m ρ c main_arg1 (by decide)).trans <|
  (StableHlo.after_of_writes_sub hostOps5 _ hostOps5_writes (by decide) : W21 m ρ c (Proc.devRef .tc main_arg1) = W20 m ρ c (Proc.devRef .tc main_arg1)).trans <|
  (W20_of_ne m ρ c main_arg1 (by decide)).trans <|
  (StableHlo.after_of_writes_sub hostOps4 _ hostOps4_writes (by decide) : W19 m ρ c (Proc.devRef .tc main_arg1) = W18 m ρ c (Proc.devRef .tc main_arg1)).trans <|
  (W18_of_ne m ρ c main_arg1 (by decide)).trans <|
  (StableHlo.after_of_writes_sub hostOps3 _ hostOps3_writes (by decide) : W17 m ρ c (Proc.devRef .tc main_arg1) = W16 m ρ c (Proc.devRef .tc main_arg1)).trans <|
  (W16_of_ne m ρ c main_arg1 (by decide)).trans <|
  (StableHlo.after_of_writes_sub hostOps2 _ hostOps2_writes (by decide) : W15 m ρ c (Proc.devRef .tc main_arg1) = W14 m ρ c (Proc.devRef .tc main_arg1)).trans <|
  (W14_of_ne m ρ c main_arg1 (by decide)).trans <|
  (StableHlo.after_of_writes_sub hostOps1 _ hostOps1_writes (by decide) : W13 m ρ c (Proc.devRef .tc main_arg1) = W12 m ρ c (Proc.devRef .tc main_arg1)).trans <|
  (W12_of_ne m ρ c main_arg1 (by decide)).trans <|
  (StableHlo.after_of_writes_sub hostOps0_10 _ hostOps0_10_writes (by decide) : W11 m ρ c (Proc.devRef .tc main_arg1) = W10 m ρ c (Proc.devRef .tc main_arg1)).trans <|
  (StableHlo.after_of_writes_sub hostOps0_9 _ hostOps0_9_writes (by decide) : W10 m ρ c (Proc.devRef .tc main_arg1) = W9 m ρ c (Proc.devRef .tc main_arg1)).trans <|
  (StableHlo.after_of_writes_sub hostOps0_8 _ hostOps0_8_writes (by decide) : W9 m ρ c (Proc.devRef .tc main_arg1) = W8 m ρ c (Proc.devRef .tc main_arg1)).trans <|
  (StableHlo.after_of_writes_sub hostOps0_7 _ hostOps0_7_writes (by decide) : W8 m ρ c (Proc.devRef .tc main_arg1) = W7 m ρ c (Proc.devRef .tc main_arg1)).trans <|
  (StableHlo.after_of_writes_sub hostOps0_6 _ hostOps0_6_writes (by decide) : W7 m ρ c (Proc.devRef .tc main_arg1) = W6 m ρ c (Proc.devRef .tc main_arg1)).trans <|
  (StableHlo.after_of_writes_sub hostOps0_5 _ hostOps0_5_writes (by decide) : W6 m ρ c (Proc.devRef .tc main_arg1) = W5 m ρ c (Proc.devRef .tc main_arg1)).trans <|
  (StableHlo.after_of_writes_sub hostOps0_4 _ hostOps0_4_writes (by decide) : W5 m ρ c (Proc.devRef .tc main_arg1) = W4 m ρ c (Proc.devRef .tc main_arg1)).trans <|
  (StableHlo.after_of_writes_sub hostOps0_3 _ hostOps0_3_writes (by decide) : W4 m ρ c (Proc.devRef .tc main_arg1) = W3 m ρ c (Proc.devRef .tc main_arg1)).trans <|
  (StableHlo.after_of_writes_sub hostOps0_2 _ hostOps0_2_writes (by decide) : W3 m ρ c (Proc.devRef .tc main_arg1) = W2 m ρ c (Proc.devRef .tc main_arg1)).trans <|
  (StableHlo.after_of_writes_sub hostOps0_1 _ hostOps0_1_writes (by decide) : W2 m ρ c (Proc.devRef .tc main_arg1) = W1 m ρ c (Proc.devRef .tc main_arg1)).trans <|
  (StableHlo.after_of_writes_sub hostOps0 _ hostOps0_writes (by decide) : W1 m ρ c (Proc.devRef .tc main_arg1) = W0 m ρ c (Proc.devRef .tc main_arg1)).trans <| rfl

theorem kept_arg2 (c : Dev nD) : W22 m ρ c (Proc.devRef .tc main_arg2) = m ((c : Thread nD τ).loc main_arg2) :=
  (W22_of_ne m ρ c main_arg2 (by decide)).trans <|
  (StableHlo.after_of_writes_sub hostOps5 _ hostOps5_writes (by decide) : W21 m ρ c (Proc.devRef .tc main_arg2) = W20 m ρ c (Proc.devRef .tc main_arg2)).trans <|
  (W20_of_ne m ρ c main_arg2 (by decide)).trans <|
  (StableHlo.after_of_writes_sub hostOps4 _ hostOps4_writes (by decide) : W19 m ρ c (Proc.devRef .tc main_arg2) = W18 m ρ c (Proc.devRef .tc main_arg2)).trans <|
  (W18_of_ne m ρ c main_arg2 (by decide)).trans <|
  (StableHlo.after_of_writes_sub hostOps3 _ hostOps3_writes (by decide) : W17 m ρ c (Proc.devRef .tc main_arg2) = W16 m ρ c (Proc.devRef .tc main_arg2)).trans <|
  (W16_of_ne m ρ c main_arg2 (by decide)).trans <|
  (StableHlo.after_of_writes_sub hostOps2 _ hostOps2_writes (by decide) : W15 m ρ c (Proc.devRef .tc main_arg2) = W14 m ρ c (Proc.devRef .tc main_arg2)).trans <|
  (W14_of_ne m ρ c main_arg2 (by decide)).trans <|
  (StableHlo.after_of_writes_sub hostOps1 _ hostOps1_writes (by decide) : W13 m ρ c (Proc.devRef .tc main_arg2) = W12 m ρ c (Proc.devRef .tc main_arg2)).trans <|
  (W12_of_ne m ρ c main_arg2 (by decide)).trans <|
  (StableHlo.after_of_writes_sub hostOps0_10 _ hostOps0_10_writes (by decide) : W11 m ρ c (Proc.devRef .tc main_arg2) = W10 m ρ c (Proc.devRef .tc main_arg2)).trans <|
  (StableHlo.after_of_writes_sub hostOps0_9 _ hostOps0_9_writes (by decide) : W10 m ρ c (Proc.devRef .tc main_arg2) = W9 m ρ c (Proc.devRef .tc main_arg2)).trans <|
  (StableHlo.after_of_writes_sub hostOps0_8 _ hostOps0_8_writes (by decide) : W9 m ρ c (Proc.devRef .tc main_arg2) = W8 m ρ c (Proc.devRef .tc main_arg2)).trans <|
  (StableHlo.after_of_writes_sub hostOps0_7 _ hostOps0_7_writes (by decide) : W8 m ρ c (Proc.devRef .tc main_arg2) = W7 m ρ c (Proc.devRef .tc main_arg2)).trans <|
  (StableHlo.after_of_writes_sub hostOps0_6 _ hostOps0_6_writes (by decide) : W7 m ρ c (Proc.devRef .tc main_arg2) = W6 m ρ c (Proc.devRef .tc main_arg2)).trans <|
  (StableHlo.after_of_writes_sub hostOps0_5 _ hostOps0_5_writes (by decide) : W6 m ρ c (Proc.devRef .tc main_arg2) = W5 m ρ c (Proc.devRef .tc main_arg2)).trans <|
  (StableHlo.after_of_writes_sub hostOps0_4 _ hostOps0_4_writes (by decide) : W5 m ρ c (Proc.devRef .tc main_arg2) = W4 m ρ c (Proc.devRef .tc main_arg2)).trans <|
  (StableHlo.after_of_writes_sub hostOps0_3 _ hostOps0_3_writes (by decide) : W4 m ρ c (Proc.devRef .tc main_arg2) = W3 m ρ c (Proc.devRef .tc main_arg2)).trans <|
  (StableHlo.after_of_writes_sub hostOps0_2 _ hostOps0_2_writes (by decide) : W3 m ρ c (Proc.devRef .tc main_arg2) = W2 m ρ c (Proc.devRef .tc main_arg2)).trans <|
  (StableHlo.after_of_writes_sub hostOps0_1 _ hostOps0_1_writes (by decide) : W2 m ρ c (Proc.devRef .tc main_arg2) = W1 m ρ c (Proc.devRef .tc main_arg2)).trans <|
  (StableHlo.after_of_writes_sub hostOps0 _ hostOps0_writes (by decide) : W1 m ρ c (Proc.devRef .tc main_arg2) = W0 m ρ c (Proc.devRef .tc main_arg2)).trans <| rfl

theorem kept_arg3 (c : Dev nD) : W22 m ρ c (Proc.devRef .tc main_arg3) = m ((c : Thread nD τ).loc main_arg3) :=
  (W22_of_ne m ρ c main_arg3 (by decide)).trans <|
  (StableHlo.after_of_writes_sub hostOps5 _ hostOps5_writes (by decide) : W21 m ρ c (Proc.devRef .tc main_arg3) = W20 m ρ c (Proc.devRef .tc main_arg3)).trans <|
  (W20_of_ne m ρ c main_arg3 (by decide)).trans <|
  (StableHlo.after_of_writes_sub hostOps4 _ hostOps4_writes (by decide) : W19 m ρ c (Proc.devRef .tc main_arg3) = W18 m ρ c (Proc.devRef .tc main_arg3)).trans <|
  (W18_of_ne m ρ c main_arg3 (by decide)).trans <|
  (StableHlo.after_of_writes_sub hostOps3 _ hostOps3_writes (by decide) : W17 m ρ c (Proc.devRef .tc main_arg3) = W16 m ρ c (Proc.devRef .tc main_arg3)).trans <|
  (W16_of_ne m ρ c main_arg3 (by decide)).trans <|
  (StableHlo.after_of_writes_sub hostOps2 _ hostOps2_writes (by decide) : W15 m ρ c (Proc.devRef .tc main_arg3) = W14 m ρ c (Proc.devRef .tc main_arg3)).trans <|
  (W14_of_ne m ρ c main_arg3 (by decide)).trans <|
  (StableHlo.after_of_writes_sub hostOps1 _ hostOps1_writes (by decide) : W13 m ρ c (Proc.devRef .tc main_arg3) = W12 m ρ c (Proc.devRef .tc main_arg3)).trans <|
  (W12_of_ne m ρ c main_arg3 (by decide)).trans <|
  (StableHlo.after_of_writes_sub hostOps0_10 _ hostOps0_10_writes (by decide) : W11 m ρ c (Proc.devRef .tc main_arg3) = W10 m ρ c (Proc.devRef .tc main_arg3)).trans <|
  (StableHlo.after_of_writes_sub hostOps0_9 _ hostOps0_9_writes (by decide) : W10 m ρ c (Proc.devRef .tc main_arg3) = W9 m ρ c (Proc.devRef .tc main_arg3)).trans <|
  (StableHlo.after_of_writes_sub hostOps0_8 _ hostOps0_8_writes (by decide) : W9 m ρ c (Proc.devRef .tc main_arg3) = W8 m ρ c (Proc.devRef .tc main_arg3)).trans <|
  (StableHlo.after_of_writes_sub hostOps0_7 _ hostOps0_7_writes (by decide) : W8 m ρ c (Proc.devRef .tc main_arg3) = W7 m ρ c (Proc.devRef .tc main_arg3)).trans <|
  (StableHlo.after_of_writes_sub hostOps0_6 _ hostOps0_6_writes (by decide) : W7 m ρ c (Proc.devRef .tc main_arg3) = W6 m ρ c (Proc.devRef .tc main_arg3)).trans <|
  (StableHlo.after_of_writes_sub hostOps0_5 _ hostOps0_5_writes (by decide) : W6 m ρ c (Proc.devRef .tc main_arg3) = W5 m ρ c (Proc.devRef .tc main_arg3)).trans <|
  (StableHlo.after_of_writes_sub hostOps0_4 _ hostOps0_4_writes (by decide) : W5 m ρ c (Proc.devRef .tc main_arg3) = W4 m ρ c (Proc.devRef .tc main_arg3)).trans <|
  (StableHlo.after_of_writes_sub hostOps0_3 _ hostOps0_3_writes (by decide) : W4 m ρ c (Proc.devRef .tc main_arg3) = W3 m ρ c (Proc.devRef .tc main_arg3)).trans <|
  (StableHlo.after_of_writes_sub hostOps0_2 _ hostOps0_2_writes (by decide) : W3 m ρ c (Proc.devRef .tc main_arg3) = W2 m ρ c (Proc.devRef .tc main_arg3)).trans <|
  (StableHlo.after_of_writes_sub hostOps0_1 _ hostOps0_1_writes (by decide) : W2 m ρ c (Proc.devRef .tc main_arg3) = W1 m ρ c (Proc.devRef .tc main_arg3)).trans <|
  (StableHlo.after_of_writes_sub hostOps0 _ hostOps0_writes (by decide) : W1 m ρ c (Proc.devRef .tc main_arg3) = W0 m ρ c (Proc.devRef .tc main_arg3)).trans <| rfl

theorem kept_arg4 (c : Dev nD) : W22 m ρ c (Proc.devRef .tc main_arg4) = m ((c : Thread nD τ).loc main_arg4) :=
  (W22_of_ne m ρ c main_arg4 (by decide)).trans <|
  (StableHlo.after_of_writes_sub hostOps5 _ hostOps5_writes (by decide) : W21 m ρ c (Proc.devRef .tc main_arg4) = W20 m ρ c (Proc.devRef .tc main_arg4)).trans <|
  (W20_of_ne m ρ c main_arg4 (by decide)).trans <|
  (StableHlo.after_of_writes_sub hostOps4 _ hostOps4_writes (by decide) : W19 m ρ c (Proc.devRef .tc main_arg4) = W18 m ρ c (Proc.devRef .tc main_arg4)).trans <|
  (W18_of_ne m ρ c main_arg4 (by decide)).trans <|
  (StableHlo.after_of_writes_sub hostOps3 _ hostOps3_writes (by decide) : W17 m ρ c (Proc.devRef .tc main_arg4) = W16 m ρ c (Proc.devRef .tc main_arg4)).trans <|
  (W16_of_ne m ρ c main_arg4 (by decide)).trans <|
  (StableHlo.after_of_writes_sub hostOps2 _ hostOps2_writes (by decide) : W15 m ρ c (Proc.devRef .tc main_arg4) = W14 m ρ c (Proc.devRef .tc main_arg4)).trans <|
  (W14_of_ne m ρ c main_arg4 (by decide)).trans <|
  (StableHlo.after_of_writes_sub hostOps1 _ hostOps1_writes (by decide) : W13 m ρ c (Proc.devRef .tc main_arg4) = W12 m ρ c (Proc.devRef .tc main_arg4)).trans <|
  (W12_of_ne m ρ c main_arg4 (by decide)).trans <|
  (StableHlo.after_of_writes_sub hostOps0_10 _ hostOps0_10_writes (by decide) : W11 m ρ c (Proc.devRef .tc main_arg4) = W10 m ρ c (Proc.devRef .tc main_arg4)).trans <|
  (StableHlo.after_of_writes_sub hostOps0_9 _ hostOps0_9_writes (by decide) : W10 m ρ c (Proc.devRef .tc main_arg4) = W9 m ρ c (Proc.devRef .tc main_arg4)).trans <|
  (StableHlo.after_of_writes_sub hostOps0_8 _ hostOps0_8_writes (by decide) : W9 m ρ c (Proc.devRef .tc main_arg4) = W8 m ρ c (Proc.devRef .tc main_arg4)).trans <|
  (StableHlo.after_of_writes_sub hostOps0_7 _ hostOps0_7_writes (by decide) : W8 m ρ c (Proc.devRef .tc main_arg4) = W7 m ρ c (Proc.devRef .tc main_arg4)).trans <|
  (StableHlo.after_of_writes_sub hostOps0_6 _ hostOps0_6_writes (by decide) : W7 m ρ c (Proc.devRef .tc main_arg4) = W6 m ρ c (Proc.devRef .tc main_arg4)).trans <|
  (StableHlo.after_of_writes_sub hostOps0_5 _ hostOps0_5_writes (by decide) : W6 m ρ c (Proc.devRef .tc main_arg4) = W5 m ρ c (Proc.devRef .tc main_arg4)).trans <|
  (StableHlo.after_of_writes_sub hostOps0_4 _ hostOps0_4_writes (by decide) : W5 m ρ c (Proc.devRef .tc main_arg4) = W4 m ρ c (Proc.devRef .tc main_arg4)).trans <|
  (StableHlo.after_of_writes_sub hostOps0_3 _ hostOps0_3_writes (by decide) : W4 m ρ c (Proc.devRef .tc main_arg4) = W3 m ρ c (Proc.devRef .tc main_arg4)).trans <|
  (StableHlo.after_of_writes_sub hostOps0_2 _ hostOps0_2_writes (by decide) : W3 m ρ c (Proc.devRef .tc main_arg4) = W2 m ρ c (Proc.devRef .tc main_arg4)).trans <|
  (StableHlo.after_of_writes_sub hostOps0_1 _ hostOps0_1_writes (by decide) : W2 m ρ c (Proc.devRef .tc main_arg4) = W1 m ρ c (Proc.devRef .tc main_arg4)).trans <|
  (StableHlo.after_of_writes_sub hostOps0 _ hostOps0_writes (by decide) : W1 m ρ c (Proc.devRef .tc main_arg4) = W0 m ρ c (Proc.devRef .tc main_arg4)).trans <| rfl

theorem kept_arg5 (c : Dev nD) : W22 m ρ c (Proc.devRef .tc main_arg5) = m ((c : Thread nD τ).loc main_arg5) :=
  (W22_of_ne m ρ c main_arg5 (by decide)).trans <|
  (StableHlo.after_of_writes_sub hostOps5 _ hostOps5_writes (by decide) : W21 m ρ c (Proc.devRef .tc main_arg5) = W20 m ρ c (Proc.devRef .tc main_arg5)).trans <|
  (W20_of_ne m ρ c main_arg5 (by decide)).trans <|
  (StableHlo.after_of_writes_sub hostOps4 _ hostOps4_writes (by decide) : W19 m ρ c (Proc.devRef .tc main_arg5) = W18 m ρ c (Proc.devRef .tc main_arg5)).trans <|
  (W18_of_ne m ρ c main_arg5 (by decide)).trans <|
  (StableHlo.after_of_writes_sub hostOps3 _ hostOps3_writes (by decide) : W17 m ρ c (Proc.devRef .tc main_arg5) = W16 m ρ c (Proc.devRef .tc main_arg5)).trans <|
  (W16_of_ne m ρ c main_arg5 (by decide)).trans <|
  (StableHlo.after_of_writes_sub hostOps2 _ hostOps2_writes (by decide) : W15 m ρ c (Proc.devRef .tc main_arg5) = W14 m ρ c (Proc.devRef .tc main_arg5)).trans <|
  (W14_of_ne m ρ c main_arg5 (by decide)).trans <|
  (StableHlo.after_of_writes_sub hostOps1 _ hostOps1_writes (by decide) : W13 m ρ c (Proc.devRef .tc main_arg5) = W12 m ρ c (Proc.devRef .tc main_arg5)).trans <|
  (W12_of_ne m ρ c main_arg5 (by decide)).trans <|
  (StableHlo.after_of_writes_sub hostOps0_10 _ hostOps0_10_writes (by decide) : W11 m ρ c (Proc.devRef .tc main_arg5) = W10 m ρ c (Proc.devRef .tc main_arg5)).trans <|
  (StableHlo.after_of_writes_sub hostOps0_9 _ hostOps0_9_writes (by decide) : W10 m ρ c (Proc.devRef .tc main_arg5) = W9 m ρ c (Proc.devRef .tc main_arg5)).trans <|
  (StableHlo.after_of_writes_sub hostOps0_8 _ hostOps0_8_writes (by decide) : W9 m ρ c (Proc.devRef .tc main_arg5) = W8 m ρ c (Proc.devRef .tc main_arg5)).trans <|
  (StableHlo.after_of_writes_sub hostOps0_7 _ hostOps0_7_writes (by decide) : W8 m ρ c (Proc.devRef .tc main_arg5) = W7 m ρ c (Proc.devRef .tc main_arg5)).trans <|
  (StableHlo.after_of_writes_sub hostOps0_6 _ hostOps0_6_writes (by decide) : W7 m ρ c (Proc.devRef .tc main_arg5) = W6 m ρ c (Proc.devRef .tc main_arg5)).trans <|
  (StableHlo.after_of_writes_sub hostOps0_5 _ hostOps0_5_writes (by decide) : W6 m ρ c (Proc.devRef .tc main_arg5) = W5 m ρ c (Proc.devRef .tc main_arg5)).trans <|
  (StableHlo.after_of_writes_sub hostOps0_4 _ hostOps0_4_writes (by decide) : W5 m ρ c (Proc.devRef .tc main_arg5) = W4 m ρ c (Proc.devRef .tc main_arg5)).trans <|
  (StableHlo.after_of_writes_sub hostOps0_3 _ hostOps0_3_writes (by decide) : W4 m ρ c (Proc.devRef .tc main_arg5) = W3 m ρ c (Proc.devRef .tc main_arg5)).trans <|
  (StableHlo.after_of_writes_sub hostOps0_2 _ hostOps0_2_writes (by decide) : W3 m ρ c (Proc.devRef .tc main_arg5) = W2 m ρ c (Proc.devRef .tc main_arg5)).trans <|
  (StableHlo.after_of_writes_sub hostOps0_1 _ hostOps0_1_writes (by decide) : W2 m ρ c (Proc.devRef .tc main_arg5) = W1 m ρ c (Proc.devRef .tc main_arg5)).trans <|
  (StableHlo.after_of_writes_sub hostOps0 _ hostOps0_writes (by decide) : W1 m ρ c (Proc.devRef .tc main_arg5) = W0 m ρ c (Proc.devRef .tc main_arg5)).trans <| rfl

theorem kept_arg6 (c : Dev nD) : W22 m ρ c (Proc.devRef .tc main_arg6) = m ((c : Thread nD τ).loc main_arg6) :=
  (W22_of_ne m ρ c main_arg6 (by decide)).trans <|
  (StableHlo.after_of_writes_sub hostOps5 _ hostOps5_writes (by decide) : W21 m ρ c (Proc.devRef .tc main_arg6) = W20 m ρ c (Proc.devRef .tc main_arg6)).trans <|
  (W20_of_ne m ρ c main_arg6 (by decide)).trans <|
  (StableHlo.after_of_writes_sub hostOps4 _ hostOps4_writes (by decide) : W19 m ρ c (Proc.devRef .tc main_arg6) = W18 m ρ c (Proc.devRef .tc main_arg6)).trans <|
  (W18_of_ne m ρ c main_arg6 (by decide)).trans <|
  (StableHlo.after_of_writes_sub hostOps3 _ hostOps3_writes (by decide) : W17 m ρ c (Proc.devRef .tc main_arg6) = W16 m ρ c (Proc.devRef .tc main_arg6)).trans <|
  (W16_of_ne m ρ c main_arg6 (by decide)).trans <|
  (StableHlo.after_of_writes_sub hostOps2 _ hostOps2_writes (by decide) : W15 m ρ c (Proc.devRef .tc main_arg6) = W14 m ρ c (Proc.devRef .tc main_arg6)).trans <|
  (W14_of_ne m ρ c main_arg6 (by decide)).trans <|
  (StableHlo.after_of_writes_sub hostOps1 _ hostOps1_writes (by decide) : W13 m ρ c (Proc.devRef .tc main_arg6) = W12 m ρ c (Proc.devRef .tc main_arg6)).trans <|
  (W12_of_ne m ρ c main_arg6 (by decide)).trans <|
  (StableHlo.after_of_writes_sub hostOps0_10 _ hostOps0_10_writes (by decide) : W11 m ρ c (Proc.devRef .tc main_arg6) = W10 m ρ c (Proc.devRef .tc main_arg6)).trans <|
  (StableHlo.after_of_writes_sub hostOps0_9 _ hostOps0_9_writes (by decide) : W10 m ρ c (Proc.devRef .tc main_arg6) = W9 m ρ c (Proc.devRef .tc main_arg6)).trans <|
  (StableHlo.after_of_writes_sub hostOps0_8 _ hostOps0_8_writes (by decide) : W9 m ρ c (Proc.devRef .tc main_arg6) = W8 m ρ c (Proc.devRef .tc main_arg6)).trans <|
  (StableHlo.after_of_writes_sub hostOps0_7 _ hostOps0_7_writes (by decide) : W8 m ρ c (Proc.devRef .tc main_arg6) = W7 m ρ c (Proc.devRef .tc main_arg6)).trans <|
  (StableHlo.after_of_writes_sub hostOps0_6 _ hostOps0_6_writes (by decide) : W7 m ρ c (Proc.devRef .tc main_arg6) = W6 m ρ c (Proc.devRef .tc main_arg6)).trans <|
  (StableHlo.after_of_writes_sub hostOps0_5 _ hostOps0_5_writes (by decide) : W6 m ρ c (Proc.devRef .tc main_arg6) = W5 m ρ c (Proc.devRef .tc main_arg6)).trans <|
  (StableHlo.after_of_writes_sub hostOps0_4 _ hostOps0_4_writes (by decide) : W5 m ρ c (Proc.devRef .tc main_arg6) = W4 m ρ c (Proc.devRef .tc main_arg6)).trans <|
  (StableHlo.after_of_writes_sub hostOps0_3 _ hostOps0_3_writes (by decide) : W4 m ρ c (Proc.devRef .tc main_arg6) = W3 m ρ c (Proc.devRef .tc main_arg6)).trans <|
  (StableHlo.after_of_writes_sub hostOps0_2 _ hostOps0_2_writes (by decide) : W3 m ρ c (Proc.devRef .tc main_arg6) = W2 m ρ c (Proc.devRef .tc main_arg6)).trans <|
  (StableHlo.after_of_writes_sub hostOps0_1 _ hostOps0_1_writes (by decide) : W2 m ρ c (Proc.devRef .tc main_arg6) = W1 m ρ c (Proc.devRef .tc main_arg6)).trans <|
  (StableHlo.after_of_writes_sub hostOps0 _ hostOps0_writes (by decide) : W1 m ρ c (Proc.devRef .tc main_arg6) = W0 m ρ c (Proc.devRef .tc main_arg6)).trans <| rfl

theorem kept_arg7 (c : Dev nD) : W22 m ρ c (Proc.devRef .tc main_arg7) = m ((c : Thread nD τ).loc main_arg7) :=
  (W22_of_ne m ρ c main_arg7 (by decide)).trans <|
  (StableHlo.after_of_writes_sub hostOps5 _ hostOps5_writes (by decide) : W21 m ρ c (Proc.devRef .tc main_arg7) = W20 m ρ c (Proc.devRef .tc main_arg7)).trans <|
  (W20_of_ne m ρ c main_arg7 (by decide)).trans <|
  (StableHlo.after_of_writes_sub hostOps4 _ hostOps4_writes (by decide) : W19 m ρ c (Proc.devRef .tc main_arg7) = W18 m ρ c (Proc.devRef .tc main_arg7)).trans <|
  (W18_of_ne m ρ c main_arg7 (by decide)).trans <|
  (StableHlo.after_of_writes_sub hostOps3 _ hostOps3_writes (by decide) : W17 m ρ c (Proc.devRef .tc main_arg7) = W16 m ρ c (Proc.devRef .tc main_arg7)).trans <|
  (W16_of_ne m ρ c main_arg7 (by decide)).trans <|
  (StableHlo.after_of_writes_sub hostOps2 _ hostOps2_writes (by decide) : W15 m ρ c (Proc.devRef .tc main_arg7) = W14 m ρ c (Proc.devRef .tc main_arg7)).trans <|
  (W14_of_ne m ρ c main_arg7 (by decide)).trans <|
  (StableHlo.after_of_writes_sub hostOps1 _ hostOps1_writes (by decide) : W13 m ρ c (Proc.devRef .tc main_arg7) = W12 m ρ c (Proc.devRef .tc main_arg7)).trans <|
  (W12_of_ne m ρ c main_arg7 (by decide)).trans <|
  (StableHlo.after_of_writes_sub hostOps0_10 _ hostOps0_10_writes (by decide) : W11 m ρ c (Proc.devRef .tc main_arg7) = W10 m ρ c (Proc.devRef .tc main_arg7)).trans <|
  (StableHlo.after_of_writes_sub hostOps0_9 _ hostOps0_9_writes (by decide) : W10 m ρ c (Proc.devRef .tc main_arg7) = W9 m ρ c (Proc.devRef .tc main_arg7)).trans <|
  (StableHlo.after_of_writes_sub hostOps0_8 _ hostOps0_8_writes (by decide) : W9 m ρ c (Proc.devRef .tc main_arg7) = W8 m ρ c (Proc.devRef .tc main_arg7)).trans <|
  (StableHlo.after_of_writes_sub hostOps0_7 _ hostOps0_7_writes (by decide) : W8 m ρ c (Proc.devRef .tc main_arg7) = W7 m ρ c (Proc.devRef .tc main_arg7)).trans <|
  (StableHlo.after_of_writes_sub hostOps0_6 _ hostOps0_6_writes (by decide) : W7 m ρ c (Proc.devRef .tc main_arg7) = W6 m ρ c (Proc.devRef .tc main_arg7)).trans <|
  (StableHlo.after_of_writes_sub hostOps0_5 _ hostOps0_5_writes (by decide) : W6 m ρ c (Proc.devRef .tc main_arg7) = W5 m ρ c (Proc.devRef .tc main_arg7)).trans <|
  (StableHlo.after_of_writes_sub hostOps0_4 _ hostOps0_4_writes (by decide) : W5 m ρ c (Proc.devRef .tc main_arg7) = W4 m ρ c (Proc.devRef .tc main_arg7)).trans <|
  (StableHlo.after_of_writes_sub hostOps0_3 _ hostOps0_3_writes (by decide) : W4 m ρ c (Proc.devRef .tc main_arg7) = W3 m ρ c (Proc.devRef .tc main_arg7)).trans <|
  (StableHlo.after_of_writes_sub hostOps0_2 _ hostOps0_2_writes (by decide) : W3 m ρ c (Proc.devRef .tc main_arg7) = W2 m ρ c (Proc.devRef .tc main_arg7)).trans <|
  (StableHlo.after_of_writes_sub hostOps0_1 _ hostOps0_1_writes (by decide) : W2 m ρ c (Proc.devRef .tc main_arg7) = W1 m ρ c (Proc.devRef .tc main_arg7)).trans <|
  (StableHlo.after_of_writes_sub hostOps0 _ hostOps0_writes (by decide) : W1 m ρ c (Proc.devRef .tc main_arg7) = W0 m ρ c (Proc.devRef .tc main_arg7)).trans <| rfl

theorem kept_arg8 (c : Dev nD) : W22 m ρ c (Proc.devRef .tc main_arg8) = m ((c : Thread nD τ).loc main_arg8) :=
  (W22_of_ne m ρ c main_arg8 (by decide)).trans <|
  (StableHlo.after_of_writes_sub hostOps5 _ hostOps5_writes (by decide) : W21 m ρ c (Proc.devRef .tc main_arg8) = W20 m ρ c (Proc.devRef .tc main_arg8)).trans <|
  (W20_of_ne m ρ c main_arg8 (by decide)).trans <|
  (StableHlo.after_of_writes_sub hostOps4 _ hostOps4_writes (by decide) : W19 m ρ c (Proc.devRef .tc main_arg8) = W18 m ρ c (Proc.devRef .tc main_arg8)).trans <|
  (W18_of_ne m ρ c main_arg8 (by decide)).trans <|
  (StableHlo.after_of_writes_sub hostOps3 _ hostOps3_writes (by decide) : W17 m ρ c (Proc.devRef .tc main_arg8) = W16 m ρ c (Proc.devRef .tc main_arg8)).trans <|
  (W16_of_ne m ρ c main_arg8 (by decide)).trans <|
  (StableHlo.after_of_writes_sub hostOps2 _ hostOps2_writes (by decide) : W15 m ρ c (Proc.devRef .tc main_arg8) = W14 m ρ c (Proc.devRef .tc main_arg8)).trans <|
  (W14_of_ne m ρ c main_arg8 (by decide)).trans <|
  (StableHlo.after_of_writes_sub hostOps1 _ hostOps1_writes (by decide) : W13 m ρ c (Proc.devRef .tc main_arg8) = W12 m ρ c (Proc.devRef .tc main_arg8)).trans <|
  (W12_of_ne m ρ c main_arg8 (by decide)).trans <|
  (StableHlo.after_of_writes_sub hostOps0_10 _ hostOps0_10_writes (by decide) : W11 m ρ c (Proc.devRef .tc main_arg8) = W10 m ρ c (Proc.devRef .tc main_arg8)).trans <|
  (StableHlo.after_of_writes_sub hostOps0_9 _ hostOps0_9_writes (by decide) : W10 m ρ c (Proc.devRef .tc main_arg8) = W9 m ρ c (Proc.devRef .tc main_arg8)).trans <|
  (StableHlo.after_of_writes_sub hostOps0_8 _ hostOps0_8_writes (by decide) : W9 m ρ c (Proc.devRef .tc main_arg8) = W8 m ρ c (Proc.devRef .tc main_arg8)).trans <|
  (StableHlo.after_of_writes_sub hostOps0_7 _ hostOps0_7_writes (by decide) : W8 m ρ c (Proc.devRef .tc main_arg8) = W7 m ρ c (Proc.devRef .tc main_arg8)).trans <|
  (StableHlo.after_of_writes_sub hostOps0_6 _ hostOps0_6_writes (by decide) : W7 m ρ c (Proc.devRef .tc main_arg8) = W6 m ρ c (Proc.devRef .tc main_arg8)).trans <|
  (StableHlo.after_of_writes_sub hostOps0_5 _ hostOps0_5_writes (by decide) : W6 m ρ c (Proc.devRef .tc main_arg8) = W5 m ρ c (Proc.devRef .tc main_arg8)).trans <|
  (StableHlo.after_of_writes_sub hostOps0_4 _ hostOps0_4_writes (by decide) : W5 m ρ c (Proc.devRef .tc main_arg8) = W4 m ρ c (Proc.devRef .tc main_arg8)).trans <|
  (StableHlo.after_of_writes_sub hostOps0_3 _ hostOps0_3_writes (by decide) : W4 m ρ c (Proc.devRef .tc main_arg8) = W3 m ρ c (Proc.devRef .tc main_arg8)).trans <|
  (StableHlo.after_of_writes_sub hostOps0_2 _ hostOps0_2_writes (by decide) : W3 m ρ c (Proc.devRef .tc main_arg8) = W2 m ρ c (Proc.devRef .tc main_arg8)).trans <|
  (StableHlo.after_of_writes_sub hostOps0_1 _ hostOps0_1_writes (by decide) : W2 m ρ c (Proc.devRef .tc main_arg8) = W1 m ρ c (Proc.devRef .tc main_arg8)).trans <|
  (StableHlo.after_of_writes_sub hostOps0 _ hostOps0_writes (by decide) : W1 m ρ c (Proc.devRef .tc main_arg8) = W0 m ρ c (Proc.devRef .tc main_arg8)).trans <| rfl

theorem kept_arg9 (c : Dev nD) : W22 m ρ c (Proc.devRef .tc main_arg9) = m ((c : Thread nD τ).loc main_arg9) :=
  (W22_of_ne m ρ c main_arg9 (by decide)).trans <|
  (StableHlo.after_of_writes_sub hostOps5 _ hostOps5_writes (by decide) : W21 m ρ c (Proc.devRef .tc main_arg9) = W20 m ρ c (Proc.devRef .tc main_arg9)).trans <|
  (W20_of_ne m ρ c main_arg9 (by decide)).trans <|
  (StableHlo.after_of_writes_sub hostOps4 _ hostOps4_writes (by decide) : W19 m ρ c (Proc.devRef .tc main_arg9) = W18 m ρ c (Proc.devRef .tc main_arg9)).trans <|
  (W18_of_ne m ρ c main_arg9 (by decide)).trans <|
  (StableHlo.after_of_writes_sub hostOps3 _ hostOps3_writes (by decide) : W17 m ρ c (Proc.devRef .tc main_arg9) = W16 m ρ c (Proc.devRef .tc main_arg9)).trans <|
  (W16_of_ne m ρ c main_arg9 (by decide)).trans <|
  (StableHlo.after_of_writes_sub hostOps2 _ hostOps2_writes (by decide) : W15 m ρ c (Proc.devRef .tc main_arg9) = W14 m ρ c (Proc.devRef .tc main_arg9)).trans <|
  (W14_of_ne m ρ c main_arg9 (by decide)).trans <|
  (StableHlo.after_of_writes_sub hostOps1 _ hostOps1_writes (by decide) : W13 m ρ c (Proc.devRef .tc main_arg9) = W12 m ρ c (Proc.devRef .tc main_arg9)).trans <|
  (W12_of_ne m ρ c main_arg9 (by decide)).trans <|
  (StableHlo.after_of_writes_sub hostOps0_10 _ hostOps0_10_writes (by decide) : W11 m ρ c (Proc.devRef .tc main_arg9) = W10 m ρ c (Proc.devRef .tc main_arg9)).trans <|
  (StableHlo.after_of_writes_sub hostOps0_9 _ hostOps0_9_writes (by decide) : W10 m ρ c (Proc.devRef .tc main_arg9) = W9 m ρ c (Proc.devRef .tc main_arg9)).trans <|
  (StableHlo.after_of_writes_sub hostOps0_8 _ hostOps0_8_writes (by decide) : W9 m ρ c (Proc.devRef .tc main_arg9) = W8 m ρ c (Proc.devRef .tc main_arg9)).trans <|
  (StableHlo.after_of_writes_sub hostOps0_7 _ hostOps0_7_writes (by decide) : W8 m ρ c (Proc.devRef .tc main_arg9) = W7 m ρ c (Proc.devRef .tc main_arg9)).trans <|
  (StableHlo.after_of_writes_sub hostOps0_6 _ hostOps0_6_writes (by decide) : W7 m ρ c (Proc.devRef .tc main_arg9) = W6 m ρ c (Proc.devRef .tc main_arg9)).trans <|
  (StableHlo.after_of_writes_sub hostOps0_5 _ hostOps0_5_writes (by decide) : W6 m ρ c (Proc.devRef .tc main_arg9) = W5 m ρ c (Proc.devRef .tc main_arg9)).trans <|
  (StableHlo.after_of_writes_sub hostOps0_4 _ hostOps0_4_writes (by decide) : W5 m ρ c (Proc.devRef .tc main_arg9) = W4 m ρ c (Proc.devRef .tc main_arg9)).trans <|
  (StableHlo.after_of_writes_sub hostOps0_3 _ hostOps0_3_writes (by decide) : W4 m ρ c (Proc.devRef .tc main_arg9) = W3 m ρ c (Proc.devRef .tc main_arg9)).trans <|
  (StableHlo.after_of_writes_sub hostOps0_2 _ hostOps0_2_writes (by decide) : W3 m ρ c (Proc.devRef .tc main_arg9) = W2 m ρ c (Proc.devRef .tc main_arg9)).trans <|
  (StableHlo.after_of_writes_sub hostOps0_1 _ hostOps0_1_writes (by decide) : W2 m ρ c (Proc.devRef .tc main_arg9) = W1 m ρ c (Proc.devRef .tc main_arg9)).trans <|
  (StableHlo.after_of_writes_sub hostOps0 _ hostOps0_writes (by decide) : W1 m ρ c (Proc.devRef .tc main_arg9) = W0 m ρ c (Proc.devRef .tc main_arg9)).trans <| rfl

theorem kept_arg10 (c : Dev nD) : W22 m ρ c (Proc.devRef .tc main_arg10) = m ((c : Thread nD τ).loc main_arg10) :=
  (W22_of_ne m ρ c main_arg10 (by decide)).trans <|
  (StableHlo.after_of_writes_sub hostOps5 _ hostOps5_writes (by decide) : W21 m ρ c (Proc.devRef .tc main_arg10) = W20 m ρ c (Proc.devRef .tc main_arg10)).trans <|
  (W20_of_ne m ρ c main_arg10 (by decide)).trans <|
  (StableHlo.after_of_writes_sub hostOps4 _ hostOps4_writes (by decide) : W19 m ρ c (Proc.devRef .tc main_arg10) = W18 m ρ c (Proc.devRef .tc main_arg10)).trans <|
  (W18_of_ne m ρ c main_arg10 (by decide)).trans <|
  (StableHlo.after_of_writes_sub hostOps3 _ hostOps3_writes (by decide) : W17 m ρ c (Proc.devRef .tc main_arg10) = W16 m ρ c (Proc.devRef .tc main_arg10)).trans <|
  (W16_of_ne m ρ c main_arg10 (by decide)).trans <|
  (StableHlo.after_of_writes_sub hostOps2 _ hostOps2_writes (by decide) : W15 m ρ c (Proc.devRef .tc main_arg10) = W14 m ρ c (Proc.devRef .tc main_arg10)).trans <|
  (W14_of_ne m ρ c main_arg10 (by decide)).trans <|
  (StableHlo.after_of_writes_sub hostOps1 _ hostOps1_writes (by decide) : W13 m ρ c (Proc.devRef .tc main_arg10) = W12 m ρ c (Proc.devRef .tc main_arg10)).trans <|
  (W12_of_ne m ρ c main_arg10 (by decide)).trans <|
  (StableHlo.after_of_writes_sub hostOps0_10 _ hostOps0_10_writes (by decide) : W11 m ρ c (Proc.devRef .tc main_arg10) = W10 m ρ c (Proc.devRef .tc main_arg10)).trans <|
  (StableHlo.after_of_writes_sub hostOps0_9 _ hostOps0_9_writes (by decide) : W10 m ρ c (Proc.devRef .tc main_arg10) = W9 m ρ c (Proc.devRef .tc main_arg10)).trans <|
  (StableHlo.after_of_writes_sub hostOps0_8 _ hostOps0_8_writes (by decide) : W9 m ρ c (Proc.devRef .tc main_arg10) = W8 m ρ c (Proc.devRef .tc main_arg10)).trans <|
  (StableHlo.after_of_writes_sub hostOps0_7 _ hostOps0_7_writes (by decide) : W8 m ρ c (Proc.devRef .tc main_arg10) = W7 m ρ c (Proc.devRef .tc main_arg10)).trans <|
  (StableHlo.after_of_writes_sub hostOps0_6 _ hostOps0_6_writes (by decide) : W7 m ρ c (Proc.devRef .tc main_arg10) = W6 m ρ c (Proc.devRef .tc main_arg10)).trans <|
  (StableHlo.after_of_writes_sub hostOps0_5 _ hostOps0_5_writes (by decide) : W6 m ρ c (Proc.devRef .tc main_arg10) = W5 m ρ c (Proc.devRef .tc main_arg10)).trans <|
  (StableHlo.after_of_writes_sub hostOps0_4 _ hostOps0_4_writes (by decide) : W5 m ρ c (Proc.devRef .tc main_arg10) = W4 m ρ c (Proc.devRef .tc main_arg10)).trans <|
  (StableHlo.after_of_writes_sub hostOps0_3 _ hostOps0_3_writes (by decide) : W4 m ρ c (Proc.devRef .tc main_arg10) = W3 m ρ c (Proc.devRef .tc main_arg10)).trans <|
  (StableHlo.after_of_writes_sub hostOps0_2 _ hostOps0_2_writes (by decide) : W3 m ρ c (Proc.devRef .tc main_arg10) = W2 m ρ c (Proc.devRef .tc main_arg10)).trans <|
  (StableHlo.after_of_writes_sub hostOps0_1 _ hostOps0_1_writes (by decide) : W2 m ρ c (Proc.devRef .tc main_arg10) = W1 m ρ c (Proc.devRef .tc main_arg10)).trans <|
  (StableHlo.after_of_writes_sub hostOps0 _ hostOps0_writes (by decide) : W1 m ρ c (Proc.devRef .tc main_arg10) = W0 m ρ c (Proc.devRef .tc main_arg10)).trans <| rfl

theorem kept_arg11 (c : Dev nD) : W22 m ρ c (Proc.devRef .tc main_arg11) = m ((c : Thread nD τ).loc main_arg11) :=
  (W22_of_ne m ρ c main_arg11 (by decide)).trans <|
  (StableHlo.after_of_writes_sub hostOps5 _ hostOps5_writes (by decide) : W21 m ρ c (Proc.devRef .tc main_arg11) = W20 m ρ c (Proc.devRef .tc main_arg11)).trans <|
  (W20_of_ne m ρ c main_arg11 (by decide)).trans <|
  (StableHlo.after_of_writes_sub hostOps4 _ hostOps4_writes (by decide) : W19 m ρ c (Proc.devRef .tc main_arg11) = W18 m ρ c (Proc.devRef .tc main_arg11)).trans <|
  (W18_of_ne m ρ c main_arg11 (by decide)).trans <|
  (StableHlo.after_of_writes_sub hostOps3 _ hostOps3_writes (by decide) : W17 m ρ c (Proc.devRef .tc main_arg11) = W16 m ρ c (Proc.devRef .tc main_arg11)).trans <|
  (W16_of_ne m ρ c main_arg11 (by decide)).trans <|
  (StableHlo.after_of_writes_sub hostOps2 _ hostOps2_writes (by decide) : W15 m ρ c (Proc.devRef .tc main_arg11) = W14 m ρ c (Proc.devRef .tc main_arg11)).trans <|
  (W14_of_ne m ρ c main_arg11 (by decide)).trans <|
  (StableHlo.after_of_writes_sub hostOps1 _ hostOps1_writes (by decide) : W13 m ρ c (Proc.devRef .tc main_arg11) = W12 m ρ c (Proc.devRef .tc main_arg11)).trans <|
  (W12_of_ne m ρ c main_arg11 (by decide)).trans <|
  (StableHlo.after_of_writes_sub hostOps0_10 _ hostOps0_10_writes (by decide) : W11 m ρ c (Proc.devRef .tc main_arg11) = W10 m ρ c (Proc.devRef .tc main_arg11)).trans <|
  (StableHlo.after_of_writes_sub hostOps0_9 _ hostOps0_9_writes (by decide) : W10 m ρ c (Proc.devRef .tc main_arg11) = W9 m ρ c (Proc.devRef .tc main_arg11)).trans <|
  (StableHlo.after_of_writes_sub hostOps0_8 _ hostOps0_8_writes (by decide) : W9 m ρ c (Proc.devRef .tc main_arg11) = W8 m ρ c (Proc.devRef .tc main_arg11)).trans <|
  (StableHlo.after_of_writes_sub hostOps0_7 _ hostOps0_7_writes (by decide) : W8 m ρ c (Proc.devRef .tc main_arg11) = W7 m ρ c (Proc.devRef .tc main_arg11)).trans <|
  (StableHlo.after_of_writes_sub hostOps0_6 _ hostOps0_6_writes (by decide) : W7 m ρ c (Proc.devRef .tc main_arg11) = W6 m ρ c (Proc.devRef .tc main_arg11)).trans <|
  (StableHlo.after_of_writes_sub hostOps0_5 _ hostOps0_5_writes (by decide) : W6 m ρ c (Proc.devRef .tc main_arg11) = W5 m ρ c (Proc.devRef .tc main_arg11)).trans <|
  (StableHlo.after_of_writes_sub hostOps0_4 _ hostOps0_4_writes (by decide) : W5 m ρ c (Proc.devRef .tc main_arg11) = W4 m ρ c (Proc.devRef .tc main_arg11)).trans <|
  (StableHlo.after_of_writes_sub hostOps0_3 _ hostOps0_3_writes (by decide) : W4 m ρ c (Proc.devRef .tc main_arg11) = W3 m ρ c (Proc.devRef .tc main_arg11)).trans <|
  (StableHlo.after_of_writes_sub hostOps0_2 _ hostOps0_2_writes (by decide) : W3 m ρ c (Proc.devRef .tc main_arg11) = W2 m ρ c (Proc.devRef .tc main_arg11)).trans <|
  (StableHlo.after_of_writes_sub hostOps0_1 _ hostOps0_1_writes (by decide) : W2 m ρ c (Proc.devRef .tc main_arg11) = W1 m ρ c (Proc.devRef .tc main_arg11)).trans <|
  (StableHlo.after_of_writes_sub hostOps0 _ hostOps0_writes (by decide) : W1 m ρ c (Proc.devRef .tc main_arg11) = W0 m ρ c (Proc.devRef .tc main_arg11)).trans <| rfl

theorem kept_arg12 (c : Dev nD) : W22 m ρ c (Proc.devRef .tc main_arg12) = m ((c : Thread nD τ).loc main_arg12) :=
  (W22_of_ne m ρ c main_arg12 (by decide)).trans <|
  (StableHlo.after_of_writes_sub hostOps5 _ hostOps5_writes (by decide) : W21 m ρ c (Proc.devRef .tc main_arg12) = W20 m ρ c (Proc.devRef .tc main_arg12)).trans <|
  (W20_of_ne m ρ c main_arg12 (by decide)).trans <|
  (StableHlo.after_of_writes_sub hostOps4 _ hostOps4_writes (by decide) : W19 m ρ c (Proc.devRef .tc main_arg12) = W18 m ρ c (Proc.devRef .tc main_arg12)).trans <|
  (W18_of_ne m ρ c main_arg12 (by decide)).trans <|
  (StableHlo.after_of_writes_sub hostOps3 _ hostOps3_writes (by decide) : W17 m ρ c (Proc.devRef .tc main_arg12) = W16 m ρ c (Proc.devRef .tc main_arg12)).trans <|
  (W16_of_ne m ρ c main_arg12 (by decide)).trans <|
  (StableHlo.after_of_writes_sub hostOps2 _ hostOps2_writes (by decide) : W15 m ρ c (Proc.devRef .tc main_arg12) = W14 m ρ c (Proc.devRef .tc main_arg12)).trans <|
  (W14_of_ne m ρ c main_arg12 (by decide)).trans <|
  (StableHlo.after_of_writes_sub hostOps1 _ hostOps1_writes (by decide) : W13 m ρ c (Proc.devRef .tc main_arg12) = W12 m ρ c (Proc.devRef .tc main_arg12)).trans <|
  (W12_of_ne m ρ c main_arg12 (by decide)).trans <|
  (StableHlo.after_of_writes_sub hostOps0_10 _ hostOps0_10_writes (by decide) : W11 m ρ c (Proc.devRef .tc main_arg12) = W10 m ρ c (Proc.devRef .tc main_arg12)).trans <|
  (StableHlo.after_of_writes_sub hostOps0_9 _ hostOps0_9_writes (by decide) : W10 m ρ c (Proc.devRef .tc main_arg12) = W9 m ρ c (Proc.devRef .tc main_arg12)).trans <|
  (StableHlo.after_of_writes_sub hostOps0_8 _ hostOps0_8_writes (by decide) : W9 m ρ c (Proc.devRef .tc main_arg12) = W8 m ρ c (Proc.devRef .tc main_arg12)).trans <|
  (StableHlo.after_of_writes_sub hostOps0_7 _ hostOps0_7_writes (by decide) : W8 m ρ c (Proc.devRef .tc main_arg12) = W7 m ρ c (Proc.devRef .tc main_arg12)).trans <|
  (StableHlo.after_of_writes_sub hostOps0_6 _ hostOps0_6_writes (by decide) : W7 m ρ c (Proc.devRef .tc main_arg12) = W6 m ρ c (Proc.devRef .tc main_arg12)).trans <|
  (StableHlo.after_of_writes_sub hostOps0_5 _ hostOps0_5_writes (by decide) : W6 m ρ c (Proc.devRef .tc main_arg12) = W5 m ρ c (Proc.devRef .tc main_arg12)).trans <|
  (StableHlo.after_of_writes_sub hostOps0_4 _ hostOps0_4_writes (by decide) : W5 m ρ c (Proc.devRef .tc main_arg12) = W4 m ρ c (Proc.devRef .tc main_arg12)).trans <|
  (StableHlo.after_of_writes_sub hostOps0_3 _ hostOps0_3_writes (by decide) : W4 m ρ c (Proc.devRef .tc main_arg12) = W3 m ρ c (Proc.devRef .tc main_arg12)).trans <|
  (StableHlo.after_of_writes_sub hostOps0_2 _ hostOps0_2_writes (by decide) : W3 m ρ c (Proc.devRef .tc main_arg12) = W2 m ρ c (Proc.devRef .tc main_arg12)).trans <|
  (StableHlo.after_of_writes_sub hostOps0_1 _ hostOps0_1_writes (by decide) : W2 m ρ c (Proc.devRef .tc main_arg12) = W1 m ρ c (Proc.devRef .tc main_arg12)).trans <|
  (StableHlo.after_of_writes_sub hostOps0 _ hostOps0_writes (by decide) : W1 m ρ c (Proc.devRef .tc main_arg12) = W0 m ρ c (Proc.devRef .tc main_arg12)).trans <| rfl

theorem kept_arg13 (c : Dev nD) : W22 m ρ c (Proc.devRef .tc main_arg13) = m ((c : Thread nD τ).loc main_arg13) :=
  (W22_of_ne m ρ c main_arg13 (by decide)).trans <|
  (StableHlo.after_of_writes_sub hostOps5 _ hostOps5_writes (by decide) : W21 m ρ c (Proc.devRef .tc main_arg13) = W20 m ρ c (Proc.devRef .tc main_arg13)).trans <|
  (W20_of_ne m ρ c main_arg13 (by decide)).trans <|
  (StableHlo.after_of_writes_sub hostOps4 _ hostOps4_writes (by decide) : W19 m ρ c (Proc.devRef .tc main_arg13) = W18 m ρ c (Proc.devRef .tc main_arg13)).trans <|
  (W18_of_ne m ρ c main_arg13 (by decide)).trans <|
  (StableHlo.after_of_writes_sub hostOps3 _ hostOps3_writes (by decide) : W17 m ρ c (Proc.devRef .tc main_arg13) = W16 m ρ c (Proc.devRef .tc main_arg13)).trans <|
  (W16_of_ne m ρ c main_arg13 (by decide)).trans <|
  (StableHlo.after_of_writes_sub hostOps2 _ hostOps2_writes (by decide) : W15 m ρ c (Proc.devRef .tc main_arg13) = W14 m ρ c (Proc.devRef .tc main_arg13)).trans <|
  (W14_of_ne m ρ c main_arg13 (by decide)).trans <|
  (StableHlo.after_of_writes_sub hostOps1 _ hostOps1_writes (by decide) : W13 m ρ c (Proc.devRef .tc main_arg13) = W12 m ρ c (Proc.devRef .tc main_arg13)).trans <|
  (W12_of_ne m ρ c main_arg13 (by decide)).trans <|
  (StableHlo.after_of_writes_sub hostOps0_10 _ hostOps0_10_writes (by decide) : W11 m ρ c (Proc.devRef .tc main_arg13) = W10 m ρ c (Proc.devRef .tc main_arg13)).trans <|
  (StableHlo.after_of_writes_sub hostOps0_9 _ hostOps0_9_writes (by decide) : W10 m ρ c (Proc.devRef .tc main_arg13) = W9 m ρ c (Proc.devRef .tc main_arg13)).trans <|
  (StableHlo.after_of_writes_sub hostOps0_8 _ hostOps0_8_writes (by decide) : W9 m ρ c (Proc.devRef .tc main_arg13) = W8 m ρ c (Proc.devRef .tc main_arg13)).trans <|
  (StableHlo.after_of_writes_sub hostOps0_7 _ hostOps0_7_writes (by decide) : W8 m ρ c (Proc.devRef .tc main_arg13) = W7 m ρ c (Proc.devRef .tc main_arg13)).trans <|
  (StableHlo.after_of_writes_sub hostOps0_6 _ hostOps0_6_writes (by decide) : W7 m ρ c (Proc.devRef .tc main_arg13) = W6 m ρ c (Proc.devRef .tc main_arg13)).trans <|
  (StableHlo.after_of_writes_sub hostOps0_5 _ hostOps0_5_writes (by decide) : W6 m ρ c (Proc.devRef .tc main_arg13) = W5 m ρ c (Proc.devRef .tc main_arg13)).trans <|
  (StableHlo.after_of_writes_sub hostOps0_4 _ hostOps0_4_writes (by decide) : W5 m ρ c (Proc.devRef .tc main_arg13) = W4 m ρ c (Proc.devRef .tc main_arg13)).trans <|
  (StableHlo.after_of_writes_sub hostOps0_3 _ hostOps0_3_writes (by decide) : W4 m ρ c (Proc.devRef .tc main_arg13) = W3 m ρ c (Proc.devRef .tc main_arg13)).trans <|
  (StableHlo.after_of_writes_sub hostOps0_2 _ hostOps0_2_writes (by decide) : W3 m ρ c (Proc.devRef .tc main_arg13) = W2 m ρ c (Proc.devRef .tc main_arg13)).trans <|
  (StableHlo.after_of_writes_sub hostOps0_1 _ hostOps0_1_writes (by decide) : W2 m ρ c (Proc.devRef .tc main_arg13) = W1 m ρ c (Proc.devRef .tc main_arg13)).trans <|
  (StableHlo.after_of_writes_sub hostOps0 _ hostOps0_writes (by decide) : W1 m ρ c (Proc.devRef .tc main_arg13) = W0 m ρ c (Proc.devRef .tc main_arg13)).trans <| rfl

theorem kept_arg14 (c : Dev nD) : W22 m ρ c (Proc.devRef .tc main_arg14) = m ((c : Thread nD τ).loc main_arg14) :=
  (W22_of_ne m ρ c main_arg14 (by decide)).trans <|
  (StableHlo.after_of_writes_sub hostOps5 _ hostOps5_writes (by decide) : W21 m ρ c (Proc.devRef .tc main_arg14) = W20 m ρ c (Proc.devRef .tc main_arg14)).trans <|
  (W20_of_ne m ρ c main_arg14 (by decide)).trans <|
  (StableHlo.after_of_writes_sub hostOps4 _ hostOps4_writes (by decide) : W19 m ρ c (Proc.devRef .tc main_arg14) = W18 m ρ c (Proc.devRef .tc main_arg14)).trans <|
  (W18_of_ne m ρ c main_arg14 (by decide)).trans <|
  (StableHlo.after_of_writes_sub hostOps3 _ hostOps3_writes (by decide) : W17 m ρ c (Proc.devRef .tc main_arg14) = W16 m ρ c (Proc.devRef .tc main_arg14)).trans <|
  (W16_of_ne m ρ c main_arg14 (by decide)).trans <|
  (StableHlo.after_of_writes_sub hostOps2 _ hostOps2_writes (by decide) : W15 m ρ c (Proc.devRef .tc main_arg14) = W14 m ρ c (Proc.devRef .tc main_arg14)).trans <|
  (W14_of_ne m ρ c main_arg14 (by decide)).trans <|
  (StableHlo.after_of_writes_sub hostOps1 _ hostOps1_writes (by decide) : W13 m ρ c (Proc.devRef .tc main_arg14) = W12 m ρ c (Proc.devRef .tc main_arg14)).trans <|
  (W12_of_ne m ρ c main_arg14 (by decide)).trans <|
  (StableHlo.after_of_writes_sub hostOps0_10 _ hostOps0_10_writes (by decide) : W11 m ρ c (Proc.devRef .tc main_arg14) = W10 m ρ c (Proc.devRef .tc main_arg14)).trans <|
  (StableHlo.after_of_writes_sub hostOps0_9 _ hostOps0_9_writes (by decide) : W10 m ρ c (Proc.devRef .tc main_arg14) = W9 m ρ c (Proc.devRef .tc main_arg14)).trans <|
  (StableHlo.after_of_writes_sub hostOps0_8 _ hostOps0_8_writes (by decide) : W9 m ρ c (Proc.devRef .tc main_arg14) = W8 m ρ c (Proc.devRef .tc main_arg14)).trans <|
  (StableHlo.after_of_writes_sub hostOps0_7 _ hostOps0_7_writes (by decide) : W8 m ρ c (Proc.devRef .tc main_arg14) = W7 m ρ c (Proc.devRef .tc main_arg14)).trans <|
  (StableHlo.after_of_writes_sub hostOps0_6 _ hostOps0_6_writes (by decide) : W7 m ρ c (Proc.devRef .tc main_arg14) = W6 m ρ c (Proc.devRef .tc main_arg14)).trans <|
  (StableHlo.after_of_writes_sub hostOps0_5 _ hostOps0_5_writes (by decide) : W6 m ρ c (Proc.devRef .tc main_arg14) = W5 m ρ c (Proc.devRef .tc main_arg14)).trans <|
  (StableHlo.after_of_writes_sub hostOps0_4 _ hostOps0_4_writes (by decide) : W5 m ρ c (Proc.devRef .tc main_arg14) = W4 m ρ c (Proc.devRef .tc main_arg14)).trans <|
  (StableHlo.after_of_writes_sub hostOps0_3 _ hostOps0_3_writes (by decide) : W4 m ρ c (Proc.devRef .tc main_arg14) = W3 m ρ c (Proc.devRef .tc main_arg14)).trans <|
  (StableHlo.after_of_writes_sub hostOps0_2 _ hostOps0_2_writes (by decide) : W3 m ρ c (Proc.devRef .tc main_arg14) = W2 m ρ c (Proc.devRef .tc main_arg14)).trans <|
  (StableHlo.after_of_writes_sub hostOps0_1 _ hostOps0_1_writes (by decide) : W2 m ρ c (Proc.devRef .tc main_arg14) = W1 m ρ c (Proc.devRef .tc main_arg14)).trans <|
  (StableHlo.after_of_writes_sub hostOps0 _ hostOps0_writes (by decide) : W1 m ρ c (Proc.devRef .tc main_arg14) = W0 m ρ c (Proc.devRef .tc main_arg14)).trans <| rfl

theorem kept_arg15 (c : Dev nD) : W22 m ρ c (Proc.devRef .tc main_arg15) = m ((c : Thread nD τ).loc main_arg15) :=
  (W22_of_ne m ρ c main_arg15 (by decide)).trans <|
  (StableHlo.after_of_writes_sub hostOps5 _ hostOps5_writes (by decide) : W21 m ρ c (Proc.devRef .tc main_arg15) = W20 m ρ c (Proc.devRef .tc main_arg15)).trans <|
  (W20_of_ne m ρ c main_arg15 (by decide)).trans <|
  (StableHlo.after_of_writes_sub hostOps4 _ hostOps4_writes (by decide) : W19 m ρ c (Proc.devRef .tc main_arg15) = W18 m ρ c (Proc.devRef .tc main_arg15)).trans <|
  (W18_of_ne m ρ c main_arg15 (by decide)).trans <|
  (StableHlo.after_of_writes_sub hostOps3 _ hostOps3_writes (by decide) : W17 m ρ c (Proc.devRef .tc main_arg15) = W16 m ρ c (Proc.devRef .tc main_arg15)).trans <|
  (W16_of_ne m ρ c main_arg15 (by decide)).trans <|
  (StableHlo.after_of_writes_sub hostOps2 _ hostOps2_writes (by decide) : W15 m ρ c (Proc.devRef .tc main_arg15) = W14 m ρ c (Proc.devRef .tc main_arg15)).trans <|
  (W14_of_ne m ρ c main_arg15 (by decide)).trans <|
  (StableHlo.after_of_writes_sub hostOps1 _ hostOps1_writes (by decide) : W13 m ρ c (Proc.devRef .tc main_arg15) = W12 m ρ c (Proc.devRef .tc main_arg15)).trans <|
  (W12_of_ne m ρ c main_arg15 (by decide)).trans <|
  (StableHlo.after_of_writes_sub hostOps0_10 _ hostOps0_10_writes (by decide) : W11 m ρ c (Proc.devRef .tc main_arg15) = W10 m ρ c (Proc.devRef .tc main_arg15)).trans <|
  (StableHlo.after_of_writes_sub hostOps0_9 _ hostOps0_9_writes (by decide) : W10 m ρ c (Proc.devRef .tc main_arg15) = W9 m ρ c (Proc.devRef .tc main_arg15)).trans <|
  (StableHlo.after_of_writes_sub hostOps0_8 _ hostOps0_8_writes (by decide) : W9 m ρ c (Proc.devRef .tc main_arg15) = W8 m ρ c (Proc.devRef .tc main_arg15)).trans <|
  (StableHlo.after_of_writes_sub hostOps0_7 _ hostOps0_7_writes (by decide) : W8 m ρ c (Proc.devRef .tc main_arg15) = W7 m ρ c (Proc.devRef .tc main_arg15)).trans <|
  (StableHlo.after_of_writes_sub hostOps0_6 _ hostOps0_6_writes (by decide) : W7 m ρ c (Proc.devRef .tc main_arg15) = W6 m ρ c (Proc.devRef .tc main_arg15)).trans <|
  (StableHlo.after_of_writes_sub hostOps0_5 _ hostOps0_5_writes (by decide) : W6 m ρ c (Proc.devRef .tc main_arg15) = W5 m ρ c (Proc.devRef .tc main_arg15)).trans <|
  (StableHlo.after_of_writes_sub hostOps0_4 _ hostOps0_4_writes (by decide) : W5 m ρ c (Proc.devRef .tc main_arg15) = W4 m ρ c (Proc.devRef .tc main_arg15)).trans <|
  (StableHlo.after_of_writes_sub hostOps0_3 _ hostOps0_3_writes (by decide) : W4 m ρ c (Proc.devRef .tc main_arg15) = W3 m ρ c (Proc.devRef .tc main_arg15)).trans <|
  (StableHlo.after_of_writes_sub hostOps0_2 _ hostOps0_2_writes (by decide) : W3 m ρ c (Proc.devRef .tc main_arg15) = W2 m ρ c (Proc.devRef .tc main_arg15)).trans <|
  (StableHlo.after_of_writes_sub hostOps0_1 _ hostOps0_1_writes (by decide) : W2 m ρ c (Proc.devRef .tc main_arg15) = W1 m ρ c (Proc.devRef .tc main_arg15)).trans <|
  (StableHlo.after_of_writes_sub hostOps0 _ hostOps0_writes (by decide) : W1 m ρ c (Proc.devRef .tc main_arg15) = W0 m ρ c (Proc.devRef .tc main_arg15)).trans <| rfl

/-- The frame: every weakly fair execution terminates and the sixteen arguments end as launched. -/
theorem frameAll : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (in_unscoped main_arg0 (by decide))).trans (kept_arg0 m ρ c),
     (h c _ (in_unscoped main_arg1 (by decide))).trans (kept_arg1 m ρ c),
     (h c _ (in_unscoped main_arg2 (by decide))).trans (kept_arg2 m ρ c),
     (h c _ (in_unscoped main_arg3 (by decide))).trans (kept_arg3 m ρ c),
     (h c _ (in_unscoped main_arg4 (by decide))).trans (kept_arg4 m ρ c),
     (h c _ (in_unscoped main_arg5 (by decide))).trans (kept_arg5 m ρ c),
     (h c _ (in_unscoped main_arg6 (by decide))).trans (kept_arg6 m ρ c),
     (h c _ (in_unscoped main_arg7 (by decide))).trans (kept_arg7 m ρ c),
     (h c _ (in_unscoped main_arg8 (by decide))).trans (kept_arg8 m ρ c),
     (h c _ (in_unscoped main_arg9 (by decide))).trans (kept_arg9 m ρ c),
     (h c _ (in_unscoped main_arg10 (by decide))).trans (kept_arg10 m ρ c),
     (h c _ (in_unscoped main_arg11 (by decide))).trans (kept_arg11 m ρ c),
     (h c _ (in_unscoped main_arg12 (by decide))).trans (kept_arg12 m ρ c),
     (h c _ (in_unscoped main_arg13 (by decide))).trans (kept_arg13 m ρ c),
     (h c _ (in_unscoped main_arg14 (by decide))).trans (kept_arg14 m ρ c),
     (h c _ (in_unscoped main_arg15 (by decide))).trans (kept_arg15 m ρ c)⟩)
    (runAll m ρ)

end Cert.Kernel.Hand

end
-- ==== Proof.Layer0SharedIdeal.lean ====
/-
  The first layer's region: at each of 16 grid points (2 halves of the batch × 8 blocks of 2048 rows) the body
  forms h = sign(x − ½) · sign(W)ᵀ for its block of rows, stores it, and adds the column sums of h and of h² into
  two one-row scratch buffers that are cleared at the first block of a half and copied out (eight identical rows)
  at the last block of a half. Here: the two branch conditions in closed form over the grid, where the two
  statistics windows are idle, the names of the buffers the body is called with, and the region's untouched rest
  with the two scratch rows split out.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "This is the first block of its half": the inner grid coordinate is 0. -/
abbrev l0First (i : grid0.Coords) : Prop :=
  (Scalar.cmpi .ne (Scalar.extui (Scalar.cmpi .eq (BitVec.ofNat 32 (i 1).val) 0#32)) 0#32) = 1#1
theorem l0First_iff : ∀ t : Fin cfg0.N, l0First (grid0.coords t) ↔ t.val % 8 = 0 :=
  (by decide +kernel : ∀ t : Fin grid0.N, l0First (grid0.coords t) ↔ t.val % 8 = 0)

/-- "This is the last block of its half": the inner grid coordinate is 7. -/
abbrev l0Last (i : grid0.Coords) : Prop := k0_cond2 i = 1#1
theorem l0Last_iff : ∀ t : Fin cfg0.N, l0Last (grid0.coords t) ↔ t.val % 8 = 7 :=
  (by decide +kernel : ∀ t : Fin grid0.N, l0Last (grid0.coords t) ↔ t.val % 8 = 7)

/-! ## Where the windows are idle -/

theorem l0Live0 : ∀ t : Fin cfg0.N, cfg0.idle 0 (grid0.coords t) = false := by decide +kernel
theorem l0Live1 : ∀ t : Fin cfg0.N, cfg0.idle 1 (grid0.coords t) = false := by decide +kernel
theorem l0Live2 : ∀ t : Fin cfg0.N, cfg0.idle 2 (grid0.coords t) = false := by decide +kernel
/-- The two statistics windows are idle, and not written back, except at the last block of a half. -/
theorem l0Idle3 : ∀ t : Fin cfg0.N, ¬l0Last (grid0.coords t) → cfg0.idle 3 (grid0.coords t) = true := by decide +kernel
theorem l0NoFlush3 : ∀ t : Fin cfg0.N, ¬l0Last (grid0.coords t) → (cfg0.win 3).flush t = false := by decide +kernel
theorem l0Live3 : ∀ t : Fin cfg0.N, l0Last (grid0.coords t) → cfg0.idle 3 (grid0.coords t) = false := by decide +kernel
theorem l0Idle4 : ∀ t : Fin cfg0.N, ¬l0Last (grid0.coords t) → cfg0.idle 4 (grid0.coords t) = true := by decide +kernel
theorem l0NoFlush4 : ∀ t : Fin cfg0.N, ¬l0Last (grid0.coords t) → (cfg0.win 4).flush t = false := by decide +kernel
theorem l0Live4 : ∀ t : Fin cfg0.N, l0Last (grid0.coords t) → cfg0.idle 4 (grid0.coords t) = false := by decide +kernel

/-! ## The buffers the body is called with -/

abbrev l0m0 (t : Fin cfg0.N) : Memref sig .tc .vmem S2048x784 .f32 := win0_0.stage (cfg0.slots t 0)
abbrev l0h0 (t : Fin cfg0.N) : (l0m0 t).IsWhole := hstage0_0 ((cfg0.slots t 0).cast nbuf0_0)
abbrev l0m1 (t : Fin cfg0.N) : Memref sig .tc .vmem S256x784 .bf16 := win0_1.stage (cfg0.slots t 1)
abbrev l0h1 (t : Fin cfg0.N) : (l0m1 t).IsWhole := hstage0_1 ((cfg0.slots t 1).cast nbuf0_1)
abbrev l0m2 (t : Fin cfg0.N) : Memref sig .tc .vmem S2048x256 .f32 := win0_2.stage (cfg0.slots t 2)
abbrev l0h2 (t : Fin cfg0.N) : (l0m2 t).IsWhole := hstage0_2 ((cfg0.slots t 2).cast nbuf0_2)
abbrev l0m3 (t : Fin cfg0.N) : Memref sig .tc .vmem S8x256 .f32 := win0_3.stage (cfg0.slots t 3)
abbrev l0h3 (t : Fin cfg0.N) : (l0m3 t).IsWhole := hstage0_3 ((cfg0.slots t 3).cast nbuf0_3)
abbrev l0m4 (t : Fin cfg0.N) : Memref sig .tc .vmem S8x256 .f32 := win0_4.stage (cfg0.slots t 4)
abbrev l0h4 (t : Fin cfg0.N) : (l0m4 t).IsWhole := hstage0_4 ((cfg0.slots t 4).cast nbuf0_4)
/-- The running column sums of h and of h²: one row each, the kernel's own. -/
abbrev l0Sum : Memref sig .tc .vmem S1x256 .f32 := Memref.whole cc0_scratch0
abbrev l0Sq : Memref sig .tc .vmem S1x256 .f32 := Memref.whole cc0_scratch1

/-- The region's untouched rest, with the two scratch rows owned at some contents each. -/
theorem l0Rest (c : Dev nD) :
    (Pipeline.ΦA spec0 c : sProp 𝕄)
      = iprop(iprop(iprop((∃ d, owns (c : Thread nD τ) l0Sum fullShare d) ∗ (∃ d, owns (c : Thread nD τ) l0Sq fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [l0Sum, l0Sq, owns_whole]; try rfl

end Cert.KernelIdeal.Hand

end
-- ==== Proof.Layer0FirstIdeal.lean ====
/-
  The first layer's body at the first block of a half (and not the last): the two scratch rows are cleared, then
  take the column sums of this block's h and h²; h is stored; the statistics windows are not touched.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer0SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l0RunFirst (c : Dev nD) (i : grid0.Coords) (a2 : Memref sig .tc .vmem S2048x784 .f32) (h2 : a2.IsWhole) (a3 : Memref sig .tc .vmem S256x784 .bf16) (h3 : a3.IsWhole) (a4 : Memref sig .tc .vmem S2048x256 .f32) (h4 : a4.IsWhole) (a5 : Memref sig .tc .vmem S8x256 .f32) (h5 : a5.IsWhole) (a6 : Memref sig .tc .vmem S8x256 .f32) (h6 : a6.IsWhole) (a7 : Memref sig .tc .vmem S1x256 .f32) (h7 : a7.IsWhole) (a8 : Memref sig .tc .vmem S1x256 .f32) (h8 : a8.IsWhole)
    (hF : l0First i) (hL : ¬l0Last i) (x0 : Vec F S2048x784 .f32) (x1 : Vec F S256x784 .bf16) :
    Σ' (LH : List (View.Piece (Elt F) S2048x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ (∃ d, owns (c : Thread nD τ) a4 fullShare d) ∗ owns (c : Thread nD τ) a5 fullShare y3 ∗ owns (c : Thread nD τ) a6 fullShare y4
            ∗ (∃ d, owns (c : Thread nD τ) a7 fullShare d) ∗ (∃ d, owns (c : Thread nD τ) a8 fullShare d)
            ∗ (iprop(owns (c : Thread nD τ) a2 fullShare x0 ∗ owns (c : Thread nD τ) a3 fullShare x1 ∗ (∃ f, a4.view.loc (c : Thread nD τ) ↦[a4.view.set]{fullShare} a4.view.writes (Elt F) f LH) ∗ owns (c : Thread nD τ) a5 fullShare y3 ∗ owns (c : Thread nD τ) a6 fullShare y4
                ∗ (∃ f, a7.view.loc (c : Thread nD τ) ↦[a7.view.set]{fullShare} a7.view.writes (Elt F) f LS) ∗ (∃ f, a8.view.loc (c : Thread nD τ) ↦[a8.view.set]{fullShare} a8.view.writes (Elt F) f LQ)) -∗ K ⟨⟩))
          ⊢ wp frame (wpE (defs₀ (F := F)) Variants.none c none) E (cc0__matmul_stats_kernel_raw i a2 h2 a3 h3 a4 h4 a5 h5 a6 h6 a7 h7 a8 h8) K } := by
  refine ⟨?_, ?_, ?_, fun y3 y4 E K => ?run⟩
  case run =>
    simp only [cc0__matmul_stats_kernel_raw_eq_skeleton]; unfold cc0__matmul_stats_kernel_raw_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%dS, %fS, -, HS⟩, ⟨%dQ, %fQ, -, HQ⟩, Hk⟩
    obtain rfl := h2.eq_unread hf0; obtain rfl := h3.eq_unread hf1; obtain rfl := h5.eq_unread hf3; obtain rfl := h6.eq_unread hf4
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    isplitl [H3]
    · iexists _; isplitr; · ipureintro; exact h5.read_unread _
      iexact H3
    isplitl [H4]
    · iexists _; isplitr; · ipureintro; exact h6.read_unread _
      iexact H4
    isplitl [HS]; · iexists _; iexact HS
    iexists _; iexact HQ

end Cert.KernelIdeal.Hand

end
-- ==== Proof.Layer0MidIdeal.lean ====
/-
  The first layer's body at a block that is neither the first nor the last of its half: h is stored, and the two
  scratch rows, entering at what the block before left, each gain this block's column sums.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer0SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l0RunMid (c : Dev nD) (i : grid0.Coords) (a2 : Memref sig .tc .vmem S2048x784 .f32) (h2 : a2.IsWhole) (a3 : Memref sig .tc .vmem S256x784 .bf16) (h3 : a3.IsWhole) (a4 : Memref sig .tc .vmem S2048x256 .f32) (h4 : a4.IsWhole) (a5 : Memref sig .tc .vmem S8x256 .f32) (h5 : a5.IsWhole) (a6 : Memref sig .tc .vmem S8x256 .f32) (h6 : a6.IsWhole) (a7 : Memref sig .tc .vmem S1x256 .f32) (h7 : a7.IsWhole) (a8 : Memref sig .tc .vmem S1x256 .f32) (h8 : a8.IsWhole)
    (hF : ¬l0First i) (hL : ¬l0Last i) (x0 : Vec F S2048x784 .f32) (x1 : Vec F S256x784 .bf16) (s q : Vec F S1x256 .f32) :
    Σ' (LH : List (View.Piece (Elt F) S2048x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ (∃ d, owns (c : Thread nD τ) a4 fullShare d) ∗ owns (c : Thread nD τ) a5 fullShare y3 ∗ owns (c : Thread nD τ) a6 fullShare y4
            ∗ owns (c : Thread nD τ) a7 fullShare s ∗ owns (c : Thread nD τ) a8 fullShare q
            ∗ (iprop(owns (c : Thread nD τ) a2 fullShare x0 ∗ owns (c : Thread nD τ) a3 fullShare x1 ∗ (∃ f, a4.view.loc (c : Thread nD τ) ↦[a4.view.set]{fullShare} a4.view.writes (Elt F) f LH) ∗ owns (c : Thread nD τ) a5 fullShare y3 ∗ owns (c : Thread nD τ) a6 fullShare y4
                ∗ (∃ f, a7.view.loc (c : Thread nD τ) ↦[a7.view.set]{fullShare} a7.view.writes (Elt F) f LS) ∗ (∃ f, a8.view.loc (c : Thread nD τ) ↦[a8.view.set]{fullShare} a8.view.writes (Elt F) f LQ)) -∗ K ⟨⟩))
          ⊢ wp frame (wpE (defs₀ (F := F)) Variants.none c none) E (cc0__matmul_stats_kernel_raw i a2 h2 a3 h3 a4 h4 a5 h5 a6 h6 a7 h7 a8 h8) K } := by
  refine ⟨?_, ?_, ?_, fun y3 y4 E K => ?run⟩
  case run =>
    simp only [cc0__matmul_stats_kernel_raw_eq_skeleton]; unfold cc0__matmul_stats_kernel_raw_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%fS, %hfS, HS⟩, ⟨%fQ, %hfQ, HQ⟩, Hk⟩
    obtain rfl := h2.eq_unread hf0; obtain rfl := h3.eq_unread hf1; obtain rfl := h5.eq_unread hf3; obtain rfl := h6.eq_unread hf4
    obtain rfl := h7.eq_unread hfS; obtain rfl := h8.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    isplitl [H3]
    · iexists _; isplitr; · ipureintro; exact h5.read_unread _
      iexact H3
    isplitl [H4]
    · iexists _; isplitr; · ipureintro; exact h6.read_unread _
      iexact H4
    isplitl [HS]; · iexists _; iexact HS
    iexists _; iexact HQ

end Cert.KernelIdeal.Hand

end
-- ==== Proof.Layer0LastIdeal.lean ====
/-
  The first layer's body at the last block of a half: as at a middle block, and then each statistics buffer is
  filled with eight copies of the finished scratch row.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer0SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs come back as they were. -/
noncomputable def l0RunLast (c : Dev nD) (i : grid0.Coords) (a2 : Memref sig .tc .vmem S2048x784 .f32) (h2 : a2.IsWhole) (a3 : Memref sig .tc .vmem S256x784 .bf16) (h3 : a3.IsWhole) (a4 : Memref sig .tc .vmem S2048x256 .f32) (h4 : a4.IsWhole) (a5 : Memref sig .tc .vmem S8x256 .f32) (h5 : a5.IsWhole) (a6 : Memref sig .tc .vmem S8x256 .f32) (h6 : a6.IsWhole) (a7 : Memref sig .tc .vmem S1x256 .f32) (h7 : a7.IsWhole) (a8 : Memref sig .tc .vmem S1x256 .f32) (h8 : a8.IsWhole)
    (hF : ¬l0First i) (hL : l0Last i) (x0 : Vec F S2048x784 .f32) (x1 : Vec F S256x784 .bf16) (s q : Vec F S1x256 .f32) :
    Σ' (LH : List (View.Piece (Elt F) S2048x256 .f32)) (L3 L4 : List (View.Piece (Elt F) S8x256 .f32)) (LS : List (View.Piece (Elt F) S1x256 .f32)), { LQ : List (View.Piece (Elt F) S1x256 .f32) //
      ∀ (E : Set ℕ) (K : PUnit → sProp 𝕄),
        iprop(owns (c : Thread nD τ) a2 fullShare x0 ∗ owns (c : Thread nD τ) a3 fullShare x1 ∗ (∃ d, owns (c : Thread nD τ) a4 fullShare d) ∗ (∃ d, owns (c : Thread nD τ) a5 fullShare d) ∗ (∃ d, owns (c : Thread nD τ) a6 fullShare d)
            ∗ owns (c : Thread nD τ) a7 fullShare s ∗ owns (c : Thread nD τ) a8 fullShare q
            ∗ (iprop(owns (c : Thread nD τ) a2 fullShare x0 ∗ owns (c : Thread nD τ) a3 fullShare x1 ∗ (∃ f, a4.view.loc (c : Thread nD τ) ↦[a4.view.set]{fullShare} a4.view.writes (Elt F) f LH) ∗ (∃ f, a5.view.loc (c : Thread nD τ) ↦[a5.view.set]{fullShare} a5.view.writes (Elt F) f L3) ∗ (∃ f, a6.view.loc (c : Thread nD τ) ↦[a6.view.set]{fullShare} a6.view.writes (Elt F) f L4)
                ∗ (∃ f, a7.view.loc (c : Thread nD τ) ↦[a7.view.set]{fullShare} a7.view.writes (Elt F) f LS) ∗ (∃ f, a8.view.loc (c : Thread nD τ) ↦[a8.view.set]{fullShare} a8.view.writes (Elt F) f LQ)) -∗ K ⟨⟩))
          ⊢ wp frame (wpE (defs₀ (F := F)) Variants.none c none) E (cc0__matmul_stats_kernel_raw i a2 h2 a3 h3 a4 h4 a5 h5 a6 h6 a7 h7 a8 h8) K } := by
  refine ⟨?_, ?_, ?_, ?_, ?_, fun E K => ?run⟩
  case run =>
    simp only [cc0__matmul_stats_kernel_raw_eq_skeleton]; unfold cc0__matmul_stats_kernel_raw_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fS, %hfS, HS⟩, ⟨%fQ, %hfQ, HQ⟩, Hk⟩
    obtain rfl := h2.eq_unread hf0; obtain rfl := h3.eq_unread hf1
    obtain rfl := h7.eq_unread hfS; obtain rfl := h8.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]; · iexists _; iexact H2
    isplitl [H3]; · iexists _; iexact H3
    isplitl [H4]; · iexists _; iexact H4
    isplitl [HS]; · iexists _; iexact HS
    iexists _; iexact HQ

end Cert.KernelIdeal.Hand

end
-- ==== Proof.Layer0RegionIdeal.lean ====
/-
  The first layer's region as a whole: what each kind of grid point leaves in the buffers, the accumulation of
  the two scratch rows over the eight blocks of a half (by recursion on the position: a first block starts afresh,
  every other block adds to what the block before left), the invariant that carries the scratch rows from one
  point to the next, and the body's obligation at every point. Stated at a parameter V: the contents of the
  core's buffers when the region is entered.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer0FirstIdeal
import proofs.«126670_j49074296324140_2_alg».proof.Proof.Layer0MidIdeal
import proofs.«126670_j49074296324140_2_alg».proof.Proof.Layer0LastIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def l0Blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Fixed views through which a buffer's contents after a list of stores are stated (the choice of buffer does not
    matter: only its shape does). -/
abbrev l0VH : View sig .tc .vmem S2048x256 .f32 := (Memref.whole cc0_stg2_0 : Memref sig .tc .vmem S2048x256 .f32).view
abbrev l0V3 : View sig .tc .vmem S8x256 .f32 := (Memref.whole cc0_stg3_0 : Memref sig .tc .vmem S8x256 .f32).view
abbrev l0V4 : View sig .tc .vmem S8x256 .f32 := (Memref.whole cc0_stg4_0 : Memref sig .tc .vmem S8x256 .f32).view
abbrev l0VS : View sig .tc .vmem S1x256 .f32 := l0Sum.view
abbrev l0VQ : View sig .tc .vmem S1x256 .f32 := l0Sq.view

/-! ## The three kinds of point, at the buffers the pipeline passes -/

abbrev l0FirstAt (c : Dev nD) (t : Fin cfg0.N) (hF : l0First (grid0.coords t)) (hL : ¬l0Last (grid0.coords t)) (x0 : Vec F S2048x784 .f32) (x1 : Vec F S256x784 .bf16) :=
  l0RunFirst c (grid0.coords t) (l0m0 t) (l0h0 t) (l0m1 t) (l0h1 t) (l0m2 t) (l0h2 t) (l0m3 t) (l0h3 t) (l0m4 t) (l0h4 t) l0Sum (Memref.isWhole_whole _) l0Sq (Memref.isWhole_whole _) hF hL x0 x1
abbrev l0MidAt (c : Dev nD) (t : Fin cfg0.N) (hF : ¬l0First (grid0.coords t)) (hL : ¬l0Last (grid0.coords t)) (x0 : Vec F S2048x784 .f32) (x1 : Vec F S256x784 .bf16) (s q : Vec F S1x256 .f32) :=
  l0RunMid c (grid0.coords t) (l0m0 t) (l0h0 t) (l0m1 t) (l0h1 t) (l0m2 t) (l0h2 t) (l0m3 t) (l0h3 t) (l0m4 t) (l0h4 t) l0Sum (Memref.isWhole_whole _) l0Sq (Memref.isWhole_whole _) hF hL x0 x1 s q
abbrev l0LastAt (c : Dev nD) (t : Fin cfg0.N) (hF : ¬l0First (grid0.coords t)) (hL : l0Last (grid0.coords t)) (x0 : Vec F S2048x784 .f32) (x1 : Vec F S256x784 .bf16) (s q : Vec F S1x256 .f32) :=
  l0RunLast c (grid0.coords t) (l0m0 t) (l0h0 t) (l0m1 t) (l0h1 t) (l0m2 t) (l0h2 t) (l0m3 t) (l0h3 t) (l0m4 t) (l0h4 t) l0Sum (Memref.isWhole_whole _) l0Sq (Memref.isWhole_whole _) hF hL x0 x1 s q

/-! Every list of stores covers its buffer (each buffer's last store is of the whole buffer). -/
theorem l0CoverFirstH (c : Dev nD) (t : Fin cfg0.N) (hF : l0First (grid0.coords t)) (hL : ¬l0Last (grid0.coords t)) (x0 : Vec F S2048x784 .f32) (x1 : Vec F S256x784 .bf16) (y : S2048x256.Idx) :
    ∃ pc ∈ (l0FirstAt c t hF hL x0 x1).1, y ∈ pc.1.set :=
  View.cover_of_tiledL (l0FirstAt c t hF hL x0 x1).1 S2048x256.size (by sl_kernel_rfl) y
theorem l0CoverFirstS (c : Dev nD) (t : Fin cfg0.N) (hF : l0First (grid0.coords t)) (hL : ¬l0Last (grid0.coords t)) (x0 : Vec F S2048x784 .f32) (x1 : Vec F S256x784 .bf16) (y : S1x256.Idx) :
    ∃ pc ∈ (l0FirstAt c t hF hL x0 x1).2.1, y ∈ pc.1.set :=
  View.cover_of_tiledL (l0FirstAt c t hF hL x0 x1).2.1 S1x256.size (by sl_kernel_rfl) y
theorem l0CoverFirstQ (c : Dev nD) (t : Fin cfg0.N) (hF : l0First (grid0.coords t)) (hL : ¬l0Last (grid0.coords t)) (x0 : Vec F S2048x784 .f32) (x1 : Vec F S256x784 .bf16) (y : S1x256.Idx) :
    ∃ pc ∈ (l0FirstAt c t hF hL x0 x1).2.2.1, y ∈ pc.1.set :=
  View.cover_of_tiledL (l0FirstAt c t hF hL x0 x1).2.2.1 S1x256.size (by sl_kernel_rfl) y
theorem l0CoverMidH (c : Dev nD) (t : Fin cfg0.N) (hF : ¬l0First (grid0.coords t)) (hL : ¬l0Last (grid0.coords t)) (x0 : Vec F S2048x784 .f32) (x1 : Vec F S256x784 .bf16) (s q : Vec F S1x256 .f32) (y : S2048x256.Idx) :
    ∃ pc ∈ (l0MidAt c t hF hL x0 x1 s q).1, y ∈ pc.1.set :=
  View.cover_of_tiledL (l0MidAt c t hF hL x0 x1 s q).1 S2048x256.size (by sl_kernel_rfl) y
theorem l0CoverMidS (c : Dev nD) (t : Fin cfg0.N) (hF : ¬l0First (grid0.coords t)) (hL : ¬l0Last (grid0.coords t)) (x0 : Vec F S2048x784 .f32) (x1 : Vec F S256x784 .bf16) (s q : Vec F S1x256 .f32) (y : S1x256.Idx) :
    ∃ pc ∈ (l0MidAt c t hF hL x0 x1 s q).2.1, y ∈ pc.1.set :=
  View.cover_of_tiledL (l0MidAt c t hF hL x0 x1 s q).2.1 S1x256.size (by sl_kernel_rfl) y
theorem l0CoverMidQ (c : Dev nD) (t : Fin cfg0.N) (hF : ¬l0First (grid0.coords t)) (hL : ¬l0Last (grid0.coords t)) (x0 : Vec F S2048x784 .f32) (x1 : Vec F S256x784 .bf16) (s q : Vec F S1x256 .f32) (y : S1x256.Idx) :
    ∃ pc ∈ (l0MidAt c t hF hL x0 x1 s q).2.2.1, y ∈ pc.1.set :=
  View.cover_of_tiledL (l0MidAt c t hF hL x0 x1 s q).2.2.1 S1x256.size (by sl_kernel_rfl) y
theorem l0CoverLastH (c : Dev nD) (t : Fin cfg0.N) (hF : ¬l0First (grid0.coords t)) (hL : l0Last (grid0.coords t)) (x0 : Vec F S2048x784 .f32) (x1 : Vec F S256x784 .bf16) (s q : Vec F S1x256 .f32) (y : S2048x256.Idx) :
    ∃ pc ∈ (l0LastAt c t hF hL x0 x1 s q).1, y ∈ pc.1.set :=
  View.cover_of_tiledL (l0LastAt c t hF hL x0 x1 s q).1 S2048x256.size (by sl_kernel_rfl) y
theorem l0CoverLast3 (c : Dev nD) (t : Fin cfg0.N) (hF : ¬l0First (grid0.coords t)) (hL : l0Last (grid0.coords t)) (x0 : Vec F S2048x784 .f32) (x1 : Vec F S256x784 .bf16) (s q : Vec F S1x256 .f32) (y : S8x256.Idx) :
    ∃ pc ∈ (l0LastAt c t hF hL x0 x1 s q).2.1, y ∈ pc.1.set :=
  View.cover_of_tiledL (l0LastAt c t hF hL x0 x1 s q).2.1 S8x256.size (by sl_kernel_rfl) y
theorem l0CoverLast4 (c : Dev nD) (t : Fin cfg0.N) (hF : ¬l0First (grid0.coords t)) (hL : l0Last (grid0.coords t)) (x0 : Vec F S2048x784 .f32) (x1 : Vec F S256x784 .bf16) (s q : Vec F S1x256 .f32) (y : S8x256.Idx) :
    ∃ pc ∈ (l0LastAt c t hF hL x0 x1 s q).2.2.1, y ∈ pc.1.set :=
  View.cover_of_tiledL (l0LastAt c t hF hL x0 x1 s q).2.2.1 S8x256.size (by sl_kernel_rfl) y
theorem l0CoverLastS (c : Dev nD) (t : Fin cfg0.N) (hF : ¬l0First (grid0.coords t)) (hL : l0Last (grid0.coords t)) (x0 : Vec F S2048x784 .f32) (x1 : Vec F S256x784 .bf16) (s q : Vec F S1x256 .f32) (y : S1x256.Idx) :
    ∃ pc ∈ (l0LastAt c t hF hL x0 x1 s q).2.2.2.1, y ∈ pc.1.set :=
  View.cover_of_tiledL (l0LastAt c t hF hL x0 x1 s q).2.2.2.1 S1x256.size (by sl_kernel_rfl) y
theorem l0CoverLastQ (c : Dev nD) (t : Fin cfg0.N) (hF : ¬l0First (grid0.coords t)) (hL : l0Last (grid0.coords t)) (x0 : Vec F S2048x784 .f32) (x1 : Vec F S256x784 .bf16) (s q : Vec F S1x256 .f32) (y : S1x256.Idx) :
    ∃ pc ∈ (l0LastAt c t hF hL x0 x1 s q).2.2.2.2.1, y ∈ pc.1.set :=
  View.cover_of_tiledL (l0LastAt c t hF hL x0 x1 s q).2.2.2.2.1 S1x256.size (by sl_kernel_rfl) y

/-- What a point of each kind leaves: (h's buffer, the two statistics buffers, the two scratch rows). At a point that
    does not store into the statistics buffers their entries are placeholders nothing reads. -/
def l0LeftFirst (c : Dev nD) (t : Fin cfg0.N) (hF : l0First (grid0.coords t)) (hL : ¬l0Last (grid0.coords t)) (x0 : Vec F S2048x784 .f32) (x1 : Vec F S256x784 .bf16) : Vec F S2048x256 .f32 × Vec F S8x256 .f32 × Vec F S8x256 .f32 × Vec F S1x256 .f32 × Vec F S1x256 .f32 :=
  (l0VH.read (Elt F) (l0VH.writes (Elt F) l0VH.junk (l0FirstAt c t hF hL x0 x1).1), l0V3.read (Elt F) l0V3.junk, l0V4.read (Elt F) l0V4.junk,
   l0VS.read (Elt F) (l0VS.writes (Elt F) l0VS.junk (l0FirstAt c t hF hL x0 x1).2.1), l0VQ.read (Elt F) (l0VQ.writes (Elt F) l0VQ.junk (l0FirstAt c t hF hL x0 x1).2.2.1))
def l0LeftMid (c : Dev nD) (t : Fin cfg0.N) (hF : ¬l0First (grid0.coords t)) (hL : ¬l0Last (grid0.coords t)) (x0 : Vec F S2048x784 .f32) (x1 : Vec F S256x784 .bf16) (s q : Vec F S1x256 .f32) : Vec F S2048x256 .f32 × Vec F S8x256 .f32 × Vec F S8x256 .f32 × Vec F S1x256 .f32 × Vec F S1x256 .f32 :=
  (l0VH.read (Elt F) (l0VH.writes (Elt F) l0VH.junk (l0MidAt c t hF hL x0 x1 s q).1), l0V3.read (Elt F) l0V3.junk, l0V4.read (Elt F) l0V4.junk,
   l0VS.read (Elt F) (l0VS.writes (Elt F) l0VS.junk (l0MidAt c t hF hL x0 x1 s q).2.1), l0VQ.read (Elt F) (l0VQ.writes (Elt F) l0VQ.junk (l0MidAt c t hF hL x0 x1 s q).2.2.1))
def l0LeftLast (c : Dev nD) (t : Fin cfg0.N) (hF : ¬l0First (grid0.coords t)) (hL : l0Last (grid0.coords t)) (x0 : Vec F S2048x784 .f32) (x1 : Vec F S256x784 .bf16) (s q : Vec F S1x256 .f32) : Vec F S2048x256 .f32 × Vec F S8x256 .f32 × Vec F S8x256 .f32 × Vec F S1x256 .f32 × Vec F S1x256 .f32 :=
  (l0VH.read (Elt F) (l0VH.writes (Elt F) l0VH.junk (l0LastAt c t hF hL x0 x1 s q).1), l0V3.read (Elt F) (l0V3.writes (Elt F) l0V3.junk (l0LastAt c t hF hL x0 x1 s q).2.1), l0V4.read (Elt F) (l0V4.writes (Elt F) l0V4.junk (l0LastAt c t hF hL x0 x1 s q).2.2.1),
   l0VS.read (Elt F) (l0VS.writes (Elt F) l0VS.junk (l0LastAt c t hF hL x0 x1 s q).2.2.2.1), l0VQ.read (Elt F) (l0VQ.writes (Elt F) l0VQ.junk (l0LastAt c t hF hL x0 x1 s q).2.2.2.2.1))

theorem l0notLast (t : Fin cfg0.N) (h0 : t.val % 8 = 0) : ¬l0Last (grid0.coords t) :=
  fun h => by have h' := (l0Last_iff t).mp h; omega
theorem l0notFirst (t : Fin cfg0.N) (h0 : ¬t.val % 8 = 0) : ¬l0First (grid0.coords t) :=
  fun h => h0 ((l0First_iff t).mp h)
theorem l0notLast' (t : Fin cfg0.N) (h7 : ¬t.val % 8 = 7) : ¬l0Last (grid0.coords t) :=
  fun h => h7 ((l0Last_iff t).mp h)

/-! ## The accumulation -/

/-- What the buffers hold after the body at position n, by recursion on the position: a first block starts the scratch
    rows afresh; every other block continues from what the block before left in them. -/
def l0At (c : Dev nD) : (n : ℕ) → n < cfg0.N → Vec F S2048x256 .f32 × Vec F S8x256 .f32 × Vec F S8x256 .f32 × Vec F S1x256 .f32 × Vec F S1x256 .f32
  | 0, hn => l0LeftFirst c ⟨0, hn⟩ ((l0First_iff ⟨0, hn⟩).mpr (Nat.zero_mod _)) (l0notLast ⟨0, hn⟩ (Nat.zero_mod _)) (l0Blk V c 0 ⟨0, hn⟩) (l0Blk V c 1 ⟨0, hn⟩)
  | n + 1, hn =>
    if h0 : (n + 1) % 8 = 0 then
      l0LeftFirst c ⟨n + 1, hn⟩ ((l0First_iff ⟨n + 1, hn⟩).mpr h0) (l0notLast ⟨n + 1, hn⟩ h0) (l0Blk V c 0 ⟨n + 1, hn⟩) (l0Blk V c 1 ⟨n + 1, hn⟩)
    else if h7 : (n + 1) % 8 = 7 then
      l0LeftLast c ⟨n + 1, hn⟩ (l0notFirst ⟨n + 1, hn⟩ h0) ((l0Last_iff ⟨n + 1, hn⟩).mpr h7) (l0Blk V c 0 ⟨n + 1, hn⟩) (l0Blk V c 1 ⟨n + 1, hn⟩)
        (l0At c n (Nat.lt_of_succ_lt hn)).2.2.2.1 (l0At c n (Nat.lt_of_succ_lt hn)).2.2.2.2
    else
      l0LeftMid c ⟨n + 1, hn⟩ (l0notFirst ⟨n + 1, hn⟩ h0) (l0notLast' ⟨n + 1, hn⟩ h7) (l0Blk V c 0 ⟨n + 1, hn⟩) (l0Blk V c 1 ⟨n + 1, hn⟩)
        (l0At c n (Nat.lt_of_succ_lt hn)).2.2.2.1 (l0At c n (Nat.lt_of_succ_lt hn)).2.2.2.2

theorem l0At_first (c : Dev nD) (t : Fin cfg0.N) (h0 : t.val % 8 = 0) :
    l0At V c t.val t.isLt = l0LeftFirst c t ((l0First_iff t).mpr h0) (l0notLast t h0) (l0Blk V c 0 t) (l0Blk V c 1 t) := by
  obtain ⟨n, hn⟩ := t
  cases n with
  | zero => exact rfl
  | succ n => exact (dif_pos h0).trans rfl

theorem l0At_last (c : Dev nD) (t : Fin cfg0.N) (h0 : ¬t.val % 8 = 0) (h7 : t.val % 8 = 7) :
    l0At V c t.val t.isLt = l0LeftLast c t (l0notFirst t h0) ((l0Last_iff t).mpr h7) (l0Blk V c 0 t) (l0Blk V c 1 t)
      (l0At V c (t.val - 1) (Nat.lt_of_le_of_lt (Nat.sub_le _ _) t.isLt)).2.2.2.1 (l0At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h7).trans rfl)

theorem l0At_mid (c : Dev nD) (t : Fin cfg0.N) (h0 : ¬t.val % 8 = 0) (h7 : ¬t.val % 8 = 7) :
    l0At V c t.val t.isLt = l0LeftMid c t (l0notFirst t h0) (l0notLast' t h7) (l0Blk V c 0 t) (l0Blk V c 1 t)
      (l0At V c (t.val - 1) (Nat.lt_of_le_of_lt (Nat.sub_le _ _) t.isLt)).2.2.2.1 (l0At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h7).trans rfl)

/-! ## The invariant between points -/

/-- Before the first point the region's rest as the launch hands it over; afterwards the same with the two scratch rows
    at what the point before left in them. -/
def l0Phi (c : Dev nD) : (n : ℕ) → n ≤ cfg0.N → sProp 𝕄
  | 0, _ => Pipeline.ΦA spec0 c
  | n + 1, hn => iprop(iprop(iprop(owns (c : Thread nD τ) l0Sum fullShare (l0At V c n hn).2.2.2.1 ∗ owns (c : Thread nD τ) l0Sq fullShare (l0At V c n hn).2.2.2.2)
      ∗ Pipeline.scopedRestBut (Ix := Unit) (Name := ℕ) (U := UR sig nD τ) (Lvl := ℕ) (Val := Elt F) spec0 c [cc0_scratch0, cc0_scratch1]) ∗ (∃ r, prngReg c r))

theorem l0Phi_zero (c : Dev nD) (n : ℕ) (h : n ≤ cfg0.N) (hz : n = 0) : l0Phi V c n h = Pipeline.ΦA spec0 c := by
  subst hz; rfl
theorem l0Phi_succ (c : Dev nD) (n : ℕ) (hn : n < cfg0.N) :
    l0Phi V c (n + 1) hn = iprop(iprop(iprop(owns (c : Thread nD τ) l0Sum fullShare (l0At V c n hn).2.2.2.1 ∗ owns (c : Thread nD τ) l0Sq fullShare (l0At V c n hn).2.2.2.2)
      ∗ Pipeline.scopedRestBut (Ix := Unit) (Name := ℕ) (U := UR sig nD τ) (Lvl := ℕ) (Val := Elt F) spec0 c [cc0_scratch0, cc0_scratch1]) ∗ (∃ r, prngReg c r)) := rfl
theorem l0Phi_pos (c : Dev nD) (n : ℕ) (h : n ≤ cfg0.N) (hz : n ≠ 0) :
    l0Phi V c n h = iprop(iprop(iprop(owns (c : Thread nD τ) l0Sum fullShare (l0At V c (n - 1) (by omega)).2.2.2.1 ∗ owns (c : Thread nD τ) l0Sq fullShare (l0At V c (n - 1) (by omega)).2.2.2.2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The proof data of the region -/

def l0Dat (c : Dev nD) : Dat τ (Elt F) Unit ℕ (UR sig nD τ) ℕ cfg0 c where
  A w := V c (Pipeline.arrRef spec0 w)
  after w t := match w with
    | ⟨0, _⟩ => l0Blk V c 0 t
    | ⟨1, _⟩ => l0Blk V c 1 t
    | ⟨2, _⟩ => (l0At V c t.val t.isLt).1
    | ⟨3, _⟩ => (l0At V c t.val t.isLt).2.1
    | ⟨4, _⟩ => (l0At V c t.val t.isLt).2.2.1
  Φ t := l0Phi V c t.val (Nat.le_of_lt_succ t.isLt)
  q _ := fullShare
  owed _ := 0

theorem l0Dat_A (c : Dev nD) (w : Fin cfg0.W) : (l0Dat V c).A w = V c (Pipeline.arrRef spec0 w) := by
  dsimp only [l0Dat]
theorem l0Phi_castSucc (c : Dev nD) (t : Fin cfg0.N) :
    (l0Dat V c).Φ t.castSucc = l0Phi V c t.val (Nat.le_of_lt t.isLt) := by
  dsimp only [l0Dat]; simp only [Fin.coe_castSucc]
theorem l0After0 (c : Dev nD) (t : Fin cfg0.N) : (l0Dat V c).after 0 t = l0Blk V c 0 t := by dsimp only [l0Dat]
theorem l0After1 (c : Dev nD) (t : Fin cfg0.N) : (l0Dat V c).after 1 t = l0Blk V c 1 t := by dsimp only [l0Dat]
theorem l0After2 (c : Dev nD) (t : Fin cfg0.N) : (l0Dat V c).after 2 t = (l0At V c t.val t.isLt).1 := by dsimp only [l0Dat]
theorem l0After3 (c : Dev nD) (t : Fin cfg0.N) : (l0Dat V c).after 3 t = (l0At V c t.val t.isLt).2.1 := by dsimp only [l0Dat]
theorem l0After4 (c : Dev nD) (t : Fin cfg0.N) : (l0Dat V c).after 4 t = (l0At V c t.val t.isLt).2.2.1 := by dsimp only [l0Dat]

/-- An input's current buffer holds its block at every point, fetched there or not. -/
theorem l0Before0 (c : Dev nD) (t : Fin cfg0.N) (d) : (l0Dat V c).before 0 t d = l0Blk V c 0 t :=
  ((l0Dat V c).before_in_eq_fetched 0 rfl (fun _ => rfl) (fun _ _ _ => rfl)
    (fun t => by rw [l0After0]; unfold Dat.blockOf l0Blk; rw [l0Dat_A]; try rfl) t d).trans
    (by unfold Dat.fetched Dat.blockOf l0Blk; rw [l0Dat_A]; try rfl)
theorem l0Before1 (c : Dev nD) (t : Fin cfg0.N) (d) : (l0Dat V c).before 1 t d = l0Blk V c 1 t :=
  ((l0Dat V c).before_in_eq_fetched 1 rfl (fun _ => rfl) (fun _ _ _ => rfl)
    (fun t => by rw [l0After1]; unfold Dat.blockOf l0Blk; rw [l0Dat_A]; try rfl) t d).trans
    (by unfold Dat.fetched Dat.blockOf l0Blk; rw [l0Dat_A]; try rfl)

/-! ## The body obligation -/

def l0Pre (c : Dev nD) (t : Fin cfg0.N) : sProp 𝕄 :=
  iprop((l0Dat V c).Φ t.castSucc ∗ (l0Dat V c).owesAt () t.castSucc
    ∗ (∃ d, owns (c : Thread nD τ) (l0m0 t) fullShare ((l0Dat V c).before 0 t d))
    ∗ (∃ d, owns (c : Thread nD τ) (l0m1 t) fullShare ((l0Dat V c).before 1 t d))
    ∗ (∃ d, owns (c : Thread nD τ) (l0m2 t) fullShare ((l0Dat V c).before 2 t d))
    ∗ (∃ d, owns (c : Thread nD τ) (l0m3 t) fullShare ((l0Dat V c).before 3 t d))
    ∗ (∃ d, owns (c : Thread nD τ) (l0m4 t) fullShare ((l0Dat V c).before 4 t d)))

def l0Post (c : Dev nD) (t : Fin cfg0.N) : sProp 𝕄 :=
  iprop((l0Dat V c).Φ t.succ ∗ (l0Dat V c).owesAt () t.succ
    ∗ (l0Dat V c).leavesExact 0 t
    ∗ (l0Dat V c).leavesExact 1 t
    ∗ (l0Dat V c).leavesExact 2 t
    ∗ (l0Dat V c).leavesExact 3 t
    ∗ (l0Dat V c).leavesExact 4 t)

set_option maxHeartbeats 8000000 in
/-- The body at any point: which kind of point it is is read off the position; the invariant hands over the scratch
    rows (at anything before the very first point, else at what the point before left) and takes them back at this
    point's contents. -/
theorem l0Point (c : Dev nD) (t : Fin cfg0.N) :
    l0Pre V c t ⊢ wp frame (wpE (defs₀ (F := F)) Variants.none c none) Set.univ (bodyAt0 t) (fun _ => l0Post V c t) := by
  unfold l0Pre l0Post bodyAt0
  simp only [l0Before0, l0Before1]
  rw [show (l0Dat V c).owesAt () t.succ = (l0Dat V c).owesAt () t.castSucc from rfl]
  rw [show (l0Dat V c).Φ t.succ = l0Phi V c (t.val + 1) t.isLt from rfl, l0Phi_succ]
  have hN : t.val < 16 := lt_of_lt_of_eq t.isLt (show cfg0.N = 16 from N_0)
  rw [show (l0Dat V c).leavesExact 0 t = owns (c : Thread nD τ) (l0m0 t) fullShare ((l0Dat V c).after 0 t) from by
    unfold Dat.leavesExact; rw [l0Live0 t], l0After0]
  rw [show (l0Dat V c).leavesExact 1 t = owns (c : Thread nD τ) (l0m1 t) fullShare ((l0Dat V c).after 1 t) from by
    unfold Dat.leavesExact; rw [l0Live1 t], l0After1]
  rw [show (l0Dat V c).leavesExact 2 t = owns (c : Thread nD τ) (l0m2 t) fullShare ((l0Dat V c).after 2 t) from by
    unfold Dat.leavesExact; rw [l0Live2 t], l0After2]
  by_cases h0 : t.val % 8 = 0
  · have hF := (l0First_iff t).mpr h0
    have hL := l0notLast t h0
    rw [Dat.leavesExact_idle (l0Dat V c) 3 t (l0Idle3 t hL) (l0NoFlush3 t hL),
      Dat.leavesExact_idle (l0Dat V c) 4 t (l0Idle4 t hL) (l0NoFlush4 t hL)]
    rw [l0At_first V c t h0]
    unfold l0LeftFirst; (try dsimp only)
    by_cases hz : t.val = 0
    · rw [l0Phi_castSucc V c t, l0Phi_zero V c _ _ hz, l0Rest]
      iintro ⟨⟨⟨⟨HS, HQ⟩, Hrest⟩, Hg⟩, Ho, ⟨%d0, H0⟩, ⟨%d1, H1⟩, ⟨%dH, HH⟩, ⟨%dA, HA⟩, ⟨%dB, HB⟩⟩
      iapply ((l0FirstAt c t hF hL (l0Blk V c 0 t) (l0Blk V c 1 t)).2.2.2 _ _ Set.univ _)
      isplitl [H0]; · iexact H0
      isplitl [H1]; · iexact H1
      isplitl [HH]; · iexists _; iexact HH
      isplitl [HA]; · iexact HA
      isplitl [HB]; · iexact HB
      isplitl [HS]; · iexact HS
      isplitl [HQ]; · iexact HQ
      iintro ⟨H0, H1, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l0CoverFirstS c t hF hL _ _)
            unfold owns; iexists _; isplitr
            swap; · iexact HQ
            ipureintro; exact View.read_writes_of_cover _ _ _ _ _ (l0CoverFirstQ c t hF hL _ _)
          iexact Hrest
        iexact Hg
      isplitl [Ho]; · iexact Ho
      isplitl [H0]; · iexact H0
      isplitl [H1]; · iexact H1
      isplitl [HH]
      · unfold owns; iexists _; isplitr
        swap; · iexact HH
        ipureintro; exact View.read_writes_of_cover _ _ _ _ _ (l0CoverFirstH c t hF hL _ _)
      isplitl [HA]; · iexists _; iexact HA
      iexists _; iexact HB
    · rw [l0Phi_castSucc V c t, l0Phi_pos V c _ _ hz]
      iintro ⟨⟨⟨⟨HS, HQ⟩, Hrest⟩, Hg⟩, Ho, ⟨%d0, H0⟩, ⟨%d1, H1⟩, ⟨%dH, HH⟩, ⟨%dA, HA⟩, ⟨%dB, HB⟩⟩
      iapply ((l0FirstAt c t hF hL (l0Blk V c 0 t) (l0Blk V c 1 t)).2.2.2 _ _ Set.univ _)
      isplitl [H0]; · iexact H0
      isplitl [H1]; · iexact H1
      isplitl [HH]; · iexists _; iexact HH
      isplitl [HA]; · iexact HA
      isplitl [HB]; · iexact HB
      isplitl [HS]; · iexists _; iexact HS
      isplitl [HQ]; · iexists _; iexact HQ
      iintro ⟨H0, H1, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l0CoverFirstS c t hF hL _ _)
            unfold owns; iexists _; isplitr
            swap; · iexact HQ
            ipureintro; exact View.read_writes_of_cover _ _ _ _ _ (l0CoverFirstQ c t hF hL _ _)
          iexact Hrest
        iexact Hg
      isplitl [Ho]; · iexact Ho
      isplitl [H0]; · iexact H0
      isplitl [H1]; · iexact H1
      isplitl [HH]
      · unfold owns; iexists _; isplitr
        swap; · iexact HH
        ipureintro; exact View.read_writes_of_cover _ _ _ _ _ (l0CoverFirstH c t hF hL _ _)
      isplitl [HA]; · iexists _; iexact HA
      iexists _; iexact HB
  · have hF := l0notFirst t h0
    have hz : t.val ≠ 0 := fun e => h0 (by rw [e])
    by_cases h7 : t.val % 8 = 7
    · have hL := (l0Last_iff t).mpr h7
      rw [show (l0Dat V c).leavesExact 3 t = owns (c : Thread nD τ) (l0m3 t) fullShare ((l0Dat V c).after 3 t) from by
        unfold Dat.leavesExact; rw [l0Live3 t hL], l0After3]
      rw [show (l0Dat V c).leavesExact 4 t = owns (c : Thread nD τ) (l0m4 t) fullShare ((l0Dat V c).after 4 t) from by
        unfold Dat.leavesExact; rw [l0Live4 t hL], l0After4]
      rw [l0At_last V c t h0 h7]
      unfold l0LeftLast; (try dsimp only)
      rw [l0Phi_castSucc V c t, l0Phi_pos V c _ _ hz]
      iintro ⟨⟨⟨⟨HS, HQ⟩, Hrest⟩, Hg⟩, Ho, ⟨%d0, H0⟩, ⟨%d1, H1⟩, ⟨%dH, HH⟩, ⟨%dA, HA⟩, ⟨%dB, HB⟩⟩
      iapply ((l0LastAt c t hF hL (l0Blk V c 0 t) (l0Blk V c 1 t) _ _).2.2.2.2.2 Set.univ _)
      isplitl [H0]; · iexact H0
      isplitl [H1]; · iexact H1
      isplitl [HH]; · iexists _; iexact HH
      isplitl [HA]; · iexists _; iexact HA
      isplitl [HB]; · iexists _; iexact HB
      isplitl [HS]; · iexact HS
      isplitl [HQ]; · iexact HQ
      iintro ⟨H0, H1, ⟨%eH, HH⟩, ⟨%eA, HA⟩, ⟨%eB, HB⟩, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l0CoverLastS c t hF hL _ _ _ _)
            unfold owns; iexists _; isplitr
            swap; · iexact HQ
            ipureintro; exact View.read_writes_of_cover _ _ _ _ _ (l0CoverLastQ c t hF hL _ _ _ _)
          iexact Hrest
        iexact Hg
      isplitl [Ho]; · iexact Ho
      isplitl [H0]; · iexact H0
      isplitl [H1]; · iexact H1
      isplitl [HH]
      · unfold owns; iexists _; isplitr
        swap; · iexact HH
        ipureintro; exact View.read_writes_of_cover _ _ _ _ _ (l0CoverLastH c t hF hL _ _ _ _)
      isplitl [HA]
      · unfold owns; iexists _; isplitr
        swap; · iexact HA
        ipureintro; exact View.read_writes_of_cover _ _ _ _ _ (l0CoverLast3 c t hF hL _ _ _ _)
      unfold owns; iexists _; isplitr
      swap; · iexact HB
      ipureintro; exact View.read_writes_of_cover _ _ _ _ _ (l0CoverLast4 c t hF hL _ _ _ _)
    · have hL := l0notLast' t h7
      rw [Dat.leavesExact_idle (l0Dat V c) 3 t (l0Idle3 t hL) (l0NoFlush3 t hL),
        Dat.leavesExact_idle (l0Dat V c) 4 t (l0Idle4 t hL) (l0NoFlush4 t hL)]
      rw [l0At_mid V c t h0 h7]
      unfold l0LeftMid; (try dsimp only)
      rw [l0Phi_castSucc V c t, l0Phi_pos V c _ _ hz]
      iintro ⟨⟨⟨⟨HS, HQ⟩, Hrest⟩, Hg⟩, Ho, ⟨%d0, H0⟩, ⟨%d1, H1⟩, ⟨%dH, HH⟩, ⟨%dA, HA⟩, ⟨%dB, HB⟩⟩
      iapply ((l0MidAt c t hF hL (l0Blk V c 0 t) (l0Blk V c 1 t) _ _).2.2.2 _ _ Set.univ _)
      isplitl [H0]; · iexact H0
      isplitl [H1]; · iexact H1
      isplitl [HH]; · iexists _; iexact HH
      isplitl [HA]; · iexact HA
      isplitl [HB]; · iexact HB
      isplitl [HS]; · iexact HS
      isplitl [HQ]; · iexact HQ
      iintro ⟨H0, H1, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l0CoverMidS c t hF hL _ _ _ _)
            unfold owns; iexists _; isplitr
            swap; · iexact HQ
            ipureintro; exact View.read_writes_of_cover _ _ _ _ _ (l0CoverMidQ c t hF hL _ _ _ _)
          iexact Hrest
        iexact Hg
      isplitl [Ho]; · iexact Ho
      isplitl [H0]; · iexact H0
      isplitl [H1]; · iexact H1
      isplitl [HH]
      · unfold owns; iexists _; isplitr
        swap; · iexact HH
        ipureintro; exact View.read_writes_of_cover _ _ _ _ _ (l0CoverMidH c t hF hL _ _ _ _)
      isplitl [HA]; · iexists _; iexact HA
      iexists _; iexact HB

theorem l0Obligation (c : Dev nD) : BodyObligation (l0Dat (F := F) V c) (defs₀ (F := F)) Variants.none () Set.univ := fun t => by
  rw [bigSep_W0, bigSep_W0]
  exact l0Point V c t

/-- What the launch hands the region is the invariant before the first point; after any later point the invariant gives
    the region's rest back (what the scratch rows hold is forgotten). -/
theorem l0PhiIn (c : Dev nD) : Pipeline.ΦA spec0 c ⊢ (l0Dat V c).Φ 0 := by
  rw [show (l0Dat V c).Φ 0 = l0Phi V c 0 (Nat.zero_le _) from rfl, l0Phi_zero V c 0 _ rfl]
  try exact Idealize.SL.BI.Entails.refl _
theorem l0PhiOut (c : Dev nD) : (l0Dat V c).Φ (Fin.last cfg0.N) ⊢ Pipeline.ΦA spec0 c := by
  rw [show (l0Dat V c).Φ (Fin.last cfg0.N) = l0Phi V c (Fin.last cfg0.N).val (Nat.le_of_lt_succ (Fin.last cfg0.N).isLt) from rfl,
    l0Phi_pos V c _ _ (by rw [Fin.val_last]; have : cfg0.N = 16 := N_0; omega), l0Rest]
  iintro ⟨⟨⟨HS, HQ⟩, Hrest⟩, Hg⟩
  isplitl [HS HQ Hrest]
  · isplitl [HS HQ]
    · isplitl [HS]
      · iexists _; iexact HS
      iexists _; iexact HQ
    iexact Hrest
  iexact Hg

end Cert.KernelIdeal.Hand

end
-- ==== Proof.Layer1SharedIdeal.lean ====
/-
  The second layer's region: at each of 8 grid points (2 halves of the batch × 4 blocks of 4096 rows) the body
  forms z = h' · scale + shift from its block of the previous layer's h' and the two parameter rows, then
  h = sign(z) · sign(W)ᵀ, stores it, and adds the column sums of h and of h² into two one-row scratch buffers that
  are cleared at the first block of a half and copied out (eight identical rows) at the last block of a half.
  Here: the two branch conditions in closed form over the grid, where the two statistics windows are idle, the
  names of the buffers the body is called with, and the region's untouched rest with the two scratch rows split out.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "This is the first block of its half": the inner grid coordinate is 0. -/
abbrev l1First (i : grid1.Coords) : Prop :=
  (Scalar.cmpi .ne (Scalar.extui (Scalar.cmpi .eq (BitVec.ofNat 32 (i 1).val) 0#32)) 0#32) = 1#1
theorem l1First_iff : ∀ t : Fin cfg1.N, l1First (grid1.coords t) ↔ t.val % 4 = 0 :=
  (by decide +kernel : ∀ t : Fin grid1.N, l1First (grid1.coords t) ↔ t.val % 4 = 0)

/-- "This is the last block of its half": the inner grid coordinate is 3. -/
abbrev l1Last (i : grid1.Coords) : Prop := k1_cond2 i = 1#1
theorem l1Last_iff : ∀ t : Fin cfg1.N, l1Last (grid1.coords t) ↔ t.val % 4 = 3 :=
  (by decide +kernel : ∀ t : Fin grid1.N, l1Last (grid1.coords t) ↔ t.val % 4 = 3)

/-! ## Where the windows are idle -/

theorem l1Live0 : ∀ t : Fin cfg1.N, cfg1.idle 0 (grid1.coords t) = false := by decide +kernel
theorem l1Live1 : ∀ t : Fin cfg1.N, cfg1.idle 1 (grid1.coords t) = false := by decide +kernel
theorem l1Live2 : ∀ t : Fin cfg1.N, cfg1.idle 2 (grid1.coords t) = false := by decide +kernel
theorem l1Live3 : ∀ t : Fin cfg1.N, cfg1.idle 3 (grid1.coords t) = false := by decide +kernel
theorem l1Live4 : ∀ t : Fin cfg1.N, cfg1.idle 4 (grid1.coords t) = false := by decide +kernel
/-- The two statistics windows are idle, and not written back, except at the last block of a half. -/
theorem l1Idle5 : ∀ t : Fin cfg1.N, ¬l1Last (grid1.coords t) → cfg1.idle 5 (grid1.coords t) = true := by decide +kernel
theorem l1NoFlush5 : ∀ t : Fin cfg1.N, ¬l1Last (grid1.coords t) → (cfg1.win 5).flush t = false := by decide +kernel
theorem l1Live5 : ∀ t : Fin cfg1.N, l1Last (grid1.coords t) → cfg1.idle 5 (grid1.coords t) = false := by decide +kernel
theorem l1Idle6 : ∀ t : Fin cfg1.N, ¬l1Last (grid1.coords t) → cfg1.idle 6 (grid1.coords t) = true := by decide +kernel
theorem l1NoFlush6 : ∀ t : Fin cfg1.N, ¬l1Last (grid1.coords t) → (cfg1.win 6).flush t = false := by decide +kernel
theorem l1Live6 : ∀ t : Fin cfg1.N, l1Last (grid1.coords t) → cfg1.idle 6 (grid1.coords t) = false := by decide +kernel

/-! ## The buffers the body is called with -/

abbrev l1m0 (t : Fin cfg1.N) : Memref sig .tc .vmem S4096x256 .f32 := win1_0.stage (cfg1.slots t 0)
abbrev l1h0 (t : Fin cfg1.N) : (l1m0 t).IsWhole := hstage1_0 ((cfg1.slots t 0).cast nbuf1_0)
abbrev l1m1 (t : Fin cfg1.N) : Memref sig .tc .vmem S256x256 .bf16 := win1_1.stage (cfg1.slots t 1)
abbrev l1h1 (t : Fin cfg1.N) : (l1m1 t).IsWhole := hstage1_1 ((cfg1.slots t 1).cast nbuf1_1)
abbrev l1m2 (t : Fin cfg1.N) : Memref sig .tc .vmem S1x256 .f32 := win1_2.stage (cfg1.slots t 2)
abbrev l1h2 (t : Fin cfg1.N) : (l1m2 t).IsWhole := hstage1_2 ((cfg1.slots t 2).cast nbuf1_2)
abbrev l1m3 (t : Fin cfg1.N) : Memref sig .tc .vmem S1x256 .f32 := win1_3.stage (cfg1.slots t 3)
abbrev l1h3 (t : Fin cfg1.N) : (l1m3 t).IsWhole := hstage1_3 ((cfg1.slots t 3).cast nbuf1_3)
abbrev l1m4 (t : Fin cfg1.N) : Memref sig .tc .vmem S4096x256 .f32 := win1_4.stage (cfg1.slots t 4)
abbrev l1h4 (t : Fin cfg1.N) : (l1m4 t).IsWhole := hstage1_4 ((cfg1.slots t 4).cast nbuf1_4)
abbrev l1m5 (t : Fin cfg1.N) : Memref sig .tc .vmem S8x256 .f32 := win1_5.stage (cfg1.slots t 5)
abbrev l1h5 (t : Fin cfg1.N) : (l1m5 t).IsWhole := hstage1_5 ((cfg1.slots t 5).cast nbuf1_5)
abbrev l1m6 (t : Fin cfg1.N) : Memref sig .tc .vmem S8x256 .f32 := win1_6.stage (cfg1.slots t 6)
abbrev l1h6 (t : Fin cfg1.N) : (l1m6 t).IsWhole := hstage1_6 ((cfg1.slots t 6).cast nbuf1_6)
/-- The running column sums of h and of h²: one row each, the kernel's own. -/
abbrev l1Sum : Memref sig .tc .vmem S1x256 .f32 := Memref.whole cc1_scratch0
abbrev l1Sq : Memref sig .tc .vmem S1x256 .f32 := Memref.whole cc1_scratch1

/-- The region's untouched rest, with the two scratch rows owned at some contents each. -/
theorem l1Rest (c : Dev nD) :
    (Pipeline.ΦA spec1 c : sProp 𝕄)
      = iprop(iprop(iprop((∃ d, owns (c : Thread nD τ) l1Sum fullShare d) ∗ (∃ d, owns (c : Thread nD τ) l1Sq fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [l1Sum, l1Sq, owns_whole]; try rfl

end Cert.KernelIdeal.Hand

end
-- ==== Proof.Layer1FirstIdeal.lean ====
/-
  The second layer's body at the first block of a half (and not the last): the two scratch rows are cleared,
  then take the column sums of this block's h and h²; h is stored; the statistics windows are not touched.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer1SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l1RunFirst (c : Dev nD) (i : grid1.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : l1First i) (hL : ¬l1Last i) (x0 : Vec F S4096x256 .f32) (x1 : Vec F S256x256 .bf16) (x2 : Vec F S1x256 .f32) (x3 : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc1__matmul_stats_kernel_fused i a2 h2 a3 h3 a4 h4 a5 h5 a6 h6 a7 h7 a8 h8 a9 h9 a10 h10) K } := by
  refine ⟨?_, ?_, ?_, fun y3 y4 E K => ?run⟩
  case run =>
    simp only [cc1__matmul_stats_kernel_fused_eq_skeleton]; unfold cc1__matmul_stats_kernel_fused_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%dS, %fS, -, HS⟩, ⟨%dQ, %fQ, -, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.KernelIdeal.Hand

end
-- ==== Proof.Layer1MidIdeal.lean ====
/-
  The second layer's body at a block that is neither the first nor the last of its half: h is stored, and the
  two scratch rows, entering at what the block before left, each gain this block's column sums.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer1SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l1RunMid (c : Dev nD) (i : grid1.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l1First i) (hL : ¬l1Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc1__matmul_stats_kernel_fused i a2 h2 a3 h3 a4 h4 a5 h5 a6 h6 a7 h7 a8 h8 a9 h9 a10 h10) K } := by
  refine ⟨?_, ?_, ?_, fun y3 y4 E K => ?run⟩
  case run =>
    simp only [cc1__matmul_stats_kernel_fused_eq_skeleton]; unfold cc1__matmul_stats_kernel_fused_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.KernelIdeal.Hand

end
-- ==== Proof.Layer1LastIdeal.lean ====
/-
  The second layer's body at the last block of a half: as at a middle block, and then each statistics buffer is
  filled with eight copies of the finished scratch row.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer1SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs come back as they were. -/
noncomputable def l1RunLast (c : Dev nD) (i : grid1.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l1First i) (hL : l1Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (L3 L4 : List (View.Piece (Elt F) S8x256 .f32)) (LS : List (View.Piece (Elt F) S1x256 .f32)), { LQ : List (View.Piece (Elt F) S1x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d)
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ (∃ f, a7.view.loc (c : Thread nD τ) ↦[a7.view.set]{fullShare} a7.view.writes (Elt F) f L3) ∗ (∃ f, a8.view.loc (c : Thread nD τ) ↦[a8.view.set]{fullShare} a8.view.writes (Elt F) f L4)
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc1__matmul_stats_kernel_fused i a2 h2 a3 h3 a4 h4 a5 h5 a6 h6 a7 h7 a8 h8 a9 h9 a10 h10) K } := by
  refine ⟨?_, ?_, ?_, ?_, ?_, fun E K => ?run⟩
  case run =>
    simp only [cc1__matmul_stats_kernel_fused_eq_skeleton]; unfold cc1__matmul_stats_kernel_fused_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [HS]; · iexists _; iexact HS
    iexists _; iexact HQ

end Cert.KernelIdeal.Hand

end
-- ==== Proof.Layer1RegionIdeal.lean ====
/-
  The second layer's region as a whole: what each kind of grid point leaves in the buffers, the accumulation of
  the two scratch rows over the four blocks of a half (by recursion on the position: a first block starts afresh,
  every other block adds to what the block before left), the invariant that carries the scratch rows from one
  point to the next, and the body's obligation at every point. Stated at a parameter V: the contents of the
  core's buffers when the region is entered.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer1FirstIdeal
import proofs.«126670_j49074296324140_2_alg».proof.Proof.Layer1MidIdeal
import proofs.«126670_j49074296324140_2_alg».proof.Proof.Layer1LastIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def l1Blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Fixed views through which a buffer's contents after a list of stores are stated (the choice of buffer does not
    matter: only its shape does). -/
abbrev l1VH : View sig .tc .vmem S4096x256 .f32 := (Memref.whole cc1_stg4_0 : Memref sig .tc .vmem S4096x256 .f32).view
abbrev l1V3 : View sig .tc .vmem S8x256 .f32 := (Memref.whole cc1_stg5_0 : Memref sig .tc .vmem S8x256 .f32).view
abbrev l1V4 : View sig .tc .vmem S8x256 .f32 := (Memref.whole cc1_stg6_0 : Memref sig .tc .vmem S8x256 .f32).view
abbrev l1VS : View sig .tc .vmem S1x256 .f32 := l1Sum.view
abbrev l1VQ : View sig .tc .vmem S1x256 .f32 := l1Sq.view

/-! ## The three kinds of point, at the buffers the pipeline passes -/

abbrev l1FirstAt (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) :=
  l1RunFirst c (grid1.coords t) (l1m0 t) (l1h0 t) (l1m1 t) (l1h1 t) (l1m2 t) (l1h2 t) (l1m3 t) (l1h3 t) (l1m4 t) (l1h4 t) (l1m5 t) (l1h5 t) (l1m6 t) (l1h6 t) l1Sum (Memref.isWhole_whole _) l1Sq (Memref.isWhole_whole _) hF hL x0 x1 x2 x3
abbrev l1MidAt (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) :=
  l1RunMid c (grid1.coords t) (l1m0 t) (l1h0 t) (l1m1 t) (l1h1 t) (l1m2 t) (l1h2 t) (l1m3 t) (l1h3 t) (l1m4 t) (l1h4 t) (l1m5 t) (l1h5 t) (l1m6 t) (l1h6 t) l1Sum (Memref.isWhole_whole _) l1Sq (Memref.isWhole_whole _) hF hL x0 x1 x2 x3 s q
abbrev l1LastAt (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) :=
  l1RunLast c (grid1.coords t) (l1m0 t) (l1h0 t) (l1m1 t) (l1h1 t) (l1m2 t) (l1h2 t) (l1m3 t) (l1h3 t) (l1m4 t) (l1h4 t) (l1m5 t) (l1h5 t) (l1m6 t) (l1h6 t) l1Sum (Memref.isWhole_whole _) l1Sq (Memref.isWhole_whole _) hF hL x0 x1 x2 x3 s q

/-! Every list of stores covers its buffer (each buffer's last store is of the whole buffer). -/
theorem l1CoverFirstH (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) (y : S4096x256.Idx) :
    ∃ pc ∈ (l1FirstAt c t hF hL x0 x1 x2 x3).1, y ∈ pc.1.set :=
  View.cover_of_tiledL (l1FirstAt c t hF hL x0 x1 x2 x3).1 S4096x256.size (by sl_kernel_rfl) y
theorem l1CoverFirstS (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) (y : S1x256.Idx) :
    ∃ pc ∈ (l1FirstAt c t hF hL x0 x1 x2 x3).2.1, y ∈ pc.1.set :=
  View.cover_of_tiledL (l1FirstAt c t hF hL x0 x1 x2 x3).2.1 S1x256.size (by sl_kernel_rfl) y
theorem l1CoverFirstQ (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) (y : S1x256.Idx) :
    ∃ pc ∈ (l1FirstAt c t hF hL x0 x1 x2 x3).2.2.1, y ∈ pc.1.set :=
  View.cover_of_tiledL (l1FirstAt c t hF hL x0 x1 x2 x3).2.2.1 S1x256.size (by sl_kernel_rfl) y
theorem l1CoverMidH (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l1MidAt c t hF hL x0 x1 x2 x3 s q).1, y ∈ pc.1.set :=
  View.cover_of_tiledL (l1MidAt c t hF hL x0 x1 x2 x3 s q).1 S4096x256.size (by sl_kernel_rfl) y
theorem l1CoverMidS (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) (y : S1x256.Idx) :
    ∃ pc ∈ (l1MidAt c t hF hL x0 x1 x2 x3 s q).2.1, y ∈ pc.1.set :=
  View.cover_of_tiledL (l1MidAt c t hF hL x0 x1 x2 x3 s q).2.1 S1x256.size (by sl_kernel_rfl) y
theorem l1CoverMidQ (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) (y : S1x256.Idx) :
    ∃ pc ∈ (l1MidAt c t hF hL x0 x1 x2 x3 s q).2.2.1, y ∈ pc.1.set :=
  View.cover_of_tiledL (l1MidAt c t hF hL x0 x1 x2 x3 s q).2.2.1 S1x256.size (by sl_kernel_rfl) y
theorem l1CoverLastH (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l1LastAt c t hF hL x0 x1 x2 x3 s q).1, y ∈ pc.1.set :=
  View.cover_of_tiledL (l1LastAt c t hF hL x0 x1 x2 x3 s q).1 S4096x256.size (by sl_kernel_rfl) y
theorem l1CoverLast3 (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) (y : S8x256.Idx) :
    ∃ pc ∈ (l1LastAt c t hF hL x0 x1 x2 x3 s q).2.1, y ∈ pc.1.set :=
  View.cover_of_tiledL (l1LastAt c t hF hL x0 x1 x2 x3 s q).2.1 S8x256.size (by sl_kernel_rfl) y
theorem l1CoverLast4 (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) (y : S8x256.Idx) :
    ∃ pc ∈ (l1LastAt c t hF hL x0 x1 x2 x3 s q).2.2.1, y ∈ pc.1.set :=
  View.cover_of_tiledL (l1LastAt c t hF hL x0 x1 x2 x3 s q).2.2.1 S8x256.size (by sl_kernel_rfl) y
theorem l1CoverLastS (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) (y : S1x256.Idx) :
    ∃ pc ∈ (l1LastAt c t hF hL x0 x1 x2 x3 s q).2.2.2.1, y ∈ pc.1.set :=
  View.cover_of_tiledL (l1LastAt c t hF hL x0 x1 x2 x3 s q).2.2.2.1 S1x256.size (by sl_kernel_rfl) y
theorem l1CoverLastQ (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) (y : S1x256.Idx) :
    ∃ pc ∈ (l1LastAt c t hF hL x0 x1 x2 x3 s q).2.2.2.2.1, y ∈ pc.1.set :=
  View.cover_of_tiledL (l1LastAt c t hF hL x0 x1 x2 x3 s q).2.2.2.2.1 S1x256.size (by sl_kernel_rfl) y

/-- What a point of each kind leaves: (h's buffer, the two statistics buffers, the two scratch rows). At a point that
    does not store into the statistics buffers their entries are placeholders nothing reads. -/
def l1LeftFirst (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) : Vec F S4096x256 .f32 × Vec F S8x256 .f32 × Vec F S8x256 .f32 × Vec F S1x256 .f32 × Vec F S1x256 .f32 :=
  (l1VH.read (Elt F) (l1VH.writes (Elt F) l1VH.junk (l1FirstAt c t hF hL x0 x1 x2 x3).1), l1V3.read (Elt F) l1V3.junk, l1V4.read (Elt F) l1V4.junk,
   l1VS.read (Elt F) (l1VS.writes (Elt F) l1VS.junk (l1FirstAt c t hF hL x0 x1 x2 x3).2.1), l1VQ.read (Elt F) (l1VQ.writes (Elt F) l1VQ.junk (l1FirstAt c t hF hL x0 x1 x2 x3).2.2.1))
def l1LeftMid (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l1VH.read (Elt F) (l1VH.writes (Elt F) l1VH.junk (l1MidAt c t hF hL x0 x1 x2 x3 s q).1), l1V3.read (Elt F) l1V3.junk, l1V4.read (Elt F) l1V4.junk,
   l1VS.read (Elt F) (l1VS.writes (Elt F) l1VS.junk (l1MidAt c t hF hL x0 x1 x2 x3 s q).2.1), l1VQ.read (Elt F) (l1VQ.writes (Elt F) l1VQ.junk (l1MidAt c t hF hL x0 x1 x2 x3 s q).2.2.1))
def l1LeftLast (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l1VH.read (Elt F) (l1VH.writes (Elt F) l1VH.junk (l1LastAt c t hF hL x0 x1 x2 x3 s q).1), l1V3.read (Elt F) (l1V3.writes (Elt F) l1V3.junk (l1LastAt c t hF hL x0 x1 x2 x3 s q).2.1), l1V4.read (Elt F) (l1V4.writes (Elt F) l1V4.junk (l1LastAt c t hF hL x0 x1 x2 x3 s q).2.2.1),
   l1VS.read (Elt F) (l1VS.writes (Elt F) l1VS.junk (l1LastAt c t hF hL x0 x1 x2 x3 s q).2.2.2.1), l1VQ.read (Elt F) (l1VQ.writes (Elt F) l1VQ.junk (l1LastAt c t hF hL x0 x1 x2 x3 s q).2.2.2.2.1))

theorem l1notLast (t : Fin cfg1.N) (h0 : t.val % 4 = 0) : ¬l1Last (grid1.coords t) :=
  fun h => by have h' := (l1Last_iff t).mp h; omega
theorem l1notFirst (t : Fin cfg1.N) (h0 : ¬t.val % 4 = 0) : ¬l1First (grid1.coords t) :=
  fun h => h0 ((l1First_iff t).mp h)
theorem l1notLast' (t : Fin cfg1.N) (h7 : ¬t.val % 4 = 3) : ¬l1Last (grid1.coords t) :=
  fun h => h7 ((l1Last_iff t).mp h)

/-! ## The accumulation -/

/-- What the buffers hold after the body at position n, by recursion on the position: a first block starts the scratch
    rows afresh; every other block continues from what the block before left in them. -/
def l1At (c : Dev nD) : (n : ℕ) → n < cfg1.N → Vec F S4096x256 .f32 × Vec F S8x256 .f32 × Vec F S8x256 .f32 × Vec F S1x256 .f32 × Vec F S1x256 .f32
  | 0, hn => l1LeftFirst c ⟨0, hn⟩ ((l1First_iff ⟨0, hn⟩).mpr (Nat.zero_mod _)) (l1notLast ⟨0, hn⟩ (Nat.zero_mod _)) (l1Blk V c 0 ⟨0, hn⟩) (l1Blk V c 1 ⟨0, hn⟩) (l1Blk V c 2 ⟨0, hn⟩) (l1Blk V c 3 ⟨0, hn⟩)
  | n + 1, hn =>
    if h0 : (n + 1) % 4 = 0 then
      l1LeftFirst c ⟨n + 1, hn⟩ ((l1First_iff ⟨n + 1, hn⟩).mpr h0) (l1notLast ⟨n + 1, hn⟩ h0) (l1Blk V c 0 ⟨n + 1, hn⟩) (l1Blk V c 1 ⟨n + 1, hn⟩) (l1Blk V c 2 ⟨n + 1, hn⟩) (l1Blk V c 3 ⟨n + 1, hn⟩)
    else if h7 : (n + 1) % 4 = 3 then
      l1LeftLast c ⟨n + 1, hn⟩ (l1notFirst ⟨n + 1, hn⟩ h0) ((l1Last_iff ⟨n + 1, hn⟩).mpr h7) (l1Blk V c 0 ⟨n + 1, hn⟩) (l1Blk V c 1 ⟨n + 1, hn⟩) (l1Blk V c 2 ⟨n + 1, hn⟩) (l1Blk V c 3 ⟨n + 1, hn⟩)
        (l1At c n (Nat.lt_of_succ_lt hn)).2.2.2.1 (l1At c n (Nat.lt_of_succ_lt hn)).2.2.2.2
    else
      l1LeftMid c ⟨n + 1, hn⟩ (l1notFirst ⟨n + 1, hn⟩ h0) (l1notLast' ⟨n + 1, hn⟩ h7) (l1Blk V c 0 ⟨n + 1, hn⟩) (l1Blk V c 1 ⟨n + 1, hn⟩) (l1Blk V c 2 ⟨n + 1, hn⟩) (l1Blk V c 3 ⟨n + 1, hn⟩)
        (l1At c n (Nat.lt_of_succ_lt hn)).2.2.2.1 (l1At c n (Nat.lt_of_succ_lt hn)).2.2.2.2

theorem l1At_first (c : Dev nD) (t : Fin cfg1.N) (h0 : t.val % 4 = 0) :
    l1At V c t.val t.isLt = l1LeftFirst c t ((l1First_iff t).mpr h0) (l1notLast t h0) (l1Blk V c 0 t) (l1Blk V c 1 t) (l1Blk V c 2 t) (l1Blk V c 3 t) := by
  obtain ⟨n, hn⟩ := t
  cases n with
  | zero => exact rfl
  | succ n => exact (dif_pos h0).trans rfl

theorem l1At_last (c : Dev nD) (t : Fin cfg1.N) (h0 : ¬t.val % 4 = 0) (h7 : t.val % 4 = 3) :
    l1At V c t.val t.isLt = l1LeftLast c t (l1notFirst t h0) ((l1Last_iff t).mpr h7) (l1Blk V c 0 t) (l1Blk V c 1 t) (l1Blk V c 2 t) (l1Blk V c 3 t)
      (l1At V c (t.val - 1) (Nat.lt_of_le_of_lt (Nat.sub_le _ _) t.isLt)).2.2.2.1 (l1At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h7).trans rfl)

theorem l1At_mid (c : Dev nD) (t : Fin cfg1.N) (h0 : ¬t.val % 4 = 0) (h7 : ¬t.val % 4 = 3) :
    l1At V c t.val t.isLt = l1LeftMid c t (l1notFirst t h0) (l1notLast' t h7) (l1Blk V c 0 t) (l1Blk V c 1 t) (l1Blk V c 2 t) (l1Blk V c 3 t)
      (l1At V c (t.val - 1) (Nat.lt_of_le_of_lt (Nat.sub_le _ _) t.isLt)).2.2.2.1 (l1At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h7).trans rfl)

/-! ## The invariant between points -/

/-- Before the first point the region's rest as the launch hands it over; afterwards the same with the two scratch rows
    at what the point before left in them. -/
def l1Phi (c : Dev nD) : (n : ℕ) → n ≤ cfg1.N → sProp 𝕄
  | 0, _ => Pipeline.ΦA spec1 c
  | n + 1, hn => iprop(iprop(iprop(owns (c : Thread nD τ) l1Sum fullShare (l1At V c n hn).2.2.2.1 ∗ owns (c : Thread nD τ) l1Sq fullShare (l1At V c n hn).2.2.2.2)
      ∗ Pipeline.scopedRestBut (Ix := Unit) (Name := ℕ) (U := UR sig nD τ) (Lvl := ℕ) (Val := Elt F) spec1 c [cc1_scratch0, cc1_scratch1]) ∗ (∃ r, prngReg c r))

theorem l1Phi_zero (c : Dev nD) (n : ℕ) (h : n ≤ cfg1.N) (hz : n = 0) : l1Phi V c n h = Pipeline.ΦA spec1 c := by
  subst hz; rfl
theorem l1Phi_succ (c : Dev nD) (n : ℕ) (hn : n < cfg1.N) :
    l1Phi V c (n + 1) hn = iprop(iprop(iprop(owns (c : Thread nD τ) l1Sum fullShare (l1At V c n hn).2.2.2.1 ∗ owns (c : Thread nD τ) l1Sq fullShare (l1At V c n hn).2.2.2.2)
      ∗ Pipeline.scopedRestBut (Ix := Unit) (Name := ℕ) (U := UR sig nD τ) (Lvl := ℕ) (Val := Elt F) spec1 c [cc1_scratch0, cc1_scratch1]) ∗ (∃ r, prngReg c r)) := rfl
theorem l1Phi_pos (c : Dev nD) (n : ℕ) (h : n ≤ cfg1.N) (hz : n ≠ 0) :
    l1Phi V c n h = iprop(iprop(iprop(owns (c : Thread nD τ) l1Sum fullShare (l1At V c (n - 1) (by omega)).2.2.2.1 ∗ owns (c : Thread nD τ) l1Sq fullShare (l1At V c (n - 1) (by omega)).2.2.2.2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The proof data of the region -/

def l1Dat (c : Dev nD) : Dat τ (Elt F) Unit ℕ (UR sig nD τ) ℕ cfg1 c where
  A w := V c (Pipeline.arrRef spec1 w)
  after w t := match w with
    | ⟨0, _⟩ => l1Blk V c 0 t
    | ⟨1, _⟩ => l1Blk V c 1 t
    | ⟨2, _⟩ => l1Blk V c 2 t
    | ⟨3, _⟩ => l1Blk V c 3 t
    | ⟨4, _⟩ => (l1At V c t.val t.isLt).1
    | ⟨5, _⟩ => (l1At V c t.val t.isLt).2.1
    | ⟨6, _⟩ => (l1At V c t.val t.isLt).2.2.1
  Φ t := l1Phi V c t.val (Nat.le_of_lt_succ t.isLt)
  q _ := fullShare
  owed _ := 0

theorem l1Dat_A (c : Dev nD) (w : Fin cfg1.W) : (l1Dat V c).A w = V c (Pipeline.arrRef spec1 w) := by
  dsimp only [l1Dat]
theorem l1Phi_castSucc (c : Dev nD) (t : Fin cfg1.N) :
    (l1Dat V c).Φ t.castSucc = l1Phi V c t.val (Nat.le_of_lt t.isLt) := by
  dsimp only [l1Dat]; simp only [Fin.coe_castSucc]
theorem l1After0 (c : Dev nD) (t : Fin cfg1.N) : (l1Dat V c).after 0 t = l1Blk V c 0 t := by dsimp only [l1Dat]
theorem l1After1 (c : Dev nD) (t : Fin cfg1.N) : (l1Dat V c).after 1 t = l1Blk V c 1 t := by dsimp only [l1Dat]
theorem l1After2 (c : Dev nD) (t : Fin cfg1.N) : (l1Dat V c).after 2 t = l1Blk V c 2 t := by dsimp only [l1Dat]
theorem l1After3 (c : Dev nD) (t : Fin cfg1.N) : (l1Dat V c).after 3 t = l1Blk V c 3 t := by dsimp only [l1Dat]
theorem l1After4 (c : Dev nD) (t : Fin cfg1.N) : (l1Dat V c).after 4 t = (l1At V c t.val t.isLt).1 := by dsimp only [l1Dat]
theorem l1After5 (c : Dev nD) (t : Fin cfg1.N) : (l1Dat V c).after 5 t = (l1At V c t.val t.isLt).2.1 := by dsimp only [l1Dat]
theorem l1After6 (c : Dev nD) (t : Fin cfg1.N) : (l1Dat V c).after 6 t = (l1At V c t.val t.isLt).2.2.1 := by dsimp only [l1Dat]

/-- An input's current buffer holds its block at every point, fetched there or not. -/
theorem l1Before0 (c : Dev nD) (t : Fin cfg1.N) (d) : (l1Dat V c).before 0 t d = l1Blk V c 0 t :=
  ((l1Dat V c).before_in_eq_fetched 0 rfl (fun _ => rfl) (fun _ _ _ => rfl)
    (fun t => by rw [l1After0]; unfold Dat.blockOf l1Blk; rw [l1Dat_A]; try rfl) t d).trans
    (by unfold Dat.fetched Dat.blockOf l1Blk; rw [l1Dat_A]; try rfl)
theorem l1Before1 (c : Dev nD) (t : Fin cfg1.N) (d) : (l1Dat V c).before 1 t d = l1Blk V c 1 t :=
  ((l1Dat V c).before_in_eq_fetched 1 rfl (fun _ => rfl) (fun _ _ _ => rfl)
    (fun t => by rw [l1After1]; unfold Dat.blockOf l1Blk; rw [l1Dat_A]; try rfl) t d).trans
    (by unfold Dat.fetched Dat.blockOf l1Blk; rw [l1Dat_A]; try rfl)
theorem l1Before2 (c : Dev nD) (t : Fin cfg1.N) (d) : (l1Dat V c).before 2 t d = l1Blk V c 2 t :=
  ((l1Dat V c).before_in_eq_fetched 2 rfl (fun _ => rfl) (fun _ _ _ => rfl)
    (fun t => by rw [l1After2]; unfold Dat.blockOf l1Blk; rw [l1Dat_A]; try rfl) t d).trans
    (by unfold Dat.fetched Dat.blockOf l1Blk; rw [l1Dat_A]; try rfl)
theorem l1Before3 (c : Dev nD) (t : Fin cfg1.N) (d) : (l1Dat V c).before 3 t d = l1Blk V c 3 t :=
  ((l1Dat V c).before_in_eq_fetched 3 rfl (fun _ => rfl) (fun _ _ _ => rfl)
    (fun t => by rw [l1After3]; unfold Dat.blockOf l1Blk; rw [l1Dat_A]; try rfl) t d).trans
    (by unfold Dat.fetched Dat.blockOf l1Blk; rw [l1Dat_A]; try rfl)

/-! ## The body obligation -/

def l1Pre (c : Dev nD) (t : Fin cfg1.N) : sProp 𝕄 :=
  iprop((l1Dat V c).Φ t.castSucc ∗ (l1Dat V c).owesAt () t.castSucc
    ∗ (∃ d, owns (c : Thread nD τ) (l1m0 t) fullShare ((l1Dat V c).before 0 t d))
    ∗ (∃ d, owns (c : Thread nD τ) (l1m1 t) fullShare ((l1Dat V c).before 1 t d))
    ∗ (∃ d, owns (c : Thread nD τ) (l1m2 t) fullShare ((l1Dat V c).before 2 t d))
    ∗ (∃ d, owns (c : Thread nD τ) (l1m3 t) fullShare ((l1Dat V c).before 3 t d))
    ∗ (∃ d, owns (c : Thread nD τ) (l1m4 t) fullShare ((l1Dat V c).before 4 t d))
    ∗ (∃ d, owns (c : Thread nD τ) (l1m5 t) fullShare ((l1Dat V c).before 5 t d))
    ∗ (∃ d, owns (c : Thread nD τ) (l1m6 t) fullShare ((l1Dat V c).before 6 t d)))

def l1Post (c : Dev nD) (t : Fin cfg1.N) : sProp 𝕄 :=
  iprop((l1Dat V c).Φ t.succ ∗ (l1Dat V c).owesAt () t.succ
    ∗ (l1Dat V c).leavesExact 0 t
    ∗ (l1Dat V c).leavesExact 1 t
    ∗ (l1Dat V c).leavesExact 2 t
    ∗ (l1Dat V c).leavesExact 3 t
    ∗ (l1Dat V c).leavesExact 4 t
    ∗ (l1Dat V c).leavesExact 5 t
    ∗ (l1Dat V c).leavesExact 6 t)

set_option maxHeartbeats 8000000 in
/-- The body at any point: which kind of point it is is read off the position; the invariant hands over the scratch
    rows (at anything before the very first point, else at what the point before left) and takes them back at this
    point's contents. -/
theorem l1Point (c : Dev nD) (t : Fin cfg1.N) :
    l1Pre V c t ⊢ wp frame (wpE (defs₀ (F := F)) Variants.none c none) Set.univ (bodyAt1 t) (fun _ => l1Post V c t) := by
  unfold l1Pre l1Post bodyAt1
  simp only [l1Before0, l1Before1, l1Before2, l1Before3]
  rw [show (l1Dat V c).owesAt () t.succ = (l1Dat V c).owesAt () t.castSucc from rfl]
  rw [show (l1Dat V c).Φ t.succ = l1Phi V c (t.val + 1) t.isLt from rfl, l1Phi_succ]
  have hN : t.val < 8 := lt_of_lt_of_eq t.isLt (show cfg1.N = 8 from N_1)
  rw [show (l1Dat V c).leavesExact 0 t = owns (c : Thread nD τ) (l1m0 t) fullShare ((l1Dat V c).after 0 t) from by
    unfold Dat.leavesExact; rw [l1Live0 t], l1After0]
  rw [show (l1Dat V c).leavesExact 1 t = owns (c : Thread nD τ) (l1m1 t) fullShare ((l1Dat V c).after 1 t) from by
    unfold Dat.leavesExact; rw [l1Live1 t], l1After1]
  rw [show (l1Dat V c).leavesExact 2 t = owns (c : Thread nD τ) (l1m2 t) fullShare ((l1Dat V c).after 2 t) from by
    unfold Dat.leavesExact; rw [l1Live2 t], l1After2]
  rw [show (l1Dat V c).leavesExact 3 t = owns (c : Thread nD τ) (l1m3 t) fullShare ((l1Dat V c).after 3 t) from by
    unfold Dat.leavesExact; rw [l1Live3 t], l1After3]
  rw [show (l1Dat V c).leavesExact 4 t = owns (c : Thread nD τ) (l1m4 t) fullShare ((l1Dat V c).after 4 t) from by
    unfold Dat.leavesExact; rw [l1Live4 t], l1After4]
  by_cases h0 : t.val % 4 = 0
  · have hF := (l1First_iff t).mpr h0
    have hL := l1notLast t h0
    rw [Dat.leavesExact_idle (l1Dat V c) 5 t (l1Idle5 t hL) (l1NoFlush5 t hL),
      Dat.leavesExact_idle (l1Dat V c) 6 t (l1Idle6 t hL) (l1NoFlush6 t hL)]
    rw [l1At_first V c t h0]
    unfold l1LeftFirst; (try dsimp only)
    by_cases hz : t.val = 0
    · rw [l1Phi_castSucc V c t, l1Phi_zero V c _ _ hz, l1Rest]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l1FirstAt c t hF hL (l1Blk V c 0 t) (l1Blk V c 1 t) (l1Blk V c 2 t) (l1Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l1CoverFirstS c t hF hL _ _ _ _)
            unfold owns; iexists _; isplitr
            swap; · iexact HQ
            ipureintro; exact View.read_writes_of_cover _ _ _ _ _ (l1CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l1CoverFirstH c t hF hL _ _ _ _)
      isplitl [HA]; · iexists _; iexact HA
      iexists _; iexact HB
    · rw [l1Phi_castSucc V c t, l1Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l1FirstAt c t hF hL (l1Blk V c 0 t) (l1Blk V c 1 t) (l1Blk V c 2 t) (l1Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexists _; iexact HS
      isplitl [HQ]; · iexists _; iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l1CoverFirstS c t hF hL _ _ _ _)
            unfold owns; iexists _; isplitr
            swap; · iexact HQ
            ipureintro; exact View.read_writes_of_cover _ _ _ _ _ (l1CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l1CoverFirstH c t hF hL _ _ _ _)
      isplitl [HA]; · iexists _; iexact HA
      iexists _; iexact HB
  · have hF := l1notFirst t h0
    have hz : t.val ≠ 0 := fun e => h0 (by rw [e])
    by_cases h7 : t.val % 4 = 3
    · have hL := (l1Last_iff t).mpr h7
      rw [show (l1Dat V c).leavesExact 5 t = owns (c : Thread nD τ) (l1m5 t) fullShare ((l1Dat V c).after 5 t) from by
        unfold Dat.leavesExact; rw [l1Live5 t hL], l1After5]
      rw [show (l1Dat V c).leavesExact 6 t = owns (c : Thread nD τ) (l1m6 t) fullShare ((l1Dat V c).after 6 t) from by
        unfold Dat.leavesExact; rw [l1Live6 t hL], l1After6]
      rw [l1At_last V c t h0 h7]
      unfold l1LeftLast; (try dsimp only)
      rw [l1Phi_castSucc V c t, l1Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l1LastAt c t hF hL (l1Blk V c 0 t) (l1Blk V c 1 t) (l1Blk V c 2 t) (l1Blk V c 3 t) _ _).2.2.2.2.2 Set.univ _)
      isplitl [H0]; · iexact H0
      isplitl [H1]; · iexact H1
      isplitl [H2]; · iexact H2
      isplitl [H3]; · iexact H3
      isplitl [HH]; · iexists _; iexact HH
      isplitl [HA]; · iexists _; iexact HA
      isplitl [HB]; · iexists _; iexact HB
      isplitl [HS]; · iexact HS
      isplitl [HQ]; · iexact HQ
      iintro ⟨H0, H1, H2, H3, ⟨%eH, HH⟩, ⟨%eA, HA⟩, ⟨%eB, HB⟩, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l1CoverLastS c t hF hL _ _ _ _ _ _)
            unfold owns; iexists _; isplitr
            swap; · iexact HQ
            ipureintro; exact View.read_writes_of_cover _ _ _ _ _ (l1CoverLastQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l1CoverLastH c t hF hL _ _ _ _ _ _)
      isplitl [HA]
      · unfold owns; iexists _; isplitr
        swap; · iexact HA
        ipureintro; exact View.read_writes_of_cover _ _ _ _ _ (l1CoverLast3 c t hF hL _ _ _ _ _ _)
      unfold owns; iexists _; isplitr
      swap; · iexact HB
      ipureintro; exact View.read_writes_of_cover _ _ _ _ _ (l1CoverLast4 c t hF hL _ _ _ _ _ _)
    · have hL := l1notLast' t h7
      rw [Dat.leavesExact_idle (l1Dat V c) 5 t (l1Idle5 t hL) (l1NoFlush5 t hL),
        Dat.leavesExact_idle (l1Dat V c) 6 t (l1Idle6 t hL) (l1NoFlush6 t hL)]
      rw [l1At_mid V c t h0 h7]
      unfold l1LeftMid; (try dsimp only)
      rw [l1Phi_castSucc V c t, l1Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l1MidAt c t hF hL (l1Blk V c 0 t) (l1Blk V c 1 t) (l1Blk V c 2 t) (l1Blk V c 3 t) _ _).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l1CoverMidS c t hF hL _ _ _ _ _ _)
            unfold owns; iexists _; isplitr
            swap; · iexact HQ
            ipureintro; exact View.read_writes_of_cover _ _ _ _ _ (l1CoverMidQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l1CoverMidH c t hF hL _ _ _ _ _ _)
      isplitl [HA]; · iexists _; iexact HA
      iexists _; iexact HB

theorem l1Obligation (c : Dev nD) : BodyObligation (l1Dat (F := F) V c) (defs₀ (F := F)) Variants.none () Set.univ := fun t => by
  rw [bigSep_W1, bigSep_W1]
  exact l1Point V c t

/-- What the launch hands the region is the invariant before the first point; after any later point the invariant gives
    the region's rest back (what the scratch rows hold is forgotten). -/
theorem l1PhiIn (c : Dev nD) : Pipeline.ΦA spec1 c ⊢ (l1Dat V c).Φ 0 := by
  rw [show (l1Dat V c).Φ 0 = l1Phi V c 0 (Nat.zero_le _) from rfl, l1Phi_zero V c 0 _ rfl]
  try exact Idealize.SL.BI.Entails.refl _
theorem l1PhiOut (c : Dev nD) : (l1Dat V c).Φ (Fin.last cfg1.N) ⊢ Pipeline.ΦA spec1 c := by
  rw [show (l1Dat V c).Φ (Fin.last cfg1.N) = l1Phi V c (Fin.last cfg1.N).val (Nat.le_of_lt_succ (Fin.last cfg1.N).isLt) from rfl,
    l1Phi_pos V c _ _ (by rw [Fin.val_last]; have : cfg1.N = 8 := N_1; omega), l1Rest]
  iintro ⟨⟨⟨HS, HQ⟩, Hrest⟩, Hg⟩
  isplitl [HS HQ Hrest]
  · isplitl [HS HQ]
    · isplitl [HS]
      · iexists _; iexact HS
      iexists _; iexact HQ
    iexact Hrest
  iexact Hg

end Cert.KernelIdeal.Hand

end
-- ==== Proof.Layer2SharedIdeal.lean ====
/-
  The third layer's region: at each of 8 grid points (2 halves of the batch × 4 blocks of 4096 rows) the body
  forms z = h' · scale + shift from its block of the previous layer's h' and the two parameter rows, then
  h = sign(z) · sign(W)ᵀ, stores it, and adds the column sums of h and of h² into two one-row scratch buffers that
  are cleared at the first block of a half and copied out (eight identical rows) at the last block of a half.
  Here: the two branch conditions in closed form over the grid, where the two statistics windows are idle, the
  names of the buffers the body is called with, and the region's untouched rest with the two scratch rows split out.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "This is the first block of its half": the inner grid coordinate is 0. -/
abbrev l2First (i : grid2.Coords) : Prop :=
  (Scalar.cmpi .ne (Scalar.extui (Scalar.cmpi .eq (BitVec.ofNat 32 (i 1).val) 0#32)) 0#32) = 1#1
theorem l2First_iff : ∀ t : Fin cfg2.N, l2First (grid2.coords t) ↔ t.val % 4 = 0 :=
  (by decide +kernel : ∀ t : Fin grid2.N, l2First (grid2.coords t) ↔ t.val % 4 = 0)

/-- "This is the last block of its half": the inner grid coordinate is 3. -/
abbrev l2Last (i : grid2.Coords) : Prop := k2_cond2 i = 1#1
theorem l2Last_iff : ∀ t : Fin cfg2.N, l2Last (grid2.coords t) ↔ t.val % 4 = 3 :=
  (by decide +kernel : ∀ t : Fin grid2.N, l2Last (grid2.coords t) ↔ t.val % 4 = 3)

/-! ## Where the windows are idle -/

theorem l2Live0 : ∀ t : Fin cfg2.N, cfg2.idle 0 (grid2.coords t) = false := by decide +kernel
theorem l2Live1 : ∀ t : Fin cfg2.N, cfg2.idle 1 (grid2.coords t) = false := by decide +kernel
theorem l2Live2 : ∀ t : Fin cfg2.N, cfg2.idle 2 (grid2.coords t) = false := by decide +kernel
theorem l2Live3 : ∀ t : Fin cfg2.N, cfg2.idle 3 (grid2.coords t) = false := by decide +kernel
theorem l2Live4 : ∀ t : Fin cfg2.N, cfg2.idle 4 (grid2.coords t) = false := by decide +kernel
/-- The two statistics windows are idle, and not written back, except at the last block of a half. -/
theorem l2Idle5 : ∀ t : Fin cfg2.N, ¬l2Last (grid2.coords t) → cfg2.idle 5 (grid2.coords t) = true := by decide +kernel
theorem l2NoFlush5 : ∀ t : Fin cfg2.N, ¬l2Last (grid2.coords t) → (cfg2.win 5).flush t = false := by decide +kernel
theorem l2Live5 : ∀ t : Fin cfg2.N, l2Last (grid2.coords t) → cfg2.idle 5 (grid2.coords t) = false := by decide +kernel
theorem l2Idle6 : ∀ t : Fin cfg2.N, ¬l2Last (grid2.coords t) → cfg2.idle 6 (grid2.coords t) = true := by decide +kernel
theorem l2NoFlush6 : ∀ t : Fin cfg2.N, ¬l2Last (grid2.coords t) → (cfg2.win 6).flush t = false := by decide +kernel
theorem l2Live6 : ∀ t : Fin cfg2.N, l2Last (grid2.coords t) → cfg2.idle 6 (grid2.coords t) = false := by decide +kernel

/-! ## The buffers the body is called with -/

abbrev l2m0 (t : Fin cfg2.N) : Memref sig .tc .vmem S4096x256 .f32 := win2_0.stage (cfg2.slots t 0)
abbrev l2h0 (t : Fin cfg2.N) : (l2m0 t).IsWhole := hstage2_0 ((cfg2.slots t 0).cast nbuf2_0)
abbrev l2m1 (t : Fin cfg2.N) : Memref sig .tc .vmem S256x256 .bf16 := win2_1.stage (cfg2.slots t 1)
abbrev l2h1 (t : Fin cfg2.N) : (l2m1 t).IsWhole := hstage2_1 ((cfg2.slots t 1).cast nbuf2_1)
abbrev l2m2 (t : Fin cfg2.N) : Memref sig .tc .vmem S1x256 .f32 := win2_2.stage (cfg2.slots t 2)
abbrev l2h2 (t : Fin cfg2.N) : (l2m2 t).IsWhole := hstage2_2 ((cfg2.slots t 2).cast nbuf2_2)
abbrev l2m3 (t : Fin cfg2.N) : Memref sig .tc .vmem S1x256 .f32 := win2_3.stage (cfg2.slots t 3)
abbrev l2h3 (t : Fin cfg2.N) : (l2m3 t).IsWhole := hstage2_3 ((cfg2.slots t 3).cast nbuf2_3)
abbrev l2m4 (t : Fin cfg2.N) : Memref sig .tc .vmem S4096x256 .f32 := win2_4.stage (cfg2.slots t 4)
abbrev l2h4 (t : Fin cfg2.N) : (l2m4 t).IsWhole := hstage2_4 ((cfg2.slots t 4).cast nbuf2_4)
abbrev l2m5 (t : Fin cfg2.N) : Memref sig .tc .vmem S8x256 .f32 := win2_5.stage (cfg2.slots t 5)
abbrev l2h5 (t : Fin cfg2.N) : (l2m5 t).IsWhole := hstage2_5 ((cfg2.slots t 5).cast nbuf2_5)
abbrev l2m6 (t : Fin cfg2.N) : Memref sig .tc .vmem S8x256 .f32 := win2_6.stage (cfg2.slots t 6)
abbrev l2h6 (t : Fin cfg2.N) : (l2m6 t).IsWhole := hstage2_6 ((cfg2.slots t 6).cast nbuf2_6)
/-- The running column sums of h and of h²: one row each, the kernel's own. -/
abbrev l2Sum : Memref sig .tc .vmem S1x256 .f32 := Memref.whole cc2_scratch0
abbrev l2Sq : Memref sig .tc .vmem S1x256 .f32 := Memref.whole cc2_scratch1

/-- The region's untouched rest, with the two scratch rows owned at some contents each. -/
theorem l2Rest (c : Dev nD) :
    (Pipeline.ΦA spec2 c : sProp 𝕄)
      = iprop(iprop(iprop((∃ d, owns (c : Thread nD τ) l2Sum fullShare d) ∗ (∃ d, owns (c : Thread nD τ) l2Sq fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [l2Sum, l2Sq, owns_whole]; try rfl

end Cert.KernelIdeal.Hand

end
-- ==== Proof.Layer2FirstIdeal.lean ====
/-
  The third layer's body at the first block of a half (and not the last): the two scratch rows are cleared,
  then take the column sums of this block's h and h²; h is stored; the statistics windows are not touched.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer2SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l2RunFirst (c : Dev nD) (i : grid2.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : l2First i) (hL : ¬l2Last i) (x0 : Vec F S4096x256 .f32) (x1 : Vec F S256x256 .bf16) (x2 : Vec F S1x256 .f32) (x3 : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc2__matmul_stats_kernel_fused i a2 h2 a3 h3 a4 h4 a5 h5 a6 h6 a7 h7 a8 h8 a9 h9 a10 h10) K } := by
  refine ⟨?_, ?_, ?_, fun y3 y4 E K => ?run⟩
  case run =>
    simp only [cc2__matmul_stats_kernel_fused_eq_skeleton]; unfold cc2__matmul_stats_kernel_fused_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%dS, %fS, -, HS⟩, ⟨%dQ, %fQ, -, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.KernelIdeal.Hand

end
-- ==== Proof.Layer2MidIdeal.lean ====
/-
  The third layer's body at a block that is neither the first nor the last of its half: h is stored, and the
  two scratch rows, entering at what the block before left, each gain this block's column sums.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer2SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l2RunMid (c : Dev nD) (i : grid2.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l2First i) (hL : ¬l2Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc2__matmul_stats_kernel_fused i a2 h2 a3 h3 a4 h4 a5 h5 a6 h6 a7 h7 a8 h8 a9 h9 a10 h10) K } := by
  refine ⟨?_, ?_, ?_, fun y3 y4 E K => ?run⟩
  case run =>
    simp only [cc2__matmul_stats_kernel_fused_eq_skeleton]; unfold cc2__matmul_stats_kernel_fused_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.KernelIdeal.Hand

end
-- ==== Proof.Layer2LastIdeal.lean ====
/-
  The third layer's body at the last block of a half: as at a middle block, and then each statistics buffer is
  filled with eight copies of the finished scratch row.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer2SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs come back as they were. -/
noncomputable def l2RunLast (c : Dev nD) (i : grid2.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l2First i) (hL : l2Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (L3 L4 : List (View.Piece (Elt F) S8x256 .f32)) (LS : List (View.Piece (Elt F) S1x256 .f32)), { LQ : List (View.Piece (Elt F) S1x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d)
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ (∃ f, a7.view.loc (c : Thread nD τ) ↦[a7.view.set]{fullShare} a7.view.writes (Elt F) f L3) ∗ (∃ f, a8.view.loc (c : Thread nD τ) ↦[a8.view.set]{fullShare} a8.view.writes (Elt F) f L4)
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc2__matmul_stats_kernel_fused i a2 h2 a3 h3 a4 h4 a5 h5 a6 h6 a7 h7 a8 h8 a9 h9 a10 h10) K } := by
  refine ⟨?_, ?_, ?_, ?_, ?_, fun E K => ?run⟩
  case run =>
    simp only [cc2__matmul_stats_kernel_fused_eq_skeleton]; unfold cc2__matmul_stats_kernel_fused_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [HS]; · iexists _; iexact HS
    iexists _; iexact HQ

end Cert.KernelIdeal.Hand

end
-- ==== Proof.Layer2RegionIdeal.lean ====
/-
  The third layer's region as a whole: what each kind of grid point leaves in the buffers, the accumulation of
  the two scratch rows over the four blocks of a half (by recursion on the position: a first block starts afresh,
  every other block adds to what the block before left), the invariant that carries the scratch rows from one
  point to the next, and the body's obligation at every point. Stated at a parameter V: the contents of the
  core's buffers when the region is entered.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer2FirstIdeal
import proofs.«126670_j49074296324140_2_alg».proof.Proof.Layer2MidIdeal
import proofs.«126670_j49074296324140_2_alg».proof.Proof.Layer2LastIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def l2Blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Fixed views through which a buffer's contents after a list of stores are stated (the choice of buffer does not
    matter: only its shape does). -/
abbrev l2VH : View sig .tc .vmem S4096x256 .f32 := (Memref.whole cc2_stg4_0 : Memref sig .tc .vmem S4096x256 .f32).view
abbrev l2V3 : View sig .tc .vmem S8x256 .f32 := (Memref.whole cc2_stg5_0 : Memref sig .tc .vmem S8x256 .f32).view
abbrev l2V4 : View sig .tc .vmem S8x256 .f32 := (Memref.whole cc2_stg6_0 : Memref sig .tc .vmem S8x256 .f32).view
abbrev l2VS : View sig .tc .vmem S1x256 .f32 := l2Sum.view
abbrev l2VQ : View sig .tc .vmem S1x256 .f32 := l2Sq.view

/-! ## The three kinds of point, at the buffers the pipeline passes -/

abbrev l2FirstAt (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) :=
  l2RunFirst c (grid2.coords t) (l2m0 t) (l2h0 t) (l2m1 t) (l2h1 t) (l2m2 t) (l2h2 t) (l2m3 t) (l2h3 t) (l2m4 t) (l2h4 t) (l2m5 t) (l2h5 t) (l2m6 t) (l2h6 t) l2Sum (Memref.isWhole_whole _) l2Sq (Memref.isWhole_whole _) hF hL x0 x1 x2 x3
abbrev l2MidAt (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) :=
  l2RunMid c (grid2.coords t) (l2m0 t) (l2h0 t) (l2m1 t) (l2h1 t) (l2m2 t) (l2h2 t) (l2m3 t) (l2h3 t) (l2m4 t) (l2h4 t) (l2m5 t) (l2h5 t) (l2m6 t) (l2h6 t) l2Sum (Memref.isWhole_whole _) l2Sq (Memref.isWhole_whole _) hF hL x0 x1 x2 x3 s q
abbrev l2LastAt (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) :=
  l2RunLast c (grid2.coords t) (l2m0 t) (l2h0 t) (l2m1 t) (l2h1 t) (l2m2 t) (l2h2 t) (l2m3 t) (l2h3 t) (l2m4 t) (l2h4 t) (l2m5 t) (l2h5 t) (l2m6 t) (l2h6 t) l2Sum (Memref.isWhole_whole _) l2Sq (Memref.isWhole_whole _) hF hL x0 x1 x2 x3 s q

/-! Every list of stores covers its buffer (each buffer's last store is of the whole buffer). -/
theorem l2CoverFirstH (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) (y : S4096x256.Idx) :
    ∃ pc ∈ (l2FirstAt c t hF hL x0 x1 x2 x3).1, y ∈ pc.1.set :=
  View.cover_of_tiledL (l2FirstAt c t hF hL x0 x1 x2 x3).1 S4096x256.size (by sl_kernel_rfl) y
theorem l2CoverFirstS (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) (y : S1x256.Idx) :
    ∃ pc ∈ (l2FirstAt c t hF hL x0 x1 x2 x3).2.1, y ∈ pc.1.set :=
  View.cover_of_tiledL (l2FirstAt c t hF hL x0 x1 x2 x3).2.1 S1x256.size (by sl_kernel_rfl) y
theorem l2CoverFirstQ (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) (y : S1x256.Idx) :
    ∃ pc ∈ (l2FirstAt c t hF hL x0 x1 x2 x3).2.2.1, y ∈ pc.1.set :=
  View.cover_of_tiledL (l2FirstAt c t hF hL x0 x1 x2 x3).2.2.1 S1x256.size (by sl_kernel_rfl) y
theorem l2CoverMidH (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l2MidAt c t hF hL x0 x1 x2 x3 s q).1, y ∈ pc.1.set :=
  View.cover_of_tiledL (l2MidAt c t hF hL x0 x1 x2 x3 s q).1 S4096x256.size (by sl_kernel_rfl) y
theorem l2CoverMidS (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) (y : S1x256.Idx) :
    ∃ pc ∈ (l2MidAt c t hF hL x0 x1 x2 x3 s q).2.1, y ∈ pc.1.set :=
  View.cover_of_tiledL (l2MidAt c t hF hL x0 x1 x2 x3 s q).2.1 S1x256.size (by sl_kernel_rfl) y
theorem l2CoverMidQ (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) (y : S1x256.Idx) :
    ∃ pc ∈ (l2MidAt c t hF hL x0 x1 x2 x3 s q).2.2.1, y ∈ pc.1.set :=
  View.cover_of_tiledL (l2MidAt c t hF hL x0 x1 x2 x3 s q).2.2.1 S1x256.size (by sl_kernel_rfl) y
theorem l2CoverLastH (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l2LastAt c t hF hL x0 x1 x2 x3 s q).1, y ∈ pc.1.set :=
  View.cover_of_tiledL (l2LastAt c t hF hL x0 x1 x2 x3 s q).1 S4096x256.size (by sl_kernel_rfl) y
theorem l2CoverLast3 (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) (y : S8x256.Idx) :
    ∃ pc ∈ (l2LastAt c t hF hL x0 x1 x2 x3 s q).2.1, y ∈ pc.1.set :=
  View.cover_of_tiledL (l2LastAt c t hF hL x0 x1 x2 x3 s q).2.1 S8x256.size (by sl_kernel_rfl) y
theorem l2CoverLast4 (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) (y : S8x256.Idx) :
    ∃ pc ∈ (l2LastAt c t hF hL x0 x1 x2 x3 s q).2.2.1, y ∈ pc.1.set :=
  View.cover_of_tiledL (l2LastAt c t hF hL x0 x1 x2 x3 s q).2.2.1 S8x256.size (by sl_kernel_rfl) y
theorem l2CoverLastS (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) (y : S1x256.Idx) :
    ∃ pc ∈ (l2LastAt c t hF hL x0 x1 x2 x3 s q).2.2.2.1, y ∈ pc.1.set :=
  View.cover_of_tiledL (l2LastAt c t hF hL x0 x1 x2 x3 s q).2.2.2.1 S1x256.size (by sl_kernel_rfl) y
theorem l2CoverLastQ (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) (y : S1x256.Idx) :
    ∃ pc ∈ (l2LastAt c t hF hL x0 x1 x2 x3 s q).2.2.2.2.1, y ∈ pc.1.set :=
  View.cover_of_tiledL (l2LastAt c t hF hL x0 x1 x2 x3 s q).2.2.2.2.1 S1x256.size (by sl_kernel_rfl) y

/-- What a point of each kind leaves: (h's buffer, the two statistics buffers, the two scratch rows). At a point that
    does not store into the statistics buffers their entries are placeholders nothing reads. -/
def l2LeftFirst (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) : Vec F S4096x256 .f32 × Vec F S8x256 .f32 × Vec F S8x256 .f32 × Vec F S1x256 .f32 × Vec F S1x256 .f32 :=
  (l2VH.read (Elt F) (l2VH.writes (Elt F) l2VH.junk (l2FirstAt c t hF hL x0 x1 x2 x3).1), l2V3.read (Elt F) l2V3.junk, l2V4.read (Elt F) l2V4.junk,
   l2VS.read (Elt F) (l2VS.writes (Elt F) l2VS.junk (l2FirstAt c t hF hL x0 x1 x2 x3).2.1), l2VQ.read (Elt F) (l2VQ.writes (Elt F) l2VQ.junk (l2FirstAt c t hF hL x0 x1 x2 x3).2.2.1))
def l2LeftMid (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l2VH.read (Elt F) (l2VH.writes (Elt F) l2VH.junk (l2MidAt c t hF hL x0 x1 x2 x3 s q).1), l2V3.read (Elt F) l2V3.junk, l2V4.read (Elt F) l2V4.junk,
   l2VS.read (Elt F) (l2VS.writes (Elt F) l2VS.junk (l2MidAt c t hF hL x0 x1 x2 x3 s q).2.1), l2VQ.read (Elt F) (l2VQ.writes (Elt F) l2VQ.junk (l2MidAt c t hF hL x0 x1 x2 x3 s q).2.2.1))
def l2LeftLast (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l2VH.read (Elt F) (l2VH.writes (Elt F) l2VH.junk (l2LastAt c t hF hL x0 x1 x2 x3 s q).1), l2V3.read (Elt F) (l2V3.writes (Elt F) l2V3.junk (l2LastAt c t hF hL x0 x1 x2 x3 s q).2.1), l2V4.read (Elt F) (l2V4.writes (Elt F) l2V4.junk (l2LastAt c t hF hL x0 x1 x2 x3 s q).2.2.1),
   l2VS.read (Elt F) (l2VS.writes (Elt F) l2VS.junk (l2LastAt c t hF hL x0 x1 x2 x3 s q).2.2.2.1), l2VQ.read (Elt F) (l2VQ.writes (Elt F) l2VQ.junk (l2LastAt c t hF hL x0 x1 x2 x3 s q).2.2.2.2.1))

theorem l2notLast (t : Fin cfg2.N) (h0 : t.val % 4 = 0) : ¬l2Last (grid2.coords t) :=
  fun h => by have h' := (l2Last_iff t).mp h; omega
theorem l2notFirst (t : Fin cfg2.N) (h0 : ¬t.val % 4 = 0) : ¬l2First (grid2.coords t) :=
  fun h => h0 ((l2First_iff t).mp h)
theorem l2notLast' (t : Fin cfg2.N) (h7 : ¬t.val % 4 = 3) : ¬l2Last (grid2.coords t) :=
  fun h => h7 ((l2Last_iff t).mp h)

/-! ## The accumulation -/

/-- What the buffers hold after the body at position n, by recursion on the position: a first block starts the scratch
    rows afresh; every other block continues from what the block before left in them. -/
def l2At (c : Dev nD) : (n : ℕ) → n < cfg2.N → Vec F S4096x256 .f32 × Vec F S8x256 .f32 × Vec F S8x256 .f32 × Vec F S1x256 .f32 × Vec F S1x256 .f32
  | 0, hn => l2LeftFirst c ⟨0, hn⟩ ((l2First_iff ⟨0, hn⟩).mpr (Nat.zero_mod _)) (l2notLast ⟨0, hn⟩ (Nat.zero_mod _)) (l2Blk V c 0 ⟨0, hn⟩) (l2Blk V c 1 ⟨0, hn⟩) (l2Blk V c 2 ⟨0, hn⟩) (l2Blk V c 3 ⟨0, hn⟩)
  | n + 1, hn =>
    if h0 : (n + 1) % 4 = 0 then
      l2LeftFirst c ⟨n + 1, hn⟩ ((l2First_iff ⟨n + 1, hn⟩).mpr h0) (l2notLast ⟨n + 1, hn⟩ h0) (l2Blk V c 0 ⟨n + 1, hn⟩) (l2Blk V c 1 ⟨n + 1, hn⟩) (l2Blk V c 2 ⟨n + 1, hn⟩) (l2Blk V c 3 ⟨n + 1, hn⟩)
    else if h7 : (n + 1) % 4 = 3 then
      l2LeftLast c ⟨n + 1, hn⟩ (l2notFirst ⟨n + 1, hn⟩ h0) ((l2Last_iff ⟨n + 1, hn⟩).mpr h7) (l2Blk V c 0 ⟨n + 1, hn⟩) (l2Blk V c 1 ⟨n + 1, hn⟩) (l2Blk V c 2 ⟨n + 1, hn⟩) (l2Blk V c 3 ⟨n + 1, hn⟩)
        (l2At c n (Nat.lt_of_succ_lt hn)).2.2.2.1 (l2At c n (Nat.lt_of_succ_lt hn)).2.2.2.2
    else
      l2LeftMid c ⟨n + 1, hn⟩ (l2notFirst ⟨n + 1, hn⟩ h0) (l2notLast' ⟨n + 1, hn⟩ h7) (l2Blk V c 0 ⟨n + 1, hn⟩) (l2Blk V c 1 ⟨n + 1, hn⟩) (l2Blk V c 2 ⟨n + 1, hn⟩) (l2Blk V c 3 ⟨n + 1, hn⟩)
        (l2At c n (Nat.lt_of_succ_lt hn)).2.2.2.1 (l2At c n (Nat.lt_of_succ_lt hn)).2.2.2.2

theorem l2At_first (c : Dev nD) (t : Fin cfg2.N) (h0 : t.val % 4 = 0) :
    l2At V c t.val t.isLt = l2LeftFirst c t ((l2First_iff t).mpr h0) (l2notLast t h0) (l2Blk V c 0 t) (l2Blk V c 1 t) (l2Blk V c 2 t) (l2Blk V c 3 t) := by
  obtain ⟨n, hn⟩ := t
  cases n with
  | zero => exact rfl
  | succ n => exact (dif_pos h0).trans rfl

theorem l2At_last (c : Dev nD) (t : Fin cfg2.N) (h0 : ¬t.val % 4 = 0) (h7 : t.val % 4 = 3) :
    l2At V c t.val t.isLt = l2LeftLast c t (l2notFirst t h0) ((l2Last_iff t).mpr h7) (l2Blk V c 0 t) (l2Blk V c 1 t) (l2Blk V c 2 t) (l2Blk V c 3 t)
      (l2At V c (t.val - 1) (Nat.lt_of_le_of_lt (Nat.sub_le _ _) t.isLt)).2.2.2.1 (l2At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h7).trans rfl)

theorem l2At_mid (c : Dev nD) (t : Fin cfg2.N) (h0 : ¬t.val % 4 = 0) (h7 : ¬t.val % 4 = 3) :
    l2At V c t.val t.isLt = l2LeftMid c t (l2notFirst t h0) (l2notLast' t h7) (l2Blk V c 0 t) (l2Blk V c 1 t) (l2Blk V c 2 t) (l2Blk V c 3 t)
      (l2At V c (t.val - 1) (Nat.lt_of_le_of_lt (Nat.sub_le _ _) t.isLt)).2.2.2.1 (l2At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h7).trans rfl)

/-! ## The invariant between points -/

/-- Before the first point the region's rest as the launch hands it over; afterwards the same with the two scratch rows
    at what the point before left in them. -/
def l2Phi (c : Dev nD) : (n : ℕ) → n ≤ cfg2.N → sProp 𝕄
  | 0, _ => Pipeline.ΦA spec2 c
  | n + 1, hn => iprop(iprop(iprop(owns (c : Thread nD τ) l2Sum fullShare (l2At V c n hn).2.2.2.1 ∗ owns (c : Thread nD τ) l2Sq fullShare (l2At V c n hn).2.2.2.2)
      ∗ Pipeline.scopedRestBut (Ix := Unit) (Name := ℕ) (U := UR sig nD τ) (Lvl := ℕ) (Val := Elt F) spec2 c [cc2_scratch0, cc2_scratch1]) ∗ (∃ r, prngReg c r))

theorem l2Phi_zero (c : Dev nD) (n : ℕ) (h : n ≤ cfg2.N) (hz : n = 0) : l2Phi V c n h = Pipeline.ΦA spec2 c := by
  subst hz; rfl
theorem l2Phi_succ (c : Dev nD) (n : ℕ) (hn : n < cfg2.N) :
    l2Phi V c (n + 1) hn = iprop(iprop(iprop(owns (c : Thread nD τ) l2Sum fullShare (l2At V c n hn).2.2.2.1 ∗ owns (c : Thread nD τ) l2Sq fullShare (l2At V c n hn).2.2.2.2)
      ∗ Pipeline.scopedRestBut (Ix := Unit) (Name := ℕ) (U := UR sig nD τ) (Lvl := ℕ) (Val := Elt F) spec2 c [cc2_scratch0, cc2_scratch1]) ∗ (∃ r, prngReg c r)) := rfl
theorem l2Phi_pos (c : Dev nD) (n : ℕ) (h : n ≤ cfg2.N) (hz : n ≠ 0) :
    l2Phi V c n h = iprop(iprop(iprop(owns (c : Thread nD τ) l2Sum fullShare (l2At V c (n - 1) (by omega)).2.2.2.1 ∗ owns (c : Thread nD τ) l2Sq fullShare (l2At V c (n - 1) (by omega)).2.2.2.2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The proof data of the region -/

def l2Dat (c : Dev nD) : Dat τ (Elt F) Unit ℕ (UR sig nD τ) ℕ cfg2 c where
  A w := V c (Pipeline.arrRef spec2 w)
  after w t := match w with
    | ⟨0, _⟩ => l2Blk V c 0 t
    | ⟨1, _⟩ => l2Blk V c 1 t
    | ⟨2, _⟩ => l2Blk V c 2 t
    | ⟨3, _⟩ => l2Blk V c 3 t
    | ⟨4, _⟩ => (l2At V c t.val t.isLt).1
    | ⟨5, _⟩ => (l2At V c t.val t.isLt).2.1
    | ⟨6, _⟩ => (l2At V c t.val t.isLt).2.2.1
  Φ t := l2Phi V c t.val (Nat.le_of_lt_succ t.isLt)
  q _ := fullShare
  owed _ := 0

theorem l2Dat_A (c : Dev nD) (w : Fin cfg2.W) : (l2Dat V c).A w = V c (Pipeline.arrRef spec2 w) := by
  dsimp only [l2Dat]
theorem l2Phi_castSucc (c : Dev nD) (t : Fin cfg2.N) :
    (l2Dat V c).Φ t.castSucc = l2Phi V c t.val (Nat.le_of_lt t.isLt) := by
  dsimp only [l2Dat]; simp only [Fin.coe_castSucc]
theorem l2After0 (c : Dev nD) (t : Fin cfg2.N) : (l2Dat V c).after 0 t = l2Blk V c 0 t := by dsimp only [l2Dat]
theorem l2After1 (c : Dev nD) (t : Fin cfg2.N) : (l2Dat V c).after 1 t = l2Blk V c 1 t := by dsimp only [l2Dat]
theorem l2After2 (c : Dev nD) (t : Fin cfg2.N) : (l2Dat V c).after 2 t = l2Blk V c 2 t := by dsimp only [l2Dat]
theorem l2After3 (c : Dev nD) (t : Fin cfg2.N) : (l2Dat V c).after 3 t = l2Blk V c 3 t := by dsimp only [l2Dat]
theorem l2After4 (c : Dev nD) (t : Fin cfg2.N) : (l2Dat V c).after 4 t = (l2At V c t.val t.isLt).1 := by dsimp only [l2Dat]
theorem l2After5 (c : Dev nD) (t : Fin cfg2.N) : (l2Dat V c).after 5 t = (l2At V c t.val t.isLt).2.1 := by dsimp only [l2Dat]
theorem l2After6 (c : Dev nD) (t : Fin cfg2.N) : (l2Dat V c).after 6 t = (l2At V c t.val t.isLt).2.2.1 := by dsimp only [l2Dat]

/-- An input's current buffer holds its block at every point, fetched there or not. -/
theorem l2Before0 (c : Dev nD) (t : Fin cfg2.N) (d) : (l2Dat V c).before 0 t d = l2Blk V c 0 t :=
  ((l2Dat V c).before_in_eq_fetched 0 rfl (fun _ => rfl) (fun _ _ _ => rfl)
    (fun t => by rw [l2After0]; unfold Dat.blockOf l2Blk; rw [l2Dat_A]; try rfl) t d).trans
    (by unfold Dat.fetched Dat.blockOf l2Blk; rw [l2Dat_A]; try rfl)
theorem l2Before1 (c : Dev nD) (t : Fin cfg2.N) (d) : (l2Dat V c).before 1 t d = l2Blk V c 1 t :=
  ((l2Dat V c).before_in_eq_fetched 1 rfl (fun _ => rfl) (fun _ _ _ => rfl)
    (fun t => by rw [l2After1]; unfold Dat.blockOf l2Blk; rw [l2Dat_A]; try rfl) t d).trans
    (by unfold Dat.fetched Dat.blockOf l2Blk; rw [l2Dat_A]; try rfl)
theorem l2Before2 (c : Dev nD) (t : Fin cfg2.N) (d) : (l2Dat V c).before 2 t d = l2Blk V c 2 t :=
  ((l2Dat V c).before_in_eq_fetched 2 rfl (fun _ => rfl) (fun _ _ _ => rfl)
    (fun t => by rw [l2After2]; unfold Dat.blockOf l2Blk; rw [l2Dat_A]; try rfl) t d).trans
    (by unfold Dat.fetched Dat.blockOf l2Blk; rw [l2Dat_A]; try rfl)
theorem l2Before3 (c : Dev nD) (t : Fin cfg2.N) (d) : (l2Dat V c).before 3 t d = l2Blk V c 3 t :=
  ((l2Dat V c).before_in_eq_fetched 3 rfl (fun _ => rfl) (fun _ _ _ => rfl)
    (fun t => by rw [l2After3]; unfold Dat.blockOf l2Blk; rw [l2Dat_A]; try rfl) t d).trans
    (by unfold Dat.fetched Dat.blockOf l2Blk; rw [l2Dat_A]; try rfl)

/-! ## The body obligation -/

def l2Pre (c : Dev nD) (t : Fin cfg2.N) : sProp 𝕄 :=
  iprop((l2Dat V c).Φ t.castSucc ∗ (l2Dat V c).owesAt () t.castSucc
    ∗ (∃ d, owns (c : Thread nD τ) (l2m0 t) fullShare ((l2Dat V c).before 0 t d))
    ∗ (∃ d, owns (c : Thread nD τ) (l2m1 t) fullShare ((l2Dat V c).before 1 t d))
    ∗ (∃ d, owns (c : Thread nD τ) (l2m2 t) fullShare ((l2Dat V c).before 2 t d))
    ∗ (∃ d, owns (c : Thread nD τ) (l2m3 t) fullShare ((l2Dat V c).before 3 t d))
    ∗ (∃ d, owns (c : Thread nD τ) (l2m4 t) fullShare ((l2Dat V c).before 4 t d))
    ∗ (∃ d, owns (c : Thread nD τ) (l2m5 t) fullShare ((l2Dat V c).before 5 t d))
    ∗ (∃ d, owns (c : Thread nD τ) (l2m6 t) fullShare ((l2Dat V c).before 6 t d)))

def l2Post (c : Dev nD) (t : Fin cfg2.N) : sProp 𝕄 :=
  iprop((l2Dat V c).Φ t.succ ∗ (l2Dat V c).owesAt () t.succ
    ∗ (l2Dat V c).leavesExact 0 t
    ∗ (l2Dat V c).leavesExact 1 t
    ∗ (l2Dat V c).leavesExact 2 t
    ∗ (l2Dat V c).leavesExact 3 t
    ∗ (l2Dat V c).leavesExact 4 t
    ∗ (l2Dat V c).leavesExact 5 t
    ∗ (l2Dat V c).leavesExact 6 t)

set_option maxHeartbeats 8000000 in
/-- The body at any point: which kind of point it is is read off the position; the invariant hands over the scratch
    rows (at anything before the very first point, else at what the point before left) and takes them back at this
    point's contents. -/
theorem l2Point (c : Dev nD) (t : Fin cfg2.N) :
    l2Pre V c t ⊢ wp frame (wpE (defs₀ (F := F)) Variants.none c none) Set.univ (bodyAt2 t) (fun _ => l2Post V c t) := by
  unfold l2Pre l2Post bodyAt2
  simp only [l2Before0, l2Before1, l2Before2, l2Before3]
  rw [show (l2Dat V c).owesAt () t.succ = (l2Dat V c).owesAt () t.castSucc from rfl]
  rw [show (l2Dat V c).Φ t.succ = l2Phi V c (t.val + 1) t.isLt from rfl, l2Phi_succ]
  have hN : t.val < 8 := lt_of_lt_of_eq t.isLt (show cfg2.N = 8 from N_2)
  rw [show (l2Dat V c).leavesExact 0 t = owns (c : Thread nD τ) (l2m0 t) fullShare ((l2Dat V c).after 0 t) from by
    unfold Dat.leavesExact; rw [l2Live0 t], l2After0]
  rw [show (l2Dat V c).leavesExact 1 t = owns (c : Thread nD τ) (l2m1 t) fullShare ((l2Dat V c).after 1 t) from by
    unfold Dat.leavesExact; rw [l2Live1 t], l2After1]
  rw [show (l2Dat V c).leavesExact 2 t = owns (c : Thread nD τ) (l2m2 t) fullShare ((l2Dat V c).after 2 t) from by
    unfold Dat.leavesExact; rw [l2Live2 t], l2After2]
  rw [show (l2Dat V c).leavesExact 3 t = owns (c : Thread nD τ) (l2m3 t) fullShare ((l2Dat V c).after 3 t) from by
    unfold Dat.leavesExact; rw [l2Live3 t], l2After3]
  rw [show (l2Dat V c).leavesExact 4 t = owns (c : Thread nD τ) (l2m4 t) fullShare ((l2Dat V c).after 4 t) from by
    unfold Dat.leavesExact; rw [l2Live4 t], l2After4]
  by_cases h0 : t.val % 4 = 0
  · have hF := (l2First_iff t).mpr h0
    have hL := l2notLast t h0
    rw [Dat.leavesExact_idle (l2Dat V c) 5 t (l2Idle5 t hL) (l2NoFlush5 t hL),
      Dat.leavesExact_idle (l2Dat V c) 6 t (l2Idle6 t hL) (l2NoFlush6 t hL)]
    rw [l2At_first V c t h0]
    unfold l2LeftFirst; (try dsimp only)
    by_cases hz : t.val = 0
    · rw [l2Phi_castSucc V c t, l2Phi_zero V c _ _ hz, l2Rest]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l2FirstAt c t hF hL (l2Blk V c 0 t) (l2Blk V c 1 t) (l2Blk V c 2 t) (l2Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l2CoverFirstS c t hF hL _ _ _ _)
            unfold owns; iexists _; isplitr
            swap; · iexact HQ
            ipureintro; exact View.read_writes_of_cover _ _ _ _ _ (l2CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l2CoverFirstH c t hF hL _ _ _ _)
      isplitl [HA]; · iexists _; iexact HA
      iexists _; iexact HB
    · rw [l2Phi_castSucc V c t, l2Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l2FirstAt c t hF hL (l2Blk V c 0 t) (l2Blk V c 1 t) (l2Blk V c 2 t) (l2Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexists _; iexact HS
      isplitl [HQ]; · iexists _; iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l2CoverFirstS c t hF hL _ _ _ _)
            unfold owns; iexists _; isplitr
            swap; · iexact HQ
            ipureintro; exact View.read_writes_of_cover _ _ _ _ _ (l2CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l2CoverFirstH c t hF hL _ _ _ _)
      isplitl [HA]; · iexists _; iexact HA
      iexists _; iexact HB
  · have hF := l2notFirst t h0
    have hz : t.val ≠ 0 := fun e => h0 (by rw [e])
    by_cases h7 : t.val % 4 = 3
    · have hL := (l2Last_iff t).mpr h7
      rw [show (l2Dat V c).leavesExact 5 t = owns (c : Thread nD τ) (l2m5 t) fullShare ((l2Dat V c).after 5 t) from by
        unfold Dat.leavesExact; rw [l2Live5 t hL], l2After5]
      rw [show (l2Dat V c).leavesExact 6 t = owns (c : Thread nD τ) (l2m6 t) fullShare ((l2Dat V c).after 6 t) from by
        unfold Dat.leavesExact; rw [l2Live6 t hL], l2After6]
      rw [l2At_last V c t h0 h7]
      unfold l2LeftLast; (try dsimp only)
      rw [l2Phi_castSucc V c t, l2Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l2LastAt c t hF hL (l2Blk V c 0 t) (l2Blk V c 1 t) (l2Blk V c 2 t) (l2Blk V c 3 t) _ _).2.2.2.2.2 Set.univ _)
      isplitl [H0]; · iexact H0
      isplitl [H1]; · iexact H1
      isplitl [H2]; · iexact H2
      isplitl [H3]; · iexact H3
      isplitl [HH]; · iexists _; iexact HH
      isplitl [HA]; · iexists _; iexact HA
      isplitl [HB]; · iexists _; iexact HB
      isplitl [HS]; · iexact HS
      isplitl [HQ]; · iexact HQ
      iintro ⟨H0, H1, H2, H3, ⟨%eH, HH⟩, ⟨%eA, HA⟩, ⟨%eB, HB⟩, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l2CoverLastS c t hF hL _ _ _ _ _ _)
            unfold owns; iexists _; isplitr
            swap; · iexact HQ
            ipureintro; exact View.read_writes_of_cover _ _ _ _ _ (l2CoverLastQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l2CoverLastH c t hF hL _ _ _ _ _ _)
      isplitl [HA]
      · unfold owns; iexists _; isplitr
        swap; · iexact HA
        ipureintro; exact View.read_writes_of_cover _ _ _ _ _ (l2CoverLast3 c t hF hL _ _ _ _ _ _)
      unfold owns; iexists _; isplitr
      swap; · iexact HB
      ipureintro; exact View.read_writes_of_cover _ _ _ _ _ (l2CoverLast4 c t hF hL _ _ _ _ _ _)
    · have hL := l2notLast' t h7
      rw [Dat.leavesExact_idle (l2Dat V c) 5 t (l2Idle5 t hL) (l2NoFlush5 t hL),
        Dat.leavesExact_idle (l2Dat V c) 6 t (l2Idle6 t hL) (l2NoFlush6 t hL)]
      rw [l2At_mid V c t h0 h7]
      unfold l2LeftMid; (try dsimp only)
      rw [l2Phi_castSucc V c t, l2Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l2MidAt c t hF hL (l2Blk V c 0 t) (l2Blk V c 1 t) (l2Blk V c 2 t) (l2Blk V c 3 t) _ _).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l2CoverMidS c t hF hL _ _ _ _ _ _)
            unfold owns; iexists _; isplitr
            swap; · iexact HQ
            ipureintro; exact View.read_writes_of_cover _ _ _ _ _ (l2CoverMidQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l2CoverMidH c t hF hL _ _ _ _ _ _)
      isplitl [HA]; · iexists _; iexact HA
      iexists _; iexact HB

theorem l2Obligation (c : Dev nD) : BodyObligation (l2Dat (F := F) V c) (defs₀ (F := F)) Variants.none () Set.univ := fun t => by
  rw [bigSep_W2, bigSep_W2]
  exact l2Point V c t

/-- What the launch hands the region is the invariant before the first point; after any later point the invariant gives
    the region's rest back (what the scratch rows hold is forgotten). -/
theorem l2PhiIn (c : Dev nD) : Pipeline.ΦA spec2 c ⊢ (l2Dat V c).Φ 0 := by
  rw [show (l2Dat V c).Φ 0 = l2Phi V c 0 (Nat.zero_le _) from rfl, l2Phi_zero V c 0 _ rfl]
  try exact Idealize.SL.BI.Entails.refl _
theorem l2PhiOut (c : Dev nD) : (l2Dat V c).Φ (Fin.last cfg2.N) ⊢ Pipeline.ΦA spec2 c := by
  rw [show (l2Dat V c).Φ (Fin.last cfg2.N) = l2Phi V c (Fin.last cfg2.N).val (Nat.le_of_lt_succ (Fin.last cfg2.N).isLt) from rfl,
    l2Phi_pos V c _ _ (by rw [Fin.val_last]; have : cfg2.N = 8 := N_2; omega), l2Rest]
  iintro ⟨⟨⟨HS, HQ⟩, Hrest⟩, Hg⟩
  isplitl [HS HQ Hrest]
  · isplitl [HS HQ]
    · isplitl [HS]
      · iexists _; iexact HS
      iexists _; iexact HQ
    iexact Hrest
  iexact Hg

end Cert.KernelIdeal.Hand

end
-- ==== Proof.Layer3SharedIdeal.lean ====
/-
  The fourth layer's region: at each of 8 grid points (2 halves of the batch × 4 blocks of 4096 rows) the body
  forms z = h' · scale + shift from its block of the previous layer's h' and the two parameter rows, then
  h = sign(z) · sign(W)ᵀ, stores it, and adds the column sums of h and of h² into two one-row scratch buffers that
  are cleared at the first block of a half and copied out (eight identical rows) at the last block of a half.
  Here: the two branch conditions in closed form over the grid, where the two statistics windows are idle, the
  names of the buffers the body is called with, and the region's untouched rest with the two scratch rows split out.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "This is the first block of its half": the inner grid coordinate is 0. -/
abbrev l3First (i : grid3.Coords) : Prop :=
  (Scalar.cmpi .ne (Scalar.extui (Scalar.cmpi .eq (BitVec.ofNat 32 (i 1).val) 0#32)) 0#32) = 1#1
theorem l3First_iff : ∀ t : Fin cfg3.N, l3First (grid3.coords t) ↔ t.val % 4 = 0 :=
  (by decide +kernel : ∀ t : Fin grid3.N, l3First (grid3.coords t) ↔ t.val % 4 = 0)

/-- "This is the last block of its half": the inner grid coordinate is 3. -/
abbrev l3Last (i : grid3.Coords) : Prop := k3_cond2 i = 1#1
theorem l3Last_iff : ∀ t : Fin cfg3.N, l3Last (grid3.coords t) ↔ t.val % 4 = 3 :=
  (by decide +kernel : ∀ t : Fin grid3.N, l3Last (grid3.coords t) ↔ t.val % 4 = 3)

/-! ## Where the windows are idle -/

theorem l3Live0 : ∀ t : Fin cfg3.N, cfg3.idle 0 (grid3.coords t) = false := by decide +kernel
theorem l3Live1 : ∀ t : Fin cfg3.N, cfg3.idle 1 (grid3.coords t) = false := by decide +kernel
theorem l3Live2 : ∀ t : Fin cfg3.N, cfg3.idle 2 (grid3.coords t) = false := by decide +kernel
theorem l3Live3 : ∀ t : Fin cfg3.N, cfg3.idle 3 (grid3.coords t) = false := by decide +kernel
theorem l3Live4 : ∀ t : Fin cfg3.N, cfg3.idle 4 (grid3.coords t) = false := by decide +kernel
/-- The two statistics windows are idle, and not written back, except at the last block of a half. -/
theorem l3Idle5 : ∀ t : Fin cfg3.N, ¬l3Last (grid3.coords t) → cfg3.idle 5 (grid3.coords t) = true := by decide +kernel
theorem l3NoFlush5 : ∀ t : Fin cfg3.N, ¬l3Last (grid3.coords t) → (cfg3.win 5).flush t = false := by decide +kernel
theorem l3Live5 : ∀ t : Fin cfg3.N, l3Last (grid3.coords t) → cfg3.idle 5 (grid3.coords t) = false := by decide +kernel
theorem l3Idle6 : ∀ t : Fin cfg3.N, ¬l3Last (grid3.coords t) → cfg3.idle 6 (grid3.coords t) = true := by decide +kernel
theorem l3NoFlush6 : ∀ t : Fin cfg3.N, ¬l3Last (grid3.coords t) → (cfg3.win 6).flush t = false := by decide +kernel
theorem l3Live6 : ∀ t : Fin cfg3.N, l3Last (grid3.coords t) → cfg3.idle 6 (grid3.coords t) = false := by decide +kernel

/-! ## The buffers the body is called with -/

abbrev l3m0 (t : Fin cfg3.N) : Memref sig .tc .vmem S4096x256 .f32 := win3_0.stage (cfg3.slots t 0)
abbrev l3h0 (t : Fin cfg3.N) : (l3m0 t).IsWhole := hstage3_0 ((cfg3.slots t 0).cast nbuf3_0)
abbrev l3m1 (t : Fin cfg3.N) : Memref sig .tc .vmem S256x256 .bf16 := win3_1.stage (cfg3.slots t 1)
abbrev l3h1 (t : Fin cfg3.N) : (l3m1 t).IsWhole := hstage3_1 ((cfg3.slots t 1).cast nbuf3_1)
abbrev l3m2 (t : Fin cfg3.N) : Memref sig .tc .vmem S1x256 .f32 := win3_2.stage (cfg3.slots t 2)
abbrev l3h2 (t : Fin cfg3.N) : (l3m2 t).IsWhole := hstage3_2 ((cfg3.slots t 2).cast nbuf3_2)
abbrev l3m3 (t : Fin cfg3.N) : Memref sig .tc .vmem S1x256 .f32 := win3_3.stage (cfg3.slots t 3)
abbrev l3h3 (t : Fin cfg3.N) : (l3m3 t).IsWhole := hstage3_3 ((cfg3.slots t 3).cast nbuf3_3)
abbrev l3m4 (t : Fin cfg3.N) : Memref sig .tc .vmem S4096x256 .f32 := win3_4.stage (cfg3.slots t 4)
abbrev l3h4 (t : Fin cfg3.N) : (l3m4 t).IsWhole := hstage3_4 ((cfg3.slots t 4).cast nbuf3_4)
abbrev l3m5 (t : Fin cfg3.N) : Memref sig .tc .vmem S8x256 .f32 := win3_5.stage (cfg3.slots t 5)
abbrev l3h5 (t : Fin cfg3.N) : (l3m5 t).IsWhole := hstage3_5 ((cfg3.slots t 5).cast nbuf3_5)
abbrev l3m6 (t : Fin cfg3.N) : Memref sig .tc .vmem S8x256 .f32 := win3_6.stage (cfg3.slots t 6)
abbrev l3h6 (t : Fin cfg3.N) : (l3m6 t).IsWhole := hstage3_6 ((cfg3.slots t 6).cast nbuf3_6)
/-- The running column sums of h and of h²: one row each, the kernel's own. -/
abbrev l3Sum : Memref sig .tc .vmem S1x256 .f32 := Memref.whole cc3_scratch0
abbrev l3Sq : Memref sig .tc .vmem S1x256 .f32 := Memref.whole cc3_scratch1

/-- The region's untouched rest, with the two scratch rows owned at some contents each. -/
theorem l3Rest (c : Dev nD) :
    (Pipeline.ΦA spec3 c : sProp 𝕄)
      = iprop(iprop(iprop((∃ d, owns (c : Thread nD τ) l3Sum fullShare d) ∗ (∃ d, owns (c : Thread nD τ) l3Sq fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [l3Sum, l3Sq, owns_whole]; try rfl

end Cert.KernelIdeal.Hand

end
-- ==== Proof.Layer3FirstIdeal.lean ====
/-
  The fourth layer's body at the first block of a half (and not the last): the two scratch rows are cleared,
  then take the column sums of this block's h and h²; h is stored; the statistics windows are not touched.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer3SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l3RunFirst (c : Dev nD) (i : grid3.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : l3First i) (hL : ¬l3Last i) (x0 : Vec F S4096x256 .f32) (x1 : Vec F S256x256 .bf16) (x2 : Vec F S1x256 .f32) (x3 : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc3__matmul_stats_kernel_fused i a2 h2 a3 h3 a4 h4 a5 h5 a6 h6 a7 h7 a8 h8 a9 h9 a10 h10) K } := by
  refine ⟨?_, ?_, ?_, fun y3 y4 E K => ?run⟩
  case run =>
    simp only [cc3__matmul_stats_kernel_fused_eq_skeleton]; unfold cc3__matmul_stats_kernel_fused_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%dS, %fS, -, HS⟩, ⟨%dQ, %fQ, -, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.KernelIdeal.Hand

end
-- ==== Proof.Layer3MidIdeal.lean ====
/-
  The fourth layer's body at a block that is neither the first nor the last of its half: h is stored, and the
  two scratch rows, entering at what the block before left, each gain this block's column sums.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer3SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l3RunMid (c : Dev nD) (i : grid3.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l3First i) (hL : ¬l3Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (LS : List (View.Piece (Elt F) S1x256 .f32)), { LQ : List (View.Piece (Elt F) S1x256 .f32) //
      ∀ (y3 y4 : Vec F S8x256 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc3__matmul_stats_kernel_fused i a2 h2 a3 h3 a4 h4 a5 h5 a6 h6 a7 h7 a8 h8 a9 h9 a10 h10) K } := by
  refine ⟨?_, ?_, ?_, fun y3 y4 E K => ?run⟩
  case run =>
    simp only [cc3__matmul_stats_kernel_fused_eq_skeleton]; unfold cc3__matmul_stats_kernel_fused_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.KernelIdeal.Hand

end
-- ==== Proof.Layer3LastIdeal.lean ====
/-
  The fourth layer's body at the last block of a half: as at a middle block, and then each statistics buffer is
  filled with eight copies of the finished scratch row.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer3SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs come back as they were. -/
noncomputable def l3RunLast (c : Dev nD) (i : grid3.Coords) (a2 : Memref sig .tc .vmem S4096x256 .f32) (h2 : a2.IsWhole) (a3 : Memref sig .tc .vmem S256x256 .bf16) (h3 : a3.IsWhole) (a4 : Memref sig .tc .vmem S1x256 .f32) (h4 : a4.IsWhole) (a5 : Memref sig .tc .vmem S1x256 .f32) (h5 : a5.IsWhole) (a6 : Memref sig .tc .vmem S4096x256 .f32) (h6 : a6.IsWhole) (a7 : Memref sig .tc .vmem S8x256 .f32) (h7 : a7.IsWhole) (a8 : Memref sig .tc .vmem S8x256 .f32) (h8 : a8.IsWhole) (a9 : Memref sig .tc .vmem S1x256 .f32) (h9 : a9.IsWhole) (a10 : Memref sig .tc .vmem S1x256 .f32) (h10 : a10.IsWhole)
    (hF : ¬l3First i) (hL : l3Last i) (x0 : Vec F S4096x256 .f32) (x1 : Vec F S256x256 .bf16) (x2 : Vec F S1x256 .f32) (x3 : Vec F S1x256 .f32) (s q : Vec F S1x256 .f32) :
    Σ' (LH : List (View.Piece (Elt F) S4096x256 .f32)) (L3 L4 : List (View.Piece (Elt F) S8x256 .f32)) (LS : List (View.Piece (Elt F) S1x256 .f32)), { LQ : List (View.Piece (Elt F) S1x256 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d)
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ (∃ f, a7.view.loc (c : Thread nD τ) ↦[a7.view.set]{fullShare} a7.view.writes (Elt F) f L3) ∗ (∃ f, a8.view.loc (c : Thread nD τ) ↦[a8.view.set]{fullShare} a8.view.writes (Elt F) f L4)
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc3__matmul_stats_kernel_fused i a2 h2 a3 h3 a4 h4 a5 h5 a6 h6 a7 h7 a8 h8 a9 h9 a10 h10) K } := by
  refine ⟨?_, ?_, ?_, ?_, ?_, fun E K => ?run⟩
  case run =>
    simp only [cc3__matmul_stats_kernel_fused_eq_skeleton]; unfold cc3__matmul_stats_kernel_fused_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [HS]; · iexists _; iexact HS
    iexists _; iexact HQ

end Cert.KernelIdeal.Hand

end
-- ==== Proof.Layer3RegionIdeal.lean ====
/-
  The fourth layer's region as a whole: what each kind of grid point leaves in the buffers, the accumulation of
  the two scratch rows over the four blocks of a half (by recursion on the position: a first block starts afresh,
  every other block adds to what the block before left), the invariant that carries the scratch rows from one
  point to the next, and the body's obligation at every point. Stated at a parameter V: the contents of the
  core's buffers when the region is entered.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer3FirstIdeal
import proofs.«126670_j49074296324140_2_alg».proof.Proof.Layer3MidIdeal
import proofs.«126670_j49074296324140_2_alg».proof.Proof.Layer3LastIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def l3Blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Fixed views through which a buffer's contents after a list of stores are stated (the choice of buffer does not
    matter: only its shape does). -/
abbrev l3VH : View sig .tc .vmem S4096x256 .f32 := (Memref.whole cc3_stg4_0 : Memref sig .tc .vmem S4096x256 .f32).view
abbrev l3V3 : View sig .tc .vmem S8x256 .f32 := (Memref.whole cc3_stg5_0 : Memref sig .tc .vmem S8x256 .f32).view
abbrev l3V4 : View sig .tc .vmem S8x256 .f32 := (Memref.whole cc3_stg6_0 : Memref sig .tc .vmem S8x256 .f32).view
abbrev l3VS : View sig .tc .vmem S1x256 .f32 := l3Sum.view
abbrev l3VQ : View sig .tc .vmem S1x256 .f32 := l3Sq.view

/-! ## The three kinds of point, at the buffers the pipeline passes -/

abbrev l3FirstAt (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) :=
  l3RunFirst c (grid3.coords t) (l3m0 t) (l3h0 t) (l3m1 t) (l3h1 t) (l3m2 t) (l3h2 t) (l3m3 t) (l3h3 t) (l3m4 t) (l3h4 t) (l3m5 t) (l3h5 t) (l3m6 t) (l3h6 t) l3Sum (Memref.isWhole_whole _) l3Sq (Memref.isWhole_whole _) hF hL x0 x1 x2 x3
abbrev l3MidAt (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) :=
  l3RunMid c (grid3.coords t) (l3m0 t) (l3h0 t) (l3m1 t) (l3h1 t) (l3m2 t) (l3h2 t) (l3m3 t) (l3h3 t) (l3m4 t) (l3h4 t) (l3m5 t) (l3h5 t) (l3m6 t) (l3h6 t) l3Sum (Memref.isWhole_whole _) l3Sq (Memref.isWhole_whole _) hF hL x0 x1 x2 x3 s q
abbrev l3LastAt (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) :=
  l3RunLast c (grid3.coords t) (l3m0 t) (l3h0 t) (l3m1 t) (l3h1 t) (l3m2 t) (l3h2 t) (l3m3 t) (l3h3 t) (l3m4 t) (l3h4 t) (l3m5 t) (l3h5 t) (l3m6 t) (l3h6 t) l3Sum (Memref.isWhole_whole _) l3Sq (Memref.isWhole_whole _) hF hL x0 x1 x2 x3 s q

/-! Every list of stores covers its buffer (each buffer's last store is of the whole buffer). -/
theorem l3CoverFirstH (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) (y : S4096x256.Idx) :
    ∃ pc ∈ (l3FirstAt c t hF hL x0 x1 x2 x3).1, y ∈ pc.1.set :=
  View.cover_of_tiledL (l3FirstAt c t hF hL x0 x1 x2 x3).1 S4096x256.size (by sl_kernel_rfl) y
theorem l3CoverFirstS (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) (y : S1x256.Idx) :
    ∃ pc ∈ (l3FirstAt c t hF hL x0 x1 x2 x3).2.1, y ∈ pc.1.set :=
  View.cover_of_tiledL (l3FirstAt c t hF hL x0 x1 x2 x3).2.1 S1x256.size (by sl_kernel_rfl) y
theorem l3CoverFirstQ (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) (y : S1x256.Idx) :
    ∃ pc ∈ (l3FirstAt c t hF hL x0 x1 x2 x3).2.2.1, y ∈ pc.1.set :=
  View.cover_of_tiledL (l3FirstAt c t hF hL x0 x1 x2 x3).2.2.1 S1x256.size (by sl_kernel_rfl) y
theorem l3CoverMidH (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l3MidAt c t hF hL x0 x1 x2 x3 s q).1, y ∈ pc.1.set :=
  View.cover_of_tiledL (l3MidAt c t hF hL x0 x1 x2 x3 s q).1 S4096x256.size (by sl_kernel_rfl) y
theorem l3CoverMidS (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) (y : S1x256.Idx) :
    ∃ pc ∈ (l3MidAt c t hF hL x0 x1 x2 x3 s q).2.1, y ∈ pc.1.set :=
  View.cover_of_tiledL (l3MidAt c t hF hL x0 x1 x2 x3 s q).2.1 S1x256.size (by sl_kernel_rfl) y
theorem l3CoverMidQ (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) (y : S1x256.Idx) :
    ∃ pc ∈ (l3MidAt c t hF hL x0 x1 x2 x3 s q).2.2.1, y ∈ pc.1.set :=
  View.cover_of_tiledL (l3MidAt c t hF hL x0 x1 x2 x3 s q).2.2.1 S1x256.size (by sl_kernel_rfl) y
theorem l3CoverLastH (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) (y : S4096x256.Idx) :
    ∃ pc ∈ (l3LastAt c t hF hL x0 x1 x2 x3 s q).1, y ∈ pc.1.set :=
  View.cover_of_tiledL (l3LastAt c t hF hL x0 x1 x2 x3 s q).1 S4096x256.size (by sl_kernel_rfl) y
theorem l3CoverLast3 (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) (y : S8x256.Idx) :
    ∃ pc ∈ (l3LastAt c t hF hL x0 x1 x2 x3 s q).2.1, y ∈ pc.1.set :=
  View.cover_of_tiledL (l3LastAt c t hF hL x0 x1 x2 x3 s q).2.1 S8x256.size (by sl_kernel_rfl) y
theorem l3CoverLast4 (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) (y : S8x256.Idx) :
    ∃ pc ∈ (l3LastAt c t hF hL x0 x1 x2 x3 s q).2.2.1, y ∈ pc.1.set :=
  View.cover_of_tiledL (l3LastAt c t hF hL x0 x1 x2 x3 s q).2.2.1 S8x256.size (by sl_kernel_rfl) y
theorem l3CoverLastS (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) (y : S1x256.Idx) :
    ∃ pc ∈ (l3LastAt c t hF hL x0 x1 x2 x3 s q).2.2.2.1, y ∈ pc.1.set :=
  View.cover_of_tiledL (l3LastAt c t hF hL x0 x1 x2 x3 s q).2.2.2.1 S1x256.size (by sl_kernel_rfl) y
theorem l3CoverLastQ (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) (y : S1x256.Idx) :
    ∃ pc ∈ (l3LastAt c t hF hL x0 x1 x2 x3 s q).2.2.2.2.1, y ∈ pc.1.set :=
  View.cover_of_tiledL (l3LastAt c t hF hL x0 x1 x2 x3 s q).2.2.2.2.1 S1x256.size (by sl_kernel_rfl) y

/-- What a point of each kind leaves: (h's buffer, the two statistics buffers, the two scratch rows). At a point that
    does not store into the statistics buffers their entries are placeholders nothing reads. -/
def l3LeftFirst (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) : Vec F S4096x256 .f32 × Vec F S8x256 .f32 × Vec F S8x256 .f32 × Vec F S1x256 .f32 × Vec F S1x256 .f32 :=
  (l3VH.read (Elt F) (l3VH.writes (Elt F) l3VH.junk (l3FirstAt c t hF hL x0 x1 x2 x3).1), l3V3.read (Elt F) l3V3.junk, l3V4.read (Elt F) l3V4.junk,
   l3VS.read (Elt F) (l3VS.writes (Elt F) l3VS.junk (l3FirstAt c t hF hL x0 x1 x2 x3).2.1), l3VQ.read (Elt F) (l3VQ.writes (Elt F) l3VQ.junk (l3FirstAt c t hF hL x0 x1 x2 x3).2.2.1))
def l3LeftMid (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l3VH.read (Elt F) (l3VH.writes (Elt F) l3VH.junk (l3MidAt c t hF hL x0 x1 x2 x3 s q).1), l3V3.read (Elt F) l3V3.junk, l3V4.read (Elt F) l3V4.junk,
   l3VS.read (Elt F) (l3VS.writes (Elt F) l3VS.junk (l3MidAt c t hF hL x0 x1 x2 x3 s q).2.1), l3VQ.read (Elt F) (l3VQ.writes (Elt F) l3VQ.junk (l3MidAt c t hF hL x0 x1 x2 x3 s q).2.2.1))
def l3LeftLast (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) : Vec F S4096x256 .f32 × Vec F S8x256 .f32 × Vec F S8x256 .f32 × Vec F S1x256 .f32 × Vec F S1x256 .f32 :=
  (l3VH.read (Elt F) (l3VH.writes (Elt F) l3VH.junk (l3LastAt c t hF hL x0 x1 x2 x3 s q).1), l3V3.read (Elt F) (l3V3.writes (Elt F) l3V3.junk (l3LastAt c t hF hL x0 x1 x2 x3 s q).2.1), l3V4.read (Elt F) (l3V4.writes (Elt F) l3V4.junk (l3LastAt c t hF hL x0 x1 x2 x3 s q).2.2.1),
   l3VS.read (Elt F) (l3VS.writes (Elt F) l3VS.junk (l3LastAt c t hF hL x0 x1 x2 x3 s q).2.2.2.1), l3VQ.read (Elt F) (l3VQ.writes (Elt F) l3VQ.junk (l3LastAt c t hF hL x0 x1 x2 x3 s q).2.2.2.2.1))

theorem l3notLast (t : Fin cfg3.N) (h0 : t.val % 4 = 0) : ¬l3Last (grid3.coords t) :=
  fun h => by have h' := (l3Last_iff t).mp h; omega
theorem l3notFirst (t : Fin cfg3.N) (h0 : ¬t.val % 4 = 0) : ¬l3First (grid3.coords t) :=
  fun h => h0 ((l3First_iff t).mp h)
theorem l3notLast' (t : Fin cfg3.N) (h7 : ¬t.val % 4 = 3) : ¬l3Last (grid3.coords t) :=
  fun h => h7 ((l3Last_iff t).mp h)

/-! ## The accumulation -/

/-- What the buffers hold after the body at position n, by recursion on the position: a first block starts the scratch
    rows afresh; every other block continues from what the block before left in them. -/
def l3At (c : Dev nD) : (n : ℕ) → n < cfg3.N → Vec F S4096x256 .f32 × Vec F S8x256 .f32 × Vec F S8x256 .f32 × Vec F S1x256 .f32 × Vec F S1x256 .f32
  | 0, hn => l3LeftFirst c ⟨0, hn⟩ ((l3First_iff ⟨0, hn⟩).mpr (Nat.zero_mod _)) (l3notLast ⟨0, hn⟩ (Nat.zero_mod _)) (l3Blk V c 0 ⟨0, hn⟩) (l3Blk V c 1 ⟨0, hn⟩) (l3Blk V c 2 ⟨0, hn⟩) (l3Blk V c 3 ⟨0, hn⟩)
  | n + 1, hn =>
    if h0 : (n + 1) % 4 = 0 then
      l3LeftFirst c ⟨n + 1, hn⟩ ((l3First_iff ⟨n + 1, hn⟩).mpr h0) (l3notLast ⟨n + 1, hn⟩ h0) (l3Blk V c 0 ⟨n + 1, hn⟩) (l3Blk V c 1 ⟨n + 1, hn⟩) (l3Blk V c 2 ⟨n + 1, hn⟩) (l3Blk V c 3 ⟨n + 1, hn⟩)
    else if h7 : (n + 1) % 4 = 3 then
      l3LeftLast c ⟨n + 1, hn⟩ (l3notFirst ⟨n + 1, hn⟩ h0) ((l3Last_iff ⟨n + 1, hn⟩).mpr h7) (l3Blk V c 0 ⟨n + 1, hn⟩) (l3Blk V c 1 ⟨n + 1, hn⟩) (l3Blk V c 2 ⟨n + 1, hn⟩) (l3Blk V c 3 ⟨n + 1, hn⟩)
        (l3At c n (Nat.lt_of_succ_lt hn)).2.2.2.1 (l3At c n (Nat.lt_of_succ_lt hn)).2.2.2.2
    else
      l3LeftMid c ⟨n + 1, hn⟩ (l3notFirst ⟨n + 1, hn⟩ h0) (l3notLast' ⟨n + 1, hn⟩ h7) (l3Blk V c 0 ⟨n + 1, hn⟩) (l3Blk V c 1 ⟨n + 1, hn⟩) (l3Blk V c 2 ⟨n + 1, hn⟩) (l3Blk V c 3 ⟨n + 1, hn⟩)
        (l3At c n (Nat.lt_of_succ_lt hn)).2.2.2.1 (l3At c n (Nat.lt_of_succ_lt hn)).2.2.2.2

theorem l3At_first (c : Dev nD) (t : Fin cfg3.N) (h0 : t.val % 4 = 0) :
    l3At V c t.val t.isLt = l3LeftFirst c t ((l3First_iff t).mpr h0) (l3notLast t h0) (l3Blk V c 0 t) (l3Blk V c 1 t) (l3Blk V c 2 t) (l3Blk V c 3 t) := by
  obtain ⟨n, hn⟩ := t
  cases n with
  | zero => exact rfl
  | succ n => exact (dif_pos h0).trans rfl

theorem l3At_last (c : Dev nD) (t : Fin cfg3.N) (h0 : ¬t.val % 4 = 0) (h7 : t.val % 4 = 3) :
    l3At V c t.val t.isLt = l3LeftLast c t (l3notFirst t h0) ((l3Last_iff t).mpr h7) (l3Blk V c 0 t) (l3Blk V c 1 t) (l3Blk V c 2 t) (l3Blk V c 3 t)
      (l3At V c (t.val - 1) (Nat.lt_of_le_of_lt (Nat.sub_le _ _) t.isLt)).2.2.2.1 (l3At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h7).trans rfl)

theorem l3At_mid (c : Dev nD) (t : Fin cfg3.N) (h0 : ¬t.val % 4 = 0) (h7 : ¬t.val % 4 = 3) :
    l3At V c t.val t.isLt = l3LeftMid c t (l3notFirst t h0) (l3notLast' t h7) (l3Blk V c 0 t) (l3Blk V c 1 t) (l3Blk V c 2 t) (l3Blk V c 3 t)
      (l3At V c (t.val - 1) (Nat.lt_of_le_of_lt (Nat.sub_le _ _) t.isLt)).2.2.2.1 (l3At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h7).trans rfl)

/-! ## The invariant between points -/

/-- Before the first point the region's rest as the launch hands it over; afterwards the same with the two scratch rows
    at what the point before left in them. -/
def l3Phi (c : Dev nD) : (n : ℕ) → n ≤ cfg3.N → sProp 𝕄
  | 0, _ => Pipeline.ΦA spec3 c
  | n + 1, hn => iprop(iprop(iprop(owns (c : Thread nD τ) l3Sum fullShare (l3At V c n hn).2.2.2.1 ∗ owns (c : Thread nD τ) l3Sq fullShare (l3At V c n hn).2.2.2.2)
      ∗ Pipeline.scopedRestBut (Ix := Unit) (Name := ℕ) (U := UR sig nD τ) (Lvl := ℕ) (Val := Elt F) spec3 c [cc3_scratch0, cc3_scratch1]) ∗ (∃ r, prngReg c r))

theorem l3Phi_zero (c : Dev nD) (n : ℕ) (h : n ≤ cfg3.N) (hz : n = 0) : l3Phi V c n h = Pipeline.ΦA spec3 c := by
  subst hz; rfl
theorem l3Phi_succ (c : Dev nD) (n : ℕ) (hn : n < cfg3.N) :
    l3Phi V c (n + 1) hn = iprop(iprop(iprop(owns (c : Thread nD τ) l3Sum fullShare (l3At V c n hn).2.2.2.1 ∗ owns (c : Thread nD τ) l3Sq fullShare (l3At V c n hn).2.2.2.2)
      ∗ Pipeline.scopedRestBut (Ix := Unit) (Name := ℕ) (U := UR sig nD τ) (Lvl := ℕ) (Val := Elt F) spec3 c [cc3_scratch0, cc3_scratch1]) ∗ (∃ r, prngReg c r)) := rfl
theorem l3Phi_pos (c : Dev nD) (n : ℕ) (h : n ≤ cfg3.N) (hz : n ≠ 0) :
    l3Phi V c n h = iprop(iprop(iprop(owns (c : Thread nD τ) l3Sum fullShare (l3At V c (n - 1) (by omega)).2.2.2.1 ∗ owns (c : Thread nD τ) l3Sq fullShare (l3At V c (n - 1) (by omega)).2.2.2.2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The proof data of the region -/

def l3Dat (c : Dev nD) : Dat τ (Elt F) Unit ℕ (UR sig nD τ) ℕ cfg3 c where
  A w := V c (Pipeline.arrRef spec3 w)
  after w t := match w with
    | ⟨0, _⟩ => l3Blk V c 0 t
    | ⟨1, _⟩ => l3Blk V c 1 t
    | ⟨2, _⟩ => l3Blk V c 2 t
    | ⟨3, _⟩ => l3Blk V c 3 t
    | ⟨4, _⟩ => (l3At V c t.val t.isLt).1
    | ⟨5, _⟩ => (l3At V c t.val t.isLt).2.1
    | ⟨6, _⟩ => (l3At V c t.val t.isLt).2.2.1
  Φ t := l3Phi V c t.val (Nat.le_of_lt_succ t.isLt)
  q _ := fullShare
  owed _ := 0

theorem l3Dat_A (c : Dev nD) (w : Fin cfg3.W) : (l3Dat V c).A w = V c (Pipeline.arrRef spec3 w) := by
  dsimp only [l3Dat]
theorem l3Phi_castSucc (c : Dev nD) (t : Fin cfg3.N) :
    (l3Dat V c).Φ t.castSucc = l3Phi V c t.val (Nat.le_of_lt t.isLt) := by
  dsimp only [l3Dat]; simp only [Fin.coe_castSucc]
theorem l3After0 (c : Dev nD) (t : Fin cfg3.N) : (l3Dat V c).after 0 t = l3Blk V c 0 t := by dsimp only [l3Dat]
theorem l3After1 (c : Dev nD) (t : Fin cfg3.N) : (l3Dat V c).after 1 t = l3Blk V c 1 t := by dsimp only [l3Dat]
theorem l3After2 (c : Dev nD) (t : Fin cfg3.N) : (l3Dat V c).after 2 t = l3Blk V c 2 t := by dsimp only [l3Dat]
theorem l3After3 (c : Dev nD) (t : Fin cfg3.N) : (l3Dat V c).after 3 t = l3Blk V c 3 t := by dsimp only [l3Dat]
theorem l3After4 (c : Dev nD) (t : Fin cfg3.N) : (l3Dat V c).after 4 t = (l3At V c t.val t.isLt).1 := by dsimp only [l3Dat]
theorem l3After5 (c : Dev nD) (t : Fin cfg3.N) : (l3Dat V c).after 5 t = (l3At V c t.val t.isLt).2.1 := by dsimp only [l3Dat]
theorem l3After6 (c : Dev nD) (t : Fin cfg3.N) : (l3Dat V c).after 6 t = (l3At V c t.val t.isLt).2.2.1 := by dsimp only [l3Dat]

/-- An input's current buffer holds its block at every point, fetched there or not. -/
theorem l3Before0 (c : Dev nD) (t : Fin cfg3.N) (d) : (l3Dat V c).before 0 t d = l3Blk V c 0 t :=
  ((l3Dat V c).before_in_eq_fetched 0 rfl (fun _ => rfl) (fun _ _ _ => rfl)
    (fun t => by rw [l3After0]; unfold Dat.blockOf l3Blk; rw [l3Dat_A]; try rfl) t d).trans
    (by unfold Dat.fetched Dat.blockOf l3Blk; rw [l3Dat_A]; try rfl)
theorem l3Before1 (c : Dev nD) (t : Fin cfg3.N) (d) : (l3Dat V c).before 1 t d = l3Blk V c 1 t :=
  ((l3Dat V c).before_in_eq_fetched 1 rfl (fun _ => rfl) (fun _ _ _ => rfl)
    (fun t => by rw [l3After1]; unfold Dat.blockOf l3Blk; rw [l3Dat_A]; try rfl) t d).trans
    (by unfold Dat.fetched Dat.blockOf l3Blk; rw [l3Dat_A]; try rfl)
theorem l3Before2 (c : Dev nD) (t : Fin cfg3.N) (d) : (l3Dat V c).before 2 t d = l3Blk V c 2 t :=
  ((l3Dat V c).before_in_eq_fetched 2 rfl (fun _ => rfl) (fun _ _ _ => rfl)
    (fun t => by rw [l3After2]; unfold Dat.blockOf l3Blk; rw [l3Dat_A]; try rfl) t d).trans
    (by unfold Dat.fetched Dat.blockOf l3Blk; rw [l3Dat_A]; try rfl)
theorem l3Before3 (c : Dev nD) (t : Fin cfg3.N) (d) : (l3Dat V c).before 3 t d = l3Blk V c 3 t :=
  ((l3Dat V c).before_in_eq_fetched 3 rfl (fun _ => rfl) (fun _ _ _ => rfl)
    (fun t => by rw [l3After3]; unfold Dat.blockOf l3Blk; rw [l3Dat_A]; try rfl) t d).trans
    (by unfold Dat.fetched Dat.blockOf l3Blk; rw [l3Dat_A]; try rfl)

/-! ## The body obligation -/

def l3Pre (c : Dev nD) (t : Fin cfg3.N) : sProp 𝕄 :=
  iprop((l3Dat V c).Φ t.castSucc ∗ (l3Dat V c).owesAt () t.castSucc
    ∗ (∃ d, owns (c : Thread nD τ) (l3m0 t) fullShare ((l3Dat V c).before 0 t d))
    ∗ (∃ d, owns (c : Thread nD τ) (l3m1 t) fullShare ((l3Dat V c).before 1 t d))
    ∗ (∃ d, owns (c : Thread nD τ) (l3m2 t) fullShare ((l3Dat V c).before 2 t d))
    ∗ (∃ d, owns (c : Thread nD τ) (l3m3 t) fullShare ((l3Dat V c).before 3 t d))
    ∗ (∃ d, owns (c : Thread nD τ) (l3m4 t) fullShare ((l3Dat V c).before 4 t d))
    ∗ (∃ d, owns (c : Thread nD τ) (l3m5 t) fullShare ((l3Dat V c).before 5 t d))
    ∗ (∃ d, owns (c : Thread nD τ) (l3m6 t) fullShare ((l3Dat V c).before 6 t d)))

def l3Post (c : Dev nD) (t : Fin cfg3.N) : sProp 𝕄 :=
  iprop((l3Dat V c).Φ t.succ ∗ (l3Dat V c).owesAt () t.succ
    ∗ (l3Dat V c).leavesExact 0 t
    ∗ (l3Dat V c).leavesExact 1 t
    ∗ (l3Dat V c).leavesExact 2 t
    ∗ (l3Dat V c).leavesExact 3 t
    ∗ (l3Dat V c).leavesExact 4 t
    ∗ (l3Dat V c).leavesExact 5 t
    ∗ (l3Dat V c).leavesExact 6 t)

set_option maxHeartbeats 8000000 in
/-- The body at any point: which kind of point it is is read off the position; the invariant hands over the scratch
    rows (at anything before the very first point, else at what the point before left) and takes them back at this
    point's contents. -/
theorem l3Point (c : Dev nD) (t : Fin cfg3.N) :
    l3Pre V c t ⊢ wp frame (wpE (defs₀ (F := F)) Variants.none c none) Set.univ (bodyAt3 t) (fun _ => l3Post V c t) := by
  unfold l3Pre l3Post bodyAt3
  simp only [l3Before0, l3Before1, l3Before2, l3Before3]
  rw [show (l3Dat V c).owesAt () t.succ = (l3Dat V c).owesAt () t.castSucc from rfl]
  rw [show (l3Dat V c).Φ t.succ = l3Phi V c (t.val + 1) t.isLt from rfl, l3Phi_succ]
  have hN : t.val < 8 := lt_of_lt_of_eq t.isLt (show cfg3.N = 8 from N_3)
  rw [show (l3Dat V c).leavesExact 0 t = owns (c : Thread nD τ) (l3m0 t) fullShare ((l3Dat V c).after 0 t) from by
    unfold Dat.leavesExact; rw [l3Live0 t], l3After0]
  rw [show (l3Dat V c).leavesExact 1 t = owns (c : Thread nD τ) (l3m1 t) fullShare ((l3Dat V c).after 1 t) from by
    unfold Dat.leavesExact; rw [l3Live1 t], l3After1]
  rw [show (l3Dat V c).leavesExact 2 t = owns (c : Thread nD τ) (l3m2 t) fullShare ((l3Dat V c).after 2 t) from by
    unfold Dat.leavesExact; rw [l3Live2 t], l3After2]
  rw [show (l3Dat V c).leavesExact 3 t = owns (c : Thread nD τ) (l3m3 t) fullShare ((l3Dat V c).after 3 t) from by
    unfold Dat.leavesExact; rw [l3Live3 t], l3After3]
  rw [show (l3Dat V c).leavesExact 4 t = owns (c : Thread nD τ) (l3m4 t) fullShare ((l3Dat V c).after 4 t) from by
    unfold Dat.leavesExact; rw [l3Live4 t], l3After4]
  by_cases h0 : t.val % 4 = 0
  · have hF := (l3First_iff t).mpr h0
    have hL := l3notLast t h0
    rw [Dat.leavesExact_idle (l3Dat V c) 5 t (l3Idle5 t hL) (l3NoFlush5 t hL),
      Dat.leavesExact_idle (l3Dat V c) 6 t (l3Idle6 t hL) (l3NoFlush6 t hL)]
    rw [l3At_first V c t h0]
    unfold l3LeftFirst; (try dsimp only)
    by_cases hz : t.val = 0
    · rw [l3Phi_castSucc V c t, l3Phi_zero V c _ _ hz, l3Rest]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l3FirstAt c t hF hL (l3Blk V c 0 t) (l3Blk V c 1 t) (l3Blk V c 2 t) (l3Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l3CoverFirstS c t hF hL _ _ _ _)
            unfold owns; iexists _; isplitr
            swap; · iexact HQ
            ipureintro; exact View.read_writes_of_cover _ _ _ _ _ (l3CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l3CoverFirstH c t hF hL _ _ _ _)
      isplitl [HA]; · iexists _; iexact HA
      iexists _; iexact HB
    · rw [l3Phi_castSucc V c t, l3Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l3FirstAt c t hF hL (l3Blk V c 0 t) (l3Blk V c 1 t) (l3Blk V c 2 t) (l3Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexists _; iexact HS
      isplitl [HQ]; · iexists _; iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l3CoverFirstS c t hF hL _ _ _ _)
            unfold owns; iexists _; isplitr
            swap; · iexact HQ
            ipureintro; exact View.read_writes_of_cover _ _ _ _ _ (l3CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l3CoverFirstH c t hF hL _ _ _ _)
      isplitl [HA]; · iexists _; iexact HA
      iexists _; iexact HB
  · have hF := l3notFirst t h0
    have hz : t.val ≠ 0 := fun e => h0 (by rw [e])
    by_cases h7 : t.val % 4 = 3
    · have hL := (l3Last_iff t).mpr h7
      rw [show (l3Dat V c).leavesExact 5 t = owns (c : Thread nD τ) (l3m5 t) fullShare ((l3Dat V c).after 5 t) from by
        unfold Dat.leavesExact; rw [l3Live5 t hL], l3After5]
      rw [show (l3Dat V c).leavesExact 6 t = owns (c : Thread nD τ) (l3m6 t) fullShare ((l3Dat V c).after 6 t) from by
        unfold Dat.leavesExact; rw [l3Live6 t hL], l3After6]
      rw [l3At_last V c t h0 h7]
      unfold l3LeftLast; (try dsimp only)
      rw [l3Phi_castSucc V c t, l3Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l3LastAt c t hF hL (l3Blk V c 0 t) (l3Blk V c 1 t) (l3Blk V c 2 t) (l3Blk V c 3 t) _ _).2.2.2.2.2 Set.univ _)
      isplitl [H0]; · iexact H0
      isplitl [H1]; · iexact H1
      isplitl [H2]; · iexact H2
      isplitl [H3]; · iexact H3
      isplitl [HH]; · iexists _; iexact HH
      isplitl [HA]; · iexists _; iexact HA
      isplitl [HB]; · iexists _; iexact HB
      isplitl [HS]; · iexact HS
      isplitl [HQ]; · iexact HQ
      iintro ⟨H0, H1, H2, H3, ⟨%eH, HH⟩, ⟨%eA, HA⟩, ⟨%eB, HB⟩, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l3CoverLastS c t hF hL _ _ _ _ _ _)
            unfold owns; iexists _; isplitr
            swap; · iexact HQ
            ipureintro; exact View.read_writes_of_cover _ _ _ _ _ (l3CoverLastQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l3CoverLastH c t hF hL _ _ _ _ _ _)
      isplitl [HA]
      · unfold owns; iexists _; isplitr
        swap; · iexact HA
        ipureintro; exact View.read_writes_of_cover _ _ _ _ _ (l3CoverLast3 c t hF hL _ _ _ _ _ _)
      unfold owns; iexists _; isplitr
      swap; · iexact HB
      ipureintro; exact View.read_writes_of_cover _ _ _ _ _ (l3CoverLast4 c t hF hL _ _ _ _ _ _)
    · have hL := l3notLast' t h7
      rw [Dat.leavesExact_idle (l3Dat V c) 5 t (l3Idle5 t hL) (l3NoFlush5 t hL),
        Dat.leavesExact_idle (l3Dat V c) 6 t (l3Idle6 t hL) (l3NoFlush6 t hL)]
      rw [l3At_mid V c t h0 h7]
      unfold l3LeftMid; (try dsimp only)
      rw [l3Phi_castSucc V c t, l3Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l3MidAt c t hF hL (l3Blk V c 0 t) (l3Blk V c 1 t) (l3Blk V c 2 t) (l3Blk V c 3 t) _ _).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l3CoverMidS c t hF hL _ _ _ _ _ _)
            unfold owns; iexists _; isplitr
            swap; · iexact HQ
            ipureintro; exact View.read_writes_of_cover _ _ _ _ _ (l3CoverMidQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l3CoverMidH c t hF hL _ _ _ _ _ _)
      isplitl [HA]; · iexists _; iexact HA
      iexists _; iexact HB

theorem l3Obligation (c : Dev nD) : BodyObligation (l3Dat (F := F) V c) (defs₀ (F := F)) Variants.none () Set.univ := fun t => by
  rw [bigSep_W3, bigSep_W3]
  exact l3Point V c t

/-- What the launch hands the region is the invariant before the first point; after any later point the invariant gives
    the region's rest back (what the scratch rows hold is forgotten). -/
theorem l3PhiIn (c : Dev nD) : Pipeline.ΦA spec3 c ⊢ (l3Dat V c).Φ 0 := by
  rw [show (l3Dat V c).Φ 0 = l3Phi V c 0 (Nat.zero_le _) from rfl, l3Phi_zero V c 0 _ rfl]
  try exact Idealize.SL.BI.Entails.refl _
theorem l3PhiOut (c : Dev nD) : (l3Dat V c).Φ (Fin.last cfg3.N) ⊢ Pipeline.ΦA spec3 c := by
  rw [show (l3Dat V c).Φ (Fin.last cfg3.N) = l3Phi V c (Fin.last cfg3.N).val (Nat.le_of_lt_succ (Fin.last cfg3.N).isLt) from rfl,
    l3Phi_pos V c _ _ (by rw [Fin.val_last]; have : cfg3.N = 8 := N_3; omega), l3Rest]
  iintro ⟨⟨⟨HS, HQ⟩, Hrest⟩, Hg⟩
  isplitl [HS HQ Hrest]
  · isplitl [HS HQ]
    · isplitl [HS]
      · iexists _; iexact HS
      iexists _; iexact HQ
    iexact Hrest
  iexact Hg

end Cert.KernelIdeal.Hand

end
-- ==== Proof.Layer4SharedIdeal.lean ====
/-
  The last (ten-column) layer's region: at each of 8 grid points (2 halves of the batch × 4 blocks of 4096 rows) the body
  forms z = h' · scale + shift from its block of the previous layer's h' and the two parameter rows, then
  h = sign(z) · sign(W)ᵀ, stores it, and adds the column sums of h and of h² into two one-row scratch buffers that
  are cleared at the first block of a half and copied out (eight identical rows) at the last block of a half.
  Here: the two branch conditions in closed form over the grid, where the two statistics windows are idle, the
  names of the buffers the body is called with, and the region's untouched rest with the two scratch rows split out.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branches -/

/-- "This is the first block of its half": the inner grid coordinate is 0. -/
abbrev l4First (i : grid4.Coords) : Prop :=
  (Scalar.cmpi .ne (Scalar.extui (Scalar.cmpi .eq (BitVec.ofNat 32 (i 1).val) 0#32)) 0#32) = 1#1
theorem l4First_iff : ∀ t : Fin cfg4.N, l4First (grid4.coords t) ↔ t.val % 4 = 0 :=
  (by decide +kernel : ∀ t : Fin grid4.N, l4First (grid4.coords t) ↔ t.val % 4 = 0)

/-- "This is the last block of its half": the inner grid coordinate is 3. -/
abbrev l4Last (i : grid4.Coords) : Prop := k4_cond2 i = 1#1
theorem l4Last_iff : ∀ t : Fin cfg4.N, l4Last (grid4.coords t) ↔ t.val % 4 = 3 :=
  (by decide +kernel : ∀ t : Fin grid4.N, l4Last (grid4.coords t) ↔ t.val % 4 = 3)

/-! ## Where the windows are idle -/

theorem l4Live0 : ∀ t : Fin cfg4.N, cfg4.idle 0 (grid4.coords t) = false := by decide +kernel
theorem l4Live1 : ∀ t : Fin cfg4.N, cfg4.idle 1 (grid4.coords t) = false := by decide +kernel
theorem l4Live2 : ∀ t : Fin cfg4.N, cfg4.idle 2 (grid4.coords t) = false := by decide +kernel
theorem l4Live3 : ∀ t : Fin cfg4.N, cfg4.idle 3 (grid4.coords t) = false := by decide +kernel
theorem l4Live4 : ∀ t : Fin cfg4.N, cfg4.idle 4 (grid4.coords t) = false := by decide +kernel
/-- The two statistics windows are idle, and not written back, except at the last block of a half. -/
theorem l4Idle5 : ∀ t : Fin cfg4.N, ¬l4Last (grid4.coords t) → cfg4.idle 5 (grid4.coords t) = true := by decide +kernel
theorem l4NoFlush5 : ∀ t : Fin cfg4.N, ¬l4Last (grid4.coords t) → (cfg4.win 5).flush t = false := by decide +kernel
theorem l4Live5 : ∀ t : Fin cfg4.N, l4Last (grid4.coords t) → cfg4.idle 5 (grid4.coords t) = false := by decide +kernel
theorem l4Idle6 : ∀ t : Fin cfg4.N, ¬l4Last (grid4.coords t) → cfg4.idle 6 (grid4.coords t) = true := by decide +kernel
theorem l4NoFlush6 : ∀ t : Fin cfg4.N, ¬l4Last (grid4.coords t) → (cfg4.win 6).flush t = false := by decide +kernel
theorem l4Live6 : ∀ t : Fin cfg4.N, l4Last (grid4.coords t) → cfg4.idle 6 (grid4.coords t) = false := by decide +kernel

/-! ## The buffers the body is called with -/

abbrev l4m0 (t : Fin cfg4.N) : Memref sig .tc .vmem S4096x256 .f32 := win4_0.stage (cfg4.slots t 0)
abbrev l4h0 (t : Fin cfg4.N) : (l4m0 t).IsWhole := hstage4_0 ((cfg4.slots t 0).cast nbuf4_0)
abbrev l4m1 (t : Fin cfg4.N) : Memref sig .tc .vmem S10x256 .bf16 := win4_1.stage (cfg4.slots t 1)
abbrev l4h1 (t : Fin cfg4.N) : (l4m1 t).IsWhole := hstage4_1 ((cfg4.slots t 1).cast nbuf4_1)
abbrev l4m2 (t : Fin cfg4.N) : Memref sig .tc .vmem S1x256 .f32 := win4_2.stage (cfg4.slots t 2)
abbrev l4h2 (t : Fin cfg4.N) : (l4m2 t).IsWhole := hstage4_2 ((cfg4.slots t 2).cast nbuf4_2)
abbrev l4m3 (t : Fin cfg4.N) : Memref sig .tc .vmem S1x256 .f32 := win4_3.stage (cfg4.slots t 3)
abbrev l4h3 (t : Fin cfg4.N) : (l4m3 t).IsWhole := hstage4_3 ((cfg4.slots t 3).cast nbuf4_3)
abbrev l4m4 (t : Fin cfg4.N) : Memref sig .tc .vmem S4096x10 .f32 := win4_4.stage (cfg4.slots t 4)
abbrev l4h4 (t : Fin cfg4.N) : (l4m4 t).IsWhole := hstage4_4 ((cfg4.slots t 4).cast nbuf4_4)
abbrev l4m5 (t : Fin cfg4.N) : Memref sig .tc .vmem S8x10 .f32 := win4_5.stage (cfg4.slots t 5)
abbrev l4h5 (t : Fin cfg4.N) : (l4m5 t).IsWhole := hstage4_5 ((cfg4.slots t 5).cast nbuf4_5)
abbrev l4m6 (t : Fin cfg4.N) : Memref sig .tc .vmem S8x10 .f32 := win4_6.stage (cfg4.slots t 6)
abbrev l4h6 (t : Fin cfg4.N) : (l4m6 t).IsWhole := hstage4_6 ((cfg4.slots t 6).cast nbuf4_6)
/-- The running column sums of h and of h²: one row each, the kernel's own. -/
abbrev l4Sum : Memref sig .tc .vmem S1x10 .f32 := Memref.whole cc4_scratch0
abbrev l4Sq : Memref sig .tc .vmem S1x10 .f32 := Memref.whole cc4_scratch1

/-- The region's untouched rest, with the two scratch rows owned at some contents each. -/
theorem l4Rest (c : Dev nD) :
    (Pipeline.ΦA spec4 c : sProp 𝕄)
      = iprop(iprop(iprop((∃ d, owns (c : Thread nD τ) l4Sum fullShare d) ∗ (∃ d, owns (c : Thread nD τ) l4Sq fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [l4Sum, l4Sq, owns_whole]; try rfl

end Cert.KernelIdeal.Hand

end
-- ==== Proof.Layer4FirstIdeal.lean ====
/-
  The last (ten-column) layer's body at the first block of a half (and not the last): the two scratch rows are cleared,
  then take the column sums of this block's h and h²; h is stored; the statistics windows are not touched.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer4SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l4RunFirst (c : Dev nD) (i : grid4.Coords) (a2 : Memref sig .tc .vmem S4096x256 .f32) (h2 : a2.IsWhole) (a3 : Memref sig .tc .vmem S10x256 .bf16) (h3 : a3.IsWhole) (a4 : Memref sig .tc .vmem S1x256 .f32) (h4 : a4.IsWhole) (a5 : Memref sig .tc .vmem S1x256 .f32) (h5 : a5.IsWhole) (a6 : Memref sig .tc .vmem S4096x10 .f32) (h6 : a6.IsWhole) (a7 : Memref sig .tc .vmem S8x10 .f32) (h7 : a7.IsWhole) (a8 : Memref sig .tc .vmem S8x10 .f32) (h8 : a8.IsWhole) (a9 : Memref sig .tc .vmem S1x10 .f32) (h9 : a9.IsWhole) (a10 : Memref sig .tc .vmem S1x10 .f32) (h10 : a10.IsWhole)
    (hF : l4First i) (hL : ¬l4Last i) (x0 : Vec F S4096x256 .f32) (x1 : Vec F S10x256 .bf16) (x2 : Vec F S1x256 .f32) (x3 : Vec F S1x256 .f32) :
    Σ' (LH : List (View.Piece (Elt F) S4096x10 .f32)) (LS : List (View.Piece (Elt F) S1x10 .f32)), { LQ : List (View.Piece (Elt F) S1x10 .f32) //
      ∀ (y3 y4 : Vec F S8x10 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc4__matmul_stats_kernel_fused i a2 h2 a3 h3 a4 h4 a5 h5 a6 h6 a7 h7 a8 h8 a9 h9 a10 h10) K } := by
  refine ⟨?_, ?_, ?_, fun y3 y4 E K => ?run⟩
  case run =>
    simp only [cc4__matmul_stats_kernel_fused_eq_skeleton]; unfold cc4__matmul_stats_kernel_fused_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%dS, %fS, -, HS⟩, ⟨%dQ, %fQ, -, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.KernelIdeal.Hand

end
-- ==== Proof.Layer4MidIdeal.lean ====
/-
  The last (ten-column) layer's body at a block that is neither the first nor the last of its half: h is stored, and the
  two scratch rows, entering at what the block before left, each gain this block's column sums.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer4SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs and the untouched statistics buffers come back as they were. -/
noncomputable def l4RunMid (c : Dev nD) (i : grid4.Coords) (a2 : Memref sig .tc .vmem S4096x256 .f32) (h2 : a2.IsWhole) (a3 : Memref sig .tc .vmem S10x256 .bf16) (h3 : a3.IsWhole) (a4 : Memref sig .tc .vmem S1x256 .f32) (h4 : a4.IsWhole) (a5 : Memref sig .tc .vmem S1x256 .f32) (h5 : a5.IsWhole) (a6 : Memref sig .tc .vmem S4096x10 .f32) (h6 : a6.IsWhole) (a7 : Memref sig .tc .vmem S8x10 .f32) (h7 : a7.IsWhole) (a8 : Memref sig .tc .vmem S8x10 .f32) (h8 : a8.IsWhole) (a9 : Memref sig .tc .vmem S1x10 .f32) (h9 : a9.IsWhole) (a10 : Memref sig .tc .vmem S1x10 .f32) (h10 : a10.IsWhole)
    (hF : ¬l4First i) (hL : ¬l4Last i) (x0 : Vec F S4096x256 .f32) (x1 : Vec F S10x256 .bf16) (x2 : Vec F S1x256 .f32) (x3 : Vec F S1x256 .f32) (s q : Vec F S1x10 .f32) :
    Σ' (LH : List (View.Piece (Elt F) S4096x10 .f32)) (LS : List (View.Piece (Elt F) S1x10 .f32)), { LQ : List (View.Piece (Elt F) S1x10 .f32) //
      ∀ (y3 y4 : Vec F S8x10 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ owns (c : Thread nD τ) a7 fullShare y3 ∗ owns (c : Thread nD τ) a8 fullShare y4
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ owns (c : Thread nD τ) a7 fullShare y3 ∗ owns (c : Thread nD τ) a8 fullShare y4
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc4__matmul_stats_kernel_fused i a2 h2 a3 h3 a4 h4 a5 h5 a6 h6 a7 h7 a8 h8 a9 h9 a10 h10) K } := by
  refine ⟨?_, ?_, ?_, fun y3 y4 E K => ?run⟩
  case run =>
    simp only [cc4__matmul_stats_kernel_fused_eq_skeleton]; unfold cc4__matmul_stats_kernel_fused_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3; obtain rfl := h7.eq_unread hf5; obtain rfl := h8.eq_unread hf6
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]
    · iexists _; isplitr; · ipureintro; exact h7.read_unread _
      iexact H5
    isplitl [H6]
    · iexists _; isplitr; · ipureintro; exact h8.read_unread _
      iexact H6
    isplitl [HS]; · iexists _; iexact HS
    iexists _; iexact HQ

end Cert.KernelIdeal.Hand

end
-- ==== Proof.Layer4LastIdeal.lean ====
/-
  The last (ten-column) layer's body at the last block of a half: as at a middle block, and then each statistics buffer is
  filled with eight copies of the finished scratch row.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer4SharedIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the buffers it stores into, last store first, with the body's triple on whole
    buffers: the inputs come back as they were. -/
noncomputable def l4RunLast (c : Dev nD) (i : grid4.Coords) (a2 : Memref sig .tc .vmem S4096x256 .f32) (h2 : a2.IsWhole) (a3 : Memref sig .tc .vmem S10x256 .bf16) (h3 : a3.IsWhole) (a4 : Memref sig .tc .vmem S1x256 .f32) (h4 : a4.IsWhole) (a5 : Memref sig .tc .vmem S1x256 .f32) (h5 : a5.IsWhole) (a6 : Memref sig .tc .vmem S4096x10 .f32) (h6 : a6.IsWhole) (a7 : Memref sig .tc .vmem S8x10 .f32) (h7 : a7.IsWhole) (a8 : Memref sig .tc .vmem S8x10 .f32) (h8 : a8.IsWhole) (a9 : Memref sig .tc .vmem S1x10 .f32) (h9 : a9.IsWhole) (a10 : Memref sig .tc .vmem S1x10 .f32) (h10 : a10.IsWhole)
    (hF : ¬l4First i) (hL : l4Last i) (x0 : Vec F S4096x256 .f32) (x1 : Vec F S10x256 .bf16) (x2 : Vec F S1x256 .f32) (x3 : Vec F S1x256 .f32) (s q : Vec F S1x10 .f32) :
    Σ' (LH : List (View.Piece (Elt F) S4096x10 .f32)) (L3 L4 : List (View.Piece (Elt F) S8x10 .f32)) (LS : List (View.Piece (Elt F) S1x10 .f32)), { LQ : List (View.Piece (Elt F) S1x10 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ (∃ d, owns (c : Thread nD τ) a6 fullShare d) ∗ (∃ d, owns (c : Thread nD τ) a7 fullShare d) ∗ (∃ d, owns (c : Thread nD τ) a8 fullShare d)
            ∗ owns (c : Thread nD τ) a9 fullShare s ∗ owns (c : Thread nD τ) a10 fullShare q
            ∗ (iprop(owns (c : Thread nD τ) a2 fullShare x0 ∗ owns (c : Thread nD τ) a3 fullShare x1 ∗ owns (c : Thread nD τ) a4 fullShare x2 ∗ owns (c : Thread nD τ) a5 fullShare x3 ∗ (∃ f, a6.view.loc (c : Thread nD τ) ↦[a6.view.set]{fullShare} a6.view.writes (Elt F) f LH) ∗ (∃ f, a7.view.loc (c : Thread nD τ) ↦[a7.view.set]{fullShare} a7.view.writes (Elt F) f L3) ∗ (∃ f, a8.view.loc (c : Thread nD τ) ↦[a8.view.set]{fullShare} a8.view.writes (Elt F) f L4)
                ∗ (∃ f, a9.view.loc (c : Thread nD τ) ↦[a9.view.set]{fullShare} a9.view.writes (Elt F) f LS) ∗ (∃ f, a10.view.loc (c : Thread nD τ) ↦[a10.view.set]{fullShare} a10.view.writes (Elt F) f LQ)) -∗ K ⟨⟩))
          ⊢ wp frame (wpE (defs₀ (F := F)) Variants.none c none) E (cc4__matmul_stats_kernel_fused i a2 h2 a3 h3 a4 h4 a5 h5 a6 h6 a7 h7 a8 h8 a9 h9 a10 h10) K } := by
  refine ⟨?_, ?_, ?_, ?_, ?_, fun E K => ?run⟩
  case run =>
    simp only [cc4__matmul_stats_kernel_fused_eq_skeleton]; unfold cc4__matmul_stats_kernel_fused_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fS, %hfS, HS⟩, ⟨%fQ, %hfQ, HQ⟩, Hk⟩
    obtain rfl := h2.eq_unread hf0; obtain rfl := h3.eq_unread hf1; obtain rfl := h4.eq_unread hf2; obtain rfl := h5.eq_unread hf3
    obtain rfl := h9.eq_unread hfS; obtain rfl := h10.eq_unread hfQ
    sl_exec (disch := first | exact hF | exact hL)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [H6]; · iexists _; iexact H6
    isplitl [HS]; · iexists _; iexact HS
    iexists _; iexact HQ

end Cert.KernelIdeal.Hand

end
-- ==== Proof.Layer4RegionIdeal.lean ====
/-
  The last (ten-column) layer's region as a whole: what each kind of grid point leaves in the buffers, the accumulation of
  the two scratch rows over the four blocks of a half (by recursion on the position: a first block starts afresh,
  every other block adds to what the block before left), the invariant that carries the scratch rows from one
  point to the next, and the body's obligation at every point. Stated at a parameter V: the contents of the
  core's buffers when the region is entered.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer4FirstIdeal
import proofs.«126670_j49074296324140_2_alg».proof.Proof.Layer4MidIdeal
import proofs.«126670_j49074296324140_2_alg».proof.Proof.Layer4LastIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def l4Blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Fixed views through which a buffer's contents after a list of stores are stated (the choice of buffer does not
    matter: only its shape does). -/
abbrev l4VH : View sig .tc .vmem S4096x10 .f32 := (Memref.whole cc4_stg4_0 : Memref sig .tc .vmem S4096x10 .f32).view
abbrev l4V3 : View sig .tc .vmem S8x10 .f32 := (Memref.whole cc4_stg5_0 : Memref sig .tc .vmem S8x10 .f32).view
abbrev l4V4 : View sig .tc .vmem S8x10 .f32 := (Memref.whole cc4_stg6_0 : Memref sig .tc .vmem S8x10 .f32).view
abbrev l4VS : View sig .tc .vmem S1x10 .f32 := l4Sum.view
abbrev l4VQ : View sig .tc .vmem S1x10 .f32 := l4Sq.view

/-! ## The three kinds of point, at the buffers the pipeline passes -/

abbrev l4FirstAt (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) :=
  l4RunFirst c (grid4.coords t) (l4m0 t) (l4h0 t) (l4m1 t) (l4h1 t) (l4m2 t) (l4h2 t) (l4m3 t) (l4h3 t) (l4m4 t) (l4h4 t) (l4m5 t) (l4h5 t) (l4m6 t) (l4h6 t) l4Sum (Memref.isWhole_whole _) l4Sq (Memref.isWhole_whole _) hF hL x0 x1 x2 x3
abbrev l4MidAt (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) :=
  l4RunMid c (grid4.coords t) (l4m0 t) (l4h0 t) (l4m1 t) (l4h1 t) (l4m2 t) (l4h2 t) (l4m3 t) (l4h3 t) (l4m4 t) (l4h4 t) (l4m5 t) (l4h5 t) (l4m6 t) (l4h6 t) l4Sum (Memref.isWhole_whole _) l4Sq (Memref.isWhole_whole _) hF hL x0 x1 x2 x3 s q
abbrev l4LastAt (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) :=
  l4RunLast c (grid4.coords t) (l4m0 t) (l4h0 t) (l4m1 t) (l4h1 t) (l4m2 t) (l4h2 t) (l4m3 t) (l4h3 t) (l4m4 t) (l4h4 t) (l4m5 t) (l4h5 t) (l4m6 t) (l4h6 t) l4Sum (Memref.isWhole_whole _) l4Sq (Memref.isWhole_whole _) hF hL x0 x1 x2 x3 s q

/-! Every list of stores covers its buffer (each buffer's last store is of the whole buffer). -/
theorem l4CoverFirstH (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) (y : S4096x10.Idx) :
    ∃ pc ∈ (l4FirstAt c t hF hL x0 x1 x2 x3).1, y ∈ pc.1.set :=
  View.cover_of_tiledL (l4FirstAt c t hF hL x0 x1 x2 x3).1 S4096x10.size (by sl_kernel_rfl) y
theorem l4CoverFirstS (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) (y : S1x10.Idx) :
    ∃ pc ∈ (l4FirstAt c t hF hL x0 x1 x2 x3).2.1, y ∈ pc.1.set :=
  View.cover_of_tiledL (l4FirstAt c t hF hL x0 x1 x2 x3).2.1 S1x10.size (by sl_kernel_rfl) y
theorem l4CoverFirstQ (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) (y : S1x10.Idx) :
    ∃ pc ∈ (l4FirstAt c t hF hL x0 x1 x2 x3).2.2.1, y ∈ pc.1.set :=
  View.cover_of_tiledL (l4FirstAt c t hF hL x0 x1 x2 x3).2.2.1 S1x10.size (by sl_kernel_rfl) y
theorem l4CoverMidH (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) (y : S4096x10.Idx) :
    ∃ pc ∈ (l4MidAt c t hF hL x0 x1 x2 x3 s q).1, y ∈ pc.1.set :=
  View.cover_of_tiledL (l4MidAt c t hF hL x0 x1 x2 x3 s q).1 S4096x10.size (by sl_kernel_rfl) y
theorem l4CoverMidS (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) (y : S1x10.Idx) :
    ∃ pc ∈ (l4MidAt c t hF hL x0 x1 x2 x3 s q).2.1, y ∈ pc.1.set :=
  View.cover_of_tiledL (l4MidAt c t hF hL x0 x1 x2 x3 s q).2.1 S1x10.size (by sl_kernel_rfl) y
theorem l4CoverMidQ (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) (y : S1x10.Idx) :
    ∃ pc ∈ (l4MidAt c t hF hL x0 x1 x2 x3 s q).2.2.1, y ∈ pc.1.set :=
  View.cover_of_tiledL (l4MidAt c t hF hL x0 x1 x2 x3 s q).2.2.1 S1x10.size (by sl_kernel_rfl) y
theorem l4CoverLastH (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) (y : S4096x10.Idx) :
    ∃ pc ∈ (l4LastAt c t hF hL x0 x1 x2 x3 s q).1, y ∈ pc.1.set :=
  View.cover_of_tiledL (l4LastAt c t hF hL x0 x1 x2 x3 s q).1 S4096x10.size (by sl_kernel_rfl) y
theorem l4CoverLast3 (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) (y : S8x10.Idx) :
    ∃ pc ∈ (l4LastAt c t hF hL x0 x1 x2 x3 s q).2.1, y ∈ pc.1.set :=
  View.cover_of_tiledL (l4LastAt c t hF hL x0 x1 x2 x3 s q).2.1 S8x10.size (by sl_kernel_rfl) y
theorem l4CoverLast4 (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) (y : S8x10.Idx) :
    ∃ pc ∈ (l4LastAt c t hF hL x0 x1 x2 x3 s q).2.2.1, y ∈ pc.1.set :=
  View.cover_of_tiledL (l4LastAt c t hF hL x0 x1 x2 x3 s q).2.2.1 S8x10.size (by sl_kernel_rfl) y
theorem l4CoverLastS (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) (y : S1x10.Idx) :
    ∃ pc ∈ (l4LastAt c t hF hL x0 x1 x2 x3 s q).2.2.2.1, y ∈ pc.1.set :=
  View.cover_of_tiledL (l4LastAt c t hF hL x0 x1 x2 x3 s q).2.2.2.1 S1x10.size (by sl_kernel_rfl) y
theorem l4CoverLastQ (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) (y : S1x10.Idx) :
    ∃ pc ∈ (l4LastAt c t hF hL x0 x1 x2 x3 s q).2.2.2.2.1, y ∈ pc.1.set :=
  View.cover_of_tiledL (l4LastAt c t hF hL x0 x1 x2 x3 s q).2.2.2.2.1 S1x10.size (by sl_kernel_rfl) y

/-- What a point of each kind leaves: (h's buffer, the two statistics buffers, the two scratch rows). At a point that
    does not store into the statistics buffers their entries are placeholders nothing reads. -/
def l4LeftFirst (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) : Vec F S4096x10 .f32 × Vec F S8x10 .f32 × Vec F S8x10 .f32 × Vec F S1x10 .f32 × Vec F S1x10 .f32 :=
  (l4VH.read (Elt F) (l4VH.writes (Elt F) l4VH.junk (l4FirstAt c t hF hL x0 x1 x2 x3).1), l4V3.read (Elt F) l4V3.junk, l4V4.read (Elt F) l4V4.junk,
   l4VS.read (Elt F) (l4VS.writes (Elt F) l4VS.junk (l4FirstAt c t hF hL x0 x1 x2 x3).2.1), l4VQ.read (Elt F) (l4VQ.writes (Elt F) l4VQ.junk (l4FirstAt c t hF hL x0 x1 x2 x3).2.2.1))
def l4LeftMid (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) : Vec F S4096x10 .f32 × Vec F S8x10 .f32 × Vec F S8x10 .f32 × Vec F S1x10 .f32 × Vec F S1x10 .f32 :=
  (l4VH.read (Elt F) (l4VH.writes (Elt F) l4VH.junk (l4MidAt c t hF hL x0 x1 x2 x3 s q).1), l4V3.read (Elt F) l4V3.junk, l4V4.read (Elt F) l4V4.junk,
   l4VS.read (Elt F) (l4VS.writes (Elt F) l4VS.junk (l4MidAt c t hF hL x0 x1 x2 x3 s q).2.1), l4VQ.read (Elt F) (l4VQ.writes (Elt F) l4VQ.junk (l4MidAt c t hF hL x0 x1 x2 x3 s q).2.2.1))
def l4LeftLast (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) : Vec F S4096x10 .f32 × Vec F S8x10 .f32 × Vec F S8x10 .f32 × Vec F S1x10 .f32 × Vec F S1x10 .f32 :=
  (l4VH.read (Elt F) (l4VH.writes (Elt F) l4VH.junk (l4LastAt c t hF hL x0 x1 x2 x3 s q).1), l4V3.read (Elt F) (l4V3.writes (Elt F) l4V3.junk (l4LastAt c t hF hL x0 x1 x2 x3 s q).2.1), l4V4.read (Elt F) (l4V4.writes (Elt F) l4V4.junk (l4LastAt c t hF hL x0 x1 x2 x3 s q).2.2.1),
   l4VS.read (Elt F) (l4VS.writes (Elt F) l4VS.junk (l4LastAt c t hF hL x0 x1 x2 x3 s q).2.2.2.1), l4VQ.read (Elt F) (l4VQ.writes (Elt F) l4VQ.junk (l4LastAt c t hF hL x0 x1 x2 x3 s q).2.2.2.2.1))

theorem l4notLast (t : Fin cfg4.N) (h0 : t.val % 4 = 0) : ¬l4Last (grid4.coords t) :=
  fun h => by have h' := (l4Last_iff t).mp h; omega
theorem l4notFirst (t : Fin cfg4.N) (h0 : ¬t.val % 4 = 0) : ¬l4First (grid4.coords t) :=
  fun h => h0 ((l4First_iff t).mp h)
theorem l4notLast' (t : Fin cfg4.N) (h7 : ¬t.val % 4 = 3) : ¬l4Last (grid4.coords t) :=
  fun h => h7 ((l4Last_iff t).mp h)

/-! ## The accumulation -/

/-- What the buffers hold after the body at position n, by recursion on the position: a first block starts the scratch
    rows afresh; every other block continues from what the block before left in them. -/
def l4At (c : Dev nD) : (n : ℕ) → n < cfg4.N → Vec F S4096x10 .f32 × Vec F S8x10 .f32 × Vec F S8x10 .f32 × Vec F S1x10 .f32 × Vec F S1x10 .f32
  | 0, hn => l4LeftFirst c ⟨0, hn⟩ ((l4First_iff ⟨0, hn⟩).mpr (Nat.zero_mod _)) (l4notLast ⟨0, hn⟩ (Nat.zero_mod _)) (l4Blk V c 0 ⟨0, hn⟩) (l4Blk V c 1 ⟨0, hn⟩) (l4Blk V c 2 ⟨0, hn⟩) (l4Blk V c 3 ⟨0, hn⟩)
  | n + 1, hn =>
    if h0 : (n + 1) % 4 = 0 then
      l4LeftFirst c ⟨n + 1, hn⟩ ((l4First_iff ⟨n + 1, hn⟩).mpr h0) (l4notLast ⟨n + 1, hn⟩ h0) (l4Blk V c 0 ⟨n + 1, hn⟩) (l4Blk V c 1 ⟨n + 1, hn⟩) (l4Blk V c 2 ⟨n + 1, hn⟩) (l4Blk V c 3 ⟨n + 1, hn⟩)
    else if h7 : (n + 1) % 4 = 3 then
      l4LeftLast c ⟨n + 1, hn⟩ (l4notFirst ⟨n + 1, hn⟩ h0) ((l4Last_iff ⟨n + 1, hn⟩).mpr h7) (l4Blk V c 0 ⟨n + 1, hn⟩) (l4Blk V c 1 ⟨n + 1, hn⟩) (l4Blk V c 2 ⟨n + 1, hn⟩) (l4Blk V c 3 ⟨n + 1, hn⟩)
        (l4At c n (Nat.lt_of_succ_lt hn)).2.2.2.1 (l4At c n (Nat.lt_of_succ_lt hn)).2.2.2.2
    else
      l4LeftMid c ⟨n + 1, hn⟩ (l4notFirst ⟨n + 1, hn⟩ h0) (l4notLast' ⟨n + 1, hn⟩ h7) (l4Blk V c 0 ⟨n + 1, hn⟩) (l4Blk V c 1 ⟨n + 1, hn⟩) (l4Blk V c 2 ⟨n + 1, hn⟩) (l4Blk V c 3 ⟨n + 1, hn⟩)
        (l4At c n (Nat.lt_of_succ_lt hn)).2.2.2.1 (l4At c n (Nat.lt_of_succ_lt hn)).2.2.2.2

theorem l4At_first (c : Dev nD) (t : Fin cfg4.N) (h0 : t.val % 4 = 0) :
    l4At V c t.val t.isLt = l4LeftFirst c t ((l4First_iff t).mpr h0) (l4notLast t h0) (l4Blk V c 0 t) (l4Blk V c 1 t) (l4Blk V c 2 t) (l4Blk V c 3 t) := by
  obtain ⟨n, hn⟩ := t
  cases n with
  | zero => exact rfl
  | succ n => exact (dif_pos h0).trans rfl

theorem l4At_last (c : Dev nD) (t : Fin cfg4.N) (h0 : ¬t.val % 4 = 0) (h7 : t.val % 4 = 3) :
    l4At V c t.val t.isLt = l4LeftLast c t (l4notFirst t h0) ((l4Last_iff t).mpr h7) (l4Blk V c 0 t) (l4Blk V c 1 t) (l4Blk V c 2 t) (l4Blk V c 3 t)
      (l4At V c (t.val - 1) (Nat.lt_of_le_of_lt (Nat.sub_le _ _) t.isLt)).2.2.2.1 (l4At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h7).trans rfl)

theorem l4At_mid (c : Dev nD) (t : Fin cfg4.N) (h0 : ¬t.val % 4 = 0) (h7 : ¬t.val % 4 = 3) :
    l4At V c t.val t.isLt = l4LeftMid c t (l4notFirst t h0) (l4notLast' t h7) (l4Blk V c 0 t) (l4Blk V c 1 t) (l4Blk V c 2 t) (l4Blk V c 3 t)
      (l4At V c (t.val - 1) (Nat.lt_of_le_of_lt (Nat.sub_le _ _) t.isLt)).2.2.2.1 (l4At V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h7).trans rfl)

/-! ## The invariant between points -/

/-- Before the first point the region's rest as the launch hands it over; afterwards the same with the two scratch rows
    at what the point before left in them. -/
def l4Phi (c : Dev nD) : (n : ℕ) → n ≤ cfg4.N → sProp 𝕄
  | 0, _ => Pipeline.ΦA spec4 c
  | n + 1, hn => iprop(iprop(iprop(owns (c : Thread nD τ) l4Sum fullShare (l4At V c n hn).2.2.2.1 ∗ owns (c : Thread nD τ) l4Sq fullShare (l4At V c n hn).2.2.2.2)
      ∗ Pipeline.scopedRestBut (Ix := Unit) (Name := ℕ) (U := UR sig nD τ) (Lvl := ℕ) (Val := Elt F) spec4 c [cc4_scratch0, cc4_scratch1]) ∗ (∃ r, prngReg c r))

theorem l4Phi_zero (c : Dev nD) (n : ℕ) (h : n ≤ cfg4.N) (hz : n = 0) : l4Phi V c n h = Pipeline.ΦA spec4 c := by
  subst hz; rfl
theorem l4Phi_succ (c : Dev nD) (n : ℕ) (hn : n < cfg4.N) :
    l4Phi V c (n + 1) hn = iprop(iprop(iprop(owns (c : Thread nD τ) l4Sum fullShare (l4At V c n hn).2.2.2.1 ∗ owns (c : Thread nD τ) l4Sq fullShare (l4At V c n hn).2.2.2.2)
      ∗ Pipeline.scopedRestBut (Ix := Unit) (Name := ℕ) (U := UR sig nD τ) (Lvl := ℕ) (Val := Elt F) spec4 c [cc4_scratch0, cc4_scratch1]) ∗ (∃ r, prngReg c r)) := rfl
theorem l4Phi_pos (c : Dev nD) (n : ℕ) (h : n ≤ cfg4.N) (hz : n ≠ 0) :
    l4Phi V c n h = iprop(iprop(iprop(owns (c : Thread nD τ) l4Sum fullShare (l4At V c (n - 1) (by omega)).2.2.2.1 ∗ owns (c : Thread nD τ) l4Sq fullShare (l4At V c (n - 1) (by omega)).2.2.2.2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The proof data of the region -/

def l4Dat (c : Dev nD) : Dat τ (Elt F) Unit ℕ (UR sig nD τ) ℕ cfg4 c where
  A w := V c (Pipeline.arrRef spec4 w)
  after w t := match w with
    | ⟨0, _⟩ => l4Blk V c 0 t
    | ⟨1, _⟩ => l4Blk V c 1 t
    | ⟨2, _⟩ => l4Blk V c 2 t
    | ⟨3, _⟩ => l4Blk V c 3 t
    | ⟨4, _⟩ => (l4At V c t.val t.isLt).1
    | ⟨5, _⟩ => (l4At V c t.val t.isLt).2.1
    | ⟨6, _⟩ => (l4At V c t.val t.isLt).2.2.1
  Φ t := l4Phi V c t.val (Nat.le_of_lt_succ t.isLt)
  q _ := fullShare
  owed _ := 0

theorem l4Dat_A (c : Dev nD) (w : Fin cfg4.W) : (l4Dat V c).A w = V c (Pipeline.arrRef spec4 w) := by
  dsimp only [l4Dat]
theorem l4Phi_castSucc (c : Dev nD) (t : Fin cfg4.N) :
    (l4Dat V c).Φ t.castSucc = l4Phi V c t.val (Nat.le_of_lt t.isLt) := by
  dsimp only [l4Dat]; simp only [Fin.coe_castSucc]
theorem l4After0 (c : Dev nD) (t : Fin cfg4.N) : (l4Dat V c).after 0 t = l4Blk V c 0 t := by dsimp only [l4Dat]
theorem l4After1 (c : Dev nD) (t : Fin cfg4.N) : (l4Dat V c).after 1 t = l4Blk V c 1 t := by dsimp only [l4Dat]
theorem l4After2 (c : Dev nD) (t : Fin cfg4.N) : (l4Dat V c).after 2 t = l4Blk V c 2 t := by dsimp only [l4Dat]
theorem l4After3 (c : Dev nD) (t : Fin cfg4.N) : (l4Dat V c).after 3 t = l4Blk V c 3 t := by dsimp only [l4Dat]
theorem l4After4 (c : Dev nD) (t : Fin cfg4.N) : (l4Dat V c).after 4 t = (l4At V c t.val t.isLt).1 := by dsimp only [l4Dat]
theorem l4After5 (c : Dev nD) (t : Fin cfg4.N) : (l4Dat V c).after 5 t = (l4At V c t.val t.isLt).2.1 := by dsimp only [l4Dat]
theorem l4After6 (c : Dev nD) (t : Fin cfg4.N) : (l4Dat V c).after 6 t = (l4At V c t.val t.isLt).2.2.1 := by dsimp only [l4Dat]

/-- An input's current buffer holds its block at every point, fetched there or not. -/
theorem l4Before0 (c : Dev nD) (t : Fin cfg4.N) (d) : (l4Dat V c).before 0 t d = l4Blk V c 0 t :=
  ((l4Dat V c).before_in_eq_fetched 0 rfl (fun _ => rfl) (fun _ _ _ => rfl)
    (fun t => by rw [l4After0]; unfold Dat.blockOf l4Blk; rw [l4Dat_A]; try rfl) t d).trans
    (by unfold Dat.fetched Dat.blockOf l4Blk; rw [l4Dat_A]; try rfl)
theorem l4Before1 (c : Dev nD) (t : Fin cfg4.N) (d) : (l4Dat V c).before 1 t d = l4Blk V c 1 t :=
  ((l4Dat V c).before_in_eq_fetched 1 rfl (fun _ => rfl) (fun _ _ _ => rfl)
    (fun t => by rw [l4After1]; unfold Dat.blockOf l4Blk; rw [l4Dat_A]; try rfl) t d).trans
    (by unfold Dat.fetched Dat.blockOf l4Blk; rw [l4Dat_A]; try rfl)
theorem l4Before2 (c : Dev nD) (t : Fin cfg4.N) (d) : (l4Dat V c).before 2 t d = l4Blk V c 2 t :=
  ((l4Dat V c).before_in_eq_fetched 2 rfl (fun _ => rfl) (fun _ _ _ => rfl)
    (fun t => by rw [l4After2]; unfold Dat.blockOf l4Blk; rw [l4Dat_A]; try rfl) t d).trans
    (by unfold Dat.fetched Dat.blockOf l4Blk; rw [l4Dat_A]; try rfl)
theorem l4Before3 (c : Dev nD) (t : Fin cfg4.N) (d) : (l4Dat V c).before 3 t d = l4Blk V c 3 t :=
  ((l4Dat V c).before_in_eq_fetched 3 rfl (fun _ => rfl) (fun _ _ _ => rfl)
    (fun t => by rw [l4After3]; unfold Dat.blockOf l4Blk; rw [l4Dat_A]; try rfl) t d).trans
    (by unfold Dat.fetched Dat.blockOf l4Blk; rw [l4Dat_A]; try rfl)

/-! ## The body obligation -/

def l4Pre (c : Dev nD) (t : Fin cfg4.N) : sProp 𝕄 :=
  iprop((l4Dat V c).Φ t.castSucc ∗ (l4Dat V c).owesAt () t.castSucc
    ∗ (∃ d, owns (c : Thread nD τ) (l4m0 t) fullShare ((l4Dat V c).before 0 t d))
    ∗ (∃ d, owns (c : Thread nD τ) (l4m1 t) fullShare ((l4Dat V c).before 1 t d))
    ∗ (∃ d, owns (c : Thread nD τ) (l4m2 t) fullShare ((l4Dat V c).before 2 t d))
    ∗ (∃ d, owns (c : Thread nD τ) (l4m3 t) fullShare ((l4Dat V c).before 3 t d))
    ∗ (∃ d, owns (c : Thread nD τ) (l4m4 t) fullShare ((l4Dat V c).before 4 t d))
    ∗ (∃ d, owns (c : Thread nD τ) (l4m5 t) fullShare ((l4Dat V c).before 5 t d))
    ∗ (∃ d, owns (c : Thread nD τ) (l4m6 t) fullShare ((l4Dat V c).before 6 t d)))

def l4Post (c : Dev nD) (t : Fin cfg4.N) : sProp 𝕄 :=
  iprop((l4Dat V c).Φ t.succ ∗ (l4Dat V c).owesAt () t.succ
    ∗ (l4Dat V c).leavesExact 0 t
    ∗ (l4Dat V c).leavesExact 1 t
    ∗ (l4Dat V c).leavesExact 2 t
    ∗ (l4Dat V c).leavesExact 3 t
    ∗ (l4Dat V c).leavesExact 4 t
    ∗ (l4Dat V c).leavesExact 5 t
    ∗ (l4Dat V c).leavesExact 6 t)

set_option maxHeartbeats 8000000 in
/-- The body at any point: which kind of point it is is read off the position; the invariant hands over the scratch
    rows (at anything before the very first point, else at what the point before left) and takes them back at this
    point's contents. -/
theorem l4Point (c : Dev nD) (t : Fin cfg4.N) :
    l4Pre V c t ⊢ wp frame (wpE (defs₀ (F := F)) Variants.none c none) Set.univ (bodyAt4 t) (fun _ => l4Post V c t) := by
  unfold l4Pre l4Post bodyAt4
  simp only [l4Before0, l4Before1, l4Before2, l4Before3]
  rw [show (l4Dat V c).owesAt () t.succ = (l4Dat V c).owesAt () t.castSucc from rfl]
  rw [show (l4Dat V c).Φ t.succ = l4Phi V c (t.val + 1) t.isLt from rfl, l4Phi_succ]
  have hN : t.val < 8 := lt_of_lt_of_eq t.isLt (show cfg4.N = 8 from N_4)
  rw [show (l4Dat V c).leavesExact 0 t = owns (c : Thread nD τ) (l4m0 t) fullShare ((l4Dat V c).after 0 t) from by
    unfold Dat.leavesExact; rw [l4Live0 t], l4After0]
  rw [show (l4Dat V c).leavesExact 1 t = owns (c : Thread nD τ) (l4m1 t) fullShare ((l4Dat V c).after 1 t) from by
    unfold Dat.leavesExact; rw [l4Live1 t], l4After1]
  rw [show (l4Dat V c).leavesExact 2 t = owns (c : Thread nD τ) (l4m2 t) fullShare ((l4Dat V c).after 2 t) from by
    unfold Dat.leavesExact; rw [l4Live2 t], l4After2]
  rw [show (l4Dat V c).leavesExact 3 t = owns (c : Thread nD τ) (l4m3 t) fullShare ((l4Dat V c).after 3 t) from by
    unfold Dat.leavesExact; rw [l4Live3 t], l4After3]
  rw [show (l4Dat V c).leavesExact 4 t = owns (c : Thread nD τ) (l4m4 t) fullShare ((l4Dat V c).after 4 t) from by
    unfold Dat.leavesExact; rw [l4Live4 t], l4After4]
  by_cases h0 : t.val % 4 = 0
  · have hF := (l4First_iff t).mpr h0
    have hL := l4notLast t h0
    rw [Dat.leavesExact_idle (l4Dat V c) 5 t (l4Idle5 t hL) (l4NoFlush5 t hL),
      Dat.leavesExact_idle (l4Dat V c) 6 t (l4Idle6 t hL) (l4NoFlush6 t hL)]
    rw [l4At_first V c t h0]
    unfold l4LeftFirst; (try dsimp only)
    by_cases hz : t.val = 0
    · rw [l4Phi_castSucc V c t, l4Phi_zero V c _ _ hz, l4Rest]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l4FirstAt c t hF hL (l4Blk V c 0 t) (l4Blk V c 1 t) (l4Blk V c 2 t) (l4Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l4CoverFirstS c t hF hL _ _ _ _)
            unfold owns; iexists _; isplitr
            swap; · iexact HQ
            ipureintro; exact View.read_writes_of_cover _ _ _ _ _ (l4CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l4CoverFirstH c t hF hL _ _ _ _)
      isplitl [HA]; · iexists _; iexact HA
      iexists _; iexact HB
    · rw [l4Phi_castSucc V c t, l4Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l4FirstAt c t hF hL (l4Blk V c 0 t) (l4Blk V c 1 t) (l4Blk V c 2 t) (l4Blk V c 3 t)).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexists _; iexact HS
      isplitl [HQ]; · iexists _; iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l4CoverFirstS c t hF hL _ _ _ _)
            unfold owns; iexists _; isplitr
            swap; · iexact HQ
            ipureintro; exact View.read_writes_of_cover _ _ _ _ _ (l4CoverFirstQ c t hF hL _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l4CoverFirstH c t hF hL _ _ _ _)
      isplitl [HA]; · iexists _; iexact HA
      iexists _; iexact HB
  · have hF := l4notFirst t h0
    have hz : t.val ≠ 0 := fun e => h0 (by rw [e])
    by_cases h7 : t.val % 4 = 3
    · have hL := (l4Last_iff t).mpr h7
      rw [show (l4Dat V c).leavesExact 5 t = owns (c : Thread nD τ) (l4m5 t) fullShare ((l4Dat V c).after 5 t) from by
        unfold Dat.leavesExact; rw [l4Live5 t hL], l4After5]
      rw [show (l4Dat V c).leavesExact 6 t = owns (c : Thread nD τ) (l4m6 t) fullShare ((l4Dat V c).after 6 t) from by
        unfold Dat.leavesExact; rw [l4Live6 t hL], l4After6]
      rw [l4At_last V c t h0 h7]
      unfold l4LeftLast; (try dsimp only)
      rw [l4Phi_castSucc V c t, l4Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l4LastAt c t hF hL (l4Blk V c 0 t) (l4Blk V c 1 t) (l4Blk V c 2 t) (l4Blk V c 3 t) _ _).2.2.2.2.2 Set.univ _)
      isplitl [H0]; · iexact H0
      isplitl [H1]; · iexact H1
      isplitl [H2]; · iexact H2
      isplitl [H3]; · iexact H3
      isplitl [HH]; · iexists _; iexact HH
      isplitl [HA]; · iexists _; iexact HA
      isplitl [HB]; · iexists _; iexact HB
      isplitl [HS]; · iexact HS
      isplitl [HQ]; · iexact HQ
      iintro ⟨H0, H1, H2, H3, ⟨%eH, HH⟩, ⟨%eA, HA⟩, ⟨%eB, HB⟩, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l4CoverLastS c t hF hL _ _ _ _ _ _)
            unfold owns; iexists _; isplitr
            swap; · iexact HQ
            ipureintro; exact View.read_writes_of_cover _ _ _ _ _ (l4CoverLastQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l4CoverLastH c t hF hL _ _ _ _ _ _)
      isplitl [HA]
      · unfold owns; iexists _; isplitr
        swap; · iexact HA
        ipureintro; exact View.read_writes_of_cover _ _ _ _ _ (l4CoverLast3 c t hF hL _ _ _ _ _ _)
      unfold owns; iexists _; isplitr
      swap; · iexact HB
      ipureintro; exact View.read_writes_of_cover _ _ _ _ _ (l4CoverLast4 c t hF hL _ _ _ _ _ _)
    · have hL := l4notLast' t h7
      rw [Dat.leavesExact_idle (l4Dat V c) 5 t (l4Idle5 t hL) (l4NoFlush5 t hL),
        Dat.leavesExact_idle (l4Dat V c) 6 t (l4Idle6 t hL) (l4NoFlush6 t hL)]
      rw [l4At_mid V c t h0 h7]
      unfold l4LeftMid; (try dsimp only)
      rw [l4Phi_castSucc V c t, l4Phi_pos V c _ _ hz]
      iintro ⟨⟨⟨⟨HS, HQ⟩, Hrest⟩, Hg⟩, Ho, ⟨%d0, H0⟩, ⟨%d1, H1⟩, ⟨%d2, H2⟩, ⟨%d3, H3⟩, ⟨%dH, HH⟩, ⟨%dA, HA⟩, ⟨%dB, HB⟩⟩
      iapply ((l4MidAt c t hF hL (l4Blk V c 0 t) (l4Blk V c 1 t) (l4Blk V c 2 t) (l4Blk V c 3 t) _ _).2.2.2 _ _ Set.univ _)
      isplitl [H0]; · iexact H0
      isplitl [H1]; · iexact H1
      isplitl [H2]; · iexact H2
      isplitl [H3]; · iexact H3
      isplitl [HH]; · iexists _; iexact HH
      isplitl [HA]; · iexact HA
      isplitl [HB]; · iexact HB
      isplitl [HS]; · iexact HS
      isplitl [HQ]; · iexact HQ
      iintro ⟨H0, H1, H2, H3, ⟨%eH, HH⟩, HA, HB, ⟨%eS, HS⟩, ⟨%eQ, HQ⟩⟩
      isplitl [HS HQ Hrest Hg]
      · isplitl [HS HQ Hrest]
        · isplitl [HS HQ]
          · isplitl [HS]
            · unfold owns; iexists _; isplitr
              swap; · iexact HS
              ipureintro; exact View.read_writes_of_cover _ _ _ _ _ (l4CoverMidS c t hF hL _ _ _ _ _ _)
            unfold owns; iexists _; isplitr
            swap; · iexact HQ
            ipureintro; exact View.read_writes_of_cover _ _ _ _ _ (l4CoverMidQ c t hF hL _ _ _ _ _ _)
          iexact Hrest
        iexact Hg
      isplitl [Ho]; · iexact Ho
      isplitl [H0]; · iexact H0
      isplitl [H1]; · iexact H1
      isplitl [H2]; · iexact H2
      isplitl [H3]; · iexact H3
      isplitl [HH]
      · unfold owns; iexists _; isplitr
        swap; · iexact HH
        ipureintro; exact View.read_writes_of_cover _ _ _ _ _ (l4CoverMidH c t hF hL _ _ _ _ _ _)
      isplitl [HA]; · iexists _; iexact HA
      iexists _; iexact HB

theorem l4Obligation (c : Dev nD) : BodyObligation (l4Dat (F := F) V c) (defs₀ (F := F)) Variants.none () Set.univ := fun t => by
  rw [bigSep_W4, bigSep_W4]
  exact l4Point V c t

/-- What the launch hands the region is the invariant before the first point; after any later point the invariant gives
    the region's rest back (what the scratch rows hold is forgotten). -/
theorem l4PhiIn (c : Dev nD) : Pipeline.ΦA spec4 c ⊢ (l4Dat V c).Φ 0 := by
  rw [show (l4Dat V c).Φ 0 = l4Phi V c 0 (Nat.zero_le _) from rfl, l4Phi_zero V c 0 _ rfl]
  try exact Idealize.SL.BI.Entails.refl _
theorem l4PhiOut (c : Dev nD) : (l4Dat V c).Φ (Fin.last cfg4.N) ⊢ Pipeline.ΦA spec4 c := by
  rw [show (l4Dat V c).Φ (Fin.last cfg4.N) = l4Phi V c (Fin.last cfg4.N).val (Nat.le_of_lt_succ (Fin.last cfg4.N).isLt) from rfl,
    l4Phi_pos V c _ _ (by rw [Fin.val_last]; have : cfg4.N = 8 := N_4; omega), l4Rest]
  iintro ⟨⟨⟨HS, HQ⟩, Hrest⟩, Hg⟩
  isplitl [HS HQ Hrest]
  · isplitl [HS HQ]
    · isplitl [HS]
      · iexists _; iexact HS
      iexists _; iexact HQ
    iexact Hrest
  iexact Hg

end Cert.KernelIdeal.Hand

end
-- ==== Proof.SoftmaxRegionIdeal.lean ====
/-
  The last region: rows of logits z = h · scale + shift (scale and shift one row each, broadcast down the
  4096 rows of a block), then per row exp (z − max z) / Σ exp (z − max z). Eight grid points, one block of
  4096 rows each; the block of the result at a point depends only on the block of h at that point and on
  the two parameter rows. Stated at any float instance, at a parameter V: the contents of the core's
  buffers when the region is entered.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the array the region finds. -/
def smBlock (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole 4096 × 10 rectangle and the whole 1 × 10 row. -/
abbrev rowsRect : Rect S4096x10 := Rect.unit (s := S4096x10) ![0, 0] S4096x10.size inb_S4096x10_S4096x10_0_0
abbrev paramRect : Rect S1x10 := Rect.unit (s := S1x10) ![0, 0] S1x10.size inb_S1x10_S1x10_0_0

/-- What the body leaves in the result's buffer: one store of the whole block, the softmax of the affine image of
    the block of h. -/
def smOut (h : Vec F S4096x10 .f32) (scale shift : Vec F S1x10 .f32) : Vec F S4096x10 .f32 :=
  View.canon [⟨rowsRect, k5_pay1 (View.ld h rowsRect) (View.ld scale paramRect) (View.ld shift paramRect)⟩]

/-- The one store covers the block. -/
theorem smCover (p : Vec F S4096x10 .f32) (y : S4096x10.Idx) :
    ∃ pc ∈ ([⟨rowsRect, p⟩] : List (View.Piece (Elt F) S4096x10 .f32)), y ∈ pc.1.set :=
  View.cover_of_tiled [⟨rowsRect, p⟩] S4096x10.size (by rfl) y

set_option maxHeartbeats 1000000 in
/-- The body on whole buffers: the three inputs are read and left as they were, the result's buffer (whatever it
    held) ends at smOut of the inputs. -/
theorem smBody (c : Dev nD) (E : Set ℕ) (i : grid5.Coords)
    (a1 : Memref sig .tc .vmem S4096x10 .f32) (h1 : a1.IsWhole) (a2 : Memref sig .tc .vmem S1x10 .f32) (h2 : a2.IsWhole)
    (a3 : Memref sig .tc .vmem S1x10 .f32) (h3 : a3.IsWhole) (a4 : Memref sig .tc .vmem S4096x10 .f32) (h4 : a4.IsWhole)
    (x : Vec F S4096x10 .f32) (sc sh : Vec F S1x10 .f32) (K : PUnit → sProp 𝕄) :
    iprop(owns (c : Thread nD τ) a1 fullShare x ∗ owns (c : Thread nD τ) a2 fullShare sc ∗ owns (c : Thread nD τ) a3 fullShare sh
        ∗ (∃ d, owns (c : Thread nD τ) a4 fullShare d)
        ∗ (iprop(owns (c : Thread nD τ) a1 fullShare x ∗ owns (c : Thread nD τ) a2 fullShare sc ∗ owns (c : Thread nD τ) a3 fullShare sh
            ∗ owns (c : Thread nD τ) a4 fullShare (smOut x sc sh)) -∗ K ⟨⟩))
      ⊢ wp frame (wpE (defs₀ (F := F)) Variants.none c none) E (cc5__normalize_softmax_kernel i a1 h1 a2 h2 a3 h3 a4 h4) K := by
  simp only [cc5__normalize_softmax_kernel_eq_skeleton]; unfold cc5__normalize_softmax_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (smCover _)

/-! ## The proof data of the region -/

/-- On core c: the arrays as the region finds them; after the body at point t each input's buffer still holds its
    block and the result's buffer holds smOut of the three input blocks; the invariant is the untouched rest of the
    core (no scratch in this region); nothing owed, full shares. -/
def smDat (c : Dev nD) : Dat τ (Elt F) Unit ℕ (UR sig nD τ) ℕ cfg5 c where
  A w := V c (Pipeline.arrRef spec5 w)
  after w t := match w with
    | ⟨0, _⟩ => smBlock V c 0 t
    | ⟨1, _⟩ => smBlock V c 1 t
    | ⟨2, _⟩ => smBlock V c 2 t
    | ⟨3, _⟩ => smOut (smBlock V c 0 t) (smBlock V c 1 t) (smBlock V c 2 t)
  Φ _ := Pipeline.ΦA spec5 c
  q _ := fullShare
  owed _ := 0

theorem smDat_A (c : Dev nD) (w : Fin cfg5.W) : (smDat V c).A w = V c (Pipeline.arrRef spec5 w) := by
  dsimp only [smDat]

theorem smAfter0 (c : Dev nD) (t : Fin cfg5.N) : (smDat V c).after 0 t = smBlock V c 0 t := by dsimp only [smDat]
theorem smAfter1 (c : Dev nD) (t : Fin cfg5.N) : (smDat V c).after 1 t = smBlock V c 1 t := by dsimp only [smDat]
theorem smAfter2 (c : Dev nD) (t : Fin cfg5.N) : (smDat V c).after 2 t = smBlock V c 2 t := by dsimp only [smDat]
theorem smAfter3 (c : Dev nD) (t : Fin cfg5.N) :
    (smDat V c).after 3 t = smOut (smBlock V c 0 t) (smBlock V c 1 t) (smBlock V c 2 t) := by dsimp only [smDat]

/-- An input's current buffer holds its block at every point: the block of h is fetched at every point, and the two
    parameter rows are fetched once and their block index never moves. -/
theorem smBefore0 (c : Dev nD) (t : Fin cfg5.N) (d) : (smDat V c).before 0 t d = smBlock V c 0 t :=
  ((smDat V c).before_in_eq_fetched 0 rfl (fun _ => rfl) (fun _ _ _ => rfl)
    (fun t => by rw [smAfter0]; unfold Dat.blockOf smBlock; rw [smDat_A]; try rfl) t d).trans
    (by unfold Dat.fetched Dat.blockOf smBlock; rw [smDat_A]; try rfl)
theorem smBefore1 (c : Dev nD) (t : Fin cfg5.N) (d) : (smDat V c).before 1 t d = smBlock V c 1 t :=
  ((smDat V c).before_in_eq_fetched 1 rfl (fun _ => rfl) (fun _ _ _ => rfl)
    (fun t => by rw [smAfter1]; unfold Dat.blockOf smBlock; rw [smDat_A]; try rfl) t d).trans
    (by unfold Dat.fetched Dat.blockOf smBlock; rw [smDat_A]; try rfl)
theorem smBefore2 (c : Dev nD) (t : Fin cfg5.N) (d) : (smDat V c).before 2 t d = smBlock V c 2 t :=
  ((smDat V c).before_in_eq_fetched 2 rfl (fun _ => rfl) (fun _ _ _ => rfl)
    (fun t => by rw [smAfter2]; unfold Dat.blockOf smBlock; rw [smDat_A]; try rfl) t d).trans
    (by unfold Dat.fetched Dat.blockOf smBlock; rw [smDat_A]; try rfl)

/-! ## The body obligation -/

/-- What the body is called with at point t, window by window, -/
def smPre (c : Dev nD) (t : Fin cfg5.N) : sProp 𝕄 :=
  iprop((smDat V c).Φ t.castSucc ∗ (smDat V c).owesAt () t.castSucc
    ∗ (∃ d, owns (c : Thread nD τ) (st5_0 t) fullShare ((smDat V c).before 0 t d))
    ∗ (∃ d, owns (c : Thread nD τ) (st5_1 t) fullShare ((smDat V c).before 1 t d))
    ∗ (∃ d, owns (c : Thread nD τ) (st5_2 t) fullShare ((smDat V c).before 2 t d))
    ∗ (∃ d, owns (c : Thread nD τ) (st5_3 t) fullShare ((smDat V c).before 3 t d)))

/-- and what it returns. -/
def smPost (c : Dev nD) (t : Fin cfg5.N) : sProp 𝕄 :=
  iprop((smDat V c).Φ t.succ ∗ (smDat V c).owesAt () t.succ
    ∗ owns (c : Thread nD τ) (st5_0 t) fullShare ((smDat V c).after 0 t)
    ∗ owns (c : Thread nD τ) (st5_1 t) fullShare ((smDat V c).after 1 t)
    ∗ owns (c : Thread nD τ) (st5_2 t) fullShare ((smDat V c).after 2 t)
    ∗ owns (c : Thread nD τ) (st5_3 t) fullShare ((smDat V c).after 3 t))

theorem smPoint (c : Dev nD) (t : Fin cfg5.N) :
    smPre V c t ⊢ wp frame (wpE (defs₀ (F := F)) Variants.none c none) Set.univ (bodyAt5 t) (fun _ => smPost V c t) := by
  unfold smPre smPost bodyAt5
  simp only [smBefore0, smBefore1, smBefore2]
  rw [show (smDat V c).Φ t.succ = (smDat V c).Φ t.castSucc from rfl,
    show (smDat V c).owesAt () t.succ = (smDat V c).owesAt () t.castSucc from rfl,
    smAfter0, smAfter1, smAfter2, smAfter3]
  iintro ⟨HΦ, Ho, ⟨%d0, H0⟩, ⟨%d1, H1⟩, ⟨%d2, H2⟩, ⟨%d3, H3⟩⟩
  iapply (smBody c Set.univ _ _ _ _ _ _ _ _ _ (smBlock V c 0 t) (smBlock V c 1 t) (smBlock V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem smObligation (c : Dev nD) : BodyObligation (smDat (F := F) V c) (defs₀ (F := F)) Variants.none () Set.univ := fun t => by
  rw [bigSep_W5, bigSep_W5]
  exact smPoint V c t

end Cert.KernelIdeal.Hand

end
-- ==== Proof.KernelRunIdeal.lean ====
/-
  The whole run of the idealized kernel program: eleven stretches of host operations, then six regions with a
  stretch of host operations between consecutive ones. W J is what a core's buffers hold after item J − 1: a host
  stretch folds its operations over the contents before it; a region leaves its windows' arrays at what its
  write-backs leave and every other buffer as it found it. The one theorem: every weakly fair execution
  terminates and every unscoped buffer ends at W 22. (That the sixteen arguments end unchanged, and what the
  result array holds, are read off W 22 elsewhere.)
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Gen.KernelIdeal.Regions
import proofs.«126670_j49074296324140_2_alg».proof.Proof.Layer0RegionIdeal
import proofs.«126670_j49074296324140_2_alg».proof.Proof.Layer1RegionIdeal
import proofs.«126670_j49074296324140_2_alg».proof.Proof.Layer2RegionIdeal
import proofs.«126670_j49074296324140_2_alg».proof.Proof.Layer3RegionIdeal
import proofs.«126670_j49074296324140_2_alg».proof.Proof.Layer4RegionIdeal
import proofs.«126670_j49074296324140_2_alg».proof.Proof.SoftmaxRegionIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- A core's buffer contents read at the TensorCore's references (what a region's proof data take). -/
abbrev atTc (W : Dev nD → Valuation τ sig (Elt F)) : (c : Dev nD) → (b : Ref sig .tc) → Buf (Elt F) ((c : Thread nD τ).loc b) := fun c b => W c b
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
def W12 (c : Dev nD) : Valuation τ sig (Elt F) :=
  Pipeline.withArrays spec0 c (W11 m ρ c) fun w => (l0Dat (atTc (W11 m ρ)) c).arrAt w cfg0.N
theorem W12_arr (c : Dev nD) (w : Fin cfg0.W) :
    W12 m ρ c (Proc.devRef .tc (Pipeline.arrRef spec0 w)) = (l0Dat (atTc (W11 m ρ)) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
theorem exitArr0 (c : Dev nD) (w : Fin cfg0.W) :
    (l0Dat (atTc (W11 m ρ)) c).arrAt w cfg0.N = (atTc (W12 m ρ)) c (Pipeline.arrRef spec0 w) :=
  (W12_arr m ρ c w).symm
theorem exitRest0 (c : Dev nD) : ∀ b, b ∉ Finset.univ.image (Pipeline.arrRef spec0) →
    (atTc (W12 m ρ)) c b = W11 m ρ c b :=
  fun b hb => W12_of_ne m ρ c b fun w e => hb (Finset.mem_image.mpr ⟨w, Finset.mem_univ _, e⟩)
abbrev W13 : Dev nD → Valuation τ sig (Elt F) := fun c => StableHlo.after hostOps1 (W12 m ρ c)
def W14 (c : Dev nD) : Valuation τ sig (Elt F) :=
  Pipeline.withArrays spec1 c (W13 m ρ c) fun w => (l1Dat (atTc (W13 m ρ)) c).arrAt w cfg1.N
theorem W14_arr (c : Dev nD) (w : Fin cfg1.W) :
    W14 m ρ c (Proc.devRef .tc (Pipeline.arrRef spec1 w)) = (l1Dat (atTc (W13 m ρ)) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
theorem exitArr1 (c : Dev nD) (w : Fin cfg1.W) :
    (l1Dat (atTc (W13 m ρ)) c).arrAt w cfg1.N = (atTc (W14 m ρ)) c (Pipeline.arrRef spec1 w) :=
  (W14_arr m ρ c w).symm
theorem exitRest1 (c : Dev nD) : ∀ b, b ∉ Finset.univ.image (Pipeline.arrRef spec1) →
    (atTc (W14 m ρ)) c b = W13 m ρ c b :=
  fun b hb => W14_of_ne m ρ c b fun w e => hb (Finset.mem_image.mpr ⟨w, Finset.mem_univ _, e⟩)
abbrev W15 : Dev nD → Valuation τ sig (Elt F) := fun c => StableHlo.after hostOps2 (W14 m ρ c)
def W16 (c : Dev nD) : Valuation τ sig (Elt F) :=
  Pipeline.withArrays spec2 c (W15 m ρ c) fun w => (l2Dat (atTc (W15 m ρ)) c).arrAt w cfg2.N
theorem W16_arr (c : Dev nD) (w : Fin cfg2.W) :
    W16 m ρ c (Proc.devRef .tc (Pipeline.arrRef spec2 w)) = (l2Dat (atTc (W15 m ρ)) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
theorem exitArr2 (c : Dev nD) (w : Fin cfg2.W) :
    (l2Dat (atTc (W15 m ρ)) c).arrAt w cfg2.N = (atTc (W16 m ρ)) c (Pipeline.arrRef spec2 w) :=
  (W16_arr m ρ c w).symm
theorem exitRest2 (c : Dev nD) : ∀ b, b ∉ Finset.univ.image (Pipeline.arrRef spec2) →
    (atTc (W16 m ρ)) c b = W15 m ρ c b :=
  fun b hb => W16_of_ne m ρ c b fun w e => hb (Finset.mem_image.mpr ⟨w, Finset.mem_univ _, e⟩)
abbrev W17 : Dev nD → Valuation τ sig (Elt F) := fun c => StableHlo.after hostOps3 (W16 m ρ c)
def W18 (c : Dev nD) : Valuation τ sig (Elt F) :=
  Pipeline.withArrays spec3 c (W17 m ρ c) fun w => (l3Dat (atTc (W17 m ρ)) c).arrAt w cfg3.N
theorem W18_arr (c : Dev nD) (w : Fin cfg3.W) :
    W18 m ρ c (Proc.devRef .tc (Pipeline.arrRef spec3 w)) = (l3Dat (atTc (W17 m ρ)) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
theorem exitArr3 (c : Dev nD) (w : Fin cfg3.W) :
    (l3Dat (atTc (W17 m ρ)) c).arrAt w cfg3.N = (atTc (W18 m ρ)) c (Pipeline.arrRef spec3 w) :=
  (W18_arr m ρ c w).symm
theorem exitRest3 (c : Dev nD) : ∀ b, b ∉ Finset.univ.image (Pipeline.arrRef spec3) →
    (atTc (W18 m ρ)) c b = W17 m ρ c b :=
  fun b hb => W18_of_ne m ρ c b fun w e => hb (Finset.mem_image.mpr ⟨w, Finset.mem_univ _, e⟩)
abbrev W19 : Dev nD → Valuation τ sig (Elt F) := fun c => StableHlo.after hostOps4 (W18 m ρ c)
def W20 (c : Dev nD) : Valuation τ sig (Elt F) :=
  Pipeline.withArrays spec4 c (W19 m ρ c) fun w => (l4Dat (atTc (W19 m ρ)) c).arrAt w cfg4.N
theorem W20_arr (c : Dev nD) (w : Fin cfg4.W) :
    W20 m ρ c (Proc.devRef .tc (Pipeline.arrRef spec4 w)) = (l4Dat (atTc (W19 m ρ)) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
theorem exitArr4 (c : Dev nD) (w : Fin cfg4.W) :
    (l4Dat (atTc (W19 m ρ)) c).arrAt w cfg4.N = (atTc (W20 m ρ)) c (Pipeline.arrRef spec4 w) :=
  (W20_arr m ρ c w).symm
theorem exitRest4 (c : Dev nD) : ∀ b, b ∉ Finset.univ.image (Pipeline.arrRef spec4) →
    (atTc (W20 m ρ)) c b = W19 m ρ c b :=
  fun b hb => W20_of_ne m ρ c b fun w e => hb (Finset.mem_image.mpr ⟨w, Finset.mem_univ _, e⟩)
abbrev W21 : Dev nD → Valuation τ sig (Elt F) := fun c => StableHlo.after hostOps5 (W20 m ρ c)
def W22 (c : Dev nD) : Valuation τ sig (Elt F) :=
  Pipeline.withArrays spec5 c (W21 m ρ c) fun w => (smDat (atTc (W21 m ρ)) c).arrAt w cfg5.N
theorem W22_arr (c : Dev nD) (w : Fin cfg5.W) :
    W22 m ρ c (Proc.devRef .tc (Pipeline.arrRef spec5 w)) = (smDat (atTc (W21 m ρ)) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
theorem exitArr5 (c : Dev nD) (w : Fin cfg5.W) :
    (smDat (atTc (W21 m ρ)) c).arrAt w cfg5.N = (atTc (W22 m ρ)) c (Pipeline.arrRef spec5 w) :=
  (W22_arr m ρ c w).symm
theorem exitRest5 (c : Dev nD) : ∀ b, b ∉ Finset.univ.image (Pipeline.arrRef spec5) →
    (atTc (W22 m ρ)) c b = W21 m ρ c b :=
  fun b hb => W22_of_ne m ρ c b fun w e => hb (Finset.mem_image.mpr ⟨w, Finset.mem_univ _, e⟩)

/-! ## The proof data family and what rides beside the buffers -/

def allDats : (p : Fin 6) → (c : Dev nD) → Dat τ (Elt F) Unit ℕ (UR sig nD τ) ℕ (Pipeline.pin (pcfgs (F := F)) adm p) c
  | ⟨0, _⟩ => fun c => l0Dat (atTc (W11 m ρ)) c
  | ⟨1, _⟩ => fun c => l1Dat (atTc (W13 m ρ)) c
  | ⟨2, _⟩ => fun c => l2Dat (atTc (W15 m ρ)) c
  | ⟨3, _⟩ => fun c => l3Dat (atTc (W17 m ρ)) c
  | ⟨4, _⟩ => fun c => l4Dat (atTc (W19 m ρ)) c
  | ⟨5, _⟩ => fun c => smDat (atTc (W21 m ρ)) c
abbrev noVariants : Variants := Variants.none
abbrev noLevels : GSem nD τ sig → Finset Unit := fun _ => ∅
abbrev levelZero : GSem nD τ sig → Unit → ℕ := fun _ _ => 0
/-- Beside the buffers, through every item: the core's generator register at some state, and nothing owed. -/
abbrev beside (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
abbrev lastState (c : Dev nD) : sProp 𝕄 := iprop(StableHlo.held (c : Thread nD τ) (Pipeline.ucRefs τ sig) (W22 m ρ c) ∗ ∃ r, prngReg c r)

/-! ## The regions as items -/

set_option backward.isDefEq.respectTransparency.types false in
/-- Region 0: entered from every unscoped buffer at W 11, left at W 12. Its windows' arrays are split out of the
    unscoped buffers and put back at their exit contents; the generator register goes into the region's invariant
    and comes back; nothing is owed; the kernel has no semaphore of its own. -/
def region0 : Pipeline.RegionSeg (pcfgs (F := F)) adm (allDats m ρ) () defs₀ noVariants noLevels levelZero 0 where
  win := launch0.win.to₀
  block_pos := launch0.block_pos
  stage_whole := launch0.stage_whole
  K := PEmpty
  osem k := k.elim
  ho := Pipeline.OwnSemFacts.none _
  hbody c := (l0Obligation (atTc (W11 m ρ)) c).loose
  hwaits := Pipeline.hwaits_of_owed_zero _ _ _ _ noLevels levelZero 0 fun _ _ => rfl
  pre c := iprop(StableHlo.held (c : Thread nD τ) (Pipeline.ucRefs τ sig) (W11 m ρ c) ∗ beside c)
  post c := iprop(StableHlo.held (c : Thread nD τ) (Pipeline.ucRefs τ sig) (W12 m ρ c) ∗ beside c)
  X c := iprop(∃ r, prngReg c r)
  Y c := iprop(∃ r, prngReg c r)
  Z c := Pipeline.unscopedRest (Ix := Unit) (Name := ℕ) (U := UR sig nD τ) (Lvl := ℕ) spec0 c ((atTc (W11 m ρ)) c)
  hentry c := by
    rw [Pipeline.ownSems0_none]
    have hsplit := Pipeline.arrays_of_unscopedBufs (p := 0) (pcfgs (F := F)) adm (allDats m ρ) launch0.win launch0.arr_whole c
      ((allDats m ρ 0 c).share_full fun _ => rfl) ((atTc (W11 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (l0PhiIn (atTc (W11 m ρ)) c)
    unfold Pipeline.ΦA
    iintro ⟨Hp, -, Hr⟩
    isplitl [Hr]; · iexact Hr
    iexact Hp
  hout c := by
    rw [Pipeline.ownSems0_none]
    refine BIBase.Entails.trans (l0PhiOut (atTc (W11 m ρ)) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (allDats m ρ) ((allDats m ρ 0 c).share_full fun _ => rfl)
      ((atTc (W11 m ρ)) c) ((atTc (W12 m ρ)) c) ((allDats m ρ 0 c).arrAt · cfg0.N) (exitArr0 m ρ c) (exitRest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W 13, left at W 14. Its windows' arrays are split out of the
    unscoped buffers and put back at their exit contents; the generator register goes into the region's invariant
    and comes back; nothing is owed; the kernel has no semaphore of its own. -/
def region1 : Pipeline.RegionSeg (pcfgs (F := F)) adm (allDats m ρ) () defs₀ noVariants noLevels levelZero 1 where
  win := launch1.win.to₀
  block_pos := launch1.block_pos
  stage_whole := launch1.stage_whole
  K := PEmpty
  osem k := k.elim
  ho := Pipeline.OwnSemFacts.none _
  hbody c := (l1Obligation (atTc (W13 m ρ)) c).loose
  hwaits := Pipeline.hwaits_of_owed_zero _ _ _ _ noLevels levelZero 1 fun _ _ => rfl
  pre c := iprop(StableHlo.held (c : Thread nD τ) (Pipeline.ucRefs τ sig) (W13 m ρ c) ∗ beside c)
  post c := iprop(StableHlo.held (c : Thread nD τ) (Pipeline.ucRefs τ sig) (W14 m ρ c) ∗ beside c)
  X c := iprop(∃ r, prngReg c r)
  Y c := iprop(∃ r, prngReg c r)
  Z c := Pipeline.unscopedRest (Ix := Unit) (Name := ℕ) (U := UR sig nD τ) (Lvl := ℕ) spec1 c ((atTc (W13 m ρ)) c)
  hentry c := by
    rw [Pipeline.ownSems0_none]
    have hsplit := Pipeline.arrays_of_unscopedBufs (p := 1) (pcfgs (F := F)) adm (allDats m ρ) launch1.win launch1.arr_whole c
      ((allDats m ρ 1 c).share_full fun _ => rfl) ((atTc (W13 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (l1PhiIn (atTc (W13 m ρ)) c)
    unfold Pipeline.ΦA
    iintro ⟨Hp, -, Hr⟩
    isplitl [Hr]; · iexact Hr
    iexact Hp
  hout c := by
    rw [Pipeline.ownSems0_none]
    refine BIBase.Entails.trans (l1PhiOut (atTc (W13 m ρ)) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (allDats m ρ) ((allDats m ρ 1 c).share_full fun _ => rfl)
      ((atTc (W13 m ρ)) c) ((atTc (W14 m ρ)) c) ((allDats m ρ 1 c).arrAt · cfg1.N) (exitArr1 m ρ c) (exitRest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at W 15, left at W 16. Its windows' arrays are split out of the
    unscoped buffers and put back at their exit contents; the generator register goes into the region's invariant
    and comes back; nothing is owed; the kernel has no semaphore of its own. -/
def region2 : Pipeline.RegionSeg (pcfgs (F := F)) adm (allDats m ρ) () defs₀ noVariants noLevels levelZero 2 where
  win := launch2.win.to₀
  block_pos := launch2.block_pos
  stage_whole := launch2.stage_whole
  K := PEmpty
  osem k := k.elim
  ho := Pipeline.OwnSemFacts.none _
  hbody c := (l2Obligation (atTc (W15 m ρ)) c).loose
  hwaits := Pipeline.hwaits_of_owed_zero _ _ _ _ noLevels levelZero 2 fun _ _ => rfl
  pre c := iprop(StableHlo.held (c : Thread nD τ) (Pipeline.ucRefs τ sig) (W15 m ρ c) ∗ beside c)
  post c := iprop(StableHlo.held (c : Thread nD τ) (Pipeline.ucRefs τ sig) (W16 m ρ c) ∗ beside c)
  X c := iprop(∃ r, prngReg c r)
  Y c := iprop(∃ r, prngReg c r)
  Z c := Pipeline.unscopedRest (Ix := Unit) (Name := ℕ) (U := UR sig nD τ) (Lvl := ℕ) spec2 c ((atTc (W15 m ρ)) c)
  hentry c := by
    rw [Pipeline.ownSems0_none]
    have hsplit := Pipeline.arrays_of_unscopedBufs (p := 2) (pcfgs (F := F)) adm (allDats m ρ) launch2.win launch2.arr_whole c
      ((allDats m ρ 2 c).share_full fun _ => rfl) ((atTc (W15 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (l2PhiIn (atTc (W15 m ρ)) c)
    unfold Pipeline.ΦA
    iintro ⟨Hp, -, Hr⟩
    isplitl [Hr]; · iexact Hr
    iexact Hp
  hout c := by
    rw [Pipeline.ownSems0_none]
    refine BIBase.Entails.trans (l2PhiOut (atTc (W15 m ρ)) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (allDats m ρ) ((allDats m ρ 2 c).share_full fun _ => rfl)
      ((atTc (W15 m ρ)) c) ((atTc (W16 m ρ)) c) ((allDats m ρ 2 c).arrAt · cfg2.N) (exitArr2 m ρ c) (exitRest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at W 17, left at W 18. Its windows' arrays are split out of the
    unscoped buffers and put back at their exit contents; the generator register goes into the region's invariant
    and comes back; nothing is owed; the kernel has no semaphore of its own. -/
def region3 : Pipeline.RegionSeg (pcfgs (F := F)) adm (allDats m ρ) () defs₀ noVariants noLevels levelZero 3 where
  win := launch3.win.to₀
  block_pos := launch3.block_pos
  stage_whole := launch3.stage_whole
  K := PEmpty
  osem k := k.elim
  ho := Pipeline.OwnSemFacts.none _
  hbody c := (l3Obligation (atTc (W17 m ρ)) c).loose
  hwaits := Pipeline.hwaits_of_owed_zero _ _ _ _ noLevels levelZero 3 fun _ _ => rfl
  pre c := iprop(StableHlo.held (c : Thread nD τ) (Pipeline.ucRefs τ sig) (W17 m ρ c) ∗ beside c)
  post c := iprop(StableHlo.held (c : Thread nD τ) (Pipeline.ucRefs τ sig) (W18 m ρ c) ∗ beside c)
  X c := iprop(∃ r, prngReg c r)
  Y c := iprop(∃ r, prngReg c r)
  Z c := Pipeline.unscopedRest (Ix := Unit) (Name := ℕ) (U := UR sig nD τ) (Lvl := ℕ) spec3 c ((atTc (W17 m ρ)) c)
  hentry c := by
    rw [Pipeline.ownSems0_none]
    have hsplit := Pipeline.arrays_of_unscopedBufs (p := 3) (pcfgs (F := F)) adm (allDats m ρ) launch3.win launch3.arr_whole c
      ((allDats m ρ 3 c).share_full fun _ => rfl) ((atTc (W17 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (l3PhiIn (atTc (W17 m ρ)) c)
    unfold Pipeline.ΦA
    iintro ⟨Hp, -, Hr⟩
    isplitl [Hr]; · iexact Hr
    iexact Hp
  hout c := by
    rw [Pipeline.ownSems0_none]
    refine BIBase.Entails.trans (l3PhiOut (atTc (W17 m ρ)) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (allDats m ρ) ((allDats m ρ 3 c).share_full fun _ => rfl)
      ((atTc (W17 m ρ)) c) ((atTc (W18 m ρ)) c) ((allDats m ρ 3 c).arrAt · cfg3.N) (exitArr3 m ρ c) (exitRest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at W 19, left at W 20. Its windows' arrays are split out of the
    unscoped buffers and put back at their exit contents; the generator register goes into the region's invariant
    and comes back; nothing is owed; the kernel has no semaphore of its own. -/
def region4 : Pipeline.RegionSeg (pcfgs (F := F)) adm (allDats m ρ) () defs₀ noVariants noLevels levelZero 4 where
  win := launch4.win.to₀
  block_pos := launch4.block_pos
  stage_whole := launch4.stage_whole
  K := PEmpty
  osem k := k.elim
  ho := Pipeline.OwnSemFacts.none _
  hbody c := (l4Obligation (atTc (W19 m ρ)) c).loose
  hwaits := Pipeline.hwaits_of_owed_zero _ _ _ _ noLevels levelZero 4 fun _ _ => rfl
  pre c := iprop(StableHlo.held (c : Thread nD τ) (Pipeline.ucRefs τ sig) (W19 m ρ c) ∗ beside c)
  post c := iprop(StableHlo.held (c : Thread nD τ) (Pipeline.ucRefs τ sig) (W20 m ρ c) ∗ beside c)
  X c := iprop(∃ r, prngReg c r)
  Y c := iprop(∃ r, prngReg c r)
  Z c := Pipeline.unscopedRest (Ix := Unit) (Name := ℕ) (U := UR sig nD τ) (Lvl := ℕ) spec4 c ((atTc (W19 m ρ)) c)
  hentry c := by
    rw [Pipeline.ownSems0_none]
    have hsplit := Pipeline.arrays_of_unscopedBufs (p := 4) (pcfgs (F := F)) adm (allDats m ρ) launch4.win launch4.arr_whole c
      ((allDats m ρ 4 c).share_full fun _ => rfl) ((atTc (W19 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (l4PhiIn (atTc (W19 m ρ)) c)
    unfold Pipeline.ΦA
    iintro ⟨Hp, -, Hr⟩
    isplitl [Hr]; · iexact Hr
    iexact Hp
  hout c := by
    rw [Pipeline.ownSems0_none]
    refine BIBase.Entails.trans (l4PhiOut (atTc (W19 m ρ)) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (allDats m ρ) ((allDats m ρ 4 c).share_full fun _ => rfl)
      ((atTc (W19 m ρ)) c) ((atTc (W20 m ρ)) c) ((allDats m ρ 4 c).arrAt · cfg4.N) (exitArr4 m ρ c) (exitRest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at W 21, left at W 22. Its windows' arrays are split out of the
    unscoped buffers and put back at their exit contents; the generator register goes into the region's invariant
    and comes back; nothing is owed; the kernel has no semaphore of its own. -/
def region5 : Pipeline.RegionSeg (pcfgs (F := F)) adm (allDats m ρ) () defs₀ noVariants noLevels levelZero 5 where
  win := launch5.win.to₀
  block_pos := launch5.block_pos
  stage_whole := launch5.stage_whole
  K := PEmpty
  osem k := k.elim
  ho := Pipeline.OwnSemFacts.none _
  hbody c := (smObligation (atTc (W21 m ρ)) c).loose
  hwaits := Pipeline.hwaits_of_owed_zero _ _ _ _ noLevels levelZero 5 fun _ _ => rfl
  pre c := iprop(StableHlo.held (c : Thread nD τ) (Pipeline.ucRefs τ sig) (W21 m ρ c) ∗ beside c)
  post c := iprop(StableHlo.held (c : Thread nD τ) (Pipeline.ucRefs τ sig) (W22 m ρ c) ∗ beside c)
  X c := iprop(∃ r, prngReg c r)
  Y c := iprop(∃ r, prngReg c r)
  Z c := Pipeline.unscopedRest (Ix := Unit) (Name := ℕ) (U := UR sig nD τ) (Lvl := ℕ) spec5 c ((atTc (W21 m ρ)) c)
  hentry c := by
    rw [Pipeline.ownSems0_none]
    have hsplit := Pipeline.arrays_of_unscopedBufs (p := 5) (pcfgs (F := F)) adm (allDats m ρ) launch5.win launch5.arr_whole c
      ((allDats m ρ 5 c).share_full fun _ => rfl) ((atTc (W21 m ρ)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (allDats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (allDats m ρ) ((allDats m ρ 5 c).share_full fun _ => rfl)
      ((atTc (W21 m ρ)) c) ((atTc (W22 m ρ)) c) ((allDats m ρ 5 c).arrAt · cfg5.N) (exitArr5 m ρ c) (exitRest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the run -/

abbrev allItems : List (Pipeline.Seg (pcfgs (F := F)) adm (allDats m ρ) () defs₀ noVariants noLevels levelZero) :=
  [ .host (hostItem hostOps0 hostOps0_sub hostOps0_fresh (W0 m ρ)),
    .host (hostItem hostOps0_1 hostOps0_1_sub hostOps0_1_fresh (W1 m ρ)),
    .host (hostItem hostOps0_2 hostOps0_2_sub hostOps0_2_fresh (W2 m ρ)),
    .host (hostItem hostOps0_3 hostOps0_3_sub hostOps0_3_fresh (W3 m ρ)),
    .host (hostItem hostOps0_4 hostOps0_4_sub hostOps0_4_fresh (W4 m ρ)),
    .host (hostItem hostOps0_5 hostOps0_5_sub hostOps0_5_fresh (W5 m ρ)),
    .host (hostItem hostOps0_6 hostOps0_6_sub hostOps0_6_fresh (W6 m ρ)),
    .host (hostItem hostOps0_7 hostOps0_7_sub hostOps0_7_fresh (W7 m ρ)),
    .host (hostItem hostOps0_8 hostOps0_8_sub hostOps0_8_fresh (W8 m ρ)),
    .host (hostItem hostOps0_9 hostOps0_9_sub hostOps0_9_fresh (W9 m ρ)),
    .host (hostItem hostOps0_10 hostOps0_10_sub hostOps0_10_fresh (W10 m ρ)),
    .region (region0 m ρ),
    .host (hostItem hostOps1 hostOps1_sub hostOps1_fresh (W12 m ρ)),
    .region (region1 m ρ),
    .host (hostItem hostOps2 hostOps2_sub hostOps2_fresh (W14 m ρ)),
    .region (region2 m ρ),
    .host (hostItem hostOps3 hostOps3_sub hostOps3_fresh (W16 m ρ)),
    .region (region3 m ρ),
    .host (hostItem hostOps4 hostOps4_sub hostOps4_fresh (W18 m ρ)),
    .region (region4 m ρ),
    .host (hostItem hostOps5 hostOps5_sub hostOps5_fresh (W20 m ρ)),
    .region (region5 m ρ) ]

theorem main_is_items (c : Dev nD) : main (F := F) c = Pipeline.Seg.run (allItems m ρ) := by
  rw [main_chain c, Pipeline.Seg.run_eq_chain]
  exact congrArg Pipeline.chain (show _ = (allItems m ρ).map Pipeline.Seg.prog from rfl)

theorem in_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, nothing faulting, and every
    unscoped buffer of every core ends at W 22. -/
theorem runAll : θ_run defs (onTc (τ := τ) (main (F := F))) ⟨m, fun _ => 0, ρ⟩
    (fun r => ∀ c : Dev nD, ∀ b ∈ Pipeline.ucRefs τ sig, r.2.mem (((c : Thread nD τ)).1, b) = W22 m ρ c b) :=
  Pipeline.θ_run_regions_kit (pcfgs (F := F)) adm (allDats m ρ) () cellOf_inj emb₁ defs₀ noVariants noLevels levelZero m ρ main (allItems m ρ)
    (fun c Q => by rw [main_is_items m ρ c])
    (by simp only [allItems, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W22 m ρ c) ∗ beside c)
        ⊢ iprop(lastState m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noLevels levelZero fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

end Cert.KernelIdeal.Hand

end
-- ==== Proof.KernelArgsIdeal.lean ====
/-
  No item of @main changes an argument array: a host stretch writes only its own results, a region changes only its
  output windows' arrays (the first region READS the argument x through an input window, which leaves it as it
  was). So each of the sixteen argument buffers, read off the last contents W 22, is what the launch memory held —
  and the frame claim follows from the run.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.KernelRunIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem kept_arg0 (c : Dev nD) : W22 m ρ c (Proc.devRef .tc main_arg0) = m ((c : Thread nD τ).loc main_arg0) :=
  (W22_of_ne m ρ c main_arg0 (by decide)).trans <|
  (StableHlo.after_of_writes_sub hostOps5 _ hostOps5_writes (by decide) : W21 m ρ c (Proc.devRef .tc main_arg0) = W20 m ρ c (Proc.devRef .tc main_arg0)).trans <|
  (W20_of_ne m ρ c main_arg0 (by decide)).trans <|
  (StableHlo.after_of_writes_sub hostOps4 _ hostOps4_writes (by decide) : W19 m ρ c (Proc.devRef .tc main_arg0) = W18 m ρ c (Proc.devRef .tc main_arg0)).trans <|
  (W18_of_ne m ρ c main_arg0 (by decide)).trans <|
  (StableHlo.after_of_writes_sub hostOps3 _ hostOps3_writes (by decide) : W17 m ρ c (Proc.devRef .tc main_arg0) = W16 m ρ c (Proc.devRef .tc main_arg0)).trans <|
  (W16_of_ne m ρ c main_arg0 (by decide)).trans <|
  (StableHlo.after_of_writes_sub hostOps2 _ hostOps2_writes (by decide) : W15 m ρ c (Proc.devRef .tc main_arg0) = W14 m ρ c (Proc.devRef .tc main_arg0)).trans <|
  (W14_of_ne m ρ c main_arg0 (by decide)).trans <|
  (StableHlo.after_of_writes_sub hostOps1 _ hostOps1_writes (by decide) : W13 m ρ c (Proc.devRef .tc main_arg0) = W12 m ρ c (Proc.devRef .tc main_arg0)).trans <|
  ((W12_arr m ρ c 0).trans (((l0Dat (atTc (W11 m ρ)) c).arrAt_in 0 rfl _).trans (l0Dat_A (atTc (W11 m ρ)) c 0))).trans <|
  (StableHlo.after_of_writes_sub hostOps0_10 _ hostOps0_10_writes (by decide) : W11 m ρ c (Proc.devRef .tc main_arg0) = W10 m ρ c (Proc.devRef .tc main_arg0)).trans <|
  (StableHlo.after_of_writes_sub hostOps0_9 _ hostOps0_9_writes (by decide) : W10 m ρ c (Proc.devRef .tc main_arg0) = W9 m ρ c (Proc.devRef .tc main_arg0)).trans <|
  (StableHlo.after_of_writes_sub hostOps0_8 _ hostOps0_8_writes (by decide) : W9 m ρ c (Proc.devRef .tc main_arg0) = W8 m ρ c (Proc.devRef .tc main_arg0)).trans <|
  (StableHlo.after_of_writes_sub hostOps0_7 _ hostOps0_7_writes (by decide) : W8 m ρ c (Proc.devRef .tc main_arg0) = W7 m ρ c (Proc.devRef .tc main_arg0)).trans <|
  (StableHlo.after_of_writes_sub hostOps0_6 _ hostOps0_6_writes (by decide) : W7 m ρ c (Proc.devRef .tc main_arg0) = W6 m ρ c (Proc.devRef .tc main_arg0)).trans <|
  (StableHlo.after_of_writes_sub hostOps0_5 _ hostOps0_5_writes (by decide) : W6 m ρ c (Proc.devRef .tc main_arg0) = W5 m ρ c (Proc.devRef .tc main_arg0)).trans <|
  (StableHlo.after_of_writes_sub hostOps0_4 _ hostOps0_4_writes (by decide) : W5 m ρ c (Proc.devRef .tc main_arg0) = W4 m ρ c (Proc.devRef .tc main_arg0)).trans <|
  (StableHlo.after_of_writes_sub hostOps0_3 _ hostOps0_3_writes (by decide) : W4 m ρ c (Proc.devRef .tc main_arg0) = W3 m ρ c (Proc.devRef .tc main_arg0)).trans <|
  (StableHlo.after_of_writes_sub hostOps0_2 _ hostOps0_2_writes (by decide) : W3 m ρ c (Proc.devRef .tc main_arg0) = W2 m ρ c (Proc.devRef .tc main_arg0)).trans <|
  (StableHlo.after_of_writes_sub hostOps0_1 _ hostOps0_1_writes (by decide) : W2 m ρ c (Proc.devRef .tc main_arg0) = W1 m ρ c (Proc.devRef .tc main_arg0)).trans <|
  (StableHlo.after_of_writes_sub hostOps0 _ hostOps0_writes (by decide) : W1 m ρ c (Proc.devRef .tc main_arg0) = W0 m ρ c (Proc.devRef .tc main_arg0)).trans <| rfl

theorem kept_arg1 (c : Dev nD) : W22 m ρ c (Proc.devRef .tc main_arg1) = m ((c : Thread nD τ).loc main_arg1) :=
  (W22_of_ne m ρ c main_arg1 (by decide)).trans <|
  (StableHlo.after_of_writes_sub hostOps5 _ hostOps5_writes (by decide) : W21 m ρ c (Proc.devRef .tc main_arg1) = W20 m ρ c (Proc.devRef .tc main_arg1)).trans <|
  (W20_of_ne m ρ c main_arg1 (by decide)).trans <|
  (StableHlo.after_of_writes_sub hostOps4 _ hostOps4_writes (by decide) : W19 m ρ c (Proc.devRef .tc main_arg1) = W18 m ρ c (Proc.devRef .tc main_arg1)).trans <|
  (W18_of_ne m ρ c main_arg1 (by decide)).trans <|
  (StableHlo.after_of_writes_sub hostOps3 _ hostOps3_writes (by decide) : W17 m ρ c (Proc.devRef .tc main_arg1) = W16 m ρ c (Proc.devRef .tc main_arg1)).trans <|
  (W16_of_ne m ρ c main_arg1 (by decide)).trans <|
  (StableHlo.after_of_writes_sub hostOps2 _ hostOps2_writes (by decide) : W15 m ρ c (Proc.devRef .tc main_arg1) = W14 m ρ c (Proc.devRef .tc main_arg1)).trans <|
  (W14_of_ne m ρ c main_arg1 (by decide)).trans <|
  (StableHlo.after_of_writes_sub hostOps1 _ hostOps1_writes (by decide) : W13 m ρ c (Proc.devRef .tc main_arg1) = W12 m ρ c (Proc.devRef .tc main_arg1)).trans <|
  (W12_of_ne m ρ c main_arg1 (by decide)).trans <|
  (StableHlo.after_of_writes_sub hostOps0_10 _ hostOps0_10_writes (by decide) : W11 m ρ c (Proc.devRef .tc main_arg1) = W10 m ρ c (Proc.devRef .tc main_arg1)).trans <|
  (StableHlo.after_of_writes_sub hostOps0_9 _ hostOps0_9_writes (by decide) : W10 m ρ c (Proc.devRef .tc main_arg1) = W9 m ρ c (Proc.devRef .tc main_arg1)).trans <|
  (StableHlo.after_of_writes_sub hostOps0_8 _ hostOps0_8_writes (by decide) : W9 m ρ c (Proc.devRef .tc main_arg1) = W8 m ρ c (Proc.devRef .tc main_arg1)).trans <|
  (StableHlo.after_of_writes_sub hostOps0_7 _ hostOps0_7_writes (by decide) : W8 m ρ c (Proc.devRef .tc main_arg1) = W7 m ρ c (Proc.devRef .tc main_arg1)).trans <|
  (StableHlo.after_of_writes_sub hostOps0_6 _ hostOps0_6_writes (by decide) : W7 m ρ c (Proc.devRef .tc main_arg1) = W6 m ρ c (Proc.devRef .tc main_arg1)).trans <|
  (StableHlo.after_of_writes_sub hostOps0_5 _ hostOps0_5_writes (by decide) : W6 m ρ c (Proc.devRef .tc main_arg1) = W5 m ρ c (Proc.devRef .tc main_arg1)).trans <|
  (StableHlo.after_of_writes_sub hostOps0_4 _ hostOps0_4_writes (by decide) : W5 m ρ c (Proc.devRef .tc main_arg1) = W4 m ρ c (Proc.devRef .tc main_arg1)).trans <|
  (StableHlo.after_of_writes_sub hostOps0_3 _ hostOps0_3_writes (by decide) : W4 m ρ c (Proc.devRef .tc main_arg1) = W3 m ρ c (Proc.devRef .tc main_arg1)).trans <|
  (StableHlo.after_of_writes_sub hostOps0_2 _ hostOps0_2_writes (by decide) : W3 m ρ c (Proc.devRef .tc main_arg1) = W2 m ρ c (Proc.devRef .tc main_arg1)).trans <|
  (StableHlo.after_of_writes_sub hostOps0_1 _ hostOps0_1_writes (by decide) : W2 m ρ c (Proc.devRef .tc main_arg1) = W1 m ρ c (Proc.devRef .tc main_arg1)).trans <|
  (StableHlo.after_of_writes_sub hostOps0 _ hostOps0_writes (by decide) : W1 m ρ c (Proc.devRef .tc main_arg1) = W0 m ρ c (Proc.devRef .tc main_arg1)).trans <| rfl

theorem kept_arg2 (c : Dev nD) : W22 m ρ c (Proc.devRef .tc main_arg2) = m ((c : Thread nD τ).loc main_arg2) :=
  (W22_of_ne m ρ c main_arg2 (by decide)).trans <|
  (StableHlo.after_of_writes_sub hostOps5 _ hostOps5_writes (by decide) : W21 m ρ c (Proc.devRef .tc main_arg2) = W20 m ρ c (Proc.devRef .tc main_arg2)).trans <|
  (W20_of_ne m ρ c main_arg2 (by decide)).trans <|
  (StableHlo.after_of_writes_sub hostOps4 _ hostOps4_writes (by decide) : W19 m ρ c (Proc.devRef .tc main_arg2) = W18 m ρ c (Proc.devRef .tc main_arg2)).trans <|
  (W18_of_ne m ρ c main_arg2 (by decide)).trans <|
  (StableHlo.after_of_writes_sub hostOps3 _ hostOps3_writes (by decide) : W17 m ρ c (Proc.devRef .tc main_arg2) = W16 m ρ c (Proc.devRef .tc main_arg2)).trans <|
  (W16_of_ne m ρ c main_arg2 (by decide)).trans <|
  (StableHlo.after_of_writes_sub hostOps2 _ hostOps2_writes (by decide) : W15 m ρ c (Proc.devRef .tc main_arg2) = W14 m ρ c (Proc.devRef .tc main_arg2)).trans <|
  (W14_of_ne m ρ c main_arg2 (by decide)).trans <|
  (StableHlo.after_of_writes_sub hostOps1 _ hostOps1_writes (by decide) : W13 m ρ c (Proc.devRef .tc main_arg2) = W12 m ρ c (Proc.devRef .tc main_arg2)).trans <|
  (W12_of_ne m ρ c main_arg2 (by decide)).trans <|
  (StableHlo.after_of_writes_sub hostOps0_10 _ hostOps0_10_writes (by decide) : W11 m ρ c (Proc.devRef .tc main_arg2) = W10 m ρ c (Proc.devRef .tc main_arg2)).trans <|
  (StableHlo.after_of_writes_sub hostOps0_9 _ hostOps0_9_writes (by decide) : W10 m ρ c (Proc.devRef .tc main_arg2) = W9 m ρ c (Proc.devRef .tc main_arg2)).trans <|
  (StableHlo.after_of_writes_sub hostOps0_8 _ hostOps0_8_writes (by decide) : W9 m ρ c (Proc.devRef .tc main_arg2) = W8 m ρ c (Proc.devRef .tc main_arg2)).trans <|
  (StableHlo.after_of_writes_sub hostOps0_7 _ hostOps0_7_writes (by decide) : W8 m ρ c (Proc.devRef .tc main_arg2) = W7 m ρ c (Proc.devRef .tc main_arg2)).trans <|
  (StableHlo.after_of_writes_sub hostOps0_6 _ hostOps0_6_writes (by decide) : W7 m ρ c (Proc.devRef .tc main_arg2) = W6 m ρ c (Proc.devRef .tc main_arg2)).trans <|
  (StableHlo.after_of_writes_sub hostOps0_5 _ hostOps0_5_writes (by decide) : W6 m ρ c (Proc.devRef .tc main_arg2) = W5 m ρ c (Proc.devRef .tc main_arg2)).trans <|
  (StableHlo.after_of_writes_sub hostOps0_4 _ hostOps0_4_writes (by decide) : W5 m ρ c (Proc.devRef .tc main_arg2) = W4 m ρ c (Proc.devRef .tc main_arg2)).trans <|
  (StableHlo.after_of_writes_sub hostOps0_3 _ hostOps0_3_writes (by decide) : W4 m ρ c (Proc.devRef .tc main_arg2) = W3 m ρ c (Proc.devRef .tc main_arg2)).trans <|
  (StableHlo.after_of_writes_sub hostOps0_2 _ hostOps0_2_writes (by decide) : W3 m ρ c (Proc.devRef .tc main_arg2) = W2 m ρ c (Proc.devRef .tc main_arg2)).trans <|
  (StableHlo.after_of_writes_sub hostOps0_1 _ hostOps0_1_writes (by decide) : W2 m ρ c (Proc.devRef .tc main_arg2) = W1 m ρ c (Proc.devRef .tc main_arg2)).trans <|
  (StableHlo.after_of_writes_sub hostOps0 _ hostOps0_writes (by decide) : W1 m ρ c (Proc.devRef .tc main_arg2) = W0 m ρ c (Proc.devRef .tc main_arg2)).trans <| rfl

theorem kept_arg3 (c : Dev nD) : W22 m ρ c (Proc.devRef .tc main_arg3) = m ((c : Thread nD τ).loc main_arg3) :=
  (W22_of_ne m ρ c main_arg3 (by decide)).trans <|
  (StableHlo.after_of_writes_sub hostOps5 _ hostOps5_writes (by decide) : W21 m ρ c (Proc.devRef .tc main_arg3) = W20 m ρ c (Proc.devRef .tc main_arg3)).trans <|
  (W20_of_ne m ρ c main_arg3 (by decide)).trans <|
  (StableHlo.after_of_writes_sub hostOps4 _ hostOps4_writes (by decide) : W19 m ρ c (Proc.devRef .tc main_arg3) = W18 m ρ c (Proc.devRef .tc main_arg3)).trans <|
  (W18_of_ne m ρ c main_arg3 (by decide)).trans <|
  (StableHlo.after_of_writes_sub hostOps3 _ hostOps3_writes (by decide) : W17 m ρ c (Proc.devRef .tc main_arg3) = W16 m ρ c (Proc.devRef .tc main_arg3)).trans <|
  (W16_of_ne m ρ c main_arg3 (by decide)).trans <|
  (StableHlo.after_of_writes_sub hostOps2 _ hostOps2_writes (by decide) : W15 m ρ c (Proc.devRef .tc main_arg3) = W14 m ρ c (Proc.devRef .tc main_arg3)).trans <|
  (W14_of_ne m ρ c main_arg3 (by decide)).trans <|
  (StableHlo.after_of_writes_sub hostOps1 _ hostOps1_writes (by decide) : W13 m ρ c (Proc.devRef .tc main_arg3) = W12 m ρ c (Proc.devRef .tc main_arg3)).trans <|
  (W12_of_ne m ρ c main_arg3 (by decide)).trans <|
  (StableHlo.after_of_writes_sub hostOps0_10 _ hostOps0_10_writes (by decide) : W11 m ρ c (Proc.devRef .tc main_arg3) = W10 m ρ c (Proc.devRef .tc main_arg3)).trans <|
  (StableHlo.after_of_writes_sub hostOps0_9 _ hostOps0_9_writes (by decide) : W10 m ρ c (Proc.devRef .tc main_arg3) = W9 m ρ c (Proc.devRef .tc main_arg3)).trans <|
  (StableHlo.after_of_writes_sub hostOps0_8 _ hostOps0_8_writes (by decide) : W9 m ρ c (Proc.devRef .tc main_arg3) = W8 m ρ c (Proc.devRef .tc main_arg3)).trans <|
  (StableHlo.after_of_writes_sub hostOps0_7 _ hostOps0_7_writes (by decide) : W8 m ρ c (Proc.devRef .tc main_arg3) = W7 m ρ c (Proc.devRef .tc main_arg3)).trans <|
  (StableHlo.after_of_writes_sub hostOps0_6 _ hostOps0_6_writes (by decide) : W7 m ρ c (Proc.devRef .tc main_arg3) = W6 m ρ c (Proc.devRef .tc main_arg3)).trans <|
  (StableHlo.after_of_writes_sub hostOps0_5 _ hostOps0_5_writes (by decide) : W6 m ρ c (Proc.devRef .tc main_arg3) = W5 m ρ c (Proc.devRef .tc main_arg3)).trans <|
  (StableHlo.after_of_writes_sub hostOps0_4 _ hostOps0_4_writes (by decide) : W5 m ρ c (Proc.devRef .tc main_arg3) = W4 m ρ c (Proc.devRef .tc main_arg3)).trans <|
  (StableHlo.after_of_writes_sub hostOps0_3 _ hostOps0_3_writes (by decide) : W4 m ρ c (Proc.devRef .tc main_arg3) = W3 m ρ c (Proc.devRef .tc main_arg3)).trans <|
  (StableHlo.after_of_writes_sub hostOps0_2 _ hostOps0_2_writes (by decide) : W3 m ρ c (Proc.devRef .tc main_arg3) = W2 m ρ c (Proc.devRef .tc main_arg3)).trans <|
  (StableHlo.after_of_writes_sub hostOps0_1 _ hostOps0_1_writes (by decide) : W2 m ρ c (Proc.devRef .tc main_arg3) = W1 m ρ c (Proc.devRef .tc main_arg3)).trans <|
  (StableHlo.after_of_writes_sub hostOps0 _ hostOps0_writes (by decide) : W1 m ρ c (Proc.devRef .tc main_arg3) = W0 m ρ c (Proc.devRef .tc main_arg3)).trans <| rfl

theorem kept_arg4 (c : Dev nD) : W22 m ρ c (Proc.devRef .tc main_arg4) = m ((c : Thread nD τ).loc main_arg4) :=
  (W22_of_ne m ρ c main_arg4 (by decide)).trans <|
  (StableHlo.after_of_writes_sub hostOps5 _ hostOps5_writes (by decide) : W21 m ρ c (Proc.devRef .tc main_arg4) = W20 m ρ c (Proc.devRef .tc main_arg4)).trans <|
  (W20_of_ne m ρ c main_arg4 (by decide)).trans <|
  (StableHlo.after_of_writes_sub hostOps4 _ hostOps4_writes (by decide) : W19 m ρ c (Proc.devRef .tc main_arg4) = W18 m ρ c (Proc.devRef .tc main_arg4)).trans <|
  (W18_of_ne m ρ c main_arg4 (by decide)).trans <|
  (StableHlo.after_of_writes_sub hostOps3 _ hostOps3_writes (by decide) : W17 m ρ c (Proc.devRef .tc main_arg4) = W16 m ρ c (Proc.devRef .tc main_arg4)).trans <|
  (W16_of_ne m ρ c main_arg4 (by decide)).trans <|
  (StableHlo.after_of_writes_sub hostOps2 _ hostOps2_writes (by decide) : W15 m ρ c (Proc.devRef .tc main_arg4) = W14 m ρ c (Proc.devRef .tc main_arg4)).trans <|
  (W14_of_ne m ρ c main_arg4 (by decide)).trans <|
  (StableHlo.after_of_writes_sub hostOps1 _ hostOps1_writes (by decide) : W13 m ρ c (Proc.devRef .tc main_arg4) = W12 m ρ c (Proc.devRef .tc main_arg4)).trans <|
  (W12_of_ne m ρ c main_arg4 (by decide)).trans <|
  (StableHlo.after_of_writes_sub hostOps0_10 _ hostOps0_10_writes (by decide) : W11 m ρ c (Proc.devRef .tc main_arg4) = W10 m ρ c (Proc.devRef .tc main_arg4)).trans <|
  (StableHlo.after_of_writes_sub hostOps0_9 _ hostOps0_9_writes (by decide) : W10 m ρ c (Proc.devRef .tc main_arg4) = W9 m ρ c (Proc.devRef .tc main_arg4)).trans <|
  (StableHlo.after_of_writes_sub hostOps0_8 _ hostOps0_8_writes (by decide) : W9 m ρ c (Proc.devRef .tc main_arg4) = W8 m ρ c (Proc.devRef .tc main_arg4)).trans <|
  (StableHlo.after_of_writes_sub hostOps0_7 _ hostOps0_7_writes (by decide) : W8 m ρ c (Proc.devRef .tc main_arg4) = W7 m ρ c (Proc.devRef .tc main_arg4)).trans <|
  (StableHlo.after_of_writes_sub hostOps0_6 _ hostOps0_6_writes (by decide) : W7 m ρ c (Proc.devRef .tc main_arg4) = W6 m ρ c (Proc.devRef .tc main_arg4)).trans <|
  (StableHlo.after_of_writes_sub hostOps0_5 _ hostOps0_5_writes (by decide) : W6 m ρ c (Proc.devRef .tc main_arg4) = W5 m ρ c (Proc.devRef .tc main_arg4)).trans <|
  (StableHlo.after_of_writes_sub hostOps0_4 _ hostOps0_4_writes (by decide) : W5 m ρ c (Proc.devRef .tc main_arg4) = W4 m ρ c (Proc.devRef .tc main_arg4)).trans <|
  (StableHlo.after_of_writes_sub hostOps0_3 _ hostOps0_3_writes (by decide) : W4 m ρ c (Proc.devRef .tc main_arg4) = W3 m ρ c (Proc.devRef .tc main_arg4)).trans <|
  (StableHlo.after_of_writes_sub hostOps0_2 _ hostOps0_2_writes (by decide) : W3 m ρ c (Proc.devRef .tc main_arg4) = W2 m ρ c (Proc.devRef .tc main_arg4)).trans <|
  (StableHlo.after_of_writes_sub hostOps0_1 _ hostOps0_1_writes (by decide) : W2 m ρ c (Proc.devRef .tc main_arg4) = W1 m ρ c (Proc.devRef .tc main_arg4)).trans <|
  (StableHlo.after_of_writes_sub hostOps0 _ hostOps0_writes (by decide) : W1 m ρ c (Proc.devRef .tc main_arg4) = W0 m ρ c (Proc.devRef .tc main_arg4)).trans <| rfl

theorem kept_arg5 (c : Dev nD) : W22 m ρ c (Proc.devRef .tc main_arg5) = m ((c : Thread nD τ).loc main_arg5) :=
  (W22_of_ne m ρ c main_arg5 (by decide)).trans <|
  (StableHlo.after_of_writes_sub hostOps5 _ hostOps5_writes (by decide) : W21 m ρ c (Proc.devRef .tc main_arg5) = W20 m ρ c (Proc.devRef .tc main_arg5)).trans <|
  (W20_of_ne m ρ c main_arg5 (by decide)).trans <|
  (StableHlo.after_of_writes_sub hostOps4 _ hostOps4_writes (by decide) : W19 m ρ c (Proc.devRef .tc main_arg5) = W18 m ρ c (Proc.devRef .tc main_arg5)).trans <|
  (W18_of_ne m ρ c main_arg5 (by decide)).trans <|
  (StableHlo.after_of_writes_sub hostOps3 _ hostOps3_writes (by decide) : W17 m ρ c (Proc.devRef .tc main_arg5) = W16 m ρ c (Proc.devRef .tc main_arg5)).trans <|
  (W16_of_ne m ρ c main_arg5 (by decide)).trans <|
  (StableHlo.after_of_writes_sub hostOps2 _ hostOps2_writes (by decide) : W15 m ρ c (Proc.devRef .tc main_arg5) = W14 m ρ c (Proc.devRef .tc main_arg5)).trans <|
  (W14_of_ne m ρ c main_arg5 (by decide)).trans <|
  (StableHlo.after_of_writes_sub hostOps1 _ hostOps1_writes (by decide) : W13 m ρ c (Proc.devRef .tc main_arg5) = W12 m ρ c (Proc.devRef .tc main_arg5)).trans <|
  (W12_of_ne m ρ c main_arg5 (by decide)).trans <|
  (StableHlo.after_of_writes_sub hostOps0_10 _ hostOps0_10_writes (by decide) : W11 m ρ c (Proc.devRef .tc main_arg5) = W10 m ρ c (Proc.devRef .tc main_arg5)).trans <|
  (StableHlo.after_of_writes_sub hostOps0_9 _ hostOps0_9_writes (by decide) : W10 m ρ c (Proc.devRef .tc main_arg5) = W9 m ρ c (Proc.devRef .tc main_arg5)).trans <|
  (StableHlo.after_of_writes_sub hostOps0_8 _ hostOps0_8_writes (by decide) : W9 m ρ c (Proc.devRef .tc main_arg5) = W8 m ρ c (Proc.devRef .tc main_arg5)).trans <|
  (StableHlo.after_of_writes_sub hostOps0_7 _ hostOps0_7_writes (by decide) : W8 m ρ c (Proc.devRef .tc main_arg5) = W7 m ρ c (Proc.devRef .tc main_arg5)).trans <|
  (StableHlo.after_of_writes_sub hostOps0_6 _ hostOps0_6_writes (by decide) : W7 m ρ c (Proc.devRef .tc main_arg5) = W6 m ρ c (Proc.devRef .tc main_arg5)).trans <|
  (StableHlo.after_of_writes_sub hostOps0_5 _ hostOps0_5_writes (by decide) : W6 m ρ c (Proc.devRef .tc main_arg5) = W5 m ρ c (Proc.devRef .tc main_arg5)).trans <|
  (StableHlo.after_of_writes_sub hostOps0_4 _ hostOps0_4_writes (by decide) : W5 m ρ c (Proc.devRef .tc main_arg5) = W4 m ρ c (Proc.devRef .tc main_arg5)).trans <|
  (StableHlo.after_of_writes_sub hostOps0_3 _ hostOps0_3_writes (by decide) : W4 m ρ c (Proc.devRef .tc main_arg5) = W3 m ρ c (Proc.devRef .tc main_arg5)).trans <|
  (StableHlo.after_of_writes_sub hostOps0_2 _ hostOps0_2_writes (by decide) : W3 m ρ c (Proc.devRef .tc main_arg5) = W2 m ρ c (Proc.devRef .tc main_arg5)).trans <|
  (StableHlo.after_of_writes_sub hostOps0_1 _ hostOps0_1_writes (by decide) : W2 m ρ c (Proc.devRef .tc main_arg5) = W1 m ρ c (Proc.devRef .tc main_arg5)).trans <|
  (StableHlo.after_of_writes_sub hostOps0 _ hostOps0_writes (by decide) : W1 m ρ c (Proc.devRef .tc main_arg5) = W0 m ρ c (Proc.devRef .tc main_arg5)).trans <| rfl

theorem kept_arg6 (c : Dev nD) : W22 m ρ c (Proc.devRef .tc main_arg6) = m ((c : Thread nD τ).loc main_arg6) :=
  (W22_of_ne m ρ c main_arg6 (by decide)).trans <|
  (StableHlo.after_of_writes_sub hostOps5 _ hostOps5_writes (by decide) : W21 m ρ c (Proc.devRef .tc main_arg6) = W20 m ρ c (Proc.devRef .tc main_arg6)).trans <|
  (W20_of_ne m ρ c main_arg6 (by decide)).trans <|
  (StableHlo.after_of_writes_sub hostOps4 _ hostOps4_writes (by decide) : W19 m ρ c (Proc.devRef .tc main_arg6) = W18 m ρ c (Proc.devRef .tc main_arg6)).trans <|
  (W18_of_ne m ρ c main_arg6 (by decide)).trans <|
  (StableHlo.after_of_writes_sub hostOps3 _ hostOps3_writes (by decide) : W17 m ρ c (Proc.devRef .tc main_arg6) = W16 m ρ c (Proc.devRef .tc main_arg6)).trans <|
  (W16_of_ne m ρ c main_arg6 (by decide)).trans <|
  (StableHlo.after_of_writes_sub hostOps2 _ hostOps2_writes (by decide) : W15 m ρ c (Proc.devRef .tc main_arg6) = W14 m ρ c (Proc.devRef .tc main_arg6)).trans <|
  (W14_of_ne m ρ c main_arg6 (by decide)).trans <|
  (StableHlo.after_of_writes_sub hostOps1 _ hostOps1_writes (by decide) : W13 m ρ c (Proc.devRef .tc main_arg6) = W12 m ρ c (Proc.devRef .tc main_arg6)).trans <|
  (W12_of_ne m ρ c main_arg6 (by decide)).trans <|
  (StableHlo.after_of_writes_sub hostOps0_10 _ hostOps0_10_writes (by decide) : W11 m ρ c (Proc.devRef .tc main_arg6) = W10 m ρ c (Proc.devRef .tc main_arg6)).trans <|
  (StableHlo.after_of_writes_sub hostOps0_9 _ hostOps0_9_writes (by decide) : W10 m ρ c (Proc.devRef .tc main_arg6) = W9 m ρ c (Proc.devRef .tc main_arg6)).trans <|
  (StableHlo.after_of_writes_sub hostOps0_8 _ hostOps0_8_writes (by decide) : W9 m ρ c (Proc.devRef .tc main_arg6) = W8 m ρ c (Proc.devRef .tc main_arg6)).trans <|
  (StableHlo.after_of_writes_sub hostOps0_7 _ hostOps0_7_writes (by decide) : W8 m ρ c (Proc.devRef .tc main_arg6) = W7 m ρ c (Proc.devRef .tc main_arg6)).trans <|
  (StableHlo.after_of_writes_sub hostOps0_6 _ hostOps0_6_writes (by decide) : W7 m ρ c (Proc.devRef .tc main_arg6) = W6 m ρ c (Proc.devRef .tc main_arg6)).trans <|
  (StableHlo.after_of_writes_sub hostOps0_5 _ hostOps0_5_writes (by decide) : W6 m ρ c (Proc.devRef .tc main_arg6) = W5 m ρ c (Proc.devRef .tc main_arg6)).trans <|
  (StableHlo.after_of_writes_sub hostOps0_4 _ hostOps0_4_writes (by decide) : W5 m ρ c (Proc.devRef .tc main_arg6) = W4 m ρ c (Proc.devRef .tc main_arg6)).trans <|
  (StableHlo.after_of_writes_sub hostOps0_3 _ hostOps0_3_writes (by decide) : W4 m ρ c (Proc.devRef .tc main_arg6) = W3 m ρ c (Proc.devRef .tc main_arg6)).trans <|
  (StableHlo.after_of_writes_sub hostOps0_2 _ hostOps0_2_writes (by decide) : W3 m ρ c (Proc.devRef .tc main_arg6) = W2 m ρ c (Proc.devRef .tc main_arg6)).trans <|
  (StableHlo.after_of_writes_sub hostOps0_1 _ hostOps0_1_writes (by decide) : W2 m ρ c (Proc.devRef .tc main_arg6) = W1 m ρ c (Proc.devRef .tc main_arg6)).trans <|
  (StableHlo.after_of_writes_sub hostOps0 _ hostOps0_writes (by decide) : W1 m ρ c (Proc.devRef .tc main_arg6) = W0 m ρ c (Proc.devRef .tc main_arg6)).trans <| rfl

theorem kept_arg7 (c : Dev nD) : W22 m ρ c (Proc.devRef .tc main_arg7) = m ((c : Thread nD τ).loc main_arg7) :=
  (W22_of_ne m ρ c main_arg7 (by decide)).trans <|
  (StableHlo.after_of_writes_sub hostOps5 _ hostOps5_writes (by decide) : W21 m ρ c (Proc.devRef .tc main_arg7) = W20 m ρ c (Proc.devRef .tc main_arg7)).trans <|
  (W20_of_ne m ρ c main_arg7 (by decide)).trans <|
  (StableHlo.after_of_writes_sub hostOps4 _ hostOps4_writes (by decide) : W19 m ρ c (Proc.devRef .tc main_arg7) = W18 m ρ c (Proc.devRef .tc main_arg7)).trans <|
  (W18_of_ne m ρ c main_arg7 (by decide)).trans <|
  (StableHlo.after_of_writes_sub hostOps3 _ hostOps3_writes (by decide) : W17 m ρ c (Proc.devRef .tc main_arg7) = W16 m ρ c (Proc.devRef .tc main_arg7)).trans <|
  (W16_of_ne m ρ c main_arg7 (by decide)).trans <|
  (StableHlo.after_of_writes_sub hostOps2 _ hostOps2_writes (by decide) : W15 m ρ c (Proc.devRef .tc main_arg7) = W14 m ρ c (Proc.devRef .tc main_arg7)).trans <|
  (W14_of_ne m ρ c main_arg7 (by decide)).trans <|
  (StableHlo.after_of_writes_sub hostOps1 _ hostOps1_writes (by decide) : W13 m ρ c (Proc.devRef .tc main_arg7) = W12 m ρ c (Proc.devRef .tc main_arg7)).trans <|
  (W12_of_ne m ρ c main_arg7 (by decide)).trans <|
  (StableHlo.after_of_writes_sub hostOps0_10 _ hostOps0_10_writes (by decide) : W11 m ρ c (Proc.devRef .tc main_arg7) = W10 m ρ c (Proc.devRef .tc main_arg7)).trans <|
  (StableHlo.after_of_writes_sub hostOps0_9 _ hostOps0_9_writes (by decide) : W10 m ρ c (Proc.devRef .tc main_arg7) = W9 m ρ c (Proc.devRef .tc main_arg7)).trans <|
  (StableHlo.after_of_writes_sub hostOps0_8 _ hostOps0_8_writes (by decide) : W9 m ρ c (Proc.devRef .tc main_arg7) = W8 m ρ c (Proc.devRef .tc main_arg7)).trans <|
  (StableHlo.after_of_writes_sub hostOps0_7 _ hostOps0_7_writes (by decide) : W8 m ρ c (Proc.devRef .tc main_arg7) = W7 m ρ c (Proc.devRef .tc main_arg7)).trans <|
  (StableHlo.after_of_writes_sub hostOps0_6 _ hostOps0_6_writes (by decide) : W7 m ρ c (Proc.devRef .tc main_arg7) = W6 m ρ c (Proc.devRef .tc main_arg7)).trans <|
  (StableHlo.after_of_writes_sub hostOps0_5 _ hostOps0_5_writes (by decide) : W6 m ρ c (Proc.devRef .tc main_arg7) = W5 m ρ c (Proc.devRef .tc main_arg7)).trans <|
  (StableHlo.after_of_writes_sub hostOps0_4 _ hostOps0_4_writes (by decide) : W5 m ρ c (Proc.devRef .tc main_arg7) = W4 m ρ c (Proc.devRef .tc main_arg7)).trans <|
  (StableHlo.after_of_writes_sub hostOps0_3 _ hostOps0_3_writes (by decide) : W4 m ρ c (Proc.devRef .tc main_arg7) = W3 m ρ c (Proc.devRef .tc main_arg7)).trans <|
  (StableHlo.after_of_writes_sub hostOps0_2 _ hostOps0_2_writes (by decide) : W3 m ρ c (Proc.devRef .tc main_arg7) = W2 m ρ c (Proc.devRef .tc main_arg7)).trans <|
  (StableHlo.after_of_writes_sub hostOps0_1 _ hostOps0_1_writes (by decide) : W2 m ρ c (Proc.devRef .tc main_arg7) = W1 m ρ c (Proc.devRef .tc main_arg7)).trans <|
  (StableHlo.after_of_writes_sub hostOps0 _ hostOps0_writes (by decide) : W1 m ρ c (Proc.devRef .tc main_arg7) = W0 m ρ c (Proc.devRef .tc main_arg7)).trans <| rfl

theorem kept_arg8 (c : Dev nD) : W22 m ρ c (Proc.devRef .tc main_arg8) = m ((c : Thread nD τ).loc main_arg8) :=
  (W22_of_ne m ρ c main_arg8 (by decide)).trans <|
  (StableHlo.after_of_writes_sub hostOps5 _ hostOps5_writes (by decide) : W21 m ρ c (Proc.devRef .tc main_arg8) = W20 m ρ c (Proc.devRef .tc main_arg8)).trans <|
  (W20_of_ne m ρ c main_arg8 (by decide)).trans <|
  (StableHlo.after_of_writes_sub hostOps4 _ hostOps4_writes (by decide) : W19 m ρ c (Proc.devRef .tc main_arg8) = W18 m ρ c (Proc.devRef .tc main_arg8)).trans <|
  (W18_of_ne m ρ c main_arg8 (by decide)).trans <|
  (StableHlo.after_of_writes_sub hostOps3 _ hostOps3_writes (by decide) : W17 m ρ c (Proc.devRef .tc main_arg8) = W16 m ρ c (Proc.devRef .tc main_arg8)).trans <|
  (W16_of_ne m ρ c main_arg8 (by decide)).trans <|
  (StableHlo.after_of_writes_sub hostOps2 _ hostOps2_writes (by decide) : W15 m ρ c (Proc.devRef .tc main_arg8) = W14 m ρ c (Proc.devRef .tc main_arg8)).trans <|
  (W14_of_ne m ρ c main_arg8 (by decide)).trans <|
  (StableHlo.after_of_writes_sub hostOps1 _ hostOps1_writes (by decide) : W13 m ρ c (Proc.devRef .tc main_arg8) = W12 m ρ c (Proc.devRef .tc main_arg8)).trans <|
  (W12_of_ne m ρ c main_arg8 (by decide)).trans <|
  (StableHlo.after_of_writes_sub hostOps0_10 _ hostOps0_10_writes (by decide) : W11 m ρ c (Proc.devRef .tc main_arg8) = W10 m ρ c (Proc.devRef .tc main_arg8)).trans <|
  (StableHlo.after_of_writes_sub hostOps0_9 _ hostOps0_9_writes (by decide) : W10 m ρ c (Proc.devRef .tc main_arg8) = W9 m ρ c (Proc.devRef .tc main_arg8)).trans <|
  (StableHlo.after_of_writes_sub hostOps0_8 _ hostOps0_8_writes (by decide) : W9 m ρ c (Proc.devRef .tc main_arg8) = W8 m ρ c (Proc.devRef .tc main_arg8)).trans <|
  (StableHlo.after_of_writes_sub hostOps0_7 _ hostOps0_7_writes (by decide) : W8 m ρ c (Proc.devRef .tc main_arg8) = W7 m ρ c (Proc.devRef .tc main_arg8)).trans <|
  (StableHlo.after_of_writes_sub hostOps0_6 _ hostOps0_6_writes (by decide) : W7 m ρ c (Proc.devRef .tc main_arg8) = W6 m ρ c (Proc.devRef .tc main_arg8)).trans <|
  (StableHlo.after_of_writes_sub hostOps0_5 _ hostOps0_5_writes (by decide) : W6 m ρ c (Proc.devRef .tc main_arg8) = W5 m ρ c (Proc.devRef .tc main_arg8)).trans <|
  (StableHlo.after_of_writes_sub hostOps0_4 _ hostOps0_4_writes (by decide) : W5 m ρ c (Proc.devRef .tc main_arg8) = W4 m ρ c (Proc.devRef .tc main_arg8)).trans <|
  (StableHlo.after_of_writes_sub hostOps0_3 _ hostOps0_3_writes (by decide) : W4 m ρ c (Proc.devRef .tc main_arg8) = W3 m ρ c (Proc.devRef .tc main_arg8)).trans <|
  (StableHlo.after_of_writes_sub hostOps0_2 _ hostOps0_2_writes (by decide) : W3 m ρ c (Proc.devRef .tc main_arg8) = W2 m ρ c (Proc.devRef .tc main_arg8)).trans <|
  (StableHlo.after_of_writes_sub hostOps0_1 _ hostOps0_1_writes (by decide) : W2 m ρ c (Proc.devRef .tc main_arg8) = W1 m ρ c (Proc.devRef .tc main_arg8)).trans <|
  (StableHlo.after_of_writes_sub hostOps0 _ hostOps0_writes (by decide) : W1 m ρ c (Proc.devRef .tc main_arg8) = W0 m ρ c (Proc.devRef .tc main_arg8)).trans <| rfl

theorem kept_arg9 (c : Dev nD) : W22 m ρ c (Proc.devRef .tc main_arg9) = m ((c : Thread nD τ).loc main_arg9) :=
  (W22_of_ne m ρ c main_arg9 (by decide)).trans <|
  (StableHlo.after_of_writes_sub hostOps5 _ hostOps5_writes (by decide) : W21 m ρ c (Proc.devRef .tc main_arg9) = W20 m ρ c (Proc.devRef .tc main_arg9)).trans <|
  (W20_of_ne m ρ c main_arg9 (by decide)).trans <|
  (StableHlo.after_of_writes_sub hostOps4 _ hostOps4_writes (by decide) : W19 m ρ c (Proc.devRef .tc main_arg9) = W18 m ρ c (Proc.devRef .tc main_arg9)).trans <|
  (W18_of_ne m ρ c main_arg9 (by decide)).trans <|
  (StableHlo.after_of_writes_sub hostOps3 _ hostOps3_writes (by decide) : W17 m ρ c (Proc.devRef .tc main_arg9) = W16 m ρ c (Proc.devRef .tc main_arg9)).trans <|
  (W16_of_ne m ρ c main_arg9 (by decide)).trans <|
  (StableHlo.after_of_writes_sub hostOps2 _ hostOps2_writes (by decide) : W15 m ρ c (Proc.devRef .tc main_arg9) = W14 m ρ c (Proc.devRef .tc main_arg9)).trans <|
  (W14_of_ne m ρ c main_arg9 (by decide)).trans <|
  (StableHlo.after_of_writes_sub hostOps1 _ hostOps1_writes (by decide) : W13 m ρ c (Proc.devRef .tc main_arg9) = W12 m ρ c (Proc.devRef .tc main_arg9)).trans <|
  (W12_of_ne m ρ c main_arg9 (by decide)).trans <|
  (StableHlo.after_of_writes_sub hostOps0_10 _ hostOps0_10_writes (by decide) : W11 m ρ c (Proc.devRef .tc main_arg9) = W10 m ρ c (Proc.devRef .tc main_arg9)).trans <|
  (StableHlo.after_of_writes_sub hostOps0_9 _ hostOps0_9_writes (by decide) : W10 m ρ c (Proc.devRef .tc main_arg9) = W9 m ρ c (Proc.devRef .tc main_arg9)).trans <|
  (StableHlo.after_of_writes_sub hostOps0_8 _ hostOps0_8_writes (by decide) : W9 m ρ c (Proc.devRef .tc main_arg9) = W8 m ρ c (Proc.devRef .tc main_arg9)).trans <|
  (StableHlo.after_of_writes_sub hostOps0_7 _ hostOps0_7_writes (by decide) : W8 m ρ c (Proc.devRef .tc main_arg9) = W7 m ρ c (Proc.devRef .tc main_arg9)).trans <|
  (StableHlo.after_of_writes_sub hostOps0_6 _ hostOps0_6_writes (by decide) : W7 m ρ c (Proc.devRef .tc main_arg9) = W6 m ρ c (Proc.devRef .tc main_arg9)).trans <|
  (StableHlo.after_of_writes_sub hostOps0_5 _ hostOps0_5_writes (by decide) : W6 m ρ c (Proc.devRef .tc main_arg9) = W5 m ρ c (Proc.devRef .tc main_arg9)).trans <|
  (StableHlo.after_of_writes_sub hostOps0_4 _ hostOps0_4_writes (by decide) : W5 m ρ c (Proc.devRef .tc main_arg9) = W4 m ρ c (Proc.devRef .tc main_arg9)).trans <|
  (StableHlo.after_of_writes_sub hostOps0_3 _ hostOps0_3_writes (by decide) : W4 m ρ c (Proc.devRef .tc main_arg9) = W3 m ρ c (Proc.devRef .tc main_arg9)).trans <|
  (StableHlo.after_of_writes_sub hostOps0_2 _ hostOps0_2_writes (by decide) : W3 m ρ c (Proc.devRef .tc main_arg9) = W2 m ρ c (Proc.devRef .tc main_arg9)).trans <|
  (StableHlo.after_of_writes_sub hostOps0_1 _ hostOps0_1_writes (by decide) : W2 m ρ c (Proc.devRef .tc main_arg9) = W1 m ρ c (Proc.devRef .tc main_arg9)).trans <|
  (StableHlo.after_of_writes_sub hostOps0 _ hostOps0_writes (by decide) : W1 m ρ c (Proc.devRef .tc main_arg9) = W0 m ρ c (Proc.devRef .tc main_arg9)).trans <| rfl

theorem kept_arg10 (c : Dev nD) : W22 m ρ c (Proc.devRef .tc main_arg10) = m ((c : Thread nD τ).loc main_arg10) :=
  (W22_of_ne m ρ c main_arg10 (by decide)).trans <|
  (StableHlo.after_of_writes_sub hostOps5 _ hostOps5_writes (by decide) : W21 m ρ c (Proc.devRef .tc main_arg10) = W20 m ρ c (Proc.devRef .tc main_arg10)).trans <|
  (W20_of_ne m ρ c main_arg10 (by decide)).trans <|
  (StableHlo.after_of_writes_sub hostOps4 _ hostOps4_writes (by decide) : W19 m ρ c (Proc.devRef .tc main_arg10) = W18 m ρ c (Proc.devRef .tc main_arg10)).trans <|
  (W18_of_ne m ρ c main_arg10 (by decide)).trans <|
  (StableHlo.after_of_writes_sub hostOps3 _ hostOps3_writes (by decide) : W17 m ρ c (Proc.devRef .tc main_arg10) = W16 m ρ c (Proc.devRef .tc main_arg10)).trans <|
  (W16_of_ne m ρ c main_arg10 (by decide)).trans <|
  (StableHlo.after_of_writes_sub hostOps2 _ hostOps2_writes (by decide) : W15 m ρ c (Proc.devRef .tc main_arg10) = W14 m ρ c (Proc.devRef .tc main_arg10)).trans <|
  (W14_of_ne m ρ c main_arg10 (by decide)).trans <|
  (StableHlo.after_of_writes_sub hostOps1 _ hostOps1_writes (by decide) : W13 m ρ c (Proc.devRef .tc main_arg10) = W12 m ρ c (Proc.devRef .tc main_arg10)).trans <|
  (W12_of_ne m ρ c main_arg10 (by decide)).trans <|
  (StableHlo.after_of_writes_sub hostOps0_10 _ hostOps0_10_writes (by decide) : W11 m ρ c (Proc.devRef .tc main_arg10) = W10 m ρ c (Proc.devRef .tc main_arg10)).trans <|
  (StableHlo.after_of_writes_sub hostOps0_9 _ hostOps0_9_writes (by decide) : W10 m ρ c (Proc.devRef .tc main_arg10) = W9 m ρ c (Proc.devRef .tc main_arg10)).trans <|
  (StableHlo.after_of_writes_sub hostOps0_8 _ hostOps0_8_writes (by decide) : W9 m ρ c (Proc.devRef .tc main_arg10) = W8 m ρ c (Proc.devRef .tc main_arg10)).trans <|
  (StableHlo.after_of_writes_sub hostOps0_7 _ hostOps0_7_writes (by decide) : W8 m ρ c (Proc.devRef .tc main_arg10) = W7 m ρ c (Proc.devRef .tc main_arg10)).trans <|
  (StableHlo.after_of_writes_sub hostOps0_6 _ hostOps0_6_writes (by decide) : W7 m ρ c (Proc.devRef .tc main_arg10) = W6 m ρ c (Proc.devRef .tc main_arg10)).trans <|
  (StableHlo.after_of_writes_sub hostOps0_5 _ hostOps0_5_writes (by decide) : W6 m ρ c (Proc.devRef .tc main_arg10) = W5 m ρ c (Proc.devRef .tc main_arg10)).trans <|
  (StableHlo.after_of_writes_sub hostOps0_4 _ hostOps0_4_writes (by decide) : W5 m ρ c (Proc.devRef .tc main_arg10) = W4 m ρ c (Proc.devRef .tc main_arg10)).trans <|
  (StableHlo.after_of_writes_sub hostOps0_3 _ hostOps0_3_writes (by decide) : W4 m ρ c (Proc.devRef .tc main_arg10) = W3 m ρ c (Proc.devRef .tc main_arg10)).trans <|
  (StableHlo.after_of_writes_sub hostOps0_2 _ hostOps0_2_writes (by decide) : W3 m ρ c (Proc.devRef .tc main_arg10) = W2 m ρ c (Proc.devRef .tc main_arg10)).trans <|
  (StableHlo.after_of_writes_sub hostOps0_1 _ hostOps0_1_writes (by decide) : W2 m ρ c (Proc.devRef .tc main_arg10) = W1 m ρ c (Proc.devRef .tc main_arg10)).trans <|
  (StableHlo.after_of_writes_sub hostOps0 _ hostOps0_writes (by decide) : W1 m ρ c (Proc.devRef .tc main_arg10) = W0 m ρ c (Proc.devRef .tc main_arg10)).trans <| rfl

theorem kept_arg11 (c : Dev nD) : W22 m ρ c (Proc.devRef .tc main_arg11) = m ((c : Thread nD τ).loc main_arg11) :=
  (W22_of_ne m ρ c main_arg11 (by decide)).trans <|
  (StableHlo.after_of_writes_sub hostOps5 _ hostOps5_writes (by decide) : W21 m ρ c (Proc.devRef .tc main_arg11) = W20 m ρ c (Proc.devRef .tc main_arg11)).trans <|
  (W20_of_ne m ρ c main_arg11 (by decide)).trans <|
  (StableHlo.after_of_writes_sub hostOps4 _ hostOps4_writes (by decide) : W19 m ρ c (Proc.devRef .tc main_arg11) = W18 m ρ c (Proc.devRef .tc main_arg11)).trans <|
  (W18_of_ne m ρ c main_arg11 (by decide)).trans <|
  (StableHlo.after_of_writes_sub hostOps3 _ hostOps3_writes (by decide) : W17 m ρ c (Proc.devRef .tc main_arg11) = W16 m ρ c (Proc.devRef .tc main_arg11)).trans <|
  (W16_of_ne m ρ c main_arg11 (by decide)).trans <|
  (StableHlo.after_of_writes_sub hostOps2 _ hostOps2_writes (by decide) : W15 m ρ c (Proc.devRef .tc main_arg11) = W14 m ρ c (Proc.devRef .tc main_arg11)).trans <|
  (W14_of_ne m ρ c main_arg11 (by decide)).trans <|
  (StableHlo.after_of_writes_sub hostOps1 _ hostOps1_writes (by decide) : W13 m ρ c (Proc.devRef .tc main_arg11) = W12 m ρ c (Proc.devRef .tc main_arg11)).trans <|
  (W12_of_ne m ρ c main_arg11 (by decide)).trans <|
  (StableHlo.after_of_writes_sub hostOps0_10 _ hostOps0_10_writes (by decide) : W11 m ρ c (Proc.devRef .tc main_arg11) = W10 m ρ c (Proc.devRef .tc main_arg11)).trans <|
  (StableHlo.after_of_writes_sub hostOps0_9 _ hostOps0_9_writes (by decide) : W10 m ρ c (Proc.devRef .tc main_arg11) = W9 m ρ c (Proc.devRef .tc main_arg11)).trans <|
  (StableHlo.after_of_writes_sub hostOps0_8 _ hostOps0_8_writes (by decide) : W9 m ρ c (Proc.devRef .tc main_arg11) = W8 m ρ c (Proc.devRef .tc main_arg11)).trans <|
  (StableHlo.after_of_writes_sub hostOps0_7 _ hostOps0_7_writes (by decide) : W8 m ρ c (Proc.devRef .tc main_arg11) = W7 m ρ c (Proc.devRef .tc main_arg11)).trans <|
  (StableHlo.after_of_writes_sub hostOps0_6 _ hostOps0_6_writes (by decide) : W7 m ρ c (Proc.devRef .tc main_arg11) = W6 m ρ c (Proc.devRef .tc main_arg11)).trans <|
  (StableHlo.after_of_writes_sub hostOps0_5 _ hostOps0_5_writes (by decide) : W6 m ρ c (Proc.devRef .tc main_arg11) = W5 m ρ c (Proc.devRef .tc main_arg11)).trans <|
  (StableHlo.after_of_writes_sub hostOps0_4 _ hostOps0_4_writes (by decide) : W5 m ρ c (Proc.devRef .tc main_arg11) = W4 m ρ c (Proc.devRef .tc main_arg11)).trans <|
  (StableHlo.after_of_writes_sub hostOps0_3 _ hostOps0_3_writes (by decide) : W4 m ρ c (Proc.devRef .tc main_arg11) = W3 m ρ c (Proc.devRef .tc main_arg11)).trans <|
  (StableHlo.after_of_writes_sub hostOps0_2 _ hostOps0_2_writes (by decide) : W3 m ρ c (Proc.devRef .tc main_arg11) = W2 m ρ c (Proc.devRef .tc main_arg11)).trans <|
  (StableHlo.after_of_writes_sub hostOps0_1 _ hostOps0_1_writes (by decide) : W2 m ρ c (Proc.devRef .tc main_arg11) = W1 m ρ c (Proc.devRef .tc main_arg11)).trans <|
  (StableHlo.after_of_writes_sub hostOps0 _ hostOps0_writes (by decide) : W1 m ρ c (Proc.devRef .tc main_arg11) = W0 m ρ c (Proc.devRef .tc main_arg11)).trans <| rfl

theorem kept_arg12 (c : Dev nD) : W22 m ρ c (Proc.devRef .tc main_arg12) = m ((c : Thread nD τ).loc main_arg12) :=
  (W22_of_ne m ρ c main_arg12 (by decide)).trans <|
  (StableHlo.after_of_writes_sub hostOps5 _ hostOps5_writes (by decide) : W21 m ρ c (Proc.devRef .tc main_arg12) = W20 m ρ c (Proc.devRef .tc main_arg12)).trans <|
  (W20_of_ne m ρ c main_arg12 (by decide)).trans <|
  (StableHlo.after_of_writes_sub hostOps4 _ hostOps4_writes (by decide) : W19 m ρ c (Proc.devRef .tc main_arg12) = W18 m ρ c (Proc.devRef .tc main_arg12)).trans <|
  (W18_of_ne m ρ c main_arg12 (by decide)).trans <|
  (StableHlo.after_of_writes_sub hostOps3 _ hostOps3_writes (by decide) : W17 m ρ c (Proc.devRef .tc main_arg12) = W16 m ρ c (Proc.devRef .tc main_arg12)).trans <|
  (W16_of_ne m ρ c main_arg12 (by decide)).trans <|
  (StableHlo.after_of_writes_sub hostOps2 _ hostOps2_writes (by decide) : W15 m ρ c (Proc.devRef .tc main_arg12) = W14 m ρ c (Proc.devRef .tc main_arg12)).trans <|
  (W14_of_ne m ρ c main_arg12 (by decide)).trans <|
  (StableHlo.after_of_writes_sub hostOps1 _ hostOps1_writes (by decide) : W13 m ρ c (Proc.devRef .tc main_arg12) = W12 m ρ c (Proc.devRef .tc main_arg12)).trans <|
  (W12_of_ne m ρ c main_arg12 (by decide)).trans <|
  (StableHlo.after_of_writes_sub hostOps0_10 _ hostOps0_10_writes (by decide) : W11 m ρ c (Proc.devRef .tc main_arg12) = W10 m ρ c (Proc.devRef .tc main_arg12)).trans <|
  (StableHlo.after_of_writes_sub hostOps0_9 _ hostOps0_9_writes (by decide) : W10 m ρ c (Proc.devRef .tc main_arg12) = W9 m ρ c (Proc.devRef .tc main_arg12)).trans <|
  (StableHlo.after_of_writes_sub hostOps0_8 _ hostOps0_8_writes (by decide) : W9 m ρ c (Proc.devRef .tc main_arg12) = W8 m ρ c (Proc.devRef .tc main_arg12)).trans <|
  (StableHlo.after_of_writes_sub hostOps0_7 _ hostOps0_7_writes (by decide) : W8 m ρ c (Proc.devRef .tc main_arg12) = W7 m ρ c (Proc.devRef .tc main_arg12)).trans <|
  (StableHlo.after_of_writes_sub hostOps0_6 _ hostOps0_6_writes (by decide) : W7 m ρ c (Proc.devRef .tc main_arg12) = W6 m ρ c (Proc.devRef .tc main_arg12)).trans <|
  (StableHlo.after_of_writes_sub hostOps0_5 _ hostOps0_5_writes (by decide) : W6 m ρ c (Proc.devRef .tc main_arg12) = W5 m ρ c (Proc.devRef .tc main_arg12)).trans <|
  (StableHlo.after_of_writes_sub hostOps0_4 _ hostOps0_4_writes (by decide) : W5 m ρ c (Proc.devRef .tc main_arg12) = W4 m ρ c (Proc.devRef .tc main_arg12)).trans <|
  (StableHlo.after_of_writes_sub hostOps0_3 _ hostOps0_3_writes (by decide) : W4 m ρ c (Proc.devRef .tc main_arg12) = W3 m ρ c (Proc.devRef .tc main_arg12)).trans <|
  (StableHlo.after_of_writes_sub hostOps0_2 _ hostOps0_2_writes (by decide) : W3 m ρ c (Proc.devRef .tc main_arg12) = W2 m ρ c (Proc.devRef .tc main_arg12)).trans <|
  (StableHlo.after_of_writes_sub hostOps0_1 _ hostOps0_1_writes (by decide) : W2 m ρ c (Proc.devRef .tc main_arg12) = W1 m ρ c (Proc.devRef .tc main_arg12)).trans <|
  (StableHlo.after_of_writes_sub hostOps0 _ hostOps0_writes (by decide) : W1 m ρ c (Proc.devRef .tc main_arg12) = W0 m ρ c (Proc.devRef .tc main_arg12)).trans <| rfl

theorem kept_arg13 (c : Dev nD) : W22 m ρ c (Proc.devRef .tc main_arg13) = m ((c : Thread nD τ).loc main_arg13) :=
  (W22_of_ne m ρ c main_arg13 (by decide)).trans <|
  (StableHlo.after_of_writes_sub hostOps5 _ hostOps5_writes (by decide) : W21 m ρ c (Proc.devRef .tc main_arg13) = W20 m ρ c (Proc.devRef .tc main_arg13)).trans <|
  (W20_of_ne m ρ c main_arg13 (by decide)).trans <|
  (StableHlo.after_of_writes_sub hostOps4 _ hostOps4_writes (by decide) : W19 m ρ c (Proc.devRef .tc main_arg13) = W18 m ρ c (Proc.devRef .tc main_arg13)).trans <|
  (W18_of_ne m ρ c main_arg13 (by decide)).trans <|
  (StableHlo.after_of_writes_sub hostOps3 _ hostOps3_writes (by decide) : W17 m ρ c (Proc.devRef .tc main_arg13) = W16 m ρ c (Proc.devRef .tc main_arg13)).trans <|
  (W16_of_ne m ρ c main_arg13 (by decide)).trans <|
  (StableHlo.after_of_writes_sub hostOps2 _ hostOps2_writes (by decide) : W15 m ρ c (Proc.devRef .tc main_arg13) = W14 m ρ c (Proc.devRef .tc main_arg13)).trans <|
  (W14_of_ne m ρ c main_arg13 (by decide)).trans <|
  (StableHlo.after_of_writes_sub hostOps1 _ hostOps1_writes (by decide) : W13 m ρ c (Proc.devRef .tc main_arg13) = W12 m ρ c (Proc.devRef .tc main_arg13)).trans <|
  (W12_of_ne m ρ c main_arg13 (by decide)).trans <|
  (StableHlo.after_of_writes_sub hostOps0_10 _ hostOps0_10_writes (by decide) : W11 m ρ c (Proc.devRef .tc main_arg13) = W10 m ρ c (Proc.devRef .tc main_arg13)).trans <|
  (StableHlo.after_of_writes_sub hostOps0_9 _ hostOps0_9_writes (by decide) : W10 m ρ c (Proc.devRef .tc main_arg13) = W9 m ρ c (Proc.devRef .tc main_arg13)).trans <|
  (StableHlo.after_of_writes_sub hostOps0_8 _ hostOps0_8_writes (by decide) : W9 m ρ c (Proc.devRef .tc main_arg13) = W8 m ρ c (Proc.devRef .tc main_arg13)).trans <|
  (StableHlo.after_of_writes_sub hostOps0_7 _ hostOps0_7_writes (by decide) : W8 m ρ c (Proc.devRef .tc main_arg13) = W7 m ρ c (Proc.devRef .tc main_arg13)).trans <|
  (StableHlo.after_of_writes_sub hostOps0_6 _ hostOps0_6_writes (by decide) : W7 m ρ c (Proc.devRef .tc main_arg13) = W6 m ρ c (Proc.devRef .tc main_arg13)).trans <|
  (StableHlo.after_of_writes_sub hostOps0_5 _ hostOps0_5_writes (by decide) : W6 m ρ c (Proc.devRef .tc main_arg13) = W5 m ρ c (Proc.devRef .tc main_arg13)).trans <|
  (StableHlo.after_of_writes_sub hostOps0_4 _ hostOps0_4_writes (by decide) : W5 m ρ c (Proc.devRef .tc main_arg13) = W4 m ρ c (Proc.devRef .tc main_arg13)).trans <|
  (StableHlo.after_of_writes_sub hostOps0_3 _ hostOps0_3_writes (by decide) : W4 m ρ c (Proc.devRef .tc main_arg13) = W3 m ρ c (Proc.devRef .tc main_arg13)).trans <|
  (StableHlo.after_of_writes_sub hostOps0_2 _ hostOps0_2_writes (by decide) : W3 m ρ c (Proc.devRef .tc main_arg13) = W2 m ρ c (Proc.devRef .tc main_arg13)).trans <|
  (StableHlo.after_of_writes_sub hostOps0_1 _ hostOps0_1_writes (by decide) : W2 m ρ c (Proc.devRef .tc main_arg13) = W1 m ρ c (Proc.devRef .tc main_arg13)).trans <|
  (StableHlo.after_of_writes_sub hostOps0 _ hostOps0_writes (by decide) : W1 m ρ c (Proc.devRef .tc main_arg13) = W0 m ρ c (Proc.devRef .tc main_arg13)).trans <| rfl

theorem kept_arg14 (c : Dev nD) : W22 m ρ c (Proc.devRef .tc main_arg14) = m ((c : Thread nD τ).loc main_arg14) :=
  (W22_of_ne m ρ c main_arg14 (by decide)).trans <|
  (StableHlo.after_of_writes_sub hostOps5 _ hostOps5_writes (by decide) : W21 m ρ c (Proc.devRef .tc main_arg14) = W20 m ρ c (Proc.devRef .tc main_arg14)).trans <|
  (W20_of_ne m ρ c main_arg14 (by decide)).trans <|
  (StableHlo.after_of_writes_sub hostOps4 _ hostOps4_writes (by decide) : W19 m ρ c (Proc.devRef .tc main_arg14) = W18 m ρ c (Proc.devRef .tc main_arg14)).trans <|
  (W18_of_ne m ρ c main_arg14 (by decide)).trans <|
  (StableHlo.after_of_writes_sub hostOps3 _ hostOps3_writes (by decide) : W17 m ρ c (Proc.devRef .tc main_arg14) = W16 m ρ c (Proc.devRef .tc main_arg14)).trans <|
  (W16_of_ne m ρ c main_arg14 (by decide)).trans <|
  (StableHlo.after_of_writes_sub hostOps2 _ hostOps2_writes (by decide) : W15 m ρ c (Proc.devRef .tc main_arg14) = W14 m ρ c (Proc.devRef .tc main_arg14)).trans <|
  (W14_of_ne m ρ c main_arg14 (by decide)).trans <|
  (StableHlo.after_of_writes_sub hostOps1 _ hostOps1_writes (by decide) : W13 m ρ c (Proc.devRef .tc main_arg14) = W12 m ρ c (Proc.devRef .tc main_arg14)).trans <|
  (W12_of_ne m ρ c main_arg14 (by decide)).trans <|
  (StableHlo.after_of_writes_sub hostOps0_10 _ hostOps0_10_writes (by decide) : W11 m ρ c (Proc.devRef .tc main_arg14) = W10 m ρ c (Proc.devRef .tc main_arg14)).trans <|
  (StableHlo.after_of_writes_sub hostOps0_9 _ hostOps0_9_writes (by decide) : W10 m ρ c (Proc.devRef .tc main_arg14) = W9 m ρ c (Proc.devRef .tc main_arg14)).trans <|
  (StableHlo.after_of_writes_sub hostOps0_8 _ hostOps0_8_writes (by decide) : W9 m ρ c (Proc.devRef .tc main_arg14) = W8 m ρ c (Proc.devRef .tc main_arg14)).trans <|
  (StableHlo.after_of_writes_sub hostOps0_7 _ hostOps0_7_writes (by decide) : W8 m ρ c (Proc.devRef .tc main_arg14) = W7 m ρ c (Proc.devRef .tc main_arg14)).trans <|
  (StableHlo.after_of_writes_sub hostOps0_6 _ hostOps0_6_writes (by decide) : W7 m ρ c (Proc.devRef .tc main_arg14) = W6 m ρ c (Proc.devRef .tc main_arg14)).trans <|
  (StableHlo.after_of_writes_sub hostOps0_5 _ hostOps0_5_writes (by decide) : W6 m ρ c (Proc.devRef .tc main_arg14) = W5 m ρ c (Proc.devRef .tc main_arg14)).trans <|
  (StableHlo.after_of_writes_sub hostOps0_4 _ hostOps0_4_writes (by decide) : W5 m ρ c (Proc.devRef .tc main_arg14) = W4 m ρ c (Proc.devRef .tc main_arg14)).trans <|
  (StableHlo.after_of_writes_sub hostOps0_3 _ hostOps0_3_writes (by decide) : W4 m ρ c (Proc.devRef .tc main_arg14) = W3 m ρ c (Proc.devRef .tc main_arg14)).trans <|
  (StableHlo.after_of_writes_sub hostOps0_2 _ hostOps0_2_writes (by decide) : W3 m ρ c (Proc.devRef .tc main_arg14) = W2 m ρ c (Proc.devRef .tc main_arg14)).trans <|
  (StableHlo.after_of_writes_sub hostOps0_1 _ hostOps0_1_writes (by decide) : W2 m ρ c (Proc.devRef .tc main_arg14) = W1 m ρ c (Proc.devRef .tc main_arg14)).trans <|
  (StableHlo.after_of_writes_sub hostOps0 _ hostOps0_writes (by decide) : W1 m ρ c (Proc.devRef .tc main_arg14) = W0 m ρ c (Proc.devRef .tc main_arg14)).trans <| rfl

theorem kept_arg15 (c : Dev nD) : W22 m ρ c (Proc.devRef .tc main_arg15) = m ((c : Thread nD τ).loc main_arg15) :=
  (W22_of_ne m ρ c main_arg15 (by decide)).trans <|
  (StableHlo.after_of_writes_sub hostOps5 _ hostOps5_writes (by decide) : W21 m ρ c (Proc.devRef .tc main_arg15) = W20 m ρ c (Proc.devRef .tc main_arg15)).trans <|
  (W20_of_ne m ρ c main_arg15 (by decide)).trans <|
  (StableHlo.after_of_writes_sub hostOps4 _ hostOps4_writes (by decide) : W19 m ρ c (Proc.devRef .tc main_arg15) = W18 m ρ c (Proc.devRef .tc main_arg15)).trans <|
  (W18_of_ne m ρ c main_arg15 (by decide)).trans <|
  (StableHlo.after_of_writes_sub hostOps3 _ hostOps3_writes (by decide) : W17 m ρ c (Proc.devRef .tc main_arg15) = W16 m ρ c (Proc.devRef .tc main_arg15)).trans <|
  (W16_of_ne m ρ c main_arg15 (by decide)).trans <|
  (StableHlo.after_of_writes_sub hostOps2 _ hostOps2_writes (by decide) : W15 m ρ c (Proc.devRef .tc main_arg15) = W14 m ρ c (Proc.devRef .tc main_arg15)).trans <|
  (W14_of_ne m ρ c main_arg15 (by decide)).trans <|
  (StableHlo.after_of_writes_sub hostOps1 _ hostOps1_writes (by decide) : W13 m ρ c (Proc.devRef .tc main_arg15) = W12 m ρ c (Proc.devRef .tc main_arg15)).trans <|
  (W12_of_ne m ρ c main_arg15 (by decide)).trans <|
  (StableHlo.after_of_writes_sub hostOps0_10 _ hostOps0_10_writes (by decide) : W11 m ρ c (Proc.devRef .tc main_arg15) = W10 m ρ c (Proc.devRef .tc main_arg15)).trans <|
  (StableHlo.after_of_writes_sub hostOps0_9 _ hostOps0_9_writes (by decide) : W10 m ρ c (Proc.devRef .tc main_arg15) = W9 m ρ c (Proc.devRef .tc main_arg15)).trans <|
  (StableHlo.after_of_writes_sub hostOps0_8 _ hostOps0_8_writes (by decide) : W9 m ρ c (Proc.devRef .tc main_arg15) = W8 m ρ c (Proc.devRef .tc main_arg15)).trans <|
  (StableHlo.after_of_writes_sub hostOps0_7 _ hostOps0_7_writes (by decide) : W8 m ρ c (Proc.devRef .tc main_arg15) = W7 m ρ c (Proc.devRef .tc main_arg15)).trans <|
  (StableHlo.after_of_writes_sub hostOps0_6 _ hostOps0_6_writes (by decide) : W7 m ρ c (Proc.devRef .tc main_arg15) = W6 m ρ c (Proc.devRef .tc main_arg15)).trans <|
  (StableHlo.after_of_writes_sub hostOps0_5 _ hostOps0_5_writes (by decide) : W6 m ρ c (Proc.devRef .tc main_arg15) = W5 m ρ c (Proc.devRef .tc main_arg15)).trans <|
  (StableHlo.after_of_writes_sub hostOps0_4 _ hostOps0_4_writes (by decide) : W5 m ρ c (Proc.devRef .tc main_arg15) = W4 m ρ c (Proc.devRef .tc main_arg15)).trans <|
  (StableHlo.after_of_writes_sub hostOps0_3 _ hostOps0_3_writes (by decide) : W4 m ρ c (Proc.devRef .tc main_arg15) = W3 m ρ c (Proc.devRef .tc main_arg15)).trans <|
  (StableHlo.after_of_writes_sub hostOps0_2 _ hostOps0_2_writes (by decide) : W3 m ρ c (Proc.devRef .tc main_arg15) = W2 m ρ c (Proc.devRef .tc main_arg15)).trans <|
  (StableHlo.after_of_writes_sub hostOps0_1 _ hostOps0_1_writes (by decide) : W2 m ρ c (Proc.devRef .tc main_arg15) = W1 m ρ c (Proc.devRef .tc main_arg15)).trans <|
  (StableHlo.after_of_writes_sub hostOps0 _ hostOps0_writes (by decide) : W1 m ρ c (Proc.devRef .tc main_arg15) = W0 m ρ c (Proc.devRef .tc main_arg15)).trans <| rfl

/-- The frame: every weakly fair execution terminates and the sixteen arguments end as launched. -/
theorem frameAll : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c _ (in_unscoped main_arg0 (by decide))).trans (kept_arg0 m ρ c),
     (h c _ (in_unscoped main_arg1 (by decide))).trans (kept_arg1 m ρ c),
     (h c _ (in_unscoped main_arg2 (by decide))).trans (kept_arg2 m ρ c),
     (h c _ (in_unscoped main_arg3 (by decide))).trans (kept_arg3 m ρ c),
     (h c _ (in_unscoped main_arg4 (by decide))).trans (kept_arg4 m ρ c),
     (h c _ (in_unscoped main_arg5 (by decide))).trans (kept_arg5 m ρ c),
     (h c _ (in_unscoped main_arg6 (by decide))).trans (kept_arg6 m ρ c),
     (h c _ (in_unscoped main_arg7 (by decide))).trans (kept_arg7 m ρ c),
     (h c _ (in_unscoped main_arg8 (by decide))).trans (kept_arg8 m ρ c),
     (h c _ (in_unscoped main_arg9 (by decide))).trans (kept_arg9 m ρ c),
     (h c _ (in_unscoped main_arg10 (by decide))).trans (kept_arg10 m ρ c),
     (h c _ (in_unscoped main_arg11 (by decide))).trans (kept_arg11 m ρ c),
     (h c _ (in_unscoped main_arg12 (by decide))).trans (kept_arg12 m ρ c),
     (h c _ (in_unscoped main_arg13 (by decide))).trans (kept_arg13 m ρ c),
     (h c _ (in_unscoped main_arg14 (by decide))).trans (kept_arg14 m ρ c),
     (h c _ (in_unscoped main_arg15 (by decide))).trans (kept_arg15 m ρ c)⟩)
    (runAll m ρ)

end Cert.KernelIdeal.Hand

end
-- ==== Proof.RefOps0.lean ====
/- The reference program's host operations, window 0 (statements 1 … 60 of @main: the centring of the input, the whole first layer, and the second layer up to the column sums of its matrix product), as a LIST in program
   order. A call of an outlined function (the selection `where`, the variance `var`, and the selection the
   variance itself calls) is replaced by the callee's operations over that call's own buffers, which is what
   executing the call means. The window is then the straight line `seq` of the list: both sides are one chain
   of `hlo` steps once the callees' definitions are unfolded and sequencing is reassociated. Every operation
   touches TensorCore references only and determines its result (none allocates). -/
import proofs.«126670_j49074296324140_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 0's 89 operations, in order, the calls unfolded. -/
abbrev ops0 : List (HloOp τ sig (Elt F)) :=
  [ nullary main_cst (constant S_ .f32 0x3F000000#32),
    unary main_cst main_v0 (broadcastInDim S32768x784 ![] bcast_S_S32768x784 : (⟨S_, .f32⟩ : BufTy).Contents (Elt F) → (⟨S32768x784, .f32⟩ : BufTy).Contents (Elt F)),
    binary main_arg0 main_v0 main_v1 (subf : (⟨S32768x784, .f32⟩ : BufTy).Contents (Elt F) → (⟨S32768x784, .f32⟩ : BufTy).Contents (Elt F) → (⟨S32768x784, .f32⟩ : BufTy).Contents (Elt F)),
    nullary main_cst_0 (constant S_ .f32 0x00000000#32),
    unary main_cst_0 main_v2 (broadcastInDim S32768x784 ![] bcast_S_S32768x784 : (⟨S_, .f32⟩ : BufTy).Contents (Elt F) → (⟨S32768x784, .f32⟩ : BufTy).Contents (Elt F)),
    binary main_v1 main_v2 main_v3 (cmpf .oge : (⟨S32768x784, .f32⟩ : BufTy).Contents (Elt F) → (⟨S32768x784, .f32⟩ : BufTy).Contents (Elt F) → (⟨S32768x784, .i1⟩ : BufTy).Contents (Elt F)),
    nullary main_cst_1 (constant S_ .f32 0x3F800000#32),
    nullary main_cst_2 (constant S_ .f32 0xBF800000#32),
    TRef.unary (.of main_cst_1 : TRef sig ⟨S_, .f32⟩) main_call0.v0 (broadcastInDim S32768x784 ![] bcast_S_S32768x784),
    TRef.unary (.of main_cst_2 : TRef sig ⟨S_, .f32⟩) main_call0.v1 (broadcastInDim S32768x784 ![] bcast_S_S32768x784),
    TRef.ternary (.of main_v3 : TRef sig ⟨S32768x784, .i1⟩) main_call0.v0 main_call0.v1 main_call0.v2 select,
    unary main_v4 main_v5 (id : (⟨S32768x784, .f32⟩ : BufTy).Contents (Elt F) → (⟨S32768x784, .f32⟩ : BufTy).Contents (Elt F)),
    nullary main_cst_3 (constant S_ .f32 0x00000000#32),
    unary main_cst_3 main_v6 (broadcastInDim S256x784 ![] bcast_S_S256x784 : (⟨S_, .f32⟩ : BufTy).Contents (Elt F) → (⟨S256x784, .f32⟩ : BufTy).Contents (Elt F)),
    binary main_arg1 main_v6 main_v7 (cmpf .oge : (⟨S256x784, .f32⟩ : BufTy).Contents (Elt F) → (⟨S256x784, .f32⟩ : BufTy).Contents (Elt F) → (⟨S256x784, .i1⟩ : BufTy).Contents (Elt F)),
    nullary main_cst_4 (constant S_ .f32 0x3F800000#32),
    nullary main_cst_5 (constant S_ .f32 0xBF800000#32),
    TRef.unary (.of main_cst_4 : TRef sig ⟨S_, .f32⟩) main_call1.v0 (broadcastInDim S256x784 ![] bcast_S_S256x784),
    TRef.unary (.of main_cst_5 : TRef sig ⟨S_, .f32⟩) main_call1.v1 (broadcastInDim S256x784 ![] bcast_S_S256x784),
    TRef.ternary (.of main_v7 : TRef sig ⟨S256x784, .i1⟩) main_call1.v0 main_call1.v1 main_call1.v2 select,
    unary main_v8 main_v9 (id : (⟨S256x784, .f32⟩ : BufTy).Contents (Elt F) → (⟨S256x784, .f32⟩ : BufTy).Contents (Elt F)),
    unary main_v9 main_v10 ((transpose S784x256 [1, 0] · transposes_S256x784_S784x256_1_0) : (⟨S256x784, .f32⟩ : BufTy).Contents (Elt F) → (⟨S784x256, .f32⟩ : BufTy).Contents (Elt F)),
    binary main_v5 main_v10 main_v11 ((fun l r => Host.dotGeneral dot_S32768x784_S784x256_S32768x256_1_0_0_1_n_n none l r) : (⟨S32768x784, .f32⟩ : BufTy).Contents (Elt F) → (⟨S784x256, .f32⟩ : BufTy).Contents (Elt F) → (⟨S32768x256, .f32⟩ : BufTy).Contents (Elt F)),
    nullary main_cst_6 (constant S_ .f32 0x00000000#32),
    binary main_v11 main_cst_6 main_v12 ((fun x v => Host.reduceAdd x v reducesTo_S32768x256_S256_d0 h_S_) : (⟨S32768x256, .f32⟩ : BufTy).Contents (Elt F) → (⟨S_, .f32⟩ : BufTy).Contents (Elt F) → (⟨S256, .f32⟩ : BufTy).Contents (Elt F)),
    nullary main_cst_7 (constant S_ .f32 0x47000000#32),
    unary main_cst_7 main_v13 (broadcastInDim S256 ![] bcast_S_S256 : (⟨S_, .f32⟩ : BufTy).Contents (Elt F) → (⟨S256, .f32⟩ : BufTy).Contents (Elt F)),
    binary main_v12 main_v13 main_v14 (Host.divf : (⟨S256, .f32⟩ : BufTy).Contents (Elt F) → (⟨S256, .f32⟩ : BufTy).Contents (Elt F) → (⟨S256, .f32⟩ : BufTy).Contents (Elt F)),
    nullary main_c (constantI S_ 32 0#32),
    TRef.nullary main_call2.cst (constant S_ .f32 0x00000000#32),
    TRef.binary (.of main_v11 : TRef sig ⟨S32768x256, .f32⟩) main_call2.cst main_call2.v0 (fun x v => Host.reduceAdd x v reducesTo_S32768x256_S256_d0 h_S_),
    TRef.unary main_call2.v0 main_call2.v1 (broadcastInDim S1x256 ![1] bcast_S256_S1x256_1),
    TRef.nullary main_call2.cst_0 (constant S_ .f32 0x47000000#32),
    TRef.unary main_call2.cst_0 main_call2.v2 (broadcastInDim S1x256 ![] bcast_S_S1x256),
    TRef.binary main_call2.v1 main_call2.v2 main_call2.v3 Host.divf,
    TRef.unary main_call2.v3 main_call2.v4 (broadcastInDim S32768x256 ![0, 1] bcast_S1x256_S32768x256_0_1),
    TRef.binary (.of main_v11 : TRef sig ⟨S32768x256, .f32⟩) main_call2.v4 main_call2.v5 subf,
    TRef.binary main_call2.v5 main_call2.v5 main_call2.v6 mulf,
    TRef.unary (.of main_c : TRef sig ⟨S_, .i32⟩) main_call2.v7 (sitofp .f32),
    TRef.nullary main_call2.cst_1 (constant S_ .f32 0x47000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S32768x256_S256_d0 h_S_),
    TRef.unary main_call2.v8 main_call2.v10 (broadcastInDim S256 ![] bcast_S_S256),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S256 ![] bcast_S_S256),
    TRef.ternary main_call2.v12 main_call2.v11 main_call2.call0.v1 main_call2.call0.v2 (fun p a b => select (broadcastInDim S256 ![] bcast_S_S256 p) a b),
    unary main_v14 main_v16 (broadcastInDim S1x256 ![1] bcast_S256_S1x256_1 : (⟨S256, .f32⟩ : BufTy).Contents (Elt F) → (⟨S1x256, .f32⟩ : BufTy).Contents (Elt F)),
    unary main_v16 main_v17 (broadcastInDim S32768x256 ![0, 1] bcast_S1x256_S32768x256_0_1 : (⟨S1x256, .f32⟩ : BufTy).Contents (Elt F) → (⟨S32768x256, .f32⟩ : BufTy).Contents (Elt F)),
    binary main_v11 main_v17 main_v18 (subf : (⟨S32768x256, .f32⟩ : BufTy).Contents (Elt F) → (⟨S32768x256, .f32⟩ : BufTy).Contents (Elt F) → (⟨S32768x256, .f32⟩ : BufTy).Contents (Elt F)),
    unary main_arg6 main_v19 (broadcastInDim S1x256 ![1] bcast_S256_S1x256_1 : (⟨S256, .f32⟩ : BufTy).Contents (Elt F) → (⟨S1x256, .f32⟩ : BufTy).Contents (Elt F)),
    unary main_v19 main_v20 (broadcastInDim S32768x256 ![0, 1] bcast_S1x256_S32768x256_0_1 : (⟨S1x256, .f32⟩ : BufTy).Contents (Elt F) → (⟨S32768x256, .f32⟩ : BufTy).Contents (Elt F)),
    binary main_v20 main_v18 main_v21 (mulf : (⟨S32768x256, .f32⟩ : BufTy).Contents (Elt F) → (⟨S32768x256, .f32⟩ : BufTy).Contents (Elt F) → (⟨S32768x256, .f32⟩ : BufTy).Contents (Elt F)),
    nullary main_cst_8 (constant S_ .f32 0x3727C5AC#32),
    unary main_cst_8 main_v22 (broadcastInDim S256 ![] bcast_S_S256 : (⟨S_, .f32⟩ : BufTy).Contents (Elt F) → (⟨S256, .f32⟩ : BufTy).Contents (Elt F)),
    binary main_v15 main_v22 main_v23 (addf : (⟨S256, .f32⟩ : BufTy).Contents (Elt F) → (⟨S256, .f32⟩ : BufTy).Contents (Elt F) → (⟨S256, .f32⟩ : BufTy).Contents (Elt F)),
    unary main_v23 main_v24 (Host.rsqrt : (⟨S256, .f32⟩ : BufTy).Contents (Elt F) → (⟨S256, .f32⟩ : BufTy).Contents (Elt F)),
    unary main_v24 main_v25 (broadcastInDim S1x256 ![1] bcast_S256_S1x256_1 : (⟨S256, .f32⟩ : BufTy).Contents (Elt F) → (⟨S1x256, .f32⟩ : BufTy).Contents (Elt F)),
    unary main_v25 main_v26 (broadcastInDim S32768x256 ![0, 1] bcast_S1x256_S32768x256_0_1 : (⟨S1x256, .f32⟩ : BufTy).Contents (Elt F) → (⟨S32768x256, .f32⟩ : BufTy).Contents (Elt F)),
    binary main_v21 main_v26 main_v27 (mulf : (⟨S32768x256, .f32⟩ : BufTy).Contents (Elt F) → (⟨S32768x256, .f32⟩ : BufTy).Contents (Elt F) → (⟨S32768x256, .f32⟩ : BufTy).Contents (Elt F)),
    unary main_arg11 main_v28 (broadcastInDim S1x256 ![1] bcast_S256_S1x256_1 : (⟨S256, .f32⟩ : BufTy).Contents (Elt F) → (⟨S1x256, .f32⟩ : BufTy).Contents (Elt F)),
    unary main_v28 main_v29 (broadcastInDim S32768x256 ![0, 1] bcast_S1x256_S32768x256_0_1 : (⟨S1x256, .f32⟩ : BufTy).Contents (Elt F) → (⟨S32768x256, .f32⟩ : BufTy).Contents (Elt F)),
    binary main_v27 main_v29 main_v30 (addf : (⟨S32768x256, .f32⟩ : BufTy).Contents (Elt F) → (⟨S32768x256, .f32⟩ : BufTy).Contents (Elt F) → (⟨S32768x256, .f32⟩ : BufTy).Contents (Elt F)),
    nullary main_cst_9 (constant S_ .f32 0x00000000#32),
    unary main_cst_9 main_v31 (broadcastInDim S32768x256 ![] bcast_S_S32768x256 : (⟨S_, .f32⟩ : BufTy).Contents (Elt F) → (⟨S32768x256, .f32⟩ : BufTy).Contents (Elt F)),
    binary main_v30 main_v31 main_v32 (cmpf .oge : (⟨S32768x256, .f32⟩ : BufTy).Contents (Elt F) → (⟨S32768x256, .f32⟩ : BufTy).Contents (Elt F) → (⟨S32768x256, .i1⟩ : BufTy).Contents (Elt F)),
    nullary main_cst_10 (constant S_ .f32 0x3F800000#32),
    nullary main_cst_11 (constant S_ .f32 0xBF800000#32),
    TRef.unary (.of main_cst_10 : TRef sig ⟨S_, .f32⟩) main_call3.v0 (broadcastInDim S32768x256 ![] bcast_S_S32768x256),
    TRef.unary (.of main_cst_11 : TRef sig ⟨S_, .f32⟩) main_call3.v1 (broadcastInDim S32768x256 ![] bcast_S_S32768x256),
    TRef.ternary (.of main_v32 : TRef sig ⟨S32768x256, .i1⟩) main_call3.v0 main_call3.v1 main_call3.v2 select,
    unary main_v33 main_v34 (id : (⟨S32768x256, .f32⟩ : BufTy).Contents (Elt F) → (⟨S32768x256, .f32⟩ : BufTy).Contents (Elt F)),
    nullary main_cst_12 (constant S_ .f32 0x00000000#32),
    unary main_cst_12 main_v35 (broadcastInDim S256x256 ![] bcast_S_S256x256 : (⟨S_, .f32⟩ : BufTy).Contents (Elt F) → (⟨S256x256, .f32⟩ : BufTy).Contents (Elt F)),
    binary main_arg2 main_v35 main_v36 (cmpf .oge : (⟨S256x256, .f32⟩ : BufTy).Contents (Elt F) → (⟨S256x256, .f32⟩ : BufTy).Contents (Elt F) → (⟨S256x256, .i1⟩ : BufTy).Contents (Elt F)),
    nullary main_cst_13 (constant S_ .f32 0x3F800000#32),
    nullary main_cst_14 (constant S_ .f32 0xBF800000#32),
    TRef.unary (.of main_cst_13 : TRef sig ⟨S_, .f32⟩) main_call4.v0 (broadcastInDim S256x256 ![] bcast_S_S256x256),
    TRef.unary (.of main_cst_14 : TRef sig ⟨S_, .f32⟩) main_call4.v1 (broadcastInDim S256x256 ![] bcast_S_S256x256),
    TRef.ternary (.of main_v36 : TRef sig ⟨S256x256, .i1⟩) main_call4.v0 main_call4.v1 main_call4.v2 select,
    unary main_v37 main_v38 (id : (⟨S256x256, .f32⟩ : BufTy).Contents (Elt F) → (⟨S256x256, .f32⟩ : BufTy).Contents (Elt F)),
    unary main_v38 main_v39 ((transpose S256x256 [1, 0] · transposes_S256x256_S256x256_1_0) : (⟨S256x256, .f32⟩ : BufTy).Contents (Elt F) → (⟨S256x256, .f32⟩ : BufTy).Contents (Elt F)),
    binary main_v34 main_v39 main_v40 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    nullary main_cst_15 (constant S_ .f32 0x00000000#32),
    binary main_v40 main_cst_15 main_v41 ((fun x v => Host.reduceAdd x v reducesTo_S32768x256_S256_d0 h_S_) : (⟨S32768x256, .f32⟩ : BufTy).Contents (Elt F) → (⟨S_, .f32⟩ : BufTy).Contents (Elt F) → (⟨S256, .f32⟩ : BufTy).Contents (Elt F)) ]

set_option maxRecDepth 8192 in
/-- The window is the straight line of its operations. -/
theorem main_part0_eq (c : Dev nD) : main_part0 (F := F) c = seq ops0 := by
  simp only [main_part0, fn_where.body, fn_where_0.body, fn_var.body, fn_where_1.body, fn_where_2.body, fn_where_3.body, seq, bind_assoc, pure_bind] <;> rfl

set_option maxRecDepth 8192 in
/-- Every operation of the window touches TensorCore references only. -/
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., nullary_bufs_sub .., binary_bufs_sub ..⟩

set_option maxRecDepth 8192 in
/-- Every operation of the window determines its result. -/
theorem ops0_fresh : ∀ op ∈ (ops0 : List (HloOp τ sig (Elt F))), op.fresh = ∅ := by
  intro _ h; (repeat (cases h with | head => rfl | tail _ h => ?_)); exact nomatch h

end Cert.ReferenceIdeal.Hand

end
-- ==== Proof.RefTerm.lean ====
/- The reference network as pure array functions, stage by stage, each stage the composed term of the
   host operations that compute it, in exactly the program's association and with its float literals
   kept as words.
   * `count` : the number of rows minus the variance's `ddof` (an integer zero converted to a float).
   * `sum`, `mean` : the column sums Σ_i h(i,j) and their quotient by the row count.
   * `dev` : h(i,j) minus the column mean as the variance computes it (the sum broadcast along the rows,
     divided by the row count, broadcast down the rows).
   * `var` : the guarded variance: if count > 0 then Σ_i dev(i,j)² / count else a NaN, per column.
   * `normM` : g(j)·(h(i,j) − mean(j)) · rsqrt(var(j) + ε) + b(j); `norm` is `normM` at the columns' own mean.
   * `hid0`, `lin256`, `lin10` : the binarized matrix products Σ_l sgn(a(i,l))·sgn(w(j,l)), sgn(t) = 1 if t ≥ 0
     else −1 (a select between two broadcast constants); `hid0` first subtracts one half from its input.
   * `expz`, `softmax10` : exp(z − max over the row, the maximum also taken with −∞), and its quotient by the row sum.
   * `net` : the five layers and the softmax, one function of the sixteen argument arrays;
     `refTerm m c` : `net` of device `c`'s sixteen argument buffers in the memory `m`. -/
import proofs.«126670_j49074296324140_2_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The row count less the variance's `ddof` (zero), as the program computes it. -/
def count : (⟨S_, .f32⟩ : BufTy).Contents (Elt F) :=
  subf (constant S_ .f32 0x47000000#32) (sitofp .f32 (constantI S_ 32 0#32))

/-- The column sums of a 256-column array. -/
def sum256 (h : (⟨S32768x256, .f32⟩ : BufTy).Contents (Elt F)) : (⟨S256, .f32⟩ : BufTy).Contents (Elt F) :=
  Host.reduceAdd (h) (constant S_ .f32 0x00000000#32) reducesTo_S32768x256_S256_d0 h_S_

/-- The column means from the column sums. -/
def mean256 (s : (⟨S256, .f32⟩ : BufTy).Contents (Elt F)) : (⟨S256, .f32⟩ : BufTy).Contents (Elt F) :=
  Host.divf (s) (broadcastInDim S256 ![] bcast_S_S256 (constant S_ .f32 0x47000000#32))

/-- The deviations from the column means, as the variance computes them. -/
def dev256 (h : (⟨S32768x256, .f32⟩ : BufTy).Contents (Elt F)) : (⟨S32768x256, .f32⟩ : BufTy).Contents (Elt F) :=
  subf (h) (broadcastInDim S32768x256 ![0, 1] bcast_S1x256_S32768x256_0_1 (Host.divf (broadcastInDim S1x256 ![1] bcast_S256_S1x256_1 (Host.reduceAdd (h) (constant S_ .f32 0x00000000#32) reducesTo_S32768x256_S256_d0 h_S_)) (broadcastInDim S1x256 ![] bcast_S_S1x256 (constant S_ .f32 0x47000000#32))))

/-- The guarded column variance. -/
def var256 (h : (⟨S32768x256, .f32⟩ : BufTy).Contents (Elt F)) : (⟨S256, .f32⟩ : BufTy).Contents (Elt F) :=
  select (broadcastInDim S256 ![] bcast_S_S256 (cmpf .ogt (count (F := F)) (constant S_ .f32 0x00000000#32))) (Host.divf (Host.reduceAdd (mulf (dev256 h) (dev256 h)) (constant S_ .f32 0x00000000#32) reducesTo_S32768x256_S256_d0 h_S_) (broadcastInDim S256 ![] bcast_S_S256 (count (F := F)))) (broadcastInDim S256 ![] bcast_S_S256 (id (constant S_ .f32 0x7FC00000#32)))

/-- The normalized, scaled and shifted array, the column means given. -/
def normM256 (h : (⟨S32768x256, .f32⟩ : BufTy).Contents (Elt F)) (mu g b : (⟨S256, .f32⟩ : BufTy).Contents (Elt F)) : (⟨S32768x256, .f32⟩ : BufTy).Contents (Elt F) :=
  addf (mulf (mulf (broadcastInDim S32768x256 ![0, 1] bcast_S1x256_S32768x256_0_1 (broadcastInDim S1x256 ![1] bcast_S256_S1x256_1 (g))) (subf (h) (broadcastInDim S32768x256 ![0, 1] bcast_S1x256_S32768x256_0_1 (broadcastInDim S1x256 ![1] bcast_S256_S1x256_1 (mu))))) (broadcastInDim S32768x256 ![0, 1] bcast_S1x256_S32768x256_0_1 (broadcastInDim S1x256 ![1] bcast_S256_S1x256_1 (Host.rsqrt (addf (var256 h) (broadcastInDim S256 ![] bcast_S_S256 (constant S_ .f32 0x3727C5AC#32))))))) (broadcastInDim S32768x256 ![0, 1] bcast_S1x256_S32768x256_0_1 (broadcastInDim S1x256 ![1] bcast_S256_S1x256_1 (b)))

/-- The normalization at the columns' own means. -/
def norm256 (h : (⟨S32768x256, .f32⟩ : BufTy).Contents (Elt F)) (g b : (⟨S256, .f32⟩ : BufTy).Contents (Elt F)) : (⟨S32768x256, .f32⟩ : BufTy).Contents (Elt F) :=
  normM256 h (mean256 (sum256 h)) g b

/-- The first layer's matrix product of the binarized centred input and the binarized weight. -/
def hid0 (x : (⟨S32768x784, .f32⟩ : BufTy).Contents (Elt F)) (w : (⟨S256x784, .f32⟩ : BufTy).Contents (Elt F)) : (⟨S32768x256, .f32⟩ : BufTy).Contents (Elt F) :=
  Host.dotGeneral dot_S32768x784_S784x256_S32768x256_1_0_0_1_n_n none (id (select (cmpf .oge (subf (x) (broadcastInDim S32768x784 ![] bcast_S_S32768x784 (constant S_ .f32 0x3F000000#32))) (broadcastInDim S32768x784 ![] bcast_S_S32768x784 (constant S_ .f32 0x00000000#32))) (broadcastInDim S32768x784 ![] bcast_S_S32768x784 (constant S_ .f32 0x3F800000#32)) (broadcastInDim S32768x784 ![] bcast_S_S32768x784 (constant S_ .f32 0xBF800000#32)))) (transpose S784x256 [1, 0] (id (select (cmpf .oge (w) (broadcastInDim S256x784 ![] bcast_S_S256x784 (constant S_ .f32 0x00000000#32))) (broadcastInDim S256x784 ![] bcast_S_S256x784 (constant S_ .f32 0x3F800000#32)) (broadcastInDim S256x784 ![] bcast_S_S256x784 (constant S_ .f32 0xBF800000#32)))) transposes_S256x784_S784x256_1_0)

/-- A middle layer's matrix product of the binarized activations and the binarized weight. -/
def lin256 (o : (⟨S32768x256, .f32⟩ : BufTy).Contents (Elt F)) (w : (⟨S256x256, .f32⟩ : BufTy).Contents (Elt F)) : (⟨S32768x256, .f32⟩ : BufTy).Contents (Elt F) :=
  Host.dotGeneral dot_S32768x256_S256x256_S32768x256_1_0_0_1_n_n none (id (select (cmpf .oge (o) (broadcastInDim S32768x256 ![] bcast_S_S32768x256 (constant S_ .f32 0x00000000#32))) (broadcastInDim S32768x256 ![] bcast_S_S32768x256 (constant S_ .f32 0x3F800000#32)) (broadcastInDim S32768x256 ![] bcast_S_S32768x256 (constant S_ .f32 0xBF800000#32)))) (transpose S256x256 [1, 0] (id (select (cmpf .oge (w) (broadcastInDim S256x256 ![] bcast_S_S256x256 (constant S_ .f32 0x00000000#32))) (broadcastInDim S256x256 ![] bcast_S_S256x256 (constant S_ .f32 0x3F800000#32)) (broadcastInDim S256x256 ![] bcast_S_S256x256 (constant S_ .f32 0xBF800000#32)))) transposes_S256x256_S256x256_1_0)

/-- The last layer's matrix product. -/
def lin10 (o : (⟨S32768x256, .f32⟩ : BufTy).Contents (Elt F)) (w : (⟨S10x256, .f32⟩ : BufTy).Contents (Elt F)) : (⟨S32768x10, .f32⟩ : BufTy).Contents (Elt F) :=
  Host.dotGeneral dot_S32768x256_S256x10_S32768x10_1_0_0_1_n_n none (id (select (cmpf .oge (o) (broadcastInDim S32768x256 ![] bcast_S_S32768x256 (constant S_ .f32 0x00000000#32))) (broadcastInDim S32768x256 ![] bcast_S_S32768x256 (constant S_ .f32 0x3F800000#32)) (broadcastInDim S32768x256 ![] bcast_S_S32768x256 (constant S_ .f32 0xBF800000#32)))) (transpose S256x10 [1, 0] (id (select (cmpf .oge (w) (broadcastInDim S10x256 ![] bcast_S_S10x256 (constant S_ .f32 0x00000000#32))) (broadcastInDim S10x256 ![] bcast_S_S10x256 (constant S_ .f32 0x3F800000#32)) (broadcastInDim S10x256 ![] bcast_S_S10x256 (constant S_ .f32 0xBF800000#32)))) transposes_S10x256_S256x10_1_0)

/-- The column sums of a 10-column array. -/
def sum10 (h : (⟨S32768x10, .f32⟩ : BufTy).Contents (Elt F)) : (⟨S10, .f32⟩ : BufTy).Contents (Elt F) :=
  Host.reduceAdd (h) (constant S_ .f32 0x00000000#32) reducesTo_S32768x10_S10_d0 h_S_

/-- The column means from the column sums. -/
def mean10 (s : (⟨S10, .f32⟩ : BufTy).Contents (Elt F)) : (⟨S10, .f32⟩ : BufTy).Contents (Elt F) :=
  Host.divf (s) (broadcastInDim S10 ![] bcast_S_S10 (constant S_ .f32 0x47000000#32))

/-- The deviations from the column means, as the variance computes them. -/
def dev10 (h : (⟨S32768x10, .f32⟩ : BufTy).Contents (Elt F)) : (⟨S32768x10, .f32⟩ : BufTy).Contents (Elt F) :=
  subf (h) (broadcastInDim S32768x10 ![0, 1] bcast_S1x10_S32768x10_0_1 (Host.divf (broadcastInDim S1x10 ![1] bcast_S10_S1x10_1 (Host.reduceAdd (h) (constant S_ .f32 0x00000000#32) reducesTo_S32768x10_S10_d0 h_S_)) (broadcastInDim S1x10 ![] bcast_S_S1x10 (constant S_ .f32 0x47000000#32))))

/-- The guarded column variance. -/
def var10 (h : (⟨S32768x10, .f32⟩ : BufTy).Contents (Elt F)) : (⟨S10, .f32⟩ : BufTy).Contents (Elt F) :=
  select (broadcastInDim S10 ![] bcast_S_S10 (cmpf .ogt (count (F := F)) (constant S_ .f32 0x00000000#32))) (Host.divf (Host.reduceAdd (mulf (dev10 h) (dev10 h)) (constant S_ .f32 0x00000000#32) reducesTo_S32768x10_S10_d0 h_S_) (broadcastInDim S10 ![] bcast_S_S10 (count (F := F)))) (broadcastInDim S10 ![] bcast_S_S10 (id (constant S_ .f32 0x7FC00000#32)))

/-- The normalized, scaled and shifted array, the column means given. -/
def normM10 (h : (⟨S32768x10, .f32⟩ : BufTy).Contents (Elt F)) (mu g b : (⟨S10, .f32⟩ : BufTy).Contents (Elt F)) : (⟨S32768x10, .f32⟩ : BufTy).Contents (Elt F) :=
  addf (mulf (mulf (broadcastInDim S32768x10 ![0, 1] bcast_S1x10_S32768x10_0_1 (broadcastInDim S1x10 ![1] bcast_S10_S1x10_1 (g))) (subf (h) (broadcastInDim S32768x10 ![0, 1] bcast_S1x10_S32768x10_0_1 (broadcastInDim S1x10 ![1] bcast_S10_S1x10_1 (mu))))) (broadcastInDim S32768x10 ![0, 1] bcast_S1x10_S32768x10_0_1 (broadcastInDim S1x10 ![1] bcast_S10_S1x10_1 (Host.rsqrt (addf (var10 h) (broadcastInDim S10 ![] bcast_S_S10 (constant S_ .f32 0x3727C5AC#32))))))) (broadcastInDim S32768x10 ![0, 1] bcast_S1x10_S32768x10_0_1 (broadcastInDim S1x10 ![1] bcast_S10_S1x10_1 (b)))

/-- The normalization at the columns' own means. -/
def norm10 (h : (⟨S32768x10, .f32⟩ : BufTy).Contents (Elt F)) (g b : (⟨S10, .f32⟩ : BufTy).Contents (Elt F)) : (⟨S32768x10, .f32⟩ : BufTy).Contents (Elt F) :=
  normM10 h (mean10 (sum10 h)) g b

/-- The exponentials of the logits less their row maximum. -/
def expz (z : (⟨S32768x10, .f32⟩ : BufTy).Contents (Elt F)) : (⟨S32768x10, .f32⟩ : BufTy).Contents (Elt F) :=
  Host.exp (subf (z) (broadcastInDim S32768x10 ![0, 1] bcast_S32768x1_S32768x10_0_1 (broadcastInDim S32768x1 ![0] bcast_S32768_S32768x1_0 (maximumf (broadcastInDim S32768 ![] bcast_S_S32768 (constant S_ .f32 0xFF800000#32)) (Host.reduce FloatOps.maximumf (z) (constant S_ .f32 0xFF800000#32) reducesTo_S32768x10_S32768_d1 h_S_)))))

/-- The row softmax. -/
def softmax10 (z : (⟨S32768x10, .f32⟩ : BufTy).Contents (Elt F)) : (⟨S32768x10, .f32⟩ : BufTy).Contents (Elt F) :=
  Host.divf (expz z) (broadcastInDim S32768x10 ![0, 1] bcast_S32768x1_S32768x10_0_1 (broadcastInDim S32768x1 ![0] bcast_S32768_S32768x1_0 (Host.reduceAdd (expz z) (constant S_ .f32 0x00000000#32) reducesTo_S32768x10_S32768_d1 h_S_)))

/-- The whole network: one function of the input, the five weights, the five scales and the five shifts. -/
def net (x : (⟨S32768x784, .f32⟩ : BufTy).Contents (Elt F)) (w0 : (⟨S256x784, .f32⟩ : BufTy).Contents (Elt F)) (w1 w2 w3 : (⟨S256x256, .f32⟩ : BufTy).Contents (Elt F)) (w4 : (⟨S10x256, .f32⟩ : BufTy).Contents (Elt F))
    (g0 g1 g2 g3 : (⟨S256, .f32⟩ : BufTy).Contents (Elt F)) (g4 : (⟨S10, .f32⟩ : BufTy).Contents (Elt F)) (b0 b1 b2 b3 : (⟨S256, .f32⟩ : BufTy).Contents (Elt F)) (b4 : (⟨S10, .f32⟩ : BufTy).Contents (Elt F)) : (⟨S32768x10, .f32⟩ : BufTy).Contents (Elt F) :=
  softmax10 (norm10 (lin10 (norm256 (lin256 (norm256 (lin256 (norm256 (lin256 (norm256 (hid0 x w0) g0 b0) w1) g1 b1) w2) g2 b2) w3) g3 b3) w4) g4 b4)

/-- The network of device `c`'s sixteen argument buffers in the memory `m`. -/
def refTerm (m : (ℓ : Loc nD τ sig) → Buf (Elt F) ℓ) (c : Dev nD) : (⟨S32768x10, .f32⟩ : BufTy).Contents (Elt F) :=
  net (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15))

end Cert.ReferenceIdeal.Hand

end
-- ==== Proof.RefVal0.lean ====
/- What window 0 of the reference's host operations (statements 1 … 60 of @main: the centring of the input, the whole first layer, and the second layer up to the column sums of its matrix product) leaves in the buffers, from ANY contents `V` before it:
   the buffers the window does not write keep their contents (in particular the sixteen arguments), and each buffer a later
   window reads holds the stage functions of RefTerm applied to the contents of the buffers the window reads.
   The fold of the operations' results is unrolled once (each operation's result at its own buffer is its function of its
   operands' contents, at any other buffer what was there); what is left is the stage functions' definitions unfolded. -/
import proofs.«126670_j49074296324140_2_alg».proof.Proof.RefOps0
import proofs.«126670_j49074296324140_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local macro "wr1" : term => `(Finset.singleton_subset_iff.mpr (List.mem_toFinset.mpr (List.mem_map_of_mem (by decide))))

/-- The buffers window 0's operations write, in order. -/
abbrev ops0_W : List (Ref sig .tc) := [main_cst, main_v0, main_v1, main_cst_0, main_v2, main_v3, main_cst_1, main_cst_2, main_call0_v0, main_call0_v1, main_v4, main_v5, main_cst_3, main_v6, main_v7, main_cst_4, main_cst_5, main_call1_v0, main_call1_v1, main_v8, main_v9, main_v10, main_v11, main_cst_6, main_v12, main_cst_7, main_v13, main_v14, main_c, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v15, main_v16, main_v17, main_v18, main_v19, main_v20, main_v21, main_cst_8, main_v22, main_v23, main_v24, main_v25, main_v26, main_v27, main_v28, main_v29, main_v30, main_cst_9, main_v31, main_v32, main_cst_10, main_cst_11, main_call3_v0, main_call3_v1, main_v33, main_v34, main_cst_12, main_v35, main_v36, main_cst_13, main_cst_14, main_call4_v0, main_call4_v1, main_v37, main_v38, main_v39, main_v40, main_cst_15, main_v41]

set_option maxRecDepth 8192 in
theorem ops0_writes : (ops0 : List (HloOp τ sig (Elt F))).Forall fun op => op.writes ⊆ (ops0_W.map (Proc.devRef (τ := τ) .tc)).toFinset :=
  ⟨wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1⟩

/-- A buffer the window does not write keeps its contents through it. -/
theorem keep0 (V : Valuation τ sig (Elt F)) (r : Ref sig .tc) (h : r ∉ ops0_W) :
    after ops0 V (Proc.devRef .tc r) = V (Proc.devRef .tc r) :=
  after_of_writes_sub ops0 _ ops0_writes h

set_option maxRecDepth 8192 in
set_option maxHeartbeats 1000000 in
/-- The second layer's matrix product after the window: of the first layer's normalized output, binarized, and the second weight, binarized. -/
theorem w0_hid1 (V : Valuation τ sig (Elt F)) :
    after ops0 V (Proc.devRef .tc main_v40) = (lin256 (norm256 (hid0 (V (Proc.devRef .tc main_arg0)) (V (Proc.devRef .tc main_arg1))) (V (Proc.devRef .tc main_arg6)) (V (Proc.devRef .tc main_arg11))) (V (Proc.devRef .tc main_arg2))) := by
  simp only [ops0]
  after_results_simp
  rfl

set_option maxRecDepth 8192 in
set_option maxHeartbeats 1000000 in
/-- Its column sums after the window. -/
theorem w0_sum1 (V : Valuation τ sig (Elt F)) :
    after ops0 V (Proc.devRef .tc main_v41) = sum256 (lin256 (norm256 (hid0 (V (Proc.devRef .tc main_arg0)) (V (Proc.devRef .tc main_arg1))) (V (Proc.devRef .tc main_arg6)) (V (Proc.devRef .tc main_arg11))) (V (Proc.devRef .tc main_arg2))) := by
  simp only [ops0]
  after_results_simp
  rfl

end Cert.ReferenceIdeal.Hand

end
-- ==== Proof.RefOps1.lean ====
/- The reference program's host operations, window 1 (statements 61 … 120 of @main: the rest of the second layer (mean, variance, normalization) and the whole third layer), as a LIST in program
   order. A call of an outlined function (the selection `where`, the variance `var`, and the selection the
   variance itself calls) is replaced by the callee's operations over that call's own buffers, which is what
   executing the call means. The window is then the straight line `seq` of the list: both sides are one chain
   of `hlo` steps once the callees' definitions are unfolded and sequencing is reassociated. Every operation
   touches TensorCore references only and determines its result (none allocates). -/
import proofs.«126670_j49074296324140_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 1's 106 operations, in order, the calls unfolded. -/
abbrev ops1 : List (HloOp τ sig (Elt F)) :=
  [ nullary main_cst_16 (constant S_ .f32 0x47000000#32),
    unary main_cst_16 main_v42 (broadcastInDim S256 ![] bcast_S_S256 : (⟨S_, .f32⟩ : BufTy).Contents (Elt F) → (⟨S256, .f32⟩ : BufTy).Contents (Elt F)),
    binary main_v41 main_v42 main_v43 (Host.divf : (⟨S256, .f32⟩ : BufTy).Contents (Elt F) → (⟨S256, .f32⟩ : BufTy).Contents (Elt F) → (⟨S256, .f32⟩ : BufTy).Contents (Elt F)),
    nullary main_c_17 (constantI S_ 32 0#32),
    TRef.nullary main_call5.cst (constant S_ .f32 0x00000000#32),
    TRef.binary (.of main_v40 : TRef sig ⟨S32768x256, .f32⟩) main_call5.cst main_call5.v0 (fun x v => Host.reduceAdd x v reducesTo_S32768x256_S256_d0 h_S_),
    TRef.unary main_call5.v0 main_call5.v1 (broadcastInDim S1x256 ![1] bcast_S256_S1x256_1),
    TRef.nullary main_call5.cst_0 (constant S_ .f32 0x47000000#32),
    TRef.unary main_call5.cst_0 main_call5.v2 (broadcastInDim S1x256 ![] bcast_S_S1x256),
    TRef.binary main_call5.v1 main_call5.v2 main_call5.v3 Host.divf,
    TRef.unary main_call5.v3 main_call5.v4 (broadcastInDim S32768x256 ![0, 1] bcast_S1x256_S32768x256_0_1),
    TRef.binary (.of main_v40 : TRef sig ⟨S32768x256, .f32⟩) main_call5.v4 main_call5.v5 subf,
    TRef.binary main_call5.v5 main_call5.v5 main_call5.v6 mulf,
    TRef.unary (.of main_c_17 : TRef sig ⟨S_, .i32⟩) main_call5.v7 (sitofp .f32),
    TRef.nullary main_call5.cst_1 (constant S_ .f32 0x47000000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S32768x256_S256_d0 h_S_),
    TRef.unary main_call5.v8 main_call5.v10 (broadcastInDim S256 ![] bcast_S_S256),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S256 ![] bcast_S_S256),
    TRef.ternary main_call5.v12 main_call5.v11 main_call5.call0.v1 main_call5.call0.v2 (fun p a b => select (broadcastInDim S256 ![] bcast_S_S256 p) a b),
    unary main_v43 main_v45 (broadcastInDim S1x256 ![1] bcast_S256_S1x256_1 : (⟨S256, .f32⟩ : BufTy).Contents (Elt F) → (⟨S1x256, .f32⟩ : BufTy).Contents (Elt F)),
    unary main_v45 main_v46 (broadcastInDim S32768x256 ![0, 1] bcast_S1x256_S32768x256_0_1 : (⟨S1x256, .f32⟩ : BufTy).Contents (Elt F) → (⟨S32768x256, .f32⟩ : BufTy).Contents (Elt F)),
    binary main_v40 main_v46 main_v47 (subf : (⟨S32768x256, .f32⟩ : BufTy).Contents (Elt F) → (⟨S32768x256, .f32⟩ : BufTy).Contents (Elt F) → (⟨S32768x256, .f32⟩ : BufTy).Contents (Elt F)),
    unary main_arg7 main_v48 (broadcastInDim S1x256 ![1] bcast_S256_S1x256_1 : (⟨S256, .f32⟩ : BufTy).Contents (Elt F) → (⟨S1x256, .f32⟩ : BufTy).Contents (Elt F)),
    unary main_v48 main_v49 (broadcastInDim S32768x256 ![0, 1] bcast_S1x256_S32768x256_0_1 : (⟨S1x256, .f32⟩ : BufTy).Contents (Elt F) → (⟨S32768x256, .f32⟩ : BufTy).Contents (Elt F)),
    binary main_v49 main_v47 main_v50 (mulf : (⟨S32768x256, .f32⟩ : BufTy).Contents (Elt F) → (⟨S32768x256, .f32⟩ : BufTy).Contents (Elt F) → (⟨S32768x256, .f32⟩ : BufTy).Contents (Elt F)),
    nullary main_cst_18 (constant S_ .f32 0x3727C5AC#32),
    unary main_cst_18 main_v51 (broadcastInDim S256 ![] bcast_S_S256 : (⟨S_, .f32⟩ : BufTy).Contents (Elt F) → (⟨S256, .f32⟩ : BufTy).Contents (Elt F)),
    binary main_v44 main_v51 main_v52 (addf : (⟨S256, .f32⟩ : BufTy).Contents (Elt F) → (⟨S256, .f32⟩ : BufTy).Contents (Elt F) → (⟨S256, .f32⟩ : BufTy).Contents (Elt F)),
    unary main_v52 main_v53 (Host.rsqrt : (⟨S256, .f32⟩ : BufTy).Contents (Elt F) → (⟨S256, .f32⟩ : BufTy).Contents (Elt F)),
    unary main_v53 main_v54 (broadcastInDim S1x256 ![1] bcast_S256_S1x256_1 : (⟨S256, .f32⟩ : BufTy).Contents (Elt F) → (⟨S1x256, .f32⟩ : BufTy).Contents (Elt F)),
    unary main_v54 main_v55 (broadcastInDim S32768x256 ![0, 1] bcast_S1x256_S32768x256_0_1 : (⟨S1x256, .f32⟩ : BufTy).Contents (Elt F) → (⟨S32768x256, .f32⟩ : BufTy).Contents (Elt F)),
    binary main_v50 main_v55 main_v56 (mulf : (⟨S32768x256, .f32⟩ : BufTy).Contents (Elt F) → (⟨S32768x256, .f32⟩ : BufTy).Contents (Elt F) → (⟨S32768x256, .f32⟩ : BufTy).Contents (Elt F)),
    unary main_arg12 main_v57 (broadcastInDim S1x256 ![1] bcast_S256_S1x256_1 : (⟨S256, .f32⟩ : BufTy).Contents (Elt F) → (⟨S1x256, .f32⟩ : BufTy).Contents (Elt F)),
    unary main_v57 main_v58 (broadcastInDim S32768x256 ![0, 1] bcast_S1x256_S32768x256_0_1 : (⟨S1x256, .f32⟩ : BufTy).Contents (Elt F) → (⟨S32768x256, .f32⟩ : BufTy).Contents (Elt F)),
    binary main_v56 main_v58 main_v59 (addf : (⟨S32768x256, .f32⟩ : BufTy).Contents (Elt F) → (⟨S32768x256, .f32⟩ : BufTy).Contents (Elt F) → (⟨S32768x256, .f32⟩ : BufTy).Contents (Elt F)),
    nullary main_cst_19 (constant S_ .f32 0x00000000#32),
    unary main_cst_19 main_v60 (broadcastInDim S32768x256 ![] bcast_S_S32768x256 : (⟨S_, .f32⟩ : BufTy).Contents (Elt F) → (⟨S32768x256, .f32⟩ : BufTy).Contents (Elt F)),
    binary main_v59 main_v60 main_v61 (cmpf .oge : (⟨S32768x256, .f32⟩ : BufTy).Contents (Elt F) → (⟨S32768x256, .f32⟩ : BufTy).Contents (Elt F) → (⟨S32768x256, .i1⟩ : BufTy).Contents (Elt F)),
    nullary main_cst_20 (constant S_ .f32 0x3F800000#32),
    nullary main_cst_21 (constant S_ .f32 0xBF800000#32),
    TRef.unary (.of main_cst_20 : TRef sig ⟨S_, .f32⟩) main_call6.v0 (broadcastInDim S32768x256 ![] bcast_S_S32768x256),
    TRef.unary (.of main_cst_21 : TRef sig ⟨S_, .f32⟩) main_call6.v1 (broadcastInDim S32768x256 ![] bcast_S_S32768x256),
    TRef.ternary (.of main_v61 : TRef sig ⟨S32768x256, .i1⟩) main_call6.v0 main_call6.v1 main_call6.v2 select,
    unary main_v62 main_v63 (id : (⟨S32768x256, .f32⟩ : BufTy).Contents (Elt F) → (⟨S32768x256, .f32⟩ : BufTy).Contents (Elt F)),
    nullary main_cst_22 (constant S_ .f32 0x00000000#32),
    unary main_cst_22 main_v64 (broadcastInDim S256x256 ![] bcast_S_S256x256 : (⟨S_, .f32⟩ : BufTy).Contents (Elt F) → (⟨S256x256, .f32⟩ : BufTy).Contents (Elt F)),
    binary main_arg3 main_v64 main_v65 (cmpf .oge : (⟨S256x256, .f32⟩ : BufTy).Contents (Elt F) → (⟨S256x256, .f32⟩ : BufTy).Contents (Elt F) → (⟨S256x256, .i1⟩ : BufTy).Contents (Elt F)),
    nullary main_cst_23 (constant S_ .f32 0x3F800000#32),
    nullary main_cst_24 (constant S_ .f32 0xBF800000#32),
    TRef.unary (.of main_cst_23 : TRef sig ⟨S_, .f32⟩) main_call7.v0 (broadcastInDim S256x256 ![] bcast_S_S256x256),
    TRef.unary (.of main_cst_24 : TRef sig ⟨S_, .f32⟩) main_call7.v1 (broadcastInDim S256x256 ![] bcast_S_S256x256),
    TRef.ternary (.of main_v65 : TRef sig ⟨S256x256, .i1⟩) main_call7.v0 main_call7.v1 main_call7.v2 select,
    unary main_v66 main_v67 (id : (⟨S256x256, .f32⟩ : BufTy).Contents (Elt F) → (⟨S256x256, .f32⟩ : BufTy).Contents (Elt F)),
    unary main_v67 main_v68 ((transpose S256x256 [1, 0] · transposes_S256x256_S256x256_1_0) : (⟨S256x256, .f32⟩ : BufTy).Contents (Elt F) → (⟨S256x256, .f32⟩ : BufTy).Contents (Elt F)),
    binary main_v63 main_v68 main_v69 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    nullary main_cst_25 (constant S_ .f32 0x00000000#32),
    binary main_v69 main_cst_25 main_v70 ((fun x v => Host.reduceAdd x v reducesTo_S32768x256_S256_d0 h_S_) : (⟨S32768x256, .f32⟩ : BufTy).Contents (Elt F) → (⟨S_, .f32⟩ : BufTy).Contents (Elt F) → (⟨S256, .f32⟩ : BufTy).Contents (Elt F)),
    nullary main_cst_26 (constant S_ .f32 0x47000000#32),
    unary main_cst_26 main_v71 (broadcastInDim S256 ![] bcast_S_S256 : (⟨S_, .f32⟩ : BufTy).Contents (Elt F) → (⟨S256, .f32⟩ : BufTy).Contents (Elt F)),
    binary main_v70 main_v71 main_v72 (Host.divf : (⟨S256, .f32⟩ : BufTy).Contents (Elt F) → (⟨S256, .f32⟩ : BufTy).Contents (Elt F) → (⟨S256, .f32⟩ : BufTy).Contents (Elt F)),
    nullary main_c_27 (constantI S_ 32 0#32),
    TRef.nullary main_call8.cst (constant S_ .f32 0x00000000#32),
    TRef.binary (.of main_v69 : TRef sig ⟨S32768x256, .f32⟩) main_call8.cst main_call8.v0 (fun x v => Host.reduceAdd x v reducesTo_S32768x256_S256_d0 h_S_),
    TRef.unary main_call8.v0 main_call8.v1 (broadcastInDim S1x256 ![1] bcast_S256_S1x256_1),
    TRef.nullary main_call8.cst_0 (constant S_ .f32 0x47000000#32),
    TRef.unary main_call8.cst_0 main_call8.v2 (broadcastInDim S1x256 ![] bcast_S_S1x256),
    TRef.binary main_call8.v1 main_call8.v2 main_call8.v3 Host.divf,
    TRef.unary main_call8.v3 main_call8.v4 (broadcastInDim S32768x256 ![0, 1] bcast_S1x256_S32768x256_0_1),
    TRef.binary (.of main_v69 : TRef sig ⟨S32768x256, .f32⟩) main_call8.v4 main_call8.v5 subf,
    TRef.binary main_call8.v5 main_call8.v5 main_call8.v6 mulf,
    TRef.unary (.of main_c_27 : TRef sig ⟨S_, .i32⟩) main_call8.v7 (sitofp .f32),
    TRef.nullary main_call8.cst_1 (constant S_ .f32 0x47000000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S32768x256_S256_d0 h_S_),
    TRef.unary main_call8.v8 main_call8.v10 (broadcastInDim S256 ![] bcast_S_S256),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S256 ![] bcast_S_S256),
    TRef.ternary main_call8.v12 main_call8.v11 main_call8.call0.v1 main_call8.call0.v2 (fun p a b => select (broadcastInDim S256 ![] bcast_S_S256 p) a b),
    unary main_v72 main_v74 (broadcastInDim S1x256 ![1] bcast_S256_S1x256_1 : (⟨S256, .f32⟩ : BufTy).Contents (Elt F) → (⟨S1x256, .f32⟩ : BufTy).Contents (Elt F)),
    unary main_v74 main_v75 (broadcastInDim S32768x256 ![0, 1] bcast_S1x256_S32768x256_0_1 : (⟨S1x256, .f32⟩ : BufTy).Contents (Elt F) → (⟨S32768x256, .f32⟩ : BufTy).Contents (Elt F)),
    binary main_v69 main_v75 main_v76 (subf : (⟨S32768x256, .f32⟩ : BufTy).Contents (Elt F) → (⟨S32768x256, .f32⟩ : BufTy).Contents (Elt F) → (⟨S32768x256, .f32⟩ : BufTy).Contents (Elt F)),
    unary main_arg8 main_v77 (broadcastInDim S1x256 ![1] bcast_S256_S1x256_1 : (⟨S256, .f32⟩ : BufTy).Contents (Elt F) → (⟨S1x256, .f32⟩ : BufTy).Contents (Elt F)),
    unary main_v77 main_v78 (broadcastInDim S32768x256 ![0, 1] bcast_S1x256_S32768x256_0_1 : (⟨S1x256, .f32⟩ : BufTy).Contents (Elt F) → (⟨S32768x256, .f32⟩ : BufTy).Contents (Elt F)),
    binary main_v78 main_v76 main_v79 (mulf : (⟨S32768x256, .f32⟩ : BufTy).Contents (Elt F) → (⟨S32768x256, .f32⟩ : BufTy).Contents (Elt F) → (⟨S32768x256, .f32⟩ : BufTy).Contents (Elt F)),
    nullary main_cst_28 (constant S_ .f32 0x3727C5AC#32),
    unary main_cst_28 main_v80 (broadcastInDim S256 ![] bcast_S_S256 : (⟨S_, .f32⟩ : BufTy).Contents (Elt F) → (⟨S256, .f32⟩ : BufTy).Contents (Elt F)),
    binary main_v73 main_v80 main_v81 (addf : (⟨S256, .f32⟩ : BufTy).Contents (Elt F) → (⟨S256, .f32⟩ : BufTy).Contents (Elt F) → (⟨S256, .f32⟩ : BufTy).Contents (Elt F)),
    unary main_v81 main_v82 (Host.rsqrt : (⟨S256, .f32⟩ : BufTy).Contents (Elt F) → (⟨S256, .f32⟩ : BufTy).Contents (Elt F)),
    unary main_v82 main_v83 (broadcastInDim S1x256 ![1] bcast_S256_S1x256_1 : (⟨S256, .f32⟩ : BufTy).Contents (Elt F) → (⟨S1x256, .f32⟩ : BufTy).Contents (Elt F)),
    unary main_v83 main_v84 (broadcastInDim S32768x256 ![0, 1] bcast_S1x256_S32768x256_0_1 : (⟨S1x256, .f32⟩ : BufTy).Contents (Elt F) → (⟨S32768x256, .f32⟩ : BufTy).Contents (Elt F)),
    binary main_v79 main_v84 main_v85 (mulf : (⟨S32768x256, .f32⟩ : BufTy).Contents (Elt F) → (⟨S32768x256, .f32⟩ : BufTy).Contents (Elt F) → (⟨S32768x256, .f32⟩ : BufTy).Contents (Elt F)),
    unary main_arg13 main_v86 (broadcastInDim S1x256 ![1] bcast_S256_S1x256_1 : (⟨S256, .f32⟩ : BufTy).Contents (Elt F) → (⟨S1x256, .f32⟩ : BufTy).Contents (Elt F)),
    unary main_v86 main_v87 (broadcastInDim S32768x256 ![0, 1] bcast_S1x256_S32768x256_0_1 : (⟨S1x256, .f32⟩ : BufTy).Contents (Elt F) → (⟨S32768x256, .f32⟩ : BufTy).Contents (Elt F)),
    binary main_v85 main_v87 main_v88 (addf : (⟨S32768x256, .f32⟩ : BufTy).Contents (Elt F) → (⟨S32768x256, .f32⟩ : BufTy).Contents (Elt F) → (⟨S32768x256, .f32⟩ : BufTy).Contents (Elt F)) ]

set_option maxRecDepth 8192 in
/-- The window is the straight line of its operations. -/
theorem main_part1_eq (c : Dev nD) : main_part1 (F := F) c = seq ops1 := by
  simp only [main_part1, fn_var.body, fn_where_1.body, fn_where_2.body, fn_where_3.body, seq, bind_assoc, pure_bind] <;> rfl

set_option maxRecDepth 8192 in
/-- Every operation of the window touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

set_option maxRecDepth 8192 in
/-- Every operation of the window determines its result. -/
theorem ops1_fresh : ∀ op ∈ (ops1 : List (HloOp τ sig (Elt F))), op.fresh = ∅ := by
  intro _ h; (repeat (cases h with | head => rfl | tail _ h => ?_)); exact nomatch h

end Cert.ReferenceIdeal.Hand

end
-- ==== Proof.RefVal1.lean ====
/- What window 1 of the reference's host operations (statements 61 … 120 of @main: the rest of the second layer (mean, variance, normalization) and the whole third layer) leaves in the buffers, from ANY contents `V` before it:
   the buffers the window does not write keep their contents (in particular the sixteen arguments), and each buffer a later
   window reads holds the stage functions of RefTerm applied to the contents of the buffers the window reads.
   The window starts inside the second layer: it reads that layer's matrix product and its column sums from the window before.
   The fold of the operations' results is unrolled once (each operation's result at its own buffer is its function of its
   operands' contents, at any other buffer what was there); what is left is the stage functions' definitions unfolded. -/
import proofs.«126670_j49074296324140_2_alg».proof.Proof.RefOps1
import proofs.«126670_j49074296324140_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local macro "wr1" : term => `(Finset.singleton_subset_iff.mpr (List.mem_toFinset.mpr (List.mem_map_of_mem (by decide))))

/-- The buffers window 1's operations write, in order. -/
abbrev ops1_W : List (Ref sig .tc) := [main_cst_16, main_v42, main_v43, main_c_17, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v44, main_v45, main_v46, main_v47, main_v48, main_v49, main_v50, main_cst_18, main_v51, main_v52, main_v53, main_v54, main_v55, main_v56, main_v57, main_v58, main_v59, main_cst_19, main_v60, main_v61, main_cst_20, main_cst_21, main_call6_v0, main_call6_v1, main_v62, main_v63, main_cst_22, main_v64, main_v65, main_cst_23, main_cst_24, main_call7_v0, main_call7_v1, main_v66, main_v67, main_v68, main_v69, main_cst_25, main_v70, main_cst_26, main_v71, main_v72, main_c_27, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v73, main_v74, main_v75, main_v76, main_v77, main_v78, main_v79, main_cst_28, main_v80, main_v81, main_v82, main_v83, main_v84, main_v85, main_v86, main_v87, main_v88]

set_option maxRecDepth 8192 in
theorem ops1_writes : (ops1 : List (HloOp τ sig (Elt F))).Forall fun op => op.writes ⊆ (ops1_W.map (Proc.devRef (τ := τ) .tc)).toFinset :=
  ⟨wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1⟩

/-- A buffer the window does not write keeps its contents through it. -/
theorem keep1 (V : Valuation τ sig (Elt F)) (r : Ref sig .tc) (h : r ∉ ops1_W) :
    after ops1 V (Proc.devRef .tc r) = V (Proc.devRef .tc r) :=
  after_of_writes_sub ops1 _ ops1_writes h

set_option maxRecDepth 8192 in
set_option maxHeartbeats 1000000 in
/-- The third layer's normalized output after the window, from the second layer's matrix product and its column sums. -/
theorem w1_out2 (V : Valuation τ sig (Elt F)) :
    after ops1 V (Proc.devRef .tc main_v88) = norm256 (lin256 (normM256 (V (Proc.devRef .tc main_v40)) (mean256 (V (Proc.devRef .tc main_v41))) (V (Proc.devRef .tc main_arg7)) (V (Proc.devRef .tc main_arg12))) (V (Proc.devRef .tc main_arg3))) (V (Proc.devRef .tc main_arg8)) (V (Proc.devRef .tc main_arg13)) := by
  simp only [ops1]
  after_results_simp
  rfl

end Cert.ReferenceIdeal.Hand

end
-- ==== Proof.RefOps2.lean ====
/- The reference program's host operations, window 2 (statements 121 … 180 of @main: the fourth layer and the fifth up to the column means of its matrix product), as a LIST in program
   order. A call of an outlined function (the selection `where`, the variance `var`, and the selection the
   variance itself calls) is replaced by the callee's operations over that call's own buffers, which is what
   executing the call means. The window is then the straight line `seq` of the list: both sides are one chain
   of `hlo` steps once the callees' definitions are unfolded and sequencing is reassociated. Every operation
   touches TensorCore references only and determines its result (none allocates). -/
import proofs.«126670_j49074296324140_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 2's 89 operations, in order, the calls unfolded. -/
abbrev ops2 : List (HloOp τ sig (Elt F)) :=
  [ nullary main_cst_29 (constant S_ .f32 0x00000000#32),
    unary main_cst_29 main_v89 (broadcastInDim S32768x256 ![] bcast_S_S32768x256 : (⟨S_, .f32⟩ : BufTy).Contents (Elt F) → (⟨S32768x256, .f32⟩ : BufTy).Contents (Elt F)),
    binary main_v88 main_v89 main_v90 (cmpf .oge : (⟨S32768x256, .f32⟩ : BufTy).Contents (Elt F) → (⟨S32768x256, .f32⟩ : BufTy).Contents (Elt F) → (⟨S32768x256, .i1⟩ : BufTy).Contents (Elt F)),
    nullary main_cst_30 (constant S_ .f32 0x3F800000#32),
    nullary main_cst_31 (constant S_ .f32 0xBF800000#32),
    TRef.unary (.of main_cst_30 : TRef sig ⟨S_, .f32⟩) main_call9.v0 (broadcastInDim S32768x256 ![] bcast_S_S32768x256),
    TRef.unary (.of main_cst_31 : TRef sig ⟨S_, .f32⟩) main_call9.v1 (broadcastInDim S32768x256 ![] bcast_S_S32768x256),
    TRef.ternary (.of main_v90 : TRef sig ⟨S32768x256, .i1⟩) main_call9.v0 main_call9.v1 main_call9.v2 select,
    unary main_v91 main_v92 (id : (⟨S32768x256, .f32⟩ : BufTy).Contents (Elt F) → (⟨S32768x256, .f32⟩ : BufTy).Contents (Elt F)),
    nullary main_cst_32 (constant S_ .f32 0x00000000#32),
    unary main_cst_32 main_v93 (broadcastInDim S256x256 ![] bcast_S_S256x256 : (⟨S_, .f32⟩ : BufTy).Contents (Elt F) → (⟨S256x256, .f32⟩ : BufTy).Contents (Elt F)),
    binary main_arg4 main_v93 main_v94 (cmpf .oge : (⟨S256x256, .f32⟩ : BufTy).Contents (Elt F) → (⟨S256x256, .f32⟩ : BufTy).Contents (Elt F) → (⟨S256x256, .i1⟩ : BufTy).Contents (Elt F)),
    nullary main_cst_33 (constant S_ .f32 0x3F800000#32),
    nullary main_cst_34 (constant S_ .f32 0xBF800000#32),
    TRef.unary (.of main_cst_33 : TRef sig ⟨S_, .f32⟩) main_call10.v0 (broadcastInDim S256x256 ![] bcast_S_S256x256),
    TRef.unary (.of main_cst_34 : TRef sig ⟨S_, .f32⟩) main_call10.v1 (broadcastInDim S256x256 ![] bcast_S_S256x256),
    TRef.ternary (.of main_v94 : TRef sig ⟨S256x256, .i1⟩) main_call10.v0 main_call10.v1 main_call10.v2 select,
    unary main_v95 main_v96 (id : (⟨S256x256, .f32⟩ : BufTy).Contents (Elt F) → (⟨S256x256, .f32⟩ : BufTy).Contents (Elt F)),
    unary main_v96 main_v97 ((transpose S256x256 [1, 0] · transposes_S256x256_S256x256_1_0) : (⟨S256x256, .f32⟩ : BufTy).Contents (Elt F) → (⟨S256x256, .f32⟩ : BufTy).Contents (Elt F)),
    binary main_v92 main_v97 main_v98 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    nullary main_cst_35 (constant S_ .f32 0x00000000#32),
    binary main_v98 main_cst_35 main_v99 ((fun x v => Host.reduceAdd x v reducesTo_S32768x256_S256_d0 h_S_) : (⟨S32768x256, .f32⟩ : BufTy).Contents (Elt F) → (⟨S_, .f32⟩ : BufTy).Contents (Elt F) → (⟨S256, .f32⟩ : BufTy).Contents (Elt F)),
    nullary main_cst_36 (constant S_ .f32 0x47000000#32),
    unary main_cst_36 main_v100 (broadcastInDim S256 ![] bcast_S_S256 : (⟨S_, .f32⟩ : BufTy).Contents (Elt F) → (⟨S256, .f32⟩ : BufTy).Contents (Elt F)),
    binary main_v99 main_v100 main_v101 (Host.divf : (⟨S256, .f32⟩ : BufTy).Contents (Elt F) → (⟨S256, .f32⟩ : BufTy).Contents (Elt F) → (⟨S256, .f32⟩ : BufTy).Contents (Elt F)),
    nullary main_c_37 (constantI S_ 32 0#32),
    TRef.nullary main_call11.cst (constant S_ .f32 0x00000000#32),
    TRef.binary (.of main_v98 : TRef sig ⟨S32768x256, .f32⟩) main_call11.cst main_call11.v0 (fun x v => Host.reduceAdd x v reducesTo_S32768x256_S256_d0 h_S_),
    TRef.unary main_call11.v0 main_call11.v1 (broadcastInDim S1x256 ![1] bcast_S256_S1x256_1),
    TRef.nullary main_call11.cst_0 (constant S_ .f32 0x47000000#32),
    TRef.unary main_call11.cst_0 main_call11.v2 (broadcastInDim S1x256 ![] bcast_S_S1x256),
    TRef.binary main_call11.v1 main_call11.v2 main_call11.v3 Host.divf,
    TRef.unary main_call11.v3 main_call11.v4 (broadcastInDim S32768x256 ![0, 1] bcast_S1x256_S32768x256_0_1),
    TRef.binary (.of main_v98 : TRef sig ⟨S32768x256, .f32⟩) main_call11.v4 main_call11.v5 subf,
    TRef.binary main_call11.v5 main_call11.v5 main_call11.v6 mulf,
    TRef.unary (.of main_c_37 : TRef sig ⟨S_, .i32⟩) main_call11.v7 (sitofp .f32),
    TRef.nullary main_call11.cst_1 (constant S_ .f32 0x47000000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S32768x256_S256_d0 h_S_),
    TRef.unary main_call11.v8 main_call11.v10 (broadcastInDim S256 ![] bcast_S_S256),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S256 ![] bcast_S_S256),
    TRef.ternary main_call11.v12 main_call11.v11 main_call11.call0.v1 main_call11.call0.v2 (fun p a b => select (broadcastInDim S256 ![] bcast_S_S256 p) a b),
    unary main_v101 main_v103 (broadcastInDim S1x256 ![1] bcast_S256_S1x256_1 : (⟨S256, .f32⟩ : BufTy).Contents (Elt F) → (⟨S1x256, .f32⟩ : BufTy).Contents (Elt F)),
    unary main_v103 main_v104 (broadcastInDim S32768x256 ![0, 1] bcast_S1x256_S32768x256_0_1 : (⟨S1x256, .f32⟩ : BufTy).Contents (Elt F) → (⟨S32768x256, .f32⟩ : BufTy).Contents (Elt F)),
    binary main_v98 main_v104 main_v105 (subf : (⟨S32768x256, .f32⟩ : BufTy).Contents (Elt F) → (⟨S32768x256, .f32⟩ : BufTy).Contents (Elt F) → (⟨S32768x256, .f32⟩ : BufTy).Contents (Elt F)),
    unary main_arg9 main_v106 (broadcastInDim S1x256 ![1] bcast_S256_S1x256_1 : (⟨S256, .f32⟩ : BufTy).Contents (Elt F) → (⟨S1x256, .f32⟩ : BufTy).Contents (Elt F)),
    unary main_v106 main_v107 (broadcastInDim S32768x256 ![0, 1] bcast_S1x256_S32768x256_0_1 : (⟨S1x256, .f32⟩ : BufTy).Contents (Elt F) → (⟨S32768x256, .f32⟩ : BufTy).Contents (Elt F)),
    binary main_v107 main_v105 main_v108 (mulf : (⟨S32768x256, .f32⟩ : BufTy).Contents (Elt F) → (⟨S32768x256, .f32⟩ : BufTy).Contents (Elt F) → (⟨S32768x256, .f32⟩ : BufTy).Contents (Elt F)),
    nullary main_cst_38 (constant S_ .f32 0x3727C5AC#32),
    unary main_cst_38 main_v109 (broadcastInDim S256 ![] bcast_S_S256 : (⟨S_, .f32⟩ : BufTy).Contents (Elt F) → (⟨S256, .f32⟩ : BufTy).Contents (Elt F)),
    binary main_v102 main_v109 main_v110 (addf : (⟨S256, .f32⟩ : BufTy).Contents (Elt F) → (⟨S256, .f32⟩ : BufTy).Contents (Elt F) → (⟨S256, .f32⟩ : BufTy).Contents (Elt F)),
    unary main_v110 main_v111 (Host.rsqrt : (⟨S256, .f32⟩ : BufTy).Contents (Elt F) → (⟨S256, .f32⟩ : BufTy).Contents (Elt F)),
    unary main_v111 main_v112 (broadcastInDim S1x256 ![1] bcast_S256_S1x256_1 : (⟨S256, .f32⟩ : BufTy).Contents (Elt F) → (⟨S1x256, .f32⟩ : BufTy).Contents (Elt F)),
    unary main_v112 main_v113 (broadcastInDim S32768x256 ![0, 1] bcast_S1x256_S32768x256_0_1 : (⟨S1x256, .f32⟩ : BufTy).Contents (Elt F) → (⟨S32768x256, .f32⟩ : BufTy).Contents (Elt F)),
    binary main_v108 main_v113 main_v114 (mulf : (⟨S32768x256, .f32⟩ : BufTy).Contents (Elt F) → (⟨S32768x256, .f32⟩ : BufTy).Contents (Elt F) → (⟨S32768x256, .f32⟩ : BufTy).Contents (Elt F)),
    unary main_arg14 main_v115 (broadcastInDim S1x256 ![1] bcast_S256_S1x256_1 : (⟨S256, .f32⟩ : BufTy).Contents (Elt F) → (⟨S1x256, .f32⟩ : BufTy).Contents (Elt F)),
    unary main_v115 main_v116 (broadcastInDim S32768x256 ![0, 1] bcast_S1x256_S32768x256_0_1 : (⟨S1x256, .f32⟩ : BufTy).Contents (Elt F) → (⟨S32768x256, .f32⟩ : BufTy).Contents (Elt F)),
    binary main_v114 main_v116 main_v117 (addf : (⟨S32768x256, .f32⟩ : BufTy).Contents (Elt F) → (⟨S32768x256, .f32⟩ : BufTy).Contents (Elt F) → (⟨S32768x256, .f32⟩ : BufTy).Contents (Elt F)),
    nullary main_cst_39 (constant S_ .f32 0x00000000#32),
    unary main_cst_39 main_v118 (broadcastInDim S32768x256 ![] bcast_S_S32768x256 : (⟨S_, .f32⟩ : BufTy).Contents (Elt F) → (⟨S32768x256, .f32⟩ : BufTy).Contents (Elt F)),
    binary main_v117 main_v118 main_v119 (cmpf .oge : (⟨S32768x256, .f32⟩ : BufTy).Contents (Elt F) → (⟨S32768x256, .f32⟩ : BufTy).Contents (Elt F) → (⟨S32768x256, .i1⟩ : BufTy).Contents (Elt F)),
    nullary main_cst_40 (constant S_ .f32 0x3F800000#32),
    nullary main_cst_41 (constant S_ .f32 0xBF800000#32),
    TRef.unary (.of main_cst_40 : TRef sig ⟨S_, .f32⟩) main_call12.v0 (broadcastInDim S32768x256 ![] bcast_S_S32768x256),
    TRef.unary (.of main_cst_41 : TRef sig ⟨S_, .f32⟩) main_call12.v1 (broadcastInDim S32768x256 ![] bcast_S_S32768x256),
    TRef.ternary (.of main_v119 : TRef sig ⟨S32768x256, .i1⟩) main_call12.v0 main_call12.v1 main_call12.v2 select,
    unary main_v120 main_v121 (id : (⟨S32768x256, .f32⟩ : BufTy).Contents (Elt F) → (⟨S32768x256, .f32⟩ : BufTy).Contents (Elt F)),
    nullary main_cst_42 (constant S_ .f32 0x00000000#32),
    unary main_cst_42 main_v122 (broadcastInDim S10x256 ![] bcast_S_S10x256 : (⟨S_, .f32⟩ : BufTy).Contents (Elt F) → (⟨S10x256, .f32⟩ : BufTy).Contents (Elt F)),
    binary main_arg5 main_v122 main_v123 (cmpf .oge : (⟨S10x256, .f32⟩ : BufTy).Contents (Elt F) → (⟨S10x256, .f32⟩ : BufTy).Contents (Elt F) → (⟨S10x256, .i1⟩ : BufTy).Contents (Elt F)),
    nullary main_cst_43 (constant S_ .f32 0x3F800000#32),
    nullary main_cst_44 (constant S_ .f32 0xBF800000#32),
    TRef.unary (.of main_cst_43 : TRef sig ⟨S_, .f32⟩) main_call13.v0 (broadcastInDim S10x256 ![] bcast_S_S10x256),
    TRef.unary (.of main_cst_44 : TRef sig ⟨S_, .f32⟩) main_call13.v1 (broadcastInDim S10x256 ![] bcast_S_S10x256),
    TRef.ternary (.of main_v123 : TRef sig ⟨S10x256, .i1⟩) main_call13.v0 main_call13.v1 main_call13.v2 select,
    unary main_v124 main_v125 (id : (⟨S10x256, .f32⟩ : BufTy).Contents (Elt F) → (⟨S10x256, .f32⟩ : BufTy).Contents (Elt F)),
    unary main_v125 main_v126 ((transpose S256x10 [1, 0] · transposes_S10x256_S256x10_1_0) : (⟨S10x256, .f32⟩ : BufTy).Contents (Elt F) → (⟨S256x10, .f32⟩ : BufTy).Contents (Elt F)),
    binary main_v121 main_v126 main_v127 ((fun l r => Host.dotGeneral dot_S32768x256_S256x10_S32768x10_1_0_0_1_n_n none l r) : (⟨S32768x256, .f32⟩ : BufTy).Contents (Elt F) → (⟨S256x10, .f32⟩ : BufTy).Contents (Elt F) → (⟨S32768x10, .f32⟩ : BufTy).Contents (Elt F)),
    nullary main_cst_45 (constant S_ .f32 0x00000000#32),
    binary main_v127 main_cst_45 main_v128 ((fun x v => Host.reduceAdd x v reducesTo_S32768x10_S10_d0 h_S_) : (⟨S32768x10, .f32⟩ : BufTy).Contents (Elt F) → (⟨S_, .f32⟩ : BufTy).Contents (Elt F) → (⟨S10, .f32⟩ : BufTy).Contents (Elt F)),
    nullary main_cst_46 (constant S_ .f32 0x47000000#32),
    unary main_cst_46 main_v129 (broadcastInDim S10 ![] bcast_S_S10 : (⟨S_, .f32⟩ : BufTy).Contents (Elt F) → (⟨S10, .f32⟩ : BufTy).Contents (Elt F)),
    binary main_v128 main_v129 main_v130 (Host.divf : (⟨S10, .f32⟩ : BufTy).Contents (Elt F) → (⟨S10, .f32⟩ : BufTy).Contents (Elt F) → (⟨S10, .f32⟩ : BufTy).Contents (Elt F)) ]

set_option maxRecDepth 8192 in
/-- The window is the straight line of its operations. -/
theorem main_part2_eq (c : Dev nD) : main_part2 (F := F) c = seq ops2 := by
  simp only [main_part2, fn_where_2.body, fn_where_3.body, fn_var.body, fn_where_1.body, fn_where_4.body, seq, bind_assoc, pure_bind] <;> rfl

set_option maxRecDepth 8192 in
/-- Every operation of the window touches TensorCore references only. -/
theorem ops2_sub : (ops2 : List (HloOp τ sig (Elt F))).Forall fun op => op.bufs ⊆ tcRefs τ sig :=
  ⟨nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., nullary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub ..⟩

set_option maxRecDepth 8192 in
/-- Every operation of the window determines its result. -/
theorem ops2_fresh : ∀ op ∈ (ops2 : List (HloOp τ sig (Elt F))), op.fresh = ∅ := by
  intro _ h; (repeat (cases h with | head => rfl | tail _ h => ?_)); exact nomatch h

end Cert.ReferenceIdeal.Hand

end
-- ==== Proof.RefVal2.lean ====
/- What window 2 of the reference's host operations (statements 121 … 180 of @main: the fourth layer and the fifth up to the column means of its matrix product) leaves in the buffers, from ANY contents `V` before it:
   the buffers the window does not write keep their contents (in particular the sixteen arguments), and each buffer a later
   window reads holds the stage functions of RefTerm applied to the contents of the buffers the window reads.
   The fold of the operations' results is unrolled once (each operation's result at its own buffer is its function of its
   operands' contents, at any other buffer what was there); what is left is the stage functions' definitions unfolded. -/
import proofs.«126670_j49074296324140_2_alg».proof.Proof.RefOps2
import proofs.«126670_j49074296324140_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local macro "wr1" : term => `(Finset.singleton_subset_iff.mpr (List.mem_toFinset.mpr (List.mem_map_of_mem (by decide))))

/-- The buffers window 2's operations write, in order. -/
abbrev ops2_W : List (Ref sig .tc) := [main_cst_29, main_v89, main_v90, main_cst_30, main_cst_31, main_call9_v0, main_call9_v1, main_v91, main_v92, main_cst_32, main_v93, main_v94, main_cst_33, main_cst_34, main_call10_v0, main_call10_v1, main_v95, main_v96, main_v97, main_v98, main_cst_35, main_v99, main_cst_36, main_v100, main_v101, main_c_37, main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v102, main_v103, main_v104, main_v105, main_v106, main_v107, main_v108, main_cst_38, main_v109, main_v110, main_v111, main_v112, main_v113, main_v114, main_v115, main_v116, main_v117, main_cst_39, main_v118, main_v119, main_cst_40, main_cst_41, main_call12_v0, main_call12_v1, main_v120, main_v121, main_cst_42, main_v122, main_v123, main_cst_43, main_cst_44, main_call13_v0, main_call13_v1, main_v124, main_v125, main_v126, main_v127, main_cst_45, main_v128, main_cst_46, main_v129, main_v130]

set_option maxRecDepth 8192 in
theorem ops2_writes : (ops2 : List (HloOp τ sig (Elt F))).Forall fun op => op.writes ⊆ (ops2_W.map (Proc.devRef (τ := τ) .tc)).toFinset :=
  ⟨wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1⟩

/-- A buffer the window does not write keeps its contents through it. -/
theorem keep2 (V : Valuation τ sig (Elt F)) (r : Ref sig .tc) (h : r ∉ ops2_W) :
    after ops2 V (Proc.devRef .tc r) = V (Proc.devRef .tc r) :=
  after_of_writes_sub ops2 _ ops2_writes h

set_option maxRecDepth 8192 in
set_option maxHeartbeats 1000000 in
/-- The last layer's matrix product after the window, from the third layer's normalized output. -/
theorem w2_hid4 (V : Valuation τ sig (Elt F)) :
    after ops2 V (Proc.devRef .tc main_v127) = (lin10 (norm256 (lin256 (V (Proc.devRef .tc main_v88)) (V (Proc.devRef .tc main_arg4))) (V (Proc.devRef .tc main_arg9)) (V (Proc.devRef .tc main_arg14))) (V (Proc.devRef .tc main_arg5))) := by
  simp only [ops2]
  after_results_simp
  rfl

set_option maxRecDepth 8192 in
set_option maxHeartbeats 1000000 in
/-- Its column means after the window. -/
theorem w2_mean4 (V : Valuation τ sig (Elt F)) :
    after ops2 V (Proc.devRef .tc main_v130) = mean10 (sum10 (lin10 (norm256 (lin256 (V (Proc.devRef .tc main_v88)) (V (Proc.devRef .tc main_arg4))) (V (Proc.devRef .tc main_arg9)) (V (Proc.devRef .tc main_arg14))) (V (Proc.devRef .tc main_arg5)))) := by
  simp only [ops2]
  after_results_simp
  rfl

end Cert.ReferenceIdeal.Hand

end
-- ==== Proof.RefOps3.lean ====
/- The reference program's host operations, window 3 (statements 181 … 213 of @main: the fifth layer's variance and normalization, and the row softmax), as a LIST in program
   order. A call of an outlined function (the selection `where`, the variance `var`, and the selection the
   variance itself calls) is replaced by the callee's operations over that call's own buffers, which is what
   executing the call means. The window is then the straight line `seq` of the list: both sides are one chain
   of `hlo` steps once the callees' definitions are unfolded and sequencing is reassociated. Every operation
   touches TensorCore references only and determines its result (none allocates). -/
import proofs.«126670_j49074296324140_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 3's 53 operations, in order, the calls unfolded. -/
abbrev ops3 : List (HloOp τ sig (Elt F)) :=
  [ nullary main_c_47 (constantI S_ 32 0#32),
    TRef.nullary main_call14.cst (constant S_ .f32 0x00000000#32),
    TRef.binary (.of main_v127 : TRef sig ⟨S32768x10, .f32⟩) main_call14.cst main_call14.v0 (fun x v => Host.reduceAdd x v reducesTo_S32768x10_S10_d0 h_S_),
    TRef.unary main_call14.v0 main_call14.v1 (broadcastInDim S1x10 ![1] bcast_S10_S1x10_1),
    TRef.nullary main_call14.cst_0 (constant S_ .f32 0x47000000#32),
    TRef.unary main_call14.cst_0 main_call14.v2 (broadcastInDim S1x10 ![] bcast_S_S1x10),
    TRef.binary main_call14.v1 main_call14.v2 main_call14.v3 Host.divf,
    TRef.unary main_call14.v3 main_call14.v4 (broadcastInDim S32768x10 ![0, 1] bcast_S1x10_S32768x10_0_1),
    TRef.binary (.of main_v127 : TRef sig ⟨S32768x10, .f32⟩) main_call14.v4 main_call14.v5 subf,
    TRef.binary main_call14.v5 main_call14.v5 main_call14.v6 mulf,
    TRef.unary (.of main_c_47 : TRef sig ⟨S_, .i32⟩) main_call14.v7 (sitofp .f32),
    TRef.nullary main_call14.cst_1 (constant S_ .f32 0x47000000#32),
    TRef.binary main_call14.cst_1 main_call14.v7 main_call14.v8 subf,
    TRef.nullary main_call14.cst_2 (constant S_ .f32 0x00000000#32),
    TRef.binary main_call14.v6 main_call14.cst_2 main_call14.v9 (fun x v => Host.reduceAdd x v reducesTo_S32768x10_S10_d0 h_S_),
    TRef.unary main_call14.v8 main_call14.v10 (broadcastInDim S10 ![] bcast_S_S10),
    TRef.binary main_call14.v9 main_call14.v10 main_call14.v11 Host.divf,
    TRef.nullary main_call14.cst_3 (constant S_ .f32 0x00000000#32),
    TRef.binary main_call14.v8 main_call14.cst_3 main_call14.v12 (cmpf .ogt),
    TRef.nullary main_call14.cst_4 (constant S_ .f32 0x7FC00000#32),
    TRef.unary main_call14.cst_4 main_call14.call0.v0 id,
    TRef.unary main_call14.call0.v0 main_call14.call0.v1 (broadcastInDim S10 ![] bcast_S_S10),
    TRef.ternary main_call14.v12 main_call14.v11 main_call14.call0.v1 main_call14.call0.v2 (fun p a b => select (broadcastInDim S10 ![] bcast_S_S10 p) a b),
    unary main_v130 main_v132 (broadcastInDim S1x10 ![1] bcast_S10_S1x10_1 : (⟨S10, .f32⟩ : BufTy).Contents (Elt F) → (⟨S1x10, .f32⟩ : BufTy).Contents (Elt F)),
    unary main_v132 main_v133 (broadcastInDim S32768x10 ![0, 1] bcast_S1x10_S32768x10_0_1 : (⟨S1x10, .f32⟩ : BufTy).Contents (Elt F) → (⟨S32768x10, .f32⟩ : BufTy).Contents (Elt F)),
    binary main_v127 main_v133 main_v134 (subf : (⟨S32768x10, .f32⟩ : BufTy).Contents (Elt F) → (⟨S32768x10, .f32⟩ : BufTy).Contents (Elt F) → (⟨S32768x10, .f32⟩ : BufTy).Contents (Elt F)),
    unary main_arg10 main_v135 (broadcastInDim S1x10 ![1] bcast_S10_S1x10_1 : (⟨S10, .f32⟩ : BufTy).Contents (Elt F) → (⟨S1x10, .f32⟩ : BufTy).Contents (Elt F)),
    unary main_v135 main_v136 (broadcastInDim S32768x10 ![0, 1] bcast_S1x10_S32768x10_0_1 : (⟨S1x10, .f32⟩ : BufTy).Contents (Elt F) → (⟨S32768x10, .f32⟩ : BufTy).Contents (Elt F)),
    binary main_v136 main_v134 main_v137 (mulf : (⟨S32768x10, .f32⟩ : BufTy).Contents (Elt F) → (⟨S32768x10, .f32⟩ : BufTy).Contents (Elt F) → (⟨S32768x10, .f32⟩ : BufTy).Contents (Elt F)),
    nullary main_cst_48 (constant S_ .f32 0x3727C5AC#32),
    unary main_cst_48 main_v138 (broadcastInDim S10 ![] bcast_S_S10 : (⟨S_, .f32⟩ : BufTy).Contents (Elt F) → (⟨S10, .f32⟩ : BufTy).Contents (Elt F)),
    binary main_v131 main_v138 main_v139 (addf : (⟨S10, .f32⟩ : BufTy).Contents (Elt F) → (⟨S10, .f32⟩ : BufTy).Contents (Elt F) → (⟨S10, .f32⟩ : BufTy).Contents (Elt F)),
    unary main_v139 main_v140 (Host.rsqrt : (⟨S10, .f32⟩ : BufTy).Contents (Elt F) → (⟨S10, .f32⟩ : BufTy).Contents (Elt F)),
    unary main_v140 main_v141 (broadcastInDim S1x10 ![1] bcast_S10_S1x10_1 : (⟨S10, .f32⟩ : BufTy).Contents (Elt F) → (⟨S1x10, .f32⟩ : BufTy).Contents (Elt F)),
    unary main_v141 main_v142 (broadcastInDim S32768x10 ![0, 1] bcast_S1x10_S32768x10_0_1 : (⟨S1x10, .f32⟩ : BufTy).Contents (Elt F) → (⟨S32768x10, .f32⟩ : BufTy).Contents (Elt F)),
    binary main_v137 main_v142 main_v143 (mulf : (⟨S32768x10, .f32⟩ : BufTy).Contents (Elt F) → (⟨S32768x10, .f32⟩ : BufTy).Contents (Elt F) → (⟨S32768x10, .f32⟩ : BufTy).Contents (Elt F)),
    unary main_arg15 main_v144 (broadcastInDim S1x10 ![1] bcast_S10_S1x10_1 : (⟨S10, .f32⟩ : BufTy).Contents (Elt F) → (⟨S1x10, .f32⟩ : BufTy).Contents (Elt F)),
    unary main_v144 main_v145 (broadcastInDim S32768x10 ![0, 1] bcast_S1x10_S32768x10_0_1 : (⟨S1x10, .f32⟩ : BufTy).Contents (Elt F) → (⟨S32768x10, .f32⟩ : BufTy).Contents (Elt F)),
    binary main_v143 main_v145 main_v146 (addf : (⟨S32768x10, .f32⟩ : BufTy).Contents (Elt F) → (⟨S32768x10, .f32⟩ : BufTy).Contents (Elt F) → (⟨S32768x10, .f32⟩ : BufTy).Contents (Elt F)),
    nullary main_cst_49 (constant S_ .f32 0xFF800000#32),
    binary main_v146 main_cst_49 main_v147 ((fun x v => Host.reduce FloatOps.maximumf x v reducesTo_S32768x10_S32768_d1 h_S_) : (⟨S32768x10, .f32⟩ : BufTy).Contents (Elt F) → (⟨S_, .f32⟩ : BufTy).Contents (Elt F) → (⟨S32768, .f32⟩ : BufTy).Contents (Elt F)),
    nullary main_cst_50 (constant S_ .f32 0xFF800000#32),
    unary main_cst_50 main_v148 (broadcastInDim S32768 ![] bcast_S_S32768 : (⟨S_, .f32⟩ : BufTy).Contents (Elt F) → (⟨S32768, .f32⟩ : BufTy).Contents (Elt F)),
    binary main_v148 main_v147 main_v149 (maximumf : (⟨S32768, .f32⟩ : BufTy).Contents (Elt F) → (⟨S32768, .f32⟩ : BufTy).Contents (Elt F) → (⟨S32768, .f32⟩ : BufTy).Contents (Elt F)),
    unary main_v149 main_v150 (broadcastInDim S32768x1 ![0] bcast_S32768_S32768x1_0 : (⟨S32768, .f32⟩ : BufTy).Contents (Elt F) → (⟨S32768x1, .f32⟩ : BufTy).Contents (Elt F)),
    unary main_v150 main_v151 (broadcastInDim S32768x10 ![0, 1] bcast_S32768x1_S32768x10_0_1 : (⟨S32768x1, .f32⟩ : BufTy).Contents (Elt F) → (⟨S32768x10, .f32⟩ : BufTy).Contents (Elt F)),
    binary main_v146 main_v151 main_v152 (subf : (⟨S32768x10, .f32⟩ : BufTy).Contents (Elt F) → (⟨S32768x10, .f32⟩ : BufTy).Contents (Elt F) → (⟨S32768x10, .f32⟩ : BufTy).Contents (Elt F)),
    unary main_v152 main_v153 (Host.exp : (⟨S32768x10, .f32⟩ : BufTy).Contents (Elt F) → (⟨S32768x10, .f32⟩ : BufTy).Contents (Elt F)),
    nullary main_cst_51 (constant S_ .f32 0x00000000#32),
    binary main_v153 main_cst_51 main_v154 ((fun x v => Host.reduceAdd x v reducesTo_S32768x10_S32768_d1 h_S_) : (⟨S32768x10, .f32⟩ : BufTy).Contents (Elt F) → (⟨S_, .f32⟩ : BufTy).Contents (Elt F) → (⟨S32768, .f32⟩ : BufTy).Contents (Elt F)),
    unary main_v154 main_v155 (broadcastInDim S32768x1 ![0] bcast_S32768_S32768x1_0 : (⟨S32768, .f32⟩ : BufTy).Contents (Elt F) → (⟨S32768x1, .f32⟩ : BufTy).Contents (Elt F)),
    unary main_v155 main_v156 (broadcastInDim S32768x10 ![0, 1] bcast_S32768x1_S32768x10_0_1 : (⟨S32768x1, .f32⟩ : BufTy).Contents (Elt F) → (⟨S32768x10, .f32⟩ : BufTy).Contents (Elt F)),
    binary main_v153 main_v156 main_v157 (Host.divf : (⟨S32768x10, .f32⟩ : BufTy).Contents (Elt F) → (⟨S32768x10, .f32⟩ : BufTy).Contents (Elt F) → (⟨S32768x10, .f32⟩ : BufTy).Contents (Elt F)) ]

set_option maxRecDepth 8192 in
/-- The window is the straight line of its operations. -/
theorem main_part3_eq (c : Dev nD) : main_part3 (F := F) c = seq ops3 := by
  simp only [main_part3, fn_var_5.body, fn_where_6.body, seq, bind_assoc, pure_bind] <;> rfl

set_option maxRecDepth 8192 in
/-- Every operation of the window touches TensorCore references only. -/
theorem ops3_sub : (ops3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
/-- Every operation of the window determines its result. -/
theorem ops3_fresh : ∀ op ∈ (ops3 : List (HloOp τ sig (Elt F))), op.fresh = ∅ := by
  intro _ h; (repeat (cases h with | head => rfl | tail _ h => ?_)); exact nomatch h

end Cert.ReferenceIdeal.Hand

end
-- ==== Proof.RefVal3.lean ====
/- What window 3 of the reference's host operations (statements 181 … 213 of @main: the fifth layer's variance and normalization, and the row softmax) leaves in the buffers, from ANY contents `V` before it:
   the buffers the window does not write keep their contents (in particular the sixteen arguments), and each buffer a later
   window reads holds the stage functions of RefTerm applied to the contents of the buffers the window reads.
   The fold of the operations' results is unrolled once (each operation's result at its own buffer is its function of its
   operands' contents, at any other buffer what was there); what is left is the stage functions' definitions unfolded. -/
import proofs.«126670_j49074296324140_2_alg».proof.Proof.RefOps3
import proofs.«126670_j49074296324140_2_alg».proof.Proof.RefTerm

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

local macro "wr1" : term => `(Finset.singleton_subset_iff.mpr (List.mem_toFinset.mpr (List.mem_map_of_mem (by decide))))

/-- The buffers window 3's operations write, in order. -/
abbrev ops3_W : List (Ref sig .tc) := [main_c_47, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v131, main_v132, main_v133, main_v134, main_v135, main_v136, main_v137, main_cst_48, main_v138, main_v139, main_v140, main_v141, main_v142, main_v143, main_v144, main_v145, main_v146, main_cst_49, main_v147, main_cst_50, main_v148, main_v149, main_v150, main_v151, main_v152, main_v153, main_cst_51, main_v154, main_v155, main_v156, main_v157]

set_option maxRecDepth 8192 in
theorem ops3_writes : (ops3 : List (HloOp τ sig (Elt F))).Forall fun op => op.writes ⊆ (ops3_W.map (Proc.devRef (τ := τ) .tc)).toFinset :=
  ⟨wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1, wr1⟩

/-- A buffer the window does not write keeps its contents through it. -/
theorem keep3 (V : Valuation τ sig (Elt F)) (r : Ref sig .tc) (h : r ∉ ops3_W) :
    after ops3 V (Proc.devRef .tc r) = V (Proc.devRef .tc r) :=
  after_of_writes_sub ops3 _ ops3_writes h

set_option maxRecDepth 8192 in
set_option maxHeartbeats 1000000 in
/-- The result buffer after the window: the row softmax of the last layer's normalization, from the last matrix product and its column means. -/
theorem w3_out (V : Valuation τ sig (Elt F)) :
    after ops3 V (Proc.devRef .tc main_v157) = softmax10 (normM10 (V (Proc.devRef .tc main_v127)) (V (Proc.devRef .tc main_v130)) (V (Proc.devRef .tc main_arg10)) (V (Proc.devRef .tc main_arg15))) := by
  simp only [ops3]
  after_results_simp
  rfl

end Cert.ReferenceIdeal.Hand

end
-- ==== Proof.RefRun.lean ====
/- The reference program's run, assembled from its four windows.
   @main is the straight line of the four windows' operation lists appended (each window is the line of its own list, and
   running two lines one after the other is running their concatenation). The signature scopes no buffer and no semaphore,
   every operation touches TensorCore references only and determines its result, so from any memory with zero counters
   every weakly fair execution terminates with every buffer at the fold of the operations' results over the launch contents.
   That fold at the result buffer is read window by window, last window first: the softmax of the last normalization, of the
   last product and its means, which the third window leaves from the third layer's output, which the second leaves from
   the second layer's product and sums, which the first leaves from the arguments — and a normalization at given means,
   given the columns' own means, is the normalization. The sixteen arguments are written by no operation and keep their
   launch contents. So the result buffer ends at `net` of the sixteen argument buffers (`refTerm`), the arguments unchanged. -/
import proofs.«126670_j49074296324140_2_alg».proof.Proof.RefVal0
import proofs.«126670_j49074296324140_2_alg».proof.Proof.RefVal1
import proofs.«126670_j49074296324140_2_alg».proof.Proof.RefVal2
import proofs.«126670_j49074296324140_2_alg».proof.Proof.RefVal3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 337 operations, in order: the four windows' lists appended. -/
abbrev ops : List (HloOp τ sig (Elt F)) :=
  ops0 ++ (ops1 ++ (ops2 ++ ops3))

set_option maxRecDepth 8192 in
/-- @main is the straight line of its operations. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- Every operation determines its result. -/
theorem ops_fresh : ∀ op ∈ (ops : List (HloOp τ sig (Elt F))), op.fresh = ∅ := fun op h => by
  simp only [ops, List.mem_append] at h
  rcases h with h | h | h | h
  exacts [ops0_fresh op h, ops1_fresh op h, ops2_fresh op h, ops3_fresh op h]

/-- The fold over two lists in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold over @main's operations, window by window. -/
theorem after_ops (V : Valuation τ sig (Elt F)) :
    after ops V = after ops3 (after ops2 (after ops1 (after ops0 V))) := by
  rw [show (ops : List (HloOp τ sig (Elt F))) = ops0 ++ (ops1 ++ (ops2 ++ ops3)) from rfl, after_app, after_app, after_app]

/-- A buffer no window writes keeps its contents through @main. -/
theorem after_ops_keep (V : Valuation τ sig (Elt F)) (r : Ref sig .tc) (h0 : r ∉ ops0_W) (h1 : r ∉ ops1_W) (h2 : r ∉ ops2_W)
    (h3 : r ∉ ops3_W) : after ops V (Proc.devRef .tc r) = V (Proc.devRef .tc r) := by
  rw [after_ops, keep3 _ r h3, keep2 _ r h2, keep1 _ r h1, keep0 _ r h0]

set_option maxHeartbeats 1000000 in
/-- The result buffer after @main: the network of the sixteen argument buffers' contents. -/
theorem after_ops_out (V : Valuation τ sig (Elt F)) :
    after ops V (Proc.devRef .tc main_v157)
      = net (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [after_ops, w3_out, w2_hid4, w2_mean4, keep2 _ main_arg10 (by decide), keep2 _ main_arg15 (by decide),
    w1_out2, keep1 _ main_arg4 (by decide), keep1 _ main_arg9 (by decide), keep1 _ main_arg14 (by decide), keep1 _ main_arg5 (by decide), keep1 _ main_arg10 (by decide), keep1 _ main_arg15 (by decide),
    w0_hid1, w0_sum1, keep0 _ main_arg7 (by decide), keep0 _ main_arg12 (by decide), keep0 _ main_arg3 (by decide), keep0 _ main_arg8 (by decide), keep0 _ main_arg13 (by decide), keep0 _ main_arg4 (by decide), keep0 _ main_arg9 (by decide), keep0 _ main_arg14 (by decide), keep0 _ main_arg5 (by decide), keep0 _ main_arg10 (by decide), keep0 _ main_arg15 (by decide)]
  rfl

/-- On every device, for any float values, from any memory with zero counters: every weakly fair execution of @main
    terminates with the result buffer at the network of the sixteen argument buffers and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = refTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v157).trans (after_ops_out (launchContents m c)),
      (h c main_arg0).trans (after_ops_keep _ main_arg0 (by decide) (by decide) (by decide) (by decide)),
      (h c main_arg1).trans (after_ops_keep _ main_arg1 (by decide) (by decide) (by decide) (by decide)),
      (h c main_arg2).trans (after_ops_keep _ main_arg2 (by decide) (by decide) (by decide) (by decide)),
      (h c main_arg3).trans (after_ops_keep _ main_arg3 (by decide) (by decide) (by decide) (by decide)),
      (h c main_arg4).trans (after_ops_keep _ main_arg4 (by decide) (by decide) (by decide) (by decide)),
      (h c main_arg5).trans (after_ops_keep _ main_arg5 (by decide) (by decide) (by decide) (by decide)),
      (h c main_arg6).trans (after_ops_keep _ main_arg6 (by decide) (by decide) (by decide) (by decide)),
      (h c main_arg7).trans (after_ops_keep _ main_arg7 (by decide) (by decide) (by decide) (by decide)),
      (h c main_arg8).trans (after_ops_keep _ main_arg8 (by decide) (by decide) (by decide) (by decide)),
      (h c main_arg9).trans (after_ops_keep _ main_arg9 (by decide) (by decide) (by decide) (by decide)),
      (h c main_arg10).trans (after_ops_keep _ main_arg10 (by decide) (by decide) (by decide) (by decide)),
      (h c main_arg11).trans (after_ops_keep _ main_arg11 (by decide) (by decide) (by decide) (by decide)),
      (h c main_arg12).trans (after_ops_keep _ main_arg12 (by decide) (by decide) (by decide) (by decide)),
      (h c main_arg13).trans (after_ops_keep _ main_arg13 (by decide) (by decide) (by decide) (by decide)),
      (h c main_arg14).trans (after_ops_keep _ main_arg14 (by decide) (by decide) (by decide) (by decide)),
      (h c main_arg15).trans (after_ops_keep _ main_arg15 (by decide) (by decide) (by decide) (by decide))⟩)
    (run_seq scopedRefs_eq scopedSems_eq defs main (fun _ => ops) main_eq (fun _ => ops_sub) m ρ (fun _ => ops_fresh))

end Cert.ReferenceIdeal.Hand

end
-- ==== Proof.RefFrame.lean ====
/- The reference's frame claim: from any memory with zero counters (the precondition on the inputs is not needed) every
   weakly fair execution of @main terminates, nothing faulting, and the sixteen argument buffers end at their launch
   contents. It is the run with its first conjunct, the result buffer's value, dropped. -/
import proofs.«126670_j49074296324140_2_alg».proof.Defs
import proofs.«126670_j49074296324140_2_alg».proof.Proof.Gen.Pre_finite_inputs
import proofs.«126670_j49074296324140_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference runs and its argument arrays end unchanged. -/
theorem frame_ri : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2) (run (F := Ideal) m ρ)

end Cert.ReferenceIdeal.Hand

end
-- ==== Proof.RefSpec.lean ====
/- The binarized five-layer network, stated index by index at the ideal values (extended reals), as ONE function of its
   sixteen argument arrays. No program is imported: arrays are functions on the indices of literal shapes, an index is
   built from its coordinates, and the float literals are the words the program writes, decoded but never evaluated.
   * `sgn t` = 1 if t ≥ 0, else −1.
   * `prod a w` at (i, j) = Σ_l sgn(a(i,l)) · sgn(w(j,l)): the product of the binarized activations with the binarized
     weight, the weight's rows indexing the output columns.
   * `mean h` at j = (Σ_i h(i,j)) / N and `var h` at j = (Σ_i (h(i,j) − mean h j)²) / N, N the row count's word
     (the variance's correction is zero: its guard "N − 0 > 0" holds, and N − 0 = N).
   * `norm h g b` at (i, j) = g(j) · (h(i,j) − mean h j) · rsqrt(var h j + ε) + b(j), in that association.
   * `rowMax z` at i = the maximum of −∞ and of the row's entries folded from −∞; `expz z` at (i, j) = exp(z(i,j) − rowMax z i);
     `softmax z` at (i, j) = expz z (i,j) / Σ_l expz z (i,l).
   * `net`: the first product is of the input less one half; each later product is of the previous layer's normalized
     output; the result is the softmax of the fifth normalized output. -/
import Idealize.ShloMosaic.PureOps.Ideal
import Idealize.ShloMosaic.Lib.ValueIdx

noncomputable section

open scoped BigOperators

namespace Cert.ReferenceIdeal.Hand.RefSpec

open Idealize.ShloMosaic Idealize.ShloMosaic.ValueIdx

/-- A matrix and a vector of extended reals over literal extents. -/
abbrev A2 (a b : Nat) : Type := (⟨2, ![a, b]⟩ : Shape).Idx → EReal
abbrev A1 (a : Nat) : Type := (⟨1, ![a]⟩ : Shape).Idx → EReal

/-- A matrix from its entries by coordinates. -/
def arr {a b : Nat} (f : Fin a → Fin b → EReal) : A2 a b := fun q => f (q 0) (q 1)

theorem arr_ix2 {a b : Nat} (f : Fin a → Fin b → EReal) (i : Fin a) (j : Fin b) : arr f (ix2 i j) = f i j := rfl

/-- The program's float literals, as the extended reals their words denote. -/
abbrev wZero : EReal := Ideal.ofBits .f32 0x00000000#32
abbrev wOne : EReal := Ideal.ofBits .f32 0x3F800000#32
abbrev wNegOne : EReal := Ideal.ofBits .f32 0xBF800000#32
abbrev wHalf : EReal := Ideal.ofBits .f32 0x3F000000#32
abbrev wRows : EReal := Ideal.ofBits .f32 0x47000000#32
abbrev wEps : EReal := Ideal.ofBits .f32 0x3727C5AC#32
abbrev wNegInf : EReal := Ideal.ofBits .f32 0xFF800000#32

/-- The binarization: 1 where the entry is at least zero, −1 elsewhere. -/
def sgn (t : EReal) : EReal := Scalar.select (Ideal.cmp .oge t wZero) wOne wNegOne

/-- The product of the binarized activations and the binarized weight. -/
def prod {B I O : Nat} (a : A2 B I) (w : A2 O I) (i : Fin B) (j : Fin O) : EReal :=
  ∑ l : Fin I, sgn (a (ix2 i l)) * sgn (w (ix2 j l))

/-- The column mean. -/
def mean {B O : Nat} (h : A2 B O) (j : Fin O) : EReal :=
  Ideal.div (∑ i : Fin B, h (ix2 i j)) wRows

/-- The column variance. -/
def var {B O : Nat} (h : A2 B O) (j : Fin O) : EReal :=
  Ideal.div (∑ i : Fin B, (h (ix2 i j) - mean h j) * (h (ix2 i j) - mean h j)) wRows

/-- The normalized, scaled and shifted entry. -/
def norm {B O : Nat} (h : A2 B O) (g b : A1 O) (i : Fin B) (j : Fin O) : EReal :=
  g (ix1 j) * (h (ix2 i j) - mean h j) * Ideal.rsqrt (var h j + wEps) + b (ix1 j)

/-- The row maximum, as the program takes it. -/
def rowMax {B O : Nat} (z : A2 B O) (i : Fin B) : EReal :=
  max wNegInf ((Finset.univ : Finset (Fin O)).fold max wNegInf fun l => z (ix2 i l))

/-- The exponential of an entry less its row's maximum. -/
def expz {B O : Nat} (z : A2 B O) (i : Fin B) (j : Fin O) : EReal :=
  Ideal.exp (z (ix2 i j) - rowMax z i)

/-- The row softmax. -/
def softmax {B O : Nat} (z : A2 B O) (i : Fin B) (j : Fin O) : EReal :=
  Ideal.div (expz z i j) (∑ l : Fin O, expz z i l)

/-- The network. -/
def net (x : A2 32768 784) (w0 : A2 256 784) (w1 w2 w3 : A2 256 256) (w4 : A2 10 256)
    (g0 g1 g2 g3 : A1 256) (g4 : A1 10) (b0 b1 b2 b3 : A1 256) (b4 : A1 10) : A2 32768 10 :=
  let h0 : A2 32768 256 := arr (prod (fun p => x p - wHalf) w0)
  let h1 : A2 32768 256 := arr (prod (arr (norm h0 g0 b0)) w1)
  let h2 : A2 32768 256 := arr (prod (arr (norm h1 g1 b1)) w2)
  let h3 : A2 32768 256 := arr (prod (arr (norm h2 g2 b2)) w3)
  let h4 : A2 32768 10 := arr (prod (arr (norm h3 g3 b3)) w4)
  arr (softmax (arr (norm h4 g4 b4)))

end Cert.ReferenceIdeal.Hand.RefSpec

end
-- ==== Proof.GlueSpec.lean ====
/-
  The batch-normalization glue between two matrix-product layers, as functions of arrays, one element at a time.

  A layer hands back two padded statistics arrays of 16 rows: row 0 holds, per output column, the sum over the
  first half of the batch, row 8 the sum over the second half (the other rows repeat them). For a column `j`:

    total pad j   = (0 + pad[0, j]) + pad[8, j]                       (the sum over the whole batch)
    mean          = total sPad / 32768
    var           = total qPad / 32768 - mean * mean                  (E[h²] - E[h]²)
    invstd        = rsqrt (var + 1e-5)
    scale         = g * invstd
    shift         = b - (mean * g) * invstd

  so that `h * scale + shift = (h - mean) * invstd * g + b`, the normalized activation. Every expression is written
  in exactly the association in which it is computed, and the three float literals stay the words they are:
  `0x00000000` (zero), `0x47000000` (32768 = 2¹⁵, the batch size) and `0x3727C5AC` (the f32 nearest 1e-5).
  The quotient is the extended reals' division `Ideal.div`, the inverse square root `Ideal.rsqrt`.

  The column count `n` is a parameter (256 for the hidden layers, 10 for the last); the row extents 16 and 1 are
  literals, and every index is built from its coordinates (`ix1`, `ix2`), so a statement at `n := 256` or
  `n := 10` mentions literal extents only.
-/
import Idealize.ShloMosaic.PureOps.Ideal.Laws
import Idealize.ShloMosaic.Lib.ValueIdx

noncomputable section

namespace Cert.KernelIdeal.Glue.GlueSpec

open Idealize.ShloMosaic Idealize.ShloMosaic.ValueIdx

/-- The zero word, as an extended real. -/
abbrev zeroW : EReal := Ideal.ofBits .f32 0x00000000#32
/-- The batch size 32768 = 2¹⁵, as the f32 word it is written with. -/
abbrev batchW : EReal := Ideal.ofBits .f32 0x47000000#32
/-- The variance offset, the f32 word nearest 1e-5. -/
abbrev epsW : EReal := Ideal.ofBits .f32 0x3727C5AC#32

variable {n : Nat}

/-- The whole-batch sum of column `j`: zero, plus the first half's sum (row 0), plus the second half's (row 8). -/
def total (pad : (⟨2, ![16, n]⟩ : Shape).Idx → EReal) (j : Fin n) : EReal :=
  (zeroW + pad (ix2 (0 : Fin 16) j)) + pad (ix2 (8 : Fin 16) j)

/-- The batch mean of column `j`. -/
def mean (sPad : (⟨2, ![16, n]⟩ : Shape).Idx → EReal) (j : Fin n) : EReal :=
  Ideal.div (total sPad j) batchW

/-- The batch variance of column `j`: the mean of the squares less the square of the mean. -/
def var (sPad qPad : (⟨2, ![16, n]⟩ : Shape).Idx → EReal) (j : Fin n) : EReal :=
  Ideal.div (total qPad j) batchW - mean sPad j * mean sPad j

/-- The inverse standard deviation of column `j`. -/
def invstd (sPad qPad : (⟨2, ![16, n]⟩ : Shape).Idx → EReal) (j : Fin n) : EReal :=
  Ideal.rsqrt (var sPad qPad j + epsW)

/-- The multiplier of column `j`: the gain times the inverse standard deviation. -/
def scaleAt (g : (⟨1, ![n]⟩ : Shape).Idx → EReal) (sPad qPad : (⟨2, ![16, n]⟩ : Shape).Idx → EReal) (j : Fin n) : EReal :=
  g (ix1 j) * invstd sPad qPad j

/-- The offset of column `j`: the bias less mean times gain times inverse standard deviation. -/
def shiftAt (g b : (⟨1, ![n]⟩ : Shape).Idx → EReal) (sPad qPad : (⟨2, ![16, n]⟩ : Shape).Idx → EReal) (j : Fin n) : EReal :=
  b (ix1 j) - (mean sPad j * g (ix1 j)) * invstd sPad qPad j

/-- The multipliers as a one-row matrix. -/
def scaleRow (g : (⟨1, ![n]⟩ : Shape).Idx → EReal) (sPad qPad : (⟨2, ![16, n]⟩ : Shape).Idx → EReal) :
    (⟨2, ![1, n]⟩ : Shape).Idx → EReal :=
  fun i => scaleAt g sPad qPad (i 1)

/-- The offsets as a one-row matrix. -/
def shiftRow (g b : (⟨1, ![n]⟩ : Shape).Idx → EReal) (sPad qPad : (⟨2, ![16, n]⟩ : Shape).Idx → EReal) :
    (⟨2, ![1, n]⟩ : Shape).Idx → EReal :=
  fun i => shiftAt g b sPad qPad (i 1)

/-- The row of multipliers read at `(u, j)`. -/
theorem scaleRow_ix2 (g : (⟨1, ![n]⟩ : Shape).Idx → EReal) (sPad qPad : (⟨2, ![16, n]⟩ : Shape).Idx → EReal)
    (u : Fin 1) (j : Fin n) : scaleRow g sPad qPad (ix2 u j) = scaleAt g sPad qPad j := rfl

/-- The row of offsets read at `(u, j)`. -/
theorem shiftRow_ix2 (g b : (⟨1, ![n]⟩ : Shape).Idx → EReal) (sPad qPad : (⟨2, ![16, n]⟩ : Shape).Idx → EReal)
    (u : Fin 1) (j : Fin n) : shiftRow g b sPad qPad (ix2 u j) = shiftAt g b sPad qPad j := rfl

/-- The leading zero of the whole-batch sum drops: it is the two halves' sums added. -/
theorem total_eq (pad : (⟨2, ![16, n]⟩ : Shape).Idx → EReal) (j : Fin n) :
    total pad j = pad (ix2 (0 : Fin 16) j) + pad (ix2 (8 : Fin 16) j) := by
  unfold total zeroW
  rw [Ideal.ofBits_zero_f32, zero_add]

/-- The identity the glue exists for, where the arithmetic is the reals': with finite statistics, gain and bias,
    `h * scale + shift` is `(h - mean) * (gain * invstd) + bias`. Stated over reals `m`, `s`, `γ`, `β` standing for
    the mean, the inverse standard deviation, the gain and the bias. -/
theorem affine_real (h m s γ β : ℝ) : h * (γ * s) + (β - (m * γ) * s) = (h - m) * (γ * s) + β := by ring

end Cert.KernelIdeal.Glue.GlueSpec

end
-- ==== Proof.GlueBinSpec.lean ====
/-
  Binarization of a weight, one element at a time, at the extended reals: `binarize w` is `+1` where `0 ≤ w`
  and `-1` where `w < 0` (so zero goes to `+1`), spelt as it is computed — the comparison `w ≥ 0` against the zero
  word decides between the words `0x3F800000` (one) and `0xBF800000` (minus one). A later change of float
  format is the identity on extended reals, so the binarized weight in a narrower format is the same number.
-/
import proofs.«126670_j49074296324140_2_alg».proof.Proof.GlueSpec
import Idealize.ShloMosaic.Lib.IdealHost

noncomputable section

namespace Cert.KernelIdeal.Glue.GlueSpec

open Idealize.ShloMosaic Idealize.ShloMosaic.ValueIdx

/-- The word of one. -/
abbrev oneW : EReal := Ideal.ofBits .f32 0x3F800000#32
/-- The word of minus one. -/
abbrev negOneW : EReal := Ideal.ofBits .f32 0xBF800000#32

/-- `+1` where `0 ≤ w`, `-1` otherwise, as a select on the comparison's bit. -/
def binarize (w : EReal) : EReal := Scalar.select (Ideal.cmp .oge w zeroW) oneW negOneW

/-- A matrix binarized element by element. -/
def binW {r c : Nat} (W : (⟨2, ![r, c]⟩ : Shape).Idx → EReal) : (⟨2, ![r, c]⟩ : Shape).Idx → EReal :=
  fun idx => binarize (W idx)

theorem binW_apply {r c : Nat} (W : (⟨2, ![r, c]⟩ : Shape).Idx → EReal) (idx : (⟨2, ![r, c]⟩ : Shape).Idx) :
    binW W idx = binarize (W idx) := rfl

/-- The word `0x3F800000` is one. -/
theorem oneW_eq : oneW = 1 := Ideal.ofBits_one_f32

/-- The word `0xBF800000` is the real minus one. -/
theorem negOneW_eq : negOneW = ((-(1 : ℝ) : ℝ) : EReal) := by
  simp [Ideal.ofBits, Ideal.ieee, -EReal.coe_mul, -EReal.coe_neg]; norm_num

/-- The comparison `w ≥ 0` is the bit of `0 ≤ w`. -/
theorem cmp_oge_zeroW (w : EReal) : Ideal.cmp .oge w zeroW = BitVec.ofBool (decide (0 ≤ w)) := by
  unfold zeroW
  rw [Ideal.ofBits_zero_f32]
  rfl

/-- A weight that is not negative binarizes to one. -/
theorem binarize_of_nonneg {w : EReal} (h : 0 ≤ w) : binarize w = oneW := by
  unfold binarize
  rw [cmp_oge_zeroW, decide_eq_true h]
  exact select_one _ _

/-- A negative weight binarizes to minus one. -/
theorem binarize_of_neg {w : EReal} (h : w < 0) : binarize w = negOneW := by
  unfold binarize
  rw [cmp_oge_zeroW, decide_eq_false (not_le.mpr h)]
  exact select_zero _ _

/-- Binarization as an `if`. -/
theorem binarize_eq (w : EReal) : binarize w = if 0 ≤ w then oneW else negOneW := by
  split
  · next h => exact binarize_of_nonneg h
  · next h => exact binarize_of_neg (not_le.mp h)

end Cert.KernelIdeal.Glue.GlueSpec

end
-- ==== Proof.KernelSpec.lean ====
/-
  The kernel programs' values as functions of arrays, entry by entry over the extended reals, in the order the
  programs compute them. A layer's product: h (i, j) = Σ_l sign (a (i, l)) · wb (j, l), the sign taken against a
  threshold (½ for the input image, 0 afterwards). Its affine image h · scale + shift, scale and shift one row each.
  What a statistics array holds: row 8·c + p (any p < 8) of it is, at column j, the left-nested sum over the blocks of
  half c of the batch of (the sum over a block's rows of h (·, j)), started from the zero word.
-/
import proofs.«126670_j49074296324140_2_alg».proof.Proof.RefSpec
import proofs.«126670_j49074296324140_2_alg».proof.Proof.GlueSpec
import proofs.«126670_j49074296324140_2_alg».proof.Proof.GlueBinSpec
import Idealize.ShloMosaic.PureOps.Ideal
import Idealize.ShloMosaic.Lib.ValueIdx

noncomputable section

namespace Cert.KernelIdeal.KSpec

open Idealize.ShloMosaic Idealize.ShloMosaic.ValueIdx
open Cert.ReferenceIdeal.Hand.RefSpec (A2 A1 arr arr_ix2)

abbrev zeroW : EReal := Scalar.ofBits (F := Ideal) .f32 0x00000000#32
abbrev halfW : EReal := Scalar.ofBits (F := Ideal) .f32 0x3F000000#32

/-- +1 where the entry is at least the threshold, −1 elsewhere, in the programs' own spelling. -/
def signAt (thr x : EReal) : EReal :=
  Scalar.select (FloatOps.cmpf (F := Ideal) (φ := .f32) .oge x thr) (Scalar.ofBits (F := Ideal) .f32 0x3F800000#32) (Scalar.ofBits (F := Ideal) .f32 0xBF800000#32)

/-- A layer's product with the sign weights. -/
def lin {B I O : Nat} (thr : EReal) (a : A2 B I) (wb : A2 O I) : A2 B O :=
  arr fun i j => ∑ l : Fin I, signAt thr (a (ix2 i l)) * wb (ix2 j l)

/-- The affine image with one row of scales and one row of shifts. -/
def affine {B O : Nat} (h : A2 B O) (sc sh : A2 1 O) : A2 B O :=
  arr fun i j => h (ix2 i j) * sc (ix2 (0 : Fin 1) j) + sh (ix2 (0 : Fin 1) j)

/-- The entrywise square. -/
def sq {B O : Nat} (h : A2 B O) : A2 B O := arr fun i j => h (ix2 i j) * h (ix2 i j)

/-- Row n of an array at column j (junk 0 past the last row: never read). -/
def rowAt {B O : Nat} (h : A2 B O) (n : Nat) (j : Fin O) : EReal := if hn : n < B then h (ix2 ⟨n, hn⟩ j) else 0

/-- The sum over the T rows of block n. -/
def blockSum {B O : Nat} (T : Nat) (h : A2 B O) (n : Nat) (j : Fin O) : EReal := ∑ r : Fin T, rowAt h (n * T + r.val) j

/-- The running sum after block n, restarted from the zero word at the first block of each half (I blocks per half). -/
def chain {B O : Nat} (T I : Nat) (h : A2 B O) (j : Fin O) : Nat → EReal
  | 0 => zeroW + blockSum T h 0 j
  | n + 1 => if (n + 1) % I = 0 then zeroW + blockSum T h (n + 1) j else chain T I h j n + blockSum T h (n + 1) j

/-- The statistics array: sixteen rows, rows 0–7 the finished sum of the first half, rows 8–15 of the second. -/
def pad {B O : Nat} (T I : Nat) (h : A2 B O) : A2 16 O :=
  arr fun k j => chain T I h j ((k.val / 8) * I + (I - 1))

/-- The last region's rows: with z = h · scale + shift and M the row's maximum (folded from −∞),
    exp (z − M) over the row's sum of exp (z − M). -/
def softK {B : Nat} (h : A2 B 10) (sc sh : A2 1 10) : A2 B 10 :=
  arr fun i j =>
    Ideal.div (Ideal.exp ((h (ix2 i j) * sc (ix2 (0 : Fin 1) j) + sh (ix2 (0 : Fin 1) j))
        - (Finset.univ : Finset (Fin 10)).fold max (Ideal.ofBits .f32 0xFF800000#32) fun j' => h (ix2 i j') * sc (ix2 (0 : Fin 1) j') + sh (ix2 (0 : Fin 1) j')))
      (∑ j'' : Fin 10, Ideal.exp ((h (ix2 i j'') * sc (ix2 (0 : Fin 1) j'') + sh (ix2 (0 : Fin 1) j''))
        - (Finset.univ : Finset (Fin 10)).fold max (Ideal.ofBits .f32 0xFF800000#32) fun j' => h (ix2 i j') * sc (ix2 (0 : Fin 1) j') + sh (ix2 (0 : Fin 1) j')))

open Cert.KernelIdeal.Glue.GlueSpec (scaleRow shiftRow binW)

/-- The whole network as the kernel programs compute it: the first layer's products of the signs of x against ½ in
    blocks of 2048 rows, eight to a half; four more layers over the signs of the previous layer's affine image
    against 0, in blocks of 4096 rows, four to a half; each layer's scale and shift from its two statistics arrays;
    the row softmax of the last affine image. -/
def net (x : A2 32768 784) (w0 : A2 256 784) (w1 w2 w3 : A2 256 256) (w4 : A2 10 256)
    (g0 g1 g2 g3 : A1 256) (g4 : A1 10) (b0 b1 b2 b3 : A1 256) (b4 : A1 10) : A2 32768 10 :=
  let h0 := lin halfW x (binW w0)
  let sc0 := scaleRow g0 (pad 2048 8 h0) (pad 2048 8 (sq h0))
  let sh0 := shiftRow g0 b0 (pad 2048 8 h0) (pad 2048 8 (sq h0))
  let h1 := lin zeroW (affine h0 sc0 sh0) (binW w1)
  let sc1 := scaleRow g1 (pad 4096 4 h1) (pad 4096 4 (sq h1))
  let sh1 := shiftRow g1 b1 (pad 4096 4 h1) (pad 4096 4 (sq h1))
  let h2 := lin zeroW (affine h1 sc1 sh1) (binW w2)
  let sc2 := scaleRow g2 (pad 4096 4 h2) (pad 4096 4 (sq h2))
  let sh2 := shiftRow g2 b2 (pad 4096 4 h2) (pad 4096 4 (sq h2))
  let h3 := lin zeroW (affine h2 sc2 sh2) (binW w3)
  let sc3 := scaleRow g3 (pad 4096 4 h3) (pad 4096 4 (sq h3))
  let sh3 := shiftRow g3 b3 (pad 4096 4 h3) (pad 4096 4 (sq h3))
  let h4 := lin zeroW (affine h3 sc3 sh3) (binW w4)
  let sc4 := scaleRow g4 (pad 4096 4 h4) (pad 4096 4 (sq h4))
  let sh4 := shiftRow g4 b4 (pad 4096 4 h4) (pad 4096 4 (sq h4))
  softK h4 sc4 sh4

end Cert.KernelIdeal.KSpec

end
-- ==== Proof.Layer0PiecesIdeal.lean ====
/-
  The first layer's region, read as values: the stores each kind of grid point leaves are whole-buffer stores, so
  a buffer ends at its last store's value — h's buffer at this block's product, a scratch row at its value on entry
  (the cleared row at a first block) plus this block's column sums, a statistics buffer (last block only) at eight
  copies of the finished row. Hence the two scratch rows after each position in closed form, by induction on the
  position.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer0RegionIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem l0hz2 : (![0, 0] : Fin 2 → Nat) = fun _ => 0 := funext fun a => by fin_cases a <;> rfl
local notation "hz2" => l0hz2

/-! ## What each kind of point leaves, as values -/

theorem l0First_H (c : Dev nD) (t : Fin cfg0.N) (hF : l0First (grid0.coords t)) (hL : ¬l0Last (grid0.coords t)) (x0 : Vec F S2048x784 .f32) (x1 : Vec F S256x784 .bf16) :
    (l0LeftFirst c t hF hL x0 x1).1 = (k0_pay5 x0 x1) := by
  unfold l0LeftFirst
  dsimp only
  rw [View.read_writes_eq_canon _ _ _ (l0CoverFirstH c t hF hL x0 x1)]
  unfold l0FirstAt l0RunFirst
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S2048x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

theorem l0First_S (c : Dev nD) (t : Fin cfg0.N) (hF : l0First (grid0.coords t)) (hL : ¬l0Last (grid0.coords t)) (x0 : Vec F S2048x784 .f32) (x1 : Vec F S256x784 .bf16) :
    (l0LeftFirst c t hF hL x0 x1).2.2.2.1 = (k0_pay6 x0 x1 (k0_pay3 (F := F))) := by
  unfold l0LeftFirst
  dsimp only
  rw [View.read_writes_eq_canon _ _ _ (l0CoverFirstS c t hF hL x0 x1)]
  unfold l0FirstAt l0RunFirst
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

theorem l0First_Q (c : Dev nD) (t : Fin cfg0.N) (hF : l0First (grid0.coords t)) (hL : ¬l0Last (grid0.coords t)) (x0 : Vec F S2048x784 .f32) (x1 : Vec F S256x784 .bf16) :
    (l0LeftFirst c t hF hL x0 x1).2.2.2.2 = (k0_pay7 x0 x1 (k0_pay4 (F := F))) := by
  unfold l0LeftFirst
  dsimp only
  rw [View.read_writes_eq_canon _ _ _ (l0CoverFirstQ c t hF hL x0 x1)]
  unfold l0FirstAt l0RunFirst
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

theorem l0Mid_H (c : Dev nD) (t : Fin cfg0.N) (hF : ¬l0First (grid0.coords t)) (hL : ¬l0Last (grid0.coords t)) (x0 : Vec F S2048x784 .f32) (x1 : Vec F S256x784 .bf16) (s q : Vec F S1x256 .f32) :
    (l0LeftMid c t hF hL x0 x1 s q).1 = (k0_pay5 x0 x1) := by
  unfold l0LeftMid
  dsimp only
  rw [View.read_writes_eq_canon _ _ _ (l0CoverMidH c t hF hL x0 x1 s q)]
  unfold l0MidAt l0RunMid
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S2048x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

theorem l0Mid_S (c : Dev nD) (t : Fin cfg0.N) (hF : ¬l0First (grid0.coords t)) (hL : ¬l0Last (grid0.coords t)) (x0 : Vec F S2048x784 .f32) (x1 : Vec F S256x784 .bf16) (s q : Vec F S1x256 .f32) :
    (l0LeftMid c t hF hL x0 x1 s q).2.2.2.1 = (k0_pay6 x0 x1 s) := by
  unfold l0LeftMid
  dsimp only
  rw [View.read_writes_eq_canon _ _ _ (l0CoverMidS c t hF hL x0 x1 s q)]
  unfold l0MidAt l0RunMid
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

theorem l0Mid_Q (c : Dev nD) (t : Fin cfg0.N) (hF : ¬l0First (grid0.coords t)) (hL : ¬l0Last (grid0.coords t)) (x0 : Vec F S2048x784 .f32) (x1 : Vec F S256x784 .bf16) (s q : Vec F S1x256 .f32) :
    (l0LeftMid c t hF hL x0 x1 s q).2.2.2.2 = (k0_pay7 x0 x1 q) := by
  unfold l0LeftMid
  dsimp only
  rw [View.read_writes_eq_canon _ _ _ (l0CoverMidQ c t hF hL x0 x1 s q)]
  unfold l0MidAt l0RunMid
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

theorem l0Last_H (c : Dev nD) (t : Fin cfg0.N) (hF : ¬l0First (grid0.coords t)) (hL : l0Last (grid0.coords t)) (x0 : Vec F S2048x784 .f32) (x1 : Vec F S256x784 .bf16) (s q : Vec F S1x256 .f32) :
    (l0LeftLast c t hF hL x0 x1 s q).1 = (k0_pay5 x0 x1) := by
  unfold l0LeftLast
  dsimp only
  rw [View.read_writes_eq_canon _ _ _ (l0CoverLastH c t hF hL x0 x1 s q)]
  unfold l0LastAt l0RunLast
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S2048x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

theorem l0Last_A (c : Dev nD) (t : Fin cfg0.N) (hF : ¬l0First (grid0.coords t)) (hL : l0Last (grid0.coords t)) (x0 : Vec F S2048x784 .f32) (x1 : Vec F S256x784 .bf16) (s q : Vec F S1x256 .f32) :
    (l0LeftLast c t hF hL x0 x1 s q).2.1 = (k0_pay1 (k0_pay6 x0 x1 s)) := by
  unfold l0LeftLast
  dsimp only
  rw [View.read_writes_eq_canon _ _ _ (l0CoverLast3 c t hF hL x0 x1 s q)]
  unfold l0LastAt l0RunLast
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S8x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

theorem l0Last_B (c : Dev nD) (t : Fin cfg0.N) (hF : ¬l0First (grid0.coords t)) (hL : l0Last (grid0.coords t)) (x0 : Vec F S2048x784 .f32) (x1 : Vec F S256x784 .bf16) (s q : Vec F S1x256 .f32) :
    (l0LeftLast c t hF hL x0 x1 s q).2.2.1 = (k0_pay2 (k0_pay7 x0 x1 q)) := by
  unfold l0LeftLast
  dsimp only
  rw [View.read_writes_eq_canon _ _ _ (l0CoverLast4 c t hF hL x0 x1 s q)]
  unfold l0LastAt l0RunLast
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S8x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

theorem l0Last_S (c : Dev nD) (t : Fin cfg0.N) (hF : ¬l0First (grid0.coords t)) (hL : l0Last (grid0.coords t)) (x0 : Vec F S2048x784 .f32) (x1 : Vec F S256x784 .bf16) (s q : Vec F S1x256 .f32) :
    (l0LeftLast c t hF hL x0 x1 s q).2.2.2.1 = (k0_pay6 x0 x1 s) := by
  unfold l0LeftLast
  dsimp only
  rw [View.read_writes_eq_canon _ _ _ (l0CoverLastS c t hF hL x0 x1 s q)]
  unfold l0LastAt l0RunLast
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

theorem l0Last_Q (c : Dev nD) (t : Fin cfg0.N) (hF : ¬l0First (grid0.coords t)) (hL : l0Last (grid0.coords t)) (x0 : Vec F S2048x784 .f32) (x1 : Vec F S256x784 .bf16) (s q : Vec F S1x256 .f32) :
    (l0LeftLast c t hF hL x0 x1 s q).2.2.2.2 = (k0_pay7 x0 x1 q) := by
  unfold l0LeftLast
  dsimp only
  rw [View.read_writes_eq_canon _ _ _ (l0CoverLastQ c t hF hL x0 x1 s q)]
  unfold l0LastAt l0RunLast
  dsimp only
  try sl_unfold_words
  have hS : ∀ X : Vec F S1x256 .f32, View.read (Elt F) (View.whole cc0_scratch0) ((Memref.isWhole_whole cc0_scratch0).unread X) = X :=
    fun X => (Memref.isWhole_whole cc0_scratch0).read_unread X
  have hQ : ∀ X : Vec F S1x256 .f32, View.read (Elt F) (View.whole cc0_scratch1) ((Memref.isWhole_whole cc0_scratch1).unread X) = X :=
    fun X => (Memref.isWhole_whole cc0_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S2048x784) hz2, View.ld_unit_zero (S := S256x784) hz2, View.ld_unit_zero (S := S2048x256) hz2, View.ld_unit_zero (S := S8x256) hz2, View.ld_unit_zero (S := S1x256) hz2, hS, hQ]

variable (V : (c : Dev nD) → (b : Ref sig .tc) → Buf (Elt F) ((c : Thread nD τ).loc b))

/-! ## The two scratch rows after each position, in closed form -/

/-- After position n: at a first block the step from the cleared row; otherwise the step from what the block before left. -/
def l0Acc (c : Dev nD) : (n : ℕ) → n < cfg0.N → Vec F S1x256 .f32 × Vec F S1x256 .f32
  | 0, hn => ((k0_pay6 (l0Blk V c 0 ⟨0, hn⟩) (l0Blk V c 1 ⟨0, hn⟩) (k0_pay3 (F := F))), (k0_pay7 (l0Blk V c 0 ⟨0, hn⟩) (l0Blk V c 1 ⟨0, hn⟩) (k0_pay4 (F := F))))
  | n + 1, hn =>
    if (n + 1) % 8 = 0 then ((k0_pay6 (l0Blk V c 0 ⟨n + 1, hn⟩) (l0Blk V c 1 ⟨n + 1, hn⟩) (k0_pay3 (F := F))), (k0_pay7 (l0Blk V c 0 ⟨n + 1, hn⟩) (l0Blk V c 1 ⟨n + 1, hn⟩) (k0_pay4 (F := F))))
    else ((k0_pay6 (l0Blk V c 0 ⟨n + 1, hn⟩) (l0Blk V c 1 ⟨n + 1, hn⟩) (l0Acc c n (Nat.lt_of_succ_lt hn)).1), (k0_pay7 (l0Blk V c 0 ⟨n + 1, hn⟩) (l0Blk V c 1 ⟨n + 1, hn⟩) (l0Acc c n (Nat.lt_of_succ_lt hn)).2))

theorem l0At_SQ (c : Dev nD) : ∀ (n : ℕ) (hn : n < cfg0.N),
    (l0At V c n hn).2.2.2.1 = (l0Acc V c n hn).1 ∧ (l0At V c n hn).2.2.2.2 = (l0Acc V c n hn).2
  | 0, hn => by
    have e := l0At_first V c ⟨0, hn⟩ (Nat.zero_mod _)
    dsimp only at e
    rw [e]
    exact ⟨l0First_S .., l0First_Q ..⟩
  | n + 1, hn => by
    have ih := l0At_SQ c n (Nat.lt_of_succ_lt hn)
    by_cases h0 : (n + 1) % 8 = 0
    · have e := l0At_first V c ⟨n + 1, hn⟩ h0
      dsimp only at e
      rw [e]
      unfold l0Acc
      rw [if_pos h0]
      exact ⟨l0First_S .., l0First_Q ..⟩
    · by_cases h7 : (n + 1) % 8 = 7
      · have e := l0At_last V c ⟨n + 1, hn⟩ h0 h7
        dsimp only [Nat.add_sub_cancel] at e
        rw [e]
        unfold l0Acc
        rw [if_neg h0, l0Last_S, l0Last_Q]
        exact ⟨congrArg (fun z => (k0_pay6 (l0Blk V c 0 ⟨n + 1, hn⟩) (l0Blk V c 1 ⟨n + 1, hn⟩) z)) ih.1, congrArg (fun z => (k0_pay7 (l0Blk V c 0 ⟨n + 1, hn⟩) (l0Blk V c 1 ⟨n + 1, hn⟩) z)) ih.2⟩
      · have e := l0At_mid V c ⟨n + 1, hn⟩ h0 h7
        dsimp only [Nat.add_sub_cancel] at e
        rw [e]
        unfold l0Acc
        rw [if_neg h0, l0Mid_S, l0Mid_Q]
        exact ⟨congrArg (fun z => (k0_pay6 (l0Blk V c 0 ⟨n + 1, hn⟩) (l0Blk V c 1 ⟨n + 1, hn⟩) z)) ih.1, congrArg (fun z => (k0_pay7 (l0Blk V c 0 ⟨n + 1, hn⟩) (l0Blk V c 1 ⟨n + 1, hn⟩) z)) ih.2⟩

/-- h's buffer after any point: the product for that point's blocks. -/
theorem l0At_H (c : Dev nD) (t : Fin cfg0.N) : (l0At V c t.val t.isLt).1 = (k0_pay5 (l0Blk V c 0 t) (l0Blk V c 1 t)) := by
  by_cases h0 : t.val % 8 = 0
  · rw [l0At_first V c t h0]; exact l0First_H ..
  · by_cases h7 : t.val % 8 = 7
    · rw [l0At_last V c t h0 h7]; exact l0Last_H ..
    · rw [l0At_mid V c t h0 h7]; exact l0Mid_H ..

/-- The statistics buffers after a last block: eight copies of the finished rows. -/
theorem l0At_A (c : Dev nD) (t : Fin cfg0.N) (h7 : t.val % 8 = 7) :
    (l0At V c t.val t.isLt).2.1 = (k0_pay1 (l0Acc V c t.val t.isLt).1) := by
  have h0 : ¬t.val % 8 = 0 := by omega
  have hS := (l0At_SQ V c t.val t.isLt).1
  rw [l0At_last V c t h0 h7] at hS ⊢
  rw [l0Last_A, ← hS, l0Last_S]
theorem l0At_B (c : Dev nD) (t : Fin cfg0.N) (h7 : t.val % 8 = 7) :
    (l0At V c t.val t.isLt).2.2.1 = (k0_pay2 (l0Acc V c t.val t.isLt).2) := by
  have h0 : ¬t.val % 8 = 0 := by omega
  have hQ := (l0At_SQ V c t.val t.isLt).2
  rw [l0At_last V c t h0 h7] at hQ ⊢
  rw [l0Last_B, ← hQ, l0Last_Q]

end Cert.KernelIdeal.Hand

end
-- ==== Proof.MatmulAtIndex.lean ====
/-
  The products, read entry by entry at the exact instance. A block's product h = a · wᵀ with a the signs of the block's
  entries: the (r, j) entry is the sum over the contracted coordinate l of sign(entry (r, l)) · w (j, l). The raw
  layer takes the sign of x against ½; a fused layer takes the sign of h' · scale + shift against 0.
-/
import proofs.«126670_j49074296324140_2_alg».proof.Proof.Gen.KernelIdeal.Skeleton
import proofs.«126670_j49074296324140_2_alg».proof.Proof.KernelSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

open Cert.KernelIdeal.KSpec (signAt halfW zeroW)

theorem k0_pay5_apply (x : Vec Ideal S2048x784 .f32) (w : Vec Ideal S256x784 .bf16) (r : Fin 2048) (j : Fin 256) :
    k0_pay5 x w (ix2 r j) = ∑ l : Fin 784, signAt halfW (x (ix2 r l)) * w (ix2 j l) := by
  unfold k0_pay5
  refine (Ideal.matmul_constant_zero_apply dot_S2048x784_S256x784_S2048x256_1_1_0_0_n_n none _ _ (ix2 r j)).trans ?_
  refine (Equiv.sum_comp (contrEquiv1 dot_S2048x784_S256x784_S2048x256_1_1_0_0_n_n 784 rfl rfl).symm _).symm.trans ?_
  refine Finset.sum_congr rfl fun l _ => ?_
  have hl : dot_S2048x784_S256x784_S2048x256_1_1_0_0_n_n.lhsIdx (ix2 r j) ((contrEquiv1 dot_S2048x784_S256x784_S2048x256_1_1_0_0_n_n 784 rfl rfl).symm l) = ix2 r l := by
    funext a; apply Fin.ext
    match a with
    | ⟨0, _⟩ => rfl
    | ⟨1, _⟩ => exact (dot_S2048x784_S256x784_S2048x256_1_1_0_0_n_n.lhsIdx_val_of_single (cl := 1) rfl _ _).trans (contrEquiv1_symm_val dot_S2048x784_S256x784_S2048x256_1_1_0_0_n_n 784 rfl rfl l)
  have hr : dot_S2048x784_S256x784_S2048x256_1_1_0_0_n_n.rhsIdx (ix2 r j) ((contrEquiv1 dot_S2048x784_S256x784_S2048x256_1_1_0_0_n_n 784 rfl rfl).symm l) = ix2 j l := by
    funext a; apply Fin.ext
    match a with
    | ⟨0, _⟩ => rfl
    | ⟨1, _⟩ => exact (dot_S2048x784_S256x784_S2048x256_1_1_0_0_n_n.rhsIdx_val_of_single (cr := 1) rfl _ _).trans (contrEquiv1_symm_val dot_S2048x784_S256x784_S2048x256_1_1_0_0_n_n 784 rfl rfl l)
  rw [hl, hr, shapeCast_self]
  rfl

/-! ## Layer 0 -/

theorem k0_pay6_apply (x : Vec Ideal S2048x784 .f32) (w : Vec Ideal S256x784 .bf16) (s : Vec Ideal S1x256 .f32) (u : Fin 1) (j : Fin 256) :
    k0_pay6 x w s (ix2 u j) = s (ix2 u j) + ∑ r : Fin 2048, k0_pay5 x w (ix2 r j) := by
  unfold k0_pay6
  rw [shapeCast_self]
  refine congrArg (s (ix2 u j) + ·) ?_
  refine (shapeCast_a_1a_apply _ _ u j).trans ?_
  refine (Ideal.multiReduction_add_single (k0_pay5 x w) 0x00000000#32 reduces_S2048x256_S256 (.inl rfl) rfl (ix1 j)).trans ?_
  refine Finset.sum_congr rfl fun r _ => congrArg (k0_pay5 x w) ?_
  funext a; apply Fin.ext
  match a with
  | ⟨0, _⟩ => rfl
  | ⟨1, _⟩ => rfl
theorem k0_pay7_apply (x : Vec Ideal S2048x784 .f32) (w : Vec Ideal S256x784 .bf16) (q : Vec Ideal S1x256 .f32) (u : Fin 1) (j : Fin 256) :
    k0_pay7 x w q (ix2 u j) = q (ix2 u j) + ∑ r : Fin 2048, k0_pay5 x w (ix2 r j) * k0_pay5 x w (ix2 r j) := by
  unfold k0_pay7
  rw [shapeCast_self]
  refine congrArg (q (ix2 u j) + ·) ?_
  refine (shapeCast_a_1a_apply _ _ u j).trans ?_
  refine (Ideal.multiReduction_add_single (mulf (k0_pay5 x w) (k0_pay5 x w)) 0x00000000#32 reduces_S2048x256_S256 (.inl rfl) rfl (ix1 j)).trans ?_
  refine Finset.sum_congr rfl fun r _ => ?_
  refine congrArg (fun i => k0_pay5 x w i * k0_pay5 x w i) ?_
  funext a; apply Fin.ext
  match a with
  | ⟨0, _⟩ => rfl
  | ⟨1, _⟩ => rfl
theorem k0_pay1_apply (v : Vec Ideal S1x256 .f32) (p : Fin 8) (j : Fin 256) : k0_pay1 v (ix2 p j) = v (ix2 (0 : Fin 1) j) := by
  unfold k0_pay1
  rw [shapeCast_self]
  exact broadcastTo_1b_ab_apply _ _ p j
theorem k0_pay2_apply (v : Vec Ideal S1x256 .f32) (p : Fin 8) (j : Fin 256) : k0_pay2 v (ix2 p j) = v (ix2 (0 : Fin 1) j) := by
  unfold k0_pay2
  rw [shapeCast_self]
  exact broadcastTo_1b_ab_apply _ _ p j
theorem k0_pay3_apply (i : S1x256.Idx) : (k0_pay3 (F := Ideal)) i = zeroW := by
  unfold k0_pay3
  rw [shapeCast_self]
  rfl
theorem k0_pay4_apply (i : S1x256.Idx) : (k0_pay4 (F := Ideal)) i = zeroW := by
  unfold k0_pay4
  rw [shapeCast_self]
  rfl

/-! ## Layer 1 -/

theorem k1_pay6_apply (h : Vec Ideal S4096x256 .f32) (sc sh : Vec Ideal S1x256 .f32) (w : Vec Ideal S256x256 .bf16) (r : Fin 4096) (j : Fin 256) :
    k1_pay6 h sc sh w (ix2 r j) = ∑ l : Fin 256, signAt zeroW (h (ix2 r l) * sc (ix2 (0 : Fin 1) l) + sh (ix2 (0 : Fin 1) l)) * w (ix2 j l) := by
  unfold k1_pay6
  refine (Ideal.matmul_constant_zero_apply dot_S4096x256_S256x256_S4096x256_1_1_0_0_n_n none _ _ (ix2 r j)).trans ?_
  refine (Equiv.sum_comp (contrEquiv1 dot_S4096x256_S256x256_S4096x256_1_1_0_0_n_n 256 rfl rfl).symm _).symm.trans ?_
  refine Finset.sum_congr rfl fun l _ => ?_
  have hl : dot_S4096x256_S256x256_S4096x256_1_1_0_0_n_n.lhsIdx (ix2 r j) ((contrEquiv1 dot_S4096x256_S256x256_S4096x256_1_1_0_0_n_n 256 rfl rfl).symm l) = ix2 r l := by
    funext a; apply Fin.ext
    match a with
    | ⟨0, _⟩ => rfl
    | ⟨1, _⟩ => exact (dot_S4096x256_S256x256_S4096x256_1_1_0_0_n_n.lhsIdx_val_of_single (cl := 1) rfl _ _).trans (contrEquiv1_symm_val dot_S4096x256_S256x256_S4096x256_1_1_0_0_n_n 256 rfl rfl l)
  have hr : dot_S4096x256_S256x256_S4096x256_1_1_0_0_n_n.rhsIdx (ix2 r j) ((contrEquiv1 dot_S4096x256_S256x256_S4096x256_1_1_0_0_n_n 256 rfl rfl).symm l) = ix2 j l := by
    funext a; apply Fin.ext
    match a with
    | ⟨0, _⟩ => rfl
    | ⟨1, _⟩ => exact (dot_S4096x256_S256x256_S4096x256_1_1_0_0_n_n.rhsIdx_val_of_single (cr := 1) rfl _ _).trans (contrEquiv1_symm_val dot_S4096x256_S256x256_S4096x256_1_1_0_0_n_n 256 rfl rfl l)
  rw [hl, hr]
  simp only [shapeCast_self]
  show signAt zeroW (h (ix2 r l) * broadcastTo S4096x256 sc broadcasts_S1x256_S4096x256 (ix2 r l) + broadcastTo S4096x256 sh broadcasts_S1x256_S4096x256 (ix2 r l)) * w (ix2 j l) = _
  rw [broadcastTo_1b_ab_apply, broadcastTo_1b_ab_apply]
theorem k1_pay7_apply (h : Vec Ideal S4096x256 .f32) (sc sh : Vec Ideal S1x256 .f32) (w : Vec Ideal S256x256 .bf16) (s : Vec Ideal S1x256 .f32) (u : Fin 1) (j : Fin 256) :
    k1_pay7 h sc sh w s (ix2 u j) = s (ix2 u j) + ∑ r : Fin 4096, k1_pay6 h sc sh w (ix2 r j) := by
  unfold k1_pay7
  rw [shapeCast_self]
  refine congrArg (s (ix2 u j) + ·) ?_
  refine (shapeCast_a_1a_apply _ _ u j).trans ?_
  refine (Ideal.multiReduction_add_single (k1_pay6 h sc sh w) 0x00000000#32 reduces_S4096x256_S256 (.inl rfl) rfl (ix1 j)).trans ?_
  refine Finset.sum_congr rfl fun r _ => congrArg (k1_pay6 h sc sh w) ?_
  funext a; apply Fin.ext
  match a with
  | ⟨0, _⟩ => rfl
  | ⟨1, _⟩ => rfl
theorem k1_pay1_apply (q : Vec Ideal S1x256 .f32) (v : FVec Ideal S4096x256 .f32) (u : Fin 1) (j : Fin 256) :
    k1_pay1 q v (ix2 u j) = q (ix2 u j) + ∑ r : Fin 4096, v (ix2 r j) := by
  unfold k1_pay1
  rw [shapeCast_self]
  refine congrArg (q (ix2 u j) + ·) ?_
  refine (shapeCast_a_1a_apply _ _ u j).trans ?_
  refine (Ideal.multiReduction_add_single v 0x00000000#32 reduces_S4096x256_S256 (.inl rfl) rfl (ix1 j)).trans ?_
  refine Finset.sum_congr rfl fun r _ => congrArg v ?_
  funext a; apply Fin.ext
  match a with
  | ⟨0, _⟩ => rfl
  | ⟨1, _⟩ => rfl
theorem k1_pay8_apply (h : Vec Ideal S4096x256 .f32) (sc sh : Vec Ideal S1x256 .f32) (w : Vec Ideal S256x256 .bf16) (i : S4096x256.Idx) : k1_pay8 h sc sh w i = k1_pay6 h sc sh w i * k1_pay6 h sc sh w i := rfl
theorem k1_pay2_apply (v : Vec Ideal S1x256 .f32) (p : Fin 8) (j : Fin 256) : k1_pay2 v (ix2 p j) = v (ix2 (0 : Fin 1) j) := by
  unfold k1_pay2
  rw [shapeCast_self]
  exact broadcastTo_1b_ab_apply _ _ p j
theorem k1_pay3_apply (v : Vec Ideal S1x256 .f32) (p : Fin 8) (j : Fin 256) : k1_pay3 v (ix2 p j) = v (ix2 (0 : Fin 1) j) := by
  unfold k1_pay3
  rw [shapeCast_self]
  exact broadcastTo_1b_ab_apply _ _ p j
theorem k1_pay4_apply (i : S1x256.Idx) : (k1_pay4 (F := Ideal)) i = zeroW := by
  unfold k1_pay4
  rw [shapeCast_self]
  rfl
theorem k1_pay5_apply (i : S1x256.Idx) : (k1_pay5 (F := Ideal)) i = zeroW := by
  unfold k1_pay5
  rw [shapeCast_self]
  rfl

/-! ## Layer 2 -/

theorem k2_pay6_apply (h : Vec Ideal S4096x256 .f32) (sc sh : Vec Ideal S1x256 .f32) (w : Vec Ideal S256x256 .bf16) (r : Fin 4096) (j : Fin 256) :
    k2_pay6 h sc sh w (ix2 r j) = ∑ l : Fin 256, signAt zeroW (h (ix2 r l) * sc (ix2 (0 : Fin 1) l) + sh (ix2 (0 : Fin 1) l)) * w (ix2 j l) := by
  unfold k2_pay6
  refine (Ideal.matmul_constant_zero_apply dot_S4096x256_S256x256_S4096x256_1_1_0_0_n_n none _ _ (ix2 r j)).trans ?_
  refine (Equiv.sum_comp (contrEquiv1 dot_S4096x256_S256x256_S4096x256_1_1_0_0_n_n 256 rfl rfl).symm _).symm.trans ?_
  refine Finset.sum_congr rfl fun l _ => ?_
  have hl : dot_S4096x256_S256x256_S4096x256_1_1_0_0_n_n.lhsIdx (ix2 r j) ((contrEquiv1 dot_S4096x256_S256x256_S4096x256_1_1_0_0_n_n 256 rfl rfl).symm l) = ix2 r l := by
    funext a; apply Fin.ext
    match a with
    | ⟨0, _⟩ => rfl
    | ⟨1, _⟩ => exact (dot_S4096x256_S256x256_S4096x256_1_1_0_0_n_n.lhsIdx_val_of_single (cl := 1) rfl _ _).trans (contrEquiv1_symm_val dot_S4096x256_S256x256_S4096x256_1_1_0_0_n_n 256 rfl rfl l)
  have hr : dot_S4096x256_S256x256_S4096x256_1_1_0_0_n_n.rhsIdx (ix2 r j) ((contrEquiv1 dot_S4096x256_S256x256_S4096x256_1_1_0_0_n_n 256 rfl rfl).symm l) = ix2 j l := by
    funext a; apply Fin.ext
    match a with
    | ⟨0, _⟩ => rfl
    | ⟨1, _⟩ => exact (dot_S4096x256_S256x256_S4096x256_1_1_0_0_n_n.rhsIdx_val_of_single (cr := 1) rfl _ _).trans (contrEquiv1_symm_val dot_S4096x256_S256x256_S4096x256_1_1_0_0_n_n 256 rfl rfl l)
  rw [hl, hr]
  simp only [shapeCast_self]
  show signAt zeroW (h (ix2 r l) * broadcastTo S4096x256 sc broadcasts_S1x256_S4096x256 (ix2 r l) + broadcastTo S4096x256 sh broadcasts_S1x256_S4096x256 (ix2 r l)) * w (ix2 j l) = _
  rw [broadcastTo_1b_ab_apply, broadcastTo_1b_ab_apply]
theorem k2_pay7_apply (h : Vec Ideal S4096x256 .f32) (sc sh : Vec Ideal S1x256 .f32) (w : Vec Ideal S256x256 .bf16) (s : Vec Ideal S1x256 .f32) (u : Fin 1) (j : Fin 256) :
    k2_pay7 h sc sh w s (ix2 u j) = s (ix2 u j) + ∑ r : Fin 4096, k2_pay6 h sc sh w (ix2 r j) := by
  unfold k2_pay7
  rw [shapeCast_self]
  refine congrArg (s (ix2 u j) + ·) ?_
  refine (shapeCast_a_1a_apply _ _ u j).trans ?_
  refine (Ideal.multiReduction_add_single (k2_pay6 h sc sh w) 0x00000000#32 reduces_S4096x256_S256 (.inl rfl) rfl (ix1 j)).trans ?_
  refine Finset.sum_congr rfl fun r _ => congrArg (k2_pay6 h sc sh w) ?_
  funext a; apply Fin.ext
  match a with
  | ⟨0, _⟩ => rfl
  | ⟨1, _⟩ => rfl
theorem k2_pay1_apply (q : Vec Ideal S1x256 .f32) (v : FVec Ideal S4096x256 .f32) (u : Fin 1) (j : Fin 256) :
    k2_pay1 q v (ix2 u j) = q (ix2 u j) + ∑ r : Fin 4096, v (ix2 r j) := by
  unfold k2_pay1
  rw [shapeCast_self]
  refine congrArg (q (ix2 u j) + ·) ?_
  refine (shapeCast_a_1a_apply _ _ u j).trans ?_
  refine (Ideal.multiReduction_add_single v 0x00000000#32 reduces_S4096x256_S256 (.inl rfl) rfl (ix1 j)).trans ?_
  refine Finset.sum_congr rfl fun r _ => congrArg v ?_
  funext a; apply Fin.ext
  match a with
  | ⟨0, _⟩ => rfl
  | ⟨1, _⟩ => rfl
theorem k2_pay8_apply (h : Vec Ideal S4096x256 .f32) (sc sh : Vec Ideal S1x256 .f32) (w : Vec Ideal S256x256 .bf16) (i : S4096x256.Idx) : k2_pay8 h sc sh w i = k2_pay6 h sc sh w i * k2_pay6 h sc sh w i := rfl
theorem k2_pay2_apply (v : Vec Ideal S1x256 .f32) (p : Fin 8) (j : Fin 256) : k2_pay2 v (ix2 p j) = v (ix2 (0 : Fin 1) j) := by
  unfold k2_pay2
  rw [shapeCast_self]
  exact broadcastTo_1b_ab_apply _ _ p j
theorem k2_pay3_apply (v : Vec Ideal S1x256 .f32) (p : Fin 8) (j : Fin 256) : k2_pay3 v (ix2 p j) = v (ix2 (0 : Fin 1) j) := by
  unfold k2_pay3
  rw [shapeCast_self]
  exact broadcastTo_1b_ab_apply _ _ p j
theorem k2_pay4_apply (i : S1x256.Idx) : (k2_pay4 (F := Ideal)) i = zeroW := by
  unfold k2_pay4
  rw [shapeCast_self]
  rfl
theorem k2_pay5_apply (i : S1x256.Idx) : (k2_pay5 (F := Ideal)) i = zeroW := by
  unfold k2_pay5
  rw [shapeCast_self]
  rfl

/-! ## Layer 3 -/

theorem k3_pay6_apply (h : Vec Ideal S4096x256 .f32) (sc sh : Vec Ideal S1x256 .f32) (w : Vec Ideal S256x256 .bf16) (r : Fin 4096) (j : Fin 256) :
    k3_pay6 h sc sh w (ix2 r j) = ∑ l : Fin 256, signAt zeroW (h (ix2 r l) * sc (ix2 (0 : Fin 1) l) + sh (ix2 (0 : Fin 1) l)) * w (ix2 j l) := by
  unfold k3_pay6
  refine (Ideal.matmul_constant_zero_apply dot_S4096x256_S256x256_S4096x256_1_1_0_0_n_n none _ _ (ix2 r j)).trans ?_
  refine (Equiv.sum_comp (contrEquiv1 dot_S4096x256_S256x256_S4096x256_1_1_0_0_n_n 256 rfl rfl).symm _).symm.trans ?_
  refine Finset.sum_congr rfl fun l _ => ?_
  have hl : dot_S4096x256_S256x256_S4096x256_1_1_0_0_n_n.lhsIdx (ix2 r j) ((contrEquiv1 dot_S4096x256_S256x256_S4096x256_1_1_0_0_n_n 256 rfl rfl).symm l) = ix2 r l := by
    funext a; apply Fin.ext
    match a with
    | ⟨0, _⟩ => rfl
    | ⟨1, _⟩ => exact (dot_S4096x256_S256x256_S4096x256_1_1_0_0_n_n.lhsIdx_val_of_single (cl := 1) rfl _ _).trans (contrEquiv1_symm_val dot_S4096x256_S256x256_S4096x256_1_1_0_0_n_n 256 rfl rfl l)
  have hr : dot_S4096x256_S256x256_S4096x256_1_1_0_0_n_n.rhsIdx (ix2 r j) ((contrEquiv1 dot_S4096x256_S256x256_S4096x256_1_1_0_0_n_n 256 rfl rfl).symm l) = ix2 j l := by
    funext a; apply Fin.ext
    match a with
    | ⟨0, _⟩ => rfl
    | ⟨1, _⟩ => exact (dot_S4096x256_S256x256_S4096x256_1_1_0_0_n_n.rhsIdx_val_of_single (cr := 1) rfl _ _).trans (contrEquiv1_symm_val dot_S4096x256_S256x256_S4096x256_1_1_0_0_n_n 256 rfl rfl l)
  rw [hl, hr]
  simp only [shapeCast_self]
  show signAt zeroW (h (ix2 r l) * broadcastTo S4096x256 sc broadcasts_S1x256_S4096x256 (ix2 r l) + broadcastTo S4096x256 sh broadcasts_S1x256_S4096x256 (ix2 r l)) * w (ix2 j l) = _
  rw [broadcastTo_1b_ab_apply, broadcastTo_1b_ab_apply]
theorem k3_pay7_apply (h : Vec Ideal S4096x256 .f32) (sc sh : Vec Ideal S1x256 .f32) (w : Vec Ideal S256x256 .bf16) (s : Vec Ideal S1x256 .f32) (u : Fin 1) (j : Fin 256) :
    k3_pay7 h sc sh w s (ix2 u j) = s (ix2 u j) + ∑ r : Fin 4096, k3_pay6 h sc sh w (ix2 r j) := by
  unfold k3_pay7
  rw [shapeCast_self]
  refine congrArg (s (ix2 u j) + ·) ?_
  refine (shapeCast_a_1a_apply _ _ u j).trans ?_
  refine (Ideal.multiReduction_add_single (k3_pay6 h sc sh w) 0x00000000#32 reduces_S4096x256_S256 (.inl rfl) rfl (ix1 j)).trans ?_
  refine Finset.sum_congr rfl fun r _ => congrArg (k3_pay6 h sc sh w) ?_
  funext a; apply Fin.ext
  match a with
  | ⟨0, _⟩ => rfl
  | ⟨1, _⟩ => rfl
theorem k3_pay1_apply (q : Vec Ideal S1x256 .f32) (v : FVec Ideal S4096x256 .f32) (u : Fin 1) (j : Fin 256) :
    k3_pay1 q v (ix2 u j) = q (ix2 u j) + ∑ r : Fin 4096, v (ix2 r j) := by
  unfold k3_pay1
  rw [shapeCast_self]
  refine congrArg (q (ix2 u j) + ·) ?_
  refine (shapeCast_a_1a_apply _ _ u j).trans ?_
  refine (Ideal.multiReduction_add_single v 0x00000000#32 reduces_S4096x256_S256 (.inl rfl) rfl (ix1 j)).trans ?_
  refine Finset.sum_congr rfl fun r _ => congrArg v ?_
  funext a; apply Fin.ext
  match a with
  | ⟨0, _⟩ => rfl
  | ⟨1, _⟩ => rfl
theorem k3_pay8_apply (h : Vec Ideal S4096x256 .f32) (sc sh : Vec Ideal S1x256 .f32) (w : Vec Ideal S256x256 .bf16) (i : S4096x256.Idx) : k3_pay8 h sc sh w i = k3_pay6 h sc sh w i * k3_pay6 h sc sh w i := rfl
theorem k3_pay2_apply (v : Vec Ideal S1x256 .f32) (p : Fin 8) (j : Fin 256) : k3_pay2 v (ix2 p j) = v (ix2 (0 : Fin 1) j) := by
  unfold k3_pay2
  rw [shapeCast_self]
  exact broadcastTo_1b_ab_apply _ _ p j
theorem k3_pay3_apply (v : Vec Ideal S1x256 .f32) (p : Fin 8) (j : Fin 256) : k3_pay3 v (ix2 p j) = v (ix2 (0 : Fin 1) j) := by
  unfold k3_pay3
  rw [shapeCast_self]
  exact broadcastTo_1b_ab_apply _ _ p j
theorem k3_pay4_apply (i : S1x256.Idx) : (k3_pay4 (F := Ideal)) i = zeroW := by
  unfold k3_pay4
  rw [shapeCast_self]
  rfl
theorem k3_pay5_apply (i : S1x256.Idx) : (k3_pay5 (F := Ideal)) i = zeroW := by
  unfold k3_pay5
  rw [shapeCast_self]
  rfl

/-! ## Layer 4 -/

theorem k4_pay6_apply (h : Vec Ideal S4096x256 .f32) (sc sh : Vec Ideal S1x256 .f32) (w : Vec Ideal S10x256 .bf16) (r : Fin 4096) (j : Fin 10) :
    k4_pay6 h sc sh w (ix2 r j) = ∑ l : Fin 256, signAt zeroW (h (ix2 r l) * sc (ix2 (0 : Fin 1) l) + sh (ix2 (0 : Fin 1) l)) * w (ix2 j l) := by
  unfold k4_pay6
  refine (Ideal.matmul_constant_zero_apply dot_S4096x256_S10x256_S4096x10_1_1_0_0_n_n none _ _ (ix2 r j)).trans ?_
  refine (Equiv.sum_comp (contrEquiv1 dot_S4096x256_S10x256_S4096x10_1_1_0_0_n_n 256 rfl rfl).symm _).symm.trans ?_
  refine Finset.sum_congr rfl fun l _ => ?_
  have hl : dot_S4096x256_S10x256_S4096x10_1_1_0_0_n_n.lhsIdx (ix2 r j) ((contrEquiv1 dot_S4096x256_S10x256_S4096x10_1_1_0_0_n_n 256 rfl rfl).symm l) = ix2 r l := by
    funext a; apply Fin.ext
    match a with
    | ⟨0, _⟩ => rfl
    | ⟨1, _⟩ => exact (dot_S4096x256_S10x256_S4096x10_1_1_0_0_n_n.lhsIdx_val_of_single (cl := 1) rfl _ _).trans (contrEquiv1_symm_val dot_S4096x256_S10x256_S4096x10_1_1_0_0_n_n 256 rfl rfl l)
  have hr : dot_S4096x256_S10x256_S4096x10_1_1_0_0_n_n.rhsIdx (ix2 r j) ((contrEquiv1 dot_S4096x256_S10x256_S4096x10_1_1_0_0_n_n 256 rfl rfl).symm l) = ix2 j l := by
    funext a; apply Fin.ext
    match a with
    | ⟨0, _⟩ => rfl
    | ⟨1, _⟩ => exact (dot_S4096x256_S10x256_S4096x10_1_1_0_0_n_n.rhsIdx_val_of_single (cr := 1) rfl _ _).trans (contrEquiv1_symm_val dot_S4096x256_S10x256_S4096x10_1_1_0_0_n_n 256 rfl rfl l)
  rw [hl, hr]
  simp only [shapeCast_self]
  show signAt zeroW (h (ix2 r l) * broadcastTo S4096x256 sc broadcasts_S1x256_S4096x256 (ix2 r l) + broadcastTo S4096x256 sh broadcasts_S1x256_S4096x256 (ix2 r l)) * w (ix2 j l) = _
  rw [broadcastTo_1b_ab_apply, broadcastTo_1b_ab_apply]
theorem k4_pay7_apply (h : Vec Ideal S4096x256 .f32) (sc sh : Vec Ideal S1x256 .f32) (w : Vec Ideal S10x256 .bf16) (s : Vec Ideal S1x10 .f32) (u : Fin 1) (j : Fin 10) :
    k4_pay7 h sc sh w s (ix2 u j) = s (ix2 u j) + ∑ r : Fin 4096, k4_pay6 h sc sh w (ix2 r j) := by
  unfold k4_pay7
  rw [shapeCast_self]
  refine congrArg (s (ix2 u j) + ·) ?_
  refine (shapeCast_a_1a_apply _ _ u j).trans ?_
  refine (Ideal.multiReduction_add_single (k4_pay6 h sc sh w) 0x00000000#32 reduces_S4096x10_S10 (.inl rfl) rfl (ix1 j)).trans ?_
  refine Finset.sum_congr rfl fun r _ => congrArg (k4_pay6 h sc sh w) ?_
  funext a; apply Fin.ext
  match a with
  | ⟨0, _⟩ => rfl
  | ⟨1, _⟩ => rfl
theorem k4_pay1_apply (q : Vec Ideal S1x10 .f32) (v : FVec Ideal S4096x10 .f32) (u : Fin 1) (j : Fin 10) :
    k4_pay1 q v (ix2 u j) = q (ix2 u j) + ∑ r : Fin 4096, v (ix2 r j) := by
  unfold k4_pay1
  rw [shapeCast_self]
  refine congrArg (q (ix2 u j) + ·) ?_
  refine (shapeCast_a_1a_apply _ _ u j).trans ?_
  refine (Ideal.multiReduction_add_single v 0x00000000#32 reduces_S4096x10_S10 (.inl rfl) rfl (ix1 j)).trans ?_
  refine Finset.sum_congr rfl fun r _ => congrArg v ?_
  funext a; apply Fin.ext
  match a with
  | ⟨0, _⟩ => rfl
  | ⟨1, _⟩ => rfl
theorem k4_pay8_apply (h : Vec Ideal S4096x256 .f32) (sc sh : Vec Ideal S1x256 .f32) (w : Vec Ideal S10x256 .bf16) (i : S4096x10.Idx) : k4_pay8 h sc sh w i = k4_pay6 h sc sh w i * k4_pay6 h sc sh w i := rfl
theorem k4_pay2_apply (v : Vec Ideal S1x10 .f32) (p : Fin 8) (j : Fin 10) : k4_pay2 v (ix2 p j) = v (ix2 (0 : Fin 1) j) := by
  unfold k4_pay2
  rw [shapeCast_self]
  exact broadcastTo_1b_ab_apply _ _ p j
theorem k4_pay3_apply (v : Vec Ideal S1x10 .f32) (p : Fin 8) (j : Fin 10) : k4_pay3 v (ix2 p j) = v (ix2 (0 : Fin 1) j) := by
  unfold k4_pay3
  rw [shapeCast_self]
  exact broadcastTo_1b_ab_apply _ _ p j
theorem k4_pay4_apply (i : S1x10.Idx) : (k4_pay4 (F := Ideal)) i = zeroW := by
  unfold k4_pay4
  rw [shapeCast_self]
  rfl
theorem k4_pay5_apply (i : S1x10.Idx) : (k4_pay5 (F := Ideal)) i = zeroW := by
  unfold k4_pay5
  rw [shapeCast_self]
  rfl

end Cert.KernelIdeal.Hand

end
-- ==== Proof.Layer0ArraysIdeal.lean ====
/-
  The first layer's region at the exact instance, entry by entry: where each window's block sits in its array; a
  block's product as the corresponding rows of the layer's product over the whole arrays; hence what the region
  leaves in its three result arrays — the products, and the two statistics arrays holding each half's running
  sums of the products' columns and of their squares.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer0PiecesIdeal
import proofs.«126670_j49074296324140_2_alg».proof.Proof.MatmulAtIndex
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open ValueIdx
open Cert.ReferenceIdeal.Hand.RefSpec (A2 A1 arr arr_ix2)
open Cert.KernelIdeal.KSpec

local notation "𝕄" => MT nD τ sig Unit (Elt Ideal) ℕ (UR sig nD τ) ℕ

/-! ## Where the blocks sit -/

theorem l0Index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0 :=
  (by decide +kernel : ∀ t : Fin grid0.N, _)

variable (V : (c : Dev nD) → (b : Ref sig .tc) → Buf (Elt Ideal) ((c : Thread nD τ).loc b))

/-- The block of the first window at point t, at row r, is row 2048·t + r of its array. -/
theorem l0Blk0_apply (c : Dev nD) (t : Fin cfg0.N) (r : Fin 2048) (l : Fin 784) :
    (l0Blk V c 0 t : Vec Ideal S2048x784 .f32) (ix2 r l) = (V c (Pipeline.arrRef spec0 0) : A2 32768 784) (ix2 ⟨t.val * 2048 + r.val, by have := t.isLt; have hN : cfg0.N = 16 := N_0; omega⟩ l) := by
  unfold l0Blk
  rw [View.read_apply]
  refine congrArg (V c (Pipeline.arrRef spec0 0)) ?_
  funext a
  apply Fin.ext
  obtain ⟨e0, e1, -, -, -, -, -, -, -, -⟩ := l0Index t
  match a with
  | ⟨0, _⟩ => show win0_0.index t (0 : Fin 2) * 2048 + 1 * r.val = t.val * 2048 + r.val; rw [e0]; omega
  | ⟨1, _⟩ => show win0_0.index t (1 : Fin 2) * 784 + 1 * l.val = l.val; rw [e1]; omega
/-- The block of window 1 is the whole (256 × 784) array. -/
theorem l0Blk1_apply (c : Dev nD) (t : Fin cfg0.N) (q : Fin 256) (l : Fin 784) :
    (l0Blk V c 1 t : Vec Ideal S256x784 .bf16) (ix2 q l) = (V c (Pipeline.arrRef spec0 1) : A2 256 784) (ix2 q l) := by
  unfold l0Blk
  rw [View.read_apply]
  refine congrArg (V c (Pipeline.arrRef spec0 1)) ?_
  funext a
  apply Fin.ext
  obtain ⟨-, -, e0, e1, -, -, -, -, -, -⟩ := l0Index t
  match a with
  | ⟨0, _⟩ => show win0_1.index t (0 : Fin 2) * 256 + 1 * q.val = q.val; rw [e0]; omega
  | ⟨1, _⟩ => show win0_1.index t (1 : Fin 2) * 784 + 1 * l.val = l.val; rw [e1]; omega

/-! ## A block's product is the corresponding rows of the layer's product -/

theorem l0H_apply (c : Dev nD) (t : Fin cfg0.N) (r : Fin 2048) (j : Fin 256) :
    (k0_pay5 (l0Blk V c 0 t) (l0Blk V c 1 t)) (ix2 r j) = (lin halfW (V c (Pipeline.arrRef spec0 0) : A2 32768 784) (V c (Pipeline.arrRef spec0 1) : A2 256 784)) (ix2 ⟨t.val * 2048 + r.val, by have := t.isLt; have hN : cfg0.N = 16 := N_0; omega⟩ j) := by
  rw [k0_pay5_apply]
  show _ = ∑ l : Fin 784, signAt halfW ((V c (Pipeline.arrRef spec0 0) : A2 32768 784) (ix2 ⟨t.val * 2048 + r.val, _⟩ l)) * (V c (Pipeline.arrRef spec0 1) : A2 256 784) (ix2 j l)
  refine Finset.sum_congr rfl fun l _ => ?_
  rw [l0Blk0_apply, l0Blk1_apply]
  try rfl

theorem l0H_row (c : Dev nD) (t : Fin cfg0.N) (r : Fin 2048) (j : Fin 256) :
    (k0_pay5 (l0Blk V c 0 t) (l0Blk V c 1 t)) (ix2 r j) = rowAt (lin halfW (V c (Pipeline.arrRef spec0 0) : A2 32768 784) (V c (Pipeline.arrRef spec0 1) : A2 256 784)) (t.val * 2048 + r.val) j := by
  rw [l0H_apply]; unfold rowAt; rw [dif_pos]
theorem l0H_blockSum (c : Dev nD) (t : Fin cfg0.N) (j : Fin 256) :
    ∑ r : Fin 2048, (k0_pay5 (l0Blk V c 0 t) (l0Blk V c 1 t)) (ix2 r j) = blockSum 2048 (lin halfW (V c (Pipeline.arrRef spec0 0) : A2 32768 784) (V c (Pipeline.arrRef spec0 1) : A2 256 784)) t.val j :=
  Finset.sum_congr rfl fun r _ => l0H_row V c t r j
theorem l0H_sqRow (c : Dev nD) (t : Fin cfg0.N) (r : Fin 2048) (j : Fin 256) :
    (k0_pay5 (l0Blk V c 0 t) (l0Blk V c 1 t)) (ix2 r j) * (k0_pay5 (l0Blk V c 0 t) (l0Blk V c 1 t)) (ix2 r j) = rowAt (sq (lin halfW (V c (Pipeline.arrRef spec0 0) : A2 32768 784) (V c (Pipeline.arrRef spec0 1) : A2 256 784))) (t.val * 2048 + r.val) j := by
  rw [l0H_apply]; unfold rowAt; rw [dif_pos]; rfl
theorem l0H_sqBlockSum (c : Dev nD) (t : Fin cfg0.N) (j : Fin 256) :
    ∑ r : Fin 2048, (k0_pay5 (l0Blk V c 0 t) (l0Blk V c 1 t)) (ix2 r j) * (k0_pay5 (l0Blk V c 0 t) (l0Blk V c 1 t)) (ix2 r j) = blockSum 2048 (sq (lin halfW (V c (Pipeline.arrRef spec0 0) : A2 32768 784) (V c (Pipeline.arrRef spec0 1) : A2 256 784))) t.val j :=
  Finset.sum_congr rfl fun r _ => l0H_sqRow V c t r j

/-! ## The products' array -/

theorem l0FlushedH (c : Dev nD) (t : Fin cfg0.N) (hf : (cfg0.win 2).flush t = true) :
    (l0Dat V c).flushed 2 t = ((cfg0.win 2).blk t).view.read (Elt Ideal) ((lin halfW (V c (Pipeline.arrRef spec0 0) : A2 32768 784) (V c (Pipeline.arrRef spec0 1) : A2 256 784)) : A2 32768 256) := by
  have hN : cfg0.N = 16 := N_0
  show (cfg0.win 2).cut (grid0.coords t) ((l0Dat V c).after 2 t) = _
  rw [l0After2, l0At_H]
  funext y
  obtain ⟨r, j, rfl⟩ : ∃ (r : Fin 2048) (j : Fin 256), y = ix2 r j := ⟨y 0, y 1, eq_ix2 y⟩
  show (k0_pay5 (l0Blk V c 0 t) (l0Blk V c 1 t)) (ix2 r j) = (lin halfW (V c (Pipeline.arrRef spec0 0) : A2 32768 784) (V c (Pipeline.arrRef spec0 1) : A2 256 784)) (((cfg0.win 2).blk t).view.emb (ix2 r j))
  rw [l0H_apply]
  refine congrArg (lin halfW (V c (Pipeline.arrRef spec0 0) : A2 32768 784) (V c (Pipeline.arrRef spec0 1) : A2 256 784)) ?_
  funext a
  apply Fin.ext
  obtain ⟨-, -, -, -, e0, e1, -, -, -, -⟩ := l0Index t
  match a with
  | ⟨0, _⟩ => show t.val * 2048 + r.val = win0_2.index t (0 : Fin 2) * 2048 + 1 * r.val; rw [e0]; omega
  | ⟨1, _⟩ => show j.val = win0_2.index t (1 : Fin 2) * 256 + 1 * j.val; rw [e1]; omega

theorem l0CoverArrH (i : S32768x256.Idx) : ∃ t : Fin cfg0.N, (cfg0.win 2).flush t = true ∧ i ∈ ((cfg0.win 2).blk t).view.set := by
    have hN : cfg0.N = 16 := N_0
    have hG : grid0.N = 16 := N_0
    have h0 : (i 0 : Nat) < 32768 := (i 0).isLt
    have h1 : (i 1 : Nat) < 256 := (i 1).isLt
    have ht : (i 0 : Nat) / 2048 < grid0.N := by omega
    refine ⟨⟨(i 0 : Nat) / 2048, ht⟩, flush0_2 _, ?_⟩
    show i ∈ ((View.whole main_v20_0).slice (win0_2.rect ⟨(i 0 : Nat) / 2048, ht⟩)).set
    rw [View.set_slice_whole, Rect.mem_set_unit]
    intro a
    obtain ⟨-, -, -, -, e0, e1, -, -, -, -⟩ := l0Index ⟨(i 0 : Nat) / 2048, ht⟩
    match a with
    | ⟨0, _⟩ => show win0_2.index _ (0 : Fin 2) * 2048 ≤ (i 0 : Nat) ∧ (i 0 : Nat) < win0_2.index _ (0 : Fin 2) * 2048 + 2048
                rw [e0]; show (i 0 : Nat) / 2048 * 2048 ≤ (i 0 : Nat) ∧ (i 0 : Nat) < (i 0 : Nat) / 2048 * 2048 + 2048; omega
    | ⟨1, _⟩ => show win0_2.index _ (1 : Fin 2) * 256 ≤ (i 1 : Nat) ∧ (i 1 : Nat) < win0_2.index _ (1 : Fin 2) * 256 + 256
                rw [e1]; omega

theorem l0ArrH (c : Dev nD) : (l0Dat V c).arrAt 2 cfg0.N = ((lin halfW (V c (Pipeline.arrRef spec0 0) : A2 32768 784) (V c (Pipeline.arrRef spec0 1) : A2 256 784)) : A2 32768 256) :=
  (l0Dat V c).arrAt_eq_of_cover 2 ((lin halfW (V c (Pipeline.arrRef spec0 0) : A2 32768 784) (V c (Pipeline.arrRef spec0 1) : A2 256 784)) : A2 32768 256) (l0FlushedH V c) fun i => l0CoverArrH i

/-! ## The scratch rows are the running sums -/

theorem l0AccS (c : Dev nD) : ∀ (n : ℕ) (hn : n < cfg0.N) (u : Fin 1) (j : Fin 256),
    (l0Acc V c n hn).1 (ix2 u j) = chain 2048 8 (lin halfW (V c (Pipeline.arrRef spec0 0) : A2 32768 784) (V c (Pipeline.arrRef spec0 1) : A2 256 784)) j n
  | 0, hn, u, j => by
    unfold l0Acc chain
    dsimp only
    rw [k0_pay6_apply]
    rw [k0_pay3_apply, l0H_blockSum V c ⟨0, hn⟩ j]
  | n + 1, hn, u, j => by
    have ih := l0AccS c n (Nat.lt_of_succ_lt hn) u j
    unfold l0Acc chain
    by_cases h0 : (n + 1) % 8 = 0
    · rw [if_pos h0, if_pos h0]
      dsimp only
      rw [k0_pay6_apply]
      rw [k0_pay3_apply, l0H_blockSum V c ⟨n + 1, hn⟩ j]
    · rw [if_neg h0, if_neg h0]
      dsimp only
      rw [k0_pay6_apply]
      rw [ih, l0H_blockSum V c ⟨n + 1, hn⟩ j]

theorem l0AccQ (c : Dev nD) : ∀ (n : ℕ) (hn : n < cfg0.N) (u : Fin 1) (j : Fin 256),
    (l0Acc V c n hn).2 (ix2 u j) = chain 2048 8 (sq (lin halfW (V c (Pipeline.arrRef spec0 0) : A2 32768 784) (V c (Pipeline.arrRef spec0 1) : A2 256 784))) j n
  | 0, hn, u, j => by
    unfold l0Acc chain
    dsimp only
    rw [k0_pay7_apply]
    rw [k0_pay4_apply, l0H_sqBlockSum V c ⟨0, hn⟩ j]
  | n + 1, hn, u, j => by
    have ih := l0AccQ c n (Nat.lt_of_succ_lt hn) u j
    unfold l0Acc chain
    by_cases h0 : (n + 1) % 8 = 0
    · rw [if_pos h0, if_pos h0]
      dsimp only
      rw [k0_pay7_apply]
      rw [k0_pay4_apply, l0H_sqBlockSum V c ⟨n + 1, hn⟩ j]
    · rw [if_neg h0, if_neg h0]
      dsimp only
      rw [k0_pay7_apply]
      rw [ih, l0H_sqBlockSum V c ⟨n + 1, hn⟩ j]

/-! ## The two statistics arrays -/

theorem l0FlushedA (c : Dev nD) (t : Fin cfg0.N) (hf : (cfg0.win 3).flush t = true) :
    (l0Dat V c).flushed 3 t = ((cfg0.win 3).blk t).view.read (Elt Ideal) (pad 2048 8 (lin halfW (V c (Pipeline.arrRef spec0 0) : A2 32768 784) (V c (Pipeline.arrRef spec0 1) : A2 256 784)) : A2 16 256) := by
  have h7 : t.val % 8 = 7 := (flush0_3 t).mp hf
  have hN : cfg0.N = 16 := N_0
  show (cfg0.win 3).cut (grid0.coords t) ((l0Dat V c).after 3 t) = _
  rw [l0After3, l0At_A V c t h7]
  funext y
  obtain ⟨q, j, rfl⟩ : ∃ (q : Fin 8) (j : Fin 256), y = ix2 q j := ⟨y 0, y 1, eq_ix2 y⟩
  show k0_pay1 (l0Acc V c t.val t.isLt).1 (ix2 q j) = (pad 2048 8 (lin halfW (V c (Pipeline.arrRef spec0 0) : A2 32768 784) (V c (Pipeline.arrRef spec0 1) : A2 256 784)) : A2 16 256) (((cfg0.win 3).blk t).view.emb (ix2 q j))
  rw [k0_pay1_apply, l0AccS V c t.val t.isLt 0 j]
  have he : ((cfg0.win 3).blk t).view.emb (ix2 q j) = (ix2 (⟨t.val / 8 * 8 + q.val, by have := t.isLt; omega⟩ : Fin 16) j) := by
    funext a
    apply Fin.ext
    obtain ⟨-, -, -, -, -, -, e0, e1, -, -⟩ := l0Index t
    match a with
    | ⟨0, _⟩ => show win0_3.index t (0 : Fin 2) * 8 + 1 * q.val = t.val / 8 * 8 + q.val; rw [e0]; omega
    | ⟨1, _⟩ => show win0_3.index t (1 : Fin 2) * 256 + 1 * j.val = j.val; rw [e1]; omega
  rw [he]
  show chain 2048 8 (lin halfW (V c (Pipeline.arrRef spec0 0) : A2 32768 784) (V c (Pipeline.arrRef spec0 1) : A2 256 784)) j t.val = chain 2048 8 (lin halfW (V c (Pipeline.arrRef spec0 0) : A2 32768 784) (V c (Pipeline.arrRef spec0 1) : A2 256 784)) j ((t.val / 8 * 8 + q.val) / 8 * 8 + (8 - 1))
  refine congrArg (chain 2048 8 (lin halfW (V c (Pipeline.arrRef spec0 0) : A2 32768 784) (V c (Pipeline.arrRef spec0 1) : A2 256 784)) j) ?_
  have := q.isLt
  omega

theorem l0CoverArrA (i : S16x256.Idx) : ∃ t : Fin cfg0.N, (cfg0.win 3).flush t = true ∧ i ∈ ((cfg0.win 3).blk t).view.set := by
    have hN : cfg0.N = 16 := N_0
    have hG : grid0.N = 16 := N_0
    have h0 : (i 0 : Nat) < 16 := (i 0).isLt
    have h1 : (i 1 : Nat) < 256 := (i 1).isLt
    have ht : (i 0 : Nat) / 8 * 8 + 7 < grid0.N := by omega
    refine ⟨⟨(i 0 : Nat) / 8 * 8 + 7, ht⟩, (flush0_3 _).mpr (by show ((i 0 : Nat) / 8 * 8 + 7) % 8 = 7; omega), ?_⟩
    show i ∈ ((View.whole main_v20_1).slice (win0_3.rect ⟨(i 0 : Nat) / 8 * 8 + 7, ht⟩)).set
    rw [View.set_slice_whole, Rect.mem_set_unit]
    intro a
    obtain ⟨-, -, -, -, -, -, e0, e1, -, -⟩ := l0Index ⟨(i 0 : Nat) / 8 * 8 + 7, ht⟩
    match a with
    | ⟨0, _⟩ => show win0_3.index _ (0 : Fin 2) * 8 ≤ (i 0 : Nat) ∧ (i 0 : Nat) < win0_3.index _ (0 : Fin 2) * 8 + 8
                rw [e0]; show ((i 0 : Nat) / 8 * 8 + 7) / 8 * 8 ≤ (i 0 : Nat) ∧ (i 0 : Nat) < ((i 0 : Nat) / 8 * 8 + 7) / 8 * 8 + 8; omega
    | ⟨1, _⟩ => show win0_3.index _ (1 : Fin 2) * 256 ≤ (i 1 : Nat) ∧ (i 1 : Nat) < win0_3.index _ (1 : Fin 2) * 256 + 256
                rw [e1]; omega

theorem l0ArrA (c : Dev nD) : (l0Dat V c).arrAt 3 cfg0.N = (pad 2048 8 (lin halfW (V c (Pipeline.arrRef spec0 0) : A2 32768 784) (V c (Pipeline.arrRef spec0 1) : A2 256 784)) : A2 16 256) :=
  (l0Dat V c).arrAt_eq_of_cover 3 (pad 2048 8 (lin halfW (V c (Pipeline.arrRef spec0 0) : A2 32768 784) (V c (Pipeline.arrRef spec0 1) : A2 256 784)) : A2 16 256) (l0FlushedA V c) fun i => l0CoverArrA i

theorem l0FlushedB (c : Dev nD) (t : Fin cfg0.N) (hf : (cfg0.win 4).flush t = true) :
    (l0Dat V c).flushed 4 t = ((cfg0.win 4).blk t).view.read (Elt Ideal) (pad 2048 8 (sq (lin halfW (V c (Pipeline.arrRef spec0 0) : A2 32768 784) (V c (Pipeline.arrRef spec0 1) : A2 256 784))) : A2 16 256) := by
  have h7 : t.val % 8 = 7 := (flush0_4 t).mp hf
  have hN : cfg0.N = 16 := N_0
  show (cfg0.win 4).cut (grid0.coords t) ((l0Dat V c).after 4 t) = _
  rw [l0After4, l0At_B V c t h7]
  funext y
  obtain ⟨q, j, rfl⟩ : ∃ (q : Fin 8) (j : Fin 256), y = ix2 q j := ⟨y 0, y 1, eq_ix2 y⟩
  show k0_pay2 (l0Acc V c t.val t.isLt).2 (ix2 q j) = (pad 2048 8 (sq (lin halfW (V c (Pipeline.arrRef spec0 0) : A2 32768 784) (V c (Pipeline.arrRef spec0 1) : A2 256 784))) : A2 16 256) (((cfg0.win 4).blk t).view.emb (ix2 q j))
  rw [k0_pay2_apply, l0AccQ V c t.val t.isLt 0 j]
  have he : ((cfg0.win 4).blk t).view.emb (ix2 q j) = (ix2 (⟨t.val / 8 * 8 + q.val, by have := t.isLt; omega⟩ : Fin 16) j) := by
    funext a
    apply Fin.ext
    obtain ⟨-, -, -, -, -, -, -, -, e0, e1⟩ := l0Index t
    match a with
    | ⟨0, _⟩ => show win0_4.index t (0 : Fin 2) * 8 + 1 * q.val = t.val / 8 * 8 + q.val; rw [e0]; omega
    | ⟨1, _⟩ => show win0_4.index t (1 : Fin 2) * 256 + 1 * j.val = j.val; rw [e1]; omega
  rw [he]
  show chain 2048 8 (sq (lin halfW (V c (Pipeline.arrRef spec0 0) : A2 32768 784) (V c (Pipeline.arrRef spec0 1) : A2 256 784))) j t.val = chain 2048 8 (sq (lin halfW (V c (Pipeline.arrRef spec0 0) : A2 32768 784) (V c (Pipeline.arrRef spec0 1) : A2 256 784))) j ((t.val / 8 * 8 + q.val) / 8 * 8 + (8 - 1))
  refine congrArg (chain 2048 8 (sq (lin halfW (V c (Pipeline.arrRef spec0 0) : A2 32768 784) (V c (Pipeline.arrRef spec0 1) : A2 256 784))) j) ?_
  have := q.isLt
  omega

theorem l0CoverArrB (i : S16x256.Idx) : ∃ t : Fin cfg0.N, (cfg0.win 4).flush t = true ∧ i ∈ ((cfg0.win 4).blk t).view.set := by
    have hN : cfg0.N = 16 := N_0
    have hG : grid0.N = 16 := N_0
    have h0 : (i 0 : Nat) < 16 := (i 0).isLt
    have h1 : (i 1 : Nat) < 256 := (i 1).isLt
    have ht : (i 0 : Nat) / 8 * 8 + 7 < grid0.N := by omega
    refine ⟨⟨(i 0 : Nat) / 8 * 8 + 7, ht⟩, (flush0_4 _).mpr (by show ((i 0 : Nat) / 8 * 8 + 7) % 8 = 7; omega), ?_⟩
    show i ∈ ((View.whole main_v20_2).slice (win0_4.rect ⟨(i 0 : Nat) / 8 * 8 + 7, ht⟩)).set
    rw [View.set_slice_whole, Rect.mem_set_unit]
    intro a
    obtain ⟨-, -, -, -, -, -, -, -, e0, e1⟩ := l0Index ⟨(i 0 : Nat) / 8 * 8 + 7, ht⟩
    match a with
    | ⟨0, _⟩ => show win0_4.index _ (0 : Fin 2) * 8 ≤ (i 0 : Nat) ∧ (i 0 : Nat) < win0_4.index _ (0 : Fin 2) * 8 + 8
                rw [e0]; show ((i 0 : Nat) / 8 * 8 + 7) / 8 * 8 ≤ (i 0 : Nat) ∧ (i 0 : Nat) < ((i 0 : Nat) / 8 * 8 + 7) / 8 * 8 + 8; omega
    | ⟨1, _⟩ => show win0_4.index _ (1 : Fin 2) * 256 ≤ (i 1 : Nat) ∧ (i 1 : Nat) < win0_4.index _ (1 : Fin 2) * 256 + 256
                rw [e1]; omega

theorem l0ArrB (c : Dev nD) : (l0Dat V c).arrAt 4 cfg0.N = (pad 2048 8 (sq (lin halfW (V c (Pipeline.arrRef spec0 0) : A2 32768 784) (V c (Pipeline.arrRef spec0 1) : A2 256 784))) : A2 16 256) :=
  (l0Dat V c).arrAt_eq_of_cover 4 (pad 2048 8 (sq (lin halfW (V c (Pipeline.arrRef spec0 0) : A2 32768 784) (V c (Pipeline.arrRef spec0 1) : A2 256 784))) : A2 16 256) (l0FlushedB V c) fun i => l0CoverArrB i

end Cert.KernelIdeal.Hand

end
-- ==== Proof.Layer1PiecesIdeal.lean ====
/-
  The second layer's region, read as values: the stores each kind of grid point leaves are whole-buffer stores, so
  a buffer ends at its last store's value — h's buffer at this block's product, a scratch row at its value on entry
  (the cleared row at a first block) plus this block's column sums, a statistics buffer (last block only) at eight
  copies of the finished row. Hence the two scratch rows after each position in closed form, by induction on the
  position.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer1RegionIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem l1hz2 : (![0, 0] : Fin 2 → Nat) = fun _ => 0 := funext fun a => by fin_cases a <;> rfl
local notation "hz2" => l1hz2

/-! ## What each kind of point leaves, as values -/

theorem l1First_H (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) :
    (l1LeftFirst c t hF hL x0 x1 x2 x3).1 = (k1_pay6 x0 x2 x3 x1) := by
  unfold l1LeftFirst
  dsimp only
  rw [View.read_writes_eq_canon _ _ _ (l1CoverFirstH c t hF hL x0 x1 x2 x3)]
  unfold l1FirstAt l1RunFirst
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S4096x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l1First_S (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) :
    (l1LeftFirst c t hF hL x0 x1 x2 x3).2.2.2.1 = (k1_pay7 x0 x2 x3 x1 (k1_pay4 (F := F))) := by
  unfold l1LeftFirst
  dsimp only
  rw [View.read_writes_eq_canon _ _ _ (l1CoverFirstS c t hF hL x0 x1 x2 x3)]
  unfold l1FirstAt l1RunFirst
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l1First_Q (c : Dev nD) (t : Fin cfg1.N) (hF : l1First (grid1.coords t)) (hL : ¬l1Last (grid1.coords t)) (x0 : Vec F S4096x256 .f32) (x1 : Vec F S256x256 .bf16) (x2 : Vec F S1x256 .f32) (x3 : Vec F S1x256 .f32) :
    (l1LeftFirst c t hF hL x0 x1 x2 x3).2.2.2.2 = (k1_pay1 (k1_pay5 (F := F)) (k1_pay8 x0 x2 x3 x1)) := by
  unfold l1LeftFirst
  dsimp only
  rw [View.read_writes_eq_canon _ _ _ (l1CoverFirstQ c t hF hL x0 x1 x2 x3)]
  unfold l1FirstAt l1RunFirst
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l1Mid_H (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) :
    (l1LeftMid c t hF hL x0 x1 x2 x3 s q).1 = (k1_pay6 x0 x2 x3 x1) := by
  unfold l1LeftMid
  dsimp only
  rw [View.read_writes_eq_canon _ _ _ (l1CoverMidH c t hF hL x0 x1 x2 x3 s q)]
  unfold l1MidAt l1RunMid
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S4096x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l1Mid_S (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) :
    (l1LeftMid c t hF hL x0 x1 x2 x3 s q).2.2.2.1 = (k1_pay7 x0 x2 x3 x1 s) := by
  unfold l1LeftMid
  dsimp only
  rw [View.read_writes_eq_canon _ _ _ (l1CoverMidS c t hF hL x0 x1 x2 x3 s q)]
  unfold l1MidAt l1RunMid
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l1Mid_Q (c : Dev nD) (t : Fin cfg1.N) (hF : ¬l1First (grid1.coords t)) (hL : ¬l1Last (grid1.coords t)) (x0 : Vec F S4096x256 .f32) (x1 : Vec F S256x256 .bf16) (x2 : Vec F S1x256 .f32) (x3 : Vec F S1x256 .f32) (s q : Vec F S1x256 .f32) :
    (l1LeftMid c t hF hL x0 x1 x2 x3 s q).2.2.2.2 = (k1_pay1 q (k1_pay8 x0 x2 x3 x1)) := by
  unfold l1LeftMid
  dsimp only
  rw [View.read_writes_eq_canon _ _ _ (l1CoverMidQ c t hF hL x0 x1 x2 x3 s q)]
  unfold l1MidAt l1RunMid
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l1Last_H (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) :
    (l1LeftLast c t hF hL x0 x1 x2 x3 s q).1 = (k1_pay6 x0 x2 x3 x1) := by
  unfold l1LeftLast
  dsimp only
  rw [View.read_writes_eq_canon _ _ _ (l1CoverLastH c t hF hL x0 x1 x2 x3 s q)]
  unfold l1LastAt l1RunLast
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S4096x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l1Last_A (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) :
    (l1LeftLast c t hF hL x0 x1 x2 x3 s q).2.1 = (k1_pay2 (k1_pay7 x0 x2 x3 x1 s)) := by
  unfold l1LeftLast
  dsimp only
  rw [View.read_writes_eq_canon _ _ _ (l1CoverLast3 c t hF hL x0 x1 x2 x3 s q)]
  unfold l1LastAt l1RunLast
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S8x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l1Last_B (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) :
    (l1LeftLast c t hF hL x0 x1 x2 x3 s q).2.2.1 = (k1_pay3 (k1_pay1 q (k1_pay8 x0 x2 x3 x1))) := by
  unfold l1LeftLast
  dsimp only
  rw [View.read_writes_eq_canon _ _ _ (l1CoverLast4 c t hF hL x0 x1 x2 x3 s q)]
  unfold l1LastAt l1RunLast
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S8x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l1Last_S (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) :
    (l1LeftLast c t hF hL x0 x1 x2 x3 s q).2.2.2.1 = (k1_pay7 x0 x2 x3 x1 s) := by
  unfold l1LeftLast
  dsimp only
  rw [View.read_writes_eq_canon _ _ _ (l1CoverLastS c t hF hL x0 x1 x2 x3 s q)]
  unfold l1LastAt l1RunLast
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l1Last_Q (c : Dev nD) (t : Fin cfg1.N) (hF : ¬l1First (grid1.coords t)) (hL : l1Last (grid1.coords t)) (x0 : Vec F S4096x256 .f32) (x1 : Vec F S256x256 .bf16) (x2 : Vec F S1x256 .f32) (x3 : Vec F S1x256 .f32) (s q : Vec F S1x256 .f32) :
    (l1LeftLast c t hF hL x0 x1 x2 x3 s q).2.2.2.2 = (k1_pay1 q (k1_pay8 x0 x2 x3 x1)) := by
  unfold l1LeftLast
  dsimp only
  rw [View.read_writes_eq_canon _ _ _ (l1CoverLastQ c t hF hL x0 x1 x2 x3 s q)]
  unfold l1LastAt l1RunLast
  dsimp only
  try sl_unfold_words
  have hS : ∀ X : Vec F S1x256 .f32, View.read (Elt F) (View.whole cc1_scratch0) ((Memref.isWhole_whole cc1_scratch0).unread X) = X :=
    fun X => (Memref.isWhole_whole cc1_scratch0).read_unread X
  have hQ : ∀ X : Vec F S1x256 .f32, View.read (Elt F) (View.whole cc1_scratch1) ((Memref.isWhole_whole cc1_scratch1).unread X) = X :=
    fun X => (Memref.isWhole_whole cc1_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

variable (V : (c : Dev nD) → (b : Ref sig .tc) → Buf (Elt F) ((c : Thread nD τ).loc b))

/-! ## The two scratch rows after each position, in closed form -/

/-- After position n: at a first block the step from the cleared row; otherwise the step from what the block before left. -/
def l1Acc (c : Dev nD) : (n : ℕ) → n < cfg1.N → Vec F S1x256 .f32 × Vec F S1x256 .f32
  | 0, hn => ((k1_pay7 (l1Blk V c 0 ⟨0, hn⟩) (l1Blk V c 2 ⟨0, hn⟩) (l1Blk V c 3 ⟨0, hn⟩) (l1Blk V c 1 ⟨0, hn⟩) (k1_pay4 (F := F))), (k1_pay1 (k1_pay5 (F := F)) (k1_pay8 (l1Blk V c 0 ⟨0, hn⟩) (l1Blk V c 2 ⟨0, hn⟩) (l1Blk V c 3 ⟨0, hn⟩) (l1Blk V c 1 ⟨0, hn⟩))))
  | n + 1, hn =>
    if (n + 1) % 4 = 0 then ((k1_pay7 (l1Blk V c 0 ⟨n + 1, hn⟩) (l1Blk V c 2 ⟨n + 1, hn⟩) (l1Blk V c 3 ⟨n + 1, hn⟩) (l1Blk V c 1 ⟨n + 1, hn⟩) (k1_pay4 (F := F))), (k1_pay1 (k1_pay5 (F := F)) (k1_pay8 (l1Blk V c 0 ⟨n + 1, hn⟩) (l1Blk V c 2 ⟨n + 1, hn⟩) (l1Blk V c 3 ⟨n + 1, hn⟩) (l1Blk V c 1 ⟨n + 1, hn⟩))))
    else ((k1_pay7 (l1Blk V c 0 ⟨n + 1, hn⟩) (l1Blk V c 2 ⟨n + 1, hn⟩) (l1Blk V c 3 ⟨n + 1, hn⟩) (l1Blk V c 1 ⟨n + 1, hn⟩) (l1Acc c n (Nat.lt_of_succ_lt hn)).1), (k1_pay1 (l1Acc c n (Nat.lt_of_succ_lt hn)).2 (k1_pay8 (l1Blk V c 0 ⟨n + 1, hn⟩) (l1Blk V c 2 ⟨n + 1, hn⟩) (l1Blk V c 3 ⟨n + 1, hn⟩) (l1Blk V c 1 ⟨n + 1, hn⟩))))

theorem l1At_SQ (c : Dev nD) : ∀ (n : ℕ) (hn : n < cfg1.N),
    (l1At V c n hn).2.2.2.1 = (l1Acc V c n hn).1 ∧ (l1At V c n hn).2.2.2.2 = (l1Acc V c n hn).2
  | 0, hn => by
    have e := l1At_first V c ⟨0, hn⟩ (Nat.zero_mod _)
    dsimp only at e
    rw [e]
    exact ⟨l1First_S .., l1First_Q ..⟩
  | n + 1, hn => by
    have ih := l1At_SQ c n (Nat.lt_of_succ_lt hn)
    by_cases h0 : (n + 1) % 4 = 0
    · have e := l1At_first V c ⟨n + 1, hn⟩ h0
      dsimp only at e
      rw [e]
      unfold l1Acc
      rw [if_pos h0]
      exact ⟨l1First_S .., l1First_Q ..⟩
    · by_cases h7 : (n + 1) % 4 = 3
      · have e := l1At_last V c ⟨n + 1, hn⟩ h0 h7
        dsimp only [Nat.add_sub_cancel] at e
        rw [e]
        unfold l1Acc
        rw [if_neg h0, l1Last_S, l1Last_Q]
        exact ⟨congrArg (fun z => (k1_pay7 (l1Blk V c 0 ⟨n + 1, hn⟩) (l1Blk V c 2 ⟨n + 1, hn⟩) (l1Blk V c 3 ⟨n + 1, hn⟩) (l1Blk V c 1 ⟨n + 1, hn⟩) z)) ih.1, congrArg (fun z => (k1_pay1 z (k1_pay8 (l1Blk V c 0 ⟨n + 1, hn⟩) (l1Blk V c 2 ⟨n + 1, hn⟩) (l1Blk V c 3 ⟨n + 1, hn⟩) (l1Blk V c 1 ⟨n + 1, hn⟩)))) ih.2⟩
      · have e := l1At_mid V c ⟨n + 1, hn⟩ h0 h7
        dsimp only [Nat.add_sub_cancel] at e
        rw [e]
        unfold l1Acc
        rw [if_neg h0, l1Mid_S, l1Mid_Q]
        exact ⟨congrArg (fun z => (k1_pay7 (l1Blk V c 0 ⟨n + 1, hn⟩) (l1Blk V c 2 ⟨n + 1, hn⟩) (l1Blk V c 3 ⟨n + 1, hn⟩) (l1Blk V c 1 ⟨n + 1, hn⟩) z)) ih.1, congrArg (fun z => (k1_pay1 z (k1_pay8 (l1Blk V c 0 ⟨n + 1, hn⟩) (l1Blk V c 2 ⟨n + 1, hn⟩) (l1Blk V c 3 ⟨n + 1, hn⟩) (l1Blk V c 1 ⟨n + 1, hn⟩)))) ih.2⟩

/-- h's buffer after any point: the product for that point's blocks. -/
theorem l1At_H (c : Dev nD) (t : Fin cfg1.N) : (l1At V c t.val t.isLt).1 = (k1_pay6 (l1Blk V c 0 t) (l1Blk V c 2 t) (l1Blk V c 3 t) (l1Blk V c 1 t)) := by
  by_cases h0 : t.val % 4 = 0
  · rw [l1At_first V c t h0]; exact l1First_H ..
  · by_cases h7 : t.val % 4 = 3
    · rw [l1At_last V c t h0 h7]; exact l1Last_H ..
    · rw [l1At_mid V c t h0 h7]; exact l1Mid_H ..

/-- The statistics buffers after a last block: eight copies of the finished rows. -/
theorem l1At_A (c : Dev nD) (t : Fin cfg1.N) (h7 : t.val % 4 = 3) :
    (l1At V c t.val t.isLt).2.1 = (k1_pay2 (l1Acc V c t.val t.isLt).1) := by
  have h0 : ¬t.val % 4 = 0 := by omega
  have hS := (l1At_SQ V c t.val t.isLt).1
  rw [l1At_last V c t h0 h7] at hS ⊢
  rw [l1Last_A, ← hS, l1Last_S]
theorem l1At_B (c : Dev nD) (t : Fin cfg1.N) (h7 : t.val % 4 = 3) :
    (l1At V c t.val t.isLt).2.2.1 = (k1_pay3 (l1Acc V c t.val t.isLt).2) := by
  have h0 : ¬t.val % 4 = 0 := by omega
  have hQ := (l1At_SQ V c t.val t.isLt).2
  rw [l1At_last V c t h0 h7] at hQ ⊢
  rw [l1Last_B, ← hQ, l1Last_Q]

end Cert.KernelIdeal.Hand

end
-- ==== Proof.Layer1ArraysIdeal.lean ====
/-
  The second layer's region at the exact instance, entry by entry: where each window's block sits in its array; a
  block's product as the corresponding rows of the layer's product over the whole arrays; hence what the region
  leaves in its three result arrays — the products, and the two statistics arrays holding each half's running
  sums of the products' columns and of their squares.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer1PiecesIdeal
import proofs.«126670_j49074296324140_2_alg».proof.Proof.MatmulAtIndex
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open ValueIdx
open Cert.ReferenceIdeal.Hand.RefSpec (A2 A1 arr arr_ix2)
open Cert.KernelIdeal.KSpec

local notation "𝕄" => MT nD τ sig Unit (Elt Ideal) ℕ (UR sig nD τ) ℕ

/-! ## Where the blocks sit -/

theorem l1Index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val / 4 ∧ win1_5.index t (1 : Fin 2) = 0
    ∧ win1_6.index t (0 : Fin 2) = t.val / 4 ∧ win1_6.index t (1 : Fin 2) = 0 :=
  (by decide +kernel : ∀ t : Fin grid1.N, _)

variable (V : (c : Dev nD) → (b : Ref sig .tc) → Buf (Elt Ideal) ((c : Thread nD τ).loc b))

/-- The block of the first window at point t, at row r, is row 4096·t + r of its array. -/
theorem l1Blk0_apply (c : Dev nD) (t : Fin cfg1.N) (r : Fin 4096) (l : Fin 256) :
    (l1Blk V c 0 t : Vec Ideal S4096x256 .f32) (ix2 r l) = (V c (Pipeline.arrRef spec1 0) : A2 32768 256) (ix2 ⟨t.val * 4096 + r.val, by have := t.isLt; have hN : cfg1.N = 8 := N_1; omega⟩ l) := by
  unfold l1Blk
  rw [View.read_apply]
  refine congrArg (V c (Pipeline.arrRef spec1 0)) ?_
  funext a
  apply Fin.ext
  obtain ⟨e0, e1, -, -, -, -, -, -, -, -, -, -, -, -⟩ := l1Index t
  match a with
  | ⟨0, _⟩ => show win1_0.index t (0 : Fin 2) * 4096 + 1 * r.val = t.val * 4096 + r.val; rw [e0]; omega
  | ⟨1, _⟩ => show win1_0.index t (1 : Fin 2) * 256 + 1 * l.val = l.val; rw [e1]; omega
/-- The block of window 1 is the whole (256 × 256) array. -/
theorem l1Blk1_apply (c : Dev nD) (t : Fin cfg1.N) (q : Fin 256) (l : Fin 256) :
    (l1Blk V c 1 t : Vec Ideal S256x256 .bf16) (ix2 q l) = (V c (Pipeline.arrRef spec1 1) : A2 256 256) (ix2 q l) := by
  unfold l1Blk
  rw [View.read_apply]
  refine congrArg (V c (Pipeline.arrRef spec1 1)) ?_
  funext a
  apply Fin.ext
  obtain ⟨-, -, e0, e1, -, -, -, -, -, -, -, -, -, -⟩ := l1Index t
  match a with
  | ⟨0, _⟩ => show win1_1.index t (0 : Fin 2) * 256 + 1 * q.val = q.val; rw [e0]; omega
  | ⟨1, _⟩ => show win1_1.index t (1 : Fin 2) * 256 + 1 * l.val = l.val; rw [e1]; omega
/-- The block of window 2 is the whole (1 × 256) array. -/
theorem l1Blk2_apply (c : Dev nD) (t : Fin cfg1.N) (q : Fin 1) (l : Fin 256) :
    (l1Blk V c 2 t : Vec Ideal S1x256 .f32) (ix2 q l) = (V c (Pipeline.arrRef spec1 2) : A2 1 256) (ix2 q l) := by
  unfold l1Blk
  rw [View.read_apply]
  refine congrArg (V c (Pipeline.arrRef spec1 2)) ?_
  funext a
  apply Fin.ext
  obtain ⟨-, -, -, -, e0, e1, -, -, -, -, -, -, -, -⟩ := l1Index t
  match a with
  | ⟨0, _⟩ => show win1_2.index t (0 : Fin 2) * 1 + 1 * q.val = q.val; rw [e0]; omega
  | ⟨1, _⟩ => show win1_2.index t (1 : Fin 2) * 256 + 1 * l.val = l.val; rw [e1]; omega
/-- The block of window 3 is the whole (1 × 256) array. -/
theorem l1Blk3_apply (c : Dev nD) (t : Fin cfg1.N) (q : Fin 1) (l : Fin 256) :
    (l1Blk V c 3 t : Vec Ideal S1x256 .f32) (ix2 q l) = (V c (Pipeline.arrRef spec1 3) : A2 1 256) (ix2 q l) := by
  unfold l1Blk
  rw [View.read_apply]
  refine congrArg (V c (Pipeline.arrRef spec1 3)) ?_
  funext a
  apply Fin.ext
  obtain ⟨-, -, -, -, -, -, e0, e1, -, -, -, -, -, -⟩ := l1Index t
  match a with
  | ⟨0, _⟩ => show win1_3.index t (0 : Fin 2) * 1 + 1 * q.val = q.val; rw [e0]; omega
  | ⟨1, _⟩ => show win1_3.index t (1 : Fin 2) * 256 + 1 * l.val = l.val; rw [e1]; omega

/-! ## A block's product is the corresponding rows of the layer's product -/

theorem l1H_apply (c : Dev nD) (t : Fin cfg1.N) (r : Fin 4096) (j : Fin 256) :
    (k1_pay6 (l1Blk V c 0 t) (l1Blk V c 2 t) (l1Blk V c 3 t) (l1Blk V c 1 t)) (ix2 r j) = (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) (ix2 ⟨t.val * 4096 + r.val, by have := t.isLt; have hN : cfg1.N = 8 := N_1; omega⟩ j) := by
  rw [k1_pay6_apply]
  show _ = ∑ l : Fin 256, signAt zeroW ((affine (V c (Pipeline.arrRef spec1 0) : A2 32768 256) (V c (Pipeline.arrRef spec1 2) : A2 1 256) (V c (Pipeline.arrRef spec1 3) : A2 1 256)) (ix2 ⟨t.val * 4096 + r.val, _⟩ l)) * (V c (Pipeline.arrRef spec1 1) : A2 256 256) (ix2 j l)
  refine Finset.sum_congr rfl fun l _ => ?_
  rw [l1Blk0_apply, l1Blk1_apply, l1Blk2_apply, l1Blk3_apply]
  try rfl

theorem l1H_row (c : Dev nD) (t : Fin cfg1.N) (r : Fin 4096) (j : Fin 256) :
    (k1_pay6 (l1Blk V c 0 t) (l1Blk V c 2 t) (l1Blk V c 3 t) (l1Blk V c 1 t)) (ix2 r j) = rowAt (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) (t.val * 4096 + r.val) j := by
  rw [l1H_apply]; unfold rowAt; rw [dif_pos]
theorem l1H_blockSum (c : Dev nD) (t : Fin cfg1.N) (j : Fin 256) :
    ∑ r : Fin 4096, (k1_pay6 (l1Blk V c 0 t) (l1Blk V c 2 t) (l1Blk V c 3 t) (l1Blk V c 1 t)) (ix2 r j) = blockSum 4096 (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) t.val j :=
  Finset.sum_congr rfl fun r _ => l1H_row V c t r j
theorem l1H_sqRow (c : Dev nD) (t : Fin cfg1.N) (r : Fin 4096) (j : Fin 256) :
    (k1_pay6 (l1Blk V c 0 t) (l1Blk V c 2 t) (l1Blk V c 3 t) (l1Blk V c 1 t)) (ix2 r j) * (k1_pay6 (l1Blk V c 0 t) (l1Blk V c 2 t) (l1Blk V c 3 t) (l1Blk V c 1 t)) (ix2 r j) = rowAt (sq (lin zeroW (affine (V c (Pipeline.arrRef spec1 0) : A2 32768 256) (V c (Pipeline.arrRef spec1 2) : A2 1 256) (V c (Pipeline.arrRef spec1 3) : A2 1 256)) (V c (Pipeline.arrRef spec1 1) : A2 256 256))) (t.val * 4096 + r.val) j := by
  rw [l1H_apply]; unfold rowAt; rw [dif_pos]; rfl
theorem l1H_sqBlockSum (c : Dev nD) (t : Fin cfg1.N) (j : Fin 256) :
    ∑ r : Fin 4096, (k1_pay6 (l1Blk V c 0 t) (l1Blk V c 2 t) (l1Blk V c 3 t) (l1Blk V c 1 t)) (ix2 r j) * (k1_pay6 (l1Blk V c 0 t) (l1Blk V c 2 t) (l1Blk V c 3 t) (l1Blk V c 1 t)) (ix2 r j) = blockSum 4096 (sq (lin zeroW (affine (V c (Pipeline.arrRef spec1 0) : A2 32768 256) (V c (Pipeline.arrRef spec1 2) : A2 1 256) (V c (Pipeline.arrRef spec1 3) : A2 1 256)) (V c (Pipeline.arrRef spec1 1) : A2 256 256))) t.val j :=
  Finset.sum_congr rfl fun r _ => l1H_sqRow V c t r j

/-! ## The products' array -/

theorem l1FlushedH (c : Dev nD) (t : Fin cfg1.N) (hf : (cfg1.win 4).flush t = true) :
    (l1Dat V c).flushed 4 t = ((cfg1.win 4).blk t).view.read (Elt Ideal) ((lin zeroW (affine (V c (Pipeline.arrRef spec1 0) : A2 32768 256) (V c (Pipeline.arrRef spec1 2) : A2 1 256) (V c (Pipeline.arrRef spec1 3) : A2 1 256)) (V c (Pipeline.arrRef spec1 1) : A2 256 256)) : A2 32768 256) := by
  have hN : cfg1.N = 8 := N_1
  show (cfg1.win 4).cut (grid1.coords t) ((l1Dat V c).after 4 t) = _
  rw [l1After4, l1At_H]
  funext y
  obtain ⟨r, j, rfl⟩ : ∃ (r : Fin 4096) (j : Fin 256), y = ix2 r j := ⟨y 0, y 1, eq_ix2 y⟩
  show (k1_pay6 (l1Blk V c 0 t) (l1Blk V c 2 t) (l1Blk V c 3 t) (l1Blk V c 1 t)) (ix2 r j) = (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) (((cfg1.win 4).blk t).view.emb (ix2 r j))
  rw [l1H_apply]
  refine congrArg (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) ?_
  funext a
  apply Fin.ext
  obtain ⟨-, -, -, -, -, -, -, -, e0, e1, -, -, -, -⟩ := l1Index t
  match a with
  | ⟨0, _⟩ => show t.val * 4096 + r.val = win1_4.index t (0 : Fin 2) * 4096 + 1 * r.val; rw [e0]; omega
  | ⟨1, _⟩ => show j.val = win1_4.index t (1 : Fin 2) * 256 + 1 * j.val; rw [e1]; omega

theorem l1CoverArrH (i : S32768x256.Idx) : ∃ t : Fin cfg1.N, (cfg1.win 4).flush t = true ∧ i ∈ ((cfg1.win 4).blk t).view.set := by
    have hN : cfg1.N = 8 := N_1
    have hG : grid1.N = 8 := N_1
    have h0 : (i 0 : Nat) < 32768 := (i 0).isLt
    have h1 : (i 1 : Nat) < 256 := (i 1).isLt
    have ht : (i 0 : Nat) / 4096 < grid1.N := by omega
    refine ⟨⟨(i 0 : Nat) / 4096, ht⟩, flush1_4 _, ?_⟩
    show i ∈ ((View.whole main_v50_0).slice (win1_4.rect ⟨(i 0 : Nat) / 4096, ht⟩)).set
    rw [View.set_slice_whole, Rect.mem_set_unit]
    intro a
    obtain ⟨-, -, -, -, -, -, -, -, e0, e1, -, -, -, -⟩ := l1Index ⟨(i 0 : Nat) / 4096, ht⟩
    match a with
    | ⟨0, _⟩ => show win1_4.index _ (0 : Fin 2) * 4096 ≤ (i 0 : Nat) ∧ (i 0 : Nat) < win1_4.index _ (0 : Fin 2) * 4096 + 4096
                rw [e0]; show (i 0 : Nat) / 4096 * 4096 ≤ (i 0 : Nat) ∧ (i 0 : Nat) < (i 0 : Nat) / 4096 * 4096 + 4096; omega
    | ⟨1, _⟩ => show win1_4.index _ (1 : Fin 2) * 256 ≤ (i 1 : Nat) ∧ (i 1 : Nat) < win1_4.index _ (1 : Fin 2) * 256 + 256
                rw [e1]; omega

theorem l1ArrH (c : Dev nD) : (l1Dat V c).arrAt 4 cfg1.N = ((lin zeroW (affine (V c (Pipeline.arrRef spec1 0) : A2 32768 256) (V c (Pipeline.arrRef spec1 2) : A2 1 256) (V c (Pipeline.arrRef spec1 3) : A2 1 256)) (V c (Pipeline.arrRef spec1 1) : A2 256 256)) : A2 32768 256) :=
  (l1Dat V c).arrAt_eq_of_cover 4 ((lin zeroW (affine (V c (Pipeline.arrRef spec1 0) : A2 32768 256) (V c (Pipeline.arrRef spec1 2) : A2 1 256) (V c (Pipeline.arrRef spec1 3) : A2 1 256)) (V c (Pipeline.arrRef spec1 1) : A2 256 256)) : A2 32768 256) (l1FlushedH V c) fun i => l1CoverArrH i

/-! ## The scratch rows are the running sums -/

theorem l1AccS (c : Dev nD) : ∀ (n : ℕ) (hn : n < cfg1.N) (u : Fin 1) (j : Fin 256),
    (l1Acc V c n hn).1 (ix2 u j) = chain 4096 4 (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) j n
  | 0, hn, u, j => by
    unfold l1Acc chain
    dsimp only
    rw [k1_pay7_apply]
    rw [k1_pay4_apply, l1H_blockSum V c ⟨0, hn⟩ j]
  | n + 1, hn, u, j => by
    have ih := l1AccS c n (Nat.lt_of_succ_lt hn) u j
    unfold l1Acc chain
    by_cases h0 : (n + 1) % 4 = 0
    · rw [if_pos h0, if_pos h0]
      dsimp only
      rw [k1_pay7_apply]
      rw [k1_pay4_apply, l1H_blockSum V c ⟨n + 1, hn⟩ j]
    · rw [if_neg h0, if_neg h0]
      dsimp only
      rw [k1_pay7_apply]
      rw [ih, l1H_blockSum V c ⟨n + 1, hn⟩ j]

theorem l1AccQ (c : Dev nD) : ∀ (n : ℕ) (hn : n < cfg1.N) (u : Fin 1) (j : Fin 256),
    (l1Acc V c n hn).2 (ix2 u j) = chain 4096 4 (sq (lin zeroW (affine (V c (Pipeline.arrRef spec1 0) : A2 32768 256) (V c (Pipeline.arrRef spec1 2) : A2 1 256) (V c (Pipeline.arrRef spec1 3) : A2 1 256)) (V c (Pipeline.arrRef spec1 1) : A2 256 256))) j n
  | 0, hn, u, j => by
    unfold l1Acc chain
    dsimp only
    rw [k1_pay1_apply]; simp only [k1_pay8_apply]
    rw [k1_pay5_apply, l1H_sqBlockSum V c ⟨0, hn⟩ j]
  | n + 1, hn, u, j => by
    have ih := l1AccQ c n (Nat.lt_of_succ_lt hn) u j
    unfold l1Acc chain
    by_cases h0 : (n + 1) % 4 = 0
    · rw [if_pos h0, if_pos h0]
      dsimp only
      rw [k1_pay1_apply]; simp only [k1_pay8_apply]
      rw [k1_pay5_apply, l1H_sqBlockSum V c ⟨n + 1, hn⟩ j]
    · rw [if_neg h0, if_neg h0]
      dsimp only
      rw [k1_pay1_apply]; simp only [k1_pay8_apply]
      rw [ih, l1H_sqBlockSum V c ⟨n + 1, hn⟩ j]

/-! ## The two statistics arrays -/

theorem l1FlushedA (c : Dev nD) (t : Fin cfg1.N) (hf : (cfg1.win 5).flush t = true) :
    (l1Dat V c).flushed 5 t = ((cfg1.win 5).blk t).view.read (Elt Ideal) (pad 4096 4 (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) : A2 16 256) := by
  have h7 : t.val % 4 = 3 := (flush1_5 t).mp hf
  have hN : cfg1.N = 8 := N_1
  show (cfg1.win 5).cut (grid1.coords t) ((l1Dat V c).after 5 t) = _
  rw [l1After5, l1At_A V c t h7]
  funext y
  obtain ⟨q, j, rfl⟩ : ∃ (q : Fin 8) (j : Fin 256), y = ix2 q j := ⟨y 0, y 1, eq_ix2 y⟩
  show k1_pay2 (l1Acc V c t.val t.isLt).1 (ix2 q j) = (pad 4096 4 (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) : A2 16 256) (((cfg1.win 5).blk t).view.emb (ix2 q j))
  rw [k1_pay2_apply, l1AccS V c t.val t.isLt 0 j]
  have he : ((cfg1.win 5).blk t).view.emb (ix2 q j) = (ix2 (⟨t.val / 4 * 8 + q.val, by have := t.isLt; omega⟩ : Fin 16) j) := by
    funext a
    apply Fin.ext
    obtain ⟨-, -, -, -, -, -, -, -, -, -, e0, e1, -, -⟩ := l1Index t
    match a with
    | ⟨0, _⟩ => show win1_5.index t (0 : Fin 2) * 8 + 1 * q.val = t.val / 4 * 8 + q.val; rw [e0]; omega
    | ⟨1, _⟩ => show win1_5.index t (1 : Fin 2) * 256 + 1 * j.val = j.val; rw [e1]; omega
  rw [he]
  show chain 4096 4 (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) j t.val = chain 4096 4 (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) j ((t.val / 4 * 8 + q.val) / 8 * 4 + (4 - 1))
  refine congrArg (chain 4096 4 (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) j) ?_
  have := q.isLt
  omega

theorem l1CoverArrA (i : S16x256.Idx) : ∃ t : Fin cfg1.N, (cfg1.win 5).flush t = true ∧ i ∈ ((cfg1.win 5).blk t).view.set := by
    have hN : cfg1.N = 8 := N_1
    have hG : grid1.N = 8 := N_1
    have h0 : (i 0 : Nat) < 16 := (i 0).isLt
    have h1 : (i 1 : Nat) < 256 := (i 1).isLt
    have ht : (i 0 : Nat) / 8 * 4 + 3 < grid1.N := by omega
    refine ⟨⟨(i 0 : Nat) / 8 * 4 + 3, ht⟩, (flush1_5 _).mpr (by show ((i 0 : Nat) / 8 * 4 + 3) % 4 = 3; omega), ?_⟩
    show i ∈ ((View.whole main_v50_1).slice (win1_5.rect ⟨(i 0 : Nat) / 8 * 4 + 3, ht⟩)).set
    rw [View.set_slice_whole, Rect.mem_set_unit]
    intro a
    obtain ⟨-, -, -, -, -, -, -, -, -, -, e0, e1, -, -⟩ := l1Index ⟨(i 0 : Nat) / 8 * 4 + 3, ht⟩
    match a with
    | ⟨0, _⟩ => show win1_5.index _ (0 : Fin 2) * 8 ≤ (i 0 : Nat) ∧ (i 0 : Nat) < win1_5.index _ (0 : Fin 2) * 8 + 8
                rw [e0]; show ((i 0 : Nat) / 8 * 4 + 3) / 4 * 8 ≤ (i 0 : Nat) ∧ (i 0 : Nat) < ((i 0 : Nat) / 8 * 4 + 3) / 4 * 8 + 8; omega
    | ⟨1, _⟩ => show win1_5.index _ (1 : Fin 2) * 256 ≤ (i 1 : Nat) ∧ (i 1 : Nat) < win1_5.index _ (1 : Fin 2) * 256 + 256
                rw [e1]; omega

theorem l1ArrA (c : Dev nD) : (l1Dat V c).arrAt 5 cfg1.N = (pad 4096 4 (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) : A2 16 256) :=
  (l1Dat V c).arrAt_eq_of_cover 5 (pad 4096 4 (lin zeroW (affine (V c (Pipeline.arrRef spec1 0) : A2 32768 256) (V c (Pipeline.arrRef spec1 2) : A2 1 256) (V c (Pipeline.arrRef spec1 3) : A2 1 256)) (V c (Pipeline.arrRef spec1 1) : A2 256 256)) : A2 16 256) (l1FlushedA V c) fun i => l1CoverArrA i

theorem l1FlushedB (c : Dev nD) (t : Fin cfg1.N) (hf : (cfg1.win 6).flush t = true) :
    (l1Dat V c).flushed 6 t = ((cfg1.win 6).blk t).view.read (Elt Ideal) (pad 4096 4 (sq (lin zeroW (affine (V c (Pipeline.arrRef spec1 0) : A2 32768 256) (V c (Pipeline.arrRef spec1 2) : A2 1 256) (V c (Pipeline.arrRef spec1 3) : A2 1 256)) (V c (Pipeline.arrRef spec1 1) : A2 256 256))) : A2 16 256) := by
  have h7 : t.val % 4 = 3 := (flush1_6 t).mp hf
  have hN : cfg1.N = 8 := N_1
  show (cfg1.win 6).cut (grid1.coords t) ((l1Dat V c).after 6 t) = _
  rw [l1After6, l1At_B V c t h7]
  funext y
  obtain ⟨q, j, rfl⟩ : ∃ (q : Fin 8) (j : Fin 256), y = ix2 q j := ⟨y 0, y 1, eq_ix2 y⟩
  show k1_pay3 (l1Acc V c t.val t.isLt).2 (ix2 q j) = (pad 4096 4 (sq (lin zeroW (affine (V c (Pipeline.arrRef spec1 0) : A2 32768 256) (V c (Pipeline.arrRef spec1 2) : A2 1 256) (V c (Pipeline.arrRef spec1 3) : A2 1 256)) (V c (Pipeline.arrRef spec1 1) : A2 256 256))) : A2 16 256) (((cfg1.win 6).blk t).view.emb (ix2 q j))
  rw [k1_pay3_apply, l1AccQ V c t.val t.isLt 0 j]
  have he : ((cfg1.win 6).blk t).view.emb (ix2 q j) = (ix2 (⟨t.val / 4 * 8 + q.val, by have := t.isLt; omega⟩ : Fin 16) j) := by
    funext a
    apply Fin.ext
    obtain ⟨-, -, -, -, -, -, -, -, -, -, -, -, e0, e1⟩ := l1Index t
    match a with
    | ⟨0, _⟩ => show win1_6.index t (0 : Fin 2) * 8 + 1 * q.val = t.val / 4 * 8 + q.val; rw [e0]; omega
    | ⟨1, _⟩ => show win1_6.index t (1 : Fin 2) * 256 + 1 * j.val = j.val; rw [e1]; omega
  rw [he]
  show chain 4096 4 (sq (lin zeroW (affine (V c (Pipeline.arrRef spec1 0) : A2 32768 256) (V c (Pipeline.arrRef spec1 2) : A2 1 256) (V c (Pipeline.arrRef spec1 3) : A2 1 256)) (V c (Pipeline.arrRef spec1 1) : A2 256 256))) j t.val = chain 4096 4 (sq (lin zeroW (affine (V c (Pipeline.arrRef spec1 0) : A2 32768 256) (V c (Pipeline.arrRef spec1 2) : A2 1 256) (V c (Pipeline.arrRef spec1 3) : A2 1 256)) (V c (Pipeline.arrRef spec1 1) : A2 256 256))) j ((t.val / 4 * 8 + q.val) / 8 * 4 + (4 - 1))
  refine congrArg (chain 4096 4 (sq (lin zeroW (affine (V c (Pipeline.arrRef spec1 0) : A2 32768 256) (V c (Pipeline.arrRef spec1 2) : A2 1 256) (V c (Pipeline.arrRef spec1 3) : A2 1 256)) (V c (Pipeline.arrRef spec1 1) : A2 256 256))) j) ?_
  have := q.isLt
  omega

theorem l1CoverArrB (i : S16x256.Idx) : ∃ t : Fin cfg1.N, (cfg1.win 6).flush t = true ∧ i ∈ ((cfg1.win 6).blk t).view.set := by
    have hN : cfg1.N = 8 := N_1
    have hG : grid1.N = 8 := N_1
    have h0 : (i 0 : Nat) < 16 := (i 0).isLt
    have h1 : (i 1 : Nat) < 256 := (i 1).isLt
    have ht : (i 0 : Nat) / 8 * 4 + 3 < grid1.N := by omega
    refine ⟨⟨(i 0 : Nat) / 8 * 4 + 3, ht⟩, (flush1_6 _).mpr (by show ((i 0 : Nat) / 8 * 4 + 3) % 4 = 3; omega), ?_⟩
    show i ∈ ((View.whole main_v50_2).slice (win1_6.rect ⟨(i 0 : Nat) / 8 * 4 + 3, ht⟩)).set
    rw [View.set_slice_whole, Rect.mem_set_unit]
    intro a
    obtain ⟨-, -, -, -, -, -, -, -, -, -, -, -, e0, e1⟩ := l1Index ⟨(i 0 : Nat) / 8 * 4 + 3, ht⟩
    match a with
    | ⟨0, _⟩ => show win1_6.index _ (0 : Fin 2) * 8 ≤ (i 0 : Nat) ∧ (i 0 : Nat) < win1_6.index _ (0 : Fin 2) * 8 + 8
                rw [e0]; show ((i 0 : Nat) / 8 * 4 + 3) / 4 * 8 ≤ (i 0 : Nat) ∧ (i 0 : Nat) < ((i 0 : Nat) / 8 * 4 + 3) / 4 * 8 + 8; omega
    | ⟨1, _⟩ => show win1_6.index _ (1 : Fin 2) * 256 ≤ (i 1 : Nat) ∧ (i 1 : Nat) < win1_6.index _ (1 : Fin 2) * 256 + 256
                rw [e1]; omega

theorem l1ArrB (c : Dev nD) : (l1Dat V c).arrAt 6 cfg1.N = (pad 4096 4 (sq (lin zeroW (affine (V c (Pipeline.arrRef spec1 0) : A2 32768 256) (V c (Pipeline.arrRef spec1 2) : A2 1 256) (V c (Pipeline.arrRef spec1 3) : A2 1 256)) (V c (Pipeline.arrRef spec1 1) : A2 256 256))) : A2 16 256) :=
  (l1Dat V c).arrAt_eq_of_cover 6 (pad 4096 4 (sq (lin zeroW (affine (V c (Pipeline.arrRef spec1 0) : A2 32768 256) (V c (Pipeline.arrRef spec1 2) : A2 1 256) (V c (Pipeline.arrRef spec1 3) : A2 1 256)) (V c (Pipeline.arrRef spec1 1) : A2 256 256))) : A2 16 256) (l1FlushedB V c) fun i => l1CoverArrB i

end Cert.KernelIdeal.Hand

end
-- ==== Proof.Layer2PiecesIdeal.lean ====
/-
  The third layer's region, read as values: the stores each kind of grid point leaves are whole-buffer stores, so
  a buffer ends at its last store's value — h's buffer at this block's product, a scratch row at its value on entry
  (the cleared row at a first block) plus this block's column sums, a statistics buffer (last block only) at eight
  copies of the finished row. Hence the two scratch rows after each position in closed form, by induction on the
  position.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer2RegionIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem l2hz2 : (![0, 0] : Fin 2 → Nat) = fun _ => 0 := funext fun a => by fin_cases a <;> rfl
local notation "hz2" => l2hz2

/-! ## What each kind of point leaves, as values -/

theorem l2First_H (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) :
    (l2LeftFirst c t hF hL x0 x1 x2 x3).1 = (k2_pay6 x0 x2 x3 x1) := by
  unfold l2LeftFirst
  dsimp only
  rw [View.read_writes_eq_canon _ _ _ (l2CoverFirstH c t hF hL x0 x1 x2 x3)]
  unfold l2FirstAt l2RunFirst
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S4096x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l2First_S (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) :
    (l2LeftFirst c t hF hL x0 x1 x2 x3).2.2.2.1 = (k2_pay7 x0 x2 x3 x1 (k2_pay4 (F := F))) := by
  unfold l2LeftFirst
  dsimp only
  rw [View.read_writes_eq_canon _ _ _ (l2CoverFirstS c t hF hL x0 x1 x2 x3)]
  unfold l2FirstAt l2RunFirst
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l2First_Q (c : Dev nD) (t : Fin cfg2.N) (hF : l2First (grid2.coords t)) (hL : ¬l2Last (grid2.coords t)) (x0 : Vec F S4096x256 .f32) (x1 : Vec F S256x256 .bf16) (x2 : Vec F S1x256 .f32) (x3 : Vec F S1x256 .f32) :
    (l2LeftFirst c t hF hL x0 x1 x2 x3).2.2.2.2 = (k2_pay1 (k2_pay5 (F := F)) (k2_pay8 x0 x2 x3 x1)) := by
  unfold l2LeftFirst
  dsimp only
  rw [View.read_writes_eq_canon _ _ _ (l2CoverFirstQ c t hF hL x0 x1 x2 x3)]
  unfold l2FirstAt l2RunFirst
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l2Mid_H (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) :
    (l2LeftMid c t hF hL x0 x1 x2 x3 s q).1 = (k2_pay6 x0 x2 x3 x1) := by
  unfold l2LeftMid
  dsimp only
  rw [View.read_writes_eq_canon _ _ _ (l2CoverMidH c t hF hL x0 x1 x2 x3 s q)]
  unfold l2MidAt l2RunMid
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S4096x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l2Mid_S (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) :
    (l2LeftMid c t hF hL x0 x1 x2 x3 s q).2.2.2.1 = (k2_pay7 x0 x2 x3 x1 s) := by
  unfold l2LeftMid
  dsimp only
  rw [View.read_writes_eq_canon _ _ _ (l2CoverMidS c t hF hL x0 x1 x2 x3 s q)]
  unfold l2MidAt l2RunMid
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l2Mid_Q (c : Dev nD) (t : Fin cfg2.N) (hF : ¬l2First (grid2.coords t)) (hL : ¬l2Last (grid2.coords t)) (x0 : Vec F S4096x256 .f32) (x1 : Vec F S256x256 .bf16) (x2 : Vec F S1x256 .f32) (x3 : Vec F S1x256 .f32) (s q : Vec F S1x256 .f32) :
    (l2LeftMid c t hF hL x0 x1 x2 x3 s q).2.2.2.2 = (k2_pay1 q (k2_pay8 x0 x2 x3 x1)) := by
  unfold l2LeftMid
  dsimp only
  rw [View.read_writes_eq_canon _ _ _ (l2CoverMidQ c t hF hL x0 x1 x2 x3 s q)]
  unfold l2MidAt l2RunMid
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l2Last_H (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) :
    (l2LeftLast c t hF hL x0 x1 x2 x3 s q).1 = (k2_pay6 x0 x2 x3 x1) := by
  unfold l2LeftLast
  dsimp only
  rw [View.read_writes_eq_canon _ _ _ (l2CoverLastH c t hF hL x0 x1 x2 x3 s q)]
  unfold l2LastAt l2RunLast
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S4096x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l2Last_A (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) :
    (l2LeftLast c t hF hL x0 x1 x2 x3 s q).2.1 = (k2_pay2 (k2_pay7 x0 x2 x3 x1 s)) := by
  unfold l2LeftLast
  dsimp only
  rw [View.read_writes_eq_canon _ _ _ (l2CoverLast3 c t hF hL x0 x1 x2 x3 s q)]
  unfold l2LastAt l2RunLast
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S8x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l2Last_B (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) :
    (l2LeftLast c t hF hL x0 x1 x2 x3 s q).2.2.1 = (k2_pay3 (k2_pay1 q (k2_pay8 x0 x2 x3 x1))) := by
  unfold l2LeftLast
  dsimp only
  rw [View.read_writes_eq_canon _ _ _ (l2CoverLast4 c t hF hL x0 x1 x2 x3 s q)]
  unfold l2LastAt l2RunLast
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S8x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l2Last_S (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) :
    (l2LeftLast c t hF hL x0 x1 x2 x3 s q).2.2.2.1 = (k2_pay7 x0 x2 x3 x1 s) := by
  unfold l2LeftLast
  dsimp only
  rw [View.read_writes_eq_canon _ _ _ (l2CoverLastS c t hF hL x0 x1 x2 x3 s q)]
  unfold l2LastAt l2RunLast
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l2Last_Q (c : Dev nD) (t : Fin cfg2.N) (hF : ¬l2First (grid2.coords t)) (hL : l2Last (grid2.coords t)) (x0 : Vec F S4096x256 .f32) (x1 : Vec F S256x256 .bf16) (x2 : Vec F S1x256 .f32) (x3 : Vec F S1x256 .f32) (s q : Vec F S1x256 .f32) :
    (l2LeftLast c t hF hL x0 x1 x2 x3 s q).2.2.2.2 = (k2_pay1 q (k2_pay8 x0 x2 x3 x1)) := by
  unfold l2LeftLast
  dsimp only
  rw [View.read_writes_eq_canon _ _ _ (l2CoverLastQ c t hF hL x0 x1 x2 x3 s q)]
  unfold l2LastAt l2RunLast
  dsimp only
  try sl_unfold_words
  have hS : ∀ X : Vec F S1x256 .f32, View.read (Elt F) (View.whole cc2_scratch0) ((Memref.isWhole_whole cc2_scratch0).unread X) = X :=
    fun X => (Memref.isWhole_whole cc2_scratch0).read_unread X
  have hQ : ∀ X : Vec F S1x256 .f32, View.read (Elt F) (View.whole cc2_scratch1) ((Memref.isWhole_whole cc2_scratch1).unread X) = X :=
    fun X => (Memref.isWhole_whole cc2_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

variable (V : (c : Dev nD) → (b : Ref sig .tc) → Buf (Elt F) ((c : Thread nD τ).loc b))

/-! ## The two scratch rows after each position, in closed form -/

/-- After position n: at a first block the step from the cleared row; otherwise the step from what the block before left. -/
def l2Acc (c : Dev nD) : (n : ℕ) → n < cfg2.N → Vec F S1x256 .f32 × Vec F S1x256 .f32
  | 0, hn => ((k2_pay7 (l2Blk V c 0 ⟨0, hn⟩) (l2Blk V c 2 ⟨0, hn⟩) (l2Blk V c 3 ⟨0, hn⟩) (l2Blk V c 1 ⟨0, hn⟩) (k2_pay4 (F := F))), (k2_pay1 (k2_pay5 (F := F)) (k2_pay8 (l2Blk V c 0 ⟨0, hn⟩) (l2Blk V c 2 ⟨0, hn⟩) (l2Blk V c 3 ⟨0, hn⟩) (l2Blk V c 1 ⟨0, hn⟩))))
  | n + 1, hn =>
    if (n + 1) % 4 = 0 then ((k2_pay7 (l2Blk V c 0 ⟨n + 1, hn⟩) (l2Blk V c 2 ⟨n + 1, hn⟩) (l2Blk V c 3 ⟨n + 1, hn⟩) (l2Blk V c 1 ⟨n + 1, hn⟩) (k2_pay4 (F := F))), (k2_pay1 (k2_pay5 (F := F)) (k2_pay8 (l2Blk V c 0 ⟨n + 1, hn⟩) (l2Blk V c 2 ⟨n + 1, hn⟩) (l2Blk V c 3 ⟨n + 1, hn⟩) (l2Blk V c 1 ⟨n + 1, hn⟩))))
    else ((k2_pay7 (l2Blk V c 0 ⟨n + 1, hn⟩) (l2Blk V c 2 ⟨n + 1, hn⟩) (l2Blk V c 3 ⟨n + 1, hn⟩) (l2Blk V c 1 ⟨n + 1, hn⟩) (l2Acc c n (Nat.lt_of_succ_lt hn)).1), (k2_pay1 (l2Acc c n (Nat.lt_of_succ_lt hn)).2 (k2_pay8 (l2Blk V c 0 ⟨n + 1, hn⟩) (l2Blk V c 2 ⟨n + 1, hn⟩) (l2Blk V c 3 ⟨n + 1, hn⟩) (l2Blk V c 1 ⟨n + 1, hn⟩))))

theorem l2At_SQ (c : Dev nD) : ∀ (n : ℕ) (hn : n < cfg2.N),
    (l2At V c n hn).2.2.2.1 = (l2Acc V c n hn).1 ∧ (l2At V c n hn).2.2.2.2 = (l2Acc V c n hn).2
  | 0, hn => by
    have e := l2At_first V c ⟨0, hn⟩ (Nat.zero_mod _)
    dsimp only at e
    rw [e]
    exact ⟨l2First_S .., l2First_Q ..⟩
  | n + 1, hn => by
    have ih := l2At_SQ c n (Nat.lt_of_succ_lt hn)
    by_cases h0 : (n + 1) % 4 = 0
    · have e := l2At_first V c ⟨n + 1, hn⟩ h0
      dsimp only at e
      rw [e]
      unfold l2Acc
      rw [if_pos h0]
      exact ⟨l2First_S .., l2First_Q ..⟩
    · by_cases h7 : (n + 1) % 4 = 3
      · have e := l2At_last V c ⟨n + 1, hn⟩ h0 h7
        dsimp only [Nat.add_sub_cancel] at e
        rw [e]
        unfold l2Acc
        rw [if_neg h0, l2Last_S, l2Last_Q]
        exact ⟨congrArg (fun z => (k2_pay7 (l2Blk V c 0 ⟨n + 1, hn⟩) (l2Blk V c 2 ⟨n + 1, hn⟩) (l2Blk V c 3 ⟨n + 1, hn⟩) (l2Blk V c 1 ⟨n + 1, hn⟩) z)) ih.1, congrArg (fun z => (k2_pay1 z (k2_pay8 (l2Blk V c 0 ⟨n + 1, hn⟩) (l2Blk V c 2 ⟨n + 1, hn⟩) (l2Blk V c 3 ⟨n + 1, hn⟩) (l2Blk V c 1 ⟨n + 1, hn⟩)))) ih.2⟩
      · have e := l2At_mid V c ⟨n + 1, hn⟩ h0 h7
        dsimp only [Nat.add_sub_cancel] at e
        rw [e]
        unfold l2Acc
        rw [if_neg h0, l2Mid_S, l2Mid_Q]
        exact ⟨congrArg (fun z => (k2_pay7 (l2Blk V c 0 ⟨n + 1, hn⟩) (l2Blk V c 2 ⟨n + 1, hn⟩) (l2Blk V c 3 ⟨n + 1, hn⟩) (l2Blk V c 1 ⟨n + 1, hn⟩) z)) ih.1, congrArg (fun z => (k2_pay1 z (k2_pay8 (l2Blk V c 0 ⟨n + 1, hn⟩) (l2Blk V c 2 ⟨n + 1, hn⟩) (l2Blk V c 3 ⟨n + 1, hn⟩) (l2Blk V c 1 ⟨n + 1, hn⟩)))) ih.2⟩

/-- h's buffer after any point: the product for that point's blocks. -/
theorem l2At_H (c : Dev nD) (t : Fin cfg2.N) : (l2At V c t.val t.isLt).1 = (k2_pay6 (l2Blk V c 0 t) (l2Blk V c 2 t) (l2Blk V c 3 t) (l2Blk V c 1 t)) := by
  by_cases h0 : t.val % 4 = 0
  · rw [l2At_first V c t h0]; exact l2First_H ..
  · by_cases h7 : t.val % 4 = 3
    · rw [l2At_last V c t h0 h7]; exact l2Last_H ..
    · rw [l2At_mid V c t h0 h7]; exact l2Mid_H ..

/-- The statistics buffers after a last block: eight copies of the finished rows. -/
theorem l2At_A (c : Dev nD) (t : Fin cfg2.N) (h7 : t.val % 4 = 3) :
    (l2At V c t.val t.isLt).2.1 = (k2_pay2 (l2Acc V c t.val t.isLt).1) := by
  have h0 : ¬t.val % 4 = 0 := by omega
  have hS := (l2At_SQ V c t.val t.isLt).1
  rw [l2At_last V c t h0 h7] at hS ⊢
  rw [l2Last_A, ← hS, l2Last_S]
theorem l2At_B (c : Dev nD) (t : Fin cfg2.N) (h7 : t.val % 4 = 3) :
    (l2At V c t.val t.isLt).2.2.1 = (k2_pay3 (l2Acc V c t.val t.isLt).2) := by
  have h0 : ¬t.val % 4 = 0 := by omega
  have hQ := (l2At_SQ V c t.val t.isLt).2
  rw [l2At_last V c t h0 h7] at hQ ⊢
  rw [l2Last_B, ← hQ, l2Last_Q]

end Cert.KernelIdeal.Hand

end
-- ==== Proof.Layer2ArraysIdeal.lean ====
/-
  The third layer's region at the exact instance, entry by entry: where each window's block sits in its array; a
  block's product as the corresponding rows of the layer's product over the whole arrays; hence what the region
  leaves in its three result arrays — the products, and the two statistics arrays holding each half's running
  sums of the products' columns and of their squares.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer2PiecesIdeal
import proofs.«126670_j49074296324140_2_alg».proof.Proof.MatmulAtIndex
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open ValueIdx
open Cert.ReferenceIdeal.Hand.RefSpec (A2 A1 arr arr_ix2)
open Cert.KernelIdeal.KSpec

local notation "𝕄" => MT nD τ sig Unit (Elt Ideal) ℕ (UR sig nD τ) ℕ

/-! ## Where the blocks sit -/

theorem l2Index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val / 4 ∧ win2_5.index t (1 : Fin 2) = 0
    ∧ win2_6.index t (0 : Fin 2) = t.val / 4 ∧ win2_6.index t (1 : Fin 2) = 0 :=
  (by decide +kernel : ∀ t : Fin grid2.N, _)

variable (V : (c : Dev nD) → (b : Ref sig .tc) → Buf (Elt Ideal) ((c : Thread nD τ).loc b))

/-- The block of the first window at point t, at row r, is row 4096·t + r of its array. -/
theorem l2Blk0_apply (c : Dev nD) (t : Fin cfg2.N) (r : Fin 4096) (l : Fin 256) :
    (l2Blk V c 0 t : Vec Ideal S4096x256 .f32) (ix2 r l) = (V c (Pipeline.arrRef spec2 0) : A2 32768 256) (ix2 ⟨t.val * 4096 + r.val, by have := t.isLt; have hN : cfg2.N = 8 := N_2; omega⟩ l) := by
  unfold l2Blk
  rw [View.read_apply]
  refine congrArg (V c (Pipeline.arrRef spec2 0)) ?_
  funext a
  apply Fin.ext
  obtain ⟨e0, e1, -, -, -, -, -, -, -, -, -, -, -, -⟩ := l2Index t
  match a with
  | ⟨0, _⟩ => show win2_0.index t (0 : Fin 2) * 4096 + 1 * r.val = t.val * 4096 + r.val; rw [e0]; omega
  | ⟨1, _⟩ => show win2_0.index t (1 : Fin 2) * 256 + 1 * l.val = l.val; rw [e1]; omega
/-- The block of window 1 is the whole (256 × 256) array. -/
theorem l2Blk1_apply (c : Dev nD) (t : Fin cfg2.N) (q : Fin 256) (l : Fin 256) :
    (l2Blk V c 1 t : Vec Ideal S256x256 .bf16) (ix2 q l) = (V c (Pipeline.arrRef spec2 1) : A2 256 256) (ix2 q l) := by
  unfold l2Blk
  rw [View.read_apply]
  refine congrArg (V c (Pipeline.arrRef spec2 1)) ?_
  funext a
  apply Fin.ext
  obtain ⟨-, -, e0, e1, -, -, -, -, -, -, -, -, -, -⟩ := l2Index t
  match a with
  | ⟨0, _⟩ => show win2_1.index t (0 : Fin 2) * 256 + 1 * q.val = q.val; rw [e0]; omega
  | ⟨1, _⟩ => show win2_1.index t (1 : Fin 2) * 256 + 1 * l.val = l.val; rw [e1]; omega
/-- The block of window 2 is the whole (1 × 256) array. -/
theorem l2Blk2_apply (c : Dev nD) (t : Fin cfg2.N) (q : Fin 1) (l : Fin 256) :
    (l2Blk V c 2 t : Vec Ideal S1x256 .f32) (ix2 q l) = (V c (Pipeline.arrRef spec2 2) : A2 1 256) (ix2 q l) := by
  unfold l2Blk
  rw [View.read_apply]
  refine congrArg (V c (Pipeline.arrRef spec2 2)) ?_
  funext a
  apply Fin.ext
  obtain ⟨-, -, -, -, e0, e1, -, -, -, -, -, -, -, -⟩ := l2Index t
  match a with
  | ⟨0, _⟩ => show win2_2.index t (0 : Fin 2) * 1 + 1 * q.val = q.val; rw [e0]; omega
  | ⟨1, _⟩ => show win2_2.index t (1 : Fin 2) * 256 + 1 * l.val = l.val; rw [e1]; omega
/-- The block of window 3 is the whole (1 × 256) array. -/
theorem l2Blk3_apply (c : Dev nD) (t : Fin cfg2.N) (q : Fin 1) (l : Fin 256) :
    (l2Blk V c 3 t : Vec Ideal S1x256 .f32) (ix2 q l) = (V c (Pipeline.arrRef spec2 3) : A2 1 256) (ix2 q l) := by
  unfold l2Blk
  rw [View.read_apply]
  refine congrArg (V c (Pipeline.arrRef spec2 3)) ?_
  funext a
  apply Fin.ext
  obtain ⟨-, -, -, -, -, -, e0, e1, -, -, -, -, -, -⟩ := l2Index t
  match a with
  | ⟨0, _⟩ => show win2_3.index t (0 : Fin 2) * 1 + 1 * q.val = q.val; rw [e0]; omega
  | ⟨1, _⟩ => show win2_3.index t (1 : Fin 2) * 256 + 1 * l.val = l.val; rw [e1]; omega

/-! ## A block's product is the corresponding rows of the layer's product -/

theorem l2H_apply (c : Dev nD) (t : Fin cfg2.N) (r : Fin 4096) (j : Fin 256) :
    (k2_pay6 (l2Blk V c 0 t) (l2Blk V c 2 t) (l2Blk V c 3 t) (l2Blk V c 1 t)) (ix2 r j) = (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) (ix2 ⟨t.val * 4096 + r.val, by have := t.isLt; have hN : cfg2.N = 8 := N_2; omega⟩ j) := by
  rw [k2_pay6_apply]
  show _ = ∑ l : Fin 256, signAt zeroW ((affine (V c (Pipeline.arrRef spec2 0) : A2 32768 256) (V c (Pipeline.arrRef spec2 2) : A2 1 256) (V c (Pipeline.arrRef spec2 3) : A2 1 256)) (ix2 ⟨t.val * 4096 + r.val, _⟩ l)) * (V c (Pipeline.arrRef spec2 1) : A2 256 256) (ix2 j l)
  refine Finset.sum_congr rfl fun l _ => ?_
  rw [l2Blk0_apply, l2Blk1_apply, l2Blk2_apply, l2Blk3_apply]
  try rfl

theorem l2H_row (c : Dev nD) (t : Fin cfg2.N) (r : Fin 4096) (j : Fin 256) :
    (k2_pay6 (l2Blk V c 0 t) (l2Blk V c 2 t) (l2Blk V c 3 t) (l2Blk V c 1 t)) (ix2 r j) = rowAt (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) (t.val * 4096 + r.val) j := by
  rw [l2H_apply]; unfold rowAt; rw [dif_pos]
theorem l2H_blockSum (c : Dev nD) (t : Fin cfg2.N) (j : Fin 256) :
    ∑ r : Fin 4096, (k2_pay6 (l2Blk V c 0 t) (l2Blk V c 2 t) (l2Blk V c 3 t) (l2Blk V c 1 t)) (ix2 r j) = blockSum 4096 (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) t.val j :=
  Finset.sum_congr rfl fun r _ => l2H_row V c t r j
theorem l2H_sqRow (c : Dev nD) (t : Fin cfg2.N) (r : Fin 4096) (j : Fin 256) :
    (k2_pay6 (l2Blk V c 0 t) (l2Blk V c 2 t) (l2Blk V c 3 t) (l2Blk V c 1 t)) (ix2 r j) * (k2_pay6 (l2Blk V c 0 t) (l2Blk V c 2 t) (l2Blk V c 3 t) (l2Blk V c 1 t)) (ix2 r j) = rowAt (sq (lin zeroW (affine (V c (Pipeline.arrRef spec2 0) : A2 32768 256) (V c (Pipeline.arrRef spec2 2) : A2 1 256) (V c (Pipeline.arrRef spec2 3) : A2 1 256)) (V c (Pipeline.arrRef spec2 1) : A2 256 256))) (t.val * 4096 + r.val) j := by
  rw [l2H_apply]; unfold rowAt; rw [dif_pos]; rfl
theorem l2H_sqBlockSum (c : Dev nD) (t : Fin cfg2.N) (j : Fin 256) :
    ∑ r : Fin 4096, (k2_pay6 (l2Blk V c 0 t) (l2Blk V c 2 t) (l2Blk V c 3 t) (l2Blk V c 1 t)) (ix2 r j) * (k2_pay6 (l2Blk V c 0 t) (l2Blk V c 2 t) (l2Blk V c 3 t) (l2Blk V c 1 t)) (ix2 r j) = blockSum 4096 (sq (lin zeroW (affine (V c (Pipeline.arrRef spec2 0) : A2 32768 256) (V c (Pipeline.arrRef spec2 2) : A2 1 256) (V c (Pipeline.arrRef spec2 3) : A2 1 256)) (V c (Pipeline.arrRef spec2 1) : A2 256 256))) t.val j :=
  Finset.sum_congr rfl fun r _ => l2H_sqRow V c t r j

/-! ## The products' array -/

theorem l2FlushedH (c : Dev nD) (t : Fin cfg2.N) (hf : (cfg2.win 4).flush t = true) :
    (l2Dat V c).flushed 4 t = ((cfg2.win 4).blk t).view.read (Elt Ideal) ((lin zeroW (affine (V c (Pipeline.arrRef spec2 0) : A2 32768 256) (V c (Pipeline.arrRef spec2 2) : A2 1 256) (V c (Pipeline.arrRef spec2 3) : A2 1 256)) (V c (Pipeline.arrRef spec2 1) : A2 256 256)) : A2 32768 256) := by
  have hN : cfg2.N = 8 := N_2
  show (cfg2.win 4).cut (grid2.coords t) ((l2Dat V c).after 4 t) = _
  rw [l2After4, l2At_H]
  funext y
  obtain ⟨r, j, rfl⟩ : ∃ (r : Fin 4096) (j : Fin 256), y = ix2 r j := ⟨y 0, y 1, eq_ix2 y⟩
  show (k2_pay6 (l2Blk V c 0 t) (l2Blk V c 2 t) (l2Blk V c 3 t) (l2Blk V c 1 t)) (ix2 r j) = (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) (((cfg2.win 4).blk t).view.emb (ix2 r j))
  rw [l2H_apply]
  refine congrArg (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) ?_
  funext a
  apply Fin.ext
  obtain ⟨-, -, -, -, -, -, -, -, e0, e1, -, -, -, -⟩ := l2Index t
  match a with
  | ⟨0, _⟩ => show t.val * 4096 + r.val = win2_4.index t (0 : Fin 2) * 4096 + 1 * r.val; rw [e0]; omega
  | ⟨1, _⟩ => show j.val = win2_4.index t (1 : Fin 2) * 256 + 1 * j.val; rw [e1]; omega

theorem l2CoverArrH (i : S32768x256.Idx) : ∃ t : Fin cfg2.N, (cfg2.win 4).flush t = true ∧ i ∈ ((cfg2.win 4).blk t).view.set := by
    have hN : cfg2.N = 8 := N_2
    have hG : grid2.N = 8 := N_2
    have h0 : (i 0 : Nat) < 32768 := (i 0).isLt
    have h1 : (i 1 : Nat) < 256 := (i 1).isLt
    have ht : (i 0 : Nat) / 4096 < grid2.N := by omega
    refine ⟨⟨(i 0 : Nat) / 4096, ht⟩, flush2_4 _, ?_⟩
    show i ∈ ((View.whole main_v80_0).slice (win2_4.rect ⟨(i 0 : Nat) / 4096, ht⟩)).set
    rw [View.set_slice_whole, Rect.mem_set_unit]
    intro a
    obtain ⟨-, -, -, -, -, -, -, -, e0, e1, -, -, -, -⟩ := l2Index ⟨(i 0 : Nat) / 4096, ht⟩
    match a with
    | ⟨0, _⟩ => show win2_4.index _ (0 : Fin 2) * 4096 ≤ (i 0 : Nat) ∧ (i 0 : Nat) < win2_4.index _ (0 : Fin 2) * 4096 + 4096
                rw [e0]; show (i 0 : Nat) / 4096 * 4096 ≤ (i 0 : Nat) ∧ (i 0 : Nat) < (i 0 : Nat) / 4096 * 4096 + 4096; omega
    | ⟨1, _⟩ => show win2_4.index _ (1 : Fin 2) * 256 ≤ (i 1 : Nat) ∧ (i 1 : Nat) < win2_4.index _ (1 : Fin 2) * 256 + 256
                rw [e1]; omega

theorem l2ArrH (c : Dev nD) : (l2Dat V c).arrAt 4 cfg2.N = ((lin zeroW (affine (V c (Pipeline.arrRef spec2 0) : A2 32768 256) (V c (Pipeline.arrRef spec2 2) : A2 1 256) (V c (Pipeline.arrRef spec2 3) : A2 1 256)) (V c (Pipeline.arrRef spec2 1) : A2 256 256)) : A2 32768 256) :=
  (l2Dat V c).arrAt_eq_of_cover 4 ((lin zeroW (affine (V c (Pipeline.arrRef spec2 0) : A2 32768 256) (V c (Pipeline.arrRef spec2 2) : A2 1 256) (V c (Pipeline.arrRef spec2 3) : A2 1 256)) (V c (Pipeline.arrRef spec2 1) : A2 256 256)) : A2 32768 256) (l2FlushedH V c) fun i => l2CoverArrH i

/-! ## The scratch rows are the running sums -/

theorem l2AccS (c : Dev nD) : ∀ (n : ℕ) (hn : n < cfg2.N) (u : Fin 1) (j : Fin 256),
    (l2Acc V c n hn).1 (ix2 u j) = chain 4096 4 (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) j n
  | 0, hn, u, j => by
    unfold l2Acc chain
    dsimp only
    rw [k2_pay7_apply]
    rw [k2_pay4_apply, l2H_blockSum V c ⟨0, hn⟩ j]
  | n + 1, hn, u, j => by
    have ih := l2AccS c n (Nat.lt_of_succ_lt hn) u j
    unfold l2Acc chain
    by_cases h0 : (n + 1) % 4 = 0
    · rw [if_pos h0, if_pos h0]
      dsimp only
      rw [k2_pay7_apply]
      rw [k2_pay4_apply, l2H_blockSum V c ⟨n + 1, hn⟩ j]
    · rw [if_neg h0, if_neg h0]
      dsimp only
      rw [k2_pay7_apply]
      rw [ih, l2H_blockSum V c ⟨n + 1, hn⟩ j]

theorem l2AccQ (c : Dev nD) : ∀ (n : ℕ) (hn : n < cfg2.N) (u : Fin 1) (j : Fin 256),
    (l2Acc V c n hn).2 (ix2 u j) = chain 4096 4 (sq (lin zeroW (affine (V c (Pipeline.arrRef spec2 0) : A2 32768 256) (V c (Pipeline.arrRef spec2 2) : A2 1 256) (V c (Pipeline.arrRef spec2 3) : A2 1 256)) (V c (Pipeline.arrRef spec2 1) : A2 256 256))) j n
  | 0, hn, u, j => by
    unfold l2Acc chain
    dsimp only
    rw [k2_pay1_apply]; simp only [k2_pay8_apply]
    rw [k2_pay5_apply, l2H_sqBlockSum V c ⟨0, hn⟩ j]
  | n + 1, hn, u, j => by
    have ih := l2AccQ c n (Nat.lt_of_succ_lt hn) u j
    unfold l2Acc chain
    by_cases h0 : (n + 1) % 4 = 0
    · rw [if_pos h0, if_pos h0]
      dsimp only
      rw [k2_pay1_apply]; simp only [k2_pay8_apply]
      rw [k2_pay5_apply, l2H_sqBlockSum V c ⟨n + 1, hn⟩ j]
    · rw [if_neg h0, if_neg h0]
      dsimp only
      rw [k2_pay1_apply]; simp only [k2_pay8_apply]
      rw [ih, l2H_sqBlockSum V c ⟨n + 1, hn⟩ j]

/-! ## The two statistics arrays -/

theorem l2FlushedA (c : Dev nD) (t : Fin cfg2.N) (hf : (cfg2.win 5).flush t = true) :
    (l2Dat V c).flushed 5 t = ((cfg2.win 5).blk t).view.read (Elt Ideal) (pad 4096 4 (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) : A2 16 256) := by
  have h7 : t.val % 4 = 3 := (flush2_5 t).mp hf
  have hN : cfg2.N = 8 := N_2
  show (cfg2.win 5).cut (grid2.coords t) ((l2Dat V c).after 5 t) = _
  rw [l2After5, l2At_A V c t h7]
  funext y
  obtain ⟨q, j, rfl⟩ : ∃ (q : Fin 8) (j : Fin 256), y = ix2 q j := ⟨y 0, y 1, eq_ix2 y⟩
  show k2_pay2 (l2Acc V c t.val t.isLt).1 (ix2 q j) = (pad 4096 4 (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) : A2 16 256) (((cfg2.win 5).blk t).view.emb (ix2 q j))
  rw [k2_pay2_apply, l2AccS V c t.val t.isLt 0 j]
  have he : ((cfg2.win 5).blk t).view.emb (ix2 q j) = (ix2 (⟨t.val / 4 * 8 + q.val, by have := t.isLt; omega⟩ : Fin 16) j) := by
    funext a
    apply Fin.ext
    obtain ⟨-, -, -, -, -, -, -, -, -, -, e0, e1, -, -⟩ := l2Index t
    match a with
    | ⟨0, _⟩ => show win2_5.index t (0 : Fin 2) * 8 + 1 * q.val = t.val / 4 * 8 + q.val; rw [e0]; omega
    | ⟨1, _⟩ => show win2_5.index t (1 : Fin 2) * 256 + 1 * j.val = j.val; rw [e1]; omega
  rw [he]
  show chain 4096 4 (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) j t.val = chain 4096 4 (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) j ((t.val / 4 * 8 + q.val) / 8 * 4 + (4 - 1))
  refine congrArg (chain 4096 4 (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) j) ?_
  have := q.isLt
  omega

theorem l2CoverArrA (i : S16x256.Idx) : ∃ t : Fin cfg2.N, (cfg2.win 5).flush t = true ∧ i ∈ ((cfg2.win 5).blk t).view.set := by
    have hN : cfg2.N = 8 := N_2
    have hG : grid2.N = 8 := N_2
    have h0 : (i 0 : Nat) < 16 := (i 0).isLt
    have h1 : (i 1 : Nat) < 256 := (i 1).isLt
    have ht : (i 0 : Nat) / 8 * 4 + 3 < grid2.N := by omega
    refine ⟨⟨(i 0 : Nat) / 8 * 4 + 3, ht⟩, (flush2_5 _).mpr (by show ((i 0 : Nat) / 8 * 4 + 3) % 4 = 3; omega), ?_⟩
    show i ∈ ((View.whole main_v80_1).slice (win2_5.rect ⟨(i 0 : Nat) / 8 * 4 + 3, ht⟩)).set
    rw [View.set_slice_whole, Rect.mem_set_unit]
    intro a
    obtain ⟨-, -, -, -, -, -, -, -, -, -, e0, e1, -, -⟩ := l2Index ⟨(i 0 : Nat) / 8 * 4 + 3, ht⟩
    match a with
    | ⟨0, _⟩ => show win2_5.index _ (0 : Fin 2) * 8 ≤ (i 0 : Nat) ∧ (i 0 : Nat) < win2_5.index _ (0 : Fin 2) * 8 + 8
                rw [e0]; show ((i 0 : Nat) / 8 * 4 + 3) / 4 * 8 ≤ (i 0 : Nat) ∧ (i 0 : Nat) < ((i 0 : Nat) / 8 * 4 + 3) / 4 * 8 + 8; omega
    | ⟨1, _⟩ => show win2_5.index _ (1 : Fin 2) * 256 ≤ (i 1 : Nat) ∧ (i 1 : Nat) < win2_5.index _ (1 : Fin 2) * 256 + 256
                rw [e1]; omega

theorem l2ArrA (c : Dev nD) : (l2Dat V c).arrAt 5 cfg2.N = (pad 4096 4 (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) : A2 16 256) :=
  (l2Dat V c).arrAt_eq_of_cover 5 (pad 4096 4 (lin zeroW (affine (V c (Pipeline.arrRef spec2 0) : A2 32768 256) (V c (Pipeline.arrRef spec2 2) : A2 1 256) (V c (Pipeline.arrRef spec2 3) : A2 1 256)) (V c (Pipeline.arrRef spec2 1) : A2 256 256)) : A2 16 256) (l2FlushedA V c) fun i => l2CoverArrA i

theorem l2FlushedB (c : Dev nD) (t : Fin cfg2.N) (hf : (cfg2.win 6).flush t = true) :
    (l2Dat V c).flushed 6 t = ((cfg2.win 6).blk t).view.read (Elt Ideal) (pad 4096 4 (sq (lin zeroW (affine (V c (Pipeline.arrRef spec2 0) : A2 32768 256) (V c (Pipeline.arrRef spec2 2) : A2 1 256) (V c (Pipeline.arrRef spec2 3) : A2 1 256)) (V c (Pipeline.arrRef spec2 1) : A2 256 256))) : A2 16 256) := by
  have h7 : t.val % 4 = 3 := (flush2_6 t).mp hf
  have hN : cfg2.N = 8 := N_2
  show (cfg2.win 6).cut (grid2.coords t) ((l2Dat V c).after 6 t) = _
  rw [l2After6, l2At_B V c t h7]
  funext y
  obtain ⟨q, j, rfl⟩ : ∃ (q : Fin 8) (j : Fin 256), y = ix2 q j := ⟨y 0, y 1, eq_ix2 y⟩
  show k2_pay3 (l2Acc V c t.val t.isLt).2 (ix2 q j) = (pad 4096 4 (sq (lin zeroW (affine (V c (Pipeline.arrRef spec2 0) : A2 32768 256) (V c (Pipeline.arrRef spec2 2) : A2 1 256) (V c (Pipeline.arrRef spec2 3) : A2 1 256)) (V c (Pipeline.arrRef spec2 1) : A2 256 256))) : A2 16 256) (((cfg2.win 6).blk t).view.emb (ix2 q j))
  rw [k2_pay3_apply, l2AccQ V c t.val t.isLt 0 j]
  have he : ((cfg2.win 6).blk t).view.emb (ix2 q j) = (ix2 (⟨t.val / 4 * 8 + q.val, by have := t.isLt; omega⟩ : Fin 16) j) := by
    funext a
    apply Fin.ext
    obtain ⟨-, -, -, -, -, -, -, -, -, -, -, -, e0, e1⟩ := l2Index t
    match a with
    | ⟨0, _⟩ => show win2_6.index t (0 : Fin 2) * 8 + 1 * q.val = t.val / 4 * 8 + q.val; rw [e0]; omega
    | ⟨1, _⟩ => show win2_6.index t (1 : Fin 2) * 256 + 1 * j.val = j.val; rw [e1]; omega
  rw [he]
  show chain 4096 4 (sq (lin zeroW (affine (V c (Pipeline.arrRef spec2 0) : A2 32768 256) (V c (Pipeline.arrRef spec2 2) : A2 1 256) (V c (Pipeline.arrRef spec2 3) : A2 1 256)) (V c (Pipeline.arrRef spec2 1) : A2 256 256))) j t.val = chain 4096 4 (sq (lin zeroW (affine (V c (Pipeline.arrRef spec2 0) : A2 32768 256) (V c (Pipeline.arrRef spec2 2) : A2 1 256) (V c (Pipeline.arrRef spec2 3) : A2 1 256)) (V c (Pipeline.arrRef spec2 1) : A2 256 256))) j ((t.val / 4 * 8 + q.val) / 8 * 4 + (4 - 1))
  refine congrArg (chain 4096 4 (sq (lin zeroW (affine (V c (Pipeline.arrRef spec2 0) : A2 32768 256) (V c (Pipeline.arrRef spec2 2) : A2 1 256) (V c (Pipeline.arrRef spec2 3) : A2 1 256)) (V c (Pipeline.arrRef spec2 1) : A2 256 256))) j) ?_
  have := q.isLt
  omega

theorem l2CoverArrB (i : S16x256.Idx) : ∃ t : Fin cfg2.N, (cfg2.win 6).flush t = true ∧ i ∈ ((cfg2.win 6).blk t).view.set := by
    have hN : cfg2.N = 8 := N_2
    have hG : grid2.N = 8 := N_2
    have h0 : (i 0 : Nat) < 16 := (i 0).isLt
    have h1 : (i 1 : Nat) < 256 := (i 1).isLt
    have ht : (i 0 : Nat) / 8 * 4 + 3 < grid2.N := by omega
    refine ⟨⟨(i 0 : Nat) / 8 * 4 + 3, ht⟩, (flush2_6 _).mpr (by show ((i 0 : Nat) / 8 * 4 + 3) % 4 = 3; omega), ?_⟩
    show i ∈ ((View.whole main_v80_2).slice (win2_6.rect ⟨(i 0 : Nat) / 8 * 4 + 3, ht⟩)).set
    rw [View.set_slice_whole, Rect.mem_set_unit]
    intro a
    obtain ⟨-, -, -, -, -, -, -, -, -, -, -, -, e0, e1⟩ := l2Index ⟨(i 0 : Nat) / 8 * 4 + 3, ht⟩
    match a with
    | ⟨0, _⟩ => show win2_6.index _ (0 : Fin 2) * 8 ≤ (i 0 : Nat) ∧ (i 0 : Nat) < win2_6.index _ (0 : Fin 2) * 8 + 8
                rw [e0]; show ((i 0 : Nat) / 8 * 4 + 3) / 4 * 8 ≤ (i 0 : Nat) ∧ (i 0 : Nat) < ((i 0 : Nat) / 8 * 4 + 3) / 4 * 8 + 8; omega
    | ⟨1, _⟩ => show win2_6.index _ (1 : Fin 2) * 256 ≤ (i 1 : Nat) ∧ (i 1 : Nat) < win2_6.index _ (1 : Fin 2) * 256 + 256
                rw [e1]; omega

theorem l2ArrB (c : Dev nD) : (l2Dat V c).arrAt 6 cfg2.N = (pad 4096 4 (sq (lin zeroW (affine (V c (Pipeline.arrRef spec2 0) : A2 32768 256) (V c (Pipeline.arrRef spec2 2) : A2 1 256) (V c (Pipeline.arrRef spec2 3) : A2 1 256)) (V c (Pipeline.arrRef spec2 1) : A2 256 256))) : A2 16 256) :=
  (l2Dat V c).arrAt_eq_of_cover 6 (pad 4096 4 (sq (lin zeroW (affine (V c (Pipeline.arrRef spec2 0) : A2 32768 256) (V c (Pipeline.arrRef spec2 2) : A2 1 256) (V c (Pipeline.arrRef spec2 3) : A2 1 256)) (V c (Pipeline.arrRef spec2 1) : A2 256 256))) : A2 16 256) (l2FlushedB V c) fun i => l2CoverArrB i

end Cert.KernelIdeal.Hand

end
-- ==== Proof.Layer3PiecesIdeal.lean ====
/-
  The fourth layer's region, read as values: the stores each kind of grid point leaves are whole-buffer stores, so
  a buffer ends at its last store's value — h's buffer at this block's product, a scratch row at its value on entry
  (the cleared row at a first block) plus this block's column sums, a statistics buffer (last block only) at eight
  copies of the finished row. Hence the two scratch rows after each position in closed form, by induction on the
  position.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer3RegionIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem l3hz2 : (![0, 0] : Fin 2 → Nat) = fun _ => 0 := funext fun a => by fin_cases a <;> rfl
local notation "hz2" => l3hz2

/-! ## What each kind of point leaves, as values -/

theorem l3First_H (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) :
    (l3LeftFirst c t hF hL x0 x1 x2 x3).1 = (k3_pay6 x0 x2 x3 x1) := by
  unfold l3LeftFirst
  dsimp only
  rw [View.read_writes_eq_canon _ _ _ (l3CoverFirstH c t hF hL x0 x1 x2 x3)]
  unfold l3FirstAt l3RunFirst
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S4096x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l3First_S (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) :
    (l3LeftFirst c t hF hL x0 x1 x2 x3).2.2.2.1 = (k3_pay7 x0 x2 x3 x1 (k3_pay4 (F := F))) := by
  unfold l3LeftFirst
  dsimp only
  rw [View.read_writes_eq_canon _ _ _ (l3CoverFirstS c t hF hL x0 x1 x2 x3)]
  unfold l3FirstAt l3RunFirst
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l3First_Q (c : Dev nD) (t : Fin cfg3.N) (hF : l3First (grid3.coords t)) (hL : ¬l3Last (grid3.coords t)) (x0 : Vec F S4096x256 .f32) (x1 : Vec F S256x256 .bf16) (x2 : Vec F S1x256 .f32) (x3 : Vec F S1x256 .f32) :
    (l3LeftFirst c t hF hL x0 x1 x2 x3).2.2.2.2 = (k3_pay1 (k3_pay5 (F := F)) (k3_pay8 x0 x2 x3 x1)) := by
  unfold l3LeftFirst
  dsimp only
  rw [View.read_writes_eq_canon _ _ _ (l3CoverFirstQ c t hF hL x0 x1 x2 x3)]
  unfold l3FirstAt l3RunFirst
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l3Mid_H (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) :
    (l3LeftMid c t hF hL x0 x1 x2 x3 s q).1 = (k3_pay6 x0 x2 x3 x1) := by
  unfold l3LeftMid
  dsimp only
  rw [View.read_writes_eq_canon _ _ _ (l3CoverMidH c t hF hL x0 x1 x2 x3 s q)]
  unfold l3MidAt l3RunMid
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S4096x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l3Mid_S (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) :
    (l3LeftMid c t hF hL x0 x1 x2 x3 s q).2.2.2.1 = (k3_pay7 x0 x2 x3 x1 s) := by
  unfold l3LeftMid
  dsimp only
  rw [View.read_writes_eq_canon _ _ _ (l3CoverMidS c t hF hL x0 x1 x2 x3 s q)]
  unfold l3MidAt l3RunMid
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l3Mid_Q (c : Dev nD) (t : Fin cfg3.N) (hF : ¬l3First (grid3.coords t)) (hL : ¬l3Last (grid3.coords t)) (x0 : Vec F S4096x256 .f32) (x1 : Vec F S256x256 .bf16) (x2 : Vec F S1x256 .f32) (x3 : Vec F S1x256 .f32) (s q : Vec F S1x256 .f32) :
    (l3LeftMid c t hF hL x0 x1 x2 x3 s q).2.2.2.2 = (k3_pay1 q (k3_pay8 x0 x2 x3 x1)) := by
  unfold l3LeftMid
  dsimp only
  rw [View.read_writes_eq_canon _ _ _ (l3CoverMidQ c t hF hL x0 x1 x2 x3 s q)]
  unfold l3MidAt l3RunMid
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l3Last_H (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) :
    (l3LeftLast c t hF hL x0 x1 x2 x3 s q).1 = (k3_pay6 x0 x2 x3 x1) := by
  unfold l3LeftLast
  dsimp only
  rw [View.read_writes_eq_canon _ _ _ (l3CoverLastH c t hF hL x0 x1 x2 x3 s q)]
  unfold l3LastAt l3RunLast
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S4096x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l3Last_A (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) :
    (l3LeftLast c t hF hL x0 x1 x2 x3 s q).2.1 = (k3_pay2 (k3_pay7 x0 x2 x3 x1 s)) := by
  unfold l3LeftLast
  dsimp only
  rw [View.read_writes_eq_canon _ _ _ (l3CoverLast3 c t hF hL x0 x1 x2 x3 s q)]
  unfold l3LastAt l3RunLast
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S8x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l3Last_B (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) :
    (l3LeftLast c t hF hL x0 x1 x2 x3 s q).2.2.1 = (k3_pay3 (k3_pay1 q (k3_pay8 x0 x2 x3 x1))) := by
  unfold l3LeftLast
  dsimp only
  rw [View.read_writes_eq_canon _ _ _ (l3CoverLast4 c t hF hL x0 x1 x2 x3 s q)]
  unfold l3LastAt l3RunLast
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S8x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l3Last_S (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) :
    (l3LeftLast c t hF hL x0 x1 x2 x3 s q).2.2.2.1 = (k3_pay7 x0 x2 x3 x1 s) := by
  unfold l3LeftLast
  dsimp only
  rw [View.read_writes_eq_canon _ _ _ (l3CoverLastS c t hF hL x0 x1 x2 x3 s q)]
  unfold l3LastAt l3RunLast
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

theorem l3Last_Q (c : Dev nD) (t : Fin cfg3.N) (hF : ¬l3First (grid3.coords t)) (hL : l3Last (grid3.coords t)) (x0 : Vec F S4096x256 .f32) (x1 : Vec F S256x256 .bf16) (x2 : Vec F S1x256 .f32) (x3 : Vec F S1x256 .f32) (s q : Vec F S1x256 .f32) :
    (l3LeftLast c t hF hL x0 x1 x2 x3 s q).2.2.2.2 = (k3_pay1 q (k3_pay8 x0 x2 x3 x1)) := by
  unfold l3LeftLast
  dsimp only
  rw [View.read_writes_eq_canon _ _ _ (l3CoverLastQ c t hF hL x0 x1 x2 x3 s q)]
  unfold l3LastAt l3RunLast
  dsimp only
  try sl_unfold_words
  have hS : ∀ X : Vec F S1x256 .f32, View.read (Elt F) (View.whole cc3_scratch0) ((Memref.isWhole_whole cc3_scratch0).unread X) = X :=
    fun X => (Memref.isWhole_whole cc3_scratch0).read_unread X
  have hQ : ∀ X : Vec F S1x256 .f32, View.read (Elt F) (View.whole cc3_scratch1) ((Memref.isWhole_whole cc3_scratch1).unread X) = X :=
    fun X => (Memref.isWhole_whole cc3_scratch1).read_unread X
  first | rw [View.canon_unit_zero hz2] | rw [View.canon_cons_unit_zero (S := S1x256) hz2]
  repeat rw [View.readCov_unit_zero (S := S1x256) _ hz2]
  simp only [View.readAt_eq_ld, Memref.IsWhole.read_unread, View.ld_unit_zero (S := S4096x256) hz2, View.ld_unit_zero (S := S256x256) hz2, View.ld_unit_zero (S := S1x256) hz2, View.ld_unit_zero (S := S8x256) hz2, hS, hQ]

variable (V : (c : Dev nD) → (b : Ref sig .tc) → Buf (Elt F) ((c : Thread nD τ).loc b))

/-! ## The two scratch rows after each position, in closed form -/

/-- After position n: at a first block the step from the cleared row; otherwise the step from what the block before left. -/
def l3Acc (c : Dev nD) : (n : ℕ) → n < cfg3.N → Vec F S1x256 .f32 × Vec F S1x256 .f32
  | 0, hn => ((k3_pay7 (l3Blk V c 0 ⟨0, hn⟩) (l3Blk V c 2 ⟨0, hn⟩) (l3Blk V c 3 ⟨0, hn⟩) (l3Blk V c 1 ⟨0, hn⟩) (k3_pay4 (F := F))), (k3_pay1 (k3_pay5 (F := F)) (k3_pay8 (l3Blk V c 0 ⟨0, hn⟩) (l3Blk V c 2 ⟨0, hn⟩) (l3Blk V c 3 ⟨0, hn⟩) (l3Blk V c 1 ⟨0, hn⟩))))
  | n + 1, hn =>
    if (n + 1) % 4 = 0 then ((k3_pay7 (l3Blk V c 0 ⟨n + 1, hn⟩) (l3Blk V c 2 ⟨n + 1, hn⟩) (l3Blk V c 3 ⟨n + 1, hn⟩) (l3Blk V c 1 ⟨n + 1, hn⟩) (k3_pay4 (F := F))), (k3_pay1 (k3_pay5 (F := F)) (k3_pay8 (l3Blk V c 0 ⟨n + 1, hn⟩) (l3Blk V c 2 ⟨n + 1, hn⟩) (l3Blk V c 3 ⟨n + 1, hn⟩) (l3Blk V c 1 ⟨n + 1, hn⟩))))
    else ((k3_pay7 (l3Blk V c 0 ⟨n + 1, hn⟩) (l3Blk V c 2 ⟨n + 1, hn⟩) (l3Blk V c 3 ⟨n + 1, hn⟩) (l3Blk V c 1 ⟨n + 1, hn⟩) (l3Acc c n (Nat.lt_of_succ_lt hn)).1), (k3_pay1 (l3Acc c n (Nat.lt_of_succ_lt hn)).2 (k3_pay8 (l3Blk V c 0 ⟨n + 1, hn⟩) (l3Blk V c 2 ⟨n + 1, hn⟩) (l3Blk V c 3 ⟨n + 1, hn⟩) (l3Blk V c 1 ⟨n + 1, hn⟩))))

theorem l3At_SQ (c : Dev nD) : ∀ (n : ℕ) (hn : n < cfg3.N),
    (l3At V c n hn).2.2.2.1 = (l3Acc V c n hn).1 ∧ (l3At V c n hn).2.2.2.2 = (l3Acc V c n hn).2
  | 0, hn => by
    have e := l3At_first V c ⟨0, hn⟩ (Nat.zero_mod _)
    dsimp only at e
    rw [e]
    exact ⟨l3First_S .., l3First_Q ..⟩
  | n + 1, hn => by
    have ih := l3At_SQ c n (Nat.lt_of_succ_lt hn)
    by_cases h0 : (n + 1) % 4 = 0
    · have e := l3At_first V c ⟨n + 1, hn⟩ h0
      dsimp only at e
      rw [e]
      unfold l3Acc
      rw [if_pos h0]
      exact ⟨l3First_S .., l3First_Q ..⟩
    · by_cases h7 : (n + 1) % 4 = 3
      · have e := l3At_last V c ⟨n + 1, hn⟩ h0 h7
        dsimp only [Nat.add_sub_cancel] at e
        rw [e]
        unfold l3Acc
        rw [if_neg h0, l3Last_S, l3Last_Q]
        exact ⟨congrArg (fun z => (k3_pay7 (l3Blk V c 0 ⟨n + 1, hn⟩) (l3Blk V c 2 ⟨n + 1, hn⟩) (l3Blk V c 3 ⟨n + 1, hn⟩) (l3Blk V c 1 ⟨n + 1, hn⟩) z)) ih.1, congrArg (fun z => (k3_pay1 z (k3_pay8 (l3Blk V c 0 ⟨n + 1, hn⟩) (l3Blk V c 2 ⟨n + 1, hn⟩) (l3Blk V c 3 ⟨n + 1, hn⟩) (l3Blk V c 1 ⟨n + 1, hn⟩)))) ih.2⟩
      · have e := l3At_mid V c ⟨n + 1, hn⟩ h0 h7
        dsimp only [Nat.add_sub_cancel] at e
        rw [e]
        unfold l3Acc
        rw [if_neg h0, l3Mid_S, l3Mid_Q]
        exact ⟨congrArg (fun z => (k3_pay7 (l3Blk V c 0 ⟨n + 1, hn⟩) (l3Blk V c 2 ⟨n + 1, hn⟩) (l3Blk V c 3 ⟨n + 1, hn⟩) (l3Blk V c 1 ⟨n + 1, hn⟩) z)) ih.1, congrArg (fun z => (k3_pay1 z (k3_pay8 (l3Blk V c 0 ⟨n + 1, hn⟩) (l3Blk V c 2 ⟨n + 1, hn⟩) (l3Blk V c 3 ⟨n + 1, hn⟩) (l3Blk V c 1 ⟨n + 1, hn⟩)))) ih.2⟩

/-- h's buffer after any point: the product for that point's blocks. -/
theorem l3At_H (c : Dev nD) (t : Fin cfg3.N) : (l3At V c t.val t.isLt).1 = (k3_pay6 (l3Blk V c 0 t) (l3Blk V c 2 t) (l3Blk V c 3 t) (l3Blk V c 1 t)) := by
  by_cases h0 : t.val % 4 = 0
  · rw [l3At_first V c t h0]; exact l3First_H ..
  · by_cases h7 : t.val % 4 = 3
    · rw [l3At_last V c t h0 h7]; exact l3Last_H ..
    · rw [l3At_mid V c t h0 h7]; exact l3Mid_H ..

/-- The statistics buffers after a last block: eight copies of the finished rows. -/
theorem l3At_A (c : Dev nD) (t : Fin cfg3.N) (h7 : t.val % 4 = 3) :
    (l3At V c t.val t.isLt).2.1 = (k3_pay2 (l3Acc V c t.val t.isLt).1) := by
  have h0 : ¬t.val % 4 = 0 := by omega
  have hS := (l3At_SQ V c t.val t.isLt).1
  rw [l3At_last V c t h0 h7] at hS ⊢
  rw [l3Last_A, ← hS, l3Last_S]
theorem l3At_B (c : Dev nD) (t : Fin cfg3.N) (h7 : t.val % 4 = 3) :
    (l3At V c t.val t.isLt).2.2.1 = (k3_pay3 (l3Acc V c t.val t.isLt).2) := by
  have h0 : ¬t.val % 4 = 0 := by omega
  have hQ := (l3At_SQ V c t.val t.isLt).2
  rw [l3At_last V c t h0 h7] at hQ ⊢
  rw [l3Last_B, ← hQ, l3Last_Q]

end Cert.KernelIdeal.Hand

end
-- ==== Proof.Layer3ArraysIdeal.lean ====
/-
  The fourth layer's region at the exact instance, entry by entry: where each window's block sits in its array; a
  block's product as the corresponding rows of the layer's product over the whole arrays; hence what the region
  leaves in its three result arrays — the products, and the two statistics arrays holding each half's running
  sums of the products' columns and of their squares.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer3PiecesIdeal
import proofs.«126670_j49074296324140_2_alg».proof.Proof.MatmulAtIndex
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open ValueIdx
open Cert.ReferenceIdeal.Hand.RefSpec (A2 A1 arr arr_ix2)
open Cert.KernelIdeal.KSpec

local notation "𝕄" => MT nD τ sig Unit (Elt Ideal) ℕ (UR sig nD τ) ℕ

/-! ## Where the blocks sit -/

theorem l3Index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val / 4 ∧ win3_5.index t (1 : Fin 2) = 0
    ∧ win3_6.index t (0 : Fin 2) = t.val / 4 ∧ win3_6.index t (1 : Fin 2) = 0 :=
  (by decide +kernel : ∀ t : Fin grid3.N, _)

variable (V : (c : Dev nD) → (b : Ref sig .tc) → Buf (Elt Ideal) ((c : Thread nD τ).loc b))

/-- The block of the first window at point t, at row r, is row 4096·t + r of its array. -/
theorem l3Blk0_apply (c : Dev nD) (t : Fin cfg3.N) (r : Fin 4096) (l : Fin 256) :
    (l3Blk V c 0 t : Vec Ideal S4096x256 .f32) (ix2 r l) = (V c (Pipeline.arrRef spec3 0) : A2 32768 256) (ix2 ⟨t.val * 4096 + r.val, by have := t.isLt; have hN : cfg3.N = 8 := N_3; omega⟩ l) := by
  unfold l3Blk
  rw [View.read_apply]
  refine congrArg (V c (Pipeline.arrRef spec3 0)) ?_
  funext a
  apply Fin.ext
  obtain ⟨e0, e1, -, -, -, -, -, -, -, -, -, -, -, -⟩ := l3Index t
  match a with
  | ⟨0, _⟩ => show win3_0.index t (0 : Fin 2) * 4096 + 1 * r.val = t.val * 4096 + r.val; rw [e0]; omega
  | ⟨1, _⟩ => show win3_0.index t (1 : Fin 2) * 256 + 1 * l.val = l.val; rw [e1]; omega
/-- The block of window 1 is the whole (256 × 256) array. -/
theorem l3Blk1_apply (c : Dev nD) (t : Fin cfg3.N) (q : Fin 256) (l : Fin 256) :
    (l3Blk V c 1 t : Vec Ideal S256x256 .bf16) (ix2 q l) = (V c (Pipeline.arrRef spec3 1) : A2 256 256) (ix2 q l) := by
  unfold l3Blk
  rw [View.read_apply]
  refine congrArg (V c (Pipeline.arrRef spec3 1)) ?_
  funext a
  apply Fin.ext
  obtain ⟨-, -, e0, e1, -, -, -, -, -, -, -, -, -, -⟩ := l3Index t
  match a with
  | ⟨0, _⟩ => show win3_1.index t (0 : Fin 2) * 256 + 1 * q.val = q.val; rw [e0]; omega
  | ⟨1, _⟩ => show win3_1.index t (1 : Fin 2) * 256 + 1 * l.val = l.val; rw [e1]; omega
/-- The block of window 2 is the whole (1 × 256) array. -/
theorem l3Blk2_apply (c : Dev nD) (t : Fin cfg3.N) (q : Fin 1) (l : Fin 256) :
    (l3Blk V c 2 t : Vec Ideal S1x256 .f32) (ix2 q l) = (V c (Pipeline.arrRef spec3 2) : A2 1 256) (ix2 q l) := by
  unfold l3Blk
  rw [View.read_apply]
  refine congrArg (V c (Pipeline.arrRef spec3 2)) ?_
  funext a
  apply Fin.ext
  obtain ⟨-, -, -, -, e0, e1, -, -, -, -, -, -, -, -⟩ := l3Index t
  match a with
  | ⟨0, _⟩ => show win3_2.index t (0 : Fin 2) * 1 + 1 * q.val = q.val; rw [e0]; omega
  | ⟨1, _⟩ => show win3_2.index t (1 : Fin 2) * 256 + 1 * l.val = l.val; rw [e1]; omega
/-- The block of window 3 is the whole (1 × 256) array. -/
theorem l3Blk3_apply (c : Dev nD) (t : Fin cfg3.N) (q : Fin 1) (l : Fin 256) :
    (l3Blk V c 3 t : Vec Ideal S1x256 .f32) (ix2 q l) = (V c (Pipeline.arrRef spec3 3) : A2 1 256) (ix2 q l) := by
  unfold l3Blk
  rw [View.read_apply]
  refine congrArg (V c (Pipeline.arrRef spec3 3)) ?_
  funext a
  apply Fin.ext
  obtain ⟨-, -, -, -, -, -, e0, e1, -, -, -, -, -, -⟩ := l3Index t
  match a with
  | ⟨0, _⟩ => show win3_3.index t (0 : Fin 2) * 1 + 1 * q.val = q.val; rw [e0]; omega
  | ⟨1, _⟩ => show win3_3.index t (1 : Fin 2) * 256 + 1 * l.val = l.val; rw [e1]; omega

/-! ## A block's product is the corresponding rows of the layer's product -/

theorem l3H_apply (c : Dev nD) (t : Fin cfg3.N) (r : Fin 4096) (j : Fin 256) :
    (k3_pay6 (l3Blk V c 0 t) (l3Blk V c 2 t) (l3Blk V c 3 t) (l3Blk V c 1 t)) (ix2 r j) = (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) (ix2 ⟨t.val * 4096 + r.val, by have := t.isLt; have hN : cfg3.N = 8 := N_3; omega⟩ j) := by
  rw [k3_pay6_apply]
  show _ = ∑ l : Fin 256, signAt zeroW ((affine (V c (Pipeline.arrRef spec3 0) : A2 32768 256) (V c (Pipeline.arrRef spec3 2) : A2 1 256) (V c (Pipeline.arrRef spec3 3) : A2 1 256)) (ix2 ⟨t.val * 4096 + r.val, _⟩ l)) * (V c (Pipeline.arrRef spec3 1) : A2 256 256) (ix2 j l)
  refine Finset.sum_congr rfl fun l _ => ?_
  rw [l3Blk0_apply, l3Blk1_apply, l3Blk2_apply, l3Blk3_apply]
  try rfl

theorem l3H_row (c : Dev nD) (t : Fin cfg3.N) (r : Fin 4096) (j : Fin 256) :
    (k3_pay6 (l3Blk V c 0 t) (l3Blk V c 2 t) (l3Blk V c 3 t) (l3Blk V c 1 t)) (ix2 r j) = rowAt (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) (t.val * 4096 + r.val) j := by
  rw [l3H_apply]; unfold rowAt; rw [dif_pos]
theorem l3H_blockSum (c : Dev nD) (t : Fin cfg3.N) (j : Fin 256) :
    ∑ r : Fin 4096, (k3_pay6 (l3Blk V c 0 t) (l3Blk V c 2 t) (l3Blk V c 3 t) (l3Blk V c 1 t)) (ix2 r j) = blockSum 4096 (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) t.val j :=
  Finset.sum_congr rfl fun r _ => l3H_row V c t r j
theorem l3H_sqRow (c : Dev nD) (t : Fin cfg3.N) (r : Fin 4096) (j : Fin 256) :
    (k3_pay6 (l3Blk V c 0 t) (l3Blk V c 2 t) (l3Blk V c 3 t) (l3Blk V c 1 t)) (ix2 r j) * (k3_pay6 (l3Blk V c 0 t) (l3Blk V c 2 t) (l3Blk V c 3 t) (l3Blk V c 1 t)) (ix2 r j) = rowAt (sq (lin zeroW (affine (V c (Pipeline.arrRef spec3 0) : A2 32768 256) (V c (Pipeline.arrRef spec3 2) : A2 1 256) (V c (Pipeline.arrRef spec3 3) : A2 1 256)) (V c (Pipeline.arrRef spec3 1) : A2 256 256))) (t.val * 4096 + r.val) j := by
  rw [l3H_apply]; unfold rowAt; rw [dif_pos]; rfl
theorem l3H_sqBlockSum (c : Dev nD) (t : Fin cfg3.N) (j : Fin 256) :
    ∑ r : Fin 4096, (k3_pay6 (l3Blk V c 0 t) (l3Blk V c 2 t) (l3Blk V c 3 t) (l3Blk V c 1 t)) (ix2 r j) * (k3_pay6 (l3Blk V c 0 t) (l3Blk V c 2 t) (l3Blk V c 3 t) (l3Blk V c 1 t)) (ix2 r j) = blockSum 4096 (sq (lin zeroW (affine (V c (Pipeline.arrRef spec3 0) : A2 32768 256) (V c (Pipeline.arrRef spec3 2) : A2 1 256) (V c (Pipeline.arrRef spec3 3) : A2 1 256)) (V c (Pipeline.arrRef spec3 1) : A2 256 256))) t.val j :=
  Finset.sum_congr rfl fun r _ => l3H_sqRow V c t r j

/-! ## The products' array -/

theorem l3FlushedH (c : Dev nD) (t : Fin cfg3.N) (hf : (cfg3.win 4).flush t = true) :
    (l3Dat V c).flushed 4 t = ((cfg3.win 4).blk t).view.read (Elt Ideal) ((lin zeroW (affine (V c (Pipeline.arrRef spec3 0) : A2 32768 256) (V c (Pipeline.arrRef spec3 2) : A2 1 256) (V c (Pipeline.arrRef spec3 3) : A2 1 256)) (V c (Pipeline.arrRef spec3 1) : A2 256 256)) : A2 32768 256) := by
  have hN : cfg3.N = 8 := N_3
  show (cfg3.win 4).cut (grid3.coords t) ((l3Dat V c).after 4 t) = _
  rw [l3After4, l3At_H]
  funext y
  obtain ⟨r, j, rfl⟩ : ∃ (r : Fin 4096) (j : Fin 256), y = ix2 r j := ⟨y 0, y 1, eq_ix2 y⟩
  show (k3_pay6 (l3Blk V c 0 t) (l3Blk V c 2 t) (l3Blk V c 3 t) (l3Blk V c 1 t)) (ix2 r j) = (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) (((cfg3.win 4).blk t).view.emb (ix2 r j))
  rw [l3H_apply]
  refine congrArg (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) ?_
  funext a
  apply Fin.ext
  obtain ⟨-, -, -, -, -, -, -, -, e0, e1, -, -, -, -⟩ := l3Index t
  match a with
  | ⟨0, _⟩ => show t.val * 4096 + r.val = win3_4.index t (0 : Fin 2) * 4096 + 1 * r.val; rw [e0]; omega
  | ⟨1, _⟩ => show j.val = win3_4.index t (1 : Fin 2) * 256 + 1 * j.val; rw [e1]; omega

theorem l3CoverArrH (i : S32768x256.Idx) : ∃ t : Fin cfg3.N, (cfg3.win 4).flush t = true ∧ i ∈ ((cfg3.win 4).blk t).view.set := by
    have hN : cfg3.N = 8 := N_3
    have hG : grid3.N = 8 := N_3
    have h0 : (i 0 : Nat) < 32768 := (i 0).isLt
    have h1 : (i 1 : Nat) < 256 := (i 1).isLt
    have ht : (i 0 : Nat) / 4096 < grid3.N := by omega
    refine ⟨⟨(i 0 : Nat) / 4096, ht⟩, flush3_4 _, ?_⟩
    show i ∈ ((View.whole main_v110_0).slice (win3_4.rect ⟨(i 0 : Nat) / 4096, ht⟩)).set
    rw [View.set_slice_whole, Rect.mem_set_unit]
    intro a
    obtain ⟨-, -, -, -, -, -, -, -, e0, e1, -, -, -, -⟩ := l3Index ⟨(i 0 : Nat) / 4096, ht⟩
    match a with
    | ⟨0, _⟩ => show win3_4.index _ (0 : Fin 2) * 4096 ≤ (i 0 : Nat) ∧ (i 0 : Nat) < win3_4.index _ (0 : Fin 2) * 4096 + 4096
                rw [e0]; show (i 0 : Nat) / 4096 * 4096 ≤ (i 0 : Nat) ∧ (i 0 : Nat) < (i 0 : Nat) / 4096 * 4096 + 4096; omega
    | ⟨1, _⟩ => show win3_4.index _ (1 : Fin 2) * 256 ≤ (i 1 : Nat) ∧ (i 1 : Nat) < win3_4.index _ (1 : Fin 2) * 256 + 256
                rw [e1]; omega

theorem l3ArrH (c : Dev nD) : (l3Dat V c).arrAt 4 cfg3.N = ((lin zeroW (affine (V c (Pipeline.arrRef spec3 0) : A2 32768 256) (V c (Pipeline.arrRef spec3 2) : A2 1 256) (V c (Pipeline.arrRef spec3 3) : A2 1 256)) (V c (Pipeline.arrRef spec3 1) : A2 256 256)) : A2 32768 256) :=
  (l3Dat V c).arrAt_eq_of_cover 4 ((lin zeroW (affine (V c (Pipeline.arrRef spec3 0) : A2 32768 256) (V c (Pipeline.arrRef spec3 2) : A2 1 256) (V c (Pipeline.arrRef spec3 3) : A2 1 256)) (V c (Pipeline.arrRef spec3 1) : A2 256 256)) : A2 32768 256) (l3FlushedH V c) fun i => l3CoverArrH i

/-! ## The scratch rows are the running sums -/

theorem l3AccS (c : Dev nD) : ∀ (n : ℕ) (hn : n < cfg3.N) (u : Fin 1) (j : Fin 256),
    (l3Acc V c n hn).1 (ix2 u j) = chain 4096 4 (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) j n
  | 0, hn, u, j => by
    unfold l3Acc chain
    dsimp only
    rw [k3_pay7_apply]
    rw [k3_pay4_apply, l3H_blockSum V c ⟨0, hn⟩ j]
  | n + 1, hn, u, j => by
    have ih := l3AccS c n (Nat.lt_of_succ_lt hn) u j
    unfold l3Acc chain
    by_cases h0 : (n + 1) % 4 = 0
    · rw [if_pos h0, if_pos h0]
      dsimp only
      rw [k3_pay7_apply]
      rw [k3_pay4_apply, l3H_blockSum V c ⟨n + 1, hn⟩ j]
    · rw [if_neg h0, if_neg h0]
      dsimp only
      rw [k3_pay7_apply]
      rw [ih, l3H_blockSum V c ⟨n + 1, hn⟩ j]

theorem l3AccQ (c : Dev nD) : ∀ (n : ℕ) (hn : n < cfg3.N) (u : Fin 1) (j : Fin 256),
    (l3Acc V c n hn).2 (ix2 u j) = chain 4096 4 (sq (lin zeroW (affine (V c (Pipeline.arrRef spec3 0) : A2 32768 256) (V c (Pipeline.arrRef spec3 2) : A2 1 256) (V c (Pipeline.arrRef spec3 3) : A2 1 256)) (V c (Pipeline.arrRef spec3 1) : A2 256 256))) j n
  | 0, hn, u, j => by
    unfold l3Acc chain
    dsimp only
    rw [k3_pay1_apply]; simp only [k3_pay8_apply]
    rw [k3_pay5_apply, l3H_sqBlockSum V c ⟨0, hn⟩ j]
  | n + 1, hn, u, j => by
    have ih := l3AccQ c n (Nat.lt_of_succ_lt hn) u j
    unfold l3Acc chain
    by_cases h0 : (n + 1) % 4 = 0
    · rw [if_pos h0, if_pos h0]
      dsimp only
      rw [k3_pay1_apply]; simp only [k3_pay8_apply]
      rw [k3_pay5_apply, l3H_sqBlockSum V c ⟨n + 1, hn⟩ j]
    · rw [if_neg h0, if_neg h0]
      dsimp only
      rw [k3_pay1_apply]; simp only [k3_pay8_apply]
      rw [ih, l3H_sqBlockSum V c ⟨n + 1, hn⟩ j]

/-! ## The two statistics arrays -/

theorem l3FlushedA (c : Dev nD) (t : Fin cfg3.N) (hf : (cfg3.win 5).flush t = true) :
    (l3Dat V c).flushed 5 t = ((cfg3.win 5).blk t).view.read (Elt Ideal) (pad 4096 4 (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) : A2 16 256) := by
  have h7 : t.val % 4 = 3 := (flush3_5 t).mp hf
  have hN : cfg3.N = 8 := N_3
  show (cfg3.win 5).cut (grid3.coords t) ((l3Dat V c).after 5 t) = _
  rw [l3After5, l3At_A V c t h7]
  funext y
  obtain ⟨q, j, rfl⟩ : ∃ (q : Fin 8) (j : Fin 256), y = ix2 q j := ⟨y 0, y 1, eq_ix2 y⟩
  show k3_pay2 (l3Acc V c t.val t.isLt).1 (ix2 q j) = (pad 4096 4 (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) : A2 16 256) (((cfg3.win 5).blk t).view.emb (ix2 q j))
  rw [k3_pay2_apply, l3AccS V c t.val t.isLt 0 j]
  have he : ((cfg3.win 5).blk t).view.emb (ix2 q j) = (ix2 (⟨t.val / 4 * 8 + q.val, by have := t.isLt; omega⟩ : Fin 16) j) := by
    funext a
    apply Fin.ext
    obtain ⟨-, -, -, -, -, -, -, -, -, -, e0, e1, -, -⟩ := l3Index t
    match a with
    | ⟨0, _⟩ => show win3_5.index t (0 : Fin 2) * 8 + 1 * q.val = t.val / 4 * 8 + q.val; rw [e0]; omega
    | ⟨1, _⟩ => show win3_5.index t (1 : Fin 2) * 256 + 1 * j.val = j.val; rw [e1]; omega
  rw [he]
  show chain 4096 4 (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) j t.val = chain 4096 4 (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) j ((t.val / 4 * 8 + q.val) / 8 * 4 + (4 - 1))
  refine congrArg (chain 4096 4 (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) j) ?_
  have := q.isLt
  omega

theorem l3CoverArrA (i : S16x256.Idx) : ∃ t : Fin cfg3.N, (cfg3.win 5).flush t = true ∧ i ∈ ((cfg3.win 5).blk t).view.set := by
    have hN : cfg3.N = 8 := N_3
    have hG : grid3.N = 8 := N_3
    have h0 : (i 0 : Nat) < 16 := (i 0).isLt
    have h1 : (i 1 : Nat) < 256 := (i 1).isLt
    have ht : (i 0 : Nat) / 8 * 4 + 3 < grid3.N := by omega
    refine ⟨⟨(i 0 : Nat) / 8 * 4 + 3, ht⟩, (flush3_5 _).mpr (by show ((i 0 : Nat) / 8 * 4 + 3) % 4 = 3; omega), ?_⟩
    show i ∈ ((View.whole main_v110_1).slice (win3_5.rect ⟨(i 0 : Nat) / 8 * 4 + 3, ht⟩)).set
    rw [View.set_slice_whole, Rect.mem_set_unit]
    intro a
    obtain ⟨-, -, -, -, -, -, -, -, -, -, e0, e1, -, -⟩ := l3Index ⟨(i 0 : Nat) / 8 * 4 + 3, ht⟩
    match a with
    | ⟨0, _⟩ => show win3_5.index _ (0 : Fin 2) * 8 ≤ (i 0 : Nat) ∧ (i 0 : Nat) < win3_5.index _ (0 : Fin 2) * 8 + 8
                rw [e0]; show ((i 0 : Nat) / 8 * 4 + 3) / 4 * 8 ≤ (i 0 : Nat) ∧ (i 0 : Nat) < ((i 0 : Nat) / 8 * 4 + 3) / 4 * 8 + 8; omega
    | ⟨1, _⟩ => show win3_5.index _ (1 : Fin 2) * 256 ≤ (i 1 : Nat) ∧ (i 1 : Nat) < win3_5.index _ (1 : Fin 2) * 256 + 256
                rw [e1]; omega

theorem l3ArrA (c : Dev nD) : (l3Dat V c).arrAt 5 cfg3.N = (pad 4096 4 (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) : A2 16 256) :=
  (l3Dat V c).arrAt_eq_of_cover 5 (pad 4096 4 (lin zeroW (affine (V c (Pipeline.arrRef spec3 0) : A2 32768 256) (V c (Pipeline.arrRef spec3 2) : A2 1 256) (V c (Pipeline.arrRef spec3 3) : A2 1 256)) (V c (Pipeline.arrRef spec3 1) : A2 256 256)) : A2 16 256) (l3FlushedA V c) fun i => l3CoverArrA i

theorem l3FlushedB (c : Dev nD) (t : Fin cfg3.N) (hf : (cfg3.win 6).flush t = true) :
    (l3Dat V c).flushed 6 t = ((cfg3.win 6).blk t).view.read (Elt Ideal) (pad 4096 4 (sq (lin zeroW (affine (V c (Pipeline.arrRef spec3 0) : A2 32768 256) (V c (Pipeline.arrRef spec3 2) : A2 1 256) (V c (Pipeline.arrRef spec3 3) : A2 1 256)) (V c (Pipeline.arrRef spec3 1) : A2 256 256))) : A2 16 256) := by
  have h7 : t.val % 4 = 3 := (flush3_6 t).mp hf
  have hN : cfg3.N = 8 := N_3
  show (cfg3.win 6).cut (grid3.coords t) ((l3Dat V c).after 6 t) = _
  rw [l3After6, l3At_B V c t h7]
  funext y
  obtain ⟨q, j, rfl⟩ : ∃ (q : Fin 8) (j : Fin 256), y = ix2 q j := ⟨y 0, y 1, eq_ix2 y⟩
  show k3_pay3 (l3Acc V c t.val t.isLt).2 (ix2 q j) = (pad 4096 4 (sq (lin zeroW (affine (V c (Pipeline.arrRef spec3 0) : A2 32768 256) (V c (Pipeline.arrRef spec3 2) : A2 1 256) (V c (Pipeline.arrRef spec3 3) : A2 1 256)) (V c (Pipeline.arrRef spec3 1) : A2 256 256))) : A2 16 256) (((cfg3.win 6).blk t).view.emb (ix2 q j))
  rw [k3_pay3_apply, l3AccQ V c t.val t.isLt 0 j]
  have he : ((cfg3.win 6).blk t).view.emb (ix2 q j) = (ix2 (⟨t.val / 4 * 8 + q.val, by have := t.isLt; omega⟩ : Fin 16) j) := by
    funext a
    apply Fin.ext
    obtain ⟨-, -, -, -, -, -, -, -, -, -, -, -, e0, e1⟩ := l3Index t
    match a with
    | ⟨0, _⟩ => show win3_6.index t (0 : Fin 2) * 8 + 1 * q.val = t.val / 4 * 8 + q.val; rw [e0]; omega
    | ⟨1, _⟩ => show win3_6.index t (1 : Fin 2) * 256 + 1 * j.val = j.val; rw [e1]; omega
  rw [he]
  show chain 4096 4 (sq (lin zeroW (affine (V c (Pipeline.arrRef spec3 0) : A2 32768 256) (V c (Pipeline.arrRef spec3 2) : A2 1 256) (V c (Pipeline.arrRef spec3 3) : A2 1 256)) (V c (Pipeline.arrRef spec3 1) : A2 256 256))) j t.val = chain 4096 4 (sq (lin zeroW (affine (V c (Pipeline.arrRef spec3 0) : A2 32768 256) (V c (Pipeline.arrRef spec3 2) : A2 1 256) (V c (Pipeline.arrRef spec3 3) : A2 1 256)) (V c (Pipeline.arrRef spec3 1) : A2 256 256))) j ((t.val / 4 * 8 + q.val) / 8 * 4 + (4 - 1))
  refine congrArg (chain 4096 4 (sq (lin zeroW (affine (V c (Pipeline.arrRef spec3 0) : A2 32768 256) (V c (Pipeline.arrRef spec3 2) : A2 1 256) (V c (Pipeline.arrRef spec3 3) : A2 1 256)) (V c (Pipeline.arrRef spec3 1) : A2 256 256))) j) ?_
  have := q.isLt
  omega

theorem l3CoverArrB (i : S16x256.Idx) : ∃ t : Fin cfg3.N, (cfg3.win 6).flush t = true ∧ i ∈ ((cfg3.win 6).blk t).view.set := by
    have hN : cfg3.N = 8 := N_3
    have hG : grid3.N = 8 := N_3
    have h0 : (i 0 : Nat) < 16 := (i 0).isLt
    have h1 : (i 1 : Nat) < 256 := (i 1).isLt
    have ht : (i 0 : Nat) / 8 * 4 + 3 < grid3.N := by omega
    refine ⟨⟨(i 0 : Nat) / 8 * 4 + 3, ht⟩, (flush3_6 _).mpr (by show ((i 0 : Nat) / 8 * 4 + 3) % 4 = 3; omega), ?_⟩
    show i ∈ ((View.whole main_v110_2).slice (win3_6.rect ⟨(i 0 : Nat) / 8 * 4 + 3, ht⟩)).set
    rw [View.set_slice_whole, Rect.mem_set_unit]
    intro a
    obtain ⟨-, -, -, -, -, -, -, -, -, -, -, -, e0, e1⟩ := l3Index ⟨(i 0 : Nat) / 8 * 4 + 3, ht⟩
    match a with
    | ⟨0, _⟩ => show win3_6.index _ (0 : Fin 2) * 8 ≤ (i 0 : Nat) ∧ (i 0 : Nat) < win3_6.index _ (0 : Fin 2) * 8 + 8
                rw [e0]; show ((i 0 : Nat) / 8 * 4 + 3) / 4 * 8 ≤ (i 0 : Nat) ∧ (i 0 : Nat) < ((i 0 : Nat) / 8 * 4 + 3) / 4 * 8 + 8; omega
    | ⟨1, _⟩ => show win3_6.index _ (1 : Fin 2) * 256 ≤ (i 1 : Nat) ∧ (i 1 : Nat) < win3_6.index _ (1 : Fin 2) * 256 + 256
                rw [e1]; omega

theorem l3ArrB (c : Dev nD) : (l3Dat V c).arrAt 6 cfg3.N = (pad 4096 4 (sq (lin zeroW (affine (V c (Pipeline.arrRef spec3 0) : A2 32768 256) (V c (Pipeline.arrRef spec3 2) : A2 1 256) (V c (Pipeline.arrRef spec3 3) : A2 1 256)) (V c (Pipeline.arrRef spec3 1) : A2 256 256))) : A2 16 256) :=
  (l3Dat V c).arrAt_eq_of_cover 6 (pad 4096 4 (sq (lin zeroW (affine (V c (Pipeline.arrRef spec3 0) : A2 32768 256) (V c (Pipeline.arrRef spec3 2) : A2 1 256) (V c (Pipeline.arrRef spec3 3) : A2 1 256)) (V c (Pipeline.arrRef spec3 1) : A2 256 256))) : A2 16 256) (l3FlushedB V c) fun i => l3CoverArrB i

end Cert.KernelIdeal.Hand

end
-- ==== Proof.Layer4PiecesIdeal.lean ====
/-
  The last (ten-column) layer's region, read as values: the stores each kind of grid point leaves are whole-buffer stores, so
  a buffer ends at its last store's value — h's buffer at this block's product, a scratch row at its value on entry
  (the cleared row at a first block) plus this block's column sums, a statistics buffer (last block only) at eight
  copies of the finished row. Hence the two scratch rows after each position in closed form, by induction on the
  position.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer4RegionIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem l4hz2 : (![0, 0] : Fin 2 → Nat) = fun _ => 0 := funext fun a => by fin_cases a <;> rfl
local notation "hz2" => l4hz2

/-! ## What each kind of point leaves, as values -/

theorem l4First_H (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) :
    (l4LeftFirst c t hF hL x0 x1 x2 x3).1 = (k4_pay6 x0 x2 x3 x1) := by
  unfold l4LeftFirst
  dsimp only
  rw [View.read_writes_eq_canon _ _ _ (l4CoverFirstH c t hF hL x0 x1 x2 x3)]
  unfold l4FirstAt l4RunFirst
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S4096x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

theorem l4First_S (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) :
    (l4LeftFirst c t hF hL x0 x1 x2 x3).2.2.2.1 = (k4_pay7 x0 x2 x3 x1 (k4_pay4 (F := F))) := by
  unfold l4LeftFirst
  dsimp only
  rw [View.read_writes_eq_canon _ _ _ (l4CoverFirstS c t hF hL x0 x1 x2 x3)]
  unfold l4FirstAt l4RunFirst
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S1x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

theorem l4First_Q (c : Dev nD) (t : Fin cfg4.N) (hF : l4First (grid4.coords t)) (hL : ¬l4Last (grid4.coords t)) (x0 : Vec F S4096x256 .f32) (x1 : Vec F S10x256 .bf16) (x2 : Vec F S1x256 .f32) (x3 : Vec F S1x256 .f32) :
    (l4LeftFirst c t hF hL x0 x1 x2 x3).2.2.2.2 = (k4_pay1 (k4_pay5 (F := F)) (k4_pay8 x0 x2 x3 x1)) := by
  unfold l4LeftFirst
  dsimp only
  rw [View.read_writes_eq_canon _ _ _ (l4CoverFirstQ c t hF hL x0 x1 x2 x3)]
  unfold l4FirstAt l4RunFirst
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S1x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

theorem l4Mid_H (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) :
    (l4LeftMid c t hF hL x0 x1 x2 x3 s q).1 = (k4_pay6 x0 x2 x3 x1) := by
  unfold l4LeftMid
  dsimp only
  rw [View.read_writes_eq_canon _ _ _ (l4CoverMidH c t hF hL x0 x1 x2 x3 s q)]
  unfold l4MidAt l4RunMid
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S4096x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

theorem l4Mid_S (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) :
    (l4LeftMid c t hF hL x0 x1 x2 x3 s q).2.2.2.1 = (k4_pay7 x0 x2 x3 x1 s) := by
  unfold l4LeftMid
  dsimp only
  rw [View.read_writes_eq_canon _ _ _ (l4CoverMidS c t hF hL x0 x1 x2 x3 s q)]
  unfold l4MidAt l4RunMid
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S1x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

theorem l4Mid_Q (c : Dev nD) (t : Fin cfg4.N) (hF : ¬l4First (grid4.coords t)) (hL : ¬l4Last (grid4.coords t)) (x0 : Vec F S4096x256 .f32) (x1 : Vec F S10x256 .bf16) (x2 : Vec F S1x256 .f32) (x3 : Vec F S1x256 .f32) (s q : Vec F S1x10 .f32) :
    (l4LeftMid c t hF hL x0 x1 x2 x3 s q).2.2.2.2 = (k4_pay1 q (k4_pay8 x0 x2 x3 x1)) := by
  unfold l4LeftMid
  dsimp only
  rw [View.read_writes_eq_canon _ _ _ (l4CoverMidQ c t hF hL x0 x1 x2 x3 s q)]
  unfold l4MidAt l4RunMid
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S1x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

theorem l4Last_H (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) :
    (l4LeftLast c t hF hL x0 x1 x2 x3 s q).1 = (k4_pay6 x0 x2 x3 x1) := by
  unfold l4LeftLast
  dsimp only
  rw [View.read_writes_eq_canon _ _ _ (l4CoverLastH c t hF hL x0 x1 x2 x3 s q)]
  unfold l4LastAt l4RunLast
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S4096x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

theorem l4Last_A (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) :
    (l4LeftLast c t hF hL x0 x1 x2 x3 s q).2.1 = (k4_pay2 (k4_pay7 x0 x2 x3 x1 s)) := by
  unfold l4LeftLast
  dsimp only
  rw [View.read_writes_eq_canon _ _ _ (l4CoverLast3 c t hF hL x0 x1 x2 x3 s q)]
  unfold l4LastAt l4RunLast
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S8x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

theorem l4Last_B (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) :
    (l4LeftLast c t hF hL x0 x1 x2 x3 s q).2.2.1 = (k4_pay3 (k4_pay1 q (k4_pay8 x0 x2 x3 x1))) := by
  unfold l4LeftLast
  dsimp only
  rw [View.read_writes_eq_canon _ _ _ (l4CoverLast4 c t hF hL x0 x1 x2 x3 s q)]
  unfold l4LastAt l4RunLast
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S8x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

theorem l4Last_S (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) :
    (l4LeftLast c t hF hL x0 x1 x2 x3 s q).2.2.2.1 = (k4_pay7 x0 x2 x3 x1 s) := by
  unfold l4LeftLast
  dsimp only
  rw [View.read_writes_eq_canon _ _ _ (l4CoverLastS c t hF hL x0 x1 x2 x3 s q)]
  unfold l4LastAt l4RunLast
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S1x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

theorem l4Last_Q (c : Dev nD) (t : Fin cfg4.N) (hF : ¬l4First (grid4.coords t)) (hL : l4Last (grid4.coords t)) (x0 : Vec F S4096x256 .f32) (x1 : Vec F S10x256 .bf16) (x2 : Vec F S1x256 .f32) (x3 : Vec F S1x256 .f32) (s q : Vec F S1x10 .f32) :
    (l4LeftLast c t hF hL x0 x1 x2 x3 s q).2.2.2.2 = (k4_pay1 q (k4_pay8 x0 x2 x3 x1)) := by
  unfold l4LeftLast
  dsimp only
  rw [View.read_writes_eq_canon _ _ _ (l4CoverLastQ c t hF hL x0 x1 x2 x3 s q)]
  unfold l4LastAt l4RunLast
  dsimp only
  try sl_unfold_words
  have hS : ∀ X : Vec F S1x10 .f32, View.read (Elt F) (View.whole cc4_scratch0) ((Memref.isWhole_whole cc4_scratch0).unread X) = X :=
    fun X => (Memref.isWhole_whole cc4_scratch0).read_unread X
  have hQ : ∀ X : Vec F S1x10 .f32, View.read (Elt F) (View.whole cc4_scratch1) ((Memref.isWhole_whole cc4_scratch1).unread X) = X :=
    fun X => (Memref.isWhole_whole cc4_scratch1).read_unread X
  first | rw [View.canon_unit_zero hz2] | rw [View.canon_cons_unit_zero (S := S1x10) hz2]
  repeat rw [View.readCov_unit_zero (S := S1x10) _ hz2]
  simp only [View.readAt_eq_ld, Memref.IsWhole.read_unread, View.ld_unit_zero (S := S4096x256) hz2, View.ld_unit_zero (S := S10x256) hz2, View.ld_unit_zero (S := S1x256) hz2, View.ld_unit_zero (S := S4096x10) hz2, View.ld_unit_zero (S := S8x10) hz2, View.ld_unit_zero (S := S1x10) hz2, hS, hQ]

variable (V : (c : Dev nD) → (b : Ref sig .tc) → Buf (Elt F) ((c : Thread nD τ).loc b))

/-! ## The two scratch rows after each position, in closed form -/

/-- After position n: at a first block the step from the cleared row; otherwise the step from what the block before left. -/
def l4Acc (c : Dev nD) : (n : ℕ) → n < cfg4.N → Vec F S1x10 .f32 × Vec F S1x10 .f32
  | 0, hn => ((k4_pay7 (l4Blk V c 0 ⟨0, hn⟩) (l4Blk V c 2 ⟨0, hn⟩) (l4Blk V c 3 ⟨0, hn⟩) (l4Blk V c 1 ⟨0, hn⟩) (k4_pay4 (F := F))), (k4_pay1 (k4_pay5 (F := F)) (k4_pay8 (l4Blk V c 0 ⟨0, hn⟩) (l4Blk V c 2 ⟨0, hn⟩) (l4Blk V c 3 ⟨0, hn⟩) (l4Blk V c 1 ⟨0, hn⟩))))
  | n + 1, hn =>
    if (n + 1) % 4 = 0 then ((k4_pay7 (l4Blk V c 0 ⟨n + 1, hn⟩) (l4Blk V c 2 ⟨n + 1, hn⟩) (l4Blk V c 3 ⟨n + 1, hn⟩) (l4Blk V c 1 ⟨n + 1, hn⟩) (k4_pay4 (F := F))), (k4_pay1 (k4_pay5 (F := F)) (k4_pay8 (l4Blk V c 0 ⟨n + 1, hn⟩) (l4Blk V c 2 ⟨n + 1, hn⟩) (l4Blk V c 3 ⟨n + 1, hn⟩) (l4Blk V c 1 ⟨n + 1, hn⟩))))
    else ((k4_pay7 (l4Blk V c 0 ⟨n + 1, hn⟩) (l4Blk V c 2 ⟨n + 1, hn⟩) (l4Blk V c 3 ⟨n + 1, hn⟩) (l4Blk V c 1 ⟨n + 1, hn⟩) (l4Acc c n (Nat.lt_of_succ_lt hn)).1), (k4_pay1 (l4Acc c n (Nat.lt_of_succ_lt hn)).2 (k4_pay8 (l4Blk V c 0 ⟨n + 1, hn⟩) (l4Blk V c 2 ⟨n + 1, hn⟩) (l4Blk V c 3 ⟨n + 1, hn⟩) (l4Blk V c 1 ⟨n + 1, hn⟩))))

theorem l4At_SQ (c : Dev nD) : ∀ (n : ℕ) (hn : n < cfg4.N),
    (l4At V c n hn).2.2.2.1 = (l4Acc V c n hn).1 ∧ (l4At V c n hn).2.2.2.2 = (l4Acc V c n hn).2
  | 0, hn => by
    have e := l4At_first V c ⟨0, hn⟩ (Nat.zero_mod _)
    dsimp only at e
    rw [e]
    exact ⟨l4First_S .., l4First_Q ..⟩
  | n + 1, hn => by
    have ih := l4At_SQ c n (Nat.lt_of_succ_lt hn)
    by_cases h0 : (n + 1) % 4 = 0
    · have e := l4At_first V c ⟨n + 1, hn⟩ h0
      dsimp only at e
      rw [e]
      unfold l4Acc
      rw [if_pos h0]
      exact ⟨l4First_S .., l4First_Q ..⟩
    · by_cases h7 : (n + 1) % 4 = 3
      · have e := l4At_last V c ⟨n + 1, hn⟩ h0 h7
        dsimp only [Nat.add_sub_cancel] at e
        rw [e]
        unfold l4Acc
        rw [if_neg h0, l4Last_S, l4Last_Q]
        exact ⟨congrArg (fun z => (k4_pay7 (l4Blk V c 0 ⟨n + 1, hn⟩) (l4Blk V c 2 ⟨n + 1, hn⟩) (l4Blk V c 3 ⟨n + 1, hn⟩) (l4Blk V c 1 ⟨n + 1, hn⟩) z)) ih.1, congrArg (fun z => (k4_pay1 z (k4_pay8 (l4Blk V c 0 ⟨n + 1, hn⟩) (l4Blk V c 2 ⟨n + 1, hn⟩) (l4Blk V c 3 ⟨n + 1, hn⟩) (l4Blk V c 1 ⟨n + 1, hn⟩)))) ih.2⟩
      · have e := l4At_mid V c ⟨n + 1, hn⟩ h0 h7
        dsimp only [Nat.add_sub_cancel] at e
        rw [e]
        unfold l4Acc
        rw [if_neg h0, l4Mid_S, l4Mid_Q]
        exact ⟨congrArg (fun z => (k4_pay7 (l4Blk V c 0 ⟨n + 1, hn⟩) (l4Blk V c 2 ⟨n + 1, hn⟩) (l4Blk V c 3 ⟨n + 1, hn⟩) (l4Blk V c 1 ⟨n + 1, hn⟩) z)) ih.1, congrArg (fun z => (k4_pay1 z (k4_pay8 (l4Blk V c 0 ⟨n + 1, hn⟩) (l4Blk V c 2 ⟨n + 1, hn⟩) (l4Blk V c 3 ⟨n + 1, hn⟩) (l4Blk V c 1 ⟨n + 1, hn⟩)))) ih.2⟩

/-- h's buffer after any point: the product for that point's blocks. -/
theorem l4At_H (c : Dev nD) (t : Fin cfg4.N) : (l4At V c t.val t.isLt).1 = (k4_pay6 (l4Blk V c 0 t) (l4Blk V c 2 t) (l4Blk V c 3 t) (l4Blk V c 1 t)) := by
  by_cases h0 : t.val % 4 = 0
  · rw [l4At_first V c t h0]; exact l4First_H ..
  · by_cases h7 : t.val % 4 = 3
    · rw [l4At_last V c t h0 h7]; exact l4Last_H ..
    · rw [l4At_mid V c t h0 h7]; exact l4Mid_H ..

/-- The statistics buffers after a last block: eight copies of the finished rows. -/
theorem l4At_A (c : Dev nD) (t : Fin cfg4.N) (h7 : t.val % 4 = 3) :
    (l4At V c t.val t.isLt).2.1 = (k4_pay2 (l4Acc V c t.val t.isLt).1) := by
  have h0 : ¬t.val % 4 = 0 := by omega
  have hS := (l4At_SQ V c t.val t.isLt).1
  rw [l4At_last V c t h0 h7] at hS ⊢
  rw [l4Last_A, ← hS, l4Last_S]
theorem l4At_B (c : Dev nD) (t : Fin cfg4.N) (h7 : t.val % 4 = 3) :
    (l4At V c t.val t.isLt).2.2.1 = (k4_pay3 (l4Acc V c t.val t.isLt).2) := by
  have h0 : ¬t.val % 4 = 0 := by omega
  have hQ := (l4At_SQ V c t.val t.isLt).2
  rw [l4At_last V c t h0 h7] at hQ ⊢
  rw [l4Last_B, ← hQ, l4Last_Q]

end Cert.KernelIdeal.Hand

end
-- ==== Proof.Layer4ArraysIdeal.lean ====
/-
  The last (ten-column) layer's region at the exact instance, entry by entry: where each window's block sits in its array; a
  block's product as the corresponding rows of the layer's product over the whole arrays; hence what the region
  leaves in its three result arrays — the products, and the two statistics arrays holding each half's running
  sums of the products' columns and of their squares.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.Layer4PiecesIdeal
import proofs.«126670_j49074296324140_2_alg».proof.Proof.MatmulAtIndex
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open ValueIdx
open Cert.ReferenceIdeal.Hand.RefSpec (A2 A1 arr arr_ix2)
open Cert.KernelIdeal.KSpec

local notation "𝕄" => MT nD τ sig Unit (Elt Ideal) ℕ (UR sig nD τ) ℕ

/-! ## Where the blocks sit -/

theorem l4Index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val / 4 ∧ win4_5.index t (1 : Fin 2) = 0
    ∧ win4_6.index t (0 : Fin 2) = t.val / 4 ∧ win4_6.index t (1 : Fin 2) = 0 :=
  (by decide +kernel : ∀ t : Fin grid4.N, _)

variable (V : (c : Dev nD) → (b : Ref sig .tc) → Buf (Elt Ideal) ((c : Thread nD τ).loc b))

/-- The block of the first window at point t, at row r, is row 4096·t + r of its array. -/
theorem l4Blk0_apply (c : Dev nD) (t : Fin cfg4.N) (r : Fin 4096) (l : Fin 256) :
    (l4Blk V c 0 t : Vec Ideal S4096x256 .f32) (ix2 r l) = (V c (Pipeline.arrRef spec4 0) : A2 32768 256) (ix2 ⟨t.val * 4096 + r.val, by have := t.isLt; have hN : cfg4.N = 8 := N_4; omega⟩ l) := by
  unfold l4Blk
  rw [View.read_apply]
  refine congrArg (V c (Pipeline.arrRef spec4 0)) ?_
  funext a
  apply Fin.ext
  obtain ⟨e0, e1, -, -, -, -, -, -, -, -, -, -, -, -⟩ := l4Index t
  match a with
  | ⟨0, _⟩ => show win4_0.index t (0 : Fin 2) * 4096 + 1 * r.val = t.val * 4096 + r.val; rw [e0]; omega
  | ⟨1, _⟩ => show win4_0.index t (1 : Fin 2) * 256 + 1 * l.val = l.val; rw [e1]; omega
/-- The block of window 1 is the whole (10 × 256) array. -/
theorem l4Blk1_apply (c : Dev nD) (t : Fin cfg4.N) (q : Fin 10) (l : Fin 256) :
    (l4Blk V c 1 t : Vec Ideal S10x256 .bf16) (ix2 q l) = (V c (Pipeline.arrRef spec4 1) : A2 10 256) (ix2 q l) := by
  unfold l4Blk
  rw [View.read_apply]
  refine congrArg (V c (Pipeline.arrRef spec4 1)) ?_
  funext a
  apply Fin.ext
  obtain ⟨-, -, e0, e1, -, -, -, -, -, -, -, -, -, -⟩ := l4Index t
  match a with
  | ⟨0, _⟩ => show win4_1.index t (0 : Fin 2) * 10 + 1 * q.val = q.val; rw [e0]; omega
  | ⟨1, _⟩ => show win4_1.index t (1 : Fin 2) * 256 + 1 * l.val = l.val; rw [e1]; omega
/-- The block of window 2 is the whole (1 × 256) array. -/
theorem l4Blk2_apply (c : Dev nD) (t : Fin cfg4.N) (q : Fin 1) (l : Fin 256) :
    (l4Blk V c 2 t : Vec Ideal S1x256 .f32) (ix2 q l) = (V c (Pipeline.arrRef spec4 2) : A2 1 256) (ix2 q l) := by
  unfold l4Blk
  rw [View.read_apply]
  refine congrArg (V c (Pipeline.arrRef spec4 2)) ?_
  funext a
  apply Fin.ext
  obtain ⟨-, -, -, -, e0, e1, -, -, -, -, -, -, -, -⟩ := l4Index t
  match a with
  | ⟨0, _⟩ => show win4_2.index t (0 : Fin 2) * 1 + 1 * q.val = q.val; rw [e0]; omega
  | ⟨1, _⟩ => show win4_2.index t (1 : Fin 2) * 256 + 1 * l.val = l.val; rw [e1]; omega
/-- The block of window 3 is the whole (1 × 256) array. -/
theorem l4Blk3_apply (c : Dev nD) (t : Fin cfg4.N) (q : Fin 1) (l : Fin 256) :
    (l4Blk V c 3 t : Vec Ideal S1x256 .f32) (ix2 q l) = (V c (Pipeline.arrRef spec4 3) : A2 1 256) (ix2 q l) := by
  unfold l4Blk
  rw [View.read_apply]
  refine congrArg (V c (Pipeline.arrRef spec4 3)) ?_
  funext a
  apply Fin.ext
  obtain ⟨-, -, -, -, -, -, e0, e1, -, -, -, -, -, -⟩ := l4Index t
  match a with
  | ⟨0, _⟩ => show win4_3.index t (0 : Fin 2) * 1 + 1 * q.val = q.val; rw [e0]; omega
  | ⟨1, _⟩ => show win4_3.index t (1 : Fin 2) * 256 + 1 * l.val = l.val; rw [e1]; omega

/-! ## A block's product is the corresponding rows of the layer's product -/

theorem l4H_apply (c : Dev nD) (t : Fin cfg4.N) (r : Fin 4096) (j : Fin 10) :
    (k4_pay6 (l4Blk V c 0 t) (l4Blk V c 2 t) (l4Blk V c 3 t) (l4Blk V c 1 t)) (ix2 r j) = (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) (ix2 ⟨t.val * 4096 + r.val, by have := t.isLt; have hN : cfg4.N = 8 := N_4; omega⟩ j) := by
  rw [k4_pay6_apply]
  show _ = ∑ l : Fin 256, signAt zeroW ((affine (V c (Pipeline.arrRef spec4 0) : A2 32768 256) (V c (Pipeline.arrRef spec4 2) : A2 1 256) (V c (Pipeline.arrRef spec4 3) : A2 1 256)) (ix2 ⟨t.val * 4096 + r.val, _⟩ l)) * (V c (Pipeline.arrRef spec4 1) : A2 10 256) (ix2 j l)
  refine Finset.sum_congr rfl fun l _ => ?_
  rw [l4Blk0_apply, l4Blk1_apply, l4Blk2_apply, l4Blk3_apply]
  try rfl

theorem l4H_row (c : Dev nD) (t : Fin cfg4.N) (r : Fin 4096) (j : Fin 10) :
    (k4_pay6 (l4Blk V c 0 t) (l4Blk V c 2 t) (l4Blk V c 3 t) (l4Blk V c 1 t)) (ix2 r j) = rowAt (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) (t.val * 4096 + r.val) j := by
  rw [l4H_apply]; unfold rowAt; rw [dif_pos]
theorem l4H_blockSum (c : Dev nD) (t : Fin cfg4.N) (j : Fin 10) :
    ∑ r : Fin 4096, (k4_pay6 (l4Blk V c 0 t) (l4Blk V c 2 t) (l4Blk V c 3 t) (l4Blk V c 1 t)) (ix2 r j) = blockSum 4096 (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) t.val j :=
  Finset.sum_congr rfl fun r _ => l4H_row V c t r j
theorem l4H_sqRow (c : Dev nD) (t : Fin cfg4.N) (r : Fin 4096) (j : Fin 10) :
    (k4_pay6 (l4Blk V c 0 t) (l4Blk V c 2 t) (l4Blk V c 3 t) (l4Blk V c 1 t)) (ix2 r j) * (k4_pay6 (l4Blk V c 0 t) (l4Blk V c 2 t) (l4Blk V c 3 t) (l4Blk V c 1 t)) (ix2 r j) = rowAt (sq (lin zeroW (affine (V c (Pipeline.arrRef spec4 0) : A2 32768 256) (V c (Pipeline.arrRef spec4 2) : A2 1 256) (V c (Pipeline.arrRef spec4 3) : A2 1 256)) (V c (Pipeline.arrRef spec4 1) : A2 10 256))) (t.val * 4096 + r.val) j := by
  rw [l4H_apply]; unfold rowAt; rw [dif_pos]; rfl
theorem l4H_sqBlockSum (c : Dev nD) (t : Fin cfg4.N) (j : Fin 10) :
    ∑ r : Fin 4096, (k4_pay6 (l4Blk V c 0 t) (l4Blk V c 2 t) (l4Blk V c 3 t) (l4Blk V c 1 t)) (ix2 r j) * (k4_pay6 (l4Blk V c 0 t) (l4Blk V c 2 t) (l4Blk V c 3 t) (l4Blk V c 1 t)) (ix2 r j) = blockSum 4096 (sq (lin zeroW (affine (V c (Pipeline.arrRef spec4 0) : A2 32768 256) (V c (Pipeline.arrRef spec4 2) : A2 1 256) (V c (Pipeline.arrRef spec4 3) : A2 1 256)) (V c (Pipeline.arrRef spec4 1) : A2 10 256))) t.val j :=
  Finset.sum_congr rfl fun r _ => l4H_sqRow V c t r j

/-! ## The products' array -/

theorem l4FlushedH (c : Dev nD) (t : Fin cfg4.N) (hf : (cfg4.win 4).flush t = true) :
    (l4Dat V c).flushed 4 t = ((cfg4.win 4).blk t).view.read (Elt Ideal) ((lin zeroW (affine (V c (Pipeline.arrRef spec4 0) : A2 32768 256) (V c (Pipeline.arrRef spec4 2) : A2 1 256) (V c (Pipeline.arrRef spec4 3) : A2 1 256)) (V c (Pipeline.arrRef spec4 1) : A2 10 256)) : A2 32768 10) := by
  have hN : cfg4.N = 8 := N_4
  show (cfg4.win 4).cut (grid4.coords t) ((l4Dat V c).after 4 t) = _
  rw [l4After4, l4At_H]
  funext y
  obtain ⟨r, j, rfl⟩ : ∃ (r : Fin 4096) (j : Fin 10), y = ix2 r j := ⟨y 0, y 1, eq_ix2 y⟩
  show (k4_pay6 (l4Blk V c 0 t) (l4Blk V c 2 t) (l4Blk V c 3 t) (l4Blk V c 1 t)) (ix2 r j) = (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) (((cfg4.win 4).blk t).view.emb (ix2 r j))
  rw [l4H_apply]
  refine congrArg (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) ?_
  funext a
  apply Fin.ext
  obtain ⟨-, -, -, -, -, -, -, -, e0, e1, -, -, -, -⟩ := l4Index t
  match a with
  | ⟨0, _⟩ => show t.val * 4096 + r.val = win4_4.index t (0 : Fin 2) * 4096 + 1 * r.val; rw [e0]; omega
  | ⟨1, _⟩ => show j.val = win4_4.index t (1 : Fin 2) * 10 + 1 * j.val; rw [e1]; omega

theorem l4CoverArrH (i : S32768x10.Idx) : ∃ t : Fin cfg4.N, (cfg4.win 4).flush t = true ∧ i ∈ ((cfg4.win 4).blk t).view.set := by
    have hN : cfg4.N = 8 := N_4
    have hG : grid4.N = 8 := N_4
    have h0 : (i 0 : Nat) < 32768 := (i 0).isLt
    have h1 : (i 1 : Nat) < 10 := (i 1).isLt
    have ht : (i 0 : Nat) / 4096 < grid4.N := by omega
    refine ⟨⟨(i 0 : Nat) / 4096, ht⟩, flush4_4 _, ?_⟩
    show i ∈ ((View.whole main_v140_0).slice (win4_4.rect ⟨(i 0 : Nat) / 4096, ht⟩)).set
    rw [View.set_slice_whole, Rect.mem_set_unit]
    intro a
    obtain ⟨-, -, -, -, -, -, -, -, e0, e1, -, -, -, -⟩ := l4Index ⟨(i 0 : Nat) / 4096, ht⟩
    match a with
    | ⟨0, _⟩ => show win4_4.index _ (0 : Fin 2) * 4096 ≤ (i 0 : Nat) ∧ (i 0 : Nat) < win4_4.index _ (0 : Fin 2) * 4096 + 4096
                rw [e0]; show (i 0 : Nat) / 4096 * 4096 ≤ (i 0 : Nat) ∧ (i 0 : Nat) < (i 0 : Nat) / 4096 * 4096 + 4096; omega
    | ⟨1, _⟩ => show win4_4.index _ (1 : Fin 2) * 10 ≤ (i 1 : Nat) ∧ (i 1 : Nat) < win4_4.index _ (1 : Fin 2) * 10 + 10
                rw [e1]; omega

theorem l4ArrH (c : Dev nD) : (l4Dat V c).arrAt 4 cfg4.N = ((lin zeroW (affine (V c (Pipeline.arrRef spec4 0) : A2 32768 256) (V c (Pipeline.arrRef spec4 2) : A2 1 256) (V c (Pipeline.arrRef spec4 3) : A2 1 256)) (V c (Pipeline.arrRef spec4 1) : A2 10 256)) : A2 32768 10) :=
  (l4Dat V c).arrAt_eq_of_cover 4 ((lin zeroW (affine (V c (Pipeline.arrRef spec4 0) : A2 32768 256) (V c (Pipeline.arrRef spec4 2) : A2 1 256) (V c (Pipeline.arrRef spec4 3) : A2 1 256)) (V c (Pipeline.arrRef spec4 1) : A2 10 256)) : A2 32768 10) (l4FlushedH V c) fun i => l4CoverArrH i

/-! ## The scratch rows are the running sums -/

theorem l4AccS (c : Dev nD) : ∀ (n : ℕ) (hn : n < cfg4.N) (u : Fin 1) (j : Fin 10),
    (l4Acc V c n hn).1 (ix2 u j) = chain 4096 4 (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) j n
  | 0, hn, u, j => by
    unfold l4Acc chain
    dsimp only
    rw [k4_pay7_apply]
    rw [k4_pay4_apply, l4H_blockSum V c ⟨0, hn⟩ j]
  | n + 1, hn, u, j => by
    have ih := l4AccS c n (Nat.lt_of_succ_lt hn) u j
    unfold l4Acc chain
    by_cases h0 : (n + 1) % 4 = 0
    · rw [if_pos h0, if_pos h0]
      dsimp only
      rw [k4_pay7_apply]
      rw [k4_pay4_apply, l4H_blockSum V c ⟨n + 1, hn⟩ j]
    · rw [if_neg h0, if_neg h0]
      dsimp only
      rw [k4_pay7_apply]
      rw [ih, l4H_blockSum V c ⟨n + 1, hn⟩ j]

theorem l4AccQ (c : Dev nD) : ∀ (n : ℕ) (hn : n < cfg4.N) (u : Fin 1) (j : Fin 10),
    (l4Acc V c n hn).2 (ix2 u j) = chain 4096 4 (sq (lin zeroW (affine (V c (Pipeline.arrRef spec4 0) : A2 32768 256) (V c (Pipeline.arrRef spec4 2) : A2 1 256) (V c (Pipeline.arrRef spec4 3) : A2 1 256)) (V c (Pipeline.arrRef spec4 1) : A2 10 256))) j n
  | 0, hn, u, j => by
    unfold l4Acc chain
    dsimp only
    rw [k4_pay1_apply]; simp only [k4_pay8_apply]
    rw [k4_pay5_apply, l4H_sqBlockSum V c ⟨0, hn⟩ j]
  | n + 1, hn, u, j => by
    have ih := l4AccQ c n (Nat.lt_of_succ_lt hn) u j
    unfold l4Acc chain
    by_cases h0 : (n + 1) % 4 = 0
    · rw [if_pos h0, if_pos h0]
      dsimp only
      rw [k4_pay1_apply]; simp only [k4_pay8_apply]
      rw [k4_pay5_apply, l4H_sqBlockSum V c ⟨n + 1, hn⟩ j]
    · rw [if_neg h0, if_neg h0]
      dsimp only
      rw [k4_pay1_apply]; simp only [k4_pay8_apply]
      rw [ih, l4H_sqBlockSum V c ⟨n + 1, hn⟩ j]

/-! ## The two statistics arrays -/

theorem l4FlushedA (c : Dev nD) (t : Fin cfg4.N) (hf : (cfg4.win 5).flush t = true) :
    (l4Dat V c).flushed 5 t = ((cfg4.win 5).blk t).view.read (Elt Ideal) (pad 4096 4 (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) : A2 16 10) := by
  have h7 : t.val % 4 = 3 := (flush4_5 t).mp hf
  have hN : cfg4.N = 8 := N_4
  show (cfg4.win 5).cut (grid4.coords t) ((l4Dat V c).after 5 t) = _
  rw [l4After5, l4At_A V c t h7]
  funext y
  obtain ⟨q, j, rfl⟩ : ∃ (q : Fin 8) (j : Fin 10), y = ix2 q j := ⟨y 0, y 1, eq_ix2 y⟩
  show k4_pay2 (l4Acc V c t.val t.isLt).1 (ix2 q j) = (pad 4096 4 (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) : A2 16 10) (((cfg4.win 5).blk t).view.emb (ix2 q j))
  rw [k4_pay2_apply, l4AccS V c t.val t.isLt 0 j]
  have he : ((cfg4.win 5).blk t).view.emb (ix2 q j) = (ix2 (⟨t.val / 4 * 8 + q.val, by have := t.isLt; omega⟩ : Fin 16) j) := by
    funext a
    apply Fin.ext
    obtain ⟨-, -, -, -, -, -, -, -, -, -, e0, e1, -, -⟩ := l4Index t
    match a with
    | ⟨0, _⟩ => show win4_5.index t (0 : Fin 2) * 8 + 1 * q.val = t.val / 4 * 8 + q.val; rw [e0]; omega
    | ⟨1, _⟩ => show win4_5.index t (1 : Fin 2) * 10 + 1 * j.val = j.val; rw [e1]; omega
  rw [he]
  show chain 4096 4 (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) j t.val = chain 4096 4 (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) j ((t.val / 4 * 8 + q.val) / 8 * 4 + (4 - 1))
  refine congrArg (chain 4096 4 (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) j) ?_
  have := q.isLt
  omega

theorem l4CoverArrA (i : S16x10.Idx) : ∃ t : Fin cfg4.N, (cfg4.win 5).flush t = true ∧ i ∈ ((cfg4.win 5).blk t).view.set := by
    have hN : cfg4.N = 8 := N_4
    have hG : grid4.N = 8 := N_4
    have h0 : (i 0 : Nat) < 16 := (i 0).isLt
    have h1 : (i 1 : Nat) < 10 := (i 1).isLt
    have ht : (i 0 : Nat) / 8 * 4 + 3 < grid4.N := by omega
    refine ⟨⟨(i 0 : Nat) / 8 * 4 + 3, ht⟩, (flush4_5 _).mpr (by show ((i 0 : Nat) / 8 * 4 + 3) % 4 = 3; omega), ?_⟩
    show i ∈ ((View.whole main_v140_1).slice (win4_5.rect ⟨(i 0 : Nat) / 8 * 4 + 3, ht⟩)).set
    rw [View.set_slice_whole, Rect.mem_set_unit]
    intro a
    obtain ⟨-, -, -, -, -, -, -, -, -, -, e0, e1, -, -⟩ := l4Index ⟨(i 0 : Nat) / 8 * 4 + 3, ht⟩
    match a with
    | ⟨0, _⟩ => show win4_5.index _ (0 : Fin 2) * 8 ≤ (i 0 : Nat) ∧ (i 0 : Nat) < win4_5.index _ (0 : Fin 2) * 8 + 8
                rw [e0]; show ((i 0 : Nat) / 8 * 4 + 3) / 4 * 8 ≤ (i 0 : Nat) ∧ (i 0 : Nat) < ((i 0 : Nat) / 8 * 4 + 3) / 4 * 8 + 8; omega
    | ⟨1, _⟩ => show win4_5.index _ (1 : Fin 2) * 10 ≤ (i 1 : Nat) ∧ (i 1 : Nat) < win4_5.index _ (1 : Fin 2) * 10 + 10
                rw [e1]; omega

theorem l4ArrA (c : Dev nD) : (l4Dat V c).arrAt 5 cfg4.N = (pad 4096 4 (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) : A2 16 10) :=
  (l4Dat V c).arrAt_eq_of_cover 5 (pad 4096 4 (lin zeroW (affine (V c (Pipeline.arrRef spec4 0) : A2 32768 256) (V c (Pipeline.arrRef spec4 2) : A2 1 256) (V c (Pipeline.arrRef spec4 3) : A2 1 256)) (V c (Pipeline.arrRef spec4 1) : A2 10 256)) : A2 16 10) (l4FlushedA V c) fun i => l4CoverArrA i

theorem l4FlushedB (c : Dev nD) (t : Fin cfg4.N) (hf : (cfg4.win 6).flush t = true) :
    (l4Dat V c).flushed 6 t = ((cfg4.win 6).blk t).view.read (Elt Ideal) (pad 4096 4 (sq (lin zeroW (affine (V c (Pipeline.arrRef spec4 0) : A2 32768 256) (V c (Pipeline.arrRef spec4 2) : A2 1 256) (V c (Pipeline.arrRef spec4 3) : A2 1 256)) (V c (Pipeline.arrRef spec4 1) : A2 10 256))) : A2 16 10) := by
  have h7 : t.val % 4 = 3 := (flush4_6 t).mp hf
  have hN : cfg4.N = 8 := N_4
  show (cfg4.win 6).cut (grid4.coords t) ((l4Dat V c).after 6 t) = _
  rw [l4After6, l4At_B V c t h7]
  funext y
  obtain ⟨q, j, rfl⟩ : ∃ (q : Fin 8) (j : Fin 10), y = ix2 q j := ⟨y 0, y 1, eq_ix2 y⟩
  show k4_pay3 (l4Acc V c t.val t.isLt).2 (ix2 q j) = (pad 4096 4 (sq (lin zeroW (affine (V c (Pipeline.arrRef spec4 0) : A2 32768 256) (V c (Pipeline.arrRef spec4 2) : A2 1 256) (V c (Pipeline.arrRef spec4 3) : A2 1 256)) (V c (Pipeline.arrRef spec4 1) : A2 10 256))) : A2 16 10) (((cfg4.win 6).blk t).view.emb (ix2 q j))
  rw [k4_pay3_apply, l4AccQ V c t.val t.isLt 0 j]
  have he : ((cfg4.win 6).blk t).view.emb (ix2 q j) = (ix2 (⟨t.val / 4 * 8 + q.val, by have := t.isLt; omega⟩ : Fin 16) j) := by
    funext a
    apply Fin.ext
    obtain ⟨-, -, -, -, -, -, -, -, -, -, -, -, e0, e1⟩ := l4Index t
    match a with
    | ⟨0, _⟩ => show win4_6.index t (0 : Fin 2) * 8 + 1 * q.val = t.val / 4 * 8 + q.val; rw [e0]; omega
    | ⟨1, _⟩ => show win4_6.index t (1 : Fin 2) * 10 + 1 * j.val = j.val; rw [e1]; omega
  rw [he]
  show chain 4096 4 (sq (lin zeroW (affine (V c (Pipeline.arrRef spec4 0) : A2 32768 256) (V c (Pipeline.arrRef spec4 2) : A2 1 256) (V c (Pipeline.arrRef spec4 3) : A2 1 256)) (V c (Pipeline.arrRef spec4 1) : A2 10 256))) j t.val = chain 4096 4 (sq (lin zeroW (affine (V c (Pipeline.arrRef spec4 0) : A2 32768 256) (V c (Pipeline.arrRef spec4 2) : A2 1 256) (V c (Pipeline.arrRef spec4 3) : A2 1 256)) (V c (Pipeline.arrRef spec4 1) : A2 10 256))) j ((t.val / 4 * 8 + q.val) / 8 * 4 + (4 - 1))
  refine congrArg (chain 4096 4 (sq (lin zeroW (affine (V c (Pipeline.arrRef spec4 0) : A2 32768 256) (V c (Pipeline.arrRef spec4 2) : A2 1 256) (V c (Pipeline.arrRef spec4 3) : A2 1 256)) (V c (Pipeline.arrRef spec4 1) : A2 10 256))) j) ?_
  have := q.isLt
  omega

theorem l4CoverArrB (i : S16x10.Idx) : ∃ t : Fin cfg4.N, (cfg4.win 6).flush t = true ∧ i ∈ ((cfg4.win 6).blk t).view.set := by
    have hN : cfg4.N = 8 := N_4
    have hG : grid4.N = 8 := N_4
    have h0 : (i 0 : Nat) < 16 := (i 0).isLt
    have h1 : (i 1 : Nat) < 10 := (i 1).isLt
    have ht : (i 0 : Nat) / 8 * 4 + 3 < grid4.N := by omega
    refine ⟨⟨(i 0 : Nat) / 8 * 4 + 3, ht⟩, (flush4_6 _).mpr (by show ((i 0 : Nat) / 8 * 4 + 3) % 4 = 3; omega), ?_⟩
    show i ∈ ((View.whole main_v140_2).slice (win4_6.rect ⟨(i 0 : Nat) / 8 * 4 + 3, ht⟩)).set
    rw [View.set_slice_whole, Rect.mem_set_unit]
    intro a
    obtain ⟨-, -, -, -, -, -, -, -, -, -, -, -, e0, e1⟩ := l4Index ⟨(i 0 : Nat) / 8 * 4 + 3, ht⟩
    match a with
    | ⟨0, _⟩ => show win4_6.index _ (0 : Fin 2) * 8 ≤ (i 0 : Nat) ∧ (i 0 : Nat) < win4_6.index _ (0 : Fin 2) * 8 + 8
                rw [e0]; show ((i 0 : Nat) / 8 * 4 + 3) / 4 * 8 ≤ (i 0 : Nat) ∧ (i 0 : Nat) < ((i 0 : Nat) / 8 * 4 + 3) / 4 * 8 + 8; omega
    | ⟨1, _⟩ => show win4_6.index _ (1 : Fin 2) * 10 ≤ (i 1 : Nat) ∧ (i 1 : Nat) < win4_6.index _ (1 : Fin 2) * 10 + 10
                rw [e1]; omega

theorem l4ArrB (c : Dev nD) : (l4Dat V c).arrAt 6 cfg4.N = (pad 4096 4 (sq (lin zeroW (affine (V c (Pipeline.arrRef spec4 0) : A2 32768 256) (V c (Pipeline.arrRef spec4 2) : A2 1 256) (V c (Pipeline.arrRef spec4 3) : A2 1 256)) (V c (Pipeline.arrRef spec4 1) : A2 10 256))) : A2 16 10) :=
  (l4Dat V c).arrAt_eq_of_cover 6 (pad 4096 4 (sq (lin zeroW (affine (V c (Pipeline.arrRef spec4 0) : A2 32768 256) (V c (Pipeline.arrRef spec4 2) : A2 1 256) (V c (Pipeline.arrRef spec4 3) : A2 1 256)) (V c (Pipeline.arrRef spec4 1) : A2 10 256))) : A2 16 10) (l4FlushedB V c) fun i => l4CoverArrB i

end Cert.KernelIdeal.Hand

end
-- ==== Proof.PaySoftmax.lean ====
/- The softmax kernel's stored value read at an index, at the ideal values. The kernel scales and shifts its block of
   logits by one row each (z(r,j) = h(r,j)·sc(0,j) + sh(0,j)), takes each row's maximum M(r) as the fold of the maximum over
   the row's ten entries from −∞, exponentiates the differences, sums each row's exponentials and divides:
   the entry at (r, j) is exp(z(r,j) − M(r)) / Σ_j' exp(z(r,j') − M(r)). A row copied down the rows reads the row; a vector
   laid out as one column and copied along the columns reads the vector at the row; a lane maximum and a lane sum over
   the column axis read as the fold and the finite sum over that axis's coordinates; a cast between equal shapes is the
   identity. -/
import proofs.«126670_j49074296324140_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

section Layout
variable {α : Type}

/-- A vector cast to one column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- One column copied along the columns reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The scaled and shifted logit. -/
def zk (h : Vec Ideal S4096x10 .f32) (sc sh : Vec Ideal S1x10 .f32) (r : Fin 4096) (j : Fin 10) : EReal :=
  h (ix2 r j) * sc (ix2 (0 : Fin 1) j) + sh (ix2 (0 : Fin 1) j)

/-- The row's maximum: the maximum folded over the row's ten logits from −∞. -/
def Mk (h : Vec Ideal S4096x10 .f32) (sc sh : Vec Ideal S1x10 .f32) (r : Fin 4096) : EReal :=
  (Finset.univ : Finset (Fin 10)).fold max (Ideal.ofBits .f32 0xFF800000#32) fun j' => zk h sc sh r j'

/-- The kernel's vector of logits. -/
def zv (h : Vec Ideal S4096x10 .f32) (sc sh : Vec Ideal S1x10 .f32) : FVec Ideal S4096x10 .f32 :=
  addf (mulf h (broadcastTo S4096x10 sc broadcasts_S1x10_S4096x10)) (broadcastTo S4096x10 sh broadcasts_S1x10_S4096x10)

/-- The kernel's vector of row maxima. -/
def mv (h : Vec Ideal S4096x10 .f32) (sc sh : Vec Ideal S1x10 .f32) : FVec Ideal S4096 .f32 :=
  multiReduction .maximumf [1] S4096 (zv h sc sh) 0xFF800000#32 reduces_S4096x10_S4096 (.inl rfl) rfl

/-- The kernel's vector of exponentials. -/
def ev (h : Vec Ideal S4096x10 .f32) (sc sh : Vec Ideal S1x10 .f32) : FVec Ideal S4096x10 .f32 :=
  exp (subf (zv h sc sh) (broadcastTo S4096x10 (shapeCast S4096x1 (mv h sc sh) shapeCasts_S4096_S4096x1) broadcasts_S4096x1_S4096x10))

/-- The kernel's vector of row sums. -/
def sv (h : Vec Ideal S4096x10 .f32) (sc sh : Vec Ideal S1x10 .f32) : FVec Ideal S4096 .f32 :=
  multiReduction .add [1] S4096 (ev h sc sh) 0x00000000#32 reduces_S4096x10_S4096 (.inl rfl) rfl

/-- The stored value is the quotient of the exponentials by their row sums, the casts between equal shapes removed. -/
theorem k5_pay1_eq (h : Vec Ideal S4096x10 .f32) (sc sh : Vec Ideal S1x10 .f32) :
    k5_pay1 (F := Ideal) h sc sh
      = divf (ev h sc sh) (broadcastTo S4096x10 (shapeCast S4096x1 (sv h sc sh) shapeCasts_S4096_S4096x1) broadcasts_S4096x1_S4096x10) := by
  unfold k5_pay1 sv ev mv zv
  simp only [shapeCast_self]

theorem zv_apply (h : Vec Ideal S4096x10 .f32) (sc sh : Vec Ideal S1x10 .f32) (r : Fin 4096) (j : Fin 10) :
    zv h sc sh (ix2 r j) = zk h sc sh r j := by
  show h (ix2 r j) * broadcastTo S4096x10 sc broadcasts_S1x10_S4096x10 (ix2 r j) + broadcastTo S4096x10 sh broadcasts_S1x10_S4096x10 (ix2 r j) = _
  rw [broadcastTo_1b_ab_apply, broadcastTo_1b_ab_apply]
  rfl

theorem mv_apply (h : Vec Ideal S4096x10 .f32) (sc sh : Vec Ideal S1x10 .f32) (r : Fin 4096) :
    mv h sc sh (ix1 r) = Mk h sc sh r := by
  unfold mv Mk
  refine (Ideal.multiReduction_maximumf_single (zv h sc sh) 0xFF800000#32 reduces_S4096x10_S4096 (.inl rfl) rfl (ix1 r)).trans ?_
  refine congrArg (Finset.fold _ _ · _) ?_
  funext l
  show zv h sc sh (reduces_S4096x10_S4096.lift (ix1 r) l) = _
  rw [show reduces_S4096x10_S4096.lift (ix1 r) l = ix2 r l from funext fun c => match c with | ⟨0, _⟩ => rfl | ⟨1, _⟩ => rfl]
  exact zv_apply h sc sh r l

theorem ev_apply (h : Vec Ideal S4096x10 .f32) (sc sh : Vec Ideal S1x10 .f32) (r : Fin 4096) (j : Fin 10) :
    ev h sc sh (ix2 r j) = Ideal.exp (zk h sc sh r j - Mk h sc sh r) := by
  show Ideal.exp (zv h sc sh (ix2 r j) - broadcastTo S4096x10 (shapeCast S4096x1 (mv h sc sh) shapeCasts_S4096_S4096x1) broadcasts_S4096x1_S4096x10 (ix2 r j)) = _
  rw [broadcastTo_a1_ab_apply, shapeCast_a_a1_apply, zv_apply, mv_apply]

theorem sv_apply (h : Vec Ideal S4096x10 .f32) (sc sh : Vec Ideal S1x10 .f32) (r : Fin 4096) :
    sv h sc sh (ix1 r) = ∑ j' : Fin 10, Ideal.exp (zk h sc sh r j' - Mk h sc sh r) := by
  unfold sv
  refine (Ideal.multiReduction_add_single (ev h sc sh) 0x00000000#32 reduces_S4096x10_S4096 (.inl rfl) rfl (ix1 r)).trans ?_
  refine Finset.sum_congr rfl fun l _ => ?_
  rw [show reduces_S4096x10_S4096.lift (ix1 r) l = ix2 r l from funext fun c => match c with | ⟨0, _⟩ => rfl | ⟨1, _⟩ => rfl]
  exact ev_apply h sc sh r l

/-- THE STORED VALUE AT (r, j): exp(z(r,j) − M(r)) over the sum of the row's ten such exponentials. -/
theorem k5_pay1_apply (h : Vec Ideal S4096x10 .f32) (sc sh : Vec Ideal S1x10 .f32) (r : Fin 4096) (j : Fin 10) :
    k5_pay1 (F := Ideal) h sc sh (ix2 r j)
      = Ideal.div (Ideal.exp (zk h sc sh r j - Mk h sc sh r)) (∑ j' : Fin 10, Ideal.exp (zk h sc sh r j' - Mk h sc sh r)) := by
  rw [k5_pay1_eq]
  show Ideal.div (ev h sc sh (ix2 r j)) (broadcastTo S4096x10 (shapeCast S4096x1 (sv h sc sh) shapeCasts_S4096_S4096x1) broadcasts_S4096x1_S4096x10 (ix2 r j)) = _
  rw [broadcastTo_a1_ab_apply, shapeCast_a_a1_apply, ev_apply, sv_apply]

end Cert.KernelIdeal.Pay

end
-- ==== Proof.SoftmaxArrayIdeal.lean ====
/-
  The last region's result array at the exact instance, entry by entry. The region has eight grid points; at point t
  it reads rows 4096·t … 4096·t + 4095 of the logits' array and the two one-row parameter arrays whole, and writes the
  same rows of the result. A row's maximum and a row's sum range over that row only, so the value stored at row r of
  the block at point t is the row softmax of the affine image at row 4096·t + r of the whole array; every row lies in
  exactly one block and every point writes its block back, so the result array is the row softmax of the affine image
  of the whole array.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.SoftmaxRegionIdeal
import proofs.«126670_j49074296324140_2_alg».proof.Proof.PaySoftmax
import proofs.«126670_j49074296324140_2_alg».proof.Proof.KernelSpec
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open ValueIdx
open Cert.ReferenceIdeal.Hand.RefSpec (A2 A1 arr arr_ix2)
open Cert.KernelIdeal.KSpec
open Cert.KernelIdeal.Pay

/-! ## Where the blocks sit -/

/-- At point t the logits' window and the result's window sit at block row t; the two parameter windows do not move. -/
theorem smIndex : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem smhz : (![0, 0] : Fin 2 → Nat) = fun _ => 0 := funext fun a => by fin_cases a <;> rfl

variable (V : (c : Dev nD) → (b : Ref sig .tc) → Buf (Elt Ideal) ((c : Thread nD τ).loc b))

/-- The block of the logits at point t, at row r, is row 4096·t + r of their array. -/
theorem smBlk0_apply (c : Dev nD) (t : Fin cfg5.N) (r : Fin 4096) (j : Fin 10) :
    (smBlock V c 0 t : Vec Ideal S4096x10 .f32) (ix2 r j) = (V c (Pipeline.arrRef spec5 0) : A2 32768 10) (ix2 ⟨t.val * 4096 + r.val, by have := t.isLt; have hN : cfg5.N = 8 := N_5; omega⟩ j) := by
  unfold smBlock
  rw [View.read_apply]
  refine congrArg (V c (Pipeline.arrRef spec5 0)) ?_
  funext a
  apply Fin.ext
  obtain ⟨e0, e1, -, -, -, -, -, -⟩ := smIndex t
  match a with
  | ⟨0, _⟩ => show win5_0.index t (0 : Fin 2) * 4096 + 1 * r.val = t.val * 4096 + r.val; rw [e0]; omega
  | ⟨1, _⟩ => show win5_0.index t (1 : Fin 2) * 10 + 1 * j.val = j.val; rw [e1]; omega

/-- The block of the multipliers is their whole one-row array. -/
theorem smBlk1_apply (c : Dev nD) (t : Fin cfg5.N) (q : Fin 1) (j : Fin 10) :
    (smBlock V c 1 t : Vec Ideal S1x10 .f32) (ix2 q j) = (V c (Pipeline.arrRef spec5 1) : A2 1 10) (ix2 q j) := by
  unfold smBlock
  rw [View.read_apply]
  refine congrArg (V c (Pipeline.arrRef spec5 1)) ?_
  funext a
  apply Fin.ext
  obtain ⟨-, -, e0, e1, -, -, -, -⟩ := smIndex t
  match a with
  | ⟨0, _⟩ => show win5_1.index t (0 : Fin 2) * 1 + 1 * q.val = q.val; rw [e0]; omega
  | ⟨1, _⟩ => show win5_1.index t (1 : Fin 2) * 10 + 1 * j.val = j.val; rw [e1]; omega

/-- The block of the offsets is their whole one-row array. -/
theorem smBlk2_apply (c : Dev nD) (t : Fin cfg5.N) (q : Fin 1) (j : Fin 10) :
    (smBlock V c 2 t : Vec Ideal S1x10 .f32) (ix2 q j) = (V c (Pipeline.arrRef spec5 2) : A2 1 10) (ix2 q j) := by
  unfold smBlock
  rw [View.read_apply]
  refine congrArg (V c (Pipeline.arrRef spec5 2)) ?_
  funext a
  apply Fin.ext
  obtain ⟨-, -, -, -, e0, e1, -, -⟩ := smIndex t
  match a with
  | ⟨0, _⟩ => show win5_2.index t (0 : Fin 2) * 1 + 1 * q.val = q.val; rw [e0]; omega
  | ⟨1, _⟩ => show win5_2.index t (1 : Fin 2) * 10 + 1 * j.val = j.val; rw [e1]; omega

/-! ## A block's rows are the corresponding rows over the whole arrays -/

/-- The one store of the whole block leaves its payload, computed from the three blocks as they are. -/
theorem smOut_eq (h : Vec Ideal S4096x10 .f32) (sc sh : Vec Ideal S1x10 .f32) : smOut h sc sh = k5_pay1 (F := Ideal) h sc sh := by
  unfold smOut
  rw [View.canon_unit_zero smhz]
  simp only [View.ld_unit_zero (S := S4096x10) smhz, View.ld_unit_zero (S := S1x10) smhz]

/-- A logit of the block at point t is the logit of row 4096·t + r over the whole arrays. -/
theorem smZk (c : Dev nD) (t : Fin cfg5.N) (r : Fin 4096) (j : Fin 10) :
    zk (smBlock V c 0 t) (smBlock V c 1 t) (smBlock V c 2 t) r j
      = (affine (V c (Pipeline.arrRef spec5 0) : A2 32768 10) (V c (Pipeline.arrRef spec5 1) : A2 1 10) (V c (Pipeline.arrRef spec5 2) : A2 1 10) : A2 32768 10)
          (ix2 ⟨t.val * 4096 + r.val, by have := t.isLt; have hN : cfg5.N = 8 := N_5; omega⟩ j) := by
  unfold zk
  rw [smBlk0_apply, smBlk1_apply, smBlk2_apply]
  rfl

/-- A row maximum of the block at point t is the maximum of row 4096·t + r over the whole arrays. -/
theorem smMk (c : Dev nD) (t : Fin cfg5.N) (r : Fin 4096) :
    Mk (smBlock V c 0 t) (smBlock V c 1 t) (smBlock V c 2 t) r
      = (Finset.univ : Finset (Fin 10)).fold max (Ideal.ofBits .f32 0xFF800000#32) fun j' =>
          (affine (V c (Pipeline.arrRef spec5 0) : A2 32768 10) (V c (Pipeline.arrRef spec5 1) : A2 1 10) (V c (Pipeline.arrRef spec5 2) : A2 1 10) : A2 32768 10)
            (ix2 ⟨t.val * 4096 + r.val, by have := t.isLt; have hN : cfg5.N = 8 := N_5; omega⟩ j') := by
  unfold Mk
  exact congrArg (Finset.fold max (Ideal.ofBits .f32 0xFF800000#32) · Finset.univ) (funext fun j' => smZk V c t r j')

/-- The stored value at row r of the block at point t is the row softmax at row 4096·t + r of the whole arrays. -/
theorem smPay_apply (c : Dev nD) (t : Fin cfg5.N) (r : Fin 4096) (j : Fin 10) :
    k5_pay1 (F := Ideal) (smBlock V c 0 t) (smBlock V c 1 t) (smBlock V c 2 t) (ix2 r j)
      = (softK (V c (Pipeline.arrRef spec5 0) : A2 32768 10) (V c (Pipeline.arrRef spec5 1) : A2 1 10) (V c (Pipeline.arrRef spec5 2) : A2 1 10) : A2 32768 10)
          (ix2 ⟨t.val * 4096 + r.val, by have := t.isLt; have hN : cfg5.N = 8 := N_5; omega⟩ j) := by
  rw [k5_pay1_apply, smMk]
  simp only [smZk]
  rfl

/-! ## The result's array -/

theorem smFlushed (c : Dev nD) (t : Fin cfg5.N) (hf : (cfg5.win 3).flush t = true) :
    (smDat V c).flushed 3 t = ((cfg5.win 3).blk t).view.read (Elt Ideal)
      (softK (V c (Pipeline.arrRef spec5 0) : A2 32768 10) (V c (Pipeline.arrRef spec5 1) : A2 1 10) (V c (Pipeline.arrRef spec5 2) : A2 1 10) : A2 32768 10) := by
  have hN : cfg5.N = 8 := N_5
  show (cfg5.win 3).cut (grid5.coords t) ((smDat V c).after 3 t) = _
  rw [smAfter3, smOut_eq]
  funext y
  obtain ⟨r, j, rfl⟩ : ∃ (r : Fin 4096) (j : Fin 10), y = ix2 r j := ⟨y 0, y 1, eq_ix2 y⟩
  rw [View.read_apply]
  refine (smPay_apply V c t r j).trans ?_
  refine congrArg (softK (V c (Pipeline.arrRef spec5 0) : A2 32768 10) (V c (Pipeline.arrRef spec5 1) : A2 1 10) (V c (Pipeline.arrRef spec5 2) : A2 1 10) : A2 32768 10) ?_
  funext a
  apply Fin.ext
  obtain ⟨-, -, -, -, -, -, e0, e1⟩ := smIndex t
  match a with
  | ⟨0, _⟩ => show t.val * 4096 + r.val = win5_3.index t (0 : Fin 2) * 4096 + 1 * r.val; rw [e0]; omega
  | ⟨1, _⟩ => show j.val = win5_3.index t (1 : Fin 2) * 10 + 1 * j.val; rw [e1]; omega

/-- An index of the result's array is in point t's block iff each coordinate is in the block's range on its axis. -/
theorem smMem (t : Fin cfg5.N) (i : S32768x10.Idx) :
    i ∈ ((cfg5.win 3).blk t).view.set ↔ ∀ a : Fin 2, win5_3.index t a * S4096x10.size a ≤ (i a).val ∧ (i a).val < win5_3.index t a * S4096x10.size a + S4096x10.size a := by
  show i ∈ ((View.whole main_v170).slice (win5_3.rect t)).set ↔ _
  rw [View.set_slice_whole, Rect.mem_set_unit]
  exact Iff.rfl

/-- THE RESULT ARRAY: the row softmax of the affine image of the logits' array by the two parameter rows. -/
theorem smArr (c : Dev nD) : (smDat V c).arrAt 3 cfg5.N
    = (softK (V c (Pipeline.arrRef spec5 0) : A2 32768 10) (V c (Pipeline.arrRef spec5 1) : A2 1 10) (V c (Pipeline.arrRef spec5 2) : A2 1 10) : A2 32768 10) :=
  (smDat V c).arrAt_eq_of_cover 3 (softK (V c (Pipeline.arrRef spec5 0) : A2 32768 10) (V c (Pipeline.arrRef spec5 1) : A2 1 10) (V c (Pipeline.arrRef spec5 2) : A2 1 10) : A2 32768 10) (smFlushed V c) fun i => by
    have hN : cfg5.N = 8 := N_5
    have h0 : (i 0 : Nat) < 32768 := (i 0).isLt
    have h1 : (i 1 : Nat) < 10 := (i 1).isLt
    refine ⟨⟨(i 0 : Nat) / 4096, by omega⟩, flush5_3 _, ?_⟩
    rw [smMem]
    intro a
    obtain ⟨-, -, -, -, -, -, e0, e1⟩ := smIndex ⟨(i 0 : Nat) / 4096, by omega⟩
    match a with
    | ⟨0, _⟩ => show win5_3.index _ (0 : Fin 2) * 4096 ≤ (i 0 : Nat) ∧ (i 0 : Nat) < win5_3.index _ (0 : Fin 2) * 4096 + 4096
                rw [e0]; show (i 0 : Nat) / 4096 * 4096 ≤ (i 0 : Nat) ∧ (i 0 : Nat) < (i 0 : Nat) / 4096 * 4096 + 4096; omega
    | ⟨1, _⟩ => show win5_3.index _ (1 : Fin 2) * 10 ≤ (i 1 : Nat) ∧ (i 1 : Nat) < win5_3.index _ (1 : Fin 2) * 10 + 10
                rw [e1]; omega

end Cert.KernelIdeal.Hand

end
-- ==== Proof.GlueOps.lean ====
/-
  Single operations of the statistics glue, read at one index, at the extended reals.

  * the inverse square root of a vector, element by element;
  * a float constant broadcast from a scalar to any shape: everywhere the value its word denotes;
  * row `k` of a 16-row matrix, cut out as a one-row matrix and then flattened to a vector: at `j` it is the
    matrix at `(k, j)`.

  The column count is a parameter; the row extents 16 and 1 are literals and every index is built from its
  coordinates, so an instance mentions literal extents only.
-/
import Idealize.ShloMosaic.Lib.ValueLayout
import Idealize.ShloMosaic.Lib.IdealHost

noncomputable section

namespace Cert.KernelIdeal.Glue

open Idealize.ShloMosaic Idealize.ShloMosaic.ValueIdx

/-- The host's inverse square root at an index is the extended reals' inverse square root of the element. -/
theorem hostRsqrt_apply {s : Shape} {φ : FTy} (a : FVec Ideal s φ) (i : s.Idx) :
    Host.rsqrt a i = Ideal.rsqrt (a i) := rfl

/-- A float constant broadcast from a scalar to any shape reads, everywhere, the extended real its word denotes. -/
theorem bcastConst_apply {T : Shape} (h : (⟨0, ![]⟩ : Shape).BroadcastsInDim T ![]) (w : BitVec 32) (i : T.Idx) :
    broadcastInDim T ![] h (constant (F := Ideal) ⟨0, ![]⟩ .f32 w) i = Ideal.ofBits .f32 w :=
  broadcastInDim_scalar_apply h _ i

/-- Row `k` of a 16-row matrix (the cut starts at row `o = k`), flattened to a vector, read at `j`. -/
theorem row_apply {n : Nat} (o : Nat) (X : (⟨2, ![16, n]⟩ : Shape).Idx → EReal)
    (h : (⟨2, ![16, n]⟩ : Shape).Slices ![o, 0] ⟨2, ![1, n]⟩) (h' : (⟨2, ![1, n]⟩ : Shape).ShapeCasts ⟨1, ![n]⟩)
    (j : Fin n) (k : Fin 16) (hk : k.val = o) :
    shapeCast ⟨1, ![n]⟩ (extractStridedSlice ⟨2, ![1, n]⟩ ![o, 0] X h) h' (ix1 j) = X (ix2 k j) :=
  (shapeCast_1a_a_apply _ h' j).trans (slice2_axis0_apply o X h (0 : Fin 1) j k (by rw [hk]; rfl))

end Cert.KernelIdeal.Glue

end
-- ==== Proof.GlueStats1.lean ====
/-
  The host operations after the first matrix-product layer, over arbitrary buffer contents `V`.

  The layer leaves two padded statistics arrays (16 rows, 256 columns: row 0 the column sums over the first half of
  the batch, row 8 over the second half). The 34 host operations that follow take row 0 and row 8 of each, add them to
  a zero, divide by the batch size 32768, form the variance as the mean of the squares less the square of the mean, add
  1e-5, take the inverse square root, and multiply and subtract with the layer's gain and bias. Read at one index,
  what they leave in the two one-row results is `GlueSpec.scaleRow` and `GlueSpec.shiftRow` of the gain, the bias
  and the two statistics arrays as they stood before the operations, association for association.

  Nothing else a later layer reads is written: the layer's activation array, the binarized weights and the program's
  arguments stand as they were.
-/
import proofs.«126670_j49074296324140_2_alg».proof.Proof.Gen.KernelIdeal.Regions
import proofs.«126670_j49074296324140_2_alg».proof.Proof.GlueSpec
import proofs.«126670_j49074296324140_2_alg».proof.Proof.GlueOps
import Idealize.ShloMosaic.Lib.StableHlo.Run

noncomputable section

namespace Cert.KernelIdeal.Glue

open Idealize.ShloMosaic Idealize.ShloMosaic.ValueIdx Idealize.ShloMosaic.TcCoe Idealize.ShloMosaic.StableHlo
open Cert.KernelIdeal Cert.KernelIdeal.Gen

variable (V : Valuation τ sig (Elt Ideal))

set_option maxHeartbeats 4000000 in
/-- The multiplier row after the operations, at `(u, j)`. -/
theorem scale_after_1_apply (u : Fin 1) (j : Fin 256) :
    @Eq EReal ((StableHlo.after (hostOps1 (F := Ideal)) V (Proc.devRef .tc main_v45) : S1x256.Idx → EReal) (ix2 u j))
      (GlueSpec.scaleRow (V (Proc.devRef .tc main_arg6)) (V (Proc.devRef .tc main_v20_1)) (V (Proc.devRef .tc main_v20_2)) (ix2 u j)) := by
  unfold hostOps1
  after_results_simp
  refine (shapeCast_a_1a_apply _ _ u j).trans ?_
  simp only [mulf_apply, addf_apply, subf_apply, hostDivf_apply, hostRsqrt_apply]
  repeat rw [bcastConst_apply]
  erw [row_apply 0 _ _ _ j (0 : Fin 16) rfl, row_apply 8 _ _ _ j (8 : Fin 16) rfl,
    row_apply 0 _ _ _ j (0 : Fin 16) rfl, row_apply 8 _ _ _ j (8 : Fin 16) rfl]
  rw [GlueSpec.scaleRow_ix2]
  unfold GlueSpec.scaleAt GlueSpec.invstd GlueSpec.var GlueSpec.mean GlueSpec.total
  rfl

set_option maxHeartbeats 4000000 in
/-- The offset row after the operations, at `(u, j)`. -/
theorem shift_after_1_apply (u : Fin 1) (j : Fin 256) :
    @Eq EReal ((StableHlo.after (hostOps1 (F := Ideal)) V (Proc.devRef .tc main_v49) : S1x256.Idx → EReal) (ix2 u j))
      (GlueSpec.shiftRow (V (Proc.devRef .tc main_arg6)) (V (Proc.devRef .tc main_arg11)) (V (Proc.devRef .tc main_v20_1)) (V (Proc.devRef .tc main_v20_2)) (ix2 u j)) := by
  unfold hostOps1
  after_results_simp
  refine (shapeCast_a_1a_apply _ _ u j).trans ?_
  simp only [mulf_apply, addf_apply, subf_apply, hostDivf_apply, hostRsqrt_apply]
  repeat rw [bcastConst_apply]
  erw [row_apply 0 _ _ _ j (0 : Fin 16) rfl, row_apply 8 _ _ _ j (8 : Fin 16) rfl,
    row_apply 0 _ _ _ j (0 : Fin 16) rfl, row_apply 8 _ _ _ j (8 : Fin 16) rfl]
  rw [GlueSpec.shiftRow_ix2]
  unfold GlueSpec.shiftAt GlueSpec.invstd GlueSpec.var GlueSpec.mean GlueSpec.total
  rfl

/-- The multiplier row after the operations, as a function of the index. -/
theorem scale_after_1 :
    @Eq (S1x256.Idx → EReal) (StableHlo.after (hostOps1 (F := Ideal)) V (Proc.devRef .tc main_v45))
      (GlueSpec.scaleRow (V (Proc.devRef .tc main_arg6)) (V (Proc.devRef .tc main_v20_1)) (V (Proc.devRef .tc main_v20_2))) := by
  funext i
  obtain ⟨u, j, rfl⟩ : ∃ (u : Fin 1) (j : Fin 256), i = ix2 u j := ⟨i 0, i 1, eq_ix2 i⟩
  exact scale_after_1_apply V u j

/-- The offset row after the operations, as a function of the index. -/
theorem shift_after_1 :
    @Eq (S1x256.Idx → EReal) (StableHlo.after (hostOps1 (F := Ideal)) V (Proc.devRef .tc main_v49))
      (GlueSpec.shiftRow (V (Proc.devRef .tc main_arg6)) (V (Proc.devRef .tc main_arg11)) (V (Proc.devRef .tc main_v20_1)) (V (Proc.devRef .tc main_v20_2))) := by
  funext i
  obtain ⟨u, j, rfl⟩ : ∃ (u : Fin 1) (j : Fin 256), i = ix2 u j := ⟨i 0, i 1, eq_ix2 i⟩
  exact shift_after_1_apply V u j

/-- A buffer none of the 34 operations writes keeps its contents. -/
theorem unchanged_after_1 (r : Ref sig .tc) (hr : r ∉ hostOps1_W) :
    StableHlo.after (hostOps1 (F := Ideal)) V (Proc.devRef .tc r) = V (Proc.devRef .tc r) :=
  StableHlo.after_of_writes_sub hostOps1 V hostOps1_writes hr

/-- The layer's activation array is not written. -/
theorem h_after_1 : StableHlo.after (hostOps1 (F := Ideal)) V (Proc.devRef .tc main_v20_0) = V (Proc.devRef .tc main_v20_0) :=
  unchanged_after_1 V _ (by decide)

/-- The binarized weight matrix `main_v7` of a later layer is not written. -/
theorem v7_after_1 : StableHlo.after (hostOps1 (F := Ideal)) V (Proc.devRef .tc main_v7) = V (Proc.devRef .tc main_v7) :=
  unchanged_after_1 V _ (by decide)

/-- The binarized weight matrix `main_v11` of a later layer is not written. -/
theorem v11_after_1 : StableHlo.after (hostOps1 (F := Ideal)) V (Proc.devRef .tc main_v11) = V (Proc.devRef .tc main_v11) :=
  unchanged_after_1 V _ (by decide)

/-- The binarized weight matrix `main_v15` of a later layer is not written. -/
theorem v15_after_1 : StableHlo.after (hostOps1 (F := Ideal)) V (Proc.devRef .tc main_v15) = V (Proc.devRef .tc main_v15) :=
  unchanged_after_1 V _ (by decide)

/-- The binarized weight matrix `main_v19` of a later layer is not written. -/
theorem v19_after_1 : StableHlo.after (hostOps1 (F := Ideal)) V (Proc.devRef .tc main_v19) = V (Proc.devRef .tc main_v19) :=
  unchanged_after_1 V _ (by decide)

/-- The program's sixteen arguments are not written. -/
theorem args_after_1 : ∀ r ∈ [main_arg0, main_arg1, main_arg2, main_arg3, main_arg4, main_arg5, main_arg6, main_arg7,
      main_arg8, main_arg9, main_arg10, main_arg11, main_arg12, main_arg13, main_arg14, main_arg15],
    StableHlo.after (hostOps1 (F := Ideal)) V (Proc.devRef .tc r) = V (Proc.devRef .tc r) := by
  intro r hr
  refine unchanged_after_1 V r ?_
  revert r
  decide

end Cert.KernelIdeal.Glue

end
-- ==== Proof.GlueStats2.lean ====
/-
  The host operations after the second matrix-product layer, over arbitrary buffer contents `V`.

  The layer leaves two padded statistics arrays (16 rows, 256 columns: row 0 the column sums over the first half of
  the batch, row 8 over the second half). The 34 host operations that follow take row 0 and row 8 of each, add them to
  a zero, divide by the batch size 32768, form the variance as the mean of the squares less the square of the mean, add
  1e-5, take the inverse square root, and multiply and subtract with the layer's gain and bias. Read at one index,
  what they leave in the two one-row results is `GlueSpec.scaleRow` and `GlueSpec.shiftRow` of the gain, the bias
  and the two statistics arrays as they stood before the operations, association for association.

  Nothing else a later layer reads is written: the layer's activation array, the binarized weights and the program's
  arguments stand as they were.
-/
import proofs.«126670_j49074296324140_2_alg».proof.Proof.Gen.KernelIdeal.Regions
import proofs.«126670_j49074296324140_2_alg».proof.Proof.GlueSpec
import proofs.«126670_j49074296324140_2_alg».proof.Proof.GlueOps
import Idealize.ShloMosaic.Lib.StableHlo.Run

noncomputable section

namespace Cert.KernelIdeal.Glue

open Idealize.ShloMosaic Idealize.ShloMosaic.ValueIdx Idealize.ShloMosaic.TcCoe Idealize.ShloMosaic.StableHlo
open Cert.KernelIdeal Cert.KernelIdeal.Gen

variable (V : Valuation τ sig (Elt Ideal))

set_option maxHeartbeats 4000000 in
/-- The multiplier row after the operations, at `(u, j)`. -/
theorem scale_after_2_apply (u : Fin 1) (j : Fin 256) :
    @Eq EReal ((StableHlo.after (hostOps2 (F := Ideal)) V (Proc.devRef .tc main_v75) : S1x256.Idx → EReal) (ix2 u j))
      (GlueSpec.scaleRow (V (Proc.devRef .tc main_arg7)) (V (Proc.devRef .tc main_v50_1)) (V (Proc.devRef .tc main_v50_2)) (ix2 u j)) := by
  unfold hostOps2
  after_results_simp
  refine (shapeCast_a_1a_apply _ _ u j).trans ?_
  simp only [mulf_apply, addf_apply, subf_apply, hostDivf_apply, hostRsqrt_apply]
  repeat rw [bcastConst_apply]
  erw [row_apply 0 _ _ _ j (0 : Fin 16) rfl, row_apply 8 _ _ _ j (8 : Fin 16) rfl,
    row_apply 0 _ _ _ j (0 : Fin 16) rfl, row_apply 8 _ _ _ j (8 : Fin 16) rfl]
  rw [GlueSpec.scaleRow_ix2]
  unfold GlueSpec.scaleAt GlueSpec.invstd GlueSpec.var GlueSpec.mean GlueSpec.total
  rfl

set_option maxHeartbeats 4000000 in
/-- The offset row after the operations, at `(u, j)`. -/
theorem shift_after_2_apply (u : Fin 1) (j : Fin 256) :
    @Eq EReal ((StableHlo.after (hostOps2 (F := Ideal)) V (Proc.devRef .tc main_v79) : S1x256.Idx → EReal) (ix2 u j))
      (GlueSpec.shiftRow (V (Proc.devRef .tc main_arg7)) (V (Proc.devRef .tc main_arg12)) (V (Proc.devRef .tc main_v50_1)) (V (Proc.devRef .tc main_v50_2)) (ix2 u j)) := by
  unfold hostOps2
  after_results_simp
  refine (shapeCast_a_1a_apply _ _ u j).trans ?_
  simp only [mulf_apply, addf_apply, subf_apply, hostDivf_apply, hostRsqrt_apply]
  repeat rw [bcastConst_apply]
  erw [row_apply 0 _ _ _ j (0 : Fin 16) rfl, row_apply 8 _ _ _ j (8 : Fin 16) rfl,
    row_apply 0 _ _ _ j (0 : Fin 16) rfl, row_apply 8 _ _ _ j (8 : Fin 16) rfl]
  rw [GlueSpec.shiftRow_ix2]
  unfold GlueSpec.shiftAt GlueSpec.invstd GlueSpec.var GlueSpec.mean GlueSpec.total
  rfl

/-- The multiplier row after the operations, as a function of the index. -/
theorem scale_after_2 :
    @Eq (S1x256.Idx → EReal) (StableHlo.after (hostOps2 (F := Ideal)) V (Proc.devRef .tc main_v75))
      (GlueSpec.scaleRow (V (Proc.devRef .tc main_arg7)) (V (Proc.devRef .tc main_v50_1)) (V (Proc.devRef .tc main_v50_2))) := by
  funext i
  obtain ⟨u, j, rfl⟩ : ∃ (u : Fin 1) (j : Fin 256), i = ix2 u j := ⟨i 0, i 1, eq_ix2 i⟩
  exact scale_after_2_apply V u j

/-- The offset row after the operations, as a function of the index. -/
theorem shift_after_2 :
    @Eq (S1x256.Idx → EReal) (StableHlo.after (hostOps2 (F := Ideal)) V (Proc.devRef .tc main_v79))
      (GlueSpec.shiftRow (V (Proc.devRef .tc main_arg7)) (V (Proc.devRef .tc main_arg12)) (V (Proc.devRef .tc main_v50_1)) (V (Proc.devRef .tc main_v50_2))) := by
  funext i
  obtain ⟨u, j, rfl⟩ : ∃ (u : Fin 1) (j : Fin 256), i = ix2 u j := ⟨i 0, i 1, eq_ix2 i⟩
  exact shift_after_2_apply V u j

/-- A buffer none of the 34 operations writes keeps its contents. -/
theorem unchanged_after_2 (r : Ref sig .tc) (hr : r ∉ hostOps2_W) :
    StableHlo.after (hostOps2 (F := Ideal)) V (Proc.devRef .tc r) = V (Proc.devRef .tc r) :=
  StableHlo.after_of_writes_sub hostOps2 V hostOps2_writes hr

/-- The layer's activation array is not written. -/
theorem h_after_2 : StableHlo.after (hostOps2 (F := Ideal)) V (Proc.devRef .tc main_v50_0) = V (Proc.devRef .tc main_v50_0) :=
  unchanged_after_2 V _ (by decide)

/-- The binarized weight matrix `main_v11` of a later layer is not written. -/
theorem v11_after_2 : StableHlo.after (hostOps2 (F := Ideal)) V (Proc.devRef .tc main_v11) = V (Proc.devRef .tc main_v11) :=
  unchanged_after_2 V _ (by decide)

/-- The binarized weight matrix `main_v15` of a later layer is not written. -/
theorem v15_after_2 : StableHlo.after (hostOps2 (F := Ideal)) V (Proc.devRef .tc main_v15) = V (Proc.devRef .tc main_v15) :=
  unchanged_after_2 V _ (by decide)

/-- The binarized weight matrix `main_v19` of a later layer is not written. -/
theorem v19_after_2 : StableHlo.after (hostOps2 (F := Ideal)) V (Proc.devRef .tc main_v19) = V (Proc.devRef .tc main_v19) :=
  unchanged_after_2 V _ (by decide)

/-- The program's sixteen arguments are not written. -/
theorem args_after_2 : ∀ r ∈ [main_arg0, main_arg1, main_arg2, main_arg3, main_arg4, main_arg5, main_arg6, main_arg7,
      main_arg8, main_arg9, main_arg10, main_arg11, main_arg12, main_arg13, main_arg14, main_arg15],
    StableHlo.after (hostOps2 (F := Ideal)) V (Proc.devRef .tc r) = V (Proc.devRef .tc r) := by
  intro r hr
  refine unchanged_after_2 V r ?_
  revert r
  decide

end Cert.KernelIdeal.Glue

end
-- ==== Proof.GlueStats3.lean ====
/-
  The host operations after the third matrix-product layer, over arbitrary buffer contents `V`.

  The layer leaves two padded statistics arrays (16 rows, 256 columns: row 0 the column sums over the first half of
  the batch, row 8 over the second half). The 34 host operations that follow take row 0 and row 8 of each, add them to
  a zero, divide by the batch size 32768, form the variance as the mean of the squares less the square of the mean, add
  1e-5, take the inverse square root, and multiply and subtract with the layer's gain and bias. Read at one index,
  what they leave in the two one-row results is `GlueSpec.scaleRow` and `GlueSpec.shiftRow` of the gain, the bias
  and the two statistics arrays as they stood before the operations, association for association.

  Nothing else a later layer reads is written: the layer's activation array, the binarized weights and the program's
  arguments stand as they were.
-/
import proofs.«126670_j49074296324140_2_alg».proof.Proof.Gen.KernelIdeal.Regions
import proofs.«126670_j49074296324140_2_alg».proof.Proof.GlueSpec
import proofs.«126670_j49074296324140_2_alg».proof.Proof.GlueOps
import Idealize.ShloMosaic.Lib.StableHlo.Run

noncomputable section

namespace Cert.KernelIdeal.Glue

open Idealize.ShloMosaic Idealize.ShloMosaic.ValueIdx Idealize.ShloMosaic.TcCoe Idealize.ShloMosaic.StableHlo
open Cert.KernelIdeal Cert.KernelIdeal.Gen

variable (V : Valuation τ sig (Elt Ideal))

set_option maxHeartbeats 4000000 in
/-- The multiplier row after the operations, at `(u, j)`. -/
theorem scale_after_3_apply (u : Fin 1) (j : Fin 256) :
    @Eq EReal ((StableHlo.after (hostOps3 (F := Ideal)) V (Proc.devRef .tc main_v105) : S1x256.Idx → EReal) (ix2 u j))
      (GlueSpec.scaleRow (V (Proc.devRef .tc main_arg8)) (V (Proc.devRef .tc main_v80_1)) (V (Proc.devRef .tc main_v80_2)) (ix2 u j)) := by
  unfold hostOps3
  after_results_simp
  refine (shapeCast_a_1a_apply _ _ u j).trans ?_
  simp only [mulf_apply, addf_apply, subf_apply, hostDivf_apply, hostRsqrt_apply]
  repeat rw [bcastConst_apply]
  erw [row_apply 0 _ _ _ j (0 : Fin 16) rfl, row_apply 8 _ _ _ j (8 : Fin 16) rfl,
    row_apply 0 _ _ _ j (0 : Fin 16) rfl, row_apply 8 _ _ _ j (8 : Fin 16) rfl]
  rw [GlueSpec.scaleRow_ix2]
  unfold GlueSpec.scaleAt GlueSpec.invstd GlueSpec.var GlueSpec.mean GlueSpec.total
  rfl

set_option maxHeartbeats 4000000 in
/-- The offset row after the operations, at `(u, j)`. -/
theorem shift_after_3_apply (u : Fin 1) (j : Fin 256) :
    @Eq EReal ((StableHlo.after (hostOps3 (F := Ideal)) V (Proc.devRef .tc main_v109) : S1x256.Idx → EReal) (ix2 u j))
      (GlueSpec.shiftRow (V (Proc.devRef .tc main_arg8)) (V (Proc.devRef .tc main_arg13)) (V (Proc.devRef .tc main_v80_1)) (V (Proc.devRef .tc main_v80_2)) (ix2 u j)) := by
  unfold hostOps3
  after_results_simp
  refine (shapeCast_a_1a_apply _ _ u j).trans ?_
  simp only [mulf_apply, addf_apply, subf_apply, hostDivf_apply, hostRsqrt_apply]
  repeat rw [bcastConst_apply]
  erw [row_apply 0 _ _ _ j (0 : Fin 16) rfl, row_apply 8 _ _ _ j (8 : Fin 16) rfl,
    row_apply 0 _ _ _ j (0 : Fin 16) rfl, row_apply 8 _ _ _ j (8 : Fin 16) rfl]
  rw [GlueSpec.shiftRow_ix2]
  unfold GlueSpec.shiftAt GlueSpec.invstd GlueSpec.var GlueSpec.mean GlueSpec.total
  rfl

/-- The multiplier row after the operations, as a function of the index. -/
theorem scale_after_3 :
    @Eq (S1x256.Idx → EReal) (StableHlo.after (hostOps3 (F := Ideal)) V (Proc.devRef .tc main_v105))
      (GlueSpec.scaleRow (V (Proc.devRef .tc main_arg8)) (V (Proc.devRef .tc main_v80_1)) (V (Proc.devRef .tc main_v80_2))) := by
  funext i
  obtain ⟨u, j, rfl⟩ : ∃ (u : Fin 1) (j : Fin 256), i = ix2 u j := ⟨i 0, i 1, eq_ix2 i⟩
  exact scale_after_3_apply V u j

/-- The offset row after the operations, as a function of the index. -/
theorem shift_after_3 :
    @Eq (S1x256.Idx → EReal) (StableHlo.after (hostOps3 (F := Ideal)) V (Proc.devRef .tc main_v109))
      (GlueSpec.shiftRow (V (Proc.devRef .tc main_arg8)) (V (Proc.devRef .tc main_arg13)) (V (Proc.devRef .tc main_v80_1)) (V (Proc.devRef .tc main_v80_2))) := by
  funext i
  obtain ⟨u, j, rfl⟩ : ∃ (u : Fin 1) (j : Fin 256), i = ix2 u j := ⟨i 0, i 1, eq_ix2 i⟩
  exact shift_after_3_apply V u j

/-- A buffer none of the 34 operations writes keeps its contents. -/
theorem unchanged_after_3 (r : Ref sig .tc) (hr : r ∉ hostOps3_W) :
    StableHlo.after (hostOps3 (F := Ideal)) V (Proc.devRef .tc r) = V (Proc.devRef .tc r) :=
  StableHlo.after_of_writes_sub hostOps3 V hostOps3_writes hr

/-- The layer's activation array is not written. -/
theorem h_after_3 : StableHlo.after (hostOps3 (F := Ideal)) V (Proc.devRef .tc main_v80_0) = V (Proc.devRef .tc main_v80_0) :=
  unchanged_after_3 V _ (by decide)

/-- The binarized weight matrix `main_v15` of a later layer is not written. -/
theorem v15_after_3 : StableHlo.after (hostOps3 (F := Ideal)) V (Proc.devRef .tc main_v15) = V (Proc.devRef .tc main_v15) :=
  unchanged_after_3 V _ (by decide)

/-- The binarized weight matrix `main_v19` of a later layer is not written. -/
theorem v19_after_3 : StableHlo.after (hostOps3 (F := Ideal)) V (Proc.devRef .tc main_v19) = V (Proc.devRef .tc main_v19) :=
  unchanged_after_3 V _ (by decide)

/-- The program's sixteen arguments are not written. -/
theorem args_after_3 : ∀ r ∈ [main_arg0, main_arg1, main_arg2, main_arg3, main_arg4, main_arg5, main_arg6, main_arg7,
      main_arg8, main_arg9, main_arg10, main_arg11, main_arg12, main_arg13, main_arg14, main_arg15],
    StableHlo.after (hostOps3 (F := Ideal)) V (Proc.devRef .tc r) = V (Proc.devRef .tc r) := by
  intro r hr
  refine unchanged_after_3 V r ?_
  revert r
  decide

end Cert.KernelIdeal.Glue

end
-- ==== Proof.GlueStats4.lean ====
/-
  The host operations after the fourth matrix-product layer, over arbitrary buffer contents `V`.

  The layer leaves two padded statistics arrays (16 rows, 256 columns: row 0 the column sums over the first half of
  the batch, row 8 over the second half). The 34 host operations that follow take row 0 and row 8 of each, add them to
  a zero, divide by the batch size 32768, form the variance as the mean of the squares less the square of the mean, add
  1e-5, take the inverse square root, and multiply and subtract with the layer's gain and bias. Read at one index,
  what they leave in the two one-row results is `GlueSpec.scaleRow` and `GlueSpec.shiftRow` of the gain, the bias
  and the two statistics arrays as they stood before the operations, association for association.

  Nothing else a later layer reads is written: the layer's activation array, the binarized weights and the program's
  arguments stand as they were.
-/
import proofs.«126670_j49074296324140_2_alg».proof.Proof.Gen.KernelIdeal.Regions
import proofs.«126670_j49074296324140_2_alg».proof.Proof.GlueSpec
import proofs.«126670_j49074296324140_2_alg».proof.Proof.GlueOps
import Idealize.ShloMosaic.Lib.StableHlo.Run

noncomputable section

namespace Cert.KernelIdeal.Glue

open Idealize.ShloMosaic Idealize.ShloMosaic.ValueIdx Idealize.ShloMosaic.TcCoe Idealize.ShloMosaic.StableHlo
open Cert.KernelIdeal Cert.KernelIdeal.Gen

variable (V : Valuation τ sig (Elt Ideal))

set_option maxHeartbeats 4000000 in
/-- The multiplier row after the operations, at `(u, j)`. -/
theorem scale_after_4_apply (u : Fin 1) (j : Fin 256) :
    @Eq EReal ((StableHlo.after (hostOps4 (F := Ideal)) V (Proc.devRef .tc main_v135) : S1x256.Idx → EReal) (ix2 u j))
      (GlueSpec.scaleRow (V (Proc.devRef .tc main_arg9)) (V (Proc.devRef .tc main_v110_1)) (V (Proc.devRef .tc main_v110_2)) (ix2 u j)) := by
  unfold hostOps4
  after_results_simp
  refine (shapeCast_a_1a_apply _ _ u j).trans ?_
  simp only [mulf_apply, addf_apply, subf_apply, hostDivf_apply, hostRsqrt_apply]
  repeat rw [bcastConst_apply]
  erw [row_apply 0 _ _ _ j (0 : Fin 16) rfl, row_apply 8 _ _ _ j (8 : Fin 16) rfl,
    row_apply 0 _ _ _ j (0 : Fin 16) rfl, row_apply 8 _ _ _ j (8 : Fin 16) rfl]
  rw [GlueSpec.scaleRow_ix2]
  unfold GlueSpec.scaleAt GlueSpec.invstd GlueSpec.var GlueSpec.mean GlueSpec.total
  rfl

set_option maxHeartbeats 4000000 in
/-- The offset row after the operations, at `(u, j)`. -/
theorem shift_after_4_apply (u : Fin 1) (j : Fin 256) :
    @Eq EReal ((StableHlo.after (hostOps4 (F := Ideal)) V (Proc.devRef .tc main_v139) : S1x256.Idx → EReal) (ix2 u j))
      (GlueSpec.shiftRow (V (Proc.devRef .tc main_arg9)) (V (Proc.devRef .tc main_arg14)) (V (Proc.devRef .tc main_v110_1)) (V (Proc.devRef .tc main_v110_2)) (ix2 u j)) := by
  unfold hostOps4
  after_results_simp
  refine (shapeCast_a_1a_apply _ _ u j).trans ?_
  simp only [mulf_apply, addf_apply, subf_apply, hostDivf_apply, hostRsqrt_apply]
  repeat rw [bcastConst_apply]
  erw [row_apply 0 _ _ _ j (0 : Fin 16) rfl, row_apply 8 _ _ _ j (8 : Fin 16) rfl,
    row_apply 0 _ _ _ j (0 : Fin 16) rfl, row_apply 8 _ _ _ j (8 : Fin 16) rfl]
  rw [GlueSpec.shiftRow_ix2]
  unfold GlueSpec.shiftAt GlueSpec.invstd GlueSpec.var GlueSpec.mean GlueSpec.total
  rfl

/-- The multiplier row after the operations, as a function of the index. -/
theorem scale_after_4 :
    @Eq (S1x256.Idx → EReal) (StableHlo.after (hostOps4 (F := Ideal)) V (Proc.devRef .tc main_v135))
      (GlueSpec.scaleRow (V (Proc.devRef .tc main_arg9)) (V (Proc.devRef .tc main_v110_1)) (V (Proc.devRef .tc main_v110_2))) := by
  funext i
  obtain ⟨u, j, rfl⟩ : ∃ (u : Fin 1) (j : Fin 256), i = ix2 u j := ⟨i 0, i 1, eq_ix2 i⟩
  exact scale_after_4_apply V u j

/-- The offset row after the operations, as a function of the index. -/
theorem shift_after_4 :
    @Eq (S1x256.Idx → EReal) (StableHlo.after (hostOps4 (F := Ideal)) V (Proc.devRef .tc main_v139))
      (GlueSpec.shiftRow (V (Proc.devRef .tc main_arg9)) (V (Proc.devRef .tc main_arg14)) (V (Proc.devRef .tc main_v110_1)) (V (Proc.devRef .tc main_v110_2))) := by
  funext i
  obtain ⟨u, j, rfl⟩ : ∃ (u : Fin 1) (j : Fin 256), i = ix2 u j := ⟨i 0, i 1, eq_ix2 i⟩
  exact shift_after_4_apply V u j

/-- A buffer none of the 34 operations writes keeps its contents. -/
theorem unchanged_after_4 (r : Ref sig .tc) (hr : r ∉ hostOps4_W) :
    StableHlo.after (hostOps4 (F := Ideal)) V (Proc.devRef .tc r) = V (Proc.devRef .tc r) :=
  StableHlo.after_of_writes_sub hostOps4 V hostOps4_writes hr

/-- The layer's activation array is not written. -/
theorem h_after_4 : StableHlo.after (hostOps4 (F := Ideal)) V (Proc.devRef .tc main_v110_0) = V (Proc.devRef .tc main_v110_0) :=
  unchanged_after_4 V _ (by decide)

/-- The binarized weight matrix `main_v19` of a later layer is not written. -/
theorem v19_after_4 : StableHlo.after (hostOps4 (F := Ideal)) V (Proc.devRef .tc main_v19) = V (Proc.devRef .tc main_v19) :=
  unchanged_after_4 V _ (by decide)

/-- The program's sixteen arguments are not written. -/
theorem args_after_4 : ∀ r ∈ [main_arg0, main_arg1, main_arg2, main_arg3, main_arg4, main_arg5, main_arg6, main_arg7,
      main_arg8, main_arg9, main_arg10, main_arg11, main_arg12, main_arg13, main_arg14, main_arg15],
    StableHlo.after (hostOps4 (F := Ideal)) V (Proc.devRef .tc r) = V (Proc.devRef .tc r) := by
  intro r hr
  refine unchanged_after_4 V r ?_
  revert r
  decide

end Cert.KernelIdeal.Glue

end
-- ==== Proof.GlueStats5.lean ====
/-
  The host operations after the fifth (last) matrix-product layer, over arbitrary buffer contents `V`.

  The layer leaves two padded statistics arrays (16 rows, 10 columns: row 0 the column sums over the first half of
  the batch, row 8 over the second half). The 34 host operations that follow take row 0 and row 8 of each, add them to
  a zero, divide by the batch size 32768, form the variance as the mean of the squares less the square of the mean, add
  1e-5, take the inverse square root, and multiply and subtract with the layer's gain and bias. Read at one index,
  what they leave in the two one-row results is `GlueSpec.scaleRow` and `GlueSpec.shiftRow` of the gain, the bias
  and the two statistics arrays as they stood before the operations, association for association.

  Nothing else a later layer reads is written: the layer's activation array, the binarized weights and the program's
  arguments stand as they were.
-/
import proofs.«126670_j49074296324140_2_alg».proof.Proof.Gen.KernelIdeal.Regions
import proofs.«126670_j49074296324140_2_alg».proof.Proof.GlueSpec
import proofs.«126670_j49074296324140_2_alg».proof.Proof.GlueOps
import Idealize.ShloMosaic.Lib.StableHlo.Run

noncomputable section

namespace Cert.KernelIdeal.Glue

open Idealize.ShloMosaic Idealize.ShloMosaic.ValueIdx Idealize.ShloMosaic.TcCoe Idealize.ShloMosaic.StableHlo
open Cert.KernelIdeal Cert.KernelIdeal.Gen

variable (V : Valuation τ sig (Elt Ideal))

set_option maxHeartbeats 4000000 in
/-- The multiplier row after the operations, at `(u, j)`. -/
theorem scale_after_5_apply (u : Fin 1) (j : Fin 10) :
    @Eq EReal ((StableHlo.after (hostOps5 (F := Ideal)) V (Proc.devRef .tc main_v165) : S1x10.Idx → EReal) (ix2 u j))
      (GlueSpec.scaleRow (V (Proc.devRef .tc main_arg10)) (V (Proc.devRef .tc main_v140_1)) (V (Proc.devRef .tc main_v140_2)) (ix2 u j)) := by
  unfold hostOps5
  after_results_simp
  refine (shapeCast_a_1a_apply _ _ u j).trans ?_
  simp only [mulf_apply, addf_apply, subf_apply, hostDivf_apply, hostRsqrt_apply]
  repeat rw [bcastConst_apply]
  erw [row_apply 0 _ _ _ j (0 : Fin 16) rfl, row_apply 8 _ _ _ j (8 : Fin 16) rfl,
    row_apply 0 _ _ _ j (0 : Fin 16) rfl, row_apply 8 _ _ _ j (8 : Fin 16) rfl]
  rw [GlueSpec.scaleRow_ix2]
  unfold GlueSpec.scaleAt GlueSpec.invstd GlueSpec.var GlueSpec.mean GlueSpec.total
  rfl

set_option maxHeartbeats 4000000 in
/-- The offset row after the operations, at `(u, j)`. -/
theorem shift_after_5_apply (u : Fin 1) (j : Fin 10) :
    @Eq EReal ((StableHlo.after (hostOps5 (F := Ideal)) V (Proc.devRef .tc main_v169) : S1x10.Idx → EReal) (ix2 u j))
      (GlueSpec.shiftRow (V (Proc.devRef .tc main_arg10)) (V (Proc.devRef .tc main_arg15)) (V (Proc.devRef .tc main_v140_1)) (V (Proc.devRef .tc main_v140_2)) (ix2 u j)) := by
  unfold hostOps5
  after_results_simp
  refine (shapeCast_a_1a_apply _ _ u j).trans ?_
  simp only [mulf_apply, addf_apply, subf_apply, hostDivf_apply, hostRsqrt_apply]
  repeat rw [bcastConst_apply]
  erw [row_apply 0 _ _ _ j (0 : Fin 16) rfl, row_apply 8 _ _ _ j (8 : Fin 16) rfl,
    row_apply 0 _ _ _ j (0 : Fin 16) rfl, row_apply 8 _ _ _ j (8 : Fin 16) rfl]
  rw [GlueSpec.shiftRow_ix2]
  unfold GlueSpec.shiftAt GlueSpec.invstd GlueSpec.var GlueSpec.mean GlueSpec.total
  rfl

/-- The multiplier row after the operations, as a function of the index. -/
theorem scale_after_5 :
    @Eq (S1x10.Idx → EReal) (StableHlo.after (hostOps5 (F := Ideal)) V (Proc.devRef .tc main_v165))
      (GlueSpec.scaleRow (V (Proc.devRef .tc main_arg10)) (V (Proc.devRef .tc main_v140_1)) (V (Proc.devRef .tc main_v140_2))) := by
  funext i
  obtain ⟨u, j, rfl⟩ : ∃ (u : Fin 1) (j : Fin 10), i = ix2 u j := ⟨i 0, i 1, eq_ix2 i⟩
  exact scale_after_5_apply V u j

/-- The offset row after the operations, as a function of the index. -/
theorem shift_after_5 :
    @Eq (S1x10.Idx → EReal) (StableHlo.after (hostOps5 (F := Ideal)) V (Proc.devRef .tc main_v169))
      (GlueSpec.shiftRow (V (Proc.devRef .tc main_arg10)) (V (Proc.devRef .tc main_arg15)) (V (Proc.devRef .tc main_v140_1)) (V (Proc.devRef .tc main_v140_2))) := by
  funext i
  obtain ⟨u, j, rfl⟩ : ∃ (u : Fin 1) (j : Fin 10), i = ix2 u j := ⟨i 0, i 1, eq_ix2 i⟩
  exact shift_after_5_apply V u j

/-- A buffer none of the 34 operations writes keeps its contents. -/
theorem unchanged_after_5 (r : Ref sig .tc) (hr : r ∉ hostOps5_W) :
    StableHlo.after (hostOps5 (F := Ideal)) V (Proc.devRef .tc r) = V (Proc.devRef .tc r) :=
  StableHlo.after_of_writes_sub hostOps5 V hostOps5_writes hr

/-- The layer's activation array is not written. -/
theorem h_after_5 : StableHlo.after (hostOps5 (F := Ideal)) V (Proc.devRef .tc main_v140_0) = V (Proc.devRef .tc main_v140_0) :=
  unchanged_after_5 V _ (by decide)

/-- The program's sixteen arguments are not written. -/
theorem args_after_5 : ∀ r ∈ [main_arg0, main_arg1, main_arg2, main_arg3, main_arg4, main_arg5, main_arg6, main_arg7,
      main_arg8, main_arg9, main_arg10, main_arg11, main_arg12, main_arg13, main_arg14, main_arg15],
    StableHlo.after (hostOps5 (F := Ideal)) V (Proc.devRef .tc r) = V (Proc.devRef .tc r) := by
  intro r hr
  refine unchanged_after_5 V r ?_
  revert r
  decide

end Cert.KernelIdeal.Glue

end
-- ==== Proof.GlueWeights.lean ====
/-
  The five binarized weight matrices after the host operations that precede the first layer, over arbitrary buffer
  contents `V`.

  The operations come in eleven stretches. For weight `k` (`k = 0 … 4`) three consecutive stretches do the work: the
  first compares the weight argument with a broadcast zero (`w ≥ 0`), the second selects between a broadcast one and a
  broadcast minus one on that bit, the third changes the float format (the identity on extended reals). Read at one
  index, the result is `GlueSpec.binarize` of the weight argument's element: `+1` where `0 ≤ w`, `-1` otherwise.

  The stretches after those three do not write the result, and the stretches before them do not write the weight
  argument; so after all eleven the result buffer holds the binarization of the argument as it stood at the start.
  No stretch writes any of the program's sixteen arguments.
-/
import proofs.«126670_j49074296324140_2_alg».proof.Proof.Gen.KernelIdeal.Regions
import proofs.«126670_j49074296324140_2_alg».proof.Proof.GlueBinSpec
import Idealize.ShloMosaic.Lib.StableHlo.Run

noncomputable section

namespace Cert.KernelIdeal.Glue

open Idealize.ShloMosaic Idealize.ShloMosaic.ValueIdx Idealize.ShloMosaic.TcCoe Idealize.ShloMosaic.StableHlo
open Cert.KernelIdeal Cert.KernelIdeal.Gen

variable (V : Valuation τ sig (Elt Ideal))

/-- The buffers' contents after the eleven stretches, in order, from `V`. -/
abbrev afterPrefix : Valuation τ sig (Elt Ideal) :=
  StableHlo.after (hostOps0_10 (F := Ideal)) (StableHlo.after (hostOps0_9 (F := Ideal)) (StableHlo.after (hostOps0_8 (F := Ideal)) (StableHlo.after (hostOps0_7 (F := Ideal)) (StableHlo.after (hostOps0_6 (F := Ideal)) (StableHlo.after (hostOps0_5 (F := Ideal)) (StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) V))))))))))

/-! ## Weight 0: `main_v3` from `main_arg1` -/

set_option maxHeartbeats 4000000 in
/-- The three stretches that binarize weight 0, from any contents, read at `(a, b)`. -/
theorem v3_of_three_apply (a : Fin 256) (b : Fin 784) :
    @Eq EReal (((StableHlo.after (hostOps0_2 (F := Ideal)) (StableHlo.after (hostOps0_1 (F := Ideal)) (StableHlo.after (hostOps0 (F := Ideal)) V))) (Proc.devRef .tc main_v3) : S256x784.Idx → EReal) (ix2 a b))
      (GlueSpec.binarize (V (Proc.devRef .tc main_arg1) (ix2 a b))) := by
  unfold hostOps0_2 hostOps0_1 hostOps0
  after_results_simp
  rfl

/-- The three stretches that binarize weight 0, from any contents, as a function of the index. -/
theorem v3_of_three :
    @Eq (S256x784.Idx → EReal) ((StableHlo.after (hostOps0_2 (F := Ideal)) (StableHlo.after (hostOps0_1 (F := Ideal)) (StableHlo.after (hostOps0 (F := Ideal)) V))) (Proc.devRef .tc main_v3)) (GlueSpec.binW (V (Proc.devRef .tc main_arg1))) := by
  funext i
  obtain ⟨a, b, rfl⟩ : ∃ (a : Fin 256) (b : Fin 784), i = ix2 a b := ⟨i 0, i 1, eq_ix2 i⟩
  exact v3_of_three_apply V a b

/-- After all eleven stretches `main_v3` holds the binarization of `main_arg1` as it stood at the start. -/
theorem v3_after_prefix :
    @Eq (S256x784.Idx → EReal) (afterPrefix V (Proc.devRef .tc main_v3)) (GlueSpec.binW (V (Proc.devRef .tc main_arg1))) := by
  unfold afterPrefix
  rw [after_of_writes_sub (r := main_v3) (hostOps0_10 (F := Ideal)) _ hostOps0_10_writes (by decide)]
  rw [after_of_writes_sub (r := main_v3) (hostOps0_9 (F := Ideal)) _ hostOps0_9_writes (by decide)]
  rw [after_of_writes_sub (r := main_v3) (hostOps0_8 (F := Ideal)) _ hostOps0_8_writes (by decide)]
  rw [after_of_writes_sub (r := main_v3) (hostOps0_7 (F := Ideal)) _ hostOps0_7_writes (by decide)]
  rw [after_of_writes_sub (r := main_v3) (hostOps0_6 (F := Ideal)) _ hostOps0_6_writes (by decide)]
  rw [after_of_writes_sub (r := main_v3) (hostOps0_5 (F := Ideal)) _ hostOps0_5_writes (by decide)]
  rw [after_of_writes_sub (r := main_v3) (hostOps0_4 (F := Ideal)) _ hostOps0_4_writes (by decide)]
  rw [after_of_writes_sub (r := main_v3) (hostOps0_3 (F := Ideal)) _ hostOps0_3_writes (by decide)]
  rw [v3_of_three]

/-! ## Weight 1: `main_v7` from `main_arg2` -/

set_option maxHeartbeats 4000000 in
/-- The three stretches that binarize weight 1, from any contents, read at `(a, b)`. -/
theorem v7_of_three_apply (a : Fin 256) (b : Fin 256) :
    @Eq EReal (((StableHlo.after (hostOps0_4 (F := Ideal)) (StableHlo.after (hostOps0_3 (F := Ideal)) (StableHlo.after (hostOps0_2 (F := Ideal)) V))) (Proc.devRef .tc main_v7) : S256x256.Idx → EReal) (ix2 a b))
      (GlueSpec.binarize (V (Proc.devRef .tc main_arg2) (ix2 a b))) := by
  unfold hostOps0_4 hostOps0_3 hostOps0_2
  after_results_simp
  rfl

/-- The three stretches that binarize weight 1, from any contents, as a function of the index. -/
theorem v7_of_three :
    @Eq (S256x256.Idx → EReal) ((StableHlo.after (hostOps0_4 (F := Ideal)) (StableHlo.after (hostOps0_3 (F := Ideal)) (StableHlo.after (hostOps0_2 (F := Ideal)) V))) (Proc.devRef .tc main_v7)) (GlueSpec.binW (V (Proc.devRef .tc main_arg2))) := by
  funext i
  obtain ⟨a, b, rfl⟩ : ∃ (a : Fin 256) (b : Fin 256), i = ix2 a b := ⟨i 0, i 1, eq_ix2 i⟩
  exact v7_of_three_apply V a b

/-- After all eleven stretches `main_v7` holds the binarization of `main_arg2` as it stood at the start. -/
theorem v7_after_prefix :
    @Eq (S256x256.Idx → EReal) (afterPrefix V (Proc.devRef .tc main_v7)) (GlueSpec.binW (V (Proc.devRef .tc main_arg2))) := by
  unfold afterPrefix
  rw [after_of_writes_sub (r := main_v7) (hostOps0_10 (F := Ideal)) _ hostOps0_10_writes (by decide)]
  rw [after_of_writes_sub (r := main_v7) (hostOps0_9 (F := Ideal)) _ hostOps0_9_writes (by decide)]
  rw [after_of_writes_sub (r := main_v7) (hostOps0_8 (F := Ideal)) _ hostOps0_8_writes (by decide)]
  rw [after_of_writes_sub (r := main_v7) (hostOps0_7 (F := Ideal)) _ hostOps0_7_writes (by decide)]
  rw [after_of_writes_sub (r := main_v7) (hostOps0_6 (F := Ideal)) _ hostOps0_6_writes (by decide)]
  rw [after_of_writes_sub (r := main_v7) (hostOps0_5 (F := Ideal)) _ hostOps0_5_writes (by decide)]
  rw [v7_of_three]
  rw [after_of_writes_sub (r := main_arg2) (hostOps0_1 (F := Ideal)) _ hostOps0_1_writes (by decide)]
  rw [after_of_writes_sub (r := main_arg2) (hostOps0 (F := Ideal)) _ hostOps0_writes (by decide)]

/-! ## Weight 2: `main_v11` from `main_arg3` -/

set_option maxHeartbeats 4000000 in
/-- The three stretches that binarize weight 2, from any contents, read at `(a, b)`. -/
theorem v11_of_three_apply (a : Fin 256) (b : Fin 256) :
    @Eq EReal (((StableHlo.after (hostOps0_6 (F := Ideal)) (StableHlo.after (hostOps0_5 (F := Ideal)) (StableHlo.after (hostOps0_4 (F := Ideal)) V))) (Proc.devRef .tc main_v11) : S256x256.Idx → EReal) (ix2 a b))
      (GlueSpec.binarize (V (Proc.devRef .tc main_arg3) (ix2 a b))) := by
  unfold hostOps0_6 hostOps0_5 hostOps0_4
  after_results_simp
  rfl

/-- The three stretches that binarize weight 2, from any contents, as a function of the index. -/
theorem v11_of_three :
    @Eq (S256x256.Idx → EReal) ((StableHlo.after (hostOps0_6 (F := Ideal)) (StableHlo.after (hostOps0_5 (F := Ideal)) (StableHlo.after (hostOps0_4 (F := Ideal)) V))) (Proc.devRef .tc main_v11)) (GlueSpec.binW (V (Proc.devRef .tc main_arg3))) := by
  funext i
  obtain ⟨a, b, rfl⟩ : ∃ (a : Fin 256) (b : Fin 256), i = ix2 a b := ⟨i 0, i 1, eq_ix2 i⟩
  exact v11_of_three_apply V a b

/-- After all eleven stretches `main_v11` holds the binarization of `main_arg3` as it stood at the start. -/
theorem v11_after_prefix :
    @Eq (S256x256.Idx → EReal) (afterPrefix V (Proc.devRef .tc main_v11)) (GlueSpec.binW (V (Proc.devRef .tc main_arg3))) := by
  unfold afterPrefix
  rw [after_of_writes_sub (r := main_v11) (hostOps0_10 (F := Ideal)) _ hostOps0_10_writes (by decide)]
  rw [after_of_writes_sub (r := main_v11) (hostOps0_9 (F := Ideal)) _ hostOps0_9_writes (by decide)]
  rw [after_of_writes_sub (r := main_v11) (hostOps0_8 (F := Ideal)) _ hostOps0_8_writes (by decide)]
  rw [after_of_writes_sub (r := main_v11) (hostOps0_7 (F := Ideal)) _ hostOps0_7_writes (by decide)]
  rw [v11_of_three]
  rw [after_of_writes_sub (r := main_arg3) (hostOps0_3 (F := Ideal)) _ hostOps0_3_writes (by decide)]
  rw [after_of_writes_sub (r := main_arg3) (hostOps0_2 (F := Ideal)) _ hostOps0_2_writes (by decide)]
  rw [after_of_writes_sub (r := main_arg3) (hostOps0_1 (F := Ideal)) _ hostOps0_1_writes (by decide)]
  rw [after_of_writes_sub (r := main_arg3) (hostOps0 (F := Ideal)) _ hostOps0_writes (by decide)]

/-! ## Weight 3: `main_v15` from `main_arg4` -/

set_option maxHeartbeats 4000000 in
/-- The three stretches that binarize weight 3, from any contents, read at `(a, b)`. -/
theorem v15_of_three_apply (a : Fin 256) (b : Fin 256) :
    @Eq EReal (((StableHlo.after (hostOps0_8 (F := Ideal)) (StableHlo.after (hostOps0_7 (F := Ideal)) (StableHlo.after (hostOps0_6 (F := Ideal)) V))) (Proc.devRef .tc main_v15) : S256x256.Idx → EReal) (ix2 a b))
      (GlueSpec.binarize (V (Proc.devRef .tc main_arg4) (ix2 a b))) := by
  unfold hostOps0_8 hostOps0_7 hostOps0_6
  after_results_simp
  rfl

/-- The three stretches that binarize weight 3, from any contents, as a function of the index. -/
theorem v15_of_three :
    @Eq (S256x256.Idx → EReal) ((StableHlo.after (hostOps0_8 (F := Ideal)) (StableHlo.after (hostOps0_7 (F := Ideal)) (StableHlo.after (hostOps0_6 (F := Ideal)) V))) (Proc.devRef .tc main_v15)) (GlueSpec.binW (V (Proc.devRef .tc main_arg4))) := by
  funext i
  obtain ⟨a, b, rfl⟩ : ∃ (a : Fin 256) (b : Fin 256), i = ix2 a b := ⟨i 0, i 1, eq_ix2 i⟩
  exact v15_of_three_apply V a b

/-- After all eleven stretches `main_v15` holds the binarization of `main_arg4` as it stood at the start. -/
theorem v15_after_prefix :
    @Eq (S256x256.Idx → EReal) (afterPrefix V (Proc.devRef .tc main_v15)) (GlueSpec.binW (V (Proc.devRef .tc main_arg4))) := by
  unfold afterPrefix
  rw [after_of_writes_sub (r := main_v15) (hostOps0_10 (F := Ideal)) _ hostOps0_10_writes (by decide)]
  rw [after_of_writes_sub (r := main_v15) (hostOps0_9 (F := Ideal)) _ hostOps0_9_writes (by decide)]
  rw [v15_of_three]
  rw [after_of_writes_sub (r := main_arg4) (hostOps0_5 (F := Ideal)) _ hostOps0_5_writes (by decide)]
  rw [after_of_writes_sub (r := main_arg4) (hostOps0_4 (F := Ideal)) _ hostOps0_4_writes (by decide)]
  rw [after_of_writes_sub (r := main_arg4) (hostOps0_3 (F := Ideal)) _ hostOps0_3_writes (by decide)]
  rw [after_of_writes_sub (r := main_arg4) (hostOps0_2 (F := Ideal)) _ hostOps0_2_writes (by decide)]
  rw [after_of_writes_sub (r := main_arg4) (hostOps0_1 (F := Ideal)) _ hostOps0_1_writes (by decide)]
  rw [after_of_writes_sub (r := main_arg4) (hostOps0 (F := Ideal)) _ hostOps0_writes (by decide)]

/-! ## Weight 4: `main_v19` from `main_arg5` -/

set_option maxHeartbeats 4000000 in
/-- The three stretches that binarize weight 4, from any contents, read at `(a, b)`. -/
theorem v19_of_three_apply (a : Fin 10) (b : Fin 256) :
    @Eq EReal (((StableHlo.after (hostOps0_10 (F := Ideal)) (StableHlo.after (hostOps0_9 (F := Ideal)) (StableHlo.after (hostOps0_8 (F := Ideal)) V))) (Proc.devRef .tc main_v19) : S10x256.Idx → EReal) (ix2 a b))
      (GlueSpec.binarize (V (Proc.devRef .tc main_arg5) (ix2 a b))) := by
  unfold hostOps0_10 hostOps0_9 hostOps0_8
  after_results_simp
  rfl

/-- The three stretches that binarize weight 4, from any contents, as a function of the index. -/
theorem v19_of_three :
    @Eq (S10x256.Idx → EReal) ((StableHlo.after (hostOps0_10 (F := Ideal)) (StableHlo.after (hostOps0_9 (F := Ideal)) (StableHlo.after (hostOps0_8 (F := Ideal)) V))) (Proc.devRef .tc main_v19)) (GlueSpec.binW (V (Proc.devRef .tc main_arg5))) := by
  funext i
  obtain ⟨a, b, rfl⟩ : ∃ (a : Fin 10) (b : Fin 256), i = ix2 a b := ⟨i 0, i 1, eq_ix2 i⟩
  exact v19_of_three_apply V a b

/-- After all eleven stretches `main_v19` holds the binarization of `main_arg5` as it stood at the start. -/
theorem v19_after_prefix :
    @Eq (S10x256.Idx → EReal) (afterPrefix V (Proc.devRef .tc main_v19)) (GlueSpec.binW (V (Proc.devRef .tc main_arg5))) := by
  unfold afterPrefix

  rw [v19_of_three]
  rw [after_of_writes_sub (r := main_arg5) (hostOps0_7 (F := Ideal)) _ hostOps0_7_writes (by decide)]
  rw [after_of_writes_sub (r := main_arg5) (hostOps0_6 (F := Ideal)) _ hostOps0_6_writes (by decide)]
  rw [after_of_writes_sub (r := main_arg5) (hostOps0_5 (F := Ideal)) _ hostOps0_5_writes (by decide)]
  rw [after_of_writes_sub (r := main_arg5) (hostOps0_4 (F := Ideal)) _ hostOps0_4_writes (by decide)]
  rw [after_of_writes_sub (r := main_arg5) (hostOps0_3 (F := Ideal)) _ hostOps0_3_writes (by decide)]
  rw [after_of_writes_sub (r := main_arg5) (hostOps0_2 (F := Ideal)) _ hostOps0_2_writes (by decide)]
  rw [after_of_writes_sub (r := main_arg5) (hostOps0_1 (F := Ideal)) _ hostOps0_1_writes (by decide)]
  rw [after_of_writes_sub (r := main_arg5) (hostOps0 (F := Ideal)) _ hostOps0_writes (by decide)]

/-! ## The arguments -/

/-- No stretch writes any of the program's sixteen arguments. -/
theorem args_after_prefix : ∀ r ∈ [main_arg0, main_arg1, main_arg2, main_arg3, main_arg4, main_arg5, main_arg6, main_arg7,
      main_arg8, main_arg9, main_arg10, main_arg11, main_arg12, main_arg13, main_arg14, main_arg15],
    afterPrefix V (Proc.devRef .tc r) = V (Proc.devRef .tc r) := by
  intro r hr
  have h0 : r ∉ hostOps0_W := by revert r; decide
  have h1 : r ∉ hostOps0_1_W := by revert r; decide
  have h2 : r ∉ hostOps0_2_W := by revert r; decide
  have h3 : r ∉ hostOps0_3_W := by revert r; decide
  have h4 : r ∉ hostOps0_4_W := by revert r; decide
  have h5 : r ∉ hostOps0_5_W := by revert r; decide
  have h6 : r ∉ hostOps0_6_W := by revert r; decide
  have h7 : r ∉ hostOps0_7_W := by revert r; decide
  have h8 : r ∉ hostOps0_8_W := by revert r; decide
  have h9 : r ∉ hostOps0_9_W := by revert r; decide
  have h10 : r ∉ hostOps0_10_W := by revert r; decide
  unfold afterPrefix
  rw [after_of_writes_sub (r := r) (hostOps0_10 (F := Ideal)) _ hostOps0_10_writes h10,
    after_of_writes_sub (r := r) (hostOps0_9 (F := Ideal)) _ hostOps0_9_writes h9,
    after_of_writes_sub (r := r) (hostOps0_8 (F := Ideal)) _ hostOps0_8_writes h8,
    after_of_writes_sub (r := r) (hostOps0_7 (F := Ideal)) _ hostOps0_7_writes h7,
    after_of_writes_sub (r := r) (hostOps0_6 (F := Ideal)) _ hostOps0_6_writes h6,
    after_of_writes_sub (r := r) (hostOps0_5 (F := Ideal)) _ hostOps0_5_writes h5,
    after_of_writes_sub (r := r) (hostOps0_4 (F := Ideal)) _ hostOps0_4_writes h4,
    after_of_writes_sub (r := r) (hostOps0_3 (F := Ideal)) _ hostOps0_3_writes h3,
    after_of_writes_sub (r := r) (hostOps0_2 (F := Ideal)) _ hostOps0_2_writes h2,
    after_of_writes_sub (r := r) (hostOps0_1 (F := Ideal)) _ hostOps0_1_writes h1,
    after_of_writes_sub (r := r) (hostOps0 (F := Ideal)) _ hostOps0_writes h0]

end Cert.KernelIdeal.Glue

end
-- ==== Proof.KernelValueIdeal.lean ====
/-
  What the idealized kernel program leaves in its result array, as the specification's network of the sixteen
  argument arrays: stage by stage — the binarized weights after the opening host stretches; each statistics region's
  three arrays from the arrays it is entered with; each following host stretch's scale and shift rows from that
  region's statistics arrays; nothing in between touches a buffer that a later stage reads — down to the softmax.
-/
import proofs.«126670_j49074296324140_2_alg».proof.Proof.Gen.KernelIdeal.Launch
import proofs.«126670_j49074296324140_2_alg».proof.Proof.Gen.KernelIdeal.Skeleton
import proofs.«126670_j49074296324140_2_alg».proof.Proof.Gen.KernelIdeal.Points
import proofs.«126670_j49074296324140_2_alg».proof.Proof.KernelRunIdeal
import proofs.«126670_j49074296324140_2_alg».proof.Proof.KernelSpec
import proofs.«126670_j49074296324140_2_alg».proof.Proof.Layer0ArraysIdeal
import proofs.«126670_j49074296324140_2_alg».proof.Proof.Layer1ArraysIdeal
import proofs.«126670_j49074296324140_2_alg».proof.Proof.Layer2ArraysIdeal
import proofs.«126670_j49074296324140_2_alg».proof.Proof.Layer3ArraysIdeal
import proofs.«126670_j49074296324140_2_alg».proof.Proof.Layer4ArraysIdeal
import proofs.«126670_j49074296324140_2_alg».proof.Proof.SoftmaxArrayIdeal
import proofs.«126670_j49074296324140_2_alg».proof.Proof.GlueStats1
import proofs.«126670_j49074296324140_2_alg».proof.Proof.GlueStats2
import proofs.«126670_j49074296324140_2_alg».proof.Proof.GlueStats3
import proofs.«126670_j49074296324140_2_alg».proof.Proof.GlueStats4
import proofs.«126670_j49074296324140_2_alg».proof.Proof.GlueStats5
import proofs.«126670_j49074296324140_2_alg».proof.Proof.GlueWeights
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open ValueIdx
open Cert.ReferenceIdeal.Hand.RefSpec (A2 A1)
open Cert.KernelIdeal.KSpec
open Cert.KernelIdeal.Glue
open Cert.KernelIdeal.Glue.GlueSpec (scaleRow shiftRow binW)

variable (m : (ℓ : Loc nD τ sig) → Buf (Elt Ideal) ℓ) (ρ : Dev nD → PrngReg) (c : Dev nD)

/-! ## The network's intermediate arrays, named -/

def hv0 : A2 32768 256 := lin halfW ((m ((c.tc : Thread nD τ).loc main_arg0)) : A2 32768 784) (binW ((m ((c.tc : Thread nD τ).loc main_arg1)) : A2 256 784))
def sv0 : A2 16 256 := pad 2048 8 (hv0 m c)
def qv0 : A2 16 256 := pad 2048 8 (sq (hv0 m c))
def scv0 : A2 1 256 := scaleRow ((m ((c.tc : Thread nD τ).loc main_arg6)) : A1 256) (sv0 m c) (qv0 m c)
def shv0 : A2 1 256 := shiftRow ((m ((c.tc : Thread nD τ).loc main_arg6)) : A1 256) ((m ((c.tc : Thread nD τ).loc main_arg11)) : A1 256) (sv0 m c) (qv0 m c)
def hv1 : A2 32768 256 := lin zeroW (affine (hv0 m c) (scv0 m c) (shv0 m c)) (binW ((m ((c.tc : Thread nD τ).loc main_arg2)) : A2 256 256))
def sv1 : A2 16 256 := pad 4096 4 (hv1 m c)
def qv1 : A2 16 256 := pad 4096 4 (sq (hv1 m c))
def scv1 : A2 1 256 := scaleRow ((m ((c.tc : Thread nD τ).loc main_arg7)) : A1 256) (sv1 m c) (qv1 m c)
def shv1 : A2 1 256 := shiftRow ((m ((c.tc : Thread nD τ).loc main_arg7)) : A1 256) ((m ((c.tc : Thread nD τ).loc main_arg12)) : A1 256) (sv1 m c) (qv1 m c)
def hv2 : A2 32768 256 := lin zeroW (affine (hv1 m c) (scv1 m c) (shv1 m c)) (binW ((m ((c.tc : Thread nD τ).loc main_arg3)) : A2 256 256))
def sv2 : A2 16 256 := pad 4096 4 (hv2 m c)
def qv2 : A2 16 256 := pad 4096 4 (sq (hv2 m c))
def scv2 : A2 1 256 := scaleRow ((m ((c.tc : Thread nD τ).loc main_arg8)) : A1 256) (sv2 m c) (qv2 m c)
def shv2 : A2 1 256 := shiftRow ((m ((c.tc : Thread nD τ).loc main_arg8)) : A1 256) ((m ((c.tc : Thread nD τ).loc main_arg13)) : A1 256) (sv2 m c) (qv2 m c)
def hv3 : A2 32768 256 := lin zeroW (affine (hv2 m c) (scv2 m c) (shv2 m c)) (binW ((m ((c.tc : Thread nD τ).loc main_arg4)) : A2 256 256))
def sv3 : A2 16 256 := pad 4096 4 (hv3 m c)
def qv3 : A2 16 256 := pad 4096 4 (sq (hv3 m c))
def scv3 : A2 1 256 := scaleRow ((m ((c.tc : Thread nD τ).loc main_arg9)) : A1 256) (sv3 m c) (qv3 m c)
def shv3 : A2 1 256 := shiftRow ((m ((c.tc : Thread nD τ).loc main_arg9)) : A1 256) ((m ((c.tc : Thread nD τ).loc main_arg14)) : A1 256) (sv3 m c) (qv3 m c)
def hv4 : A2 32768 10 := lin zeroW (affine (hv3 m c) (scv3 m c) (shv3 m c)) (binW ((m ((c.tc : Thread nD τ).loc main_arg5)) : A2 10 256))
def sv4 : A2 16 10 := pad 4096 4 (hv4 m c)
def qv4 : A2 16 10 := pad 4096 4 (sq (hv4 m c))
def scv4 : A2 1 10 := scaleRow ((m ((c.tc : Thread nD τ).loc main_arg10)) : A1 10) (sv4 m c) (qv4 m c)
def shv4 : A2 1 10 := shiftRow ((m ((c.tc : Thread nD τ).loc main_arg10)) : A1 10) ((m ((c.tc : Thread nD τ).loc main_arg15)) : A1 10) (sv4 m c) (qv4 m c)

theorem net_unfold : KSpec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) = softK (hv4 m c) (scv4 m c) (shv4 m c) := rfl

/-! ## Buffers nothing writes between two stages -/

theorem wb0_at : (W11 (F := Ideal) m ρ c (Proc.devRef .tc main_v3) : A2 256 784) = binW ((m ((c.tc : Thread nD τ).loc main_arg1)) : A2 256 784) := by
  have hk : W11 (F := Ideal) m ρ c (Proc.devRef .tc main_v3) = W11 (F := Ideal) m ρ c (Proc.devRef .tc main_v3) :=
    rfl
  rw [hk]
  exact Glue.v3_after_prefix (W0 (F := Ideal) m ρ c)
theorem main_arg6_at12 : W12 (F := Ideal) m ρ c (Proc.devRef .tc main_arg6) = m ((c.tc : Thread nD τ).loc main_arg6) :=
  (W12_of_ne m ρ c main_arg6 (by decide)).trans <|
    (StableHlo.after_of_writes_sub hostOps0_10 _ hostOps0_10_writes (by decide) : W11 m ρ c (Proc.devRef .tc main_arg6) = W10 m ρ c (Proc.devRef .tc main_arg6)).trans <|
    (StableHlo.after_of_writes_sub hostOps0_9 _ hostOps0_9_writes (by decide) : W10 m ρ c (Proc.devRef .tc main_arg6) = W9 m ρ c (Proc.devRef .tc main_arg6)).trans <|
    (StableHlo.after_of_writes_sub hostOps0_8 _ hostOps0_8_writes (by decide) : W9 m ρ c (Proc.devRef .tc main_arg6) = W8 m ρ c (Proc.devRef .tc main_arg6)).trans <|
    (StableHlo.after_of_writes_sub hostOps0_7 _ hostOps0_7_writes (by decide) : W8 m ρ c (Proc.devRef .tc main_arg6) = W7 m ρ c (Proc.devRef .tc main_arg6)).trans <|
    (StableHlo.after_of_writes_sub hostOps0_6 _ hostOps0_6_writes (by decide) : W7 m ρ c (Proc.devRef .tc main_arg6) = W6 m ρ c (Proc.devRef .tc main_arg6)).trans <|
    (StableHlo.after_of_writes_sub hostOps0_5 _ hostOps0_5_writes (by decide) : W6 m ρ c (Proc.devRef .tc main_arg6) = W5 m ρ c (Proc.devRef .tc main_arg6)).trans <|
    (StableHlo.after_of_writes_sub hostOps0_4 _ hostOps0_4_writes (by decide) : W5 m ρ c (Proc.devRef .tc main_arg6) = W4 m ρ c (Proc.devRef .tc main_arg6)).trans <|
    (StableHlo.after_of_writes_sub hostOps0_3 _ hostOps0_3_writes (by decide) : W4 m ρ c (Proc.devRef .tc main_arg6) = W3 m ρ c (Proc.devRef .tc main_arg6)).trans <|
    (StableHlo.after_of_writes_sub hostOps0_2 _ hostOps0_2_writes (by decide) : W3 m ρ c (Proc.devRef .tc main_arg6) = W2 m ρ c (Proc.devRef .tc main_arg6)).trans <|
    (StableHlo.after_of_writes_sub hostOps0_1 _ hostOps0_1_writes (by decide) : W2 m ρ c (Proc.devRef .tc main_arg6) = W1 m ρ c (Proc.devRef .tc main_arg6)).trans <|
    (StableHlo.after_of_writes_sub hostOps0 _ hostOps0_writes (by decide) : W1 m ρ c (Proc.devRef .tc main_arg6) = W0 m ρ c (Proc.devRef .tc main_arg6)).trans <| rfl
theorem main_arg11_at12 : W12 (F := Ideal) m ρ c (Proc.devRef .tc main_arg11) = m ((c.tc : Thread nD τ).loc main_arg11) :=
  (W12_of_ne m ρ c main_arg11 (by decide)).trans <|
    (StableHlo.after_of_writes_sub hostOps0_10 _ hostOps0_10_writes (by decide) : W11 m ρ c (Proc.devRef .tc main_arg11) = W10 m ρ c (Proc.devRef .tc main_arg11)).trans <|
    (StableHlo.after_of_writes_sub hostOps0_9 _ hostOps0_9_writes (by decide) : W10 m ρ c (Proc.devRef .tc main_arg11) = W9 m ρ c (Proc.devRef .tc main_arg11)).trans <|
    (StableHlo.after_of_writes_sub hostOps0_8 _ hostOps0_8_writes (by decide) : W9 m ρ c (Proc.devRef .tc main_arg11) = W8 m ρ c (Proc.devRef .tc main_arg11)).trans <|
    (StableHlo.after_of_writes_sub hostOps0_7 _ hostOps0_7_writes (by decide) : W8 m ρ c (Proc.devRef .tc main_arg11) = W7 m ρ c (Proc.devRef .tc main_arg11)).trans <|
    (StableHlo.after_of_writes_sub hostOps0_6 _ hostOps0_6_writes (by decide) : W7 m ρ c (Proc.devRef .tc main_arg11) = W6 m ρ c (Proc.devRef .tc main_arg11)).trans <|
    (StableHlo.after_of_writes_sub hostOps0_5 _ hostOps0_5_writes (by decide) : W6 m ρ c (Proc.devRef .tc main_arg11) = W5 m ρ c (Proc.devRef .tc main_arg11)).trans <|
    (StableHlo.after_of_writes_sub hostOps0_4 _ hostOps0_4_writes (by decide) : W5 m ρ c (Proc.devRef .tc main_arg11) = W4 m ρ c (Proc.devRef .tc main_arg11)).trans <|
    (StableHlo.after_of_writes_sub hostOps0_3 _ hostOps0_3_writes (by decide) : W4 m ρ c (Proc.devRef .tc main_arg11) = W3 m ρ c (Proc.devRef .tc main_arg11)).trans <|
    (StableHlo.after_of_writes_sub hostOps0_2 _ hostOps0_2_writes (by decide) : W3 m ρ c (Proc.devRef .tc main_arg11) = W2 m ρ c (Proc.devRef .tc main_arg11)).trans <|
    (StableHlo.after_of_writes_sub hostOps0_1 _ hostOps0_1_writes (by decide) : W2 m ρ c (Proc.devRef .tc main_arg11) = W1 m ρ c (Proc.devRef .tc main_arg11)).trans <|
    (StableHlo.after_of_writes_sub hostOps0 _ hostOps0_writes (by decide) : W1 m ρ c (Proc.devRef .tc main_arg11) = W0 m ρ c (Proc.devRef .tc main_arg11)).trans <| rfl
theorem wb1_at : (W13 (F := Ideal) m ρ c (Proc.devRef .tc main_v7) : A2 256 256) = binW ((m ((c.tc : Thread nD τ).loc main_arg2)) : A2 256 256) := by
  have hk : W13 (F := Ideal) m ρ c (Proc.devRef .tc main_v7) = W11 (F := Ideal) m ρ c (Proc.devRef .tc main_v7) :=
    (StableHlo.after_of_writes_sub hostOps1 _ hostOps1_writes (by decide) : W13 m ρ c (Proc.devRef .tc main_v7) = W12 m ρ c (Proc.devRef .tc main_v7)).trans <|
    (W12_of_ne m ρ c main_v7 (by decide)).trans <| rfl
  rw [hk]
  exact Glue.v7_after_prefix (W0 (F := Ideal) m ρ c)
theorem main_arg7_at14 : W14 (F := Ideal) m ρ c (Proc.devRef .tc main_arg7) = m ((c.tc : Thread nD τ).loc main_arg7) :=
  (W14_of_ne m ρ c main_arg7 (by decide)).trans <|
    (StableHlo.after_of_writes_sub hostOps1 _ hostOps1_writes (by decide) : W13 m ρ c (Proc.devRef .tc main_arg7) = W12 m ρ c (Proc.devRef .tc main_arg7)).trans <|
    (W12_of_ne m ρ c main_arg7 (by decide)).trans <|
    (StableHlo.after_of_writes_sub hostOps0_10 _ hostOps0_10_writes (by decide) : W11 m ρ c (Proc.devRef .tc main_arg7) = W10 m ρ c (Proc.devRef .tc main_arg7)).trans <|
    (StableHlo.after_of_writes_sub hostOps0_9 _ hostOps0_9_writes (by decide) : W10 m ρ c (Proc.devRef .tc main_arg7) = W9 m ρ c (Proc.devRef .tc main_arg7)).trans <|
    (StableHlo.after_of_writes_sub hostOps0_8 _ hostOps0_8_writes (by decide) : W9 m ρ c (Proc.devRef .tc main_arg7) = W8 m ρ c (Proc.devRef .tc main_arg7)).trans <|
    (StableHlo.after_of_writes_sub hostOps0_7 _ hostOps0_7_writes (by decide) : W8 m ρ c (Proc.devRef .tc main_arg7) = W7 m ρ c (Proc.devRef .tc main_arg7)).trans <|
    (StableHlo.after_of_writes_sub hostOps0_6 _ hostOps0_6_writes (by decide) : W7 m ρ c (Proc.devRef .tc main_arg7) = W6 m ρ c (Proc.devRef .tc main_arg7)).trans <|
    (StableHlo.after_of_writes_sub hostOps0_5 _ hostOps0_5_writes (by decide) : W6 m ρ c (Proc.devRef .tc main_arg7) = W5 m ρ c (Proc.devRef .tc main_arg7)).trans <|
    (StableHlo.after_of_writes_sub hostOps0_4 _ hostOps0_4_writes (by decide) : W5 m ρ c (Proc.devRef .tc main_arg7) = W4 m ρ c (Proc.devRef .tc main_arg7)).trans <|
    (StableHlo.after_of_writes_sub hostOps0_3 _ hostOps0_3_writes (by decide) : W4 m ρ c (Proc.devRef .tc main_arg7) = W3 m ρ c (Proc.devRef .tc main_arg7)).trans <|
    (StableHlo.after_of_writes_sub hostOps0_2 _ hostOps0_2_writes (by decide) : W3 m ρ c (Proc.devRef .tc main_arg7) = W2 m ρ c (Proc.devRef .tc main_arg7)).trans <|
    (StableHlo.after_of_writes_sub hostOps0_1 _ hostOps0_1_writes (by decide) : W2 m ρ c (Proc.devRef .tc main_arg7) = W1 m ρ c (Proc.devRef .tc main_arg7)).trans <|
    (StableHlo.after_of_writes_sub hostOps0 _ hostOps0_writes (by decide) : W1 m ρ c (Proc.devRef .tc main_arg7) = W0 m ρ c (Proc.devRef .tc main_arg7)).trans <| rfl
theorem main_arg12_at14 : W14 (F := Ideal) m ρ c (Proc.devRef .tc main_arg12) = m ((c.tc : Thread nD τ).loc main_arg12) :=
  (W14_of_ne m ρ c main_arg12 (by decide)).trans <|
    (StableHlo.after_of_writes_sub hostOps1 _ hostOps1_writes (by decide) : W13 m ρ c (Proc.devRef .tc main_arg12) = W12 m ρ c (Proc.devRef .tc main_arg12)).trans <|
    (W12_of_ne m ρ c main_arg12 (by decide)).trans <|
    (StableHlo.after_of_writes_sub hostOps0_10 _ hostOps0_10_writes (by decide) : W11 m ρ c (Proc.devRef .tc main_arg12) = W10 m ρ c (Proc.devRef .tc main_arg12)).trans <|
    (StableHlo.after_of_writes_sub hostOps0_9 _ hostOps0_9_writes (by decide) : W10 m ρ c (Proc.devRef .tc main_arg12) = W9 m ρ c (Proc.devRef .tc main_arg12)).trans <|
    (StableHlo.after_of_writes_sub hostOps0_8 _ hostOps0_8_writes (by decide) : W9 m ρ c (Proc.devRef .tc main_arg12) = W8 m ρ c (Proc.devRef .tc main_arg12)).trans <|
    (StableHlo.after_of_writes_sub hostOps0_7 _ hostOps0_7_writes (by decide) : W8 m ρ c (Proc.devRef .tc main_arg12) = W7 m ρ c (Proc.devRef .tc main_arg12)).trans <|
    (StableHlo.after_of_writes_sub hostOps0_6 _ hostOps0_6_writes (by decide) : W7 m ρ c (Proc.devRef .tc main_arg12) = W6 m ρ c (Proc.devRef .tc main_arg12)).trans <|
    (StableHlo.after_of_writes_sub hostOps0_5 _ hostOps0_5_writes (by decide) : W6 m ρ c (Proc.devRef .tc main_arg12) = W5 m ρ c (Proc.devRef .tc main_arg12)).trans <|
    (StableHlo.after_of_writes_sub hostOps0_4 _ hostOps0_4_writes (by decide) : W5 m ρ c (Proc.devRef .tc main_arg12) = W4 m ρ c (Proc.devRef .tc main_arg12)).trans <|
    (StableHlo.after_of_writes_sub hostOps0_3 _ hostOps0_3_writes (by decide) : W4 m ρ c (Proc.devRef .tc main_arg12) = W3 m ρ c (Proc.devRef .tc main_arg12)).trans <|
    (StableHlo.after_of_writes_sub hostOps0_2 _ hostOps0_2_writes (by decide) : W3 m ρ c (Proc.devRef .tc main_arg12) = W2 m ρ c (Proc.devRef .tc main_arg12)).trans <|
    (StableHlo.after_of_writes_sub hostOps0_1 _ hostOps0_1_writes (by decide) : W2 m ρ c (Proc.devRef .tc main_arg12) = W1 m ρ c (Proc.devRef .tc main_arg12)).trans <|
    (StableHlo.after_of_writes_sub hostOps0 _ hostOps0_writes (by decide) : W1 m ρ c (Proc.devRef .tc main_arg12) = W0 m ρ c (Proc.devRef .tc main_arg12)).trans <| rfl
theorem wb2_at : (W15 (F := Ideal) m ρ c (Proc.devRef .tc main_v11) : A2 256 256) = binW ((m ((c.tc : Thread nD τ).loc main_arg3)) : A2 256 256) := by
  have hk : W15 (F := Ideal) m ρ c (Proc.devRef .tc main_v11) = W11 (F := Ideal) m ρ c (Proc.devRef .tc main_v11) :=
    (StableHlo.after_of_writes_sub hostOps2 _ hostOps2_writes (by decide) : W15 m ρ c (Proc.devRef .tc main_v11) = W14 m ρ c (Proc.devRef .tc main_v11)).trans <|
    (W14_of_ne m ρ c main_v11 (by decide)).trans <|
    (StableHlo.after_of_writes_sub hostOps1 _ hostOps1_writes (by decide) : W13 m ρ c (Proc.devRef .tc main_v11) = W12 m ρ c (Proc.devRef .tc main_v11)).trans <|
    (W12_of_ne m ρ c main_v11 (by decide)).trans <| rfl
  rw [hk]
  exact Glue.v11_after_prefix (W0 (F := Ideal) m ρ c)
theorem main_arg8_at16 : W16 (F := Ideal) m ρ c (Proc.devRef .tc main_arg8) = m ((c.tc : Thread nD τ).loc main_arg8) :=
  (W16_of_ne m ρ c main_arg8 (by decide)).trans <|
    (StableHlo.after_of_writes_sub hostOps2 _ hostOps2_writes (by decide) : W15 m ρ c (Proc.devRef .tc main_arg8) = W14 m ρ c (Proc.devRef .tc main_arg8)).trans <|
    (W14_of_ne m ρ c main_arg8 (by decide)).trans <|
    (StableHlo.after_of_writes_sub hostOps1 _ hostOps1_writes (by decide) : W13 m ρ c (Proc.devRef .tc main_arg8) = W12 m ρ c (Proc.devRef .tc main_arg8)).trans <|
    (W12_of_ne m ρ c main_arg8 (by decide)).trans <|
    (StableHlo.after_of_writes_sub hostOps0_10 _ hostOps0_10_writes (by decide) : W11 m ρ c (Proc.devRef .tc main_arg8) = W10 m ρ c (Proc.devRef .tc main_arg8)).trans <|
    (StableHlo.after_of_writes_sub hostOps0_9 _ hostOps0_9_writes (by decide) : W10 m ρ c (Proc.devRef .tc main_arg8) = W9 m ρ c (Proc.devRef .tc main_arg8)).trans <|
    (StableHlo.after_of_writes_sub hostOps0_8 _ hostOps0_8_writes (by decide) : W9 m ρ c (Proc.devRef .tc main_arg8) = W8 m ρ c (Proc.devRef .tc main_arg8)).trans <|
    (StableHlo.after_of_writes_sub hostOps0_7 _ hostOps0_7_writes (by decide) : W8 m ρ c (Proc.devRef .tc main_arg8) = W7 m ρ c (Proc.devRef .tc main_arg8)).trans <|
    (StableHlo.after_of_writes_sub hostOps0_6 _ hostOps0_6_writes (by decide) : W7 m ρ c (Proc.devRef .tc main_arg8) = W6 m ρ c (Proc.devRef .tc main_arg8)).trans <|
    (StableHlo.after_of_writes_sub hostOps0_5 _ hostOps0_5_writes (by decide) : W6 m ρ c (Proc.devRef .tc main_arg8) = W5 m ρ c (Proc.devRef .tc main_arg8)).trans <|
    (StableHlo.after_of_writes_sub hostOps0_4 _ hostOps0_4_writes (by decide) : W5 m ρ c (Proc.devRef .tc main_arg8) = W4 m ρ c (Proc.devRef .tc main_arg8)).trans <|
    (StableHlo.after_of_writes_sub hostOps0_3 _ hostOps0_3_writes (by decide) : W4 m ρ c (Proc.devRef .tc main_arg8) = W3 m ρ c (Proc.devRef .tc main_arg8)).trans <|
    (StableHlo.after_of_writes_sub hostOps0_2 _ hostOps0_2_writes (by decide) : W3 m ρ c (Proc.devRef .tc main_arg8) = W2 m ρ c (Proc.devRef .tc main_arg8)).trans <|
    (StableHlo.after_of_writes_sub hostOps0_1 _ hostOps0_1_writes (by decide) : W2 m ρ c (Proc.devRef .tc main_arg8) = W1 m ρ c (Proc.devRef .tc main_arg8)).trans <|
    (StableHlo.after_of_writes_sub hostOps0 _ hostOps0_writes (by decide) : W1 m ρ c (Proc.devRef .tc main_arg8) = W0 m ρ c (Proc.devRef .tc main_arg8)).trans <| rfl
theorem main_arg13_at16 : W16 (F := Ideal) m ρ c (Proc.devRef .tc main_arg13) = m ((c.tc : Thread nD τ).loc main_arg13) :=
  (W16_of_ne m ρ c main_arg13 (by decide)).trans <|
    (StableHlo.after_of_writes_sub hostOps2 _ hostOps2_writes (by decide) : W15 m ρ c (Proc.devRef .tc main_arg13) = W14 m ρ c (Proc.devRef .tc main_arg13)).trans <|
    (W14_of_ne m ρ c main_arg13 (by decide)).trans <|
    (StableHlo.after_of_writes_sub hostOps1 _ hostOps1_writes (by decide) : W13 m ρ c (Proc.devRef .tc main_arg13) = W12 m ρ c (Proc.devRef .tc main_arg13)).trans <|
    (W12_of_ne m ρ c main_arg13 (by decide)).trans <|
    (StableHlo.after_of_writes_sub hostOps0_10 _ hostOps0_10_writes (by decide) : W11 m ρ c (Proc.devRef .tc main_arg13) = W10 m ρ c (Proc.devRef .tc main_arg13)).trans <|
    (StableHlo.after_of_writes_sub hostOps0_9 _ hostOps0_9_writes (by decide) : W10 m ρ c (Proc.devRef .tc main_arg13) = W9 m ρ c (Proc.devRef .tc main_arg13)).trans <|
    (StableHlo.after_of_writes_sub hostOps0_8 _ hostOps0_8_writes (by decide) : W9 m ρ c (Proc.devRef .tc main_arg13) = W8 m ρ c (Proc.devRef .tc main_arg13)).trans <|
    (StableHlo.after_of_writes_sub hostOps0_7 _ hostOps0_7_writes (by decide) : W8 m ρ c (Proc.devRef .tc main_arg13) = W7 m ρ c (Proc.devRef .tc main_arg13)).trans <|
    (StableHlo.after_of_writes_sub hostOps0_6 _ hostOps0_6_writes (by decide) : W7 m ρ c (Proc.devRef .tc main_arg13) = W6 m ρ c (Proc.devRef .tc main_arg13)).trans <|
    (StableHlo.after_of_writes_sub hostOps0_5 _ hostOps0_5_writes (by decide) : W6 m ρ c (Proc.devRef .tc main_arg13) = W5 m ρ c (Proc.devRef .tc main_arg13)).trans <|
    (StableHlo.after_of_writes_sub hostOps0_4 _ hostOps0_4_writes (by decide) : W5 m ρ c (Proc.devRef .tc main_arg13) = W4 m ρ c (Proc.devRef .tc main_arg13)).trans <|
    (StableHlo.after_of_writes_sub hostOps0_3 _ hostOps0_3_writes (by decide) : W4 m ρ c (Proc.devRef .tc main_arg13) = W3 m ρ c (Proc.devRef .tc main_arg13)).trans <|
    (StableHlo.after_of_writes_sub hostOps0_2 _ hostOps0_2_writes (by decide) : W3 m ρ c (Proc.devRef .tc main_arg13) = W2 m ρ c (Proc.devRef .tc main_arg13)).trans <|
    (StableHlo.after_of_writes_sub hostOps0_1 _ hostOps0_1_writes (by decide) : W2 m ρ c (Proc.devRef .tc main_arg13) = W1 m ρ c (Proc.devRef .tc main_arg13)).trans <|
    (StableHlo.after_of_writes_sub hostOps0 _ hostOps0_writes (by decide) : W1 m ρ c (Proc.devRef .tc main_arg13) = W0 m ρ c (Proc.devRef .tc main_arg13)).trans <| rfl
theorem wb3_at : (W17 (F := Ideal) m ρ c (Proc.devRef .tc main_v15) : A2 256 256) = binW ((m ((c.tc : Thread nD τ).loc main_arg4)) : A2 256 256) := by
  have hk : W17 (F := Ideal) m ρ c (Proc.devRef .tc main_v15) = W11 (F := Ideal) m ρ c (Proc.devRef .tc main_v15) :=
    (StableHlo.after_of_writes_sub hostOps3 _ hostOps3_writes (by decide) : W17 m ρ c (Proc.devRef .tc main_v15) = W16 m ρ c (Proc.devRef .tc main_v15)).trans <|
    (W16_of_ne m ρ c main_v15 (by decide)).trans <|
    (StableHlo.after_of_writes_sub hostOps2 _ hostOps2_writes (by decide) : W15 m ρ c (Proc.devRef .tc main_v15) = W14 m ρ c (Proc.devRef .tc main_v15)).trans <|
    (W14_of_ne m ρ c main_v15 (by decide)).trans <|
    (StableHlo.after_of_writes_sub hostOps1 _ hostOps1_writes (by decide) : W13 m ρ c (Proc.devRef .tc main_v15) = W12 m ρ c (Proc.devRef .tc main_v15)).trans <|
    (W12_of_ne m ρ c main_v15 (by decide)).trans <| rfl
  rw [hk]
  exact Glue.v15_after_prefix (W0 (F := Ideal) m ρ c)
theorem main_arg9_at18 : W18 (F := Ideal) m ρ c (Proc.devRef .tc main_arg9) = m ((c.tc : Thread nD τ).loc main_arg9) :=
  (W18_of_ne m ρ c main_arg9 (by decide)).trans <|
    (StableHlo.after_of_writes_sub hostOps3 _ hostOps3_writes (by decide) : W17 m ρ c (Proc.devRef .tc main_arg9) = W16 m ρ c (Proc.devRef .tc main_arg9)).trans <|
    (W16_of_ne m ρ c main_arg9 (by decide)).trans <|
    (StableHlo.after_of_writes_sub hostOps2 _ hostOps2_writes (by decide) : W15 m ρ c (Proc.devRef .tc main_arg9) = W14 m ρ c (Proc.devRef .tc main_arg9)).trans <|
    (W14_of_ne m ρ c main_arg9 (by decide)).trans <|
    (StableHlo.after_of_writes_sub hostOps1 _ hostOps1_writes (by decide) : W13 m ρ c (Proc.devRef .tc main_arg9) = W12 m ρ c (Proc.devRef .tc main_arg9)).trans <|
    (W12_of_ne m ρ c main_arg9 (by decide)).trans <|
    (StableHlo.after_of_writes_sub hostOps0_10 _ hostOps0_10_writes (by decide) : W11 m ρ c (Proc.devRef .tc main_arg9) = W10 m ρ c (Proc.devRef .tc main_arg9)).trans <|
    (StableHlo.after_of_writes_sub hostOps0_9 _ hostOps0_9_writes (by decide) : W10 m ρ c (Proc.devRef .tc main_arg9) = W9 m ρ c (Proc.devRef .tc main_arg9)).trans <|
    (StableHlo.after_of_writes_sub hostOps0_8 _ hostOps0_8_writes (by decide) : W9 m ρ c (Proc.devRef .tc main_arg9) = W8 m ρ c (Proc.devRef .tc main_arg9)).trans <|
    (StableHlo.after_of_writes_sub hostOps0_7 _ hostOps0_7_writes (by decide) : W8 m ρ c (Proc.devRef .tc main_arg9) = W7 m ρ c (Proc.devRef .tc main_arg9)).trans <|
    (StableHlo.after_of_writes_sub hostOps0_6 _ hostOps0_6_writes (by decide) : W7 m ρ c (Proc.devRef .tc main_arg9) = W6 m ρ c (Proc.devRef .tc main_arg9)).trans <|
    (StableHlo.after_of_writes_sub hostOps0_5 _ hostOps0_5_writes (by decide) : W6 m ρ c (Proc.devRef .tc main_arg9) = W5 m ρ c (Proc.devRef .tc main_arg9)).trans <|
    (StableHlo.after_of_writes_sub hostOps0_4 _ hostOps0_4_writes (by decide) : W5 m ρ c (Proc.devRef .tc main_arg9) = W4 m ρ c (Proc.devRef .tc main_arg9)).trans <|
    (StableHlo.after_of_writes_sub hostOps0_3 _ hostOps0_3_writes (by decide) : W4 m ρ c (Proc.devRef .tc main_arg9) = W3 m ρ c (Proc.devRef .tc main_arg9)).trans <|
    (StableHlo.after_of_writes_sub hostOps0_2 _ hostOps0_2_writes (by decide) : W3 m ρ c (Proc.devRef .tc main_arg9) = W2 m ρ c (Proc.devRef .tc main_arg9)).trans <|
    (StableHlo.after_of_writes_sub hostOps0_1 _ hostOps0_1_writes (by decide) : W2 m ρ c (Proc.devRef .tc main_arg9) = W1 m ρ c (Proc.devRef .tc main_arg9)).trans <|
    (StableHlo.after_of_writes_sub hostOps0 _ hostOps0_writes (by decide) : W1 m ρ c (Proc.devRef .tc main_arg9) = W0 m ρ c (Proc.devRef .tc main_arg9)).trans <| rfl
theorem main_arg14_at18 : W18 (F := Ideal) m ρ c (Proc.devRef .tc main_arg14) = m ((c.tc : Thread nD τ).loc main_arg14) :=
  (W18_of_ne m ρ c main_arg14 (by decide)).trans <|
    (StableHlo.after_of_writes_sub hostOps3 _ hostOps3_writes (by decide) : W17 m ρ c (Proc.devRef .tc main_arg14) = W16 m ρ c (Proc.devRef .tc main_arg14)).trans <|
    (W16_of_ne m ρ c main_arg14 (by decide)).trans <|
    (StableHlo.after_of_writes_sub hostOps2 _ hostOps2_writes (by decide) : W15 m ρ c (Proc.devRef .tc main_arg14) = W14 m ρ c (Proc.devRef .tc main_arg14)).trans <|
    (W14_of_ne m ρ c main_arg14 (by decide)).trans <|
    (StableHlo.after_of_writes_sub hostOps1 _ hostOps1_writes (by decide) : W13 m ρ c (Proc.devRef .tc main_arg14) = W12 m ρ c (Proc.devRef .tc main_arg14)).trans <|
    (W12_of_ne m ρ c main_arg14 (by decide)).trans <|
    (StableHlo.after_of_writes_sub hostOps0_10 _ hostOps0_10_writes (by decide) : W11 m ρ c (Proc.devRef .tc main_arg14) = W10 m ρ c (Proc.devRef .tc main_arg14)).trans <|
    (StableHlo.after_of_writes_sub hostOps0_9 _ hostOps0_9_writes (by decide) : W10 m ρ c (Proc.devRef .tc main_arg14) = W9 m ρ c (Proc.devRef .tc main_arg14)).trans <|
    (StableHlo.after_of_writes_sub hostOps0_8 _ hostOps0_8_writes (by decide) : W9 m ρ c (Proc.devRef .tc main_arg14) = W8 m ρ c (Proc.devRef .tc main_arg14)).trans <|
    (StableHlo.after_of_writes_sub hostOps0_7 _ hostOps0_7_writes (by decide) : W8 m ρ c (Proc.devRef .tc main_arg14) = W7 m ρ c (Proc.devRef .tc main_arg14)).trans <|
    (StableHlo.after_of_writes_sub hostOps0_6 _ hostOps0_6_writes (by decide) : W7 m ρ c (Proc.devRef .tc main_arg14) = W6 m ρ c (Proc.devRef .tc main_arg14)).trans <|
    (StableHlo.after_of_writes_sub hostOps0_5 _ hostOps0_5_writes (by decide) : W6 m ρ c (Proc.devRef .tc main_arg14) = W5 m ρ c (Proc.devRef .tc main_arg14)).trans <|
    (StableHlo.after_of_writes_sub hostOps0_4 _ hostOps0_4_writes (by decide) : W5 m ρ c (Proc.devRef .tc main_arg14) = W4 m ρ c (Proc.devRef .tc main_arg14)).trans <|
    (StableHlo.after_of_writes_sub hostOps0_3 _ hostOps0_3_writes (by decide) : W4 m ρ c (Proc.devRef .tc main_arg14) = W3 m ρ c (Proc.devRef .tc main_arg14)).trans <|
    (StableHlo.after_of_writes_sub hostOps0_2 _ hostOps0_2_writes (by decide) : W3 m ρ c (Proc.devRef .tc main_arg14) = W2 m ρ c (Proc.devRef .tc main_arg14)).trans <|
    (StableHlo.after_of_writes_sub hostOps0_1 _ hostOps0_1_writes (by decide) : W2 m ρ c (Proc.devRef .tc main_arg14) = W1 m ρ c (Proc.devRef .tc main_arg14)).trans <|
    (StableHlo.after_of_writes_sub hostOps0 _ hostOps0_writes (by decide) : W1 m ρ c (Proc.devRef .tc main_arg14) = W0 m ρ c (Proc.devRef .tc main_arg14)).trans <| rfl
theorem wb4_at : (W19 (F := Ideal) m ρ c (Proc.devRef .tc main_v19) : A2 10 256) = binW ((m ((c.tc : Thread nD τ).loc main_arg5)) : A2 10 256) := by
  have hk : W19 (F := Ideal) m ρ c (Proc.devRef .tc main_v19) = W11 (F := Ideal) m ρ c (Proc.devRef .tc main_v19) :=
    (StableHlo.after_of_writes_sub hostOps4 _ hostOps4_writes (by decide) : W19 m ρ c (Proc.devRef .tc main_v19) = W18 m ρ c (Proc.devRef .tc main_v19)).trans <|
    (W18_of_ne m ρ c main_v19 (by decide)).trans <|
    (StableHlo.after_of_writes_sub hostOps3 _ hostOps3_writes (by decide) : W17 m ρ c (Proc.devRef .tc main_v19) = W16 m ρ c (Proc.devRef .tc main_v19)).trans <|
    (W16_of_ne m ρ c main_v19 (by decide)).trans <|
    (StableHlo.after_of_writes_sub hostOps2 _ hostOps2_writes (by decide) : W15 m ρ c (Proc.devRef .tc main_v19) = W14 m ρ c (Proc.devRef .tc main_v19)).trans <|
    (W14_of_ne m ρ c main_v19 (by decide)).trans <|
    (StableHlo.after_of_writes_sub hostOps1 _ hostOps1_writes (by decide) : W13 m ρ c (Proc.devRef .tc main_v19) = W12 m ρ c (Proc.devRef .tc main_v19)).trans <|
    (W12_of_ne m ρ c main_v19 (by decide)).trans <| rfl
  rw [hk]
  exact Glue.v19_after_prefix (W0 (F := Ideal) m ρ c)
theorem main_arg10_at20 : W20 (F := Ideal) m ρ c (Proc.devRef .tc main_arg10) = m ((c.tc : Thread nD τ).loc main_arg10) :=
  (W20_of_ne m ρ c main_arg10 (by decide)).trans <|
    (StableHlo.after_of_writes_sub hostOps4 _ hostOps4_writes (by decide) : W19 m ρ c (Proc.devRef .tc main_arg10) = W18 m ρ c (Proc.devRef .tc main_arg10)).trans <|
    (W18_of_ne m ρ c main_arg10 (by decide)).trans <|
    (StableHlo.after_of_writes_sub hostOps3 _ hostOps3_writes (by decide) : W17 m ρ c (Proc.devRef .tc main_arg10) = W16 m ρ c (Proc.devRef .tc main_arg10)).trans <|
    (W16_of_ne m ρ c main_arg10 (by decide)).trans <|
    (StableHlo.after_of_writes_sub hostOps2 _ hostOps2_writes (by decide) : W15 m ρ c (Proc.devRef .tc main_arg10) = W14 m ρ c (Proc.devRef .tc main_arg10)).trans <|
    (W14_of_ne m ρ c main_arg10 (by decide)).trans <|
    (StableHlo.after_of_writes_sub hostOps1 _ hostOps1_writes (by decide) : W13 m ρ c (Proc.devRef .tc main_arg10) = W12 m ρ c (Proc.devRef .tc main_arg10)).trans <|
    (W12_of_ne m ρ c main_arg10 (by decide)).trans <|
    (StableHlo.after_of_writes_sub hostOps0_10 _ hostOps0_10_writes (by decide) : W11 m ρ c (Proc.devRef .tc main_arg10) = W10 m ρ c (Proc.devRef .tc main_arg10)).trans <|
    (StableHlo.after_of_writes_sub hostOps0_9 _ hostOps0_9_writes (by decide) : W10 m ρ c (Proc.devRef .tc main_arg10) = W9 m ρ c (Proc.devRef .tc main_arg10)).trans <|
    (StableHlo.after_of_writes_sub hostOps0_8 _ hostOps0_8_writes (by decide) : W9 m ρ c (Proc.devRef .tc main_arg10) = W8 m ρ c (Proc.devRef .tc main_arg10)).trans <|
    (StableHlo.after_of_writes_sub hostOps0_7 _ hostOps0_7_writes (by decide) : W8 m ρ c (Proc.devRef .tc main_arg10) = W7 m ρ c (Proc.devRef .tc main_arg10)).trans <|
    (StableHlo.after_of_writes_sub hostOps0_6 _ hostOps0_6_writes (by decide) : W7 m ρ c (Proc.devRef .tc main_arg10) = W6 m ρ c (Proc.devRef .tc main_arg10)).trans <|
    (StableHlo.after_of_writes_sub hostOps0_5 _ hostOps0_5_writes (by decide) : W6 m ρ c (Proc.devRef .tc main_arg10) = W5 m ρ c (Proc.devRef .tc main_arg10)).trans <|
    (StableHlo.after_of_writes_sub hostOps0_4 _ hostOps0_4_writes (by decide) : W5 m ρ c (Proc.devRef .tc main_arg10) = W4 m ρ c (Proc.devRef .tc main_arg10)).trans <|
    (StableHlo.after_of_writes_sub hostOps0_3 _ hostOps0_3_writes (by decide) : W4 m ρ c (Proc.devRef .tc main_arg10) = W3 m ρ c (Proc.devRef .tc main_arg10)).trans <|
    (StableHlo.after_of_writes_sub hostOps0_2 _ hostOps0_2_writes (by decide) : W3 m ρ c (Proc.devRef .tc main_arg10) = W2 m ρ c (Proc.devRef .tc main_arg10)).trans <|
    (StableHlo.after_of_writes_sub hostOps0_1 _ hostOps0_1_writes (by decide) : W2 m ρ c (Proc.devRef .tc main_arg10) = W1 m ρ c (Proc.devRef .tc main_arg10)).trans <|
    (StableHlo.after_of_writes_sub hostOps0 _ hostOps0_writes (by decide) : W1 m ρ c (Proc.devRef .tc main_arg10) = W0 m ρ c (Proc.devRef .tc main_arg10)).trans <| rfl
theorem main_arg15_at20 : W20 (F := Ideal) m ρ c (Proc.devRef .tc main_arg15) = m ((c.tc : Thread nD τ).loc main_arg15) :=
  (W20_of_ne m ρ c main_arg15 (by decide)).trans <|
    (StableHlo.after_of_writes_sub hostOps4 _ hostOps4_writes (by decide) : W19 m ρ c (Proc.devRef .tc main_arg15) = W18 m ρ c (Proc.devRef .tc main_arg15)).trans <|
    (W18_of_ne m ρ c main_arg15 (by decide)).trans <|
    (StableHlo.after_of_writes_sub hostOps3 _ hostOps3_writes (by decide) : W17 m ρ c (Proc.devRef .tc main_arg15) = W16 m ρ c (Proc.devRef .tc main_arg15)).trans <|
    (W16_of_ne m ρ c main_arg15 (by decide)).trans <|
    (StableHlo.after_of_writes_sub hostOps2 _ hostOps2_writes (by decide) : W15 m ρ c (Proc.devRef .tc main_arg15) = W14 m ρ c (Proc.devRef .tc main_arg15)).trans <|
    (W14_of_ne m ρ c main_arg15 (by decide)).trans <|
    (StableHlo.after_of_writes_sub hostOps1 _ hostOps1_writes (by decide) : W13 m ρ c (Proc.devRef .tc main_arg15) = W12 m ρ c (Proc.devRef .tc main_arg15)).trans <|
    (W12_of_ne m ρ c main_arg15 (by decide)).trans <|
    (StableHlo.after_of_writes_sub hostOps0_10 _ hostOps0_10_writes (by decide) : W11 m ρ c (Proc.devRef .tc main_arg15) = W10 m ρ c (Proc.devRef .tc main_arg15)).trans <|
    (StableHlo.after_of_writes_sub hostOps0_9 _ hostOps0_9_writes (by decide) : W10 m ρ c (Proc.devRef .tc main_arg15) = W9 m ρ c (Proc.devRef .tc main_arg15)).trans <|
    (StableHlo.after_of_writes_sub hostOps0_8 _ hostOps0_8_writes (by decide) : W9 m ρ c (Proc.devRef .tc main_arg15) = W8 m ρ c (Proc.devRef .tc main_arg15)).trans <|
    (StableHlo.after_of_writes_sub hostOps0_7 _ hostOps0_7_writes (by decide) : W8 m ρ c (Proc.devRef .tc main_arg15) = W7 m ρ c (Proc.devRef .tc main_arg15)).trans <|
    (StableHlo.after_of_writes_sub hostOps0_6 _ hostOps0_6_writes (by decide) : W7 m ρ c (Proc.devRef .tc main_arg15) = W6 m ρ c (Proc.devRef .tc main_arg15)).trans <|
    (StableHlo.after_of_writes_sub hostOps0_5 _ hostOps0_5_writes (by decide) : W6 m ρ c (Proc.devRef .tc main_arg15) = W5 m ρ c (Proc.devRef .tc main_arg15)).trans <|
    (StableHlo.after_of_writes_sub hostOps0_4 _ hostOps0_4_writes (by decide) : W5 m ρ c (Proc.devRef .tc main_arg15) = W4 m ρ c (Proc.devRef .tc main_arg15)).trans <|
    (StableHlo.after_of_writes_sub hostOps0_3 _ hostOps0_3_writes (by decide) : W4 m ρ c (Proc.devRef .tc main_arg15) = W3 m ρ c (Proc.devRef .tc main_arg15)).trans <|
    (StableHlo.after_of_writes_sub hostOps0_2 _ hostOps0_2_writes (by decide) : W3 m ρ c (Proc.devRef .tc main_arg15) = W2 m ρ c (Proc.devRef .tc main_arg15)).trans <|
    (StableHlo.after_of_writes_sub hostOps0_1 _ hostOps0_1_writes (by decide) : W2 m ρ c (Proc.devRef .tc main_arg15) = W1 m ρ c (Proc.devRef .tc main_arg15)).trans <|
    (StableHlo.after_of_writes_sub hostOps0 _ hostOps0_writes (by decide) : W1 m ρ c (Proc.devRef .tc main_arg15) = W0 m ρ c (Proc.devRef .tc main_arg15)).trans <| rfl
theorem x_at11 : W11 (F := Ideal) m ρ c (Proc.devRef .tc main_arg0) = m ((c.tc : Thread nD τ).loc main_arg0) :=
  (StableHlo.after_of_writes_sub hostOps0_10 _ hostOps0_10_writes (by decide) : W11 m ρ c (Proc.devRef .tc main_arg0) = W10 m ρ c (Proc.devRef .tc main_arg0)).trans <|
    (StableHlo.after_of_writes_sub hostOps0_9 _ hostOps0_9_writes (by decide) : W10 m ρ c (Proc.devRef .tc main_arg0) = W9 m ρ c (Proc.devRef .tc main_arg0)).trans <|
    (StableHlo.after_of_writes_sub hostOps0_8 _ hostOps0_8_writes (by decide) : W9 m ρ c (Proc.devRef .tc main_arg0) = W8 m ρ c (Proc.devRef .tc main_arg0)).trans <|
    (StableHlo.after_of_writes_sub hostOps0_7 _ hostOps0_7_writes (by decide) : W8 m ρ c (Proc.devRef .tc main_arg0) = W7 m ρ c (Proc.devRef .tc main_arg0)).trans <|
    (StableHlo.after_of_writes_sub hostOps0_6 _ hostOps0_6_writes (by decide) : W7 m ρ c (Proc.devRef .tc main_arg0) = W6 m ρ c (Proc.devRef .tc main_arg0)).trans <|
    (StableHlo.after_of_writes_sub hostOps0_5 _ hostOps0_5_writes (by decide) : W6 m ρ c (Proc.devRef .tc main_arg0) = W5 m ρ c (Proc.devRef .tc main_arg0)).trans <|
    (StableHlo.after_of_writes_sub hostOps0_4 _ hostOps0_4_writes (by decide) : W5 m ρ c (Proc.devRef .tc main_arg0) = W4 m ρ c (Proc.devRef .tc main_arg0)).trans <|
    (StableHlo.after_of_writes_sub hostOps0_3 _ hostOps0_3_writes (by decide) : W4 m ρ c (Proc.devRef .tc main_arg0) = W3 m ρ c (Proc.devRef .tc main_arg0)).trans <|
    (StableHlo.after_of_writes_sub hostOps0_2 _ hostOps0_2_writes (by decide) : W3 m ρ c (Proc.devRef .tc main_arg0) = W2 m ρ c (Proc.devRef .tc main_arg0)).trans <|
    (StableHlo.after_of_writes_sub hostOps0_1 _ hostOps0_1_writes (by decide) : W2 m ρ c (Proc.devRef .tc main_arg0) = W1 m ρ c (Proc.devRef .tc main_arg0)).trans <|
    (StableHlo.after_of_writes_sub hostOps0 _ hostOps0_writes (by decide) : W1 m ρ c (Proc.devRef .tc main_arg0) = W0 m ρ c (Proc.devRef .tc main_arg0)).trans <| rfl

/-! ## Stage by stage -/

theorem h0_at : (W12 (F := Ideal) m ρ c (Proc.devRef .tc main_v20_0) : A2 32768 256) = hv0 m c := by
  refine ((W12_arr (F := Ideal) m ρ c 2).trans (l0ArrH (atTc (W11 (F := Ideal) m ρ)) c)).trans ?_
  show lin halfW (W11 (F := Ideal) m ρ c (Proc.devRef .tc main_arg0) : A2 32768 784) (W11 (F := Ideal) m ρ c (Proc.devRef .tc main_v3) : A2 256 784) = _
  rw [x_at11 m ρ c, wb0_at m ρ c]
  rfl
theorem s0_at : (W12 (F := Ideal) m ρ c (Proc.devRef .tc main_v20_1) : A2 16 256) = sv0 m c := by
  refine ((W12_arr (F := Ideal) m ρ c 3).trans (l0ArrA (atTc (W11 (F := Ideal) m ρ)) c)).trans ?_
  show pad 2048 8 (lin halfW (W11 (F := Ideal) m ρ c (Proc.devRef .tc main_arg0) : A2 32768 784) (W11 (F := Ideal) m ρ c (Proc.devRef .tc main_v3) : A2 256 784)) = _
  rw [x_at11 m ρ c, wb0_at m ρ c]
  rfl
theorem q0_at : (W12 (F := Ideal) m ρ c (Proc.devRef .tc main_v20_2) : A2 16 256) = qv0 m c := by
  refine ((W12_arr (F := Ideal) m ρ c 4).trans (l0ArrB (atTc (W11 (F := Ideal) m ρ)) c)).trans ?_
  show pad 2048 8 (sq (lin halfW (W11 (F := Ideal) m ρ c (Proc.devRef .tc main_arg0) : A2 32768 784) (W11 (F := Ideal) m ρ c (Proc.devRef .tc main_v3) : A2 256 784))) = _
  rw [x_at11 m ρ c, wb0_at m ρ c]
  rfl
/-- The host stretch after the region: its scale and shift rows. -/
theorem sc0_at : (W13 (F := Ideal) m ρ c (Proc.devRef .tc main_v45) : A2 1 256) = scv0 m c := by
  refine (Glue.scale_after_1 (W12 (F := Ideal) m ρ c)).trans ?_
  rw [main_arg6_at12 m ρ c, s0_at m ρ c, q0_at m ρ c]
  rfl
theorem sh0_at : (W13 (F := Ideal) m ρ c (Proc.devRef .tc main_v49) : A2 1 256) = shv0 m c := by
  refine (Glue.shift_after_1 (W12 (F := Ideal) m ρ c)).trans ?_
  rw [main_arg6_at12 m ρ c, main_arg11_at12 m ρ c, s0_at m ρ c, q0_at m ρ c]
  rfl

/-- The previous layer's products, unchanged by the host stretch in between. -/
theorem hin1 : (W13 (F := Ideal) m ρ c (Proc.devRef .tc main_v20_0) : A2 32768 256) = hv0 m c :=
  ((StableHlo.after_of_writes_sub hostOps1 _ hostOps1_writes (by decide) : W13 m ρ c (Proc.devRef .tc main_v20_0) = W12 m ρ c (Proc.devRef .tc main_v20_0)).trans <| rfl).trans (h0_at m ρ c)
theorem h1_at : (W14 (F := Ideal) m ρ c (Proc.devRef .tc main_v50_0) : A2 32768 256) = hv1 m c := by
  refine ((W14_arr (F := Ideal) m ρ c 4).trans (l1ArrH (atTc (W13 (F := Ideal) m ρ)) c)).trans ?_
  show lin zeroW (affine (W13 (F := Ideal) m ρ c (Proc.devRef .tc main_v20_0) : A2 32768 256) (W13 (F := Ideal) m ρ c (Proc.devRef .tc main_v45) : A2 1 256) (W13 (F := Ideal) m ρ c (Proc.devRef .tc main_v49) : A2 1 256)) (W13 (F := Ideal) m ρ c (Proc.devRef .tc main_v7) : A2 256 256) = _
  rw [hin1 m ρ c, wb1_at m ρ c, sc0_at m ρ c, sh0_at m ρ c]
  rfl
theorem s1_at : (W14 (F := Ideal) m ρ c (Proc.devRef .tc main_v50_1) : A2 16 256) = sv1 m c := by
  refine ((W14_arr (F := Ideal) m ρ c 5).trans (l1ArrA (atTc (W13 (F := Ideal) m ρ)) c)).trans ?_
  show pad 4096 4 (lin zeroW (affine (W13 (F := Ideal) m ρ c (Proc.devRef .tc main_v20_0) : A2 32768 256) (W13 (F := Ideal) m ρ c (Proc.devRef .tc main_v45) : A2 1 256) (W13 (F := Ideal) m ρ c (Proc.devRef .tc main_v49) : A2 1 256)) (W13 (F := Ideal) m ρ c (Proc.devRef .tc main_v7) : A2 256 256)) = _
  rw [hin1 m ρ c, wb1_at m ρ c, sc0_at m ρ c, sh0_at m ρ c]
  rfl
theorem q1_at : (W14 (F := Ideal) m ρ c (Proc.devRef .tc main_v50_2) : A2 16 256) = qv1 m c := by
  refine ((W14_arr (F := Ideal) m ρ c 6).trans (l1ArrB (atTc (W13 (F := Ideal) m ρ)) c)).trans ?_
  show pad 4096 4 (sq (lin zeroW (affine (W13 (F := Ideal) m ρ c (Proc.devRef .tc main_v20_0) : A2 32768 256) (W13 (F := Ideal) m ρ c (Proc.devRef .tc main_v45) : A2 1 256) (W13 (F := Ideal) m ρ c (Proc.devRef .tc main_v49) : A2 1 256)) (W13 (F := Ideal) m ρ c (Proc.devRef .tc main_v7) : A2 256 256))) = _
  rw [hin1 m ρ c, wb1_at m ρ c, sc0_at m ρ c, sh0_at m ρ c]
  rfl
/-- The host stretch after the region: its scale and shift rows. -/
theorem sc1_at : (W15 (F := Ideal) m ρ c (Proc.devRef .tc main_v75) : A2 1 256) = scv1 m c := by
  refine (Glue.scale_after_2 (W14 (F := Ideal) m ρ c)).trans ?_
  rw [main_arg7_at14 m ρ c, s1_at m ρ c, q1_at m ρ c]
  rfl
theorem sh1_at : (W15 (F := Ideal) m ρ c (Proc.devRef .tc main_v79) : A2 1 256) = shv1 m c := by
  refine (Glue.shift_after_2 (W14 (F := Ideal) m ρ c)).trans ?_
  rw [main_arg7_at14 m ρ c, main_arg12_at14 m ρ c, s1_at m ρ c, q1_at m ρ c]
  rfl

/-- The previous layer's products, unchanged by the host stretch in between. -/
theorem hin2 : (W15 (F := Ideal) m ρ c (Proc.devRef .tc main_v50_0) : A2 32768 256) = hv1 m c :=
  ((StableHlo.after_of_writes_sub hostOps2 _ hostOps2_writes (by decide) : W15 m ρ c (Proc.devRef .tc main_v50_0) = W14 m ρ c (Proc.devRef .tc main_v50_0)).trans <| rfl).trans (h1_at m ρ c)
theorem h2_at : (W16 (F := Ideal) m ρ c (Proc.devRef .tc main_v80_0) : A2 32768 256) = hv2 m c := by
  refine ((W16_arr (F := Ideal) m ρ c 4).trans (l2ArrH (atTc (W15 (F := Ideal) m ρ)) c)).trans ?_
  show lin zeroW (affine (W15 (F := Ideal) m ρ c (Proc.devRef .tc main_v50_0) : A2 32768 256) (W15 (F := Ideal) m ρ c (Proc.devRef .tc main_v75) : A2 1 256) (W15 (F := Ideal) m ρ c (Proc.devRef .tc main_v79) : A2 1 256)) (W15 (F := Ideal) m ρ c (Proc.devRef .tc main_v11) : A2 256 256) = _
  rw [hin2 m ρ c, wb2_at m ρ c, sc1_at m ρ c, sh1_at m ρ c]
  rfl
theorem s2_at : (W16 (F := Ideal) m ρ c (Proc.devRef .tc main_v80_1) : A2 16 256) = sv2 m c := by
  refine ((W16_arr (F := Ideal) m ρ c 5).trans (l2ArrA (atTc (W15 (F := Ideal) m ρ)) c)).trans ?_
  show pad 4096 4 (lin zeroW (affine (W15 (F := Ideal) m ρ c (Proc.devRef .tc main_v50_0) : A2 32768 256) (W15 (F := Ideal) m ρ c (Proc.devRef .tc main_v75) : A2 1 256) (W15 (F := Ideal) m ρ c (Proc.devRef .tc main_v79) : A2 1 256)) (W15 (F := Ideal) m ρ c (Proc.devRef .tc main_v11) : A2 256 256)) = _
  rw [hin2 m ρ c, wb2_at m ρ c, sc1_at m ρ c, sh1_at m ρ c]
  rfl
theorem q2_at : (W16 (F := Ideal) m ρ c (Proc.devRef .tc main_v80_2) : A2 16 256) = qv2 m c := by
  refine ((W16_arr (F := Ideal) m ρ c 6).trans (l2ArrB (atTc (W15 (F := Ideal) m ρ)) c)).trans ?_
  show pad 4096 4 (sq (lin zeroW (affine (W15 (F := Ideal) m ρ c (Proc.devRef .tc main_v50_0) : A2 32768 256) (W15 (F := Ideal) m ρ c (Proc.devRef .tc main_v75) : A2 1 256) (W15 (F := Ideal) m ρ c (Proc.devRef .tc main_v79) : A2 1 256)) (W15 (F := Ideal) m ρ c (Proc.devRef .tc main_v11) : A2 256 256))) = _
  rw [hin2 m ρ c, wb2_at m ρ c, sc1_at m ρ c, sh1_at m ρ c]
  rfl
/-- The host stretch after the region: its scale and shift rows. -/
theorem sc2_at : (W17 (F := Ideal) m ρ c (Proc.devRef .tc main_v105) : A2 1 256) = scv2 m c := by
  refine (Glue.scale_after_3 (W16 (F := Ideal) m ρ c)).trans ?_
  rw [main_arg8_at16 m ρ c, s2_at m ρ c, q2_at m ρ c]
  rfl
theorem sh2_at : (W17 (F := Ideal) m ρ c (Proc.devRef .tc main_v109) : A2 1 256) = shv2 m c := by
  refine (Glue.shift_after_3 (W16 (F := Ideal) m ρ c)).trans ?_
  rw [main_arg8_at16 m ρ c, main_arg13_at16 m ρ c, s2_at m ρ c, q2_at m ρ c]
  rfl

/-- The previous layer's products, unchanged by the host stretch in between. -/
theorem hin3 : (W17 (F := Ideal) m ρ c (Proc.devRef .tc main_v80_0) : A2 32768 256) = hv2 m c :=
  ((StableHlo.after_of_writes_sub hostOps3 _ hostOps3_writes (by decide) : W17 m ρ c (Proc.devRef .tc main_v80_0) = W16 m ρ c (Proc.devRef .tc main_v80_0)).trans <| rfl).trans (h2_at m ρ c)
theorem h3_at : (W18 (F := Ideal) m ρ c (Proc.devRef .tc main_v110_0) : A2 32768 256) = hv3 m c := by
  refine ((W18_arr (F := Ideal) m ρ c 4).trans (l3ArrH (atTc (W17 (F := Ideal) m ρ)) c)).trans ?_
  show lin zeroW (affine (W17 (F := Ideal) m ρ c (Proc.devRef .tc main_v80_0) : A2 32768 256) (W17 (F := Ideal) m ρ c (Proc.devRef .tc main_v105) : A2 1 256) (W17 (F := Ideal) m ρ c (Proc.devRef .tc main_v109) : A2 1 256)) (W17 (F := Ideal) m ρ c (Proc.devRef .tc main_v15) : A2 256 256) = _
  rw [hin3 m ρ c, wb3_at m ρ c, sc2_at m ρ c, sh2_at m ρ c]
  rfl
theorem s3_at : (W18 (F := Ideal) m ρ c (Proc.devRef .tc main_v110_1) : A2 16 256) = sv3 m c := by
  refine ((W18_arr (F := Ideal) m ρ c 5).trans (l3ArrA (atTc (W17 (F := Ideal) m ρ)) c)).trans ?_
  show pad 4096 4 (lin zeroW (affine (W17 (F := Ideal) m ρ c (Proc.devRef .tc main_v80_0) : A2 32768 256) (W17 (F := Ideal) m ρ c (Proc.devRef .tc main_v105) : A2 1 256) (W17 (F := Ideal) m ρ c (Proc.devRef .tc main_v109) : A2 1 256)) (W17 (F := Ideal) m ρ c (Proc.devRef .tc main_v15) : A2 256 256)) = _
  rw [hin3 m ρ c, wb3_at m ρ c, sc2_at m ρ c, sh2_at m ρ c]
  rfl
theorem q3_at : (W18 (F := Ideal) m ρ c (Proc.devRef .tc main_v110_2) : A2 16 256) = qv3 m c := by
  refine ((W18_arr (F := Ideal) m ρ c 6).trans (l3ArrB (atTc (W17 (F := Ideal) m ρ)) c)).trans ?_
  show pad 4096 4 (sq (lin zeroW (affine (W17 (F := Ideal) m ρ c (Proc.devRef .tc main_v80_0) : A2 32768 256) (W17 (F := Ideal) m ρ c (Proc.devRef .tc main_v105) : A2 1 256) (W17 (F := Ideal) m ρ c (Proc.devRef .tc main_v109) : A2 1 256)) (W17 (F := Ideal) m ρ c (Proc.devRef .tc main_v15) : A2 256 256))) = _
  rw [hin3 m ρ c, wb3_at m ρ c, sc2_at m ρ c, sh2_at m ρ c]
  rfl
/-- The host stretch after the region: its scale and shift rows. -/
theorem sc3_at : (W19 (F := Ideal) m ρ c (Proc.devRef .tc main_v135) : A2 1 256) = scv3 m c := by
  refine (Glue.scale_after_4 (W18 (F := Ideal) m ρ c)).trans ?_
  rw [main_arg9_at18 m ρ c, s3_at m ρ c, q3_at m ρ c]
  rfl
theorem sh3_at : (W19 (F := Ideal) m ρ c (Proc.devRef .tc main_v139) : A2 1 256) = shv3 m c := by
  refine (Glue.shift_after_4 (W18 (F := Ideal) m ρ c)).trans ?_
  rw [main_arg9_at18 m ρ c, main_arg14_at18 m ρ c, s3_at m ρ c, q3_at m ρ c]
  rfl

/-- The previous layer's products, unchanged by the host stretch in between. -/
theorem hin4 : (W19 (F := Ideal) m ρ c (Proc.devRef .tc main_v110_0) : A2 32768 256) = hv3 m c :=
  ((StableHlo.after_of_writes_sub hostOps4 _ hostOps4_writes (by decide) : W19 m ρ c (Proc.devRef .tc main_v110_0) = W18 m ρ c (Proc.devRef .tc main_v110_0)).trans <| rfl).trans (h3_at m ρ c)
theorem h4_at : (W20 (F := Ideal) m ρ c (Proc.devRef .tc main_v140_0) : A2 32768 10) = hv4 m c := by
  refine ((W20_arr (F := Ideal) m ρ c 4).trans (l4ArrH (atTc (W19 (F := Ideal) m ρ)) c)).trans ?_
  show lin zeroW (affine (W19 (F := Ideal) m ρ c (Proc.devRef .tc main_v110_0) : A2 32768 256) (W19 (F := Ideal) m ρ c (Proc.devRef .tc main_v135) : A2 1 256) (W19 (F := Ideal) m ρ c (Proc.devRef .tc main_v139) : A2 1 256)) (W19 (F := Ideal) m ρ c (Proc.devRef .tc main_v19) : A2 10 256) = _
  rw [hin4 m ρ c, wb4_at m ρ c, sc3_at m ρ c, sh3_at m ρ c]
  rfl
theorem s4_at : (W20 (F := Ideal) m ρ c (Proc.devRef .tc main_v140_1) : A2 16 10) = sv4 m c := by
  refine ((W20_arr (F := Ideal) m ρ c 5).trans (l4ArrA (atTc (W19 (F := Ideal) m ρ)) c)).trans ?_
  show pad 4096 4 (lin zeroW (affine (W19 (F := Ideal) m ρ c (Proc.devRef .tc main_v110_0) : A2 32768 256) (W19 (F := Ideal) m ρ c (Proc.devRef .tc main_v135) : A2 1 256) (W19 (F := Ideal) m ρ c (Proc.devRef .tc main_v139) : A2 1 256)) (W19 (F := Ideal) m ρ c (Proc.devRef .tc main_v19) : A2 10 256)) = _
  rw [hin4 m ρ c, wb4_at m ρ c, sc3_at m ρ c, sh3_at m ρ c]
  rfl
theorem q4_at : (W20 (F := Ideal) m ρ c (Proc.devRef .tc main_v140_2) : A2 16 10) = qv4 m c := by
  refine ((W20_arr (F := Ideal) m ρ c 6).trans (l4ArrB (atTc (W19 (F := Ideal) m ρ)) c)).trans ?_
  show pad 4096 4 (sq (lin zeroW (affine (W19 (F := Ideal) m ρ c (Proc.devRef .tc main_v110_0) : A2 32768 256) (W19 (F := Ideal) m ρ c (Proc.devRef .tc main_v135) : A2 1 256) (W19 (F := Ideal) m ρ c (Proc.devRef .tc main_v139) : A2 1 256)) (W19 (F := Ideal) m ρ c (Proc.devRef .tc main_v19) : A2 10 256))) = _
  rw [hin4 m ρ c, wb4_at m ρ c, sc3_at m ρ c, sh3_at m ρ c]
  rfl
/-- The host stretch after the region: its scale and shift rows. -/
theorem sc4_at : (W21 (F := Ideal) m ρ c (Proc.devRef .tc main_v165) : A2 1 10) = scv4 m c := by
  refine (Glue.scale_after_5 (W20 (F := Ideal) m ρ c)).trans ?_
  rw [main_arg10_at20 m ρ c, s4_at m ρ c, q4_at m ρ c]
  rfl
theorem sh4_at : (W21 (F := Ideal) m ρ c (Proc.devRef .tc main_v169) : A2 1 10) = shv4 m c := by
  refine (Glue.shift_after_5 (W20 (F := Ideal) m ρ c)).trans ?_
  rw [main_arg10_at20 m ρ c, main_arg15_at20 m ρ c, s4_at m ρ c, q4_at m ρ c]
  rfl

theorem hin5 : (W21 (F := Ideal) m ρ c (Proc.devRef .tc main_v140_0) : A2 32768 10) = hv4 m c :=
  ((StableHlo.after_of_writes_sub hostOps5 _ hostOps5_writes (by decide) : W21 m ρ c (Proc.devRef .tc main_v140_0) = W20 m ρ c (Proc.devRef .tc main_v140_0)).trans <| rfl).trans (h4_at m ρ c)

theorem kernelValue :
    (W22 (F := Ideal) m ρ c (Proc.devRef .tc main_v170) : A2 32768 10)
      = KSpec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [net_unfold]
  refine ((W22_arr (F := Ideal) m ρ c 3).trans (smArr (atTc (W21 (F := Ideal) m ρ)) c)).trans ?_
  show softK (W21 (F := Ideal) m ρ c (Proc.devRef .tc main_v140_0) : A2 32768 10) (W21 (F := Ideal) m ρ c (Proc.devRef .tc main_v165) : A2 1 10) (W21 (F := Ideal) m ρ c (Proc.devRef .tc main_v169) : A2 1 10) = _
  rw [hin5 m ρ c, sc4_at m ρ c, sh4_at m ρ c]

end Cert.KernelIdeal.Hand

end
-- ==== Proof.FinElem.lean ====
/-
  Finiteness read back from a printed "every entry is finite" predicate, one array at a time, at the extended reals.

  The predicate compares the absolute value of every entry with the word `0x7F800000` (which denotes +∞), strictly,
  and reduces the resulting bits by `and` from the bit 1 over all axes. If the reduced bit is 1 then every
  comparison bit is 1, that is `max x (-x) < ⊤` for every entry `x`; an extended real with that property is neither
  `⊤` nor `⊥`, so it is a real number.
-/
import Idealize.ShloMosaic.Lib.ReduceAll
import Idealize.ShloMosaic.Lib.IdealHost

noncomputable section

namespace Cert.KernelIdeal.Finite

open Idealize.ShloMosaic Idealize.ShloMosaic.ValueIdx

/-- The scalar shape has one index. -/
instance subsingleton_scalarIdx : Subsingleton (⟨0, ![]⟩ : Shape).Idx := ⟨fun a b => funext fun d => d.elim0⟩

/-- The word `0x7F800000` denotes +∞. -/
theorem ofBits_inf_f32 : Ideal.ofBits .f32 0x7F800000#32 = ⊤ := by simp [Ideal.ofBits, Ideal.ieee]

/-- An extended real whose absolute value is strictly below +∞ is a real number. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- One array of the predicate: if "all entries have absolute value below +∞" reduces to the bit 1, every entry is a
    real number. Any shape, any choice of the axes reduced over, provided the result is a scalar. -/
theorem finite_of_all {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
          (constantI ⟨0, ![]⟩ 1 1#1) hr hu ix0 = 1#1) (i : s.Idx) : ∃ r : ℝ, a i = (r : EReal) :=
  real_of_abs_lt_inf (a i) (Host.reduce_andi_all _ _ hr hu ix0 e i)

/-- A conjunction of two scalar bits that is 1 has both bits 1. -/
theorem both_of_andi {s : Shape} (x y : IVec s 1) (i : s.Idx) (h : andi x y i = 1#1) : x i = 1#1 ∧ y i = 1#1 :=
  IntOp.andi_eq_one.1 h

end Cert.KernelIdeal.Finite

end
-- ==== Proof.FinPre.lean ====
/-
  The precondition, decoded: under "every float input is finite" each of the program's sixteen argument arrays holds a
  real number at every index, on every device.

  The printed predicate takes, for each array, the bit "all entries have absolute value strictly below +∞", and
  conjoins the sixteen bits in a left-nested chain. The chain being 1 gives each bit 1 (fifteen splits), and each bit
  gives the entries of its array real (`finite_of_all`).
-/
import proofs.«126670_j49074296324140_2_alg».proof.Defs
import proofs.«126670_j49074296324140_2_alg».proof.Proof.Gen.Pre_finite_inputs
import proofs.«126670_j49074296324140_2_alg».proof.Proof.FinElem

noncomputable section

namespace Cert.KernelIdeal.Finite

open Idealize.ShloMosaic Idealize.ShloMosaic.ValueIdx Idealize.SL.Sem

/-- Under the precondition every entry of every argument array is a real number: sixteen conjuncts, in the
    arguments' order. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S32768x784.Idx, ∃ r : ℝ, (m ((c.tc : Thread Cert.KernelIdeal.nD Cert.KernelIdeal.τ).loc Cert.KernelIdeal.main_arg0) : Cert.KernelIdeal.S32768x784.Idx → EReal) i = (r : EReal))
    ∧ (∀ i : Cert.KernelIdeal.S256x784.Idx, ∃ r : ℝ, (m ((c.tc : Thread Cert.KernelIdeal.nD Cert.KernelIdeal.τ).loc Cert.KernelIdeal.main_arg1) : Cert.KernelIdeal.S256x784.Idx → EReal) i = (r : EReal))
    ∧ (∀ i : Cert.KernelIdeal.S256x256.Idx, ∃ r : ℝ, (m ((c.tc : Thread Cert.KernelIdeal.nD Cert.KernelIdeal.τ).loc Cert.KernelIdeal.main_arg2) : Cert.KernelIdeal.S256x256.Idx → EReal) i = (r : EReal))
    ∧ (∀ i : Cert.KernelIdeal.S256x256.Idx, ∃ r : ℝ, (m ((c.tc : Thread Cert.KernelIdeal.nD Cert.KernelIdeal.τ).loc Cert.KernelIdeal.main_arg3) : Cert.KernelIdeal.S256x256.Idx → EReal) i = (r : EReal))
    ∧ (∀ i : Cert.KernelIdeal.S256x256.Idx, ∃ r : ℝ, (m ((c.tc : Thread Cert.KernelIdeal.nD Cert.KernelIdeal.τ).loc Cert.KernelIdeal.main_arg4) : Cert.KernelIdeal.S256x256.Idx → EReal) i = (r : EReal))
    ∧ (∀ i : Cert.KernelIdeal.S10x256.Idx, ∃ r : ℝ, (m ((c.tc : Thread Cert.KernelIdeal.nD Cert.KernelIdeal.τ).loc Cert.KernelIdeal.main_arg5) : Cert.KernelIdeal.S10x256.Idx → EReal) i = (r : EReal))
    ∧ (∀ i : Cert.KernelIdeal.S256.Idx, ∃ r : ℝ, (m ((c.tc : Thread Cert.KernelIdeal.nD Cert.KernelIdeal.τ).loc Cert.KernelIdeal.main_arg6) : Cert.KernelIdeal.S256.Idx → EReal) i = (r : EReal))
    ∧ (∀ i : Cert.KernelIdeal.S256.Idx, ∃ r : ℝ, (m ((c.tc : Thread Cert.KernelIdeal.nD Cert.KernelIdeal.τ).loc Cert.KernelIdeal.main_arg7) : Cert.KernelIdeal.S256.Idx → EReal) i = (r : EReal))
    ∧ (∀ i : Cert.KernelIdeal.S256.Idx, ∃ r : ℝ, (m ((c.tc : Thread Cert.KernelIdeal.nD Cert.KernelIdeal.τ).loc Cert.KernelIdeal.main_arg8) : Cert.KernelIdeal.S256.Idx → EReal) i = (r : EReal))
    ∧ (∀ i : Cert.KernelIdeal.S256.Idx, ∃ r : ℝ, (m ((c.tc : Thread Cert.KernelIdeal.nD Cert.KernelIdeal.τ).loc Cert.KernelIdeal.main_arg9) : Cert.KernelIdeal.S256.Idx → EReal) i = (r : EReal))
    ∧ (∀ i : Cert.KernelIdeal.S10.Idx, ∃ r : ℝ, (m ((c.tc : Thread Cert.KernelIdeal.nD Cert.KernelIdeal.τ).loc Cert.KernelIdeal.main_arg10) : Cert.KernelIdeal.S10.Idx → EReal) i = (r : EReal))
    ∧ (∀ i : Cert.KernelIdeal.S256.Idx, ∃ r : ℝ, (m ((c.tc : Thread Cert.KernelIdeal.nD Cert.KernelIdeal.τ).loc Cert.KernelIdeal.main_arg11) : Cert.KernelIdeal.S256.Idx → EReal) i = (r : EReal))
    ∧ (∀ i : Cert.KernelIdeal.S256.Idx, ∃ r : ℝ, (m ((c.tc : Thread Cert.KernelIdeal.nD Cert.KernelIdeal.τ).loc Cert.KernelIdeal.main_arg12) : Cert.KernelIdeal.S256.Idx → EReal) i = (r : EReal))
    ∧ (∀ i : Cert.KernelIdeal.S256.Idx, ∃ r : ℝ, (m ((c.tc : Thread Cert.KernelIdeal.nD Cert.KernelIdeal.τ).loc Cert.KernelIdeal.main_arg13) : Cert.KernelIdeal.S256.Idx → EReal) i = (r : EReal))
    ∧ (∀ i : Cert.KernelIdeal.S256.Idx, ∃ r : ℝ, (m ((c.tc : Thread Cert.KernelIdeal.nD Cert.KernelIdeal.τ).loc Cert.KernelIdeal.main_arg14) : Cert.KernelIdeal.S256.Idx → EReal) i = (r : EReal))
    ∧ (∀ i : Cert.KernelIdeal.S10.Idx, ∃ r : ℝ, (m ((c.tc : Thread Cert.KernelIdeal.nD Cert.KernelIdeal.τ).loc Cert.KernelIdeal.main_arg15) : Cert.KernelIdeal.S10.Idx → EReal) i = (r : EReal)) := by
  have h0 := congrFun (h c) ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, e15⟩ := both_of_andi _ _ _ h0
  obtain ⟨h0, e14⟩ := both_of_andi _ _ _ h0
  obtain ⟨h0, e13⟩ := both_of_andi _ _ _ h0
  obtain ⟨h0, e12⟩ := both_of_andi _ _ _ h0
  obtain ⟨h0, e11⟩ := both_of_andi _ _ _ h0
  obtain ⟨h0, e10⟩ := both_of_andi _ _ _ h0
  obtain ⟨h0, e9⟩ := both_of_andi _ _ _ h0
  obtain ⟨h0, e8⟩ := both_of_andi _ _ _ h0
  obtain ⟨h0, e7⟩ := both_of_andi _ _ _ h0
  obtain ⟨h0, e6⟩ := both_of_andi _ _ _ h0
  obtain ⟨h0, e5⟩ := both_of_andi _ _ _ h0
  obtain ⟨h0, e4⟩ := both_of_andi _ _ _ h0
  obtain ⟨h0, e3⟩ := both_of_andi _ _ _ h0
  obtain ⟨h0, e2⟩ := both_of_andi _ _ _ h0
  obtain ⟨e0, e1⟩ := both_of_andi _ _ _ h0
  exact ⟨fun i => finite_of_all _ _ _ _ e0 i,
    fun i => finite_of_all _ _ _ _ e1 i,
    fun i => finite_of_all _ _ _ _ e2 i,
    fun i => finite_of_all _ _ _ _ e3 i,
    fun i => finite_of_all _ _ _ _ e4 i,
    fun i => finite_of_all _ _ _ _ e5 i,
    fun i => finite_of_all _ _ _ _ e6 i,
    fun i => finite_of_all _ _ _ _ e7 i,
    fun i => finite_of_all _ _ _ _ e8 i,
    fun i => finite_of_all _ _ _ _ e9 i,
    fun i => finite_of_all _ _ _ _ e10 i,
    fun i => finite_of_all _ _ _ _ e11 i,
    fun i => finite_of_all _ _ _ _ e12 i,
    fun i => finite_of_all _ _ _ _ e13 i,
    fun i => finite_of_all _ _ _ _ e14 i,
    fun i => finite_of_all _ _ _ _ e15 i⟩

/-- Every entry of argument 0 is a real number. -/
theorem finite_arg0 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S32768x784.Idx, ∃ r : ℝ, (m ((c.tc : Thread Cert.KernelIdeal.nD Cert.KernelIdeal.τ).loc Cert.KernelIdeal.main_arg0) : Cert.KernelIdeal.S32768x784.Idx → EReal) i = (r : EReal)) :=
  (finite_of_pre m h c).1

/-- Every entry of argument 1 is a real number. -/
theorem finite_arg1 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256x784.Idx, ∃ r : ℝ, (m ((c.tc : Thread Cert.KernelIdeal.nD Cert.KernelIdeal.τ).loc Cert.KernelIdeal.main_arg1) : Cert.KernelIdeal.S256x784.Idx → EReal) i = (r : EReal)) :=
  (finite_of_pre m h c).2.1

/-- Every entry of argument 2 is a real number. -/
theorem finite_arg2 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256x256.Idx, ∃ r : ℝ, (m ((c.tc : Thread Cert.KernelIdeal.nD Cert.KernelIdeal.τ).loc Cert.KernelIdeal.main_arg2) : Cert.KernelIdeal.S256x256.Idx → EReal) i = (r : EReal)) :=
  (finite_of_pre m h c).2.2.1

/-- Every entry of argument 3 is a real number. -/
theorem finite_arg3 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256x256.Idx, ∃ r : ℝ, (m ((c.tc : Thread Cert.KernelIdeal.nD Cert.KernelIdeal.τ).loc Cert.KernelIdeal.main_arg3) : Cert.KernelIdeal.S256x256.Idx → EReal) i = (r : EReal)) :=
  (finite_of_pre m h c).2.2.2.1

/-- Every entry of argument 4 is a real number. -/
theorem finite_arg4 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256x256.Idx, ∃ r : ℝ, (m ((c.tc : Thread Cert.KernelIdeal.nD Cert.KernelIdeal.τ).loc Cert.KernelIdeal.main_arg4) : Cert.KernelIdeal.S256x256.Idx → EReal) i = (r : EReal)) :=
  (finite_of_pre m h c).2.2.2.2.1

/-- Every entry of argument 5 is a real number. -/
theorem finite_arg5 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S10x256.Idx, ∃ r : ℝ, (m ((c.tc : Thread Cert.KernelIdeal.nD Cert.KernelIdeal.τ).loc Cert.KernelIdeal.main_arg5) : Cert.KernelIdeal.S10x256.Idx → EReal) i = (r : EReal)) :=
  (finite_of_pre m h c).2.2.2.2.2.1

/-- Every entry of argument 6 is a real number. -/
theorem finite_arg6 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256.Idx, ∃ r : ℝ, (m ((c.tc : Thread Cert.KernelIdeal.nD Cert.KernelIdeal.τ).loc Cert.KernelIdeal.main_arg6) : Cert.KernelIdeal.S256.Idx → EReal) i = (r : EReal)) :=
  (finite_of_pre m h c).2.2.2.2.2.2.1

/-- Every entry of argument 7 is a real number. -/
theorem finite_arg7 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256.Idx, ∃ r : ℝ, (m ((c.tc : Thread Cert.KernelIdeal.nD Cert.KernelIdeal.τ).loc Cert.KernelIdeal.main_arg7) : Cert.KernelIdeal.S256.Idx → EReal) i = (r : EReal)) :=
  (finite_of_pre m h c).2.2.2.2.2.2.2.1

/-- Every entry of argument 8 is a real number. -/
theorem finite_arg8 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256.Idx, ∃ r : ℝ, (m ((c.tc : Thread Cert.KernelIdeal.nD Cert.KernelIdeal.τ).loc Cert.KernelIdeal.main_arg8) : Cert.KernelIdeal.S256.Idx → EReal) i = (r : EReal)) :=
  (finite_of_pre m h c).2.2.2.2.2.2.2.2.1

/-- Every entry of argument 9 is a real number. -/
theorem finite_arg9 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256.Idx, ∃ r : ℝ, (m ((c.tc : Thread Cert.KernelIdeal.nD Cert.KernelIdeal.τ).loc Cert.KernelIdeal.main_arg9) : Cert.KernelIdeal.S256.Idx → EReal) i = (r : EReal)) :=
  (finite_of_pre m h c).2.2.2.2.2.2.2.2.2.1

/-- Every entry of argument 10 is a real number. -/
theorem finite_arg10 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S10.Idx, ∃ r : ℝ, (m ((c.tc : Thread Cert.KernelIdeal.nD Cert.KernelIdeal.τ).loc Cert.KernelIdeal.main_arg10) : Cert.KernelIdeal.S10.Idx → EReal) i = (r : EReal)) :=
  (finite_of_pre m h c).2.2.2.2.2.2.2.2.2.2.1

/-- Every entry of argument 11 is a real number. -/
theorem finite_arg11 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256.Idx, ∃ r : ℝ, (m ((c.tc : Thread Cert.KernelIdeal.nD Cert.KernelIdeal.τ).loc Cert.KernelIdeal.main_arg11) : Cert.KernelIdeal.S256.Idx → EReal) i = (r : EReal)) :=
  (finite_of_pre m h c).2.2.2.2.2.2.2.2.2.2.2.1

/-- Every entry of argument 12 is a real number. -/
theorem finite_arg12 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256.Idx, ∃ r : ℝ, (m ((c.tc : Thread Cert.KernelIdeal.nD Cert.KernelIdeal.τ).loc Cert.KernelIdeal.main_arg12) : Cert.KernelIdeal.S256.Idx → EReal) i = (r : EReal)) :=
  (finite_of_pre m h c).2.2.2.2.2.2.2.2.2.2.2.2.1

/-- Every entry of argument 13 is a real number. -/
theorem finite_arg13 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256.Idx, ∃ r : ℝ, (m ((c.tc : Thread Cert.KernelIdeal.nD Cert.KernelIdeal.τ).loc Cert.KernelIdeal.main_arg13) : Cert.KernelIdeal.S256.Idx → EReal) i = (r : EReal)) :=
  (finite_of_pre m h c).2.2.2.2.2.2.2.2.2.2.2.2.2.1

/-- Every entry of argument 14 is a real number. -/
theorem finite_arg14 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S256.Idx, ∃ r : ℝ, (m ((c.tc : Thread Cert.KernelIdeal.nD Cert.KernelIdeal.τ).loc Cert.KernelIdeal.main_arg14) : Cert.KernelIdeal.S256.Idx → EReal) i = (r : EReal)) :=
  (finite_of_pre m h c).2.2.2.2.2.2.2.2.2.2.2.2.2.2.1

/-- Every entry of argument 15 is a real number. -/
theorem finite_arg15 (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S10.Idx, ∃ r : ℝ, (m ((c.tc : Thread Cert.KernelIdeal.nD Cert.KernelIdeal.τ).loc Cert.KernelIdeal.main_arg15) : Cert.KernelIdeal.S10.Idx → EReal) i = (r : EReal)) :=
  (finite_of_pre m h c).2.2.2.2.2.2.2.2.2.2.2.2.2.2.2

end Cert.KernelIdeal.Finite

end
-- ==== Proof.RefReadLib.lean ====
/- Array operations read at an index, over variable extents: a vector laid out as one row and copied down the rows, or as
   one column and copied along the columns, reads the vector's entry; a transposed matrix reads the swapped entry; a sum
   down the rows or along a row is the initial value plus the finite sum of the entries, a maximum along a row the fold of
   the maximum from the initial value; the matrix product of an M×K and a K×N matrix is the sum over the shared coordinate
   of the products of the entries. Each is the definition of the operation unfolded at an index given by its coordinates. -/
import Idealize.ShloMosaic.Lib.Pipeline.Value
import Idealize.ShloMosaic.Lib.IdealHost
import Idealize.ShloMosaic.PureOps.Ideal.Laws
import Idealize.ShloMosaic.Lib.StackMember
import Idealize.ShloMosaic.Lib.ValueIdx

noncomputable section

open scoped BigOperators

namespace Cert.ReferenceIdeal.Hand.ReadLib

open Idealize.ShloMosaic Idealize.ShloMosaic.ValueIdx

variable {α : Type}

/-- A vector as a one-row matrix reads the vector. -/
theorem bcast_vec_row {n : Nat} (hn : n ≠ 1) (h : (⟨1, ![n]⟩ : Shape).BroadcastsInDim ⟨2, ![1, n]⟩ ![1])
    (v : (⟨1, ![n]⟩ : Shape).Idx → α) (r : Fin 1) (j : Fin n) :
    broadcastInDim ⟨2, ![1, n]⟩ ![1] h v (ix2 r j) = v (ix1 j) :=
  broadcastInDim_apply _ h v _ (ix1 j) fun a => match a with
    | ⟨0, _⟩ => by show j.val = if n = 1 then 0 else j.val; rw [if_neg hn]

/-- A one-row matrix copied down the rows reads the row. -/
theorem bcast_row_rows {B n : Nat} (hn : n ≠ 1) (h : (⟨2, ![1, n]⟩ : Shape).BroadcastsInDim ⟨2, ![B, n]⟩ ![0, 1])
    (v : (⟨2, ![1, n]⟩ : Shape).Idx → α) (i : Fin B) (j : Fin n) :
    broadcastInDim ⟨2, ![B, n]⟩ ![0, 1] h v (ix2 i j) = v (ix2 0 j) :=
  broadcastInDim_apply _ h v _ (ix2 0 j) fun a => match a with
    | ⟨0, _⟩ => by show (0 : Nat) = if (1 : Nat) = 1 then 0 else i.val; rw [if_pos rfl]
    | ⟨1, _⟩ => by show j.val = if n = 1 then 0 else j.val; rw [if_neg hn]

/-- A vector copied down the rows, through the one-row matrix, reads the vector at the column. -/
theorem bcast_vec_rows {B n : Nat} (hn : n ≠ 1) (h1 : (⟨1, ![n]⟩ : Shape).BroadcastsInDim ⟨2, ![1, n]⟩ ![1])
    (h2 : (⟨2, ![1, n]⟩ : Shape).BroadcastsInDim ⟨2, ![B, n]⟩ ![0, 1]) (v : (⟨1, ![n]⟩ : Shape).Idx → α) (i : Fin B) (j : Fin n) :
    broadcastInDim ⟨2, ![B, n]⟩ ![0, 1] h2 (broadcastInDim ⟨2, ![1, n]⟩ ![1] h1 v) (ix2 i j) = v (ix1 j) :=
  (bcast_row_rows hn h2 _ i j).trans (bcast_vec_row hn h1 v 0 j)

/-- A vector as a one-column matrix copied along the columns reads the vector at the row. -/
theorem bcast_vec_cols {B n : Nat} (hB : B ≠ 1) (h1 : (⟨1, ![B]⟩ : Shape).BroadcastsInDim ⟨2, ![B, 1]⟩ ![0])
    (h2 : (⟨2, ![B, 1]⟩ : Shape).BroadcastsInDim ⟨2, ![B, n]⟩ ![0, 1]) (v : (⟨1, ![B]⟩ : Shape).Idx → α) (i : Fin B) (j : Fin n) :
    broadcastInDim ⟨2, ![B, n]⟩ ![0, 1] h2 (broadcastInDim ⟨2, ![B, 1]⟩ ![0] h1 v) (ix2 i j) = v (ix1 i) :=
  (broadcastInDim_apply _ h2 _ _ (ix2 i 0) fun a => match a with
    | ⟨0, _⟩ => by show i.val = if B = 1 then 0 else i.val; rw [if_neg hB]
    | ⟨1, _⟩ => by show (0 : Nat) = if (1 : Nat) = 1 then 0 else j.val; rw [if_pos rfl]).trans
  (broadcastInDim_apply _ h1 v _ (ix1 i) fun a => match a with
    | ⟨0, _⟩ => by show i.val = if B = 1 then 0 else i.val; rw [if_neg hB])

/-- A transposed matrix reads the swapped entry. -/
theorem transpose_ix2 {a b : Nat} (h : (⟨2, ![a, b]⟩ : Shape).Transposes [1, 0] ⟨2, ![b, a]⟩)
    (x : (⟨2, ![a, b]⟩ : Shape).Idx → α) (i : Fin b) (j : Fin a) :
    transpose ⟨2, ![b, a]⟩ [1, 0] x h (ix2 i j) = x (ix2 j i) :=
  transpose_apply [1, 0] x h (ix2 i j) (ix2 j i) fun bb => match bb with
    | ⟨0, _⟩ => rfl
    | ⟨1, _⟩ => rfl

/-- The sums down the rows: the initial value plus the column's sum. -/
theorem colsum_apply {B n : Nat} (h' : (⟨2, ![B, n]⟩ : Shape).ReducesTo [0] ⟨1, ![n]⟩)
    (h : (⟨2, ![B, n]⟩ : Shape).Reduces [0] ⟨1, ![n]⟩) (hu : 0 < (⟨0, ![]⟩ : Shape).numel)
    (x : FVec Ideal ⟨2, ![B, n]⟩ .f32) (init : (⟨0, ![]⟩ : Shape).Idx → EReal) (j : Fin n) :
    Host.reduceAdd x init h' hu (ix1 j) = init ix0 + ∑ k : Fin B, x (ix2 k j) := by
  rw [hostReduceAdd_apply, Ideal.hostReduceAdd_single h' h, eq_ix0 (Shape.Idx.first hu)]
  refine congrArg (init ix0 + ·) (Finset.sum_congr rfl fun k _ => congrArg x ?_)
  funext c
  match c with
  | ⟨0, _⟩ => rfl
  | ⟨1, _⟩ => rfl

/-- The sums along the rows: the initial value plus the row's sum. -/
theorem rowsum_apply {B n : Nat} (h' : (⟨2, ![B, n]⟩ : Shape).ReducesTo [1] ⟨1, ![B]⟩)
    (h : (⟨2, ![B, n]⟩ : Shape).Reduces [1] ⟨1, ![B]⟩) (hu : 0 < (⟨0, ![]⟩ : Shape).numel)
    (x : FVec Ideal ⟨2, ![B, n]⟩ .f32) (init : (⟨0, ![]⟩ : Shape).Idx → EReal) (i : Fin B) :
    Host.reduceAdd x init h' hu (ix1 i) = init ix0 + ∑ l : Fin n, x (ix2 i l) := by
  rw [hostReduceAdd_apply, Ideal.hostReduceAdd_single h' h, eq_ix0 (Shape.Idx.first hu)]
  refine congrArg (init ix0 + ·) (Finset.sum_congr rfl fun k _ => congrArg x ?_)
  funext c
  match c with
  | ⟨0, _⟩ => rfl
  | ⟨1, _⟩ => rfl

/-- The maxima along the rows: the maximum folded over the row from the initial value. -/
theorem rowmax_apply {B n : Nat} (h' : (⟨2, ![B, n]⟩ : Shape).ReducesTo [1] ⟨1, ![B]⟩)
    (h : (⟨2, ![B, n]⟩ : Shape).Reduces [1] ⟨1, ![B]⟩) (hu : 0 < (⟨0, ![]⟩ : Shape).numel)
    (x : FVec Ideal ⟨2, ![B, n]⟩ .f32) (init : (⟨0, ![]⟩ : Shape).Idx → EReal) (i : Fin B) :
    Host.reduce (FloatOps.maximumf (F := Ideal) (φ := .f32)) x init h' hu (ix1 i)
      = (Finset.univ : Finset (Fin n)).fold max (init ix0) fun l => x (ix2 i l) := by
  rw [Host.reduce_eq_fold_single _ x init h' h hu, eq_ix0 (Shape.Idx.first hu)]
  refine congrArg (Finset.fold _ _ · _) ?_
  funext l
  refine congrArg x ?_
  funext c
  match c with
  | ⟨0, _⟩ => rfl
  | ⟨1, _⟩ => rfl

/-- The product of an M×K and a K×N matrix. -/
theorem dot_apply {M K N : Nat} (wf : DotDims.WF ⟨2, ![M, K]⟩ ⟨2, ![K, N]⟩ ⟨2, ![M, N]⟩ [1] [0] [0] [1] [] [])
    (A : FVec Ideal ⟨2, ![M, K]⟩ .f32) (Bm : FVec Ideal ⟨2, ![K, N]⟩ .f32) (a : Fin M) (b : Fin N) :
    Host.dotGeneral (⟨[1], [0], [0], [1], [], [], wf⟩ : DotDims ⟨2, ![M, K]⟩ ⟨2, ![K, N]⟩ ⟨2, ![M, N]⟩) none A Bm (ix2 a b)
      = ∑ c : Fin K, A (ix2 a c) * Bm (ix2 c b) :=
  StackMember.dotGeneral_plain_apply none A Bm a b

end Cert.ReferenceIdeal.Hand.ReadLib

end
-- ==== Proof.RefRead.lean ====
/- The reference's composed term read index by index at the ideal values: each stage function of the run's term is the
   corresponding function of the index-wise statement of the network, and so the run's term is that network of the sixteen
   argument buffers. A broadcast constant reads the constant's word; a comparison, a selection, a difference, a product, a
   quotient, an inverse square root and an exponential read entry by entry; a vector copied down the rows reads the
   vector's entry and a transposed matrix the swapped entry; a matrix product is the sum over the shared coordinate, a
   column sum the zero word plus the sum, and the zero word is zero. In the variance the row count's word is 32768, the
   correction converts the integer zero, so the guard "count above zero" holds and the count is the row count's word. -/
import proofs.«126670_j49074296324140_2_alg».proof.Proof.RefTerm
import proofs.«126670_j49074296324140_2_alg».proof.Proof.RefSpec
import proofs.«126670_j49074296324140_2_alg».proof.Proof.RefReadLib

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx

/-- The row count's word is 32768. -/
theorem wRows_val : Ideal.ofBits .f32 0x47000000#32 = ((32768 : ℝ) : EReal) := by
  simp [Ideal.ofBits, Ideal.ieee, -EReal.coe_mul]; norm_num

/-- The variance's count at its one index: the row count's word less the converted integer zero, which is the word. -/
theorem count_apply (i : S_.Idx) : count (F := Ideal) i = RefSpec.wRows := by
  show Ideal.ofBits .f32 0x47000000#32 - (((0#32 : BitVec 32).toInt : ℝ) : EReal) = _
  simp

/-- The variance's guard holds: the count is above zero. -/
theorem guard_apply (i : S_.Idx) :
    cmpf (F := Ideal) (s := S_) (φ := .f32) .ogt (count (F := Ideal)) (constant S_ .f32 0x00000000#32) i = 1#1 := by
  show Ideal.cmp .ogt (count (F := Ideal) i) (Ideal.ofBits .f32 0x00000000#32) = 1#1
  rw [count_apply, Ideal.ofBits_zero_f32]
  show BitVec.ofBool (decide ((0 : EReal) < Ideal.ofBits .f32 0x47000000#32)) = 1#1
  rw [wRows_val]
  have : (0 : EReal) < ((32768 : ℝ) : EReal) := by exact_mod_cast (by norm_num : (0 : ℝ) < 32768)
  simp [this]

/-- The first layer's product: of the binarized input less one half and the binarized weight. -/
theorem hid0_eq (x : (⟨S32768x784, .f32⟩ : BufTy).Contents (Elt Ideal)) (w : (⟨S256x784, .f32⟩ : BufTy).Contents (Elt Ideal)) :
    hid0 x w = RefSpec.arr (RefSpec.prod (fun p => x p - RefSpec.wHalf) w) := by
  funext q
  obtain ⟨i, j, rfl⟩ : ∃ (i : Fin 32768) (j : Fin 256), q = ix2 i j := ⟨q 0, q 1, eq_ix2 q⟩
  unfold hid0
  refine (ReadLib.dot_apply _ _ _ i j).trans ?_
  rw [RefSpec.arr_ix2]; unfold RefSpec.prod
  refine Finset.sum_congr rfl fun l _ => ?_
  rw [ReadLib.transpose_ix2]
  rfl

/-- A middle layer's product: of the binarized activations and the binarized weight. -/
theorem lin256_eq (o : (⟨S32768x256, .f32⟩ : BufTy).Contents (Elt Ideal)) (w : (⟨S256x256, .f32⟩ : BufTy).Contents (Elt Ideal)) :
    lin256 o w = RefSpec.arr (RefSpec.prod o w) := by
  funext q
  obtain ⟨i, j, rfl⟩ : ∃ (i : Fin 32768) (j : Fin 256), q = ix2 i j := ⟨q 0, q 1, eq_ix2 q⟩
  unfold lin256
  refine (ReadLib.dot_apply _ _ _ i j).trans ?_
  rw [RefSpec.arr_ix2]; unfold RefSpec.prod
  refine Finset.sum_congr rfl fun l _ => ?_
  rw [ReadLib.transpose_ix2]
  rfl

/-- The last layer's product. -/
theorem lin10_eq (o : (⟨S32768x256, .f32⟩ : BufTy).Contents (Elt Ideal)) (w : (⟨S10x256, .f32⟩ : BufTy).Contents (Elt Ideal)) :
    lin10 o w = RefSpec.arr (RefSpec.prod o w) := by
  funext q
  obtain ⟨i, j, rfl⟩ : ∃ (i : Fin 32768) (j : Fin 10), q = ix2 i j := ⟨q 0, q 1, eq_ix2 q⟩
  unfold lin10
  refine (ReadLib.dot_apply _ _ _ i j).trans ?_
  rw [RefSpec.arr_ix2]; unfold RefSpec.prod
  refine Finset.sum_congr rfl fun l _ => ?_
  rw [ReadLib.transpose_ix2]
  rfl

/-- The column sums: the zero word plus the sum down the rows. -/
theorem sum256_apply (h : (⟨S32768x256, .f32⟩ : BufTy).Contents (Elt Ideal)) (j : Fin 256) :
    sum256 h (ix1 j) = RefSpec.wZero + ∑ i : Fin 32768, h (ix2 i j) := by
  unfold sum256
  exact ReadLib.colsum_apply reducesTo_S32768x256_S256_d0 (by decide) h_S_ h _ j

/-- The column means of the column sums. -/
theorem mean256_sum_apply (h : (⟨S32768x256, .f32⟩ : BufTy).Contents (Elt Ideal)) (j : Fin 256) :
    mean256 (sum256 h) (ix1 j) = RefSpec.mean h j := by
  show Ideal.div (sum256 h (ix1 j)) (Ideal.ofBits .f32 0x47000000#32) = _
  rw [sum256_apply, show RefSpec.wZero = 0 from Ideal.ofBits_zero_f32, zero_add]
  rfl

/-- The deviations the variance takes: the entry less its column's mean. -/
theorem dev256_apply (h : (⟨S32768x256, .f32⟩ : BufTy).Contents (Elt Ideal)) (i : Fin 32768) (j : Fin 256) :
    dev256 h (ix2 i j) = h (ix2 i j) - RefSpec.mean h j := by
  unfold dev256
  show h (ix2 i j) - broadcastInDim S32768x256 ![0, 1] bcast_S1x256_S32768x256_0_1 (Host.divf (broadcastInDim S1x256 ![1] bcast_S256_S1x256_1 (sum256 h)) (broadcastInDim S1x256 ![] bcast_S_S1x256 (constant S_ .f32 0x47000000#32))) (ix2 i j) = _
  rw [ReadLib.bcast_row_rows (n := 256) (by decide)]
  show h (ix2 i j) - Ideal.div (broadcastInDim S1x256 ![1] bcast_S256_S1x256_1 (sum256 h) (ix2 0 j)) (Ideal.ofBits .f32 0x47000000#32) = _
  rw [ReadLib.bcast_vec_row (n := 256) (by decide), sum256_apply, show RefSpec.wZero = 0 from Ideal.ofBits_zero_f32, zero_add]
  rfl

/-- The guarded variance: the guard holds and the count is the row count's word. -/
theorem var256_apply (h : (⟨S32768x256, .f32⟩ : BufTy).Contents (Elt Ideal)) (j : Fin 256) :
    var256 h (ix1 j) = RefSpec.var h j := by
  unfold var256
  show Scalar.select (cmpf (F := Ideal) (s := S_) (φ := .f32) .ogt (count (F := Ideal)) (constant S_ .f32 0x00000000#32) _)
      (Ideal.div (Host.reduceAdd (mulf (dev256 h) (dev256 h)) (constant S_ .f32 0x00000000#32) reducesTo_S32768x256_S256_d0 h_S_ (ix1 j)) (count (F := Ideal) _)) _ = _
  rw [guard_apply, ValueIdx.select_one, count_apply, ReadLib.colsum_apply reducesTo_S32768x256_S256_d0 (by decide) h_S_]
  unfold RefSpec.var
  rw [show (constant S_ .f32 0x00000000#32 : S_.Idx → Ideal .f32) ix0 = 0 from Ideal.ofBits_zero_f32, zero_add]
  have hd : ∀ i : Fin 32768, mulf (dev256 h) (dev256 h) (ix2 i j)
      = (h (ix2 i j) - RefSpec.mean h j) * (h (ix2 i j) - RefSpec.mean h j) := fun i => by
    show dev256 h (ix2 i j) * dev256 h (ix2 i j) = _
    rw [dev256_apply]
  simp only [hd]

/-- The normalization: scale times deviation times the inverse root of the variance plus ε, plus the shift. -/
theorem norm256_eq (h : (⟨S32768x256, .f32⟩ : BufTy).Contents (Elt Ideal)) (g b : (⟨S256, .f32⟩ : BufTy).Contents (Elt Ideal)) :
    norm256 h g b = RefSpec.arr (RefSpec.norm h g b) := by
  funext q
  obtain ⟨i, j, rfl⟩ : ∃ (i : Fin 32768) (j : Fin 256), q = ix2 i j := ⟨q 0, q 1, eq_ix2 q⟩
  unfold norm256 normM256
  show broadcastInDim S32768x256 ![0, 1] bcast_S1x256_S32768x256_0_1 (broadcastInDim S1x256 ![1] bcast_S256_S1x256_1 (g)) (ix2 i j) * (h (ix2 i j) - broadcastInDim S32768x256 ![0, 1] bcast_S1x256_S32768x256_0_1 (broadcastInDim S1x256 ![1] bcast_S256_S1x256_1 (mean256 (sum256 h))) (ix2 i j))
      * broadcastInDim S32768x256 ![0, 1] bcast_S1x256_S32768x256_0_1 (broadcastInDim S1x256 ![1] bcast_S256_S1x256_1 (Host.rsqrt (addf (var256 h) (broadcastInDim S256 ![] bcast_S_S256 (constant S_ .f32 0x3727C5AC#32))))) (ix2 i j)
      + broadcastInDim S32768x256 ![0, 1] bcast_S1x256_S32768x256_0_1 (broadcastInDim S1x256 ![1] bcast_S256_S1x256_1 (b)) (ix2 i j) = _
  rw [ReadLib.bcast_vec_rows (n := 256) (by decide), ReadLib.bcast_vec_rows (n := 256) (by decide),
    ReadLib.bcast_vec_rows (n := 256) (by decide), ReadLib.bcast_vec_rows (n := 256) (by decide)]
  show g (ix1 j) * (h (ix2 i j) - mean256 (sum256 h) (ix1 j)) * Ideal.rsqrt (var256 h (ix1 j) + RefSpec.wEps) + b (ix1 j) = _
  rw [mean256_sum_apply, var256_apply]
  rfl

/-- The column sums: the zero word plus the sum down the rows. -/
theorem sum10_apply (h : (⟨S32768x10, .f32⟩ : BufTy).Contents (Elt Ideal)) (j : Fin 10) :
    sum10 h (ix1 j) = RefSpec.wZero + ∑ i : Fin 32768, h (ix2 i j) := by
  unfold sum10
  exact ReadLib.colsum_apply reducesTo_S32768x10_S10_d0 (by decide) h_S_ h _ j

/-- The column means of the column sums. -/
theorem mean10_sum_apply (h : (⟨S32768x10, .f32⟩ : BufTy).Contents (Elt Ideal)) (j : Fin 10) :
    mean10 (sum10 h) (ix1 j) = RefSpec.mean h j := by
  show Ideal.div (sum10 h (ix1 j)) (Ideal.ofBits .f32 0x47000000#32) = _
  rw [sum10_apply, show RefSpec.wZero = 0 from Ideal.ofBits_zero_f32, zero_add]
  rfl

/-- The deviations the variance takes: the entry less its column's mean. -/
theorem dev10_apply (h : (⟨S32768x10, .f32⟩ : BufTy).Contents (Elt Ideal)) (i : Fin 32768) (j : Fin 10) :
    dev10 h (ix2 i j) = h (ix2 i j) - RefSpec.mean h j := by
  unfold dev10
  show h (ix2 i j) - broadcastInDim S32768x10 ![0, 1] bcast_S1x10_S32768x10_0_1 (Host.divf (broadcastInDim S1x10 ![1] bcast_S10_S1x10_1 (sum10 h)) (broadcastInDim S1x10 ![] bcast_S_S1x10 (constant S_ .f32 0x47000000#32))) (ix2 i j) = _
  rw [ReadLib.bcast_row_rows (n := 10) (by decide)]
  show h (ix2 i j) - Ideal.div (broadcastInDim S1x10 ![1] bcast_S10_S1x10_1 (sum10 h) (ix2 0 j)) (Ideal.ofBits .f32 0x47000000#32) = _
  rw [ReadLib.bcast_vec_row (n := 10) (by decide), sum10_apply, show RefSpec.wZero = 0 from Ideal.ofBits_zero_f32, zero_add]
  rfl

/-- The guarded variance: the guard holds and the count is the row count's word. -/
theorem var10_apply (h : (⟨S32768x10, .f32⟩ : BufTy).Contents (Elt Ideal)) (j : Fin 10) :
    var10 h (ix1 j) = RefSpec.var h j := by
  unfold var10
  show Scalar.select (cmpf (F := Ideal) (s := S_) (φ := .f32) .ogt (count (F := Ideal)) (constant S_ .f32 0x00000000#32) _)
      (Ideal.div (Host.reduceAdd (mulf (dev10 h) (dev10 h)) (constant S_ .f32 0x00000000#32) reducesTo_S32768x10_S10_d0 h_S_ (ix1 j)) (count (F := Ideal) _)) _ = _
  rw [guard_apply, ValueIdx.select_one, count_apply, ReadLib.colsum_apply reducesTo_S32768x10_S10_d0 (by decide) h_S_]
  unfold RefSpec.var
  rw [show (constant S_ .f32 0x00000000#32 : S_.Idx → Ideal .f32) ix0 = 0 from Ideal.ofBits_zero_f32, zero_add]
  have hd : ∀ i : Fin 32768, mulf (dev10 h) (dev10 h) (ix2 i j)
      = (h (ix2 i j) - RefSpec.mean h j) * (h (ix2 i j) - RefSpec.mean h j) := fun i => by
    show dev10 h (ix2 i j) * dev10 h (ix2 i j) = _
    rw [dev10_apply]
  simp only [hd]

/-- The normalization: scale times deviation times the inverse root of the variance plus ε, plus the shift. -/
theorem norm10_eq (h : (⟨S32768x10, .f32⟩ : BufTy).Contents (Elt Ideal)) (g b : (⟨S10, .f32⟩ : BufTy).Contents (Elt Ideal)) :
    norm10 h g b = RefSpec.arr (RefSpec.norm h g b) := by
  funext q
  obtain ⟨i, j, rfl⟩ : ∃ (i : Fin 32768) (j : Fin 10), q = ix2 i j := ⟨q 0, q 1, eq_ix2 q⟩
  unfold norm10 normM10
  show broadcastInDim S32768x10 ![0, 1] bcast_S1x10_S32768x10_0_1 (broadcastInDim S1x10 ![1] bcast_S10_S1x10_1 (g)) (ix2 i j) * (h (ix2 i j) - broadcastInDim S32768x10 ![0, 1] bcast_S1x10_S32768x10_0_1 (broadcastInDim S1x10 ![1] bcast_S10_S1x10_1 (mean10 (sum10 h))) (ix2 i j))
      * broadcastInDim S32768x10 ![0, 1] bcast_S1x10_S32768x10_0_1 (broadcastInDim S1x10 ![1] bcast_S10_S1x10_1 (Host.rsqrt (addf (var10 h) (broadcastInDim S10 ![] bcast_S_S10 (constant S_ .f32 0x3727C5AC#32))))) (ix2 i j)
      + broadcastInDim S32768x10 ![0, 1] bcast_S1x10_S32768x10_0_1 (broadcastInDim S1x10 ![1] bcast_S10_S1x10_1 (b)) (ix2 i j) = _
  rw [ReadLib.bcast_vec_rows (n := 10) (by decide), ReadLib.bcast_vec_rows (n := 10) (by decide),
    ReadLib.bcast_vec_rows (n := 10) (by decide), ReadLib.bcast_vec_rows (n := 10) (by decide)]
  show g (ix1 j) * (h (ix2 i j) - mean10 (sum10 h) (ix1 j)) * Ideal.rsqrt (var10 h (ix1 j) + RefSpec.wEps) + b (ix1 j) = _
  rw [mean10_sum_apply, var10_apply]
  rfl

/-- The exponentials of the logits less their row's maximum. -/
theorem expz_apply (z : (⟨S32768x10, .f32⟩ : BufTy).Contents (Elt Ideal)) (i : Fin 32768) (j : Fin 10) :
    expz z (ix2 i j) = RefSpec.expz z i j := by
  unfold expz
  show Ideal.exp (z (ix2 i j) - broadcastInDim S32768x10 ![0, 1] bcast_S32768x1_S32768x10_0_1 (broadcastInDim S32768x1 ![0] bcast_S32768_S32768x1_0 (maximumf (broadcastInDim S32768 ![] bcast_S_S32768 (constant S_ .f32 0xFF800000#32)) (Host.reduce (FloatOps.maximumf (F := Ideal) (φ := .f32)) z (constant S_ .f32 0xFF800000#32) reducesTo_S32768x10_S32768_d1 h_S_))) (ix2 i j)) = _
  rw [ReadLib.bcast_vec_cols (B := 32768) (by decide)]
  show Ideal.exp (z (ix2 i j) - max (Ideal.ofBits .f32 0xFF800000#32) (Host.reduce (FloatOps.maximumf (F := Ideal) (φ := .f32)) z (constant S_ .f32 0xFF800000#32) reducesTo_S32768x10_S32768_d1 h_S_ (ix1 i))) = _
  rw [ReadLib.rowmax_apply reducesTo_S32768x10_S32768_d1 (by decide) h_S_]
  rfl

/-- The row softmax. -/
theorem softmax10_eq (z : (⟨S32768x10, .f32⟩ : BufTy).Contents (Elt Ideal)) :
    softmax10 z = RefSpec.arr (RefSpec.softmax z) := by
  funext q
  obtain ⟨i, j, rfl⟩ : ∃ (i : Fin 32768) (j : Fin 10), q = ix2 i j := ⟨q 0, q 1, eq_ix2 q⟩
  unfold softmax10
  refine (ValueIdx.hostDivf_apply _ _ (ix2 i j)).trans ?_
  rw [ReadLib.bcast_vec_cols (B := 32768) (by decide), ReadLib.rowsum_apply reducesTo_S32768x10_S32768_d1 (by decide) h_S_,
    show (constant S_ .f32 0x00000000#32 : S_.Idx → Ideal .f32) ix0 = 0 from Ideal.ofBits_zero_f32, zero_add, expz_apply]
  rw [RefSpec.arr_ix2]; unfold RefSpec.softmax
  refine congrArg (Ideal.div _ ·) (Finset.sum_congr rfl fun l _ => expz_apply z i l)

/-- The run's network is the index-wise network. -/
theorem net_eq (x : (⟨S32768x784, .f32⟩ : BufTy).Contents (Elt Ideal)) (w0 : (⟨S256x784, .f32⟩ : BufTy).Contents (Elt Ideal)) (w1 w2 w3 : (⟨S256x256, .f32⟩ : BufTy).Contents (Elt Ideal)) (w4 : (⟨S10x256, .f32⟩ : BufTy).Contents (Elt Ideal))
    (g0 g1 g2 g3 : (⟨S256, .f32⟩ : BufTy).Contents (Elt Ideal)) (g4 : (⟨S10, .f32⟩ : BufTy).Contents (Elt Ideal)) (b0 b1 b2 b3 : (⟨S256, .f32⟩ : BufTy).Contents (Elt Ideal)) (b4 : (⟨S10, .f32⟩ : BufTy).Contents (Elt Ideal)) :
    net x w0 w1 w2 w3 w4 g0 g1 g2 g3 g4 b0 b1 b2 b3 b4 = RefSpec.net x w0 w1 w2 w3 w4 g0 g1 g2 g3 g4 b0 b1 b2 b3 b4 := by
  unfold net RefSpec.net
  rw [hid0_eq, norm256_eq, lin256_eq, norm256_eq, lin256_eq, norm256_eq, lin256_eq, norm256_eq, lin10_eq, norm10_eq, softmax10_eq]

/-- The run's term is the index-wise network of the sixteen argument buffers. -/
theorem refTerm_eq (m : (ℓ : Loc nD τ sig) → Buf (Elt Ideal) ℓ) (c : Dev nD) :
    refTerm m c = RefSpec.net (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))
      (m ((c.tc : Thread nD τ).loc main_arg15)) :=
  net_eq _ _ _ _ _ _ _ _ _ _ _ _ _ _ _ _

end Cert.ReferenceIdeal.Hand

end
-- ==== Proof.GlueReal.lean ====
/-
  The batch-normalization glue read over the reals.

  When the statistics, the gain and the bias at a column are finite (real numbers inside the extended reals), every
  quantity of `GlueSpec` at that column is the real number one expects:

    total = p₀ + p₈,   mean = (s₀ + s₈) / 32768,   var = (q₀ + q₈) / 32768 - mean²,
    invstd = 1 / √(var + ε)   provided 0 < var + ε,
    scale = γ · invstd,   shift = β - (mean · γ) · invstd,

  and `h · scale + shift = (γ · (h - mean)) · invstd + β`, the normalized activation in the association a direct
  normalization computes it. The word `0x47000000` is the real 32768 and the word `0x3727C5AC` the positive real
  ε = 10995116 / 2⁴⁰ (the f32 nearest 1e-5). The extended reals' division by 32768 is the reals' because 32768 ≠ 0,
  and the inverse square root is the reals' because its argument is positive.
-/
import proofs.«126670_j49074296324140_2_alg».proof.Proof.GlueSpec
import Idealize.ShloMosaic.Lib.IdealHost

noncomputable section

namespace Cert.KernelIdeal.Glue.GlueSpec

open Idealize.ShloMosaic Idealize.ShloMosaic.ValueIdx

/-- The variance offset as a real: 10995116 / 2⁴⁰. -/
def epsR : ℝ := 10995116 / 1099511627776

theorem epsR_pos : 0 < epsR := by unfold epsR; norm_num

/-- The word `0x47000000` is the real 32768. -/
theorem batchW_eq : batchW = ((32768 : ℝ) : EReal) := by
  simp [Ideal.ofBits, Ideal.ieee, -EReal.coe_mul]; norm_num

/-- The word `0x3727C5AC` is the real ε. -/
theorem epsW_eq : epsW = ((epsR : ℝ) : EReal) := by
  unfold epsR
  simp [Ideal.ofBits, Ideal.ieee, -EReal.coe_mul]; norm_num

/-- Division of a real by the batch-size word is the reals' division by 32768. -/
theorem div_batchW (x : ℝ) : Ideal.div (x : EReal) batchW = ((x / 32768 : ℝ) : EReal) := by
  rw [batchW_eq, Ideal.div_coe (by norm_num : (32768 : ℝ) ≠ 0), ← EReal.coe_mul]
  congr 1
  ring

/-- The real mean of a column from its two half-batch sums. -/
def meanR (s0 s8 : ℝ) : ℝ := (s0 + s8) / 32768
/-- The real variance of a column from its half-batch sums and sums of squares. -/
def varR (s0 s8 q0 q8 : ℝ) : ℝ := (q0 + q8) / 32768 - meanR s0 s8 * meanR s0 s8
/-- The real inverse standard deviation of a column. -/
def invstdR (s0 s8 q0 q8 : ℝ) : ℝ := (Real.sqrt (varR s0 s8 q0 q8 + epsR))⁻¹

variable {n : Nat} {sPad qPad : (⟨2, ![16, n]⟩ : Shape).Idx → EReal} {g b : (⟨1, ![n]⟩ : Shape).Idx → EReal} {j : Fin n}
variable {s0 s8 q0 q8 γ β : ℝ}

theorem total_coe {pad : (⟨2, ![16, n]⟩ : Shape).Idx → EReal} {p0 p8 : ℝ}
    (h0 : pad (ix2 (0 : Fin 16) j) = (p0 : EReal)) (h8 : pad (ix2 (8 : Fin 16) j) = (p8 : EReal)) :
    total pad j = ((p0 + p8 : ℝ) : EReal) := by
  rw [total_eq, h0, h8, ← EReal.coe_add]

theorem mean_coe (hs0 : sPad (ix2 (0 : Fin 16) j) = (s0 : EReal)) (hs8 : sPad (ix2 (8 : Fin 16) j) = (s8 : EReal)) :
    mean sPad j = ((meanR s0 s8 : ℝ) : EReal) := by
  unfold mean meanR
  rw [total_coe hs0 hs8, div_batchW]

theorem var_coe (hs0 : sPad (ix2 (0 : Fin 16) j) = (s0 : EReal)) (hs8 : sPad (ix2 (8 : Fin 16) j) = (s8 : EReal))
    (hq0 : qPad (ix2 (0 : Fin 16) j) = (q0 : EReal)) (hq8 : qPad (ix2 (8 : Fin 16) j) = (q8 : EReal)) :
    var sPad qPad j = ((varR s0 s8 q0 q8 : ℝ) : EReal) := by
  unfold var varR
  rw [mean_coe hs0 hs8, total_coe hq0 hq8, div_batchW, ← EReal.coe_mul, ← EReal.coe_sub]

theorem invstd_coe (hs0 : sPad (ix2 (0 : Fin 16) j) = (s0 : EReal)) (hs8 : sPad (ix2 (8 : Fin 16) j) = (s8 : EReal))
    (hq0 : qPad (ix2 (0 : Fin 16) j) = (q0 : EReal)) (hq8 : qPad (ix2 (8 : Fin 16) j) = (q8 : EReal))
    (hpos : 0 < varR s0 s8 q0 q8 + epsR) :
    invstd sPad qPad j = ((invstdR s0 s8 q0 q8 : ℝ) : EReal) := by
  unfold invstd invstdR
  rw [var_coe hs0 hs8 hq0 hq8, epsW_eq, ← EReal.coe_add, Ideal.rsqrt_coe, if_neg (not_lt.mpr hpos.le), if_neg hpos.ne']

theorem scaleAt_coe (hs0 : sPad (ix2 (0 : Fin 16) j) = (s0 : EReal)) (hs8 : sPad (ix2 (8 : Fin 16) j) = (s8 : EReal))
    (hq0 : qPad (ix2 (0 : Fin 16) j) = (q0 : EReal)) (hq8 : qPad (ix2 (8 : Fin 16) j) = (q8 : EReal))
    (hpos : 0 < varR s0 s8 q0 q8 + epsR) (hg : g (ix1 j) = (γ : EReal)) :
    scaleAt g sPad qPad j = ((γ * invstdR s0 s8 q0 q8 : ℝ) : EReal) := by
  unfold scaleAt
  rw [invstd_coe hs0 hs8 hq0 hq8 hpos, hg, ← EReal.coe_mul]

theorem shiftAt_coe (hs0 : sPad (ix2 (0 : Fin 16) j) = (s0 : EReal)) (hs8 : sPad (ix2 (8 : Fin 16) j) = (s8 : EReal))
    (hq0 : qPad (ix2 (0 : Fin 16) j) = (q0 : EReal)) (hq8 : qPad (ix2 (8 : Fin 16) j) = (q8 : EReal))
    (hpos : 0 < varR s0 s8 q0 q8 + epsR) (hg : g (ix1 j) = (γ : EReal)) (hb : b (ix1 j) = (β : EReal)) :
    shiftAt g b sPad qPad j = ((β - (meanR s0 s8 * γ) * invstdR s0 s8 q0 q8 : ℝ) : EReal) := by
  unfold shiftAt
  rw [invstd_coe hs0 hs8 hq0 hq8 hpos, mean_coe hs0 hs8, hg, hb, ← EReal.coe_mul, ← EReal.coe_mul, ← EReal.coe_sub]

/-- The normalized activation: an activation `h` times the multiplier plus the offset is the gain times the
    centred activation, times the inverse standard deviation, plus the bias. -/
theorem affine_coe (hs0 : sPad (ix2 (0 : Fin 16) j) = (s0 : EReal)) (hs8 : sPad (ix2 (8 : Fin 16) j) = (s8 : EReal))
    (hq0 : qPad (ix2 (0 : Fin 16) j) = (q0 : EReal)) (hq8 : qPad (ix2 (8 : Fin 16) j) = (q8 : EReal))
    (hpos : 0 < varR s0 s8 q0 q8 + epsR) (hg : g (ix1 j) = (γ : EReal)) (hb : b (ix1 j) = (β : EReal)) (h : ℝ) :
    (h : EReal) * scaleAt g sPad qPad j + shiftAt g b sPad qPad j
      = (((γ * (h - meanR s0 s8)) * invstdR s0 s8 q0 q8 + β : ℝ) : EReal) := by
  rw [scaleAt_coe hs0 hs8 hq0 hq8 hpos hg, shiftAt_coe hs0 hs8 hq0 hq8 hpos hg hb, ← EReal.coe_mul, ← EReal.coe_add]
  congr 1
  ring

/-- The mean of the squares less the square of the mean is the mean of the squared deviations: over any finite
    family `x` of reals of positive size `B`. -/
theorem sumsq_sub_sq_mean {ι : Type} (s : Finset ι) (x : ι → ℝ) (B : ℝ) (hB : B ≠ 0) (hcard : (s.card : ℝ) = B) :
    (∑ i ∈ s, x i ^ 2) / B - ((∑ i ∈ s, x i) / B) * ((∑ i ∈ s, x i) / B)
      = (∑ i ∈ s, (x i - (∑ i ∈ s, x i) / B) ^ 2) / B := by
  have hexp : ∑ i ∈ s, (x i - (∑ i ∈ s, x i) / B) ^ 2
      = ∑ i ∈ s, x i ^ 2 - 2 * ((∑ i ∈ s, x i) / B) * ∑ i ∈ s, x i + (s.card : ℝ) * ((∑ i ∈ s, x i) / B) ^ 2 := by
    simp only [sub_sq, Finset.sum_add_distrib, Finset.sum_sub_distrib, Finset.sum_const, nsmul_eq_mul]
    congr 1
    congr 1
    rw [Finset.mul_sum]
    refine Finset.sum_congr rfl fun i _ => ?_
    ring
  rw [hexp, hcard]
  field_simp
  ring

end Cert.KernelIdeal.Glue.GlueSpec

end
-- ==== Proof.GlueSums.lean ====
/-
  Sums: re-indexing by blocks, accumulation chains, and sums of signs.

  * A sum over `m * n` consecutive naturals is the sum over `m` blocks of `n`; hence a sum over `2 * I * T` indices is the
    triple sum over two halves, `I` blocks per half and `T` rows per block, the index being `(c * I + b) * T + r`. The same
    over `Fin`, in particular for 32768 = 2 · 8 · 2048 = 2 · 4 · 4096.
  * An accumulator that starts at zero and adds one term per step, `((0 + a₀) + a₁) + … + a_{n-1}`, is `∑ i < n, aᵢ` (in any
    commutative additive monoid, the extended reals among them).
  * The inclusion of the reals in the extended reals commutes with finite sums.
  * The inverse square root of a positive real is the reals' and is positive.
  * A binarized value is the real `+1` or `-1`; so a finite sum of products of two binarized values is a real number, the
    sum of the products of the signs.
-/
import proofs.«126670_j49074296324140_2_alg».proof.Proof.GlueBinSpec
import proofs.«126670_j49074296324140_2_alg».proof.Proof.GlueReal

noncomputable section

namespace Cert.KernelIdeal.Glue.GlueSpec

open Idealize.ShloMosaic Idealize.ShloMosaic.ValueIdx
open scoped BigOperators

/-! ## Re-indexing by blocks -/

/-- A sum over `m * n` consecutive naturals is the sum over `m` blocks of `n`. -/
theorem sum_range_mul_blocks {M : Type*} [AddCommMonoid M] (f : ℕ → M) (m n : ℕ) :
    ∑ i ∈ Finset.range (m * n), f i = ∑ a ∈ Finset.range m, ∑ b ∈ Finset.range n, f (a * n + b) := by
  induction m with
  | zero => simp
  | succ m ih => rw [Nat.succ_mul, Finset.sum_range_add, ih, Finset.sum_range_succ]

/-- A sum over `2 * I * T` consecutive naturals, by halves, blocks and rows. -/
theorem sum_range_halves_blocks_rows {M : Type*} [AddCommMonoid M] (f : ℕ → M) (I T : ℕ) :
    ∑ i ∈ Finset.range (2 * I * T), f i
      = ∑ c ∈ Finset.range 2, ∑ b ∈ Finset.range I, ∑ r ∈ Finset.range T, f ((c * I + b) * T + r) := by
  rw [sum_range_mul_blocks f (2 * I) T, sum_range_mul_blocks (fun a => ∑ r ∈ Finset.range T, f (a * T + r)) 2 I]

/-- The index `(c * I + b) * T + r` of row `r` of block `b` of half `c` is below `2 * I * T`. -/
theorem block_index_lt {I T N : ℕ} (hN : 2 * I * T = N) (c : Fin 2) (b : Fin I) (r : Fin T) :
    (c.val * I + b.val) * T + r.val < N := by
  have hc : c.val * I ≤ 1 * I := Nat.mul_le_mul_right I (by omega)
  have h1 : c.val * I + b.val + 1 ≤ 2 * I := by have := b.isLt; omega
  calc (c.val * I + b.val) * T + r.val < (c.val * I + b.val) * T + T := by have := r.isLt; omega
    _ = (c.val * I + b.val + 1) * T := by ring
    _ ≤ 2 * I * T := Nat.mul_le_mul_right T h1
    _ = N := hN

/-- A sum over `Fin N` with `N = 2 * I * T`, by halves, blocks and rows. -/
theorem sum_fin_halves_blocks_rows {M : Type*} [AddCommMonoid M] {I T N : ℕ} (hN : 2 * I * T = N) (g : Fin N → M) :
    ∑ i : Fin N, g i
      = ∑ c : Fin 2, ∑ b : Fin I, ∑ r : Fin T, g ⟨(c.val * I + b.val) * T + r.val, block_index_lt hN c b r⟩ := by
  subst hN
  have e : ∀ i : Fin (2 * I * T), g i = (fun k : ℕ => if h : k < 2 * I * T then g ⟨k, h⟩ else 0) i.val := by
    intro i
    show g i = if h : i.val < 2 * I * T then g ⟨i.val, h⟩ else 0
    rw [dif_pos i.isLt]
  rw [Finset.sum_congr rfl fun i _ => e i, ← Finset.sum_range (fun k : ℕ => if h : k < 2 * I * T then g ⟨k, h⟩ else 0),
    sum_range_halves_blocks_rows, Finset.sum_range]
  refine Finset.sum_congr rfl fun c _ => ?_
  rw [Finset.sum_range]
  refine Finset.sum_congr rfl fun b _ => ?_
  rw [Finset.sum_range]
  refine Finset.sum_congr rfl fun r _ => ?_
  show (if h : (c.val * I + b.val) * T + r.val < 2 * I * T then g ⟨(c.val * I + b.val) * T + r.val, h⟩ else 0) = _
  rw [dif_pos (block_index_lt rfl c b r)]

/-- 32768 indices as two halves of eight blocks of 2048 rows. -/
theorem sum_fin_32768_8_2048 {M : Type*} [AddCommMonoid M] (g : Fin 32768 → M) :
    ∑ i : Fin 32768, g i
      = ∑ c : Fin 2, ∑ b : Fin 8, ∑ r : Fin 2048, g ⟨(c.val * 8 + b.val) * 2048 + r.val, block_index_lt (by norm_num) c b r⟩ :=
  sum_fin_halves_blocks_rows (I := 8) (T := 2048) (by norm_num) g

/-- 32768 indices as two halves of four blocks of 4096 rows. -/
theorem sum_fin_32768_4_4096 {M : Type*} [AddCommMonoid M] (g : Fin 32768 → M) :
    ∑ i : Fin 32768, g i
      = ∑ c : Fin 2, ∑ b : Fin 4, ∑ r : Fin 4096, g ⟨(c.val * 4 + b.val) * 4096 + r.val, block_index_lt (by norm_num) c b r⟩ :=
  sum_fin_halves_blocks_rows (I := 4) (T := 4096) (by norm_num) g

/-! ## Accumulation chains -/

/-- The accumulator after `n` steps: zero, then one term added per step on the right. -/
def chain {M : Type*} [AddCommMonoid M] (a : ℕ → M) : ℕ → M
  | 0 => 0
  | n + 1 => chain a n + a n

/-- The accumulator after `n` steps is the sum of the first `n` terms. -/
theorem chain_eq_sum {M : Type*} [AddCommMonoid M] (a : ℕ → M) (n : ℕ) : chain a n = ∑ i ∈ Finset.range n, a i := by
  induction n with
  | zero => rfl
  | succ n ih => rw [chain, ih, Finset.sum_range_succ]

/-- Eight steps written out. -/
theorem chain8 {M : Type*} [AddCommMonoid M] (a : ℕ → M) :
    (((((((0 + a 0) + a 1) + a 2) + a 3) + a 4) + a 5) + a 6) + a 7 = ∑ i ∈ Finset.range 8, a i :=
  chain_eq_sum a 8

/-- Four steps written out. -/
theorem chain4 {M : Type*} [AddCommMonoid M] (a : ℕ → M) :
    (((0 + a 0) + a 1) + a 2) + a 3 = ∑ i ∈ Finset.range 4, a i :=
  chain_eq_sum a 4

/-! ## Reals inside the extended reals -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inverse square root of a positive real is the reals', and it is positive. -/
theorem rsqrt_coe_of_pos {x : ℝ} (hx : 0 < x) :
    Ideal.rsqrt (x : EReal) = (((Real.sqrt x)⁻¹ : ℝ) : EReal) ∧ 0 < (Real.sqrt x)⁻¹ := by
  refine ⟨?_, inv_pos.mpr (Real.sqrt_pos.mpr hx)⟩
  rw [Ideal.rsqrt_coe, if_neg (not_lt.mpr hx.le), if_neg hx.ne']

/-- The real inverse standard deviation is positive when its argument is. -/
theorem invstdR_pos {s0 s8 q0 q8 : ℝ} (hpos : 0 < varR s0 s8 q0 q8 + epsR) : 0 < invstdR s0 s8 q0 q8 :=
  inv_pos.mpr (Real.sqrt_pos.mpr hpos)

/-! ## Signs -/

/-- The sign a value binarizes to, as a real: `+1` where `0 ≤ w`, `-1` otherwise. -/
def binR (w : EReal) : ℝ := if 0 ≤ w then 1 else -1

theorem binR_eq_or (w : EReal) : binR w = 1 ∨ binR w = -1 := by
  unfold binR
  split
  · exact Or.inl rfl
  · exact Or.inr rfl

/-- A binarized value is a real number, the sign. -/
theorem binarize_coe (w : EReal) : binarize w = ((binR w : ℝ) : EReal) := by
  unfold binR
  split
  · next h => rw [binarize_of_nonneg h, oneW_eq, EReal.coe_one]
  · next h => rw [binarize_of_neg (not_le.mp h), negOneW_eq]

/-- A product of two binarized values is the real product of the signs. -/
theorem binarize_mul_binarize (a w : EReal) : binarize a * binarize w = ((binR a * binR w : ℝ) : EReal) := by
  rw [binarize_coe, binarize_coe, ← EReal.coe_mul]

/-- A finite sum of products of two binarized values is a real number: the sum of the products of the signs. -/
theorem sum_binarize_mul {ι : Type*} (s : Finset ι) (a w : ι → EReal) :
    ∑ k ∈ s, binarize (a k) * binarize (w k) = ((∑ k ∈ s, binR (a k) * binR (w k) : ℝ) : EReal) := by
  rw [coe_sum]
  exact Finset.sum_congr rfl fun k _ => binarize_mul_binarize (a k) (w k)

end Cert.KernelIdeal.Glue.GlueSpec

end
-- ==== Proof.GlueBridge.lean ====
/-
  The bridge between the two spellings of one network layer, at the extended reals.

  One spelling normalizes a layer's activations directly: with `m` the column mean and `v` the column mean of the
  squared deviations, an entry `x` goes to `γ · (x - m) · rsqrt (v + ε) + β`. The other first accumulates, per column, the
  sum and the sum of squares of the activations in two halves, forms `m` and `v' = (sum of squares)/N - m²` from them,
  and then applies `x · scale + shift` with `scale = γ · rsqrt (v' + ε)` and `shift = β - (m · γ) · rsqrt (v' + ε)`.
  For real activations, gains and biases the two agree, because `v' = v` (the mean of the squares less the square of the
  mean is the mean of the squared deviations), `v ≥ 0` so that `v + ε > 0` and the inverse square root is the reals', and
  `x · (γ s) + (β - (m γ) s) = (γ (x - m)) s + β`.

  Around that: the first layer's threshold `x ≥ ½` is the sign of `x - ½`; the two spellings of the sign function are one
  function; a product of binarized matrices has real entries whatever the matrices; and an accumulator that is reset at
  the first block of each half and otherwise adds one block sum per step ends each half at that half's sum of block
  sums, the two halves together being the sum over all rows.
-/
import proofs.«126670_j49074296324140_2_alg».proof.Proof.GlueSpec
import proofs.«126670_j49074296324140_2_alg».proof.Proof.GlueReal
import proofs.«126670_j49074296324140_2_alg».proof.Proof.GlueSums
import proofs.«126670_j49074296324140_2_alg».proof.Proof.GlueBinSpec
import proofs.«126670_j49074296324140_2_alg».proof.Proof.RefSpec

noncomputable section

namespace Cert.KernelIdeal.Glue.GlueSpec

open Idealize.ShloMosaic Idealize.ShloMosaic.ValueIdx
open Cert.ReferenceIdeal.Hand
open Cert.ReferenceIdeal.Hand.RefSpec (A1 A2)
open scoped BigOperators

/-! ## (B) Signs and the first threshold -/

/-- The two spellings of the sign function are one function. -/
theorem binarize_eq_sgn : binarize = RefSpec.sgn := rfl

/-- The word `0x3F000000` is the real one half. -/
theorem wHalf_eq : RefSpec.wHalf = (((1 : ℝ) / 2 : ℝ) : EReal) := by
  simp [Ideal.ofBits, Ideal.ieee, -EReal.coe_mul]; norm_num

/-- For a real `x`, the threshold `x ≥ ½` selects as the sign of `x - ½` does. -/
theorem select_ge_half_eq_sgn_sub (x : ℝ) :
    Scalar.select (Ideal.cmp .oge (x : EReal) RefSpec.wHalf) RefSpec.wOne RefSpec.wNegOne
      = RefSpec.sgn ((x : EReal) - RefSpec.wHalf) := by
  unfold RefSpec.sgn
  congr 1
  show BitVec.ofBool (decide (RefSpec.wHalf ≤ (x : EReal))) = BitVec.ofBool (decide (RefSpec.wZero ≤ (x : EReal) - RefSpec.wHalf))
  congr 1
  rw [wHalf_eq, show RefSpec.wZero = 0 from Ideal.ofBits_zero_f32, ← EReal.coe_sub, ← EReal.coe_zero,
    decide_eq_decide, EReal.coe_le_coe_iff, EReal.coe_le_coe_iff]
  constructor <;> intro hx <;> linarith

/-! ## (C) Products of binarized matrices are real -/

/-- An entry of the product of two binarized matrices is a real number: the sum of the products of the signs. -/
theorem prod_coe {B I O : ℕ} (a : A2 B I) (w : A2 O I) (i : Fin B) (j : Fin O) :
    RefSpec.prod a w i j = ((∑ l : Fin I, binR (a (ix2 i l)) * binR (w (ix2 j l)) : ℝ) : EReal) :=
  sum_binarize_mul Finset.univ (fun l => a (ix2 i l)) (fun l => w (ix2 j l))

/-! ## (A) The normalization, both ways -/

section Norm

variable {O : ℕ} (h : A2 32768 O) (g b : A1 O) (sPad qPad : A2 16 O)
  (hR : Fin 32768 → Fin O → ℝ) (hh : ∀ i j, h (ix2 i j) = (hR i j : EReal))
  (γ β : Fin O → ℝ) (hg : ∀ j, g (ix1 j) = (γ j : EReal)) (hb : ∀ j, b (ix1 j) = (β j : EReal))
  (s0 s8 q0 q8 : Fin O → ℝ)
  (hs0 : ∀ j, sPad (ix2 (0 : Fin 16) j) = (s0 j : EReal)) (hs8 : ∀ j, sPad (ix2 (8 : Fin 16) j) = (s8 j : EReal))
  (hq0 : ∀ j, qPad (ix2 (0 : Fin 16) j) = (q0 j : EReal)) (hq8 : ∀ j, qPad (ix2 (8 : Fin 16) j) = (q8 j : EReal))
  (hS : ∀ j, s0 j + s8 j = ∑ i, hR i j) (hQ : ∀ j, q0 j + q8 j = ∑ i, hR i j * hR i j)

include hS in
/-- The mean from the two half sums is the column mean. -/
theorem meanR_eq (j : Fin O) : meanR (s0 j) (s8 j) = (∑ i, hR i j) / 32768 := by
  unfold meanR
  rw [hS j]

include hS hQ in
/-- The variance from the half sums and half sums of squares is the mean of the squared deviations. -/
theorem varR_eq (j : Fin O) :
    varR (s0 j) (s8 j) (q0 j) (q8 j) = (∑ i, (hR i j - (∑ i, hR i j) / 32768) ^ 2) / 32768 := by
  unfold varR
  rw [meanR_eq hR s0 s8 hS j, hQ j]
  have hcard : (((Finset.univ : Finset (Fin 32768)).card : ℕ) : ℝ) = 32768 := by
    rw [Finset.card_univ, Fintype.card_fin]
    norm_num
  have hid := sumsq_sub_sq_mean (Finset.univ : Finset (Fin 32768)) (fun i => hR i j) 32768 (by norm_num) hcard
  have hsq : ∑ i, hR i j * hR i j = ∑ i, hR i j ^ 2 := Finset.sum_congr rfl fun i _ => (pow_two _).symm
  rw [← hid, hsq]

include hS hQ in
/-- That variance plus the offset is positive. -/
theorem varR_add_eps_pos (j : Fin O) : 0 < varR (s0 j) (s8 j) (q0 j) (q8 j) + epsR := by
  rw [varR_eq hR s0 s8 q0 q8 hS hQ j]
  exact add_pos_of_nonneg_of_pos (div_nonneg (Finset.sum_nonneg fun i _ => sq_nonneg _) (by norm_num)) epsR_pos

include hh in
/-- The directly computed column mean, as a real. -/
theorem refMean_coe (j : Fin O) : RefSpec.mean h j = (((∑ i, hR i j) / 32768 : ℝ) : EReal) := by
  unfold RefSpec.mean
  rw [Finset.sum_congr rfl fun i _ => hh i j, ← coe_sum]
  exact div_batchW _

include hh in
/-- The directly computed column variance, as a real. -/
theorem refVar_coe (j : Fin O) :
    RefSpec.var h j = (((∑ i, (hR i j - (∑ i, hR i j) / 32768) ^ 2) / 32768 : ℝ) : EReal) := by
  unfold RefSpec.var
  rw [refMean_coe h hR hh j]
  have e : ∀ i : Fin 32768, (h (ix2 i j) - (((∑ i, hR i j) / 32768 : ℝ) : EReal)) * (h (ix2 i j) - (((∑ i, hR i j) / 32768 : ℝ) : EReal))
      = (((hR i j - (∑ i, hR i j) / 32768) ^ 2 : ℝ) : EReal) := by
    intro i
    rw [hh i j, ← EReal.coe_sub, ← EReal.coe_mul, pow_two]
  rw [Finset.sum_congr rfl fun i _ => e i, ← coe_sum]
  exact div_batchW _

include hh hg hb hs0 hs8 hq0 hq8 hS hQ in
/-- THE BRIDGE: an activation times the multiplier row plus the offset row is the directly normalized activation. -/
theorem norm_bridge (i : Fin 32768) (j : Fin O) :
    h (ix2 i j) * scaleRow g sPad qPad (ix2 (0 : Fin 1) j) + shiftRow g b sPad qPad (ix2 (0 : Fin 1) j)
      = RefSpec.norm h g b i j := by
  have hpos := varR_add_eps_pos hR s0 s8 q0 q8 hS hQ j
  rw [scaleRow_ix2, shiftRow_ix2, hh i j,
    affine_coe (hs0 j) (hs8 j) (hq0 j) (hq8 j) hpos (hg j) (hb j) (hR i j)]
  unfold invstdR
  rw [meanR_eq hR s0 s8 hS j, varR_eq hR s0 s8 q0 q8 hS hQ j]
  unfold RefSpec.norm
  have hpos' : 0 < (∑ i, (hR i j - (∑ i, hR i j) / 32768) ^ 2) / 32768 + epsR := by
    rw [← varR_eq hR s0 s8 q0 q8 hS hQ j]
    exact hpos
  rw [refMean_coe h hR hh j]
  rw [refVar_coe h hR hh j]
  rw [hh i j, hg j, hb j]
  rw [show RefSpec.wEps = epsW from rfl, epsW_eq]
  rw [← EReal.coe_add, (rsqrt_coe_of_pos hpos').1]
  rw [← EReal.coe_sub, ← EReal.coe_mul, ← EReal.coe_mul, ← EReal.coe_add]

include hh hg hb hs0 hs8 hq0 hq8 hS hQ in
/-- The bridge as an equality of matrices. -/
theorem norm_bridge_arr :
    RefSpec.arr (fun i j => h (ix2 i j) * scaleRow g sPad qPad (ix2 (0 : Fin 1) j) + shiftRow g b sPad qPad (ix2 (0 : Fin 1) j))
      = RefSpec.arr (RefSpec.norm h g b) :=
  congrArg RefSpec.arr (funext fun i => funext fun j =>
    norm_bridge h g b sPad qPad hR hh γ β hg hb s0 s8 q0 q8 hs0 hs8 hq0 hq8 hS hQ i j)

end Norm

/-! ## (D) The accumulator over the blocks of the two halves -/

/-- The accumulator after block `n` (blocks numbered through both halves, `I` per half): at the first block of a half it
    restarts from zero, otherwise it adds the block's sum to what it held. -/
def acc {M : Type*} [AddCommMonoid M] (I : ℕ) (blk : ℕ → M) : ℕ → M
  | 0 => 0 + blk 0
  | n + 1 => if (n + 1) % I = 0 then 0 + blk (n + 1) else acc I blk n + blk (n + 1)

/-- Within half `c`, after its block `k` the accumulator holds the sum of that half's blocks `0 … k`. -/
theorem acc_within {M : Type*} [AddCommMonoid M] (I : ℕ) (blk : ℕ → M) (c k : ℕ) (hk : k < I) :
    acc I blk (c * I + k) = ∑ b ∈ Finset.range (k + 1), blk (c * I + b) := by
  induction k with
  | zero =>
    rw [Finset.sum_range_one, Nat.add_zero]
    cases hc : c * I with
    | zero => rw [acc, zero_add]
    | succ n => rw [acc, if_pos (by rw [← hc]; exact Nat.mul_mod_left c I), zero_add]
  | succ k ih =>
    have hmod : (c * I + k + 1) % I ≠ 0 := by
      rw [Nat.add_assoc, Nat.mul_add_mod_self_right, Nat.mod_eq_of_lt hk]
      omega
    rw [← Nat.add_assoc, acc, if_neg hmod, ih (by omega), Finset.sum_range_succ (fun b => blk (c * I + b)) (k + 1), Nat.add_assoc]

/-- At the last block of half `c` the accumulator holds the sum of the half's `I` blocks. -/
theorem acc_half {M : Type*} [AddCommMonoid M] (I : ℕ) (hI : 0 < I) (blk : ℕ → M) (c : ℕ) :
    acc I blk (c * I + (I - 1)) = ∑ b ∈ Finset.range I, blk (c * I + b) := by
  rw [acc_within I blk c (I - 1) (by omega), Nat.sub_add_cancel hI]

/-- With block `n` the sum of `T` consecutive terms from `n * T`, the two halves' accumulators add up to the sum of all
    `2 * I * T` terms. -/
theorem acc_halves_eq_sum {M : Type*} [AddCommMonoid M] (I T : ℕ) (hI : 0 < I) (f : ℕ → M) :
    acc I (fun n => ∑ r ∈ Finset.range T, f (n * T + r)) (0 * I + (I - 1))
        + acc I (fun n => ∑ r ∈ Finset.range T, f (n * T + r)) (1 * I + (I - 1))
      = ∑ i ∈ Finset.range (2 * I * T), f i := by
  rw [acc_half I hI, acc_half I hI, sum_range_halves_blocks_rows, Finset.sum_range_succ, Finset.sum_range_one]

/-- A real accumulator inside the extended reals: if every block sum is a real, so is the accumulator, and it is the
    reals' accumulator. -/
theorem acc_coe (I : ℕ) (blkE : ℕ → EReal) (blkR : ℕ → ℝ) (hblk : ∀ n, blkE n = (blkR n : EReal)) (n : ℕ) :
    acc I blkE n = ((acc I blkR n : ℝ) : EReal) := by
  induction n with
  | zero => rw [acc, acc, hblk 0, EReal.coe_add, EReal.coe_zero]
  | succ n ih =>
    rw [acc, acc]
    split
    · rw [hblk (n + 1), EReal.coe_add, EReal.coe_zero]
    · rw [ih, hblk (n + 1), EReal.coe_add]

/-- The terms of a family over `Fin N`, continued by zero beyond `N`. -/
def extend {N : ℕ} (x : Fin N → ℝ) (k : ℕ) : ℝ := if hk : k < N then x ⟨k, hk⟩ else 0

theorem extend_of_lt {N : ℕ} (x : Fin N → ℝ) {k : ℕ} (hk : k < N) : extend x k = x ⟨k, hk⟩ := dif_pos hk

/-- Block `n` of `T` rows of a family over `Fin N`: the sum of its rows `n * T + r`. -/
def blockSum {N : ℕ} (T : ℕ) (x : Fin N → ℝ) (n : ℕ) : ℝ := ∑ r ∈ Finset.range T, extend x (n * T + r)

/-- A block inside the family is the sum over `Fin T` of its rows. -/
theorem blockSum_eq {N : ℕ} (T : ℕ) (x : Fin N → ℝ) (n : ℕ) (hn : (n + 1) * T ≤ N) :
    blockSum T x n = ∑ r : Fin T, x ⟨n * T + r.val, by have := r.isLt; nlinarith [r.isLt]⟩ := by
  unfold blockSum
  rw [Finset.sum_range]
  exact Finset.sum_congr rfl fun r _ => extend_of_lt x _

/-- The two halves' accumulators over the blocks of a family over `Fin N`, `N = 2 * I * T`, add up to the family's sum. -/
theorem acc_halves_eq_sum_fin {I T N : ℕ} (hI : 0 < I) (hN : 2 * I * T = N) (x : Fin N → ℝ) :
    acc I (blockSum T x) (0 * I + (I - 1)) + acc I (blockSum T x) (1 * I + (I - 1)) = ∑ i : Fin N, x i := by
  have e := acc_halves_eq_sum I T hI (extend x)
  unfold blockSum
  rw [e, hN, Finset.sum_range]
  exact Finset.sum_congr rfl fun i _ => extend_of_lt x i.isLt

end Cert.KernelIdeal.Glue.GlueSpec

end
-- ==== Proof.RefSpecLaws.lean ====
/- Laws of the index-wise network. The row maximum as the program takes it — the maximum of −∞ and of the row's fold of the
   maximum from −∞ — is that fold: a fold of the maximum from a value is at least the value. -/
import proofs.«126670_j49074296324140_2_alg».proof.Proof.RefSpec

noncomputable section

open scoped BigOperators

namespace Cert.ReferenceIdeal.Hand.RefSpec

open Idealize.ShloMosaic Idealize.ShloMosaic.ValueIdx

/-- The row maximum is the fold of the maximum over the row from −∞. -/
theorem rowMax_eq {B O : Nat} (z : A2 B O) (i : Fin B) :
    rowMax z i = (Finset.univ : Finset (Fin O)).fold max wNegInf fun l => z (ix2 i l) :=
  max_eq_right ((Finset.le_fold_max _).mpr (Or.inl le_rfl))

/-- The softmax with the row maximum as that fold. -/
theorem softmax_eq {B O : Nat} (z : A2 B O) (i : Fin B) (j : Fin O) :
    softmax z i j
      = Ideal.div (Ideal.exp (z (ix2 i j) - (Finset.univ : Finset (Fin O)).fold max wNegInf fun l => z (ix2 i l)))
          (∑ l' : Fin O, Ideal.exp (z (ix2 i l') - (Finset.univ : Finset (Fin O)).fold max wNegInf fun l => z (ix2 i l))) := by
  unfold softmax expz
  simp only [rowMax_eq]

end Cert.ReferenceIdeal.Hand.RefSpec

end
-- ==== Proof.KernelBridge.lean ====
/- The network as the kernel programs compute it is the network stated index by index, for real-valued input, scales and
   shifts. A layer's product against the zero threshold is the product of the two binarized matrices, and against one half
   it is that product of the input less one half (for a real x, x ≥ ½ exactly when x − ½ ≥ 0). Such a product is real-valued.
   The running sum over the blocks, restarted at each half, is the accumulator of the real block sums; its values at the
   ends of the two halves are reals adding up to the column's sum over all rows; the same for the squares. So the scale-and-
   shift by the rows made from the two statistics arrays is the normalization. The last region's rows are the row softmax
   of the last normalization, the program's extra maximum with −∞ being absorbed by the fold. Five such steps and the
   softmax give the equality of the two networks. -/
import proofs.«126670_j49074296324140_2_alg».proof.Proof.KernelSpec
import proofs.«126670_j49074296324140_2_alg».proof.Proof.GlueBridge
import proofs.«126670_j49074296324140_2_alg».proof.Proof.RefSpecLaws

noncomputable section

open scoped BigOperators

namespace Cert.KernelIdeal.KSpec

open Idealize.ShloMosaic Idealize.ShloMosaic.ValueIdx
open Cert.ReferenceIdeal.Hand
open Cert.ReferenceIdeal.Hand.RefSpec (A2 A1 arr arr_ix2)
open Cert.KernelIdeal.Glue.GlueSpec (scaleRow shiftRow binW)

/-- The product against the zero threshold is the product of the binarized matrices. -/
theorem lin_zero_eq {B I O : Nat} (z : A2 B I) (w : A2 O I) : lin zeroW z (binW w) = arr (RefSpec.prod z w) := rfl

/-- The first product, against one half: the product of the binarized input less one half. -/
theorem lin_half_eq {B I O : Nat} (x : A2 B I) (w : A2 O I) (hx : (∀ p, ∃ r : ℝ, x p = (r : EReal))) :
    lin halfW x (binW w) = arr (RefSpec.prod (fun p => x p - RefSpec.wHalf) w) := by
  unfold lin RefSpec.prod
  refine congrArg arr (funext fun i => funext fun j => Finset.sum_congr rfl fun l _ => ?_)
  obtain ⟨r, hr⟩ := hx (ix2 i l)
  show signAt halfW (x (ix2 i l)) * RefSpec.sgn (w (ix2 j l)) = RefSpec.sgn (x (ix2 i l) - RefSpec.wHalf) * RefSpec.sgn (w (ix2 j l))
  rw [hr]
  exact congrArg (· * RefSpec.sgn (w (ix2 j l))) (Glue.GlueSpec.select_ge_half_eq_sgn_sub r)

/-- A product of binarized matrices is real-valued. -/
theorem prod_real {B I O : Nat} (z : A2 B I) (w : A2 O I) : ∀ q, ∃ r : ℝ, arr (RefSpec.prod z w) q = (r : EReal) :=
  fun q => ⟨_, Glue.GlueSpec.prod_coe z w (q 0) (q 1)⟩

/-- The last region's rows are the row softmax of the scaled and shifted array. -/
theorem softK_eq {B : Nat} (h : A2 B 10) (sc sh : A2 1 10) : softK h sc sh = arr (RefSpec.softmax (affine h sc sh)) := by
  unfold softK
  exact congrArg arr (funext fun i => funext fun j => (RefSpec.softmax_eq (affine h sc sh) i j).symm)

/-- The running sum is the accumulator of the block sums. -/
theorem chain_eq_acc {B O : Nat} (T I : Nat) (h : A2 B O) (j : Fin O) (n : ℕ) :
    chain T I h j n = Glue.GlueSpec.acc I (fun m => blockSum T h m j) n := by
  induction n with
  | zero =>
    rw [chain, Glue.GlueSpec.acc, show zeroW = 0 from Ideal.ofBits_zero_f32]
  | succ n ih =>
    rw [chain, Glue.GlueSpec.acc]
    split
    · rw [show zeroW = 0 from Ideal.ofBits_zero_f32]
    · rw [ih]

section Real

variable {O : Nat} (h : A2 32768 O) (hR : Fin 32768 → Fin O → ℝ) (hh : ∀ i j, h (ix2 i j) = (hR i j : EReal))

include hh in
/-- A row of a real-valued array is real (zero past the last row). -/
theorem rowAt_coe (n : ℕ) (j : Fin O) :
    rowAt h n j = ((Glue.GlueSpec.extend (fun i => hR i j) n : ℝ) : EReal) := by
  unfold rowAt Glue.GlueSpec.extend
  by_cases hn : n < 32768
  · rw [dif_pos hn, dif_pos hn, hh]
  · rw [dif_neg hn, dif_neg hn, EReal.coe_zero]

include hh in
/-- A block's sum of a real-valued array is the real block sum. -/
theorem blockSum_coe (T : ℕ) (n : ℕ) (j : Fin O) :
    blockSum T h n j = ((Glue.GlueSpec.blockSum T (fun i => hR i j) n : ℝ) : EReal) := by
  unfold blockSum Glue.GlueSpec.blockSum
  rw [Glue.GlueSpec.coe_sum, Finset.sum_range]
  exact Finset.sum_congr rfl fun r _ => rowAt_coe h hR hh _ j

include hh in
/-- A statistics array's entry is the real accumulator at the end of the row's half. -/
theorem pad_coe (T I : ℕ) (k : Fin 16) (j : Fin O) :
    pad T I h (ix2 k j)
      = ((Glue.GlueSpec.acc I (Glue.GlueSpec.blockSum T (fun i => hR i j)) ((k.val / 8) * I + (I - 1)) : ℝ) : EReal) := by
  show chain T I h j ((k.val / 8) * I + (I - 1)) = _
  rw [chain_eq_acc]
  exact Glue.GlueSpec.acc_coe I _ _ (fun n => blockSum_coe h hR hh T n j) _

end Real

/-- ONE LAYER'S NORMALIZATION: the scale-and-shift by the rows made from the two statistics arrays is the normalization. -/
theorem norm_step {O : Nat} (T I : ℕ) (hI : 0 < I) (hN : 2 * I * T = 32768) (h : A2 32768 O) (g b : A1 O)
    (hh : (∀ p, ∃ r : ℝ, h p = (r : EReal))) (hg : (∀ p, ∃ r : ℝ, g p = (r : EReal))) (hb : (∀ p, ∃ r : ℝ, b p = (r : EReal))) :
    affine h (scaleRow g (pad T I h) (pad T I (sq h))) (shiftRow g b (pad T I h) (pad T I (sq h)))
      = arr (RefSpec.norm h g b) := by
  choose hRq hhq using hh
  choose γq hgq using hg
  choose βq hbq using hb
  have hh' : ∀ i j, h (ix2 i j) = ((hRq (ix2 i j) : ℝ) : EReal) := fun i j => hhq _
  have hsq : ∀ i j, sq h (ix2 i j) = ((hRq (ix2 i j) * hRq (ix2 i j) : ℝ) : EReal) := fun i j => by
    show h (ix2 i j) * h (ix2 i j) = _
    rw [hh', EReal.coe_mul]
  exact Glue.GlueSpec.norm_bridge_arr h g b (pad T I h) (pad T I (sq h)) (fun i j => hRq (ix2 i j)) hh'
    (fun j => γq (ix1 j)) (fun j => βq (ix1 j)) (fun j => hgq _) (fun j => hbq _)
    (fun j => Glue.GlueSpec.acc I (Glue.GlueSpec.blockSum T (fun i => hRq (ix2 i j))) (0 * I + (I - 1)))
    (fun j => Glue.GlueSpec.acc I (Glue.GlueSpec.blockSum T (fun i => hRq (ix2 i j))) (1 * I + (I - 1)))
    (fun j => Glue.GlueSpec.acc I (Glue.GlueSpec.blockSum T (fun i => hRq (ix2 i j) * hRq (ix2 i j))) (0 * I + (I - 1)))
    (fun j => Glue.GlueSpec.acc I (Glue.GlueSpec.blockSum T (fun i => hRq (ix2 i j) * hRq (ix2 i j))) (1 * I + (I - 1)))
    (fun j => pad_coe h (fun i j => hRq (ix2 i j)) hh' T I 0 j)
    (fun j => pad_coe h (fun i j => hRq (ix2 i j)) hh' T I 8 j)
    (fun j => pad_coe (sq h) (fun i j => hRq (ix2 i j) * hRq (ix2 i j)) hsq T I 0 j)
    (fun j => pad_coe (sq h) (fun i j => hRq (ix2 i j) * hRq (ix2 i j)) hsq T I 8 j)
    (fun j => Glue.GlueSpec.acc_halves_eq_sum_fin hI hN (fun i => hRq (ix2 i j)))
    (fun j => Glue.GlueSpec.acc_halves_eq_sum_fin hI hN (fun i => hRq (ix2 i j) * hRq (ix2 i j)))

/-- THE TWO NETWORKS ARE ONE, for real-valued input, scales and shifts. -/
theorem net_eq_ref (x : A2 32768 784) (w0 : A2 256 784) (w1 w2 w3 : A2 256 256) (w4 : A2 10 256)
    (g0 g1 g2 g3 : A1 256) (g4 : A1 10) (b0 b1 b2 b3 : A1 256) (b4 : A1 10)
    (hx : (∀ p, ∃ r : ℝ, x p = (r : EReal)))
    (hg0 : (∀ p, ∃ r : ℝ, g0 p = (r : EReal))) (hg1 : (∀ p, ∃ r : ℝ, g1 p = (r : EReal))) (hg2 : (∀ p, ∃ r : ℝ, g2 p = (r : EReal))) (hg3 : (∀ p, ∃ r : ℝ, g3 p = (r : EReal))) (hg4 : (∀ p, ∃ r : ℝ, g4 p = (r : EReal)))
    (hb0 : (∀ p, ∃ r : ℝ, b0 p = (r : EReal))) (hb1 : (∀ p, ∃ r : ℝ, b1 p = (r : EReal))) (hb2 : (∀ p, ∃ r : ℝ, b2 p = (r : EReal))) (hb3 : (∀ p, ∃ r : ℝ, b3 p = (r : EReal))) (hb4 : (∀ p, ∃ r : ℝ, b4 p = (r : EReal))) :
    net x w0 w1 w2 w3 w4 g0 g1 g2 g3 g4 b0 b1 b2 b3 b4 = RefSpec.net x w0 w1 w2 w3 w4 g0 g1 g2 g3 g4 b0 b1 b2 b3 b4 := by
  unfold net RefSpec.net
  dsimp only
  simp only [lin_zero_eq]
  rw [lin_half_eq x w0 hx,
    norm_step 2048 8 (by norm_num) (by norm_num) _ g0 b0 (prod_real _ _) hg0 hb0,
    norm_step 4096 4 (by norm_num) (by norm_num) _ g1 b1 (prod_real _ _) hg1 hb1,
    norm_step 4096 4 (by norm_num) (by norm_num) _ g2 b2 (prod_real _ _) hg2 hb2,
    norm_step 4096 4 (by norm_num) (by norm_num) _ g3 b3 (prod_real _ _) hg3 hb3,
    softK_eq,
    norm_step 4096 4 (by norm_num) (by norm_num) _ g4 b4 (prod_real _ _) hg4 hb4]

end Cert.KernelIdeal.KSpec

end
-- ==== Proof.Algebraic.lean ====
/- The two idealized programs, run from memories that agree on the sixteen argument arrays, end with the same result
   array and unchanged arguments. The kernel program's run ends with every unscoped buffer at its last contents; its
   result there is the kernel-side network of the sixteen argument arrays, which are kept. The reference's run ends with
   its result at the index-wise network of its own sixteen argument arrays, which agree with the kernel program's; under
   the precondition those arrays are real-valued, and for real-valued arguments the two networks are one function. -/
import proofs.«126670_j49074296324140_2_alg».proof.Defs
import proofs.«126670_j49074296324140_2_alg».proof.Proof.Gen.KernelIdeal
import proofs.«126670_j49074296324140_2_alg».proof.Proof.Gen.ReferenceIdeal
import proofs.«126670_j49074296324140_2_alg».proof.Proof.Gen.Pre_finite_inputs
import proofs.«126670_j49074296324140_2_alg».proof.Proof.KernelRunIdeal
import proofs.«126670_j49074296324140_2_alg».proof.Proof.KernelArgsIdeal
import proofs.«126670_j49074296324140_2_alg».proof.Proof.KernelValueIdeal
import proofs.«126670_j49074296324140_2_alg».proof.Proof.FinPre
import proofs.«126670_j49074296324140_2_alg».proof.Proof.RefRun
import proofs.«126670_j49074296324140_2_alg».proof.Proof.RefRead
import proofs.«126670_j49074296324140_2_alg».proof.Proof.KernelBridge

noncomputable section

namespace Cert.Proof.Alg

open Idealize.ShloMosaic Idealize.ShloMosaic.TcCoe Idealize.SL.Sem

/-- The reference's term of a memory that agrees with the kernel program's on the arguments is the kernel program's
    last result contents. -/
theorem result_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Hand.refTerm (F := Ideal) m' c
      = Cert.KernelIdeal.Hand.W22 (F := Ideal) m g c (Proc.devRef .tc Cert.KernelIdeal.main_v170) := by
  obtain ⟨e0, e1, e2, e3, e4, e5, e6, e7, e8, e9, e10, e11, e12, e13, e14, e15⟩ := hagree
  refine (Cert.ReferenceIdeal.Hand.refTerm_eq m' c).trans ?_
  rw [e0, e1, e2, e3, e4, e5, e6, e7, e8, e9, e10, e11, e12, e13, e14, e15]
  refine (Cert.KernelIdeal.KSpec.net_eq_ref _ _ _ _ _ _ _ _ _ _ _ _ _ _ _ _
    (Cert.KernelIdeal.Finite.finite_arg0 m hpre c) (Cert.KernelIdeal.Finite.finite_arg6 m hpre c) (Cert.KernelIdeal.Finite.finite_arg7 m hpre c) (Cert.KernelIdeal.Finite.finite_arg8 m hpre c) (Cert.KernelIdeal.Finite.finite_arg9 m hpre c) (Cert.KernelIdeal.Finite.finite_arg10 m hpre c) (Cert.KernelIdeal.Finite.finite_arg11 m hpre c) (Cert.KernelIdeal.Finite.finite_arg12 m hpre c) (Cert.KernelIdeal.Finite.finite_arg13 m hpre c) (Cert.KernelIdeal.Finite.finite_arg14 m hpre c) (Cert.KernelIdeal.Finite.finite_arg15 m hpre c)).symm.trans ?_
  exact (Cert.KernelIdeal.Hand.kernelValue m g c).symm

/-- The algebraic claim: both idealized programs run, end with equal results and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => Cert.KernelIdeal.Hand.W22 (F := Ideal) m g c (Proc.devRef .tc Cert.KernelIdeal.main_v170), ?_, ?_⟩
  · exact (θ_run (Cert.KernelIdeal.defs (F := Ideal)) _ _).mono (fun r h c =>
      ⟨h c _ (Cert.KernelIdeal.Hand.in_unscoped Cert.KernelIdeal.main_v170 (by decide)),
       (h c _ (Cert.KernelIdeal.Hand.in_unscoped Cert.KernelIdeal.main_arg0 (by decide))).trans (Cert.KernelIdeal.Hand.kept_arg0 (F := Ideal) m g c),
       (h c _ (Cert.KernelIdeal.Hand.in_unscoped Cert.KernelIdeal.main_arg1 (by decide))).trans (Cert.KernelIdeal.Hand.kept_arg1 (F := Ideal) m g c),
       (h c _ (Cert.KernelIdeal.Hand.in_unscoped Cert.KernelIdeal.main_arg2 (by decide))).trans (Cert.KernelIdeal.Hand.kept_arg2 (F := Ideal) m g c),
       (h c _ (Cert.KernelIdeal.Hand.in_unscoped Cert.KernelIdeal.main_arg3 (by decide))).trans (Cert.KernelIdeal.Hand.kept_arg3 (F := Ideal) m g c),
       (h c _ (Cert.KernelIdeal.Hand.in_unscoped Cert.KernelIdeal.main_arg4 (by decide))).trans (Cert.KernelIdeal.Hand.kept_arg4 (F := Ideal) m g c),
       (h c _ (Cert.KernelIdeal.Hand.in_unscoped Cert.KernelIdeal.main_arg5 (by decide))).trans (Cert.KernelIdeal.Hand.kept_arg5 (F := Ideal) m g c),
       (h c _ (Cert.KernelIdeal.Hand.in_unscoped Cert.KernelIdeal.main_arg6 (by decide))).trans (Cert.KernelIdeal.Hand.kept_arg6 (F := Ideal) m g c),
       (h c _ (Cert.KernelIdeal.Hand.in_unscoped Cert.KernelIdeal.main_arg7 (by decide))).trans (Cert.KernelIdeal.Hand.kept_arg7 (F := Ideal) m g c),
       (h c _ (Cert.KernelIdeal.Hand.in_unscoped Cert.KernelIdeal.main_arg8 (by decide))).trans (Cert.KernelIdeal.Hand.kept_arg8 (F := Ideal) m g c),
       (h c _ (Cert.KernelIdeal.Hand.in_unscoped Cert.KernelIdeal.main_arg9 (by decide))).trans (Cert.KernelIdeal.Hand.kept_arg9 (F := Ideal) m g c),
       (h c _ (Cert.KernelIdeal.Hand.in_unscoped Cert.KernelIdeal.main_arg10 (by decide))).trans (Cert.KernelIdeal.Hand.kept_arg10 (F := Ideal) m g c),
       (h c _ (Cert.KernelIdeal.Hand.in_unscoped Cert.KernelIdeal.main_arg11 (by decide))).trans (Cert.KernelIdeal.Hand.kept_arg11 (F := Ideal) m g c),
       (h c _ (Cert.KernelIdeal.Hand.in_unscoped Cert.KernelIdeal.main_arg12 (by decide))).trans (Cert.KernelIdeal.Hand.kept_arg12 (F := Ideal) m g c),
       (h c _ (Cert.KernelIdeal.Hand.in_unscoped Cert.KernelIdeal.main_arg13 (by decide))).trans (Cert.KernelIdeal.Hand.kept_arg13 (F := Ideal) m g c),
       (h c _ (Cert.KernelIdeal.Hand.in_unscoped Cert.KernelIdeal.main_arg14 (by decide))).trans (Cert.KernelIdeal.Hand.kept_arg14 (F := Ideal) m g c),
       (h c _ (Cert.KernelIdeal.Hand.in_unscoped Cert.KernelIdeal.main_arg15 (by decide))).trans (Cert.KernelIdeal.Hand.kept_arg15 (F := Ideal) m g c)⟩)
      (Cert.KernelIdeal.Hand.runAll (F := Ideal) m g)
  · exact (θ_run (Cert.ReferenceIdeal.defs (F := Ideal)) _ _).mono (fun r h c =>
      ⟨(h c).1.trans (result_eq m g m' hpre c (hagree c)), (h c).2⟩)
      (Cert.ReferenceIdeal.Hand.run (F := Ideal) m' g')

end Cert.Proof.Alg

end
-- ==== Proof.lean ====
/-
  The five claims. Both kernel programs are the same six-region text read at two float instances, and one run
  theorem serves both: every weakly fair execution terminates with every unscoped buffer at the contents folded
  through the eleven host stretches and six regions; no item writes an argument array, which is the two kernel
  frames. The reference is a straight line of host operations, whose run gives its frame. The idealizing pass
  rewrote nothing, so preservation asks nothing. The value claim: at the exact instance both programs compute,
  layer by layer, the signs of an affine image of the previous layer's products with sign weights, normalized by
  the batch mean and variance of those products, and a row softmax at the end; the kernel spells the variance as
  the mean of squares less the square of the mean and folds the normalization into one multiply and one add, which
  over finite inputs is the reference's centred form.
-/
import proofs.«126670_j49074296324140_2_alg».proof.Defs
import proofs.«126670_j49074296324140_2_alg».proof.Proof.Gen.Kernel
import proofs.«126670_j49074296324140_2_alg».proof.Proof.Gen.KernelIdeal
import proofs.«126670_j49074296324140_2_alg».proof.Proof.Gen.ReferenceIdeal
import proofs.«126670_j49074296324140_2_alg».proof.Proof.Gen.Pre_finite_inputs
import proofs.«126670_j49074296324140_2_alg».proof.Proof.KernelArgsBits
import proofs.«126670_j49074296324140_2_alg».proof.Proof.KernelArgsIdeal
import proofs.«126670_j49074296324140_2_alg».proof.Proof.RefFrame
import proofs.«126670_j49074296324140_2_alg».proof.Proof.Algebraic

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frameAll (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frameAll (F := Ideal) m ρ

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.Hand.frame_ri, preserves, Cert.Proof.Alg.algebraic⟩

end Cert.Proof

end
